-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v443)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v443) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v513) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x128 : Shape := ⟨2, ![262144, 128]⟩
abbrev S4x128x128 : Shape := ⟨3, ![4, 128, 128]⟩
abbrev S4x128 : Shape := ⟨2, ![4, 128]⟩
abbrev S128x256 : Shape := ⟨2, ![128, 256]⟩
abbrev S256 : Shape := ⟨1, ![256]⟩
abbrev S256x10 : Shape := ⟨2, ![256, 10]⟩
abbrev S10 : Shape := ⟨1, ![10]⟩
abbrev S2x2097152 : Shape := ⟨2, ![2, 2097152]⟩
abbrev S2x32768 : Shape := ⟨2, ![2, 32768]⟩
abbrev S262144 : Shape := ⟨1, ![262144]⟩
abbrev S16 : Shape := ⟨1, ![16]⟩
abbrev S2048 : Shape := ⟨1, ![2048]⟩
abbrev S_ : Shape := ⟨0, ![]⟩

class Facts : Prop where
  bcast_S_S262144x128 : S_.BroadcastsInDim S262144x128 (![] : Fin 0 → Fin S262144x128.rank)
  reducesTo_S262144x128_S_d0_1 : S262144x128.ReducesTo [0, 1] S_
  h_S_ : 0 < S_.numel
  bcast_S_S4x128x128 : S_.BroadcastsInDim S4x128x128 (![] : Fin 0 → Fin S4x128x128.rank)
  reducesTo_S4x128x128_S_d0_1_2 : S4x128x128.ReducesTo [0, 1, 2] S_
  bcast_S_S4x128 : S_.BroadcastsInDim S4x128 (![] : Fin 0 → Fin S4x128.rank)
  reducesTo_S4x128_S_d0_1 : S4x128.ReducesTo [0, 1] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x10 : S_.BroadcastsInDim S256x10 (![] : Fin 0 → Fin S256x10.rank)
  reducesTo_S256x10_S_d0_1 : S256x10.ReducesTo [0, 1] S_
  bcast_S_S10 : S_.BroadcastsInDim S10 (![] : Fin 0 → Fin S10.rank)
  reducesTo_S10_S_d0 : S10.ReducesTo [0] S_

variable [Facts]

def fn_part4 {F : FTy → Type} [FloatOps F] (main_arg14 : FVec F S10 .f32) (main_v63 : IVec S_ 1) (main_v67 : IVec S_ 1) : IVec S_ 1 :=
  let main_v68 : IVec S_ 1 := andi main_v63 main_v67
  let main_v69 : FVec F S10 .f32 := Host.absf main_arg14
  let main_cst_26 : FVec F S_ .f32 := constant S_ .f32 0x7F800000#32
  let main_v70 : FVec F S10 .f32 := broadcastInDim S10 ![] bcast_S_S10 main_cst_26
  let main_v71 : IVec S10 1 := cmpf .olt main_v69 main_v70
  let main_c_27 : IVec S_ 1 := constantI S_ 1 1#1
  let main_v72 : IVec S_ 1 := (fun x v => Host.reduce IntOp.andi x v reducesTo_S10_S_d0 h_S_) main_v71 main_c_27
  let main_v73 : IVec S_ 1 := andi main_v68 main_v72
  main_v73

def fn_part3 {F : FTy → Type} [FloatOps F] (main_arg11 : FVec F S128x256 .f32) (main_arg12 : FVec F S256 .f32) (main_arg13 : FVec F S256x10 .f32) (main_arg14 : FVec F S10 .f32) (main_v48 : IVec S_ 1) (main_v49 : FVec F S4x128 .f32) (main_v50 : FVec F S4x128 .f32) : IVec S_ 1 :=
  let main_v51 : IVec S4x128 1 := cmpf .olt main_v49 main_v50
  let main_c_19 : IVec S_ 1 := constantI S_ 1 1#1
  let main_v52 : IVec S_ 1 := (fun x v => Host.reduce IntOp.andi x v reducesTo_S4x128_S_d0_1 h_S_) main_v51 main_c_19
  let main_v53 : IVec S_ 1 := andi main_v48 main_v52
  let main_v54 : FVec F S128x256 .f32 := Host.absf main_arg11
  let main_cst_20 : FVec F S_ .f32 := constant S_ .f32 0x7F800000#32
  let main_v55 : FVec F S128x256 .f32 := broadcastInDim S128x256 ![] bcast_S_S128x256 main_cst_20
  let main_v56 : IVec S128x256 1 := cmpf .olt main_v54 main_v55
  let main_c_21 : IVec S_ 1 := constantI S_ 1 1#1
  let main_v57 : IVec S_ 1 := (fun x v => Host.reduce IntOp.andi x v reducesTo_S128x256_S_d0_1 h_S_) main_v56 main_c_21
  let main_v58 : IVec S_ 1 := andi main_v53 main_v57
  let main_v59 : FVec F S256 .f32 := Host.absf main_arg12
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  let main_v64 : FVec F S256x10 .f32 := Host.absf main_arg13
  let main_cst_24 : FVec F S_ .f32 := constant S_ .f32 0x7F800000#32
  let main_v65 : FVec F S256x10 .f32 := broadcastInDim S256x10 ![] bcast_S_S256x10 main_cst_24
  let main_v66 : IVec S256x10 1 := cmpf .olt main_v64 main_v65
  let main_c_25 : IVec S_ 1 := constantI S_ 1 1#1
  let main_v67 : IVec S_ 1 := (fun x v => Host.reduce IntOp.andi x v reducesTo_S256x10_S_d0_1 h_S_) main_v66 main_c_25
  fn_part4 (F := F) main_arg14 main_v63 main_v67

def fn_part2 {F : FTy → Type} [FloatOps F] (main_arg7 : FVec F S4x128x128 .f32) (main_arg8 : FVec F S4x128 .f32) (main_arg9 : FVec F S4x128 .f32) (main_arg10 : FVec F S4x128 .f32) (main_arg11 : FVec F S128x256 .f32) (main_arg12 : FVec F S256 .f32) (main_arg13 : FVec F S256x10 .f32) (main_arg14 : FVec F S10 .f32) (main_v33 : IVec S_ 1) : IVec S_ 1 :=
  let main_v34 : FVec F S4x128x128 .f32 := Host.absf main_arg7
  let main_cst_12 : FVec F S_ .f32 := constant S_ .f32 0x7F800000#32
  let main_v35 : FVec F S4x128x128 .f32 := broadcastInDim S4x128x128 ![] bcast_S_S4x128x128 main_cst_12
  let main_v36 : IVec S4x128x128 1 := cmpf .olt main_v34 main_v35
  let main_c_13 : IVec S_ 1 := constantI S_ 1 1#1
  let main_v37 : IVec S_ 1 := (fun x v => Host.reduce IntOp.andi x v reducesTo_S4x128x128_S_d0_1_2 h_S_) main_v36 main_c_13
  let main_v38 : IVec S_ 1 := andi main_v33 main_v37
  let main_v39 : FVec F S4x128 .f32 := Host.absf main_arg8
  let main_cst_14 : FVec F S_ .f32 := constant S_ .f32 0x7F800000#32
  let main_v40 : FVec F S4x128 .f32 := broadcastInDim S4x128 ![] bcast_S_S4x128 main_cst_14
  let main_v41 : IVec S4x128 1 := cmpf .olt main_v39 main_v40
  let main_c_15 : IVec S_ 1 := constantI S_ 1 1#1
  let main_v42 : IVec S_ 1 := (fun x v => Host.reduce IntOp.andi x v reducesTo_S4x128_S_d0_1 h_S_) main_v41 main_c_15
  let main_v43 : IVec S_ 1 := andi main_v38 main_v42
  let main_v44 : FVec F S4x128 .f32 := Host.absf main_arg9
  let main_cst_16 : FVec F S_ .f32 := constant S_ .f32 0x7F800000#32
  let main_v45 : FVec F S4x128 .f32 := broadcastInDim S4x128 ![] bcast_S_S4x128 main_cst_16
  let main_v46 : IVec S4x128 1 := cmpf .olt main_v44 main_v45
  let main_c_17 : IVec S_ 1 := constantI S_ 1 1#1
  let main_v47 : IVec S_ 1 := (fun x v => Host.reduce IntOp.andi x v reducesTo_S4x128_S_d0_1 h_S_) main_v46 main_c_17
  let main_v48 : IVec S_ 1 := andi main_v43 main_v47
  let main_v49 : FVec F S4x128 .f32 := Host.absf main_arg10
  let main_cst_18 : FVec F S_ .f32 := constant S_ .f32 0x7F800000#32
  let main_v50 : FVec F S4x128 .f32 := broadcastInDim S4x128 ![] bcast_S_S4x128 main_cst_18
  fn_part3 (F := F) main_arg11 main_arg12 main_arg13 main_arg14 main_v48 main_v49 main_v50

def fn_part1 {F : FTy → Type} [FloatOps F] (main_arg4 : FVec F S4x128 .f32) (main_arg5 : FVec F S4x128 .f32) (main_arg6 : FVec F S4x128x128 .f32) (main_arg7 : FVec F S4x128x128 .f32) (main_arg8 : FVec F S4x128 .f32) (main_arg9 : FVec F S4x128 .f32) (main_arg10 : FVec F S4x128 .f32) (main_arg11 : FVec F S128x256 .f32) (main_arg12 : FVec F S256 .f32) (main_arg13 : FVec F S256x10 .f32) (main_arg14 : FVec F S10 .f32) (main_v13 : IVec S_ 1) (main_v16 : IVec S4x128 1) : IVec S_ 1 :=
  let main_c_5 : IVec S_ 1 := constantI S_ 1 1#1
  let main_v17 : IVec S_ 1 := (fun x v => Host.reduce IntOp.andi x v reducesTo_S4x128_S_d0_1 h_S_) main_v16 main_c_5
  let main_v18 : IVec S_ 1 := andi main_v13 main_v17
  let main_v19 : FVec F S4x128 .f32 := Host.absf main_arg4
  let main_cst_6 : FVec F S_ .f32 := constant S_ .f32 0x7F800000#32
  let main_v20 : FVec F S4x128 .f32 := broadcastInDim S4x128 ![] bcast_S_S4x128 main_cst_6
  let main_v21 : IVec S4x128 1 := cmpf .olt main_v19 main_v20
  let main_c_7 : IVec S_ 1 := constantI S_ 1 1#1
  let main_v22 : IVec S_ 1 := (fun x v => Host.reduce IntOp.andi x v reducesTo_S4x128_S_d0_1 h_S_) main_v21 main_c_7
  let main_v23 : IVec S_ 1 := andi main_v18 main_v22
  let main_v24 : FVec F S4x128 .f32 := Host.absf main_arg5
  let main_cst_8 : FVec F S_ .f32 := constant S_ .f32 0x7F800000#32
  let main_v25 : FVec F S4x128 .f32 := broadcastInDim S4x128 ![] bcast_S_S4x128 main_cst_8
  let main_v26 : IVec S4x128 1 := cmpf .olt main_v24 main_v25
  let main_c_9 : IVec S_ 1 := constantI S_ 1 1#1
  let main_v27 : IVec S_ 1 := (fun x v => Host.reduce IntOp.andi x v reducesTo_S4x128_S_d0_1 h_S_) main_v26 main_c_9
  let main_v28 : IVec S_ 1 := andi main_v23 main_v27
  let main_v29 : FVec F S4x128x128 .f32 := Host.absf main_arg6
  let main_cst_10 : FVec F S_ .f32 := constant S_ .f32 0x7F800000#32
  let main_v30 : FVec F S4x128x128 .f32 := broadcastInDim S4x128x128 ![] bcast_S_S4x128x128 main_cst_10
  let main_v31 : IVec S4x128x128 1 := cmpf .olt main_v29 main_v30
  let main_c_11 : IVec S_ 1 := constantI S_ 1 1#1
  let main_v32 : IVec S_ 1 := (fun x v => Host.reduce IntOp.andi x v reducesTo_S4x128x128_S_d0_1_2 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S262144x128 .f32) (main_arg1 : FVec F S4x128x128 .f32) (main_arg2 : FVec F S4x128x128 .f32) (main_arg3 : FVec F S4x128 .f32) (main_arg4 : FVec F S4x128 .f32) (main_arg5 : FVec F S4x128 .f32) (main_arg6 : FVec F S4x128x128 .f32) (main_arg7 : FVec F S4x128x128 .f32) (main_arg8 : FVec F S4x128 .f32) (main_arg9 : FVec F S4x128 .f32) (main_arg10 : FVec F S4x128 .f32) (main_arg11 : FVec F S128x256 .f32) (main_arg12 : FVec F S256 .f32) (main_arg13 : FVec F S256x10 .f32) (main_arg14 : FVec F S10 .f32) (main_arg15 : IVec S2x2097152 32) (main_arg16 : IVec S2x32768 32) (main_arg17 : IVec S262144 32) (main_arg18 : IVec S262144 32) (main_arg19 : IVec S262144 32) (main_arg20 : IVec S16 32) (main_arg21 : IVec S2048 32) : IVec S_ 1 :=
  let main_v0 : FVec F S262144x128 .f32 := Host.absf main_arg0
  let main_cst : FVec F S_ .f32 := constant S_ .f32 0x7F800000#32
  let main_v1 : FVec F S262144x128 .f32 := broadcastInDim S262144x128 ![] bcast_S_S262144x128 main_cst
  let main_v2 : IVec S262144x128 1 := cmpf .olt main_v0 main_v1
  let main_c : IVec S_ 1 := constantI S_ 1 1#1
  let main_v3 : IVec S_ 1 := (fun x v => Host.reduce IntOp.andi x v reducesTo_S262144x128_S_d0_1 h_S_) main_v2 main_c
  let main_v4 : FVec F S4x128x128 .f32 := Host.absf main_arg1
  let main_cst_0 : FVec F S_ .f32 := constant S_ .f32 0x7F800000#32
  let main_v5 : FVec F S4x128x128 .f32 := broadcastInDim S4x128x128 ![] bcast_S_S4x128x128 main_cst_0
  let main_v6 : IVec S4x128x128 1 := cmpf .olt main_v4 main_v5
  let main_c_1 : IVec S_ 1 := constantI S_ 1 1#1
  let main_v7 : IVec S_ 1 := (fun x v => Host.reduce IntOp.andi x v reducesTo_S4x128x128_S_d0_1_2 h_S_) main_v6 main_c_1
  let main_v8 : IVec S_ 1 := andi main_v3 main_v7
  let main_v9 : FVec F S4x128x128 .f32 := Host.absf main_arg2
  let main_cst_2 : FVec F S_ .f32 := constant S_ .f32 0x7F800000#32
  let main_v10 : FVec F S4x128x128 .f32 := broadcastInDim S4x128x128 ![] bcast_S_S4x128x128 main_cst_2
  let main_v11 : IVec S4x128x128 1 := cmpf .olt main_v9 main_v10
  let main_c_3 : IVec S_ 1 := constantI S_ 1 1#1
  let main_v12 : IVec S_ 1 := (fun x v => Host.reduce IntOp.andi x v reducesTo_S4x128x128_S_d0_1_2 h_S_) main_v11 main_c_3
  let main_v13 : IVec S_ 1 := andi main_v8 main_v12
  let main_v14 : FVec F S4x128 .f32 := Host.absf main_arg3
  let main_cst_4 : FVec F S_ .f32 := constant S_ .f32 0x7F800000#32
  let main_v15 : FVec F S4x128 .f32 := broadcastInDim S4x128 ![] bcast_S_S4x128 main_cst_4
  let main_v16 : IVec S4x128 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S262144x128 : Shape := ⟨2, ![262144, 128]⟩
abbrev S4x128x128 : Shape := ⟨3, ![4, 128, 128]⟩
abbrev S4x128 : Shape := ⟨2, ![4, 128]⟩
abbrev S128x256 : Shape := ⟨2, ![128, 256]⟩
abbrev S256 : Shape := ⟨1, ![256]⟩
abbrev S256x10 : Shape := ⟨2, ![256, 10]⟩
abbrev S10 : Shape := ⟨1, ![10]⟩
abbrev S2x2097152 : Shape := ⟨2, ![2, 2097152]⟩
abbrev S2x32768 : Shape := ⟨2, ![2, 32768]⟩
abbrev S262144 : Shape := ⟨1, ![262144]⟩
abbrev S16 : Shape := ⟨1, ![16]⟩
abbrev S2048 : Shape := ⟨1, ![2048]⟩
abbrev S_ : Shape := ⟨0, ![]⟩
abbrev S1 : Shape := ⟨1, ![1]⟩
abbrev S17 : Shape := ⟨1, ![17]⟩
abbrev S262144x1 : Shape := ⟨2, ![262144, 1]⟩
abbrev S1x2097152 : Shape := ⟨2, ![1, 2097152]⟩
abbrev S2097152 : Shape := ⟨1, ![2097152]⟩
abbrev S2097152x1 : Shape := ⟨2, ![2097152, 1]⟩
abbrev S2097152x128 : Shape := ⟨2, ![2097152, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S8192x128 : Shape := ⟨2, ![8192, 128]⟩
abbrev S2048x128 : Shape := ⟨2, ![2048, 128]⟩
abbrev S2048x1 : Shape := ⟨2, ![2048, 1]⟩
abbrev S1x32768 : Shape := ⟨2, ![1, 32768]⟩
abbrev S32768 : Shape := ⟨1, ![32768]⟩
abbrev S32768x1 : Shape := ⟨2, ![32768, 1]⟩
abbrev S32768x128 : Shape := ⟨2, ![32768, 128]⟩
abbrev S16x128 : Shape := ⟨2, ![16, 128]⟩
abbrev S16x1 : Shape := ⟨2, ![16, 1]⟩
abbrev S1x256 : Shape := ⟨2, ![1, 256]⟩
abbrev S1x10 : Shape := ⟨2, ![1, 10]⟩
abbrev S16x10 : Shape := ⟨2, ![16, 10]⟩
abbrev S16x256 : Shape := ⟨2, ![16, 256]⟩

abbrev nBuf : Space → Nat
  | .hbm => 723
  | .vmem => 82
  | .smem => 0
  | _ => 0

abbrev hbmTy0_0 (i : Nat) : BufTy := match i % 128 with
  | 0 => ⟨S262144x128, .f32⟩
  | 1 => ⟨S4x128x128, .f32⟩
  | 2 => ⟨S4x128x128, .f32⟩
  | 3 => ⟨S4x128, .f32⟩
  | 4 => ⟨S4x128, .f32⟩
  | 5 => ⟨S4x128, .f32⟩
  | 6 => ⟨S4x128x128, .f32⟩
  | 7 => ⟨S4x128x128, .f32⟩
  | 8 => ⟨S4x128, .f32⟩
  | 9 => ⟨S4x128, .f32⟩
  | 10 => ⟨S4x128, .f32⟩
  | 11 => ⟨S128x256, .f32⟩
  | 12 => ⟨S256, .f32⟩
  | 13 => ⟨S256x10, .f32⟩
  | 14 => ⟨S10, .f32⟩
  | 15 => ⟨S2x2097152, .i32⟩
  | 16 => ⟨S2x32768, .i32⟩
  | 17 => ⟨S262144, .i32⟩
  | 18 => ⟨S262144, .i32⟩
  | 19 => ⟨S262144, .i32⟩
  | 20 => ⟨S16, .i32⟩
  | 21 => ⟨S2048, .i32⟩
  | 22 => ⟨S_, .i32⟩
  | 23 => ⟨S1, .i32⟩
  | 24 => ⟨S_, .i32⟩
  | 25 => ⟨S_, .i32⟩
  | 26 => ⟨S16, .i32⟩
  | 27 => ⟨S17, .i32⟩
  | 28 => ⟨S_, .i32⟩
  | 29 => ⟨S262144, .i32⟩
  | 30 => ⟨S262144, .i1⟩
  | 31 => ⟨S_, .i32⟩
  | 32 => ⟨S262144, .i32⟩
  | 33 => ⟨S262144, .i32⟩
  | 34 => ⟨S262144, .i32⟩
  | 35 => ⟨S262144x1, .i32⟩
  | 36 => ⟨S262144, .i32⟩
  | 37 => ⟨S262144, .i32⟩
  | 38 => ⟨S1x2097152, .i32⟩
  | 39 => ⟨S2097152, .i32⟩
  | 40 => ⟨S_, .i32⟩
  | 41 => ⟨S2097152, .i32⟩
  | 42 => ⟨S2097152, .i1⟩
  | 43 => ⟨S_, .i32⟩
  | 44 => ⟨S2097152, .i32⟩
  | 45 => ⟨S2097152, .i32⟩
  | 46 => ⟨S2097152, .i32⟩
  | 47 => ⟨S2097152x1, .i32⟩
  | 48 => ⟨S2097152x128, .f32⟩
  | 49 => ⟨S1x2097152, .i32⟩
  | 50 => ⟨S2097152, .i32⟩
  | 51 => ⟨S_, .f32⟩
  | 52 => ⟨S262144x128, .f32⟩
  | 53 => ⟨S2097152x1, .i32⟩
  | 54 => ⟨S262144x128, .f32⟩
  | 55 => ⟨S1x128x128, .f32⟩
  | 56 => ⟨S128x128, .f32⟩
  | 57 => ⟨S1x128x128, .f32⟩
  | 58 => ⟨S128x128, .f32⟩
  | 59 => ⟨S1x128, .f32⟩
  | 60 => ⟨S128, .f32⟩
  | 61 => ⟨S1x128, .f32⟩
  | 62 => ⟨S262144x128, .f32⟩
  | 63 => ⟨S_, .f32⟩
  | 64 => ⟨S128, .f32⟩
  | 65 => ⟨S_, .f32⟩
  | 66 => ⟨S128, .f32⟩
  | 67 => ⟨S128, .f32⟩
  | 68 => ⟨S_, .i32⟩
  | 69 => ⟨S_, .f32⟩
  | 70 => ⟨S128, .f32⟩
  | 71 => ⟨S1x128, .f32⟩
  | 72 => ⟨S_, .f32⟩
  | 73 => ⟨S1x128, .f32⟩
  | 74 => ⟨S1x128, .f32⟩
  | 75 => ⟨S262144x128, .f32⟩
  | 76 => ⟨S262144x128, .f32⟩
  | 77 => ⟨S262144x128, .f32⟩
  | 78 => ⟨S_, .f32⟩
  | 79 => ⟨S_, .f32⟩
  | 80 => ⟨S_, .f32⟩
  | 81 => ⟨S_, .f32⟩
  | 82 => ⟨S128, .f32⟩
  | 83 => ⟨S128, .f32⟩
  | 84 => ⟨S128, .f32⟩
  | 85 => ⟨S_, .f32⟩
  | 86 => ⟨S_, .i1⟩
  | 87 => ⟨S_, .f32⟩
  | 88 => ⟨S_, .f32⟩
  | 89 => ⟨S128, .f32⟩
  | 90 => ⟨S128, .f32⟩
  | 91 => ⟨S_, .f32⟩
  | 92 => ⟨S2048x128, .f32⟩
  | 93 => ⟨S262144x1, .i32⟩
  | 94 => ⟨S2048x128, .f32⟩
  | 95 => ⟨S_, .f32⟩
  | 96 => ⟨S262144x1, .f32⟩
  | 97 => ⟨S_, .f32⟩
  | 98 => ⟨S2048x1, .f32⟩
  | 99 => ⟨S262144x1, .i32⟩
  | 100 => ⟨S2048x1, .f32⟩
  | 101 => ⟨S_, .f32⟩
  | 102 => ⟨S2048x1, .f32⟩
  | 103 => ⟨S2048x1, .f32⟩
  | 104 => ⟨S2048x128, .f32⟩
  | 105 => ⟨S2048x128, .f32⟩
  | 106 => ⟨S1x32768, .i32⟩
  | 107 => ⟨S32768, .i32⟩
  | 108 => ⟨S_, .i32⟩
  | 109 => ⟨S32768, .i32⟩
  | 110 => ⟨S32768, .i1⟩
  | 111 => ⟨S_, .i32⟩
  | 112 => ⟨S32768, .i32⟩
  | 113 => ⟨S32768, .i32⟩
  | 114 => ⟨S32768, .i32⟩
  | 115 => ⟨S32768x1, .i32⟩
  | 116 => ⟨S32768x128, .f32⟩
  | 117 => ⟨S1x32768, .i32⟩
  | 118 => ⟨S32768, .i32⟩
  | 119 => ⟨S_, .f32⟩
  | 120 => ⟨S2048x128, .f32⟩
  | 121 => ⟨S32768x1, .i32⟩
  | 122 => ⟨S2048x128, .f32⟩
  | 123 => ⟨S1x128x128, .f32⟩
  | 124 => ⟨S128x128, .f32⟩
  | 125 => ⟨S2048x128, .f32⟩
  | 126 => ⟨S1x128x128, .f32⟩
  | 127 => ⟨S128x128, .f32⟩
  | _ => ⟨S262144x128, .f32⟩

abbrev hbmTy0_1 (i : Nat) : BufTy := match i % 128 with
  | 0 => ⟨S2048x128, .f32⟩
  | 1 => ⟨S2048x128, .f32⟩
  | 2 => ⟨S1x128, .f32⟩
  | 3 => ⟨S128, .f32⟩
  | 4 => ⟨S1x128, .f32⟩
  | 5 => ⟨S2048x128, .f32⟩
  | 6 => ⟨S2048x128, .f32⟩
  | 7 => ⟨S_, .f32⟩
  | 8 => ⟨S128, .f32⟩
  | 9 => ⟨S_, .f32⟩
  | 10 => ⟨S128, .f32⟩
  | 11 => ⟨S128, .f32⟩
  | 12 => ⟨S_, .i32⟩
  | 13 => ⟨S_, .f32⟩
  | 14 => ⟨S128, .f32⟩
  | 15 => ⟨S1x128, .f32⟩
  | 16 => ⟨S_, .f32⟩
  | 17 => ⟨S1x128, .f32⟩
  | 18 => ⟨S1x128, .f32⟩
  | 19 => ⟨S2048x128, .f32⟩
  | 20 => ⟨S2048x128, .f32⟩
  | 21 => ⟨S2048x128, .f32⟩
  | 22 => ⟨S_, .f32⟩
  | 23 => ⟨S_, .f32⟩
  | 24 => ⟨S_, .f32⟩
  | 25 => ⟨S_, .f32⟩
  | 26 => ⟨S128, .f32⟩
  | 27 => ⟨S128, .f32⟩
  | 28 => ⟨S128, .f32⟩
  | 29 => ⟨S_, .f32⟩
  | 30 => ⟨S_, .i1⟩
  | 31 => ⟨S_, .f32⟩
  | 32 => ⟨S_, .f32⟩
  | 33 => ⟨S128, .f32⟩
  | 34 => ⟨S128, .f32⟩
  | 35 => ⟨S1x128, .f32⟩
  | 36 => ⟨S2048x128, .f32⟩
  | 37 => ⟨S2048x128, .f32⟩
  | 38 => ⟨S_, .f32⟩
  | 39 => ⟨S128, .f32⟩
  | 40 => ⟨S128, .f32⟩
  | 41 => ⟨S128, .f32⟩
  | 42 => ⟨S1x128, .f32⟩
  | 43 => ⟨S2048x128, .f32⟩
  | 44 => ⟨S2048x128, .f32⟩
  | 45 => ⟨S1x128, .f32⟩
  | 46 => ⟨S128, .f32⟩
  | 47 => ⟨S1x128, .f32⟩
  | 48 => ⟨S2048x128, .f32⟩
  | 49 => ⟨S2048x128, .f32⟩
  | 50 => ⟨S1x128, .f32⟩
  | 51 => ⟨S128, .f32⟩
  | 52 => ⟨S1x128, .f32⟩
  | 53 => ⟨S2048x128, .f32⟩
  | 54 => ⟨S2048x128, .f32⟩
  | 55 => ⟨S_, .i32⟩
  | 56 => ⟨S262144, .i32⟩
  | 57 => ⟨S262144, .i1⟩
  | 58 => ⟨S_, .i32⟩
  | 59 => ⟨S262144, .i32⟩
  | 60 => ⟨S262144, .i32⟩
  | 61 => ⟨S262144, .i32⟩
  | 62 => ⟨S262144x1, .i32⟩
  | 63 => ⟨S262144x128, .f32⟩
  | 64 => ⟨S1x128, .f32⟩
  | 65 => ⟨S128, .f32⟩
  | 66 => ⟨S1x128, .f32⟩
  | 67 => ⟨S128, .f32⟩
  | 68 => ⟨S1x128, .f32⟩
  | 69 => ⟨S1x128, .f32⟩
  | 70 => ⟨S1x128, .f32⟩
  | 71 => ⟨S1x128, .f32⟩
  | 72 => ⟨S262144x128, .f32⟩
  | 73 => ⟨S1x2097152, .i32⟩
  | 74 => ⟨S2097152, .i32⟩
  | 75 => ⟨S_, .i32⟩
  | 76 => ⟨S2097152, .i32⟩
  | 77 => ⟨S2097152, .i1⟩
  | 78 => ⟨S_, .i32⟩
  | 79 => ⟨S2097152, .i32⟩
  | 80 => ⟨S2097152, .i32⟩
  | 81 => ⟨S2097152, .i32⟩
  | 82 => ⟨S2097152x1, .i32⟩
  | 83 => ⟨S2097152x128, .f32⟩
  | 84 => ⟨S1x2097152, .i32⟩
  | 85 => ⟨S2097152, .i32⟩
  | 86 => ⟨S_, .f32⟩
  | 87 => ⟨S262144x128, .f32⟩
  | 88 => ⟨S2097152x1, .i32⟩
  | 89 => ⟨S262144x128, .f32⟩
  | 90 => ⟨S1x128x128, .f32⟩
  | 91 => ⟨S128x128, .f32⟩
  | 92 => ⟨S1x128x128, .f32⟩
  | 93 => ⟨S128x128, .f32⟩
  | 94 => ⟨S1x128, .f32⟩
  | 95 => ⟨S128, .f32⟩
  | 96 => ⟨S1x128, .f32⟩
  | 97 => ⟨S262144x128, .f32⟩
  | 98 => ⟨S_, .f32⟩
  | 99 => ⟨S128, .f32⟩
  | 100 => ⟨S_, .f32⟩
  | 101 => ⟨S128, .f32⟩
  | 102 => ⟨S128, .f32⟩
  | 103 => ⟨S_, .i32⟩
  | 104 => ⟨S_, .f32⟩
  | 105 => ⟨S128, .f32⟩
  | 106 => ⟨S1x128, .f32⟩
  | 107 => ⟨S_, .f32⟩
  | 108 => ⟨S1x128, .f32⟩
  | 109 => ⟨S1x128, .f32⟩
  | 110 => ⟨S262144x128, .f32⟩
  | 111 => ⟨S262144x128, .f32⟩
  | 112 => ⟨S262144x128, .f32⟩
  | 113 => ⟨S_, .f32⟩
  | 114 => ⟨S_, .f32⟩
  | 115 => ⟨S_, .f32⟩
  | 116 => ⟨S_, .f32⟩
  | 117 => ⟨S128, .f32⟩
  | 118 => ⟨S128, .f32⟩
  | 119 => ⟨S128, .f32⟩
  | 120 => ⟨S_, .f32⟩
  | 121 => ⟨S_, .i1⟩
  | 122 => ⟨S_, .f32⟩
  | 123 => ⟨S_, .f32⟩
  | 124 => ⟨S128, .f32⟩
  | 125 => ⟨S128, .f32⟩
  | 126 => ⟨S_, .f32⟩
  | 127 => ⟨S2048x128, .f32⟩
  | _ => ⟨S262144x128, .f32⟩

abbrev hbmTy0_2 (i : Nat) : BufTy := match i % 128 with
  | 0 => ⟨S262144x1, .i32⟩
  | 1 => ⟨S2048x128, .f32⟩
  | 2 => ⟨S_, .f32⟩
  | 3 => ⟨S262144x1, .f32⟩
  | 4 => ⟨S_, .f32⟩
  | 5 => ⟨S2048x1, .f32⟩
  | 6 => ⟨S262144x1, .i32⟩
  | 7 => ⟨S2048x1, .f32⟩
  | 8 => ⟨S_, .f32⟩
  | 9 => ⟨S2048x1, .f32⟩
  | 10 => ⟨S2048x1, .f32⟩
  | 11 => ⟨S2048x128, .f32⟩
  | 12 => ⟨S2048x128, .f32⟩
  | 13 => ⟨S1x32768, .i32⟩
  | 14 => ⟨S32768, .i32⟩
  | 15 => ⟨S_, .i32⟩
  | 16 => ⟨S32768, .i32⟩
  | 17 => ⟨S32768, .i1⟩
  | 18 => ⟨S_, .i32⟩
  | 19 => ⟨S32768, .i32⟩
  | 20 => ⟨S32768, .i32⟩
  | 21 => ⟨S32768, .i32⟩
  | 22 => ⟨S32768x1, .i32⟩
  | 23 => ⟨S32768x128, .f32⟩
  | 24 => ⟨S1x32768, .i32⟩
  | 25 => ⟨S32768, .i32⟩
  | 26 => ⟨S_, .f32⟩
  | 27 => ⟨S2048x128, .f32⟩
  | 28 => ⟨S32768x1, .i32⟩
  | 29 => ⟨S2048x128, .f32⟩
  | 30 => ⟨S1x128x128, .f32⟩
  | 31 => ⟨S128x128, .f32⟩
  | 32 => ⟨S2048x128, .f32⟩
  | 33 => ⟨S1x128x128, .f32⟩
  | 34 => ⟨S128x128, .f32⟩
  | 35 => ⟨S2048x128, .f32⟩
  | 36 => ⟨S2048x128, .f32⟩
  | 37 => ⟨S1x128, .f32⟩
  | 38 => ⟨S128, .f32⟩
  | 39 => ⟨S1x128, .f32⟩
  | 40 => ⟨S2048x128, .f32⟩
  | 41 => ⟨S2048x128, .f32⟩
  | 42 => ⟨S_, .f32⟩
  | 43 => ⟨S128, .f32⟩
  | 44 => ⟨S_, .f32⟩
  | 45 => ⟨S128, .f32⟩
  | 46 => ⟨S128, .f32⟩
  | 47 => ⟨S_, .i32⟩
  | 48 => ⟨S_, .f32⟩
  | 49 => ⟨S128, .f32⟩
  | 50 => ⟨S1x128, .f32⟩
  | 51 => ⟨S_, .f32⟩
  | 52 => ⟨S1x128, .f32⟩
  | 53 => ⟨S1x128, .f32⟩
  | 54 => ⟨S2048x128, .f32⟩
  | 55 => ⟨S2048x128, .f32⟩
  | 56 => ⟨S2048x128, .f32⟩
  | 57 => ⟨S_, .f32⟩
  | 58 => ⟨S_, .f32⟩
  | 59 => ⟨S_, .f32⟩
  | 60 => ⟨S_, .f32⟩
  | 61 => ⟨S128, .f32⟩
  | 62 => ⟨S128, .f32⟩
  | 63 => ⟨S128, .f32⟩
  | 64 => ⟨S_, .f32⟩
  | 65 => ⟨S_, .i1⟩
  | 66 => ⟨S_, .f32⟩
  | 67 => ⟨S_, .f32⟩
  | 68 => ⟨S128, .f32⟩
  | 69 => ⟨S128, .f32⟩
  | 70 => ⟨S1x128, .f32⟩
  | 71 => ⟨S2048x128, .f32⟩
  | 72 => ⟨S2048x128, .f32⟩
  | 73 => ⟨S_, .f32⟩
  | 74 => ⟨S128, .f32⟩
  | 75 => ⟨S128, .f32⟩
  | 76 => ⟨S128, .f32⟩
  | 77 => ⟨S1x128, .f32⟩
  | 78 => ⟨S2048x128, .f32⟩
  | 79 => ⟨S2048x128, .f32⟩
  | 80 => ⟨S1x128, .f32⟩
  | 81 => ⟨S128, .f32⟩
  | 82 => ⟨S1x128, .f32⟩
  | 83 => ⟨S2048x128, .f32⟩
  | 84 => ⟨S2048x128, .f32⟩
  | 85 => ⟨S1x128, .f32⟩
  | 86 => ⟨S128, .f32⟩
  | 87 => ⟨S1x128, .f32⟩
  | 88 => ⟨S2048x128, .f32⟩
  | 89 => ⟨S2048x128, .f32⟩
  | 90 => ⟨S_, .i32⟩
  | 91 => ⟨S262144, .i32⟩
  | 92 => ⟨S262144, .i1⟩
  | 93 => ⟨S_, .i32⟩
  | 94 => ⟨S262144, .i32⟩
  | 95 => ⟨S262144, .i32⟩
  | 96 => ⟨S262144, .i32⟩
  | 97 => ⟨S262144x1, .i32⟩
  | 98 => ⟨S262144x128, .f32⟩
  | 99 => ⟨S1x128, .f32⟩
  | 100 => ⟨S128, .f32⟩
  | 101 => ⟨S1x128, .f32⟩
  | 102 => ⟨S128, .f32⟩
  | 103 => ⟨S1x128, .f32⟩
  | 104 => ⟨S1x128, .f32⟩
  | 105 => ⟨S1x128, .f32⟩
  | 106 => ⟨S1x128, .f32⟩
  | 107 => ⟨S262144x128, .f32⟩
  | 108 => ⟨S1x2097152, .i32⟩
  | 109 => ⟨S2097152, .i32⟩
  | 110 => ⟨S_, .i32⟩
  | 111 => ⟨S2097152, .i32⟩
  | 112 => ⟨S2097152, .i1⟩
  | 113 => ⟨S_, .i32⟩
  | 114 => ⟨S2097152, .i32⟩
  | 115 => ⟨S2097152, .i32⟩
  | 116 => ⟨S2097152, .i32⟩
  | 117 => ⟨S2097152x1, .i32⟩
  | 118 => ⟨S2097152x128, .f32⟩
  | 119 => ⟨S1x2097152, .i32⟩
  | 120 => ⟨S2097152, .i32⟩
  | 121 => ⟨S_, .f32⟩
  | 122 => ⟨S262144x128, .f32⟩
  | 123 => ⟨S2097152x1, .i32⟩
  | 124 => ⟨S262144x128, .f32⟩
  | 125 => ⟨S1x128x128, .f32⟩
  | 126 => ⟨S128x128, .f32⟩
  | 127 => ⟨S1x128x128, .f32⟩
  | _ => ⟨S262144x128, .f32⟩

abbrev hbmTy0_3 (i : Nat) : BufTy := match i % 128 with
  | 0 => ⟨S128x128, .f32⟩
  | 1 => ⟨S1x128, .f32⟩
  | 2 => ⟨S128, .f32⟩
  | 3 => ⟨S1x128, .f32⟩
  | 4 => ⟨S262144x128, .f32⟩
  | 5 => ⟨S_, .f32⟩
  | 6 => ⟨S128, .f32⟩
  | 7 => ⟨S_, .f32⟩
  | 8 => ⟨S128, .f32⟩
  | 9 => ⟨S128, .f32⟩
  | 10 => ⟨S_, .i32⟩
  | 11 => ⟨S_, .f32⟩
  | 12 => ⟨S128, .f32⟩
  | 13 => ⟨S1x128, .f32⟩
  | 14 => ⟨S_, .f32⟩
  | 15 => ⟨S1x128, .f32⟩
  | 16 => ⟨S1x128, .f32⟩
  | 17 => ⟨S262144x128, .f32⟩
  | 18 => ⟨S262144x128, .f32⟩
  | 19 => ⟨S262144x128, .f32⟩
  | 20 => ⟨S_, .f32⟩
  | 21 => ⟨S_, .f32⟩
  | 22 => ⟨S_, .f32⟩
  | 23 => ⟨S_, .f32⟩
  | 24 => ⟨S128, .f32⟩
  | 25 => ⟨S128, .f32⟩
  | 26 => ⟨S128, .f32⟩
  | 27 => ⟨S_, .f32⟩
  | 28 => ⟨S_, .i1⟩
  | 29 => ⟨S_, .f32⟩
  | 30 => ⟨S_, .f32⟩
  | 31 => ⟨S128, .f32⟩
  | 32 => ⟨S128, .f32⟩
  | 33 => ⟨S_, .f32⟩
  | 34 => ⟨S2048x128, .f32⟩
  | 35 => ⟨S262144x1, .i32⟩
  | 36 => ⟨S2048x128, .f32⟩
  | 37 => ⟨S_, .f32⟩
  | 38 => ⟨S262144x1, .f32⟩
  | 39 => ⟨S_, .f32⟩
  | 40 => ⟨S2048x1, .f32⟩
  | 41 => ⟨S262144x1, .i32⟩
  | 42 => ⟨S2048x1, .f32⟩
  | 43 => ⟨S_, .f32⟩
  | 44 => ⟨S2048x1, .f32⟩
  | 45 => ⟨S2048x1, .f32⟩
  | 46 => ⟨S2048x128, .f32⟩
  | 47 => ⟨S2048x128, .f32⟩
  | 48 => ⟨S1x32768, .i32⟩
  | 49 => ⟨S32768, .i32⟩
  | 50 => ⟨S_, .i32⟩
  | 51 => ⟨S32768, .i32⟩
  | 52 => ⟨S32768, .i1⟩
  | 53 => ⟨S_, .i32⟩
  | 54 => ⟨S32768, .i32⟩
  | 55 => ⟨S32768, .i32⟩
  | 56 => ⟨S32768, .i32⟩
  | 57 => ⟨S32768x1, .i32⟩
  | 58 => ⟨S32768x128, .f32⟩
  | 59 => ⟨S1x32768, .i32⟩
  | 60 => ⟨S32768, .i32⟩
  | 61 => ⟨S_, .f32⟩
  | 62 => ⟨S2048x128, .f32⟩
  | 63 => ⟨S32768x1, .i32⟩
  | 64 => ⟨S2048x128, .f32⟩
  | 65 => ⟨S1x128x128, .f32⟩
  | 66 => ⟨S128x128, .f32⟩
  | 67 => ⟨S2048x128, .f32⟩
  | 68 => ⟨S1x128x128, .f32⟩
  | 69 => ⟨S128x128, .f32⟩
  | 70 => ⟨S2048x128, .f32⟩
  | 71 => ⟨S2048x128, .f32⟩
  | 72 => ⟨S1x128, .f32⟩
  | 73 => ⟨S128, .f32⟩
  | 74 => ⟨S1x128, .f32⟩
  | 75 => ⟨S2048x128, .f32⟩
  | 76 => ⟨S2048x128, .f32⟩
  | 77 => ⟨S_, .f32⟩
  | 78 => ⟨S128, .f32⟩
  | 79 => ⟨S_, .f32⟩
  | 80 => ⟨S128, .f32⟩
  | 81 => ⟨S128, .f32⟩
  | 82 => ⟨S_, .i32⟩
  | 83 => ⟨S_, .f32⟩
  | 84 => ⟨S128, .f32⟩
  | 85 => ⟨S1x128, .f32⟩
  | 86 => ⟨S_, .f32⟩
  | 87 => ⟨S1x128, .f32⟩
  | 88 => ⟨S1x128, .f32⟩
  | 89 => ⟨S2048x128, .f32⟩
  | 90 => ⟨S2048x128, .f32⟩
  | 91 => ⟨S2048x128, .f32⟩
  | 92 => ⟨S_, .f32⟩
  | 93 => ⟨S_, .f32⟩
  | 94 => ⟨S_, .f32⟩
  | 95 => ⟨S_, .f32⟩
  | 96 => ⟨S128, .f32⟩
  | 97 => ⟨S128, .f32⟩
  | 98 => ⟨S128, .f32⟩
  | 99 => ⟨S_, .f32⟩
  | 100 => ⟨S_, .i1⟩
  | 101 => ⟨S_, .f32⟩
  | 102 => ⟨S_, .f32⟩
  | 103 => ⟨S128, .f32⟩
  | 104 => ⟨S128, .f32⟩
  | 105 => ⟨S1x128, .f32⟩
  | 106 => ⟨S2048x128, .f32⟩
  | 107 => ⟨S2048x128, .f32⟩
  | 108 => ⟨S_, .f32⟩
  | 109 => ⟨S128, .f32⟩
  | 110 => ⟨S128, .f32⟩
  | 111 => ⟨S128, .f32⟩
  | 112 => ⟨S1x128, .f32⟩
  | 113 => ⟨S2048x128, .f32⟩
  | 114 => ⟨S2048x128, .f32⟩
  | 115 => ⟨S1x128, .f32⟩
  | 116 => ⟨S128, .f32⟩
  | 117 => ⟨S1x128, .f32⟩
  | 118 => ⟨S2048x128, .f32⟩
  | 119 => ⟨S2048x128, .f32⟩
  | 120 => ⟨S1x128, .f32⟩
  | 121 => ⟨S128, .f32⟩
  | 122 => ⟨S1x128, .f32⟩
  | 123 => ⟨S2048x128, .f32⟩
  | 124 => ⟨S2048x128, .f32⟩
  | 125 => ⟨S_, .i32⟩
  | 126 => ⟨S262144, .i32⟩
  | 127 => ⟨S262144, .i1⟩
  | _ => ⟨S262144x128, .f32⟩

abbrev hbmTy0_4 (i : Nat) : BufTy := match i % 128 with
  | 0 => ⟨S_, .i32⟩
  | 1 => ⟨S262144, .i32⟩
  | 2 => ⟨S262144, .i32⟩
  | 3 => ⟨S262144, .i32⟩
  | 4 => ⟨S262144x1, .i32⟩
  | 5 => ⟨S262144x128, .f32⟩
  | 6 => ⟨S1x128, .f32⟩
  | 7 => ⟨S128, .f32⟩
  | 8 => ⟨S1x128, .f32⟩
  | 9 => ⟨S128, .f32⟩
  | 10 => ⟨S1x128, .f32⟩
  | 11 => ⟨S1x128, .f32⟩
  | 12 => ⟨S1x128, .f32⟩
  | 13 => ⟨S1x128, .f32⟩
  | 14 => ⟨S262144x128, .f32⟩
  | 15 => ⟨S1x2097152, .i32⟩
  | 16 => ⟨S2097152, .i32⟩
  | 17 => ⟨S_, .i32⟩
  | 18 => ⟨S2097152, .i32⟩
  | 19 => ⟨S2097152, .i1⟩
  | 20 => ⟨S_, .i32⟩
  | 21 => ⟨S2097152, .i32⟩
  | 22 => ⟨S2097152, .i32⟩
  | 23 => ⟨S2097152, .i32⟩
  | 24 => ⟨S2097152x1, .i32⟩
  | 25 => ⟨S2097152x128, .f32⟩
  | 26 => ⟨S1x2097152, .i32⟩
  | 27 => ⟨S2097152, .i32⟩
  | 28 => ⟨S_, .f32⟩
  | 29 => ⟨S262144x128, .f32⟩
  | 30 => ⟨S2097152x1, .i32⟩
  | 31 => ⟨S262144x128, .f32⟩
  | 32 => ⟨S1x128x128, .f32⟩
  | 33 => ⟨S128x128, .f32⟩
  | 34 => ⟨S1x128x128, .f32⟩
  | 35 => ⟨S128x128, .f32⟩
  | 36 => ⟨S1x128, .f32⟩
  | 37 => ⟨S128, .f32⟩
  | 38 => ⟨S1x128, .f32⟩
  | 39 => ⟨S262144x128, .f32⟩
  | 40 => ⟨S_, .f32⟩
  | 41 => ⟨S128, .f32⟩
  | 42 => ⟨S_, .f32⟩
  | 43 => ⟨S128, .f32⟩
  | 44 => ⟨S128, .f32⟩
  | 45 => ⟨S_, .i32⟩
  | 46 => ⟨S_, .f32⟩
  | 47 => ⟨S128, .f32⟩
  | 48 => ⟨S1x128, .f32⟩
  | 49 => ⟨S_, .f32⟩
  | 50 => ⟨S1x128, .f32⟩
  | 51 => ⟨S1x128, .f32⟩
  | 52 => ⟨S262144x128, .f32⟩
  | 53 => ⟨S262144x128, .f32⟩
  | 54 => ⟨S262144x128, .f32⟩
  | 55 => ⟨S_, .f32⟩
  | 56 => ⟨S_, .f32⟩
  | 57 => ⟨S_, .f32⟩
  | 58 => ⟨S_, .f32⟩
  | 59 => ⟨S128, .f32⟩
  | 60 => ⟨S128, .f32⟩
  | 61 => ⟨S128, .f32⟩
  | 62 => ⟨S_, .f32⟩
  | 63 => ⟨S_, .i1⟩
  | 64 => ⟨S_, .f32⟩
  | 65 => ⟨S_, .f32⟩
  | 66 => ⟨S128, .f32⟩
  | 67 => ⟨S128, .f32⟩
  | 68 => ⟨S_, .f32⟩
  | 69 => ⟨S2048x128, .f32⟩
  | 70 => ⟨S262144x1, .i32⟩
  | 71 => ⟨S2048x128, .f32⟩
  | 72 => ⟨S_, .f32⟩
  | 73 => ⟨S262144x1, .f32⟩
  | 74 => ⟨S_, .f32⟩
  | 75 => ⟨S2048x1, .f32⟩
  | 76 => ⟨S262144x1, .i32⟩
  | 77 => ⟨S2048x1, .f32⟩
  | 78 => ⟨S_, .f32⟩
  | 79 => ⟨S2048x1, .f32⟩
  | 80 => ⟨S2048x1, .f32⟩
  | 81 => ⟨S2048x128, .f32⟩
  | 82 => ⟨S2048x128, .f32⟩
  | 83 => ⟨S1x32768, .i32⟩
  | 84 => ⟨S32768, .i32⟩
  | 85 => ⟨S_, .i32⟩
  | 86 => ⟨S32768, .i32⟩
  | 87 => ⟨S32768, .i1⟩
  | 88 => ⟨S_, .i32⟩
  | 89 => ⟨S32768, .i32⟩
  | 90 => ⟨S32768, .i32⟩
  | 91 => ⟨S32768, .i32⟩
  | 92 => ⟨S32768x1, .i32⟩
  | 93 => ⟨S32768x128, .f32⟩
  | 94 => ⟨S1x32768, .i32⟩
  | 95 => ⟨S32768, .i32⟩
  | 96 => ⟨S_, .f32⟩
  | 97 => ⟨S2048x128, .f32⟩
  | 98 => ⟨S32768x1, .i32⟩
  | 99 => ⟨S2048x128, .f32⟩
  | 100 => ⟨S1x128x128, .f32⟩
  | 101 => ⟨S128x128, .f32⟩
  | 102 => ⟨S2048x128, .f32⟩
  | 103 => ⟨S1x128x128, .f32⟩
  | 104 => ⟨S128x128, .f32⟩
  | 105 => ⟨S2048x128, .f32⟩
  | 106 => ⟨S2048x128, .f32⟩
  | 107 => ⟨S1x128, .f32⟩
  | 108 => ⟨S128, .f32⟩
  | 109 => ⟨S1x128, .f32⟩
  | 110 => ⟨S2048x128, .f32⟩
  | 111 => ⟨S2048x128, .f32⟩
  | 112 => ⟨S_, .f32⟩
  | 113 => ⟨S128, .f32⟩
  | 114 => ⟨S_, .f32⟩
  | 115 => ⟨S128, .f32⟩
  | 116 => ⟨S128, .f32⟩
  | 117 => ⟨S_, .i32⟩
  | 118 => ⟨S_, .f32⟩
  | 119 => ⟨S128, .f32⟩
  | 120 => ⟨S1x128, .f32⟩
  | 121 => ⟨S_, .f32⟩
  | 122 => ⟨S1x128, .f32⟩
  | 123 => ⟨S1x128, .f32⟩
  | 124 => ⟨S2048x128, .f32⟩
  | 125 => ⟨S2048x128, .f32⟩
  | 126 => ⟨S2048x128, .f32⟩
  | 127 => ⟨S_, .f32⟩
  | _ => ⟨S262144x128, .f32⟩

abbrev hbmTy0_5 (i : Nat) : BufTy := match i % 128 with
  | 0 => ⟨S_, .f32⟩
  | 1 => ⟨S_, .f32⟩
  | 2 => ⟨S_, .f32⟩
  | 3 => ⟨S128, .f32⟩
  | 4 => ⟨S128, .f32⟩
  | 5 => ⟨S128, .f32⟩
  | 6 => ⟨S_, .f32⟩
  | 7 => ⟨S_, .i1⟩
  | 8 => ⟨S_, .f32⟩
  | 9 => ⟨S_, .f32⟩
  | 10 => ⟨S128, .f32⟩
  | 11 => ⟨S128, .f32⟩
  | 12 => ⟨S1x128, .f32⟩
  | 13 => ⟨S2048x128, .f32⟩
  | 14 => ⟨S2048x128, .f32⟩
  | 15 => ⟨S_, .f32⟩
  | 16 => ⟨S128, .f32⟩
  | 17 => ⟨S128, .f32⟩
  | 18 => ⟨S128, .f32⟩
  | 19 => ⟨S1x128, .f32⟩
  | 20 => ⟨S2048x128, .f32⟩
  | 21 => ⟨S2048x128, .f32⟩
  | 22 => ⟨S1x128, .f32⟩
  | 23 => ⟨S128, .f32⟩
  | 24 => ⟨S1x128, .f32⟩
  | 25 => ⟨S2048x128, .f32⟩
  | 26 => ⟨S2048x128, .f32⟩
  | 27 => ⟨S1x128, .f32⟩
  | 28 => ⟨S128, .f32⟩
  | 29 => ⟨S1x128, .f32⟩
  | 30 => ⟨S2048x128, .f32⟩
  | 31 => ⟨S2048x128, .f32⟩
  | 32 => ⟨S_, .i32⟩
  | 33 => ⟨S262144, .i32⟩
  | 34 => ⟨S262144, .i1⟩
  | 35 => ⟨S_, .i32⟩
  | 36 => ⟨S262144, .i32⟩
  | 37 => ⟨S262144, .i32⟩
  | 38 => ⟨S262144, .i32⟩
  | 39 => ⟨S262144x1, .i32⟩
  | 40 => ⟨S262144x128, .f32⟩
  | 41 => ⟨S1x128, .f32⟩
  | 42 => ⟨S128, .f32⟩
  | 43 => ⟨S1x128, .f32⟩
  | 44 => ⟨S128, .f32⟩
  | 45 => ⟨S1x128, .f32⟩
  | 46 => ⟨S1x128, .f32⟩
  | 47 => ⟨S1x128, .f32⟩
  | 48 => ⟨S1x128, .f32⟩
  | 49 => ⟨S262144x128, .f32⟩
  | 50 => ⟨S_, .f32⟩
  | 51 => ⟨S2048x128, .f32⟩
  | 52 => ⟨S262144x1, .i32⟩
  | 53 => ⟨S2048x128, .f32⟩
  | 54 => ⟨S_, .f32⟩
  | 55 => ⟨S262144x1, .f32⟩
  | 56 => ⟨S_, .f32⟩
  | 57 => ⟨S2048x1, .f32⟩
  | 58 => ⟨S262144x1, .i32⟩
  | 59 => ⟨S2048x1, .f32⟩
  | 60 => ⟨S_, .f32⟩
  | 61 => ⟨S2048x1, .f32⟩
  | 62 => ⟨S2048x1, .f32⟩
  | 63 => ⟨S2048x128, .f32⟩
  | 64 => ⟨S2048x128, .f32⟩
  | 65 => ⟨S_, .f32⟩
  | 66 => ⟨S16x128, .f32⟩
  | 67 => ⟨S2048x1, .i32⟩
  | 68 => ⟨S16x128, .f32⟩
  | 69 => ⟨S_, .f32⟩
  | 70 => ⟨S2048x1, .f32⟩
  | 71 => ⟨S_, .f32⟩
  | 72 => ⟨S16x1, .f32⟩
  | 73 => ⟨S2048x1, .i32⟩
  | 74 => ⟨S16x1, .f32⟩
  | 75 => ⟨S_, .f32⟩
  | 76 => ⟨S16x1, .f32⟩
  | 77 => ⟨S16x1, .f32⟩
  | 78 => ⟨S16x128, .f32⟩
  | 79 => ⟨S16x128, .f32⟩
  | 80 => ⟨S1x256, .f32⟩
  | 81 => ⟨S1x10, .f32⟩
  | 82 => ⟨S16x10, .f32⟩
  | _ => ⟨S262144x128, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S262144x128, .f32⟩

abbrev bufTy : (tb : Table) → Fin (tcTables nBuf tb) → BufTy
  | .hbm, ⟨i, _⟩ => hbmTy i
  | .local _ .vmem, ⟨0, _⟩ => ⟨S8192x128, .f32⟩
  | .local _ .vmem, ⟨1, _⟩ => ⟨S8192x128, .f32⟩
  | .local _ .vmem, ⟨2, _⟩ => ⟨S8192x128, .f32⟩
  | .local _ .vmem, ⟨3, _⟩ => ⟨S8192x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S8192x128, .f32⟩
  | .local _ .vmem, ⟨8, _⟩ => ⟨S8192x128, .f32⟩
  | .local _ .vmem, ⟨9, _⟩ => ⟨S8192x128, .f32⟩
  | .local _ .vmem, ⟨10, _⟩ => ⟨S8192x128, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S1x128, .f32⟩
  | .local _ .vmem, ⟨15, _⟩ => ⟨S8192x128, .f32⟩
  | .local _ .vmem, ⟨16, _⟩ => ⟨S8192x128, .f32⟩
  | .local _ .vmem, ⟨17, _⟩ => ⟨S8192x128, .f32⟩
  | .local _ .vmem, ⟨18, _⟩ => ⟨S8192x128, .f32⟩
  | .local _ .vmem, ⟨19, _⟩ => ⟨S8192x128, .f32⟩
  | .local _ .vmem, ⟨20, _⟩ => ⟨S8192x128, .f32⟩
  | .local _ .vmem, ⟨21, _⟩ => ⟨S8192x128, .f32⟩
  | .local _ .vmem, ⟨22, _⟩ => ⟨S8192x128, .f32⟩
  | .local _ .vmem, ⟨23, _⟩ => ⟨S128x128, .f32⟩
  | .local _ .vmem, ⟨24, _⟩ => ⟨S128x128, .f32⟩
  | .local _ .vmem, ⟨25, _⟩ => ⟨S1x128, .f32⟩
  | .local _ .vmem, ⟨26, _⟩ => ⟨S8192x128, .f32⟩
  | .local _ .vmem, ⟨27, _⟩ => ⟨S8192x128, .f32⟩
  | .local _ .vmem, ⟨28, _⟩ => ⟨S8192x128, .f32⟩
  | .local _ .vmem, ⟨29, _⟩ => ⟨S8192x128, .f32⟩
  | .local _ .vmem, ⟨30, _⟩ => ⟨S1x128, .f32⟩
  | .local _ .vmem, ⟨31, _⟩ => ⟨S1x128, .f32⟩
  | .local _ .vmem, ⟨32, _⟩ => ⟨S1x128, .f32⟩
  | .local _ .vmem, ⟨33, _⟩ => ⟨S1x128, .f32⟩
  | .local _ .vmem, ⟨34, _⟩ => ⟨S8192x128, .f32⟩
  | .local _ .vmem, ⟨35, _⟩ => ⟨S8192x128, .f32⟩
  | .local _ .vmem, ⟨36, _⟩ => ⟨S8192x128, .f32⟩
  | .local _ .vmem, ⟨37, _⟩ => ⟨S8192x128, .f32⟩
  | .local _ .vmem, ⟨38, _⟩ => ⟨S8192x128, .f32⟩
  | .local _ .vmem, ⟨39, _⟩ => ⟨S8192x128, .f32⟩
  | .local _ .vmem, ⟨40, _⟩ => ⟨S8192x128, .f32⟩
  | .local _ .vmem, ⟨41, _⟩ => ⟨S8192x128, .f32⟩
  | .local _ .vmem, ⟨42, _⟩ => ⟨S128x128, .f32⟩
  | .local _ .vmem, ⟨43, _⟩ => ⟨S128x128, .f32⟩
  | .local _ .vmem, ⟨44, _⟩ => ⟨S1x128, .f32⟩
  | .local _ .vmem, ⟨45, _⟩ => ⟨S8192x128, .f32⟩
  | .local _ .vmem, ⟨46, _⟩ => ⟨S8192x128, .f32⟩
  | .local _ .vmem, ⟨47, _⟩ => ⟨S8192x128, .f32⟩
  | .local _ .vmem, ⟨48, _⟩ => ⟨S8192x128, .f32⟩
  | .local _ .vmem, ⟨49, _⟩ => ⟨S1x128, .f32⟩
  | .local _ .vmem, ⟨50, _⟩ => ⟨S1x128, .f32⟩
  | .local _ .vmem, ⟨51, _⟩ => ⟨S1x128, .f32⟩
  | .local _ .vmem, ⟨52, _⟩ => ⟨S1x128, .f32⟩
  | .local _ .vmem, ⟨53, _⟩ => ⟨S8192x128, .f32⟩
  | .local _ .vmem, ⟨54, _⟩ => ⟨S8192x128, .f32⟩
  | .local _ .vmem, ⟨55, _⟩ => ⟨S8192x128, .f32⟩
  | .local _ .vmem, ⟨56, _⟩ => ⟨S8192x128, .f32⟩
  | .local _ .vmem, ⟨57, _⟩ => ⟨S8192x128, .f32⟩
  | .local _ .vmem, ⟨58, _⟩ => ⟨S8192x128, .f32⟩
  | .local _ .vmem, ⟨59, _⟩ => ⟨S8192x128, .f32⟩
  | .local _ .vmem, ⟨60, _⟩ => ⟨S8192x128, .f32⟩
  | .local _ .vmem, ⟨61, _⟩ => ⟨S128x128, .f32⟩
  | .local _ .vmem, ⟨62, _⟩ => ⟨S128x128, .f32⟩
  | .local _ .vmem, ⟨63, _⟩ => ⟨S1x128, .f32⟩
  | .local _ .vmem, ⟨64, _⟩ => ⟨S8192x128, .f32⟩
  | .local _ .vmem, ⟨65, _⟩ => ⟨S8192x128, .f32⟩
  | .local _ .vmem, ⟨66, _⟩ => ⟨S8192x128, .f32⟩
  | .local _ .vmem, ⟨67, _⟩ => ⟨S8192x128, .f32⟩
  | .local _ .vmem, ⟨68, _⟩ => ⟨S1x128, .f32⟩
  | .local _ .vmem, ⟨69, _⟩ => ⟨S1x128, .f32⟩
  | .local _ .vmem, ⟨70, _⟩ => ⟨S1x128, .f32⟩
  | .local _ .vmem, ⟨71, _⟩ => ⟨S1x128, .f32⟩
  | .local _ .vmem, ⟨72, _⟩ => ⟨S8192x128, .f32⟩
  | .local _ .vmem, ⟨73, _⟩ => ⟨S8192x128, .f32⟩
  | .local _ .vmem, ⟨74, _⟩ => ⟨S8192x128, .f32⟩
  | .local _ .vmem, ⟨75, _⟩ => ⟨S8192x128, .f32⟩
  | .local _ .vmem, ⟨76, _⟩ => ⟨S16x128, .f32⟩
  | .local _ .vmem, ⟨77, _⟩ => ⟨S128x256, .f32⟩
  | .local _ .vmem, ⟨78, _⟩ => ⟨S1x256, .f32⟩
  | .local _ .vmem, ⟨79, _⟩ => ⟨S256x10, .f32⟩
  | .local _ .vmem, ⟨80, _⟩ => ⟨S1x10, .f32⟩
  | .local _ .vmem, ⟨81, _⟩ => ⟨S16x10, .f32⟩
  | _, _ => ⟨S262144x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | _, _ => false

abbrev semScoped : Fin 0 → Bool
  | ⟨_, h⟩ => absurd h (Nat.not_lt_zero _)

abbrev dmaSemScoped : Fin 82 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | _ => false

abbrev sig : RefSig :=
  ofTc nBuf bufTy 0 82 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_c : Ref sig .tc := ⟨.hbm, 22, rfl⟩
abbrev main_v0 : Ref sig .tc := ⟨.hbm, 23, rfl⟩
abbrev main_call0_call0_c : Ref sig .tc := ⟨.hbm, 24, rfl⟩
abbrev main_call0_call0_v0 : Ref sig .tc := ⟨.hbm, 25, rfl⟩
abbrev main_v1 : Ref sig .tc := ⟨.hbm, 26, rfl⟩
abbrev main_v2 : Ref sig .tc := ⟨.hbm, 27, rfl⟩
abbrev main_c_0 : Ref sig .tc := ⟨.hbm, 28, rfl⟩
abbrev main_v3 : Ref sig .tc := ⟨.hbm, 29, rfl⟩
abbrev main_v4 : Ref sig .tc := ⟨.hbm, 30, rfl⟩
abbrev main_c_1 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_c_2 : Ref sig .tc := ⟨.hbm, 40, rfl⟩
abbrev main_v13 : Ref sig .tc := ⟨.hbm, 41, rfl⟩
abbrev main_v14 : Ref sig .tc := ⟨.hbm, 42, rfl⟩
abbrev main_c_3 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_cst : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_cst_4 : Ref sig .tc := ⟨.hbm, 63, rfl⟩
abbrev main_v33 : Ref sig .tc := ⟨.hbm, 64, rfl⟩
abbrev main_cst_5 : Ref sig .tc := ⟨.hbm, 65, rfl⟩
abbrev main_v34 : Ref sig .tc := ⟨.hbm, 66, rfl⟩
abbrev main_v35 : Ref sig .tc := ⟨.hbm, 67, rfl⟩
abbrev main_c_6 : Ref sig .tc := ⟨.hbm, 68, rfl⟩
abbrev main_call1_cst : Ref sig .tc := ⟨.hbm, 69, rfl⟩
abbrev main_call1_v0 : Ref sig .tc := ⟨.hbm, 70, rfl⟩
abbrev main_call1_v1 : Ref sig .tc := ⟨.hbm, 71, rfl⟩
abbrev main_call1_cst_0 : Ref sig .tc := ⟨.hbm, 72, rfl⟩
abbrev main_call1_v2 : Ref sig .tc := ⟨.hbm, 73, rfl⟩
abbrev main_call1_v3 : Ref sig .tc := ⟨.hbm, 74, rfl⟩
abbrev main_call1_v4 : Ref sig .tc := ⟨.hbm, 75, rfl⟩
abbrev main_call1_v5 : Ref sig .tc := ⟨.hbm, 76, rfl⟩
abbrev main_call1_v6 : Ref sig .tc := ⟨.hbm, 77, rfl⟩
abbrev main_call1_v7 : Ref sig .tc := ⟨.hbm, 78, rfl⟩
abbrev main_call1_cst_1 : Ref sig .tc := ⟨.hbm, 79, rfl⟩
abbrev main_call1_v8 : Ref sig .tc := ⟨.hbm, 80, rfl⟩
abbrev main_call1_cst_2 : Ref sig .tc := ⟨.hbm, 81, rfl⟩
abbrev main_call1_v9 : Ref sig .tc := ⟨.hbm, 82, rfl⟩
abbrev main_call1_v10 : Ref sig .tc := ⟨.hbm, 83, rfl⟩
abbrev main_call1_v11 : Ref sig .tc := ⟨.hbm, 84, rfl⟩
abbrev main_call1_cst_3 : Ref sig .tc := ⟨.hbm, 85, rfl⟩
abbrev main_call1_v12 : Ref sig .tc := ⟨.hbm, 86, rfl⟩
abbrev main_call1_cst_4 : Ref sig .tc := ⟨.hbm, 87, rfl⟩
abbrev main_call1_call0_v0 : Ref sig .tc := ⟨.hbm, 88, rfl⟩
abbrev main_call1_call0_v1 : Ref sig .tc := ⟨.hbm, 89, rfl⟩
abbrev main_v36 : Ref sig .tc := ⟨.hbm, 90, rfl⟩
abbrev main_cst_7 : Ref sig .tc := ⟨.hbm, 91, rfl⟩
abbrev main_v37 : Ref sig .tc := ⟨.hbm, 92, rfl⟩
abbrev main_v38 : Ref sig .tc := ⟨.hbm, 93, rfl⟩
abbrev main_v39 : Ref sig .tc := ⟨.hbm, 94, rfl⟩
abbrev main_cst_8 : Ref sig .tc := ⟨.hbm, 95, rfl⟩
abbrev main_v40 : Ref sig .tc := ⟨.hbm, 96, rfl⟩
abbrev main_cst_9 : Ref sig .tc := ⟨.hbm, 97, rfl⟩
abbrev main_v41 : Ref sig .tc := ⟨.hbm, 98, rfl⟩
abbrev main_v42 : Ref sig .tc := ⟨.hbm, 99, rfl⟩
abbrev main_v43 : Ref sig .tc := ⟨.hbm, 100, rfl⟩
abbrev main_cst_10 : Ref sig .tc := ⟨.hbm, 101, rfl⟩
abbrev main_v44 : Ref sig .tc := ⟨.hbm, 102, rfl⟩
abbrev main_v45 : Ref sig .tc := ⟨.hbm, 103, rfl⟩
abbrev main_v46 : Ref sig .tc := ⟨.hbm, 104, rfl⟩
abbrev main_v47 : Ref sig .tc := ⟨.hbm, 105, rfl⟩
abbrev main_v48 : Ref sig .tc := ⟨.hbm, 106, rfl⟩
abbrev main_v49 : Ref sig .tc := ⟨.hbm, 107, rfl⟩
abbrev main_c_11 : Ref sig .tc := ⟨.hbm, 108, rfl⟩
abbrev main_v50 : Ref sig .tc := ⟨.hbm, 109, rfl⟩
abbrev main_v51 : Ref sig .tc := ⟨.hbm, 110, rfl⟩
abbrev main_c_12 : Ref sig .tc := ⟨.hbm, 111, rfl⟩
abbrev main_v52 : Ref sig .tc := ⟨.hbm, 112, rfl⟩
abbrev main_v53 : Ref sig .tc := ⟨.hbm, 113, rfl⟩
abbrev main_v54 : Ref sig .tc := ⟨.hbm, 114, rfl⟩
abbrev main_v55 : Ref sig .tc := ⟨.hbm, 115, rfl⟩
abbrev main_v56 : Ref sig .tc := ⟨.hbm, 116, rfl⟩
abbrev main_v57 : Ref sig .tc := ⟨.hbm, 117, rfl⟩
abbrev main_v58 : Ref sig .tc := ⟨.hbm, 118, rfl⟩
abbrev main_cst_13 : Ref sig .tc := ⟨.hbm, 119, rfl⟩
abbrev main_v59 : Ref sig .tc := ⟨.hbm, 120, rfl⟩
abbrev main_v60 : Ref sig .tc := ⟨.hbm, 121, rfl⟩
abbrev main_v61 : Ref sig .tc := ⟨.hbm, 122, rfl⟩
abbrev main_v62 : Ref sig .tc := ⟨.hbm, 123, rfl⟩
abbrev main_v63 : Ref sig .tc := ⟨.hbm, 124, rfl⟩
abbrev main_v64 : Ref sig .tc := ⟨.hbm, 125, rfl⟩
abbrev main_v65 : Ref sig .tc := ⟨.hbm, 126, rfl⟩
abbrev main_v66 : Ref sig .tc := ⟨.hbm, 127, rfl⟩
abbrev main_v67 : Ref sig .tc := ⟨.hbm, 128, rfl⟩
abbrev main_v68 : Ref sig .tc := ⟨.hbm, 129, rfl⟩
abbrev main_v69 : Ref sig .tc := ⟨.hbm, 130, rfl⟩
abbrev main_v70 : Ref sig .tc := ⟨.hbm, 131, rfl⟩
abbrev main_v71 : Ref sig .tc := ⟨.hbm, 132, rfl⟩
abbrev main_v72 : Ref sig .tc := ⟨.hbm, 133, rfl⟩
abbrev main_v73 : Ref sig .tc := ⟨.hbm, 134, rfl⟩
abbrev main_cst_14 : Ref sig .tc := ⟨.hbm, 135, rfl⟩
abbrev main_v74 : Ref sig .tc := ⟨.hbm, 136, rfl⟩
abbrev main_cst_15 : Ref sig .tc := ⟨.hbm, 137, rfl⟩
abbrev main_v75 : Ref sig .tc := ⟨.hbm, 138, rfl⟩
abbrev main_v76 : Ref sig .tc := ⟨.hbm, 139, rfl⟩
abbrev main_c_16 : Ref sig .tc := ⟨.hbm, 140, rfl⟩
abbrev main_call2_cst : Ref sig .tc := ⟨.hbm, 141, rfl⟩
abbrev main_call2_v0 : Ref sig .tc := ⟨.hbm, 142, rfl⟩
abbrev main_call2_v1 : Ref sig .tc := ⟨.hbm, 143, rfl⟩
abbrev main_call2_cst_0 : Ref sig .tc := ⟨.hbm, 144, rfl⟩
abbrev main_call2_v2 : Ref sig .tc := ⟨.hbm, 145, rfl⟩
abbrev main_call2_v3 : Ref sig .tc := ⟨.hbm, 146, rfl⟩
abbrev main_call2_v4 : Ref sig .tc := ⟨.hbm, 147, rfl⟩
abbrev main_call2_v5 : Ref sig .tc := ⟨.hbm, 148, rfl⟩
abbrev main_call2_v6 : Ref sig .tc := ⟨.hbm, 149, rfl⟩
abbrev main_call2_v7 : Ref sig .tc := ⟨.hbm, 150, rfl⟩
abbrev main_call2_cst_1 : Ref sig .tc := ⟨.hbm, 151, rfl⟩
abbrev main_call2_v8 : Ref sig .tc := ⟨.hbm, 152, rfl⟩
abbrev main_call2_cst_2 : Ref sig .tc := ⟨.hbm, 153, rfl⟩
abbrev main_call2_v9 : Ref sig .tc := ⟨.hbm, 154, rfl⟩
abbrev main_call2_v10 : Ref sig .tc := ⟨.hbm, 155, rfl⟩
abbrev main_call2_v11 : Ref sig .tc := ⟨.hbm, 156, rfl⟩
abbrev main_call2_cst_3 : Ref sig .tc := ⟨.hbm, 157, rfl⟩
abbrev main_call2_v12 : Ref sig .tc := ⟨.hbm, 158, rfl⟩
abbrev main_call2_cst_4 : Ref sig .tc := ⟨.hbm, 159, rfl⟩
abbrev main_call2_call0_v0 : Ref sig .tc := ⟨.hbm, 160, rfl⟩
abbrev main_call2_call0_v1 : Ref sig .tc := ⟨.hbm, 161, rfl⟩
abbrev main_v77 : Ref sig .tc := ⟨.hbm, 162, rfl⟩
abbrev main_v78 : Ref sig .tc := ⟨.hbm, 163, rfl⟩
abbrev main_v79 : Ref sig .tc := ⟨.hbm, 164, rfl⟩
abbrev main_v80 : Ref sig .tc := ⟨.hbm, 165, rfl⟩
abbrev main_cst_17 : Ref sig .tc := ⟨.hbm, 166, rfl⟩
abbrev main_v81 : Ref sig .tc := ⟨.hbm, 167, rfl⟩
abbrev main_v82 : Ref sig .tc := ⟨.hbm, 168, rfl⟩
abbrev main_v83 : Ref sig .tc := ⟨.hbm, 169, rfl⟩
abbrev main_v84 : Ref sig .tc := ⟨.hbm, 170, rfl⟩
abbrev main_v85 : Ref sig .tc := ⟨.hbm, 171, rfl⟩
abbrev main_v86 : Ref sig .tc := ⟨.hbm, 172, rfl⟩
abbrev main_v87 : Ref sig .tc := ⟨.hbm, 173, rfl⟩
abbrev main_v88 : Ref sig .tc := ⟨.hbm, 174, rfl⟩
abbrev main_v89 : Ref sig .tc := ⟨.hbm, 175, rfl⟩
abbrev main_v90 : Ref sig .tc := ⟨.hbm, 176, rfl⟩
abbrev main_v91 : Ref sig .tc := ⟨.hbm, 177, rfl⟩
abbrev main_v92 : Ref sig .tc := ⟨.hbm, 178, rfl⟩
abbrev main_v93 : Ref sig .tc := ⟨.hbm, 179, rfl⟩
abbrev main_v94 : Ref sig .tc := ⟨.hbm, 180, rfl⟩
abbrev main_v95 : Ref sig .tc := ⟨.hbm, 181, rfl⟩
abbrev main_v96 : Ref sig .tc := ⟨.hbm, 182, rfl⟩
abbrev main_c_18 : Ref sig .tc := ⟨.hbm, 183, rfl⟩
abbrev main_v97 : Ref sig .tc := ⟨.hbm, 184, rfl⟩
abbrev main_v98 : Ref sig .tc := ⟨.hbm, 185, rfl⟩
abbrev main_c_19 : Ref sig .tc := ⟨.hbm, 186, rfl⟩
abbrev main_v99 : Ref sig .tc := ⟨.hbm, 187, rfl⟩
abbrev main_v100 : Ref sig .tc := ⟨.hbm, 188, rfl⟩
abbrev main_v101 : Ref sig .tc := ⟨.hbm, 189, rfl⟩
abbrev main_v102 : Ref sig .tc := ⟨.hbm, 190, rfl⟩
abbrev main_v103 : Ref sig .tc := ⟨.hbm, 191, rfl⟩
abbrev main_v104 : Ref sig .tc := ⟨.hbm, 192, rfl⟩
abbrev main_v105 : Ref sig .tc := ⟨.hbm, 193, rfl⟩
abbrev main_v106 : Ref sig .tc := ⟨.hbm, 194, rfl⟩
abbrev main_v107 : Ref sig .tc := ⟨.hbm, 195, rfl⟩
abbrev main_v108 : Ref sig .tc := ⟨.hbm, 196, rfl⟩
abbrev main_v109 : Ref sig .tc := ⟨.hbm, 197, rfl⟩
abbrev main_v110 : Ref sig .tc := ⟨.hbm, 198, rfl⟩
abbrev main_v111 : Ref sig .tc := ⟨.hbm, 199, rfl⟩
abbrev main_v112 : Ref sig .tc := ⟨.hbm, 200, rfl⟩
abbrev main_v113 : Ref sig .tc := ⟨.hbm, 201, rfl⟩
abbrev main_v114 : Ref sig .tc := ⟨.hbm, 202, rfl⟩
abbrev main_c_20 : Ref sig .tc := ⟨.hbm, 203, rfl⟩
abbrev main_v115 : Ref sig .tc := ⟨.hbm, 204, rfl⟩
abbrev main_v116 : Ref sig .tc := ⟨.hbm, 205, rfl⟩
abbrev main_c_21 : Ref sig .tc := ⟨.hbm, 206, rfl⟩
abbrev main_v117 : Ref sig .tc := ⟨.hbm, 207, rfl⟩
abbrev main_v118 : Ref sig .tc := ⟨.hbm, 208, rfl⟩
abbrev main_v119 : Ref sig .tc := ⟨.hbm, 209, rfl⟩
abbrev main_v120 : Ref sig .tc := ⟨.hbm, 210, rfl⟩
abbrev main_v121 : Ref sig .tc := ⟨.hbm, 211, rfl⟩
abbrev main_v122 : Ref sig .tc := ⟨.hbm, 212, rfl⟩
abbrev main_v123 : Ref sig .tc := ⟨.hbm, 213, rfl⟩
abbrev main_cst_22 : Ref sig .tc := ⟨.hbm, 214, rfl⟩
abbrev main_v124 : Ref sig .tc := ⟨.hbm, 215, rfl⟩
abbrev main_v125 : Ref sig .tc := ⟨.hbm, 216, rfl⟩
abbrev main_v126 : Ref sig .tc := ⟨.hbm, 217, rfl⟩
abbrev main_v127 : Ref sig .tc := ⟨.hbm, 218, rfl⟩
abbrev main_v128 : Ref sig .tc := ⟨.hbm, 219, rfl⟩
abbrev main_v129 : Ref sig .tc := ⟨.hbm, 220, rfl⟩
abbrev main_v130 : Ref sig .tc := ⟨.hbm, 221, rfl⟩
abbrev main_v131 : Ref sig .tc := ⟨.hbm, 222, rfl⟩
abbrev main_v132 : Ref sig .tc := ⟨.hbm, 223, rfl⟩
abbrev main_v133 : Ref sig .tc := ⟨.hbm, 224, rfl⟩
abbrev main_v134 : Ref sig .tc := ⟨.hbm, 225, rfl⟩
abbrev main_cst_23 : Ref sig .tc := ⟨.hbm, 226, rfl⟩
abbrev main_v135 : Ref sig .tc := ⟨.hbm, 227, rfl⟩
abbrev main_cst_24 : Ref sig .tc := ⟨.hbm, 228, rfl⟩
abbrev main_v136 : Ref sig .tc := ⟨.hbm, 229, rfl⟩
abbrev main_v137 : Ref sig .tc := ⟨.hbm, 230, rfl⟩
abbrev main_c_25 : Ref sig .tc := ⟨.hbm, 231, rfl⟩
abbrev main_call3_cst : Ref sig .tc := ⟨.hbm, 232, rfl⟩
abbrev main_call3_v0 : Ref sig .tc := ⟨.hbm, 233, rfl⟩
abbrev main_call3_v1 : Ref sig .tc := ⟨.hbm, 234, rfl⟩
abbrev main_call3_cst_0 : Ref sig .tc := ⟨.hbm, 235, rfl⟩
abbrev main_call3_v2 : Ref sig .tc := ⟨.hbm, 236, rfl⟩
abbrev main_call3_v3 : Ref sig .tc := ⟨.hbm, 237, rfl⟩
abbrev main_call3_v4 : Ref sig .tc := ⟨.hbm, 238, rfl⟩
abbrev main_call3_v5 : Ref sig .tc := ⟨.hbm, 239, rfl⟩
abbrev main_call3_v6 : Ref sig .tc := ⟨.hbm, 240, rfl⟩
abbrev main_call3_v7 : Ref sig .tc := ⟨.hbm, 241, rfl⟩
abbrev main_call3_cst_1 : Ref sig .tc := ⟨.hbm, 242, rfl⟩
abbrev main_call3_v8 : Ref sig .tc := ⟨.hbm, 243, rfl⟩
abbrev main_call3_cst_2 : Ref sig .tc := ⟨.hbm, 244, rfl⟩
abbrev main_call3_v9 : Ref sig .tc := ⟨.hbm, 245, rfl⟩
abbrev main_call3_v10 : Ref sig .tc := ⟨.hbm, 246, rfl⟩
abbrev main_call3_v11 : Ref sig .tc := ⟨.hbm, 247, rfl⟩
abbrev main_call3_cst_3 : Ref sig .tc := ⟨.hbm, 248, rfl⟩
abbrev main_call3_v12 : Ref sig .tc := ⟨.hbm, 249, rfl⟩
abbrev main_call3_cst_4 : Ref sig .tc := ⟨.hbm, 250, rfl⟩
abbrev main_call3_call0_v0 : Ref sig .tc := ⟨.hbm, 251, rfl⟩
abbrev main_call3_call0_v1 : Ref sig .tc := ⟨.hbm, 252, rfl⟩
abbrev main_v138 : Ref sig .tc := ⟨.hbm, 253, rfl⟩
abbrev main_cst_26 : Ref sig .tc := ⟨.hbm, 254, rfl⟩
abbrev main_v139 : Ref sig .tc := ⟨.hbm, 255, rfl⟩
abbrev main_v140 : Ref sig .tc := ⟨.hbm, 256, rfl⟩
abbrev main_v141 : Ref sig .tc := ⟨.hbm, 257, rfl⟩
abbrev main_cst_27 : Ref sig .tc := ⟨.hbm, 258, rfl⟩
abbrev main_v142 : Ref sig .tc := ⟨.hbm, 259, rfl⟩
abbrev main_cst_28 : Ref sig .tc := ⟨.hbm, 260, rfl⟩
abbrev main_v143 : Ref sig .tc := ⟨.hbm, 261, rfl⟩
abbrev main_v144 : Ref sig .tc := ⟨.hbm, 262, rfl⟩
abbrev main_v145 : Ref sig .tc := ⟨.hbm, 263, rfl⟩
abbrev main_cst_29 : Ref sig .tc := ⟨.hbm, 264, rfl⟩
abbrev main_v146 : Ref sig .tc := ⟨.hbm, 265, rfl⟩
abbrev main_v147 : Ref sig .tc := ⟨.hbm, 266, rfl⟩
abbrev main_v148 : Ref sig .tc := ⟨.hbm, 267, rfl⟩
abbrev main_v149 : Ref sig .tc := ⟨.hbm, 268, rfl⟩
abbrev main_v150 : Ref sig .tc := ⟨.hbm, 269, rfl⟩
abbrev main_v151 : Ref sig .tc := ⟨.hbm, 270, rfl⟩
abbrev main_c_30 : Ref sig .tc := ⟨.hbm, 271, rfl⟩
abbrev main_v152 : Ref sig .tc := ⟨.hbm, 272, rfl⟩
abbrev main_v153 : Ref sig .tc := ⟨.hbm, 273, rfl⟩
abbrev main_c_31 : Ref sig .tc := ⟨.hbm, 274, rfl⟩
abbrev main_v154 : Ref sig .tc := ⟨.hbm, 275, rfl⟩
abbrev main_v155 : Ref sig .tc := ⟨.hbm, 276, rfl⟩
abbrev main_v156 : Ref sig .tc := ⟨.hbm, 277, rfl⟩
abbrev main_v157 : Ref sig .tc := ⟨.hbm, 278, rfl⟩
abbrev main_v158 : Ref sig .tc := ⟨.hbm, 279, rfl⟩
abbrev main_v159 : Ref sig .tc := ⟨.hbm, 280, rfl⟩
abbrev main_v160 : Ref sig .tc := ⟨.hbm, 281, rfl⟩
abbrev main_cst_32 : Ref sig .tc := ⟨.hbm, 282, rfl⟩
abbrev main_v161 : Ref sig .tc := ⟨.hbm, 283, rfl⟩
abbrev main_v162 : Ref sig .tc := ⟨.hbm, 284, rfl⟩
abbrev main_v163 : Ref sig .tc := ⟨.hbm, 285, rfl⟩
abbrev main_v164 : Ref sig .tc := ⟨.hbm, 286, rfl⟩
abbrev main_v165 : Ref sig .tc := ⟨.hbm, 287, rfl⟩
abbrev main_v166 : Ref sig .tc := ⟨.hbm, 288, rfl⟩
abbrev main_v167 : Ref sig .tc := ⟨.hbm, 289, rfl⟩
abbrev main_v168 : Ref sig .tc := ⟨.hbm, 290, rfl⟩
abbrev main_v169 : Ref sig .tc := ⟨.hbm, 291, rfl⟩
abbrev main_v170 : Ref sig .tc := ⟨.hbm, 292, rfl⟩
abbrev main_v171 : Ref sig .tc := ⟨.hbm, 293, rfl⟩
abbrev main_v172 : Ref sig .tc := ⟨.hbm, 294, rfl⟩
abbrev main_v173 : Ref sig .tc := ⟨.hbm, 295, rfl⟩
abbrev main_v174 : Ref sig .tc := ⟨.hbm, 296, rfl⟩
abbrev main_v175 : Ref sig .tc := ⟨.hbm, 297, rfl⟩
abbrev main_cst_33 : Ref sig .tc := ⟨.hbm, 298, rfl⟩
abbrev main_v176 : Ref sig .tc := ⟨.hbm, 299, rfl⟩
abbrev main_cst_34 : Ref sig .tc := ⟨.hbm, 300, rfl⟩
abbrev main_v177 : Ref sig .tc := ⟨.hbm, 301, rfl⟩
abbrev main_v178 : Ref sig .tc := ⟨.hbm, 302, rfl⟩
abbrev main_c_35 : Ref sig .tc := ⟨.hbm, 303, rfl⟩
abbrev main_call4_cst : Ref sig .tc := ⟨.hbm, 304, rfl⟩
abbrev main_call4_v0 : Ref sig .tc := ⟨.hbm, 305, rfl⟩
abbrev main_call4_v1 : Ref sig .tc := ⟨.hbm, 306, rfl⟩
abbrev main_call4_cst_0 : Ref sig .tc := ⟨.hbm, 307, rfl⟩
abbrev main_call4_v2 : Ref sig .tc := ⟨.hbm, 308, rfl⟩
abbrev main_call4_v3 : Ref sig .tc := ⟨.hbm, 309, rfl⟩
abbrev main_call4_v4 : Ref sig .tc := ⟨.hbm, 310, rfl⟩
abbrev main_call4_v5 : Ref sig .tc := ⟨.hbm, 311, rfl⟩
abbrev main_call4_v6 : Ref sig .tc := ⟨.hbm, 312, rfl⟩
abbrev main_call4_v7 : Ref sig .tc := ⟨.hbm, 313, rfl⟩
abbrev main_call4_cst_1 : Ref sig .tc := ⟨.hbm, 314, rfl⟩
abbrev main_call4_v8 : Ref sig .tc := ⟨.hbm, 315, rfl⟩
abbrev main_call4_cst_2 : Ref sig .tc := ⟨.hbm, 316, rfl⟩
abbrev main_call4_v9 : Ref sig .tc := ⟨.hbm, 317, rfl⟩
abbrev main_call4_v10 : Ref sig .tc := ⟨.hbm, 318, rfl⟩
abbrev main_call4_v11 : Ref sig .tc := ⟨.hbm, 319, rfl⟩
abbrev main_call4_cst_3 : Ref sig .tc := ⟨.hbm, 320, rfl⟩
abbrev main_call4_v12 : Ref sig .tc := ⟨.hbm, 321, rfl⟩
abbrev main_call4_cst_4 : Ref sig .tc := ⟨.hbm, 322, rfl⟩
abbrev main_call4_call0_v0 : Ref sig .tc := ⟨.hbm, 323, rfl⟩
abbrev main_call4_call0_v1 : Ref sig .tc := ⟨.hbm, 324, rfl⟩
abbrev main_v179 : Ref sig .tc := ⟨.hbm, 325, rfl⟩
abbrev main_v180 : Ref sig .tc := ⟨.hbm, 326, rfl⟩
abbrev main_v181 : Ref sig .tc := ⟨.hbm, 327, rfl⟩
abbrev main_v182 : Ref sig .tc := ⟨.hbm, 328, rfl⟩
abbrev main_cst_36 : Ref sig .tc := ⟨.hbm, 329, rfl⟩
abbrev main_v183 : Ref sig .tc := ⟨.hbm, 330, rfl⟩
abbrev main_v184 : Ref sig .tc := ⟨.hbm, 331, rfl⟩
abbrev main_v185 : Ref sig .tc := ⟨.hbm, 332, rfl⟩
abbrev main_v186 : Ref sig .tc := ⟨.hbm, 333, rfl⟩
abbrev main_v187 : Ref sig .tc := ⟨.hbm, 334, rfl⟩
abbrev main_v188 : Ref sig .tc := ⟨.hbm, 335, rfl⟩
abbrev main_v189 : Ref sig .tc := ⟨.hbm, 336, rfl⟩
abbrev main_v190 : Ref sig .tc := ⟨.hbm, 337, rfl⟩
abbrev main_v191 : Ref sig .tc := ⟨.hbm, 338, rfl⟩
abbrev main_v192 : Ref sig .tc := ⟨.hbm, 339, rfl⟩
abbrev main_v193 : Ref sig .tc := ⟨.hbm, 340, rfl⟩
abbrev main_v194 : Ref sig .tc := ⟨.hbm, 341, rfl⟩
abbrev main_v195 : Ref sig .tc := ⟨.hbm, 342, rfl⟩
abbrev main_v196 : Ref sig .tc := ⟨.hbm, 343, rfl⟩
abbrev main_v197 : Ref sig .tc := ⟨.hbm, 344, rfl⟩
abbrev main_v198 : Ref sig .tc := ⟨.hbm, 345, rfl⟩
abbrev main_c_37 : Ref sig .tc := ⟨.hbm, 346, rfl⟩
abbrev main_v199 : Ref sig .tc := ⟨.hbm, 347, rfl⟩
abbrev main_v200 : Ref sig .tc := ⟨.hbm, 348, rfl⟩
abbrev main_c_38 : Ref sig .tc := ⟨.hbm, 349, rfl⟩
abbrev main_v201 : Ref sig .tc := ⟨.hbm, 350, rfl⟩
abbrev main_v202 : Ref sig .tc := ⟨.hbm, 351, rfl⟩
abbrev main_v203 : Ref sig .tc := ⟨.hbm, 352, rfl⟩
abbrev main_v204 : Ref sig .tc := ⟨.hbm, 353, rfl⟩
abbrev main_v205 : Ref sig .tc := ⟨.hbm, 354, rfl⟩
abbrev main_v206 : Ref sig .tc := ⟨.hbm, 355, rfl⟩
abbrev main_v207 : Ref sig .tc := ⟨.hbm, 356, rfl⟩
abbrev main_v208 : Ref sig .tc := ⟨.hbm, 357, rfl⟩
abbrev main_v209 : Ref sig .tc := ⟨.hbm, 358, rfl⟩
abbrev main_v210 : Ref sig .tc := ⟨.hbm, 359, rfl⟩
abbrev main_v211 : Ref sig .tc := ⟨.hbm, 360, rfl⟩
abbrev main_v212 : Ref sig .tc := ⟨.hbm, 361, rfl⟩
abbrev main_v213 : Ref sig .tc := ⟨.hbm, 362, rfl⟩
abbrev main_v214 : Ref sig .tc := ⟨.hbm, 363, rfl⟩
abbrev main_v215 : Ref sig .tc := ⟨.hbm, 364, rfl⟩
abbrev main_v216 : Ref sig .tc := ⟨.hbm, 365, rfl⟩
abbrev main_c_39 : Ref sig .tc := ⟨.hbm, 366, rfl⟩
abbrev main_v217 : Ref sig .tc := ⟨.hbm, 367, rfl⟩
abbrev main_v218 : Ref sig .tc := ⟨.hbm, 368, rfl⟩
abbrev main_c_40 : Ref sig .tc := ⟨.hbm, 369, rfl⟩
abbrev main_v219 : Ref sig .tc := ⟨.hbm, 370, rfl⟩
abbrev main_v220 : Ref sig .tc := ⟨.hbm, 371, rfl⟩
abbrev main_v221 : Ref sig .tc := ⟨.hbm, 372, rfl⟩
abbrev main_v222 : Ref sig .tc := ⟨.hbm, 373, rfl⟩
abbrev main_v223 : Ref sig .tc := ⟨.hbm, 374, rfl⟩
abbrev main_v224 : Ref sig .tc := ⟨.hbm, 375, rfl⟩
abbrev main_v225 : Ref sig .tc := ⟨.hbm, 376, rfl⟩
abbrev main_cst_41 : Ref sig .tc := ⟨.hbm, 377, rfl⟩
abbrev main_v226 : Ref sig .tc := ⟨.hbm, 378, rfl⟩
abbrev main_v227 : Ref sig .tc := ⟨.hbm, 379, rfl⟩
abbrev main_v228 : Ref sig .tc := ⟨.hbm, 380, rfl⟩
abbrev main_v229 : Ref sig .tc := ⟨.hbm, 381, rfl⟩
abbrev main_v230 : Ref sig .tc := ⟨.hbm, 382, rfl⟩
abbrev main_v231 : Ref sig .tc := ⟨.hbm, 383, rfl⟩
abbrev main_v232 : Ref sig .tc := ⟨.hbm, 384, rfl⟩
abbrev main_v233 : Ref sig .tc := ⟨.hbm, 385, rfl⟩
abbrev main_v234 : Ref sig .tc := ⟨.hbm, 386, rfl⟩
abbrev main_v235 : Ref sig .tc := ⟨.hbm, 387, rfl⟩
abbrev main_v236 : Ref sig .tc := ⟨.hbm, 388, rfl⟩
abbrev main_cst_42 : Ref sig .tc := ⟨.hbm, 389, rfl⟩
abbrev main_v237 : Ref sig .tc := ⟨.hbm, 390, rfl⟩
abbrev main_cst_43 : Ref sig .tc := ⟨.hbm, 391, rfl⟩
abbrev main_v238 : Ref sig .tc := ⟨.hbm, 392, rfl⟩
abbrev main_v239 : Ref sig .tc := ⟨.hbm, 393, rfl⟩
abbrev main_c_44 : Ref sig .tc := ⟨.hbm, 394, rfl⟩
abbrev main_call5_cst : Ref sig .tc := ⟨.hbm, 395, rfl⟩
abbrev main_call5_v0 : Ref sig .tc := ⟨.hbm, 396, rfl⟩
abbrev main_call5_v1 : Ref sig .tc := ⟨.hbm, 397, rfl⟩
abbrev main_call5_cst_0 : Ref sig .tc := ⟨.hbm, 398, rfl⟩
abbrev main_call5_v2 : Ref sig .tc := ⟨.hbm, 399, rfl⟩
abbrev main_call5_v3 : Ref sig .tc := ⟨.hbm, 400, rfl⟩
abbrev main_call5_v4 : Ref sig .tc := ⟨.hbm, 401, rfl⟩
abbrev main_call5_v5 : Ref sig .tc := ⟨.hbm, 402, rfl⟩
abbrev main_call5_v6 : Ref sig .tc := ⟨.hbm, 403, rfl⟩
abbrev main_call5_v7 : Ref sig .tc := ⟨.hbm, 404, rfl⟩
abbrev main_call5_cst_1 : Ref sig .tc := ⟨.hbm, 405, rfl⟩
abbrev main_call5_v8 : Ref sig .tc := ⟨.hbm, 406, rfl⟩
abbrev main_call5_cst_2 : Ref sig .tc := ⟨.hbm, 407, rfl⟩
abbrev main_call5_v9 : Ref sig .tc := ⟨.hbm, 408, rfl⟩
abbrev main_call5_v10 : Ref sig .tc := ⟨.hbm, 409, rfl⟩
abbrev main_call5_v11 : Ref sig .tc := ⟨.hbm, 410, rfl⟩
abbrev main_call5_cst_3 : Ref sig .tc := ⟨.hbm, 411, rfl⟩
abbrev main_call5_v12 : Ref sig .tc := ⟨.hbm, 412, rfl⟩
abbrev main_call5_cst_4 : Ref sig .tc := ⟨.hbm, 413, rfl⟩
abbrev main_call5_call0_v0 : Ref sig .tc := ⟨.hbm, 414, rfl⟩
abbrev main_call5_call0_v1 : Ref sig .tc := ⟨.hbm, 415, rfl⟩
abbrev main_v240 : Ref sig .tc := ⟨.hbm, 416, rfl⟩
abbrev main_cst_45 : Ref sig .tc := ⟨.hbm, 417, rfl⟩
abbrev main_v241 : Ref sig .tc := ⟨.hbm, 418, rfl⟩
abbrev main_v242 : Ref sig .tc := ⟨.hbm, 419, rfl⟩
abbrev main_v243 : Ref sig .tc := ⟨.hbm, 420, rfl⟩
abbrev main_cst_46 : Ref sig .tc := ⟨.hbm, 421, rfl⟩
abbrev main_v244 : Ref sig .tc := ⟨.hbm, 422, rfl⟩
abbrev main_cst_47 : Ref sig .tc := ⟨.hbm, 423, rfl⟩
abbrev main_v245 : Ref sig .tc := ⟨.hbm, 424, rfl⟩
abbrev main_v246 : Ref sig .tc := ⟨.hbm, 425, rfl⟩
abbrev main_v247 : Ref sig .tc := ⟨.hbm, 426, rfl⟩
abbrev main_cst_48 : Ref sig .tc := ⟨.hbm, 427, rfl⟩
abbrev main_v248 : Ref sig .tc := ⟨.hbm, 428, rfl⟩
abbrev main_v249 : Ref sig .tc := ⟨.hbm, 429, rfl⟩
abbrev main_v250 : Ref sig .tc := ⟨.hbm, 430, rfl⟩
abbrev main_v251 : Ref sig .tc := ⟨.hbm, 431, rfl⟩
abbrev main_v252 : Ref sig .tc := ⟨.hbm, 432, rfl⟩
abbrev main_v253 : Ref sig .tc := ⟨.hbm, 433, rfl⟩
abbrev main_c_49 : Ref sig .tc := ⟨.hbm, 434, rfl⟩
abbrev main_v254 : Ref sig .tc := ⟨.hbm, 435, rfl⟩
abbrev main_v255 : Ref sig .tc := ⟨.hbm, 436, rfl⟩
abbrev main_c_50 : Ref sig .tc := ⟨.hbm, 437, rfl⟩
abbrev main_v256 : Ref sig .tc := ⟨.hbm, 438, rfl⟩
abbrev main_v257 : Ref sig .tc := ⟨.hbm, 439, rfl⟩
abbrev main_v258 : Ref sig .tc := ⟨.hbm, 440, rfl⟩
abbrev main_v259 : Ref sig .tc := ⟨.hbm, 441, rfl⟩
abbrev main_v260 : Ref sig .tc := ⟨.hbm, 442, rfl⟩
abbrev main_v261 : Ref sig .tc := ⟨.hbm, 443, rfl⟩
abbrev main_v262 : Ref sig .tc := ⟨.hbm, 444, rfl⟩
abbrev main_cst_51 : Ref sig .tc := ⟨.hbm, 445, rfl⟩
abbrev main_v263 : Ref sig .tc := ⟨.hbm, 446, rfl⟩
abbrev main_v264 : Ref sig .tc := ⟨.hbm, 447, rfl⟩
abbrev main_v265 : Ref sig .tc := ⟨.hbm, 448, rfl⟩
abbrev main_v266 : Ref sig .tc := ⟨.hbm, 449, rfl⟩
abbrev main_v267 : Ref sig .tc := ⟨.hbm, 450, rfl⟩
abbrev main_v268 : Ref sig .tc := ⟨.hbm, 451, rfl⟩
abbrev main_v269 : Ref sig .tc := ⟨.hbm, 452, rfl⟩
abbrev main_v270 : Ref sig .tc := ⟨.hbm, 453, rfl⟩
abbrev main_v271 : Ref sig .tc := ⟨.hbm, 454, rfl⟩
abbrev main_v272 : Ref sig .tc := ⟨.hbm, 455, rfl⟩
abbrev main_v273 : Ref sig .tc := ⟨.hbm, 456, rfl⟩
abbrev main_v274 : Ref sig .tc := ⟨.hbm, 457, rfl⟩
abbrev main_v275 : Ref sig .tc := ⟨.hbm, 458, rfl⟩
abbrev main_v276 : Ref sig .tc := ⟨.hbm, 459, rfl⟩
abbrev main_v277 : Ref sig .tc := ⟨.hbm, 460, rfl⟩
abbrev main_cst_52 : Ref sig .tc := ⟨.hbm, 461, rfl⟩
abbrev main_v278 : Ref sig .tc := ⟨.hbm, 462, rfl⟩
abbrev main_cst_53 : Ref sig .tc := ⟨.hbm, 463, rfl⟩
abbrev main_v279 : Ref sig .tc := ⟨.hbm, 464, rfl⟩
abbrev main_v280 : Ref sig .tc := ⟨.hbm, 465, rfl⟩
abbrev main_c_54 : Ref sig .tc := ⟨.hbm, 466, rfl⟩
abbrev main_call6_cst : Ref sig .tc := ⟨.hbm, 467, rfl⟩
abbrev main_call6_v0 : Ref sig .tc := ⟨.hbm, 468, rfl⟩
abbrev main_call6_v1 : Ref sig .tc := ⟨.hbm, 469, rfl⟩
abbrev main_call6_cst_0 : Ref sig .tc := ⟨.hbm, 470, rfl⟩
abbrev main_call6_v2 : Ref sig .tc := ⟨.hbm, 471, rfl⟩
abbrev main_call6_v3 : Ref sig .tc := ⟨.hbm, 472, rfl⟩
abbrev main_call6_v4 : Ref sig .tc := ⟨.hbm, 473, rfl⟩
abbrev main_call6_v5 : Ref sig .tc := ⟨.hbm, 474, rfl⟩
abbrev main_call6_v6 : Ref sig .tc := ⟨.hbm, 475, rfl⟩
abbrev main_call6_v7 : Ref sig .tc := ⟨.hbm, 476, rfl⟩
abbrev main_call6_cst_1 : Ref sig .tc := ⟨.hbm, 477, rfl⟩
abbrev main_call6_v8 : Ref sig .tc := ⟨.hbm, 478, rfl⟩
abbrev main_call6_cst_2 : Ref sig .tc := ⟨.hbm, 479, rfl⟩
abbrev main_call6_v9 : Ref sig .tc := ⟨.hbm, 480, rfl⟩
abbrev main_call6_v10 : Ref sig .tc := ⟨.hbm, 481, rfl⟩
abbrev main_call6_v11 : Ref sig .tc := ⟨.hbm, 482, rfl⟩
abbrev main_call6_cst_3 : Ref sig .tc := ⟨.hbm, 483, rfl⟩
abbrev main_call6_v12 : Ref sig .tc := ⟨.hbm, 484, rfl⟩
abbrev main_call6_cst_4 : Ref sig .tc := ⟨.hbm, 485, rfl⟩
abbrev main_call6_call0_v0 : Ref sig .tc := ⟨.hbm, 486, rfl⟩
abbrev main_call6_call0_v1 : Ref sig .tc := ⟨.hbm, 487, rfl⟩
abbrev main_v281 : Ref sig .tc := ⟨.hbm, 488, rfl⟩
abbrev main_v282 : Ref sig .tc := ⟨.hbm, 489, rfl⟩
abbrev main_v283 : Ref sig .tc := ⟨.hbm, 490, rfl⟩
abbrev main_v284 : Ref sig .tc := ⟨.hbm, 491, rfl⟩
abbrev main_cst_55 : Ref sig .tc := ⟨.hbm, 492, rfl⟩
abbrev main_v285 : Ref sig .tc := ⟨.hbm, 493, rfl⟩
abbrev main_v286 : Ref sig .tc := ⟨.hbm, 494, rfl⟩
abbrev main_v287 : Ref sig .tc := ⟨.hbm, 495, rfl⟩
abbrev main_v288 : Ref sig .tc := ⟨.hbm, 496, rfl⟩
abbrev main_v289 : Ref sig .tc := ⟨.hbm, 497, rfl⟩
abbrev main_v290 : Ref sig .tc := ⟨.hbm, 498, rfl⟩
abbrev main_v291 : Ref sig .tc := ⟨.hbm, 499, rfl⟩
abbrev main_v292 : Ref sig .tc := ⟨.hbm, 500, rfl⟩
abbrev main_v293 : Ref sig .tc := ⟨.hbm, 501, rfl⟩
abbrev main_v294 : Ref sig .tc := ⟨.hbm, 502, rfl⟩
abbrev main_v295 : Ref sig .tc := ⟨.hbm, 503, rfl⟩
abbrev main_v296 : Ref sig .tc := ⟨.hbm, 504, rfl⟩
abbrev main_v297 : Ref sig .tc := ⟨.hbm, 505, rfl⟩
abbrev main_v298 : Ref sig .tc := ⟨.hbm, 506, rfl⟩
abbrev main_v299 : Ref sig .tc := ⟨.hbm, 507, rfl⟩
abbrev main_v300 : Ref sig .tc := ⟨.hbm, 508, rfl⟩
abbrev main_c_56 : Ref sig .tc := ⟨.hbm, 509, rfl⟩
abbrev main_v301 : Ref sig .tc := ⟨.hbm, 510, rfl⟩
abbrev main_v302 : Ref sig .tc := ⟨.hbm, 511, rfl⟩
abbrev main_c_57 : Ref sig .tc := ⟨.hbm, 512, rfl⟩
abbrev main_v303 : Ref sig .tc := ⟨.hbm, 513, rfl⟩
abbrev main_v304 : Ref sig .tc := ⟨.hbm, 514, rfl⟩
abbrev main_v305 : Ref sig .tc := ⟨.hbm, 515, rfl⟩
abbrev main_v306 : Ref sig .tc := ⟨.hbm, 516, rfl⟩
abbrev main_v307 : Ref sig .tc := ⟨.hbm, 517, rfl⟩
abbrev main_v308 : Ref sig .tc := ⟨.hbm, 518, rfl⟩
abbrev main_v309 : Ref sig .tc := ⟨.hbm, 519, rfl⟩
abbrev main_v310 : Ref sig .tc := ⟨.hbm, 520, rfl⟩
abbrev main_v311 : Ref sig .tc := ⟨.hbm, 521, rfl⟩
abbrev main_v312 : Ref sig .tc := ⟨.hbm, 522, rfl⟩
abbrev main_v313 : Ref sig .tc := ⟨.hbm, 523, rfl⟩
abbrev main_v314 : Ref sig .tc := ⟨.hbm, 524, rfl⟩
abbrev main_v315 : Ref sig .tc := ⟨.hbm, 525, rfl⟩
abbrev main_v316 : Ref sig .tc := ⟨.hbm, 526, rfl⟩
abbrev main_v317 : Ref sig .tc := ⟨.hbm, 527, rfl⟩
abbrev main_v318 : Ref sig .tc := ⟨.hbm, 528, rfl⟩
abbrev main_c_58 : Ref sig .tc := ⟨.hbm, 529, rfl⟩
abbrev main_v319 : Ref sig .tc := ⟨.hbm, 530, rfl⟩
abbrev main_v320 : Ref sig .tc := ⟨.hbm, 531, rfl⟩
abbrev main_c_59 : Ref sig .tc := ⟨.hbm, 532, rfl⟩
abbrev main_v321 : Ref sig .tc := ⟨.hbm, 533, rfl⟩
abbrev main_v322 : Ref sig .tc := ⟨.hbm, 534, rfl⟩
abbrev main_v323 : Ref sig .tc := ⟨.hbm, 535, rfl⟩
abbrev main_v324 : Ref sig .tc := ⟨.hbm, 536, rfl⟩
abbrev main_v325 : Ref sig .tc := ⟨.hbm, 537, rfl⟩
abbrev main_v326 : Ref sig .tc := ⟨.hbm, 538, rfl⟩
abbrev main_v327 : Ref sig .tc := ⟨.hbm, 539, rfl⟩
abbrev main_cst_60 : Ref sig .tc := ⟨.hbm, 540, rfl⟩
abbrev main_v328 : Ref sig .tc := ⟨.hbm, 541, rfl⟩
abbrev main_v329 : Ref sig .tc := ⟨.hbm, 542, rfl⟩
abbrev main_v330 : Ref sig .tc := ⟨.hbm, 543, rfl⟩
abbrev main_v331 : Ref sig .tc := ⟨.hbm, 544, rfl⟩
abbrev main_v332 : Ref sig .tc := ⟨.hbm, 545, rfl⟩
abbrev main_v333 : Ref sig .tc := ⟨.hbm, 546, rfl⟩
abbrev main_v334 : Ref sig .tc := ⟨.hbm, 547, rfl⟩
abbrev main_v335 : Ref sig .tc := ⟨.hbm, 548, rfl⟩
abbrev main_v336 : Ref sig .tc := ⟨.hbm, 549, rfl⟩
abbrev main_v337 : Ref sig .tc := ⟨.hbm, 550, rfl⟩
abbrev main_v338 : Ref sig .tc := ⟨.hbm, 551, rfl⟩
abbrev main_cst_61 : Ref sig .tc := ⟨.hbm, 552, rfl⟩
abbrev main_v339 : Ref sig .tc := ⟨.hbm, 553, rfl⟩
abbrev main_cst_62 : Ref sig .tc := ⟨.hbm, 554, rfl⟩
abbrev main_v340 : Ref sig .tc := ⟨.hbm, 555, rfl⟩
abbrev main_v341 : Ref sig .tc := ⟨.hbm, 556, rfl⟩
abbrev main_c_63 : Ref sig .tc := ⟨.hbm, 557, rfl⟩
abbrev main_call7_cst : Ref sig .tc := ⟨.hbm, 558, rfl⟩
abbrev main_call7_v0 : Ref sig .tc := ⟨.hbm, 559, rfl⟩
abbrev main_call7_v1 : Ref sig .tc := ⟨.hbm, 560, rfl⟩
abbrev main_call7_cst_0 : Ref sig .tc := ⟨.hbm, 561, rfl⟩
abbrev main_call7_v2 : Ref sig .tc := ⟨.hbm, 562, rfl⟩
abbrev main_call7_v3 : Ref sig .tc := ⟨.hbm, 563, rfl⟩
abbrev main_call7_v4 : Ref sig .tc := ⟨.hbm, 564, rfl⟩
abbrev main_call7_v5 : Ref sig .tc := ⟨.hbm, 565, rfl⟩
abbrev main_call7_v6 : Ref sig .tc := ⟨.hbm, 566, rfl⟩
abbrev main_call7_v7 : Ref sig .tc := ⟨.hbm, 567, rfl⟩
abbrev main_call7_cst_1 : Ref sig .tc := ⟨.hbm, 568, rfl⟩
abbrev main_call7_v8 : Ref sig .tc := ⟨.hbm, 569, rfl⟩
abbrev main_call7_cst_2 : Ref sig .tc := ⟨.hbm, 570, rfl⟩
abbrev main_call7_v9 : Ref sig .tc := ⟨.hbm, 571, rfl⟩
abbrev main_call7_v10 : Ref sig .tc := ⟨.hbm, 572, rfl⟩
abbrev main_call7_v11 : Ref sig .tc := ⟨.hbm, 573, rfl⟩
abbrev main_call7_cst_3 : Ref sig .tc := ⟨.hbm, 574, rfl⟩
abbrev main_call7_v12 : Ref sig .tc := ⟨.hbm, 575, rfl⟩
abbrev main_call7_cst_4 : Ref sig .tc := ⟨.hbm, 576, rfl⟩
abbrev main_call7_call0_v0 : Ref sig .tc := ⟨.hbm, 577, rfl⟩
abbrev main_call7_call0_v1 : Ref sig .tc := ⟨.hbm, 578, rfl⟩
abbrev main_v342 : Ref sig .tc := ⟨.hbm, 579, rfl⟩
abbrev main_cst_64 : Ref sig .tc := ⟨.hbm, 580, rfl⟩
abbrev main_v343 : Ref sig .tc := ⟨.hbm, 581, rfl⟩
abbrev main_v344 : Ref sig .tc := ⟨.hbm, 582, rfl⟩
abbrev main_v345 : Ref sig .tc := ⟨.hbm, 583, rfl⟩
abbrev main_cst_65 : Ref sig .tc := ⟨.hbm, 584, rfl⟩
abbrev main_v346 : Ref sig .tc := ⟨.hbm, 585, rfl⟩
abbrev main_cst_66 : Ref sig .tc := ⟨.hbm, 586, rfl⟩
abbrev main_v347 : Ref sig .tc := ⟨.hbm, 587, rfl⟩
abbrev main_v348 : Ref sig .tc := ⟨.hbm, 588, rfl⟩
abbrev main_v349 : Ref sig .tc := ⟨.hbm, 589, rfl⟩
abbrev main_cst_67 : Ref sig .tc := ⟨.hbm, 590, rfl⟩
abbrev main_v350 : Ref sig .tc := ⟨.hbm, 591, rfl⟩
abbrev main_v351 : Ref sig .tc := ⟨.hbm, 592, rfl⟩
abbrev main_v352 : Ref sig .tc := ⟨.hbm, 593, rfl⟩
abbrev main_v353 : Ref sig .tc := ⟨.hbm, 594, rfl⟩
abbrev main_v354 : Ref sig .tc := ⟨.hbm, 595, rfl⟩
abbrev main_v355 : Ref sig .tc := ⟨.hbm, 596, rfl⟩
abbrev main_c_68 : Ref sig .tc := ⟨.hbm, 597, rfl⟩
abbrev main_v356 : Ref sig .tc := ⟨.hbm, 598, rfl⟩
abbrev main_v357 : Ref sig .tc := ⟨.hbm, 599, rfl⟩
abbrev main_c_69 : Ref sig .tc := ⟨.hbm, 600, rfl⟩
abbrev main_v358 : Ref sig .tc := ⟨.hbm, 601, rfl⟩
abbrev main_v359 : Ref sig .tc := ⟨.hbm, 602, rfl⟩
abbrev main_v360 : Ref sig .tc := ⟨.hbm, 603, rfl⟩
abbrev main_v361 : Ref sig .tc := ⟨.hbm, 604, rfl⟩
abbrev main_v362 : Ref sig .tc := ⟨.hbm, 605, rfl⟩
abbrev main_v363 : Ref sig .tc := ⟨.hbm, 606, rfl⟩
abbrev main_v364 : Ref sig .tc := ⟨.hbm, 607, rfl⟩
abbrev main_cst_70 : Ref sig .tc := ⟨.hbm, 608, rfl⟩
abbrev main_v365 : Ref sig .tc := ⟨.hbm, 609, rfl⟩
abbrev main_v366 : Ref sig .tc := ⟨.hbm, 610, rfl⟩
abbrev main_v367 : Ref sig .tc := ⟨.hbm, 611, rfl⟩
abbrev main_v368 : Ref sig .tc := ⟨.hbm, 612, rfl⟩
abbrev main_v369 : Ref sig .tc := ⟨.hbm, 613, rfl⟩
abbrev main_v370 : Ref sig .tc := ⟨.hbm, 614, rfl⟩
abbrev main_v371 : Ref sig .tc := ⟨.hbm, 615, rfl⟩
abbrev main_v372 : Ref sig .tc := ⟨.hbm, 616, rfl⟩
abbrev main_v373 : Ref sig .tc := ⟨.hbm, 617, rfl⟩
abbrev main_v374 : Ref sig .tc := ⟨.hbm, 618, rfl⟩
abbrev main_v375 : Ref sig .tc := ⟨.hbm, 619, rfl⟩
abbrev main_v376 : Ref sig .tc := ⟨.hbm, 620, rfl⟩
abbrev main_v377 : Ref sig .tc := ⟨.hbm, 621, rfl⟩
abbrev main_v378 : Ref sig .tc := ⟨.hbm, 622, rfl⟩
abbrev main_v379 : Ref sig .tc := ⟨.hbm, 623, rfl⟩
abbrev main_cst_71 : Ref sig .tc := ⟨.hbm, 624, rfl⟩
abbrev main_v380 : Ref sig .tc := ⟨.hbm, 625, rfl⟩
abbrev main_cst_72 : Ref sig .tc := ⟨.hbm, 626, rfl⟩
abbrev main_v381 : Ref sig .tc := ⟨.hbm, 627, rfl⟩
abbrev main_v382 : Ref sig .tc := ⟨.hbm, 628, rfl⟩
abbrev main_c_73 : Ref sig .tc := ⟨.hbm, 629, rfl⟩
abbrev main_call8_cst : Ref sig .tc := ⟨.hbm, 630, rfl⟩
abbrev main_call8_v0 : Ref sig .tc := ⟨.hbm, 631, rfl⟩
abbrev main_call8_v1 : Ref sig .tc := ⟨.hbm, 632, rfl⟩
abbrev main_call8_cst_0 : Ref sig .tc := ⟨.hbm, 633, rfl⟩
abbrev main_call8_v2 : Ref sig .tc := ⟨.hbm, 634, rfl⟩
abbrev main_call8_v3 : Ref sig .tc := ⟨.hbm, 635, rfl⟩
abbrev main_call8_v4 : Ref sig .tc := ⟨.hbm, 636, rfl⟩
abbrev main_call8_v5 : Ref sig .tc := ⟨.hbm, 637, rfl⟩
abbrev main_call8_v6 : Ref sig .tc := ⟨.hbm, 638, rfl⟩
abbrev main_call8_v7 : Ref sig .tc := ⟨.hbm, 639, rfl⟩
abbrev main_call8_cst_1 : Ref sig .tc := ⟨.hbm, 640, rfl⟩
abbrev main_call8_v8 : Ref sig .tc := ⟨.hbm, 641, rfl⟩
abbrev main_call8_cst_2 : Ref sig .tc := ⟨.hbm, 642, rfl⟩
abbrev main_call8_v9 : Ref sig .tc := ⟨.hbm, 643, rfl⟩
abbrev main_call8_v10 : Ref sig .tc := ⟨.hbm, 644, rfl⟩
abbrev main_call8_v11 : Ref sig .tc := ⟨.hbm, 645, rfl⟩
abbrev main_call8_cst_3 : Ref sig .tc := ⟨.hbm, 646, rfl⟩
abbrev main_call8_v12 : Ref sig .tc := ⟨.hbm, 647, rfl⟩
abbrev main_call8_cst_4 : Ref sig .tc := ⟨.hbm, 648, rfl⟩
abbrev main_call8_call0_v0 : Ref sig .tc := ⟨.hbm, 649, rfl⟩
abbrev main_call8_call0_v1 : Ref sig .tc := ⟨.hbm, 650, rfl⟩
abbrev main_v383 : Ref sig .tc := ⟨.hbm, 651, rfl⟩
abbrev main_v384 : Ref sig .tc := ⟨.hbm, 652, rfl⟩
abbrev main_v385 : Ref sig .tc := ⟨.hbm, 653, rfl⟩
abbrev main_v386 : Ref sig .tc := ⟨.hbm, 654, rfl⟩
abbrev main_cst_74 : Ref sig .tc := ⟨.hbm, 655, rfl⟩
abbrev main_v387 : Ref sig .tc := ⟨.hbm, 656, rfl⟩
abbrev main_v388 : Ref sig .tc := ⟨.hbm, 657, rfl⟩
abbrev main_v389 : Ref sig .tc := ⟨.hbm, 658, rfl⟩
abbrev main_v390 : Ref sig .tc := ⟨.hbm, 659, rfl⟩
abbrev main_v391 : Ref sig .tc := ⟨.hbm, 660, rfl⟩
abbrev main_v392 : Ref sig .tc := ⟨.hbm, 661, rfl⟩
abbrev main_v393 : Ref sig .tc := ⟨.hbm, 662, rfl⟩
abbrev main_v394 : Ref sig .tc := ⟨.hbm, 663, rfl⟩
abbrev main_v395 : Ref sig .tc := ⟨.hbm, 664, rfl⟩
abbrev main_v396 : Ref sig .tc := ⟨.hbm, 665, rfl⟩
abbrev main_v397 : Ref sig .tc := ⟨.hbm, 666, rfl⟩
abbrev main_v398 : Ref sig .tc := ⟨.hbm, 667, rfl⟩
abbrev main_v399 : Ref sig .tc := ⟨.hbm, 668, rfl⟩
abbrev main_v400 : Ref sig .tc := ⟨.hbm, 669, rfl⟩
abbrev main_v401 : Ref sig .tc := ⟨.hbm, 670, rfl⟩
abbrev main_v402 : Ref sig .tc := ⟨.hbm, 671, rfl⟩
abbrev main_c_75 : Ref sig .tc := ⟨.hbm, 672, rfl⟩
abbrev main_v403 : Ref sig .tc := ⟨.hbm, 673, rfl⟩
abbrev main_v404 : Ref sig .tc := ⟨.hbm, 674, rfl⟩
abbrev main_c_76 : Ref sig .tc := ⟨.hbm, 675, rfl⟩
abbrev main_v405 : Ref sig .tc := ⟨.hbm, 676, rfl⟩
abbrev main_v406 : Ref sig .tc := ⟨.hbm, 677, rfl⟩
abbrev main_v407 : Ref sig .tc := ⟨.hbm, 678, rfl⟩
abbrev main_v408 : Ref sig .tc := ⟨.hbm, 679, rfl⟩
abbrev main_v409 : Ref sig .tc := ⟨.hbm, 680, rfl⟩
abbrev main_v410 : Ref sig .tc := ⟨.hbm, 681, rfl⟩
abbrev main_v411 : Ref sig .tc := ⟨.hbm, 682, rfl⟩
abbrev main_v412 : Ref sig .tc := ⟨.hbm, 683, rfl⟩
abbrev main_v413 : Ref sig .tc := ⟨.hbm, 684, rfl⟩
abbrev main_v414 : Ref sig .tc := ⟨.hbm, 685, rfl⟩
abbrev main_v415 : Ref sig .tc := ⟨.hbm, 686, rfl⟩
abbrev main_v416 : Ref sig .tc := ⟨.hbm, 687, rfl⟩
abbrev main_v417 : Ref sig .tc := ⟨.hbm, 688, rfl⟩
abbrev main_v418 : Ref sig .tc := ⟨.hbm, 689, rfl⟩
abbrev main_cst_77 : Ref sig .tc := ⟨.hbm, 690, rfl⟩
abbrev main_v419 : Ref sig .tc := ⟨.hbm, 691, rfl⟩
abbrev main_v420 : Ref sig .tc := ⟨.hbm, 692, rfl⟩
abbrev main_v421 : Ref sig .tc := ⟨.hbm, 693, rfl⟩
abbrev main_cst_78 : Ref sig .tc := ⟨.hbm, 694, rfl⟩
abbrev main_v422 : Ref sig .tc := ⟨.hbm, 695, rfl⟩
abbrev main_cst_79 : Ref sig .tc := ⟨.hbm, 696, rfl⟩
abbrev main_v423 : Ref sig .tc := ⟨.hbm, 697, rfl⟩
abbrev main_v424 : Ref sig .tc := ⟨.hbm, 698, rfl⟩
abbrev main_v425 : Ref sig .tc := ⟨.hbm, 699, rfl⟩
abbrev main_cst_80 : Ref sig .tc := ⟨.hbm, 700, rfl⟩
abbrev main_v426 : Ref sig .tc := ⟨.hbm, 701, rfl⟩
abbrev main_v427 : Ref sig .tc := ⟨.hbm, 702, rfl⟩
abbrev main_v428 : Ref sig .tc := ⟨.hbm, 703, rfl⟩
abbrev main_v429 : Ref sig .tc := ⟨.hbm, 704, rfl⟩
abbrev main_cst_81 : Ref sig .tc := ⟨.hbm, 705, rfl⟩
abbrev main_v430 : Ref sig .tc := ⟨.hbm, 706, rfl⟩
abbrev main_v431 : Ref sig .tc := ⟨.hbm, 707, rfl⟩
abbrev main_v432 : Ref sig .tc := ⟨.hbm, 708, rfl⟩
abbrev main_cst_82 : Ref sig .tc := ⟨.hbm, 709, rfl⟩
abbrev main_v433 : Ref sig .tc := ⟨.hbm, 710, rfl⟩
abbrev main_cst_83 : Ref sig .tc := ⟨.hbm, 711, rfl⟩
abbrev main_v434 : Ref sig .tc := ⟨.hbm, 712, rfl⟩
abbrev main_v435 : Ref sig .tc := ⟨.hbm, 713, rfl⟩
abbrev main_v436 : Ref sig .tc := ⟨.hbm, 714, rfl⟩
abbrev main_cst_84 : Ref sig .tc := ⟨.hbm, 715, rfl⟩
abbrev main_v437 : Ref sig .tc := ⟨.hbm, 716, rfl⟩
abbrev main_v438 : Ref sig .tc := ⟨.hbm, 717, rfl⟩
abbrev main_v439 : Ref sig .tc := ⟨.hbm, 718, rfl⟩
abbrev main_v440 : Ref sig .tc := ⟨.hbm, 719, rfl⟩
abbrev main_v441 : Ref sig .tc := ⟨.hbm, 720, rfl⟩
abbrev main_v442 : Ref sig .tc := ⟨.hbm, 721, rfl⟩
abbrev main_v443 : Ref sig .tc := ⟨.hbm, 722, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc1_stg6_0 : Ref sig .tc := ⟨.vmem, 17, rfl⟩
abbrev cc1_stg6_1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg1_1 : Ref sig .tc := ⟨.vmem, 22, rfl⟩
abbrev cc2_stg2_0 : Ref sig .tc := ⟨.vmem, 23, rfl⟩
abbrev cc2_stg3_0 : Ref sig .tc := ⟨.vmem, 24, rfl⟩
abbrev cc2_stg4_0 : Ref sig .tc := ⟨.vmem, 25, rfl⟩
abbrev cc2_stg5_0 : Ref sig .tc := ⟨.vmem, 26, rfl⟩
abbrev cc2_stg5_1 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg4_0 : Ref sig .tc := ⟨.vmem, 33, rfl⟩
abbrev cc3_stg5_0 : Ref sig .tc := ⟨.vmem, 34, rfl⟩
abbrev cc3_stg5_1 : Ref sig .tc := ⟨.vmem, 35, rfl⟩
abbrev cc3_stg6_0 : Ref sig .tc := ⟨.vmem, 36, rfl⟩
abbrev cc3_stg6_1 : Ref sig .tc := ⟨.vmem, 37, rfl⟩
abbrev cc4_stg0_0 : Ref sig .tc := ⟨.vmem, 38, rfl⟩
abbrev cc4_stg0_1 : Ref sig .tc := ⟨.vmem, 39, rfl⟩
abbrev cc4_stg1_0 : Ref sig .tc := ⟨.vmem, 40, rfl⟩
abbrev cc4_stg1_1 : Ref sig .tc := ⟨.vmem, 41, rfl⟩
abbrev cc4_stg2_0 : Ref sig .tc := ⟨.vmem, 42, rfl⟩
abbrev cc4_stg3_0 : Ref sig .tc := ⟨.vmem, 43, rfl⟩
abbrev cc4_stg4_0 : Ref sig .tc := ⟨.vmem, 44, rfl⟩
abbrev cc4_stg5_0 : Ref sig .tc := ⟨.vmem, 45, rfl⟩
abbrev cc4_stg5_1 : Ref sig .tc := ⟨.vmem, 46, rfl⟩
abbrev cc5_stg0_0 : Ref sig .tc := ⟨.vmem, 47, rfl⟩
abbrev cc5_stg0_1 : Ref sig .tc := ⟨.vmem, 48, rfl⟩
abbrev cc5_stg1_0 : Ref sig .tc := ⟨.vmem, 49, rfl⟩
abbrev cc5_stg2_0 : Ref sig .tc := ⟨.vmem, 50, rfl⟩
abbrev cc5_stg3_0 : Ref sig .tc := ⟨.vmem, 51, rfl⟩
abbrev cc5_stg4_0 : Ref sig .tc := ⟨.vmem, 52, rfl⟩
abbrev cc5_stg5_0 : Ref sig .tc := ⟨.vmem, 53, rfl⟩
abbrev cc5_stg5_1 : Ref sig .tc := ⟨.vmem, 54, rfl⟩
abbrev cc5_stg6_0 : Ref sig .tc := ⟨.vmem, 55, rfl⟩
abbrev cc5_stg6_1 : Ref sig .tc := ⟨.vmem, 56, rfl⟩
abbrev cc6_stg0_0 : Ref sig .tc := ⟨.vmem, 57, rfl⟩
abbrev cc6_stg0_1 : Ref sig .tc := ⟨.vmem, 58, rfl⟩
abbrev cc6_stg1_0 : Ref sig .tc := ⟨.vmem, 59, rfl⟩
abbrev cc6_stg1_1 : Ref sig .tc := ⟨.vmem, 60, rfl⟩
abbrev cc6_stg2_0 : Ref sig .tc := ⟨.vmem, 61, rfl⟩
abbrev cc6_stg3_0 : Ref sig .tc := ⟨.vmem, 62, rfl⟩
abbrev cc6_stg4_0 : Ref sig .tc := ⟨.vmem, 63, rfl⟩
abbrev cc6_stg5_0 : Ref sig .tc := ⟨.vmem, 64, rfl⟩
abbrev cc6_stg5_1 : Ref sig .tc := ⟨.vmem, 65, rfl⟩
abbrev cc7_stg0_0 : Ref sig .tc := ⟨.vmem, 66, rfl⟩
abbrev cc7_stg0_1 : Ref sig .tc := ⟨.vmem, 67, rfl⟩
abbrev cc7_stg1_0 : Ref sig .tc := ⟨.vmem, 68, rfl⟩
abbrev cc7_stg2_0 : Ref sig .tc := ⟨.vmem, 69, rfl⟩
abbrev cc7_stg3_0 : Ref sig .tc := ⟨.vmem, 70, rfl⟩
abbrev cc7_stg4_0 : Ref sig .tc := ⟨.vmem, 71, rfl⟩
abbrev cc7_stg5_0 : Ref sig .tc := ⟨.vmem, 72, rfl⟩
abbrev cc7_stg5_1 : Ref sig .tc := ⟨.vmem, 73, rfl⟩
abbrev cc7_stg6_0 : Ref sig .tc := ⟨.vmem, 74, rfl⟩
abbrev cc7_stg6_1 : Ref sig .tc := ⟨.vmem, 75, rfl⟩
abbrev cc8_stg0_0 : Ref sig .tc := ⟨.vmem, 76, rfl⟩
abbrev cc8_stg1_0 : Ref sig .tc := ⟨.vmem, 77, rfl⟩
abbrev cc8_stg2_0 : Ref sig .tc := ⟨.vmem, 78, rfl⟩
abbrev cc8_stg3_0 : Ref sig .tc := ⟨.vmem, 79, rfl⟩
abbrev cc8_stg4_0 : Ref sig .tc := ⟨.vmem, 80, rfl⟩
abbrev cc8_stg5_0 : Ref sig .tc := ⟨.vmem, 81, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem5_1 : DmaSem sig := 16
abbrev cc1_sem6_0 : DmaSem sig := 17
abbrev cc1_sem6_1 : DmaSem sig := 18
abbrev cc2_sem0_0 : DmaSem sig := 19
abbrev cc2_sem0_1 : DmaSem sig := 20
abbrev cc2_sem1_0 : DmaSem sig := 21
abbrev cc2_sem1_1 : DmaSem sig := 22
abbrev cc2_sem2_0 : DmaSem sig := 23
abbrev cc2_sem3_0 : DmaSem sig := 24
abbrev cc2_sem4_0 : DmaSem sig := 25
abbrev cc2_sem5_0 : DmaSem sig := 26
abbrev cc2_sem5_1 : DmaSem sig := 27
abbrev cc3_sem0_0 : DmaSem sig := 28
abbrev cc3_sem0_1 : DmaSem sig := 29
abbrev cc3_sem1_0 : DmaSem sig := 30
abbrev cc3_sem2_0 : DmaSem sig := 31
abbrev cc3_sem3_0 : DmaSem sig := 32
abbrev cc3_sem4_0 : DmaSem sig := 33
abbrev cc3_sem5_0 : DmaSem sig := 34
abbrev cc3_sem5_1 : DmaSem sig := 35
abbrev cc3_sem6_0 : DmaSem sig := 36
abbrev cc3_sem6_1 : DmaSem sig := 37
abbrev cc4_sem0_0 : DmaSem sig := 38
abbrev cc4_sem0_1 : DmaSem sig := 39
abbrev cc4_sem1_0 : DmaSem sig := 40
abbrev cc4_sem1_1 : DmaSem sig := 41
abbrev cc4_sem2_0 : DmaSem sig := 42
abbrev cc4_sem3_0 : DmaSem sig := 43
abbrev cc4_sem4_0 : DmaSem sig := 44
abbrev cc4_sem5_0 : DmaSem sig := 45
abbrev cc4_sem5_1 : DmaSem sig := 46
abbrev cc5_sem0_0 : DmaSem sig := 47
abbrev cc5_sem0_1 : DmaSem sig := 48
abbrev cc5_sem1_0 : DmaSem sig := 49
abbrev cc5_sem2_0 : DmaSem sig := 50
abbrev cc5_sem3_0 : DmaSem sig := 51
abbrev cc5_sem4_0 : DmaSem sig := 52
abbrev cc5_sem5_0 : DmaSem sig := 53
abbrev cc5_sem5_1 : DmaSem sig := 54
abbrev cc5_sem6_0 : DmaSem sig := 55
abbrev cc5_sem6_1 : DmaSem sig := 56
abbrev cc6_sem0_0 : DmaSem sig := 57
abbrev cc6_sem0_1 : DmaSem sig := 58
abbrev cc6_sem1_0 : DmaSem sig := 59
abbrev cc6_sem1_1 : DmaSem sig := 60
abbrev cc6_sem2_0 : DmaSem sig := 61
abbrev cc6_sem3_0 : DmaSem sig := 62
abbrev cc6_sem4_0 : DmaSem sig := 63
abbrev cc6_sem5_0 : DmaSem sig := 64
abbrev cc6_sem5_1 : DmaSem sig := 65
abbrev cc7_sem0_0 : DmaSem sig := 66
abbrev cc7_sem0_1 : DmaSem sig := 67
abbrev cc7_sem1_0 : DmaSem sig := 68
abbrev cc7_sem2_0 : DmaSem sig := 69
abbrev cc7_sem3_0 : DmaSem sig := 70
abbrev cc7_sem4_0 : DmaSem sig := 71
abbrev cc7_sem5_0 : DmaSem sig := 72
abbrev cc7_sem5_1 : DmaSem sig := 73
abbrev cc7_sem6_0 : DmaSem sig := 74
abbrev cc7_sem6_1 : DmaSem sig := 75
abbrev cc8_sem0_0 : DmaSem sig := 76
abbrev cc8_sem1_0 : DmaSem sig := 77
abbrev cc8_sem2_0 : DmaSem sig := 78
abbrev cc8_sem3_0 : DmaSem sig := 79
abbrev cc8_sem4_0 : DmaSem sig := 80
abbrev cc8_sem5_0 : DmaSem sig := 81

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S8192x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8192x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S8192x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S8192x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![32], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8192x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S8192x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S8192x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![32], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S8192x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S8192x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S8192x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![32], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S8192x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S8192x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S8192x128 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![32], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S8192x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S8192x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev stage5_6 : Fin 2 → Memref sig .tc .vmem S8192x128 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev grid6 : Pipeline.Grid := ⟨1, ![32], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S8192x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S8192x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S128x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S128x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S8192x128 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev grid7 : Pipeline.Grid := ⟨1, ![32], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_6 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S8192x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x128 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 2 → Memref sig .tc .vmem S8192x128 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

abbrev stage7_6 : Fin 2 → Memref sig .tc .vmem S8192x128 .f32 := fun | 0 => Memref.whole cc7_stg6_0 | 1 => Memref.whole cc7_stg6_1 | ⟨_ + 2, h⟩ => absurd h (Nat.not_lt.2 (Nat.le_add_left _ _))
abbrev sem7_6 : Fin 2 → DmaSem sig := fun | 0 => cc7_sem6_0 | 1 => cc7_sem6_1 | ⟨_ + 2, h⟩ => absurd h (Nat.not_lt.2 (Nat.le_add_left _ _))
abbrev reads7_6 : Fin grid7.rank → Bool := ![true]

abbrev grid8 : Pipeline.Grid := ⟨1, ![1], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage8_0 : Fin 1 → Memref sig .tc .vmem S16x128 .f32 := fun | 0 => Memref.whole cc8_stg0_0 | ⟨_ + 1, h⟩ => absurd h (Nat.not_lt.2 (Nat.le_add_left _ _))
abbrev sem8_0 : Fin 1 → DmaSem sig := fun | 0 => cc8_sem0_0 | ⟨_ + 1, h⟩ => absurd h (Nat.not_lt.2 (Nat.le_add_left _ _))
abbrev reads8_0 : Fin grid8.rank → Bool := ![false]

abbrev stage8_1 : Fin 1 → Memref sig .tc .vmem S128x256 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x256 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S256x10 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x10 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 1 → Memref sig .tc .vmem S16x10 .f32 := fun | 0 => Memref.whole cc8_stg5_0 | ⟨_ + 1, h⟩ => absurd h (Nat.not_lt.2 (Nat.le_add_left _ _))
abbrev sem8_5 : Fin 1 → DmaSem sig := fun | 0 => cc8_sem5_0 | ⟨_ + 1, h⟩ => absurd h (Nat.not_lt.2 (Nat.le_add_left _ _))
abbrev reads8_5 : Fin grid8.rank → Bool := ![false]

class Facts₀ : Prop where
  bcast_S_S1 : S_.BroadcastsInDim S1 (![] : Fin 0 → Fin S1.rank)
  bcast_S_S_ : S_.BroadcastsInDim S_ (![] : Fin 0 → Fin S_.rank)
  reduceWindows_S16_S16_w16s1p15_0 : S16.ReduceWindows (![16] : Fin 1 → Nat) ![1] ![15] ![0] S16
  h_S_ : 0 < S_.numel
  concatenates_S1_S16_S17_d0 : Shape.Concatenates [S1, S16] S17 0
  bcast_S_S262144 : S_.BroadcastsInDim S262144 (![] : Fin 0 → Fin S262144.rank)
  bcast_S262144_S262144x1_0 : S262144.BroadcastsInDim S262144x1 (![0] : Fin 1 → Fin S262144x1.rank)
  slices_S2x2097152_S1x2097152_0_0 : S2x2097152.Slices ![0, 0] S1x2097152
  shapeCasts_S1x2097152_S2097152 : S1x2097152.ShapeCasts S2097152
  bcast_S_S2097152 : S_.BroadcastsInDim S2097152 (![] : Fin 0 → Fin S2097152.rank)
  bcast_S2097152_S2097152x1_0 : S2097152.BroadcastsInDim S2097152x1 (![0] : Fin 1 → Fin S2097152x1.rank)
  slices_S2x2097152_S1x2097152_1_0 : S2x2097152.Slices ![1, 0] S1x2097152
  bcast_S_S262144x128 : S_.BroadcastsInDim S262144x128 (![] : Fin 0 → Fin S262144x128.rank)
  slices_S4x128x128_S1x128x128_0_0_0 : S4x128x128.Slices ![0, 0, 0] S1x128x128
  shapeCasts_S1x128x128_S128x128 : S1x128x128.ShapeCasts S128x128
  slices_S4x128_S1x128_0_0 : S4x128.Slices ![0, 0] S1x128
  shapeCasts_S1x128_S128 : S1x128.ShapeCasts S128
  shapeCasts_S128_S1x128 : S128.ShapeCasts S1x128
  inb_S8192x128_S8192x128_0_0 : ∀ a, (![0, 0] : Fin 2 → Nat) a + S8192x128.size a ≤ S8192x128.size a
  h_S8192x128 : 0 < S8192x128.numel
  bitsLt_bf16_f32 : FTy.bits .bf16 < FTy.bits .f32
  shapeCasts_S8192x128_S8192x128 : S8192x128.ShapeCasts S8192x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S8192x128 : S1x128.Broadcasts S8192x128
  reducesTo_S262144x128_S128_d0 : S262144x128.ReducesTo [0] S128
  bcast_S_S128 : S_.BroadcastsInDim S128 (![] : Fin 0 → Fin S128.rank)
  bcast_S128_S1x128_1 : S128.BroadcastsInDim S1x128 (![1] : Fin 1 → Fin S1x128.rank)
  bcast_S_S1x128 : S_.BroadcastsInDim S1x128 (![] : Fin 0 → Fin S1x128.rank)
  bcast_S1x128_S262144x128_0_1 : S1x128.BroadcastsInDim S262144x128 (![0, 1] : Fin 2 → Fin S262144x128.rank)
  bcast_S_S2048x128 : S_.BroadcastsInDim S2048x128 (![] : Fin 0 → Fin S2048x128.rank)
  bcast_S_S262144x1 : S_.BroadcastsInDim S262144x1 (![] : Fin 0 → Fin S262144x1.rank)
  bcast_S_S2048x1 : S_.BroadcastsInDim S2048x1 (![] : Fin 0 → Fin S2048x1.rank)
  bcast_S2048x1_S2048x128_0_1 : S2048x1.BroadcastsInDim S2048x128 (![0, 1] : Fin 2 → Fin S2048x128.rank)
  slices_S2x32768_S1x32768_0_0 : S2x32768.Slices ![0, 0] S1x32768
  shapeCasts_S1x32768_S32768 : S1x32768.ShapeCasts S32768
  bcast_S_S32768 : S_.BroadcastsInDim S32768 (![] : Fin 0 → Fin S32768.rank)
  bcast_S32768_S32768x1_0 : S32768.BroadcastsInDim S32768x1 (![0] : Fin 1 → Fin S32768x1.rank)
  slices_S2x32768_S1x32768_1_0 : S2x32768.Slices ![1, 0] S1x32768
  bcast_S1x128_S2048x128_0_1 : S1x128.BroadcastsInDim S2048x128 (![0, 1] : Fin 2 → Fin S2048x128.rank)
  reducesTo_S2048x128_S128_d0 : S2048x128.ReducesTo [0] S128
  slices_S4x128x128_S1x128x128_1_0_0 : S4x128x128.Slices ![1, 0, 0] S1x128x128
  slices_S4x128_S1x128_1_0 : S4x128.Slices ![1, 0] S1x128
  slices_S4x128x128_S1x128x128_2_0_0 : S4x128x128.Slices ![2, 0, 0] S1x128x128
  slices_S4x128_S1x128_2_0 : S4x128.Slices ![2, 0] S1x128
  slices_S4x128x128_S1x128x128_3_0_0 : S4x128x128.Slices ![3, 0, 0] S1x128x128
  slices_S4x128_S1x128_3_0 : S4x128.Slices ![3, 0] S1x128
  bcast_S_S16x128 : S_.BroadcastsInDim S16x128 (![] : Fin 0 → Fin S16x128.rank)
  bcast_S2048_S2048x1_0 : S2048.BroadcastsInDim S2048x1 (![0] : Fin 1 → Fin S2048x1.rank)
  bcast_S_S16x1 : S_.BroadcastsInDim S16x1 (![] : Fin 0 → Fin S16x1.rank)
  bcast_S16x1_S16x128_0_1 : S16x1.BroadcastsInDim S16x128 (![0, 1] : Fin 2 → Fin S16x128.rank)
  shapeCasts_S256_S1x256 : S256.ShapeCasts S1x256
  shapeCasts_S10_S1x10 : S10.ShapeCasts S1x10
  inb_S16x128_S16x128_0_0 : ∀ a, (![0, 0] : Fin 2 → Nat) a + S16x128.size a ≤ S16x128.size a
  h_S16x128 : 0 < S16x128.numel
  shapeCasts_S16x128_S16x128 : S16x128.ShapeCasts S16x128
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S16x256 : S1x256.Broadcasts S16x256
  inb_S256x10_S256x10_0_0 : ∀ a, (![0, 0] : Fin 2 → Nat) a + S256x10.size a ≤ S256x10.size a
  h_S256x10 : 0 < S256x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S16x10 : S1x10.Broadcasts S16x10
  inb_S16x10_S16x10_0_0 : ∀ a, (![0, 0] : Fin 2 → Nat) a + S16x10.size a ≤ S16x10.size a
  h_S16x10 : 0 < S16x10.numel
  gather_S17_S262144x1_S262144_n_0_n_n_0_1_1_wf : GatherDims.WF S17 S262144x1 S262144 [] [0] [] [0] [] 1 ![1]
  gather_S262144x128_S2097152x1_S2097152x128_1_0_n_n_0_1_1128_wf : GatherDims.WF S262144x128 S2097152x1 S2097152x128 [1] [0] [] [0] [] 1 ![1, 128]
  scatter_S262144x128_S2097152x1_S2097152x128_1_0_0_1_wf : ScatterDims.WF S262144x128 S2097152x1 S2097152x128 [1] [0] [0] 1
  dot_S8192x128_S128x128_S8192x128_1_0_0_1_n_n_wf : DotDims.WF S8192x128 S128x128 S8192x128 [1] [0] [0] [1] [] []
  scatter_S2048x128_S262144x1_S262144x128_1_0_0_1_wf : ScatterDims.WF S2048x128 S262144x1 S262144x128 [1] [0] [0] 1
  scatter_S2048x1_S262144x1_S262144x1_1_0_0_1_wf : ScatterDims.WF S2048x1 S262144x1 S262144x1 [1] [0] [0] 1
  gather_S2048x128_S32768x1_S32768x128_1_0_n_n_0_1_1128_wf : GatherDims.WF S2048x128 S32768x1 S32768x128 [1] [0] [] [0] [] 1 ![1, 128]
  scatter_S2048x128_S32768x1_S32768x128_1_0_0_1_wf : ScatterDims.WF S2048x128 S32768x1 S32768x128 [1] [0] [0] 1
  dot_S2048x128_S128x128_S2048x128_1_0_0_1_n_n_wf : DotDims.WF S2048x128 S128x128 S2048x128 [1] [0] [0] [1] [] []
  gather_S2048x128_S262144x1_S262144x128_1_0_n_n_0_1_1128_wf : GatherDims.WF S2048x128 S262144x1 S262144x128 [1] [0] [] [0] [] 1 ![1, 128]
  scatter_S16x128_S2048x1_S2048x128_1_0_0_1_wf : ScatterDims.WF S16x128 S2048x1 S2048x128 [1] [0] [0] 1
  scatter_S16x1_S2048x1_S2048x1_1_0_0_1_wf : ScatterDims.WF S16x1 S2048x1 S2048x1 [1] [0] [0] 1
  dot_S16x128_S128x256_S16x256_1_0_0_1_n_n_wf : DotDims.WF S16x128 S128x256 S16x256 [1] [0] [0] [1] [] []
  dot_S16x256_S256x10_S16x10_1_0_0_1_n_n_wf : DotDims.WF S16x256 S256x10 S16x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S262144x128.size a
  hwx0_0 : ∀ i : grid0.Coords, EltTy.bits .f32 = 32 ∨ (Rect.block (s := S262144x128) S8192x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S262144x128.size a
  hwx0_1 : ∀ i : grid0.Coords, EltTy.bits .f32 = 32 ∨ (Rect.block (s := S262144x128) S8192x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8192x128.size a ≤ S262144x128.size a
  hwx0_5 : ∀ i : grid0.Coords, EltTy.bits .f32 = 32 ∨ (Rect.block (s := S262144x128) S8192x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8192x128.size a ≤ S262144x128.size a
  hwx1_0 : ∀ i : grid1.Coords, EltTy.bits .f32 = 32 ∨ (Rect.block (s := S262144x128) S8192x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S8192x128.size a ≤ S262144x128.size a
  hwx1_5 : ∀ i : grid1.Coords, EltTy.bits .f32 = 32 ∨ (Rect.block (s := S262144x128) S8192x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S8192x128.size a ≤ S262144x128.size a
  hwx1_6 : ∀ i : grid1.Coords, EltTy.bits .f32 = 32 ∨ (Rect.block (s := S262144x128) S8192x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8192x128.size a ≤ S262144x128.size a
  hwx2_0 : ∀ i : grid2.Coords, EltTy.bits .f32 = 32 ∨ (Rect.block (s := S262144x128) S8192x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S8192x128.size a ≤ S262144x128.size a
  hwx2_1 : ∀ i : grid2.Coords, EltTy.bits .f32 = 32 ∨ (Rect.block (s := S262144x128) S8192x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S8192x128.size a ≤ S262144x128.size a
  hwx2_5 : ∀ i : grid2.Coords, EltTy.bits .f32 = 32 ∨ (Rect.block (s := S262144x128) S8192x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S8192x128.size a ≤ S262144x128.size a
  hwx3_0 : ∀ i : grid3.Coords, EltTy.bits .f32 = 32 ∨ (Rect.block (s := S262144x128) S8192x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S8192x128.size a ≤ S262144x128.size a
  hwx3_5 : ∀ i : grid3.Coords, EltTy.bits .f32 = 32 ∨ (Rect.block (s := S262144x128) S8192x128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S8192x128.size a ≤ S262144x128.size a
  hwx3_6 : ∀ i : grid3.Coords, EltTy.bits .f32 = 32 ∨ (Rect.block (s := S262144x128) S8192x128.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S8192x128.size a ≤ S262144x128.size a
  hwx4_0 : ∀ i : grid4.Coords, EltTy.bits .f32 = 32 ∨ (Rect.block (s := S262144x128) S8192x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S8192x128.size a ≤ S262144x128.size a
  hwx4_1 : ∀ i : grid4.Coords, EltTy.bits .f32 = 32 ∨ (Rect.block (s := S262144x128) S8192x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .f32 = 32 ∨ (Rect.block (s := S128x128) S128x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x128.size a ≤ S128x128.size a
  hwx4_3 : ∀ i : grid4.Coords, EltTy.bits .f32 = 32 ∨ (Rect.block (s := S128x128) S128x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S8192x128.size a ≤ S262144x128.size a
  hwx4_5 : ∀ i : grid4.Coords, EltTy.bits .f32 = 32 ∨ (Rect.block (s := S262144x128) S8192x128.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S8192x128.size a ≤ S262144x128.size a
  hwx5_0 : ∀ i : grid5.Coords, EltTy.bits .f32 = 32 ∨ (Rect.block (s := S262144x128) S8192x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S8192x128.size a ≤ S262144x128.size a
  hwx5_5 : ∀ i : grid5.Coords, EltTy.bits .f32 = 32 ∨ (Rect.block (s := S262144x128) S8192x128.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S8192x128.size a ≤ S262144x128.size a
  hwx5_6 : ∀ i : grid5.Coords, EltTy.bits .f32 = 32 ∨ (Rect.block (s := S262144x128) S8192x128.size (cc5_transform_6 i) (hinb5_6 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S8192x128.size a ≤ S262144x128.size a
  hwx6_0 : ∀ i : grid6.Coords, EltTy.bits .f32 = 32 ∨ (Rect.block (s := S262144x128) S8192x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S8192x128.size a ≤ S262144x128.size a
  hwx6_1 : ∀ i : grid6.Coords, EltTy.bits .f32 = 32 ∨ (Rect.block (s := S262144x128) S8192x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S128x128.size a ≤ S128x128.size a
  hwx6_2 : ∀ i : grid6.Coords, EltTy.bits .f32 = 32 ∨ (Rect.block (s := S128x128) S128x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S128x128.size a ≤ S128x128.size a
  hwx6_3 : ∀ i : grid6.Coords, EltTy.bits .f32 = 32 ∨ (Rect.block (s := S128x128) S128x128.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x128.size a ≤ S1x128.size a
  hwx6_4 : ∀ i : grid6.Coords, EltTy.bits .f32 = 32 ∨ (Rect.block (s := S1x128) S1x128.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S8192x128.size a ≤ S262144x128.size a
  hwx6_5 : ∀ i : grid6.Coords, EltTy.bits .f32 = 32 ∨ (Rect.block (s := S262144x128) S8192x128.size (cc6_transform_5 i) (hinb6_5 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S8192x128.size a ≤ S262144x128.size a
  hwx7_0 : ∀ i : grid7.Coords, EltTy.bits .f32 = 32 ∨ (Rect.block (s := S262144x128) S8192x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x128.size a ≤ S1x128.size a
  hwx7_1 : ∀ i : grid7.Coords, EltTy.bits .f32 = 32 ∨ (Rect.block (s := S1x128) S1x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x128.size a ≤ S1x128.size a
  hwx7_2 : ∀ i : grid7.Coords, EltTy.bits .f32 = 32 ∨ (Rect.block (s := S1x128) S1x128.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x128.size a ≤ S1x128.size a
  hwx7_3 : ∀ i : grid7.Coords, EltTy.bits .f32 = 32 ∨ (Rect.block (s := S1x128) S1x128.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x128.size a ≤ S1x128.size a
  hwx7_4 : ∀ i : grid7.Coords, EltTy.bits .f32 = 32 ∨ (Rect.block (s := S1x128) S1x128.size (cc7_transform_4 i) (hinb7_4 i)).WholeWords (EltTy.packing .f32)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hinb7_5 : ∀ (i : grid7.Coords) a, (cc7_transform_5 i a + 1) * S8192x128.size a ≤ S262144x128.size a
  hwx7_5 : ∀ i : grid7.Coords, EltTy.bits .f32 = 32 ∨ (Rect.block (s := S262144x128) S8192x128.size (cc7_transform_5 i) (hinb7_5 i)).WholeWords (EltTy.packing .f32)
  hstage7_6 : ∀ j, (stage7_6 j).IsWhole
  nbuf7_6 : grid7.bufCount reads7_6 false = 2
  hreads7_6 : ∀ i i' : grid7.Coords, (∀ a, reads7_6 a = true → i a = i' a) → cc7_transform_6 i = cc7_transform_6 i'
  hinb7_6 : ∀ (i : grid7.Coords) a, (cc7_transform_6 i a + 1) * S8192x128.size a ≤ S262144x128.size a
  hwx7_6 : ∀ i : grid7.Coords, EltTy.bits .f32 = 32 ∨ (Rect.block (s := S262144x128) S8192x128.size (cc7_transform_6 i) (hinb7_6 i)).WholeWords (EltTy.packing .f32)
  hrank8 : 0 < grid8.rank
  hstage8_0 : ∀ j, (stage8_0 j).IsWhole
  nbuf8_0 : grid8.bufCount reads8_0 true = 1
  hreads8_0 : ∀ i i' : grid8.Coords, (∀ a, reads8_0 a = true → i a = i' a) → cc8_transform_0 i = cc8_transform_0 i'
  hinb8_0 : ∀ (i : grid8.Coords) a, (cc8_transform_0 i a + 1) * S16x128.size a ≤ S16x128.size a
  hwx8_0 : ∀ i : grid8.Coords, EltTy.bits .f32 = 32 ∨ (Rect.block (s := S16x128) S16x128.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S128x256.size a ≤ S128x256.size a
  hwx8_1 : ∀ i : grid8.Coords, EltTy.bits .f32 = 32 ∨ (Rect.block (s := S128x256) S128x256.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x256.size a ≤ S1x256.size a
  hwx8_2 : ∀ i : grid8.Coords, EltTy.bits .f32 = 32 ∨ (Rect.block (s := S1x256) S1x256.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S256x10.size a ≤ S256x10.size a
  hwx8_3 : ∀ i : grid8.Coords, EltTy.bits .f32 = 32 ∨ (Rect.block (s := S256x10) S256x10.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x10.size a ≤ S1x10.size a
  hwx8_4 : ∀ i : grid8.Coords, EltTy.bits .f32 = 32 ∨ (Rect.block (s := S1x10) S1x10.size (cc8_transform_4 i) (hinb8_4 i)).WholeWords (EltTy.packing .f32)
  hstage8_5 : ∀ j, (stage8_5 j).IsWhole
  nbuf8_5 : grid8.bufCount reads8_5 true = 1
  hreads8_5 : ∀ i i' : grid8.Coords, (∀ a, reads8_5 a = true → i a = i' a) → cc8_transform_5 i = cc8_transform_5 i'
  hinb8_5 : ∀ (i : grid8.Coords) a, (cc8_transform_5 i a + 1) * S16x10.size a ≤ S16x10.size a
  hwx8_5 : ∀ i : grid8.Coords, EltTy.bits .f32 = 32 ∨ (Rect.block (s := S16x10) S16x10.size (cc8_transform_5 i) (hinb8_5 i)).WholeWords (EltTy.packing .f32)

variable [Facts₀]

def gather_S17_S262144x1_S262144_n_0_n_n_0_1_1 : GatherDims S17 S262144x1 S262144 where
  offsetDims := []
  collapsedSliceDims := [0]
  operandBatchingDims := []
  startIndicesBatchingDims := []
  startIndexMap := [0]
  indexVectorDim := 1
  sliceSizes := ![1]
  wf := gather_S17_S262144x1_S262144_n_0_n_n_0_1_1_wf
def gather_S262144x128_S2097152x1_S2097152x128_1_0_n_n_0_1_1128 : GatherDims S262144x128 S2097152x1 S2097152x128 where
  offsetDims := [1]
  collapsedSliceDims := [0]
  operandBatchingDims := []
  startIndicesBatchingDims := []
  startIndexMap := [0]
  indexVectorDim := 1
  sliceSizes := ![1, 128]
  wf := gather_S262144x128_S2097152x1_S2097152x128_1_0_n_n_0_1_1128_wf
def scatter_S262144x128_S2097152x1_S2097152x128_1_0_0_1 : ScatterDims S262144x128 S2097152x1 S2097152x128 where
  updateWindowDims := [1]
  insertedWindowDims := [0]
  scatterDimsToOperandDims := [0]
  indexVectorDim := 1
  wf := scatter_S262144x128_S2097152x1_S2097152x128_1_0_0_1_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def scatter_S2048x128_S262144x1_S262144x128_1_0_0_1 : ScatterDims S2048x128 S262144x1 S262144x128 where
  updateWindowDims := [1]
  insertedWindowDims := [0]
  scatterDimsToOperandDims := [0]
  indexVectorDim := 1
  wf := scatter_S2048x128_S262144x1_S262144x128_1_0_0_1_wf
def scatter_S2048x1_S262144x1_S262144x1_1_0_0_1 : ScatterDims S2048x1 S262144x1 S262144x1 where
  updateWindowDims := [1]
  insertedWindowDims := [0]
  scatterDimsToOperandDims := [0]
  indexVectorDim := 1
  wf := scatter_S2048x1_S262144x1_S262144x1_1_0_0_1_wf
def gather_S2048x128_S32768x1_S32768x128_1_0_n_n_0_1_1128 : GatherDims S2048x128 S32768x1 S32768x128 where
  offsetDims := [1]
  collapsedSliceDims := [0]
  operandBatchingDims := []
  startIndicesBatchingDims := []
  startIndexMap := [0]
  indexVectorDim := 1
  sliceSizes := ![1, 128]
  wf := gather_S2048x128_S32768x1_S32768x128_1_0_n_n_0_1_1128_wf
def scatter_S2048x128_S32768x1_S32768x128_1_0_0_1 : ScatterDims S2048x128 S32768x1 S32768x128 where
  updateWindowDims := [1]
  insertedWindowDims := [0]
  scatterDimsToOperandDims := [0]
  indexVectorDim := 1
  wf := scatter_S2048x128_S32768x1_S32768x128_1_0_0_1_wf
def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf
def gather_S2048x128_S262144x1_S262144x128_1_0_n_n_0_1_1128 : GatherDims S2048x128 S262144x1 S262144x128 where
  offsetDims := [1]
  collapsedSliceDims := [0]
  operandBatchingDims := []
  startIndicesBatchingDims := []
  startIndexMap := [0]
  indexVectorDim := 1
  sliceSizes := ![1, 128]
  wf := gather_S2048x128_S262144x1_S262144x128_1_0_n_n_0_1_1128_wf
def scatter_S16x128_S2048x1_S2048x128_1_0_0_1 : ScatterDims S16x128 S2048x1 S2048x128 where
  updateWindowDims := [1]
  insertedWindowDims := [0]
  scatterDimsToOperandDims := [0]
  indexVectorDim := 1
  wf := scatter_S16x128_S2048x1_S2048x128_1_0_0_1_wf
def scatter_S16x1_S2048x1_S2048x1_1_0_0_1 : ScatterDims S16x1 S2048x1 S2048x1 where
  updateWindowDims := [1]
  insertedWindowDims := [0]
  scatterDimsToOperandDims := [0]
  indexVectorDim := 1
  wf := scatter_S16x1_S2048x1_S2048x1_1_0_0_1_wf
def dot_S16x128_S128x256_S16x256_1_0_0_1_n_n : DotDims S16x128 S128x256 S16x256 where
  lhsContracting := [1]
  rhsContracting := [0]
  lhsNonContracting := [0]
  rhsNonContracting := [1]
  lhsBatch := []
  rhsBatch := []
  wf := dot_S16x128_S128x256_S16x256_1_0_0_1_n_n_wf
def dot_S16x256_S256x10_S16x10_1_0_0_1_n_n : DotDims S16x256 S256x10 S16x10 where
  lhsContracting := [1]
  rhsContracting := [0]
  lhsNonContracting := [0]
  rhsNonContracting := [1]
  lhsBatch := []
  rhsBatch := []
  wf := dot_S16x256_S256x10_S16x10_1_0_0_1_n_n_wf

abbrev win0_0 : Pipeline.Window sig grid0 :=
  Pipeline.Window.ofSpec (Memref.whole main_arg0) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v24) S8192x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v26) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v28) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v31) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v32) S8192x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v32) S8192x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v108) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v109) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v110) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v111) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v103) S8192x128.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v112) S8192x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v112) S8192x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v126) S8192x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v128) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v130) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v133) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v134) S8192x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v134) S8192x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v210) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v211) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v212) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v213) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v205) S8192x128.size cc3_transform_5 reads3_5 false false 2 stage3_5 sem3_5
    hrank3 hreads3_5 hinb3_5 nbuf3_5 (Memref.isWhole_whole _) hwx3_5 hstage3_5

abbrev win3_6 : Pipeline.Window sig grid3 :=
  Pipeline.Window.ofSpec (Memref.whole main_v214) S8192x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v214) S8192x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v228) S8192x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v230) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v232) S128x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v235) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v236) S8192x128.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v236) S8192x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v312) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v313) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v314) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v315) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v307) S8192x128.size cc5_transform_5 reads5_5 false false 2 stage5_5 sem5_5
    hrank5 hreads5_5 hinb5_5 nbuf5_5 (Memref.isWhole_whole _) hwx5_5 hstage5_5

abbrev win5_6 : Pipeline.Window sig grid5 :=
  Pipeline.Window.ofSpec (Memref.whole main_v316) S8192x128.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

abbrev win6_0 : Pipeline.Window sig grid6 :=
  Pipeline.Window.ofSpec (Memref.whole main_v316) S8192x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v330) S8192x128.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v332) S128x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v334) S128x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v337) S1x128.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v338) S8192x128.size cc6_transform_5 reads6_5 true false 2 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

abbrev win7_0 : Pipeline.Window sig grid7 :=
  Pipeline.Window.ofSpec (Memref.whole main_v338) S8192x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v414) S1x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v415) S1x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v416) S1x128.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v417) S1x128.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v409) S8192x128.size cc7_transform_5 reads7_5 false false 2 stage7_5 sem7_5
    hrank7 hreads7_5 hinb7_5 nbuf7_5 (Memref.isWhole_whole _) hwx7_5 hstage7_5

abbrev win7_6 : Pipeline.Window sig grid7 :=
  Pipeline.Window.ofSpec (Memref.whole main_v418) S8192x128.size cc7_transform_6 reads7_6 true false 2 stage7_6 sem7_6
    hrank7 hreads7_6 hinb7_6 nbuf7_6 (Memref.isWhole_whole _) hwx7_6 hstage7_6

abbrev win7 : Fin 7 → Pipeline.Window sig grid7 := fun | 0 => win7_0 | 1 => win7_1 | 2 => win7_2 | 3 => win7_3 | 4 => win7_4 | 5 => win7_5 | 6 => win7_6 | ⟨_ + 7, h⟩ => absurd h (Nat.not_lt.2 (Nat.le_add_left _ _))
abbrev spec7 : Fin 7 → Pipeline.WinSpec sig grid7.rank := fun w => (win7 w).toWinSpec

abbrev win8_0 : Pipeline.Window sig grid8 :=
  Pipeline.Window.ofSpec (Memref.whole main_v440) S16x128.size cc8_transform_0 reads8_0 false true 1 stage8_0 sem8_0
    hrank8 hreads8_0 hinb8_0 nbuf8_0 (Memref.isWhole_whole _) hwx8_0 hstage8_0

abbrev win8_1 : Pipeline.Window sig grid8 :=
  Pipeline.Window.ofSpec (Memref.whole main_arg11) S128x256.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v441) S1x256.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_arg13) S256x10.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v442) S1x10.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v443) S16x10.size cc8_transform_5 reads8_5 true true 1 stage8_5 sem8_5
    hrank8 hreads8_5 hinb8_5 nbuf8_5 (Memref.isWhole_whole _) hwx8_5 hstage8_5

abbrev win8 : Fin 6 → Pipeline.Window sig grid8 := fun | 0 => win8_0 | 1 => win8_1 | 2 => win8_2 | 3 => win8_3 | 4 => win8_4 | 5 => win8_5 | ⟨_ + 6, h⟩ => absurd h (Nat.not_lt.2 (Nat.le_add_left _ _))
abbrev spec8 : Fin 6 → Pipeline.WinSpec sig grid8.rank := fun w => (win8 w).toWinSpec

class Facts : Prop extends Facts₀ where

variable [Facts]
-- ==== ReferenceIdeal.lean ====
abbrev S262144x128 : Shape := ⟨2, ![262144, 128]⟩
abbrev S4x128x128 : Shape := ⟨3, ![4, 128, 128]⟩
abbrev S4x128 : Shape := ⟨2, ![4, 128]⟩
abbrev S128x256 : Shape := ⟨2, ![128, 256]⟩
abbrev S256 : Shape := ⟨1, ![256]⟩
abbrev S256x10 : Shape := ⟨2, ![256, 10]⟩
abbrev S10 : Shape := ⟨1, ![10]⟩
abbrev S2x2097152 : Shape := ⟨2, ![2, 2097152]⟩
abbrev S2x32768 : Shape := ⟨2, ![2, 32768]⟩
abbrev S262144 : Shape := ⟨1, ![262144]⟩
abbrev S16 : Shape := ⟨1, ![16]⟩
abbrev S2048 : Shape := ⟨1, ![2048]⟩
abbrev S_ : Shape := ⟨0, ![]⟩
abbrev S1 : Shape := ⟨1, ![1]⟩
abbrev S17 : Shape := ⟨1, ![17]⟩
abbrev S262144x1 : Shape := ⟨2, ![262144, 1]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S1x2097152 : Shape := ⟨2, ![1, 2097152]⟩
abbrev S2097152 : Shape := ⟨1, ![2097152]⟩
abbrev S2097152x1 : Shape := ⟨2, ![2097152, 1]⟩
abbrev S2097152x128 : Shape := ⟨2, ![2097152, 128]⟩
abbrev S2048x128 : Shape := ⟨2, ![2048, 128]⟩
abbrev S2048x1 : Shape := ⟨2, ![2048, 1]⟩
abbrev S1x32768 : Shape := ⟨2, ![1, 32768]⟩
abbrev S32768 : Shape := ⟨1, ![32768]⟩
abbrev S32768x1 : Shape := ⟨2, ![32768, 1]⟩
abbrev S32768x128 : Shape := ⟨2, ![32768, 128]⟩
abbrev S16x128 : Shape := ⟨2, ![16, 128]⟩
abbrev S16x1 : Shape := ⟨2, ![16, 1]⟩
abbrev S16x256 : Shape := ⟨2, ![16, 256]⟩
abbrev S1x256 : Shape := ⟨2, ![1, 256]⟩
abbrev S16x10 : Shape := ⟨2, ![16, 10]⟩
abbrev S1x10 : Shape := ⟨2, ![1, 10]⟩

abbrev nBuf : Space → Nat
  | .hbm => 807
  | .vmem => 0
  | .smem => 0
  | _ => 0

abbrev hbmTy0_0 (i : Nat) : BufTy := match i % 128 with
  | 0 => ⟨S262144x128, .f32⟩
  | 1 => ⟨S4x128x128, .f32⟩
  | 2 => ⟨S4x128x128, .f32⟩
  | 3 => ⟨S4x128, .f32⟩
  | 4 => ⟨S4x128, .f32⟩
  | 5 => ⟨S4x128, .f32⟩
  | 6 => ⟨S4x128x128, .f32⟩
  | 7 => ⟨S4x128x128, .f32⟩
  | 8 => ⟨S4x128, .f32⟩
  | 9 => ⟨S4x128, .f32⟩
  | 10 => ⟨S4x128, .f32⟩
  | 11 => ⟨S128x256, .f32⟩
  | 12 => ⟨S256, .f32⟩
  | 13 => ⟨S256x10, .f32⟩
  | 14 => ⟨S10, .f32⟩
  | 15 => ⟨S2x2097152, .i32⟩
  | 16 => ⟨S2x32768, .i32⟩
  | 17 => ⟨S262144, .i32⟩
  | 18 => ⟨S262144, .i32⟩
  | 19 => ⟨S262144, .i32⟩
  | 20 => ⟨S16, .i32⟩
  | 21 => ⟨S2048, .i32⟩
  | 22 => ⟨S_, .i32⟩
  | 23 => ⟨S1, .i32⟩
  | 24 => ⟨S_, .i32⟩
  | 25 => ⟨S_, .i32⟩
  | 26 => ⟨S16, .i32⟩
  | 27 => ⟨S17, .i32⟩
  | 28 => ⟨S_, .i32⟩
  | 29 => ⟨S262144, .i32⟩
  | 30 => ⟨S262144, .i1⟩
  | 31 => ⟨S_, .i32⟩
  | 32 => ⟨S262144, .i32⟩
  | 33 => ⟨S262144, .i32⟩
  | 34 => ⟨S262144, .i32⟩
  | 35 => ⟨S262144x1, .i32⟩
  | 36 => ⟨S262144, .i32⟩
  | 37 => ⟨S262144, .i32⟩
  | 38 => ⟨S1x128x128, .f32⟩
  | 39 => ⟨S128x128, .f32⟩
  | 40 => ⟨S1x128x128, .f32⟩
  | 41 => ⟨S128x128, .f32⟩
  | 42 => ⟨S1x128, .f32⟩
  | 43 => ⟨S128, .f32⟩
  | 44 => ⟨S1x2097152, .i32⟩
  | 45 => ⟨S2097152, .i32⟩
  | 46 => ⟨S_, .i32⟩
  | 47 => ⟨S2097152, .i32⟩
  | 48 => ⟨S2097152, .i1⟩
  | 49 => ⟨S_, .i32⟩
  | 50 => ⟨S2097152, .i32⟩
  | 51 => ⟨S2097152, .i32⟩
  | 52 => ⟨S2097152, .i32⟩
  | 53 => ⟨S2097152x1, .i32⟩
  | 54 => ⟨S2097152x128, .f32⟩
  | 55 => ⟨S1x2097152, .i32⟩
  | 56 => ⟨S2097152, .i32⟩
  | 57 => ⟨S_, .f32⟩
  | 58 => ⟨S262144x128, .f32⟩
  | 59 => ⟨S2097152x1, .i32⟩
  | 60 => ⟨S262144x128, .f32⟩
  | 61 => ⟨S262144x128, .f32⟩
  | 62 => ⟨S262144x128, .f32⟩
  | 63 => ⟨S262144x128, .f32⟩
  | 64 => ⟨S1x128, .f32⟩
  | 65 => ⟨S262144x128, .f32⟩
  | 66 => ⟨S262144x128, .f32⟩
  | 67 => ⟨S1x128, .f32⟩
  | 68 => ⟨S128, .f32⟩
  | 69 => ⟨S1x128, .f32⟩
  | 70 => ⟨S128, .f32⟩
  | 71 => ⟨S_, .f32⟩
  | 72 => ⟨S128, .f32⟩
  | 73 => ⟨S_, .f32⟩
  | 74 => ⟨S128, .f32⟩
  | 75 => ⟨S128, .f32⟩
  | 76 => ⟨S_, .i32⟩
  | 77 => ⟨S_, .f32⟩
  | 78 => ⟨S128, .f32⟩
  | 79 => ⟨S1x128, .f32⟩
  | 80 => ⟨S_, .f32⟩
  | 81 => ⟨S1x128, .f32⟩
  | 82 => ⟨S1x128, .f32⟩
  | 83 => ⟨S262144x128, .f32⟩
  | 84 => ⟨S262144x128, .f32⟩
  | 85 => ⟨S262144x128, .f32⟩
  | 86 => ⟨S_, .f32⟩
  | 87 => ⟨S_, .f32⟩
  | 88 => ⟨S_, .f32⟩
  | 89 => ⟨S_, .f32⟩
  | 90 => ⟨S128, .f32⟩
  | 91 => ⟨S128, .f32⟩
  | 92 => ⟨S128, .f32⟩
  | 93 => ⟨S_, .f32⟩
  | 94 => ⟨S_, .i1⟩
  | 95 => ⟨S_, .f32⟩
  | 96 => ⟨S_, .f32⟩
  | 97 => ⟨S128, .f32⟩
  | 98 => ⟨S128, .f32⟩
  | 99 => ⟨S1x128, .f32⟩
  | 100 => ⟨S262144x128, .f32⟩
  | 101 => ⟨S262144x128, .f32⟩
  | 102 => ⟨S_, .f32⟩
  | 103 => ⟨S128, .f32⟩
  | 104 => ⟨S128, .f32⟩
  | 105 => ⟨S128, .f32⟩
  | 106 => ⟨S1x128, .f32⟩
  | 107 => ⟨S262144x128, .f32⟩
  | 108 => ⟨S262144x128, .f32⟩
  | 109 => ⟨S1x128, .f32⟩
  | 110 => ⟨S262144x128, .f32⟩
  | 111 => ⟨S262144x128, .f32⟩
  | 112 => ⟨S1x128, .f32⟩
  | 113 => ⟨S262144x128, .f32⟩
  | 114 => ⟨S262144x128, .f32⟩
  | 115 => ⟨S_, .f32⟩
  | 116 => ⟨S2048x128, .f32⟩
  | 117 => ⟨S262144x1, .i32⟩
  | 118 => ⟨S2048x128, .f32⟩
  | 119 => ⟨S_, .f32⟩
  | 120 => ⟨S262144x1, .f32⟩
  | 121 => ⟨S_, .f32⟩
  | 122 => ⟨S2048x1, .f32⟩
  | 123 => ⟨S262144x1, .i32⟩
  | 124 => ⟨S2048x1, .f32⟩
  | 125 => ⟨S_, .f32⟩
  | 126 => ⟨S2048x1, .f32⟩
  | 127 => ⟨S2048x1, .f32⟩
  | _ => ⟨S262144x128, .f32⟩

abbrev hbmTy0_1 (i : Nat) : BufTy := match i % 128 with
  | 0 => ⟨S2048x128, .f32⟩
  | 1 => ⟨S2048x128, .f32⟩
  | 2 => ⟨S1x128x128, .f32⟩
  | 3 => ⟨S128x128, .f32⟩
  | 4 => ⟨S1x128x128, .f32⟩
  | 5 => ⟨S128x128, .f32⟩
  | 6 => ⟨S1x128, .f32⟩
  | 7 => ⟨S128, .f32⟩
  | 8 => ⟨S1x32768, .i32⟩
  | 9 => ⟨S32768, .i32⟩
  | 10 => ⟨S_, .i32⟩
  | 11 => ⟨S32768, .i32⟩
  | 12 => ⟨S32768, .i1⟩
  | 13 => ⟨S_, .i32⟩
  | 14 => ⟨S32768, .i32⟩
  | 15 => ⟨S32768, .i32⟩
  | 16 => ⟨S32768, .i32⟩
  | 17 => ⟨S32768x1, .i32⟩
  | 18 => ⟨S32768x128, .f32⟩
  | 19 => ⟨S1x32768, .i32⟩
  | 20 => ⟨S32768, .i32⟩
  | 21 => ⟨S_, .f32⟩
  | 22 => ⟨S2048x128, .f32⟩
  | 23 => ⟨S32768x1, .i32⟩
  | 24 => ⟨S2048x128, .f32⟩
  | 25 => ⟨S2048x128, .f32⟩
  | 26 => ⟨S2048x128, .f32⟩
  | 27 => ⟨S2048x128, .f32⟩
  | 28 => ⟨S1x128, .f32⟩
  | 29 => ⟨S2048x128, .f32⟩
  | 30 => ⟨S2048x128, .f32⟩
  | 31 => ⟨S1x128, .f32⟩
  | 32 => ⟨S128, .f32⟩
  | 33 => ⟨S1x128, .f32⟩
  | 34 => ⟨S128, .f32⟩
  | 35 => ⟨S_, .f32⟩
  | 36 => ⟨S128, .f32⟩
  | 37 => ⟨S_, .f32⟩
  | 38 => ⟨S128, .f32⟩
  | 39 => ⟨S128, .f32⟩
  | 40 => ⟨S_, .i32⟩
  | 41 => ⟨S_, .f32⟩
  | 42 => ⟨S128, .f32⟩
  | 43 => ⟨S1x128, .f32⟩
  | 44 => ⟨S_, .f32⟩
  | 45 => ⟨S1x128, .f32⟩
  | 46 => ⟨S1x128, .f32⟩
  | 47 => ⟨S2048x128, .f32⟩
  | 48 => ⟨S2048x128, .f32⟩
  | 49 => ⟨S2048x128, .f32⟩
  | 50 => ⟨S_, .f32⟩
  | 51 => ⟨S_, .f32⟩
  | 52 => ⟨S_, .f32⟩
  | 53 => ⟨S_, .f32⟩
  | 54 => ⟨S128, .f32⟩
  | 55 => ⟨S128, .f32⟩
  | 56 => ⟨S128, .f32⟩
  | 57 => ⟨S_, .f32⟩
  | 58 => ⟨S_, .i1⟩
  | 59 => ⟨S_, .f32⟩
  | 60 => ⟨S_, .f32⟩
  | 61 => ⟨S128, .f32⟩
  | 62 => ⟨S128, .f32⟩
  | 63 => ⟨S1x128, .f32⟩
  | 64 => ⟨S2048x128, .f32⟩
  | 65 => ⟨S2048x128, .f32⟩
  | 66 => ⟨S_, .f32⟩
  | 67 => ⟨S128, .f32⟩
  | 68 => ⟨S128, .f32⟩
  | 69 => ⟨S128, .f32⟩
  | 70 => ⟨S1x128, .f32⟩
  | 71 => ⟨S2048x128, .f32⟩
  | 72 => ⟨S2048x128, .f32⟩
  | 73 => ⟨S1x128, .f32⟩
  | 74 => ⟨S2048x128, .f32⟩
  | 75 => ⟨S2048x128, .f32⟩
  | 76 => ⟨S1x128, .f32⟩
  | 77 => ⟨S2048x128, .f32⟩
  | 78 => ⟨S2048x128, .f32⟩
  | 79 => ⟨S_, .i32⟩
  | 80 => ⟨S262144, .i32⟩
  | 81 => ⟨S262144, .i1⟩
  | 82 => ⟨S_, .i32⟩
  | 83 => ⟨S262144, .i32⟩
  | 84 => ⟨S262144, .i32⟩
  | 85 => ⟨S262144, .i32⟩
  | 86 => ⟨S262144x1, .i32⟩
  | 87 => ⟨S262144x128, .f32⟩
  | 88 => ⟨S262144x128, .f32⟩
  | 89 => ⟨S_, .f32⟩
  | 90 => ⟨S262144x128, .f32⟩
  | 91 => ⟨S262144x128, .f32⟩
  | 92 => ⟨S1x128x128, .f32⟩
  | 93 => ⟨S128x128, .f32⟩
  | 94 => ⟨S1x128x128, .f32⟩
  | 95 => ⟨S128x128, .f32⟩
  | 96 => ⟨S1x128, .f32⟩
  | 97 => ⟨S128, .f32⟩
  | 98 => ⟨S1x2097152, .i32⟩
  | 99 => ⟨S2097152, .i32⟩
  | 100 => ⟨S_, .i32⟩
  | 101 => ⟨S2097152, .i32⟩
  | 102 => ⟨S2097152, .i1⟩
  | 103 => ⟨S_, .i32⟩
  | 104 => ⟨S2097152, .i32⟩
  | 105 => ⟨S2097152, .i32⟩
  | 106 => ⟨S2097152, .i32⟩
  | 107 => ⟨S2097152x1, .i32⟩
  | 108 => ⟨S2097152x128, .f32⟩
  | 109 => ⟨S1x2097152, .i32⟩
  | 110 => ⟨S2097152, .i32⟩
  | 111 => ⟨S_, .f32⟩
  | 112 => ⟨S262144x128, .f32⟩
  | 113 => ⟨S2097152x1, .i32⟩
  | 114 => ⟨S262144x128, .f32⟩
  | 115 => ⟨S262144x128, .f32⟩
  | 116 => ⟨S262144x128, .f32⟩
  | 117 => ⟨S262144x128, .f32⟩
  | 118 => ⟨S1x128, .f32⟩
  | 119 => ⟨S262144x128, .f32⟩
  | 120 => ⟨S262144x128, .f32⟩
  | 121 => ⟨S1x128, .f32⟩
  | 122 => ⟨S128, .f32⟩
  | 123 => ⟨S1x128, .f32⟩
  | 124 => ⟨S128, .f32⟩
  | 125 => ⟨S_, .f32⟩
  | 126 => ⟨S128, .f32⟩
  | 127 => ⟨S_, .f32⟩
  | _ => ⟨S262144x128, .f32⟩

abbrev hbmTy0_2 (i : Nat) : BufTy := match i % 128 with
  | 0 => ⟨S128, .f32⟩
  | 1 => ⟨S128, .f32⟩
  | 2 => ⟨S_, .i32⟩
  | 3 => ⟨S_, .f32⟩
  | 4 => ⟨S128, .f32⟩
  | 5 => ⟨S1x128, .f32⟩
  | 6 => ⟨S_, .f32⟩
  | 7 => ⟨S1x128, .f32⟩
  | 8 => ⟨S1x128, .f32⟩
  | 9 => ⟨S262144x128, .f32⟩
  | 10 => ⟨S262144x128, .f32⟩
  | 11 => ⟨S262144x128, .f32⟩
  | 12 => ⟨S_, .f32⟩
  | 13 => ⟨S_, .f32⟩
  | 14 => ⟨S_, .f32⟩
  | 15 => ⟨S_, .f32⟩
  | 16 => ⟨S128, .f32⟩
  | 17 => ⟨S128, .f32⟩
  | 18 => ⟨S128, .f32⟩
  | 19 => ⟨S_, .f32⟩
  | 20 => ⟨S_, .i1⟩
  | 21 => ⟨S_, .f32⟩
  | 22 => ⟨S_, .f32⟩
  | 23 => ⟨S128, .f32⟩
  | 24 => ⟨S128, .f32⟩
  | 25 => ⟨S1x128, .f32⟩
  | 26 => ⟨S262144x128, .f32⟩
  | 27 => ⟨S262144x128, .f32⟩
  | 28 => ⟨S_, .f32⟩
  | 29 => ⟨S128, .f32⟩
  | 30 => ⟨S128, .f32⟩
  | 31 => ⟨S128, .f32⟩
  | 32 => ⟨S1x128, .f32⟩
  | 33 => ⟨S262144x128, .f32⟩
  | 34 => ⟨S262144x128, .f32⟩
  | 35 => ⟨S1x128, .f32⟩
  | 36 => ⟨S262144x128, .f32⟩
  | 37 => ⟨S262144x128, .f32⟩
  | 38 => ⟨S1x128, .f32⟩
  | 39 => ⟨S262144x128, .f32⟩
  | 40 => ⟨S262144x128, .f32⟩
  | 41 => ⟨S_, .f32⟩
  | 42 => ⟨S2048x128, .f32⟩
  | 43 => ⟨S262144x1, .i32⟩
  | 44 => ⟨S2048x128, .f32⟩
  | 45 => ⟨S_, .f32⟩
  | 46 => ⟨S262144x1, .f32⟩
  | 47 => ⟨S_, .f32⟩
  | 48 => ⟨S2048x1, .f32⟩
  | 49 => ⟨S262144x1, .i32⟩
  | 50 => ⟨S2048x1, .f32⟩
  | 51 => ⟨S_, .f32⟩
  | 52 => ⟨S2048x1, .f32⟩
  | 53 => ⟨S2048x1, .f32⟩
  | 54 => ⟨S2048x128, .f32⟩
  | 55 => ⟨S2048x128, .f32⟩
  | 56 => ⟨S1x128x128, .f32⟩
  | 57 => ⟨S128x128, .f32⟩
  | 58 => ⟨S1x128x128, .f32⟩
  | 59 => ⟨S128x128, .f32⟩
  | 60 => ⟨S1x128, .f32⟩
  | 61 => ⟨S128, .f32⟩
  | 62 => ⟨S1x32768, .i32⟩
  | 63 => ⟨S32768, .i32⟩
  | 64 => ⟨S_, .i32⟩
  | 65 => ⟨S32768, .i32⟩
  | 66 => ⟨S32768, .i1⟩
  | 67 => ⟨S_, .i32⟩
  | 68 => ⟨S32768, .i32⟩
  | 69 => ⟨S32768, .i32⟩
  | 70 => ⟨S32768, .i32⟩
  | 71 => ⟨S32768x1, .i32⟩
  | 72 => ⟨S32768x128, .f32⟩
  | 73 => ⟨S1x32768, .i32⟩
  | 74 => ⟨S32768, .i32⟩
  | 75 => ⟨S_, .f32⟩
  | 76 => ⟨S2048x128, .f32⟩
  | 77 => ⟨S32768x1, .i32⟩
  | 78 => ⟨S2048x128, .f32⟩
  | 79 => ⟨S2048x128, .f32⟩
  | 80 => ⟨S2048x128, .f32⟩
  | 81 => ⟨S2048x128, .f32⟩
  | 82 => ⟨S1x128, .f32⟩
  | 83 => ⟨S2048x128, .f32⟩
  | 84 => ⟨S2048x128, .f32⟩
  | 85 => ⟨S1x128, .f32⟩
  | 86 => ⟨S128, .f32⟩
  | 87 => ⟨S1x128, .f32⟩
  | 88 => ⟨S128, .f32⟩
  | 89 => ⟨S_, .f32⟩
  | 90 => ⟨S128, .f32⟩
  | 91 => ⟨S_, .f32⟩
  | 92 => ⟨S128, .f32⟩
  | 93 => ⟨S128, .f32⟩
  | 94 => ⟨S_, .i32⟩
  | 95 => ⟨S_, .f32⟩
  | 96 => ⟨S128, .f32⟩
  | 97 => ⟨S1x128, .f32⟩
  | 98 => ⟨S_, .f32⟩
  | 99 => ⟨S1x128, .f32⟩
  | 100 => ⟨S1x128, .f32⟩
  | 101 => ⟨S2048x128, .f32⟩
  | 102 => ⟨S2048x128, .f32⟩
  | 103 => ⟨S2048x128, .f32⟩
  | 104 => ⟨S_, .f32⟩
  | 105 => ⟨S_, .f32⟩
  | 106 => ⟨S_, .f32⟩
  | 107 => ⟨S_, .f32⟩
  | 108 => ⟨S128, .f32⟩
  | 109 => ⟨S128, .f32⟩
  | 110 => ⟨S128, .f32⟩
  | 111 => ⟨S_, .f32⟩
  | 112 => ⟨S_, .i1⟩
  | 113 => ⟨S_, .f32⟩
  | 114 => ⟨S_, .f32⟩
  | 115 => ⟨S128, .f32⟩
  | 116 => ⟨S128, .f32⟩
  | 117 => ⟨S1x128, .f32⟩
  | 118 => ⟨S2048x128, .f32⟩
  | 119 => ⟨S2048x128, .f32⟩
  | 120 => ⟨S_, .f32⟩
  | 121 => ⟨S128, .f32⟩
  | 122 => ⟨S128, .f32⟩
  | 123 => ⟨S128, .f32⟩
  | 124 => ⟨S1x128, .f32⟩
  | 125 => ⟨S2048x128, .f32⟩
  | 126 => ⟨S2048x128, .f32⟩
  | 127 => ⟨S1x128, .f32⟩
  | _ => ⟨S262144x128, .f32⟩

abbrev hbmTy0_3 (i : Nat) : BufTy := match i % 128 with
  | 0 => ⟨S2048x128, .f32⟩
  | 1 => ⟨S2048x128, .f32⟩
  | 2 => ⟨S1x128, .f32⟩
  | 3 => ⟨S2048x128, .f32⟩
  | 4 => ⟨S2048x128, .f32⟩
  | 5 => ⟨S_, .i32⟩
  | 6 => ⟨S262144, .i32⟩
  | 7 => ⟨S262144, .i1⟩
  | 8 => ⟨S_, .i32⟩
  | 9 => ⟨S262144, .i32⟩
  | 10 => ⟨S262144, .i32⟩
  | 11 => ⟨S262144, .i32⟩
  | 12 => ⟨S262144x1, .i32⟩
  | 13 => ⟨S262144x128, .f32⟩
  | 14 => ⟨S262144x128, .f32⟩
  | 15 => ⟨S_, .f32⟩
  | 16 => ⟨S262144x128, .f32⟩
  | 17 => ⟨S262144x128, .f32⟩
  | 18 => ⟨S1x128x128, .f32⟩
  | 19 => ⟨S128x128, .f32⟩
  | 20 => ⟨S1x128x128, .f32⟩
  | 21 => ⟨S128x128, .f32⟩
  | 22 => ⟨S1x128, .f32⟩
  | 23 => ⟨S128, .f32⟩
  | 24 => ⟨S1x2097152, .i32⟩
  | 25 => ⟨S2097152, .i32⟩
  | 26 => ⟨S_, .i32⟩
  | 27 => ⟨S2097152, .i32⟩
  | 28 => ⟨S2097152, .i1⟩
  | 29 => ⟨S_, .i32⟩
  | 30 => ⟨S2097152, .i32⟩
  | 31 => ⟨S2097152, .i32⟩
  | 32 => ⟨S2097152, .i32⟩
  | 33 => ⟨S2097152x1, .i32⟩
  | 34 => ⟨S2097152x128, .f32⟩
  | 35 => ⟨S1x2097152, .i32⟩
  | 36 => ⟨S2097152, .i32⟩
  | 37 => ⟨S_, .f32⟩
  | 38 => ⟨S262144x128, .f32⟩
  | 39 => ⟨S2097152x1, .i32⟩
  | 40 => ⟨S262144x128, .f32⟩
  | 41 => ⟨S262144x128, .f32⟩
  | 42 => ⟨S262144x128, .f32⟩
  | 43 => ⟨S262144x128, .f32⟩
  | 44 => ⟨S1x128, .f32⟩
  | 45 => ⟨S262144x128, .f32⟩
  | 46 => ⟨S262144x128, .f32⟩
  | 47 => ⟨S1x128, .f32⟩
  | 48 => ⟨S128, .f32⟩
  | 49 => ⟨S1x128, .f32⟩
  | 50 => ⟨S128, .f32⟩
  | 51 => ⟨S_, .f32⟩
  | 52 => ⟨S128, .f32⟩
  | 53 => ⟨S_, .f32⟩
  | 54 => ⟨S128, .f32⟩
  | 55 => ⟨S128, .f32⟩
  | 56 => ⟨S_, .i32⟩
  | 57 => ⟨S_, .f32⟩
  | 58 => ⟨S128, .f32⟩
  | 59 => ⟨S1x128, .f32⟩
  | 60 => ⟨S_, .f32⟩
  | 61 => ⟨S1x128, .f32⟩
  | 62 => ⟨S1x128, .f32⟩
  | 63 => ⟨S262144x128, .f32⟩
  | 64 => ⟨S262144x128, .f32⟩
  | 65 => ⟨S262144x128, .f32⟩
  | 66 => ⟨S_, .f32⟩
  | 67 => ⟨S_, .f32⟩
  | 68 => ⟨S_, .f32⟩
  | 69 => ⟨S_, .f32⟩
  | 70 => ⟨S128, .f32⟩
  | 71 => ⟨S128, .f32⟩
  | 72 => ⟨S128, .f32⟩
  | 73 => ⟨S_, .f32⟩
  | 74 => ⟨S_, .i1⟩
  | 75 => ⟨S_, .f32⟩
  | 76 => ⟨S_, .f32⟩
  | 77 => ⟨S128, .f32⟩
  | 78 => ⟨S128, .f32⟩
  | 79 => ⟨S1x128, .f32⟩
  | 80 => ⟨S262144x128, .f32⟩
  | 81 => ⟨S262144x128, .f32⟩
  | 82 => ⟨S_, .f32⟩
  | 83 => ⟨S128, .f32⟩
  | 84 => ⟨S128, .f32⟩
  | 85 => ⟨S128, .f32⟩
  | 86 => ⟨S1x128, .f32⟩
  | 87 => ⟨S262144x128, .f32⟩
  | 88 => ⟨S262144x128, .f32⟩
  | 89 => ⟨S1x128, .f32⟩
  | 90 => ⟨S262144x128, .f32⟩
  | 91 => ⟨S262144x128, .f32⟩
  | 92 => ⟨S1x128, .f32⟩
  | 93 => ⟨S262144x128, .f32⟩
  | 94 => ⟨S262144x128, .f32⟩
  | 95 => ⟨S_, .f32⟩
  | 96 => ⟨S2048x128, .f32⟩
  | 97 => ⟨S262144x1, .i32⟩
  | 98 => ⟨S2048x128, .f32⟩
  | 99 => ⟨S_, .f32⟩
  | 100 => ⟨S262144x1, .f32⟩
  | 101 => ⟨S_, .f32⟩
  | 102 => ⟨S2048x1, .f32⟩
  | 103 => ⟨S262144x1, .i32⟩
  | 104 => ⟨S2048x1, .f32⟩
  | 105 => ⟨S_, .f32⟩
  | 106 => ⟨S2048x1, .f32⟩
  | 107 => ⟨S2048x1, .f32⟩
  | 108 => ⟨S2048x128, .f32⟩
  | 109 => ⟨S2048x128, .f32⟩
  | 110 => ⟨S1x128x128, .f32⟩
  | 111 => ⟨S128x128, .f32⟩
  | 112 => ⟨S1x128x128, .f32⟩
  | 113 => ⟨S128x128, .f32⟩
  | 114 => ⟨S1x128, .f32⟩
  | 115 => ⟨S128, .f32⟩
  | 116 => ⟨S1x32768, .i32⟩
  | 117 => ⟨S32768, .i32⟩
  | 118 => ⟨S_, .i32⟩
  | 119 => ⟨S32768, .i32⟩
  | 120 => ⟨S32768, .i1⟩
  | 121 => ⟨S_, .i32⟩
  | 122 => ⟨S32768, .i32⟩
  | 123 => ⟨S32768, .i32⟩
  | 124 => ⟨S32768, .i32⟩
  | 125 => ⟨S32768x1, .i32⟩
  | 126 => ⟨S32768x128, .f32⟩
  | 127 => ⟨S1x32768, .i32⟩
  | _ => ⟨S262144x128, .f32⟩

abbrev hbmTy0_4 (i : Nat) : BufTy := match i % 128 with
  | 0 => ⟨S32768, .i32⟩
  | 1 => ⟨S_, .f32⟩
  | 2 => ⟨S2048x128, .f32⟩
  | 3 => ⟨S32768x1, .i32⟩
  | 4 => ⟨S2048x128, .f32⟩
  | 5 => ⟨S2048x128, .f32⟩
  | 6 => ⟨S2048x128, .f32⟩
  | 7 => ⟨S2048x128, .f32⟩
  | 8 => ⟨S1x128, .f32⟩
  | 9 => ⟨S2048x128, .f32⟩
  | 10 => ⟨S2048x128, .f32⟩
  | 11 => ⟨S1x128, .f32⟩
  | 12 => ⟨S128, .f32⟩
  | 13 => ⟨S1x128, .f32⟩
  | 14 => ⟨S128, .f32⟩
  | 15 => ⟨S_, .f32⟩
  | 16 => ⟨S128, .f32⟩
  | 17 => ⟨S_, .f32⟩
  | 18 => ⟨S128, .f32⟩
  | 19 => ⟨S128, .f32⟩
  | 20 => ⟨S_, .i32⟩
  | 21 => ⟨S_, .f32⟩
  | 22 => ⟨S128, .f32⟩
  | 23 => ⟨S1x128, .f32⟩
  | 24 => ⟨S_, .f32⟩
  | 25 => ⟨S1x128, .f32⟩
  | 26 => ⟨S1x128, .f32⟩
  | 27 => ⟨S2048x128, .f32⟩
  | 28 => ⟨S2048x128, .f32⟩
  | 29 => ⟨S2048x128, .f32⟩
  | 30 => ⟨S_, .f32⟩
  | 31 => ⟨S_, .f32⟩
  | 32 => ⟨S_, .f32⟩
  | 33 => ⟨S_, .f32⟩
  | 34 => ⟨S128, .f32⟩
  | 35 => ⟨S128, .f32⟩
  | 36 => ⟨S128, .f32⟩
  | 37 => ⟨S_, .f32⟩
  | 38 => ⟨S_, .i1⟩
  | 39 => ⟨S_, .f32⟩
  | 40 => ⟨S_, .f32⟩
  | 41 => ⟨S128, .f32⟩
  | 42 => ⟨S128, .f32⟩
  | 43 => ⟨S1x128, .f32⟩
  | 44 => ⟨S2048x128, .f32⟩
  | 45 => ⟨S2048x128, .f32⟩
  | 46 => ⟨S_, .f32⟩
  | 47 => ⟨S128, .f32⟩
  | 48 => ⟨S128, .f32⟩
  | 49 => ⟨S128, .f32⟩
  | 50 => ⟨S1x128, .f32⟩
  | 51 => ⟨S2048x128, .f32⟩
  | 52 => ⟨S2048x128, .f32⟩
  | 53 => ⟨S1x128, .f32⟩
  | 54 => ⟨S2048x128, .f32⟩
  | 55 => ⟨S2048x128, .f32⟩
  | 56 => ⟨S1x128, .f32⟩
  | 57 => ⟨S2048x128, .f32⟩
  | 58 => ⟨S2048x128, .f32⟩
  | 59 => ⟨S_, .i32⟩
  | 60 => ⟨S262144, .i32⟩
  | 61 => ⟨S262144, .i1⟩
  | 62 => ⟨S_, .i32⟩
  | 63 => ⟨S262144, .i32⟩
  | 64 => ⟨S262144, .i32⟩
  | 65 => ⟨S262144, .i32⟩
  | 66 => ⟨S262144x1, .i32⟩
  | 67 => ⟨S262144x128, .f32⟩
  | 68 => ⟨S262144x128, .f32⟩
  | 69 => ⟨S_, .f32⟩
  | 70 => ⟨S262144x128, .f32⟩
  | 71 => ⟨S262144x128, .f32⟩
  | 72 => ⟨S1x128x128, .f32⟩
  | 73 => ⟨S128x128, .f32⟩
  | 74 => ⟨S1x128x128, .f32⟩
  | 75 => ⟨S128x128, .f32⟩
  | 76 => ⟨S1x128, .f32⟩
  | 77 => ⟨S128, .f32⟩
  | 78 => ⟨S1x2097152, .i32⟩
  | 79 => ⟨S2097152, .i32⟩
  | 80 => ⟨S_, .i32⟩
  | 81 => ⟨S2097152, .i32⟩
  | 82 => ⟨S2097152, .i1⟩
  | 83 => ⟨S_, .i32⟩
  | 84 => ⟨S2097152, .i32⟩
  | 85 => ⟨S2097152, .i32⟩
  | 86 => ⟨S2097152, .i32⟩
  | 87 => ⟨S2097152x1, .i32⟩
  | 88 => ⟨S2097152x128, .f32⟩
  | 89 => ⟨S1x2097152, .i32⟩
  | 90 => ⟨S2097152, .i32⟩
  | 91 => ⟨S_, .f32⟩
  | 92 => ⟨S262144x128, .f32⟩
  | 93 => ⟨S2097152x1, .i32⟩
  | 94 => ⟨S262144x128, .f32⟩
  | 95 => ⟨S262144x128, .f32⟩
  | 96 => ⟨S262144x128, .f32⟩
  | 97 => ⟨S262144x128, .f32⟩
  | 98 => ⟨S1x128, .f32⟩
  | 99 => ⟨S262144x128, .f32⟩
  | 100 => ⟨S262144x128, .f32⟩
  | 101 => ⟨S1x128, .f32⟩
  | 102 => ⟨S128, .f32⟩
  | 103 => ⟨S1x128, .f32⟩
  | 104 => ⟨S128, .f32⟩
  | 105 => ⟨S_, .f32⟩
  | 106 => ⟨S128, .f32⟩
  | 107 => ⟨S_, .f32⟩
  | 108 => ⟨S128, .f32⟩
  | 109 => ⟨S128, .f32⟩
  | 110 => ⟨S_, .i32⟩
  | 111 => ⟨S_, .f32⟩
  | 112 => ⟨S128, .f32⟩
  | 113 => ⟨S1x128, .f32⟩
  | 114 => ⟨S_, .f32⟩
  | 115 => ⟨S1x128, .f32⟩
  | 116 => ⟨S1x128, .f32⟩
  | 117 => ⟨S262144x128, .f32⟩
  | 118 => ⟨S262144x128, .f32⟩
  | 119 => ⟨S262144x128, .f32⟩
  | 120 => ⟨S_, .f32⟩
  | 121 => ⟨S_, .f32⟩
  | 122 => ⟨S_, .f32⟩
  | 123 => ⟨S_, .f32⟩
  | 124 => ⟨S128, .f32⟩
  | 125 => ⟨S128, .f32⟩
  | 126 => ⟨S128, .f32⟩
  | 127 => ⟨S_, .f32⟩
  | _ => ⟨S262144x128, .f32⟩

abbrev hbmTy0_5 (i : Nat) : BufTy := match i % 128 with
  | 0 => ⟨S_, .i1⟩
  | 1 => ⟨S_, .f32⟩
  | 2 => ⟨S_, .f32⟩
  | 3 => ⟨S128, .f32⟩
  | 4 => ⟨S128, .f32⟩
  | 5 => ⟨S1x128, .f32⟩
  | 6 => ⟨S262144x128, .f32⟩
  | 7 => ⟨S262144x128, .f32⟩
  | 8 => ⟨S_, .f32⟩
  | 9 => ⟨S128, .f32⟩
  | 10 => ⟨S128, .f32⟩
  | 11 => ⟨S128, .f32⟩
  | 12 => ⟨S1x128, .f32⟩
  | 13 => ⟨S262144x128, .f32⟩
  | 14 => ⟨S262144x128, .f32⟩
  | 15 => ⟨S1x128, .f32⟩
  | 16 => ⟨S262144x128, .f32⟩
  | 17 => ⟨S262144x128, .f32⟩
  | 18 => ⟨S1x128, .f32⟩
  | 19 => ⟨S262144x128, .f32⟩
  | 20 => ⟨S262144x128, .f32⟩
  | 21 => ⟨S_, .f32⟩
  | 22 => ⟨S2048x128, .f32⟩
  | 23 => ⟨S262144x1, .i32⟩
  | 24 => ⟨S2048x128, .f32⟩
  | 25 => ⟨S_, .f32⟩
  | 26 => ⟨S262144x1, .f32⟩
  | 27 => ⟨S_, .f32⟩
  | 28 => ⟨S2048x1, .f32⟩
  | 29 => ⟨S262144x1, .i32⟩
  | 30 => ⟨S2048x1, .f32⟩
  | 31 => ⟨S_, .f32⟩
  | 32 => ⟨S2048x1, .f32⟩
  | 33 => ⟨S2048x1, .f32⟩
  | 34 => ⟨S2048x128, .f32⟩
  | 35 => ⟨S2048x128, .f32⟩
  | 36 => ⟨S1x128x128, .f32⟩
  | 37 => ⟨S128x128, .f32⟩
  | 38 => ⟨S1x128x128, .f32⟩
  | 39 => ⟨S128x128, .f32⟩
  | 40 => ⟨S1x128, .f32⟩
  | 41 => ⟨S128, .f32⟩
  | 42 => ⟨S1x32768, .i32⟩
  | 43 => ⟨S32768, .i32⟩
  | 44 => ⟨S_, .i32⟩
  | 45 => ⟨S32768, .i32⟩
  | 46 => ⟨S32768, .i1⟩
  | 47 => ⟨S_, .i32⟩
  | 48 => ⟨S32768, .i32⟩
  | 49 => ⟨S32768, .i32⟩
  | 50 => ⟨S32768, .i32⟩
  | 51 => ⟨S32768x1, .i32⟩
  | 52 => ⟨S32768x128, .f32⟩
  | 53 => ⟨S1x32768, .i32⟩
  | 54 => ⟨S32768, .i32⟩
  | 55 => ⟨S_, .f32⟩
  | 56 => ⟨S2048x128, .f32⟩
  | 57 => ⟨S32768x1, .i32⟩
  | 58 => ⟨S2048x128, .f32⟩
  | 59 => ⟨S2048x128, .f32⟩
  | 60 => ⟨S2048x128, .f32⟩
  | 61 => ⟨S2048x128, .f32⟩
  | 62 => ⟨S1x128, .f32⟩
  | 63 => ⟨S2048x128, .f32⟩
  | 64 => ⟨S2048x128, .f32⟩
  | 65 => ⟨S1x128, .f32⟩
  | 66 => ⟨S128, .f32⟩
  | 67 => ⟨S1x128, .f32⟩
  | 68 => ⟨S128, .f32⟩
  | 69 => ⟨S_, .f32⟩
  | 70 => ⟨S128, .f32⟩
  | 71 => ⟨S_, .f32⟩
  | 72 => ⟨S128, .f32⟩
  | 73 => ⟨S128, .f32⟩
  | 74 => ⟨S_, .i32⟩
  | 75 => ⟨S_, .f32⟩
  | 76 => ⟨S128, .f32⟩
  | 77 => ⟨S1x128, .f32⟩
  | 78 => ⟨S_, .f32⟩
  | 79 => ⟨S1x128, .f32⟩
  | 80 => ⟨S1x128, .f32⟩
  | 81 => ⟨S2048x128, .f32⟩
  | 82 => ⟨S2048x128, .f32⟩
  | 83 => ⟨S2048x128, .f32⟩
  | 84 => ⟨S_, .f32⟩
  | 85 => ⟨S_, .f32⟩
  | 86 => ⟨S_, .f32⟩
  | 87 => ⟨S_, .f32⟩
  | 88 => ⟨S128, .f32⟩
  | 89 => ⟨S128, .f32⟩
  | 90 => ⟨S128, .f32⟩
  | 91 => ⟨S_, .f32⟩
  | 92 => ⟨S_, .i1⟩
  | 93 => ⟨S_, .f32⟩
  | 94 => ⟨S_, .f32⟩
  | 95 => ⟨S128, .f32⟩
  | 96 => ⟨S128, .f32⟩
  | 97 => ⟨S1x128, .f32⟩
  | 98 => ⟨S2048x128, .f32⟩
  | 99 => ⟨S2048x128, .f32⟩
  | 100 => ⟨S_, .f32⟩
  | 101 => ⟨S128, .f32⟩
  | 102 => ⟨S128, .f32⟩
  | 103 => ⟨S128, .f32⟩
  | 104 => ⟨S1x128, .f32⟩
  | 105 => ⟨S2048x128, .f32⟩
  | 106 => ⟨S2048x128, .f32⟩
  | 107 => ⟨S1x128, .f32⟩
  | 108 => ⟨S2048x128, .f32⟩
  | 109 => ⟨S2048x128, .f32⟩
  | 110 => ⟨S1x128, .f32⟩
  | 111 => ⟨S2048x128, .f32⟩
  | 112 => ⟨S2048x128, .f32⟩
  | 113 => ⟨S_, .i32⟩
  | 114 => ⟨S262144, .i32⟩
  | 115 => ⟨S262144, .i1⟩
  | 116 => ⟨S_, .i32⟩
  | 117 => ⟨S262144, .i32⟩
  | 118 => ⟨S262144, .i32⟩
  | 119 => ⟨S262144, .i32⟩
  | 120 => ⟨S262144x1, .i32⟩
  | 121 => ⟨S262144x128, .f32⟩
  | 122 => ⟨S262144x128, .f32⟩
  | 123 => ⟨S_, .f32⟩
  | 124 => ⟨S262144x128, .f32⟩
  | 125 => ⟨S262144x128, .f32⟩
  | 126 => ⟨S_, .f32⟩
  | 127 => ⟨S2048x128, .f32⟩
  | _ => ⟨S262144x128, .f32⟩

abbrev hbmTy0_6 (i : Nat) : BufTy := match i % 128 with
  | 0 => ⟨S262144x1, .i32⟩
  | 1 => ⟨S2048x128, .f32⟩
  | 2 => ⟨S_, .f32⟩
  | 3 => ⟨S262144x1, .f32⟩
  | 4 => ⟨S_, .f32⟩
  | 5 => ⟨S2048x1, .f32⟩
  | 6 => ⟨S262144x1, .i32⟩
  | 7 => ⟨S2048x1, .f32⟩
  | 8 => ⟨S_, .f32⟩
  | 9 => ⟨S2048x1, .f32⟩
  | 10 => ⟨S2048x1, .f32⟩
  | 11 => ⟨S2048x128, .f32⟩
  | 12 => ⟨S2048x128, .f32⟩
  | 13 => ⟨S_, .f32⟩
  | 14 => ⟨S16x128, .f32⟩
  | 15 => ⟨S2048x1, .i32⟩
  | 16 => ⟨S16x128, .f32⟩
  | 17 => ⟨S_, .f32⟩
  | 18 => ⟨S2048x1, .f32⟩
  | 19 => ⟨S_, .f32⟩
  | 20 => ⟨S16x1, .f32⟩
  | 21 => ⟨S2048x1, .i32⟩
  | 22 => ⟨S16x1, .f32⟩
  | 23 => ⟨S_, .f32⟩
  | 24 => ⟨S16x1, .f32⟩
  | 25 => ⟨S16x1, .f32⟩
  | 26 => ⟨S16x128, .f32⟩
  | 27 => ⟨S16x128, .f32⟩
  | 28 => ⟨S16x256, .f32⟩
  | 29 => ⟨S1x256, .f32⟩
  | 30 => ⟨S16x256, .f32⟩
  | 31 => ⟨S16x256, .f32⟩
  | 32 => ⟨S_, .f32⟩
  | 33 => ⟨S16x256, .f32⟩
  | 34 => ⟨S16x256, .f32⟩
  | 35 => ⟨S16x10, .f32⟩
  | 36 => ⟨S1x10, .f32⟩
  | 37 => ⟨S16x10, .f32⟩
  | 38 => ⟨S16x10, .f32⟩
  | _ => ⟨S262144x128, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | _ => ⟨S262144x128, .f32⟩

abbrev bufTy : (tb : Table) → Fin (tcTables nBuf tb) → BufTy
  | .hbm, ⟨i, _⟩ => hbmTy i
  | _, _ => ⟨S262144x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_c : Ref sig .tc := ⟨.hbm, 22, rfl⟩
abbrev main_v0 : Ref sig .tc := ⟨.hbm, 23, rfl⟩
abbrev main_call0_call0_c : Ref sig .tc := ⟨.hbm, 24, rfl⟩
abbrev main_call0_call0_v0 : Ref sig .tc := ⟨.hbm, 25, rfl⟩
abbrev main_v1 : Ref sig .tc := ⟨.hbm, 26, rfl⟩
abbrev main_v2 : Ref sig .tc := ⟨.hbm, 27, rfl⟩
abbrev main_c_0 : Ref sig .tc := ⟨.hbm, 28, rfl⟩
abbrev main_v3 : Ref sig .tc := ⟨.hbm, 29, rfl⟩
abbrev main_v4 : Ref sig .tc := ⟨.hbm, 30, rfl⟩
abbrev main_c_1 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_c_2 : Ref sig .tc := ⟨.hbm, 46, rfl⟩
abbrev main_v19 : Ref sig .tc := ⟨.hbm, 47, rfl⟩
abbrev main_v20 : Ref sig .tc := ⟨.hbm, 48, rfl⟩
abbrev main_c_3 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_cst : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_cst_4 : Ref sig .tc := ⟨.hbm, 71, rfl⟩
abbrev main_v41 : Ref sig .tc := ⟨.hbm, 72, rfl⟩
abbrev main_cst_5 : Ref sig .tc := ⟨.hbm, 73, rfl⟩
abbrev main_v42 : Ref sig .tc := ⟨.hbm, 74, rfl⟩
abbrev main_v43 : Ref sig .tc := ⟨.hbm, 75, rfl⟩
abbrev main_c_6 : Ref sig .tc := ⟨.hbm, 76, rfl⟩
abbrev main_call1_cst : Ref sig .tc := ⟨.hbm, 77, rfl⟩
abbrev main_call1_v0 : Ref sig .tc := ⟨.hbm, 78, rfl⟩
abbrev main_call1_v1 : Ref sig .tc := ⟨.hbm, 79, rfl⟩
abbrev main_call1_cst_0 : Ref sig .tc := ⟨.hbm, 80, rfl⟩
abbrev main_call1_v2 : Ref sig .tc := ⟨.hbm, 81, rfl⟩
abbrev main_call1_v3 : Ref sig .tc := ⟨.hbm, 82, rfl⟩
abbrev main_call1_v4 : Ref sig .tc := ⟨.hbm, 83, rfl⟩
abbrev main_call1_v5 : Ref sig .tc := ⟨.hbm, 84, rfl⟩
abbrev main_call1_v6 : Ref sig .tc := ⟨.hbm, 85, rfl⟩
abbrev main_call1_v7 : Ref sig .tc := ⟨.hbm, 86, rfl⟩
abbrev main_call1_cst_1 : Ref sig .tc := ⟨.hbm, 87, rfl⟩
abbrev main_call1_v8 : Ref sig .tc := ⟨.hbm, 88, rfl⟩
abbrev main_call1_cst_2 : Ref sig .tc := ⟨.hbm, 89, rfl⟩
abbrev main_call1_v9 : Ref sig .tc := ⟨.hbm, 90, rfl⟩
abbrev main_call1_v10 : Ref sig .tc := ⟨.hbm, 91, rfl⟩
abbrev main_call1_v11 : Ref sig .tc := ⟨.hbm, 92, rfl⟩
abbrev main_call1_cst_3 : Ref sig .tc := ⟨.hbm, 93, rfl⟩
abbrev main_call1_v12 : Ref sig .tc := ⟨.hbm, 94, rfl⟩
abbrev main_call1_cst_4 : Ref sig .tc := ⟨.hbm, 95, rfl⟩
abbrev main_call1_call0_v0 : Ref sig .tc := ⟨.hbm, 96, rfl⟩
abbrev main_call1_call0_v1 : Ref sig .tc := ⟨.hbm, 97, rfl⟩
abbrev main_v44 : Ref sig .tc := ⟨.hbm, 98, rfl⟩
abbrev main_v45 : Ref sig .tc := ⟨.hbm, 99, rfl⟩
abbrev main_v46 : Ref sig .tc := ⟨.hbm, 100, rfl⟩
abbrev main_v47 : Ref sig .tc := ⟨.hbm, 101, rfl⟩
abbrev main_cst_7 : Ref sig .tc := ⟨.hbm, 102, rfl⟩
abbrev main_v48 : Ref sig .tc := ⟨.hbm, 103, rfl⟩
abbrev main_v49 : Ref sig .tc := ⟨.hbm, 104, rfl⟩
abbrev main_v50 : Ref sig .tc := ⟨.hbm, 105, rfl⟩
abbrev main_v51 : Ref sig .tc := ⟨.hbm, 106, rfl⟩
abbrev main_v52 : Ref sig .tc := ⟨.hbm, 107, rfl⟩
abbrev main_v53 : Ref sig .tc := ⟨.hbm, 108, rfl⟩
abbrev main_v54 : Ref sig .tc := ⟨.hbm, 109, rfl⟩
abbrev main_v55 : Ref sig .tc := ⟨.hbm, 110, rfl⟩
abbrev main_v56 : Ref sig .tc := ⟨.hbm, 111, rfl⟩
abbrev main_v57 : Ref sig .tc := ⟨.hbm, 112, rfl⟩
abbrev main_v58 : Ref sig .tc := ⟨.hbm, 113, rfl⟩
abbrev main_v59 : Ref sig .tc := ⟨.hbm, 114, rfl⟩
abbrev main_cst_8 : Ref sig .tc := ⟨.hbm, 115, rfl⟩
abbrev main_v60 : Ref sig .tc := ⟨.hbm, 116, rfl⟩
abbrev main_v61 : Ref sig .tc := ⟨.hbm, 117, rfl⟩
abbrev main_v62 : Ref sig .tc := ⟨.hbm, 118, rfl⟩
abbrev main_cst_9 : Ref sig .tc := ⟨.hbm, 119, rfl⟩
abbrev main_v63 : Ref sig .tc := ⟨.hbm, 120, rfl⟩
abbrev main_cst_10 : Ref sig .tc := ⟨.hbm, 121, rfl⟩
abbrev main_v64 : Ref sig .tc := ⟨.hbm, 122, rfl⟩
abbrev main_v65 : Ref sig .tc := ⟨.hbm, 123, rfl⟩
abbrev main_v66 : Ref sig .tc := ⟨.hbm, 124, rfl⟩
abbrev main_cst_11 : Ref sig .tc := ⟨.hbm, 125, rfl⟩
abbrev main_v67 : Ref sig .tc := ⟨.hbm, 126, rfl⟩
abbrev main_v68 : Ref sig .tc := ⟨.hbm, 127, rfl⟩
abbrev main_v69 : Ref sig .tc := ⟨.hbm, 128, rfl⟩
abbrev main_v70 : Ref sig .tc := ⟨.hbm, 129, rfl⟩
abbrev main_v71 : Ref sig .tc := ⟨.hbm, 130, rfl⟩
abbrev main_v72 : Ref sig .tc := ⟨.hbm, 131, rfl⟩
abbrev main_v73 : Ref sig .tc := ⟨.hbm, 132, rfl⟩
abbrev main_v74 : Ref sig .tc := ⟨.hbm, 133, rfl⟩
abbrev main_v75 : Ref sig .tc := ⟨.hbm, 134, rfl⟩
abbrev main_v76 : Ref sig .tc := ⟨.hbm, 135, rfl⟩
abbrev main_v77 : Ref sig .tc := ⟨.hbm, 136, rfl⟩
abbrev main_v78 : Ref sig .tc := ⟨.hbm, 137, rfl⟩
abbrev main_c_12 : Ref sig .tc := ⟨.hbm, 138, rfl⟩
abbrev main_v79 : Ref sig .tc := ⟨.hbm, 139, rfl⟩
abbrev main_v80 : Ref sig .tc := ⟨.hbm, 140, rfl⟩
abbrev main_c_13 : Ref sig .tc := ⟨.hbm, 141, rfl⟩
abbrev main_v81 : Ref sig .tc := ⟨.hbm, 142, rfl⟩
abbrev main_v82 : Ref sig .tc := ⟨.hbm, 143, rfl⟩
abbrev main_v83 : Ref sig .tc := ⟨.hbm, 144, rfl⟩
abbrev main_v84 : Ref sig .tc := ⟨.hbm, 145, rfl⟩
abbrev main_v85 : Ref sig .tc := ⟨.hbm, 146, rfl⟩
abbrev main_v86 : Ref sig .tc := ⟨.hbm, 147, rfl⟩
abbrev main_v87 : Ref sig .tc := ⟨.hbm, 148, rfl⟩
abbrev main_cst_14 : Ref sig .tc := ⟨.hbm, 149, rfl⟩
abbrev main_v88 : Ref sig .tc := ⟨.hbm, 150, rfl⟩
abbrev main_v89 : Ref sig .tc := ⟨.hbm, 151, rfl⟩
abbrev main_v90 : Ref sig .tc := ⟨.hbm, 152, rfl⟩
abbrev main_v91 : Ref sig .tc := ⟨.hbm, 153, rfl⟩
abbrev main_v92 : Ref sig .tc := ⟨.hbm, 154, rfl⟩
abbrev main_v93 : Ref sig .tc := ⟨.hbm, 155, rfl⟩
abbrev main_v94 : Ref sig .tc := ⟨.hbm, 156, rfl⟩
abbrev main_v95 : Ref sig .tc := ⟨.hbm, 157, rfl⟩
abbrev main_v96 : Ref sig .tc := ⟨.hbm, 158, rfl⟩
abbrev main_v97 : Ref sig .tc := ⟨.hbm, 159, rfl⟩
abbrev main_v98 : Ref sig .tc := ⟨.hbm, 160, rfl⟩
abbrev main_v99 : Ref sig .tc := ⟨.hbm, 161, rfl⟩
abbrev main_v100 : Ref sig .tc := ⟨.hbm, 162, rfl⟩
abbrev main_cst_15 : Ref sig .tc := ⟨.hbm, 163, rfl⟩
abbrev main_v101 : Ref sig .tc := ⟨.hbm, 164, rfl⟩
abbrev main_cst_16 : Ref sig .tc := ⟨.hbm, 165, rfl⟩
abbrev main_v102 : Ref sig .tc := ⟨.hbm, 166, rfl⟩
abbrev main_v103 : Ref sig .tc := ⟨.hbm, 167, rfl⟩
abbrev main_c_17 : Ref sig .tc := ⟨.hbm, 168, rfl⟩
abbrev main_call2_cst : Ref sig .tc := ⟨.hbm, 169, rfl⟩
abbrev main_call2_v0 : Ref sig .tc := ⟨.hbm, 170, rfl⟩
abbrev main_call2_v1 : Ref sig .tc := ⟨.hbm, 171, rfl⟩
abbrev main_call2_cst_0 : Ref sig .tc := ⟨.hbm, 172, rfl⟩
abbrev main_call2_v2 : Ref sig .tc := ⟨.hbm, 173, rfl⟩
abbrev main_call2_v3 : Ref sig .tc := ⟨.hbm, 174, rfl⟩
abbrev main_call2_v4 : Ref sig .tc := ⟨.hbm, 175, rfl⟩
abbrev main_call2_v5 : Ref sig .tc := ⟨.hbm, 176, rfl⟩
abbrev main_call2_v6 : Ref sig .tc := ⟨.hbm, 177, rfl⟩
abbrev main_call2_v7 : Ref sig .tc := ⟨.hbm, 178, rfl⟩
abbrev main_call2_cst_1 : Ref sig .tc := ⟨.hbm, 179, rfl⟩
abbrev main_call2_v8 : Ref sig .tc := ⟨.hbm, 180, rfl⟩
abbrev main_call2_cst_2 : Ref sig .tc := ⟨.hbm, 181, rfl⟩
abbrev main_call2_v9 : Ref sig .tc := ⟨.hbm, 182, rfl⟩
abbrev main_call2_v10 : Ref sig .tc := ⟨.hbm, 183, rfl⟩
abbrev main_call2_v11 : Ref sig .tc := ⟨.hbm, 184, rfl⟩
abbrev main_call2_cst_3 : Ref sig .tc := ⟨.hbm, 185, rfl⟩
abbrev main_call2_v12 : Ref sig .tc := ⟨.hbm, 186, rfl⟩
abbrev main_call2_cst_4 : Ref sig .tc := ⟨.hbm, 187, rfl⟩
abbrev main_call2_call0_v0 : Ref sig .tc := ⟨.hbm, 188, rfl⟩
abbrev main_call2_call0_v1 : Ref sig .tc := ⟨.hbm, 189, rfl⟩
abbrev main_v104 : Ref sig .tc := ⟨.hbm, 190, rfl⟩
abbrev main_v105 : Ref sig .tc := ⟨.hbm, 191, rfl⟩
abbrev main_v106 : Ref sig .tc := ⟨.hbm, 192, rfl⟩
abbrev main_v107 : Ref sig .tc := ⟨.hbm, 193, rfl⟩
abbrev main_cst_18 : Ref sig .tc := ⟨.hbm, 194, rfl⟩
abbrev main_v108 : Ref sig .tc := ⟨.hbm, 195, rfl⟩
abbrev main_v109 : Ref sig .tc := ⟨.hbm, 196, rfl⟩
abbrev main_v110 : Ref sig .tc := ⟨.hbm, 197, rfl⟩
abbrev main_v111 : Ref sig .tc := ⟨.hbm, 198, rfl⟩
abbrev main_v112 : Ref sig .tc := ⟨.hbm, 199, rfl⟩
abbrev main_v113 : Ref sig .tc := ⟨.hbm, 200, rfl⟩
abbrev main_v114 : Ref sig .tc := ⟨.hbm, 201, rfl⟩
abbrev main_v115 : Ref sig .tc := ⟨.hbm, 202, rfl⟩
abbrev main_v116 : Ref sig .tc := ⟨.hbm, 203, rfl⟩
abbrev main_v117 : Ref sig .tc := ⟨.hbm, 204, rfl⟩
abbrev main_v118 : Ref sig .tc := ⟨.hbm, 205, rfl⟩
abbrev main_v119 : Ref sig .tc := ⟨.hbm, 206, rfl⟩
abbrev main_c_19 : Ref sig .tc := ⟨.hbm, 207, rfl⟩
abbrev main_v120 : Ref sig .tc := ⟨.hbm, 208, rfl⟩
abbrev main_v121 : Ref sig .tc := ⟨.hbm, 209, rfl⟩
abbrev main_c_20 : Ref sig .tc := ⟨.hbm, 210, rfl⟩
abbrev main_v122 : Ref sig .tc := ⟨.hbm, 211, rfl⟩
abbrev main_v123 : Ref sig .tc := ⟨.hbm, 212, rfl⟩
abbrev main_v124 : Ref sig .tc := ⟨.hbm, 213, rfl⟩
abbrev main_v125 : Ref sig .tc := ⟨.hbm, 214, rfl⟩
abbrev main_v126 : Ref sig .tc := ⟨.hbm, 215, rfl⟩
abbrev main_v127 : Ref sig .tc := ⟨.hbm, 216, rfl⟩
abbrev main_call3_cst : Ref sig .tc := ⟨.hbm, 217, rfl⟩
abbrev main_call3_v0 : Ref sig .tc := ⟨.hbm, 218, rfl⟩
abbrev main_v128 : Ref sig .tc := ⟨.hbm, 219, rfl⟩
abbrev main_v129 : Ref sig .tc := ⟨.hbm, 220, rfl⟩
abbrev main_v130 : Ref sig .tc := ⟨.hbm, 221, rfl⟩
abbrev main_v131 : Ref sig .tc := ⟨.hbm, 222, rfl⟩
abbrev main_v132 : Ref sig .tc := ⟨.hbm, 223, rfl⟩
abbrev main_v133 : Ref sig .tc := ⟨.hbm, 224, rfl⟩
abbrev main_v134 : Ref sig .tc := ⟨.hbm, 225, rfl⟩
abbrev main_v135 : Ref sig .tc := ⟨.hbm, 226, rfl⟩
abbrev main_v136 : Ref sig .tc := ⟨.hbm, 227, rfl⟩
abbrev main_c_21 : Ref sig .tc := ⟨.hbm, 228, rfl⟩
abbrev main_v137 : Ref sig .tc := ⟨.hbm, 229, rfl⟩
abbrev main_v138 : Ref sig .tc := ⟨.hbm, 230, rfl⟩
abbrev main_c_22 : Ref sig .tc := ⟨.hbm, 231, rfl⟩
abbrev main_v139 : Ref sig .tc := ⟨.hbm, 232, rfl⟩
abbrev main_v140 : Ref sig .tc := ⟨.hbm, 233, rfl⟩
abbrev main_v141 : Ref sig .tc := ⟨.hbm, 234, rfl⟩
abbrev main_v142 : Ref sig .tc := ⟨.hbm, 235, rfl⟩
abbrev main_v143 : Ref sig .tc := ⟨.hbm, 236, rfl⟩
abbrev main_v144 : Ref sig .tc := ⟨.hbm, 237, rfl⟩
abbrev main_v145 : Ref sig .tc := ⟨.hbm, 238, rfl⟩
abbrev main_cst_23 : Ref sig .tc := ⟨.hbm, 239, rfl⟩
abbrev main_v146 : Ref sig .tc := ⟨.hbm, 240, rfl⟩
abbrev main_v147 : Ref sig .tc := ⟨.hbm, 241, rfl⟩
abbrev main_v148 : Ref sig .tc := ⟨.hbm, 242, rfl⟩
abbrev main_v149 : Ref sig .tc := ⟨.hbm, 243, rfl⟩
abbrev main_v150 : Ref sig .tc := ⟨.hbm, 244, rfl⟩
abbrev main_v151 : Ref sig .tc := ⟨.hbm, 245, rfl⟩
abbrev main_v152 : Ref sig .tc := ⟨.hbm, 246, rfl⟩
abbrev main_v153 : Ref sig .tc := ⟨.hbm, 247, rfl⟩
abbrev main_v154 : Ref sig .tc := ⟨.hbm, 248, rfl⟩
abbrev main_v155 : Ref sig .tc := ⟨.hbm, 249, rfl⟩
abbrev main_v156 : Ref sig .tc := ⟨.hbm, 250, rfl⟩
abbrev main_v157 : Ref sig .tc := ⟨.hbm, 251, rfl⟩
abbrev main_v158 : Ref sig .tc := ⟨.hbm, 252, rfl⟩
abbrev main_cst_24 : Ref sig .tc := ⟨.hbm, 253, rfl⟩
abbrev main_v159 : Ref sig .tc := ⟨.hbm, 254, rfl⟩
abbrev main_cst_25 : Ref sig .tc := ⟨.hbm, 255, rfl⟩
abbrev main_v160 : Ref sig .tc := ⟨.hbm, 256, rfl⟩
abbrev main_v161 : Ref sig .tc := ⟨.hbm, 257, rfl⟩
abbrev main_c_26 : Ref sig .tc := ⟨.hbm, 258, rfl⟩
abbrev main_call4_cst : Ref sig .tc := ⟨.hbm, 259, rfl⟩
abbrev main_call4_v0 : Ref sig .tc := ⟨.hbm, 260, rfl⟩
abbrev main_call4_v1 : Ref sig .tc := ⟨.hbm, 261, rfl⟩
abbrev main_call4_cst_0 : Ref sig .tc := ⟨.hbm, 262, rfl⟩
abbrev main_call4_v2 : Ref sig .tc := ⟨.hbm, 263, rfl⟩
abbrev main_call4_v3 : Ref sig .tc := ⟨.hbm, 264, rfl⟩
abbrev main_call4_v4 : Ref sig .tc := ⟨.hbm, 265, rfl⟩
abbrev main_call4_v5 : Ref sig .tc := ⟨.hbm, 266, rfl⟩
abbrev main_call4_v6 : Ref sig .tc := ⟨.hbm, 267, rfl⟩
abbrev main_call4_v7 : Ref sig .tc := ⟨.hbm, 268, rfl⟩
abbrev main_call4_cst_1 : Ref sig .tc := ⟨.hbm, 269, rfl⟩
abbrev main_call4_v8 : Ref sig .tc := ⟨.hbm, 270, rfl⟩
abbrev main_call4_cst_2 : Ref sig .tc := ⟨.hbm, 271, rfl⟩
abbrev main_call4_v9 : Ref sig .tc := ⟨.hbm, 272, rfl⟩
abbrev main_call4_v10 : Ref sig .tc := ⟨.hbm, 273, rfl⟩
abbrev main_call4_v11 : Ref sig .tc := ⟨.hbm, 274, rfl⟩
abbrev main_call4_cst_3 : Ref sig .tc := ⟨.hbm, 275, rfl⟩
abbrev main_call4_v12 : Ref sig .tc := ⟨.hbm, 276, rfl⟩
abbrev main_call4_cst_4 : Ref sig .tc := ⟨.hbm, 277, rfl⟩
abbrev main_call4_call0_v0 : Ref sig .tc := ⟨.hbm, 278, rfl⟩
abbrev main_call4_call0_v1 : Ref sig .tc := ⟨.hbm, 279, rfl⟩
abbrev main_v162 : Ref sig .tc := ⟨.hbm, 280, rfl⟩
abbrev main_v163 : Ref sig .tc := ⟨.hbm, 281, rfl⟩
abbrev main_v164 : Ref sig .tc := ⟨.hbm, 282, rfl⟩
abbrev main_v165 : Ref sig .tc := ⟨.hbm, 283, rfl⟩
abbrev main_cst_27 : Ref sig .tc := ⟨.hbm, 284, rfl⟩
abbrev main_v166 : Ref sig .tc := ⟨.hbm, 285, rfl⟩
abbrev main_v167 : Ref sig .tc := ⟨.hbm, 286, rfl⟩
abbrev main_v168 : Ref sig .tc := ⟨.hbm, 287, rfl⟩
abbrev main_v169 : Ref sig .tc := ⟨.hbm, 288, rfl⟩
abbrev main_v170 : Ref sig .tc := ⟨.hbm, 289, rfl⟩
abbrev main_v171 : Ref sig .tc := ⟨.hbm, 290, rfl⟩
abbrev main_v172 : Ref sig .tc := ⟨.hbm, 291, rfl⟩
abbrev main_v173 : Ref sig .tc := ⟨.hbm, 292, rfl⟩
abbrev main_v174 : Ref sig .tc := ⟨.hbm, 293, rfl⟩
abbrev main_v175 : Ref sig .tc := ⟨.hbm, 294, rfl⟩
abbrev main_v176 : Ref sig .tc := ⟨.hbm, 295, rfl⟩
abbrev main_v177 : Ref sig .tc := ⟨.hbm, 296, rfl⟩
abbrev main_cst_28 : Ref sig .tc := ⟨.hbm, 297, rfl⟩
abbrev main_v178 : Ref sig .tc := ⟨.hbm, 298, rfl⟩
abbrev main_v179 : Ref sig .tc := ⟨.hbm, 299, rfl⟩
abbrev main_v180 : Ref sig .tc := ⟨.hbm, 300, rfl⟩
abbrev main_cst_29 : Ref sig .tc := ⟨.hbm, 301, rfl⟩
abbrev main_v181 : Ref sig .tc := ⟨.hbm, 302, rfl⟩
abbrev main_cst_30 : Ref sig .tc := ⟨.hbm, 303, rfl⟩
abbrev main_v182 : Ref sig .tc := ⟨.hbm, 304, rfl⟩
abbrev main_v183 : Ref sig .tc := ⟨.hbm, 305, rfl⟩
abbrev main_v184 : Ref sig .tc := ⟨.hbm, 306, rfl⟩
abbrev main_cst_31 : Ref sig .tc := ⟨.hbm, 307, rfl⟩
abbrev main_v185 : Ref sig .tc := ⟨.hbm, 308, rfl⟩
abbrev main_v186 : Ref sig .tc := ⟨.hbm, 309, rfl⟩
abbrev main_v187 : Ref sig .tc := ⟨.hbm, 310, rfl⟩
abbrev main_v188 : Ref sig .tc := ⟨.hbm, 311, rfl⟩
abbrev main_v189 : Ref sig .tc := ⟨.hbm, 312, rfl⟩
abbrev main_v190 : Ref sig .tc := ⟨.hbm, 313, rfl⟩
abbrev main_v191 : Ref sig .tc := ⟨.hbm, 314, rfl⟩
abbrev main_v192 : Ref sig .tc := ⟨.hbm, 315, rfl⟩
abbrev main_v193 : Ref sig .tc := ⟨.hbm, 316, rfl⟩
abbrev main_v194 : Ref sig .tc := ⟨.hbm, 317, rfl⟩
abbrev main_v195 : Ref sig .tc := ⟨.hbm, 318, rfl⟩
abbrev main_v196 : Ref sig .tc := ⟨.hbm, 319, rfl⟩
abbrev main_c_32 : Ref sig .tc := ⟨.hbm, 320, rfl⟩
abbrev main_v197 : Ref sig .tc := ⟨.hbm, 321, rfl⟩
abbrev main_v198 : Ref sig .tc := ⟨.hbm, 322, rfl⟩
abbrev main_c_33 : Ref sig .tc := ⟨.hbm, 323, rfl⟩
abbrev main_v199 : Ref sig .tc := ⟨.hbm, 324, rfl⟩
abbrev main_v200 : Ref sig .tc := ⟨.hbm, 325, rfl⟩
abbrev main_v201 : Ref sig .tc := ⟨.hbm, 326, rfl⟩
abbrev main_v202 : Ref sig .tc := ⟨.hbm, 327, rfl⟩
abbrev main_v203 : Ref sig .tc := ⟨.hbm, 328, rfl⟩
abbrev main_v204 : Ref sig .tc := ⟨.hbm, 329, rfl⟩
abbrev main_v205 : Ref sig .tc := ⟨.hbm, 330, rfl⟩
abbrev main_cst_34 : Ref sig .tc := ⟨.hbm, 331, rfl⟩
abbrev main_v206 : Ref sig .tc := ⟨.hbm, 332, rfl⟩
abbrev main_v207 : Ref sig .tc := ⟨.hbm, 333, rfl⟩
abbrev main_v208 : Ref sig .tc := ⟨.hbm, 334, rfl⟩
abbrev main_v209 : Ref sig .tc := ⟨.hbm, 335, rfl⟩
abbrev main_v210 : Ref sig .tc := ⟨.hbm, 336, rfl⟩
abbrev main_v211 : Ref sig .tc := ⟨.hbm, 337, rfl⟩
abbrev main_v212 : Ref sig .tc := ⟨.hbm, 338, rfl⟩
abbrev main_v213 : Ref sig .tc := ⟨.hbm, 339, rfl⟩
abbrev main_v214 : Ref sig .tc := ⟨.hbm, 340, rfl⟩
abbrev main_v215 : Ref sig .tc := ⟨.hbm, 341, rfl⟩
abbrev main_v216 : Ref sig .tc := ⟨.hbm, 342, rfl⟩
abbrev main_v217 : Ref sig .tc := ⟨.hbm, 343, rfl⟩
abbrev main_v218 : Ref sig .tc := ⟨.hbm, 344, rfl⟩
abbrev main_cst_35 : Ref sig .tc := ⟨.hbm, 345, rfl⟩
abbrev main_v219 : Ref sig .tc := ⟨.hbm, 346, rfl⟩
abbrev main_cst_36 : Ref sig .tc := ⟨.hbm, 347, rfl⟩
abbrev main_v220 : Ref sig .tc := ⟨.hbm, 348, rfl⟩
abbrev main_v221 : Ref sig .tc := ⟨.hbm, 349, rfl⟩
abbrev main_c_37 : Ref sig .tc := ⟨.hbm, 350, rfl⟩
abbrev main_call5_cst : Ref sig .tc := ⟨.hbm, 351, rfl⟩
abbrev main_call5_v0 : Ref sig .tc := ⟨.hbm, 352, rfl⟩
abbrev main_call5_v1 : Ref sig .tc := ⟨.hbm, 353, rfl⟩
abbrev main_call5_cst_0 : Ref sig .tc := ⟨.hbm, 354, rfl⟩
abbrev main_call5_v2 : Ref sig .tc := ⟨.hbm, 355, rfl⟩
abbrev main_call5_v3 : Ref sig .tc := ⟨.hbm, 356, rfl⟩
abbrev main_call5_v4 : Ref sig .tc := ⟨.hbm, 357, rfl⟩
abbrev main_call5_v5 : Ref sig .tc := ⟨.hbm, 358, rfl⟩
abbrev main_call5_v6 : Ref sig .tc := ⟨.hbm, 359, rfl⟩
abbrev main_call5_v7 : Ref sig .tc := ⟨.hbm, 360, rfl⟩
abbrev main_call5_cst_1 : Ref sig .tc := ⟨.hbm, 361, rfl⟩
abbrev main_call5_v8 : Ref sig .tc := ⟨.hbm, 362, rfl⟩
abbrev main_call5_cst_2 : Ref sig .tc := ⟨.hbm, 363, rfl⟩
abbrev main_call5_v9 : Ref sig .tc := ⟨.hbm, 364, rfl⟩
abbrev main_call5_v10 : Ref sig .tc := ⟨.hbm, 365, rfl⟩
abbrev main_call5_v11 : Ref sig .tc := ⟨.hbm, 366, rfl⟩
abbrev main_call5_cst_3 : Ref sig .tc := ⟨.hbm, 367, rfl⟩
abbrev main_call5_v12 : Ref sig .tc := ⟨.hbm, 368, rfl⟩
abbrev main_call5_cst_4 : Ref sig .tc := ⟨.hbm, 369, rfl⟩
abbrev main_call5_call0_v0 : Ref sig .tc := ⟨.hbm, 370, rfl⟩
abbrev main_call5_call0_v1 : Ref sig .tc := ⟨.hbm, 371, rfl⟩
abbrev main_v222 : Ref sig .tc := ⟨.hbm, 372, rfl⟩
abbrev main_v223 : Ref sig .tc := ⟨.hbm, 373, rfl⟩
abbrev main_v224 : Ref sig .tc := ⟨.hbm, 374, rfl⟩
abbrev main_v225 : Ref sig .tc := ⟨.hbm, 375, rfl⟩
abbrev main_cst_38 : Ref sig .tc := ⟨.hbm, 376, rfl⟩
abbrev main_v226 : Ref sig .tc := ⟨.hbm, 377, rfl⟩
abbrev main_v227 : Ref sig .tc := ⟨.hbm, 378, rfl⟩
abbrev main_v228 : Ref sig .tc := ⟨.hbm, 379, rfl⟩
abbrev main_v229 : Ref sig .tc := ⟨.hbm, 380, rfl⟩
abbrev main_v230 : Ref sig .tc := ⟨.hbm, 381, rfl⟩
abbrev main_v231 : Ref sig .tc := ⟨.hbm, 382, rfl⟩
abbrev main_v232 : Ref sig .tc := ⟨.hbm, 383, rfl⟩
abbrev main_v233 : Ref sig .tc := ⟨.hbm, 384, rfl⟩
abbrev main_v234 : Ref sig .tc := ⟨.hbm, 385, rfl⟩
abbrev main_v235 : Ref sig .tc := ⟨.hbm, 386, rfl⟩
abbrev main_v236 : Ref sig .tc := ⟨.hbm, 387, rfl⟩
abbrev main_v237 : Ref sig .tc := ⟨.hbm, 388, rfl⟩
abbrev main_c_39 : Ref sig .tc := ⟨.hbm, 389, rfl⟩
abbrev main_v238 : Ref sig .tc := ⟨.hbm, 390, rfl⟩
abbrev main_v239 : Ref sig .tc := ⟨.hbm, 391, rfl⟩
abbrev main_c_40 : Ref sig .tc := ⟨.hbm, 392, rfl⟩
abbrev main_v240 : Ref sig .tc := ⟨.hbm, 393, rfl⟩
abbrev main_v241 : Ref sig .tc := ⟨.hbm, 394, rfl⟩
abbrev main_v242 : Ref sig .tc := ⟨.hbm, 395, rfl⟩
abbrev main_v243 : Ref sig .tc := ⟨.hbm, 396, rfl⟩
abbrev main_v244 : Ref sig .tc := ⟨.hbm, 397, rfl⟩
abbrev main_v245 : Ref sig .tc := ⟨.hbm, 398, rfl⟩
abbrev main_call6_cst : Ref sig .tc := ⟨.hbm, 399, rfl⟩
abbrev main_call6_v0 : Ref sig .tc := ⟨.hbm, 400, rfl⟩
abbrev main_v246 : Ref sig .tc := ⟨.hbm, 401, rfl⟩
abbrev main_v247 : Ref sig .tc := ⟨.hbm, 402, rfl⟩
abbrev main_v248 : Ref sig .tc := ⟨.hbm, 403, rfl⟩
abbrev main_v249 : Ref sig .tc := ⟨.hbm, 404, rfl⟩
abbrev main_v250 : Ref sig .tc := ⟨.hbm, 405, rfl⟩
abbrev main_v251 : Ref sig .tc := ⟨.hbm, 406, rfl⟩
abbrev main_v252 : Ref sig .tc := ⟨.hbm, 407, rfl⟩
abbrev main_v253 : Ref sig .tc := ⟨.hbm, 408, rfl⟩
abbrev main_v254 : Ref sig .tc := ⟨.hbm, 409, rfl⟩
abbrev main_c_41 : Ref sig .tc := ⟨.hbm, 410, rfl⟩
abbrev main_v255 : Ref sig .tc := ⟨.hbm, 411, rfl⟩
abbrev main_v256 : Ref sig .tc := ⟨.hbm, 412, rfl⟩
abbrev main_c_42 : Ref sig .tc := ⟨.hbm, 413, rfl⟩
abbrev main_v257 : Ref sig .tc := ⟨.hbm, 414, rfl⟩
abbrev main_v258 : Ref sig .tc := ⟨.hbm, 415, rfl⟩
abbrev main_v259 : Ref sig .tc := ⟨.hbm, 416, rfl⟩
abbrev main_v260 : Ref sig .tc := ⟨.hbm, 417, rfl⟩
abbrev main_v261 : Ref sig .tc := ⟨.hbm, 418, rfl⟩
abbrev main_v262 : Ref sig .tc := ⟨.hbm, 419, rfl⟩
abbrev main_v263 : Ref sig .tc := ⟨.hbm, 420, rfl⟩
abbrev main_cst_43 : Ref sig .tc := ⟨.hbm, 421, rfl⟩
abbrev main_v264 : Ref sig .tc := ⟨.hbm, 422, rfl⟩
abbrev main_v265 : Ref sig .tc := ⟨.hbm, 423, rfl⟩
abbrev main_v266 : Ref sig .tc := ⟨.hbm, 424, rfl⟩
abbrev main_v267 : Ref sig .tc := ⟨.hbm, 425, rfl⟩
abbrev main_v268 : Ref sig .tc := ⟨.hbm, 426, rfl⟩
abbrev main_v269 : Ref sig .tc := ⟨.hbm, 427, rfl⟩
abbrev main_v270 : Ref sig .tc := ⟨.hbm, 428, rfl⟩
abbrev main_v271 : Ref sig .tc := ⟨.hbm, 429, rfl⟩
abbrev main_v272 : Ref sig .tc := ⟨.hbm, 430, rfl⟩
abbrev main_v273 : Ref sig .tc := ⟨.hbm, 431, rfl⟩
abbrev main_v274 : Ref sig .tc := ⟨.hbm, 432, rfl⟩
abbrev main_v275 : Ref sig .tc := ⟨.hbm, 433, rfl⟩
abbrev main_v276 : Ref sig .tc := ⟨.hbm, 434, rfl⟩
abbrev main_cst_44 : Ref sig .tc := ⟨.hbm, 435, rfl⟩
abbrev main_v277 : Ref sig .tc := ⟨.hbm, 436, rfl⟩
abbrev main_cst_45 : Ref sig .tc := ⟨.hbm, 437, rfl⟩
abbrev main_v278 : Ref sig .tc := ⟨.hbm, 438, rfl⟩
abbrev main_v279 : Ref sig .tc := ⟨.hbm, 439, rfl⟩
abbrev main_c_46 : Ref sig .tc := ⟨.hbm, 440, rfl⟩
abbrev main_call7_cst : Ref sig .tc := ⟨.hbm, 441, rfl⟩
abbrev main_call7_v0 : Ref sig .tc := ⟨.hbm, 442, rfl⟩
abbrev main_call7_v1 : Ref sig .tc := ⟨.hbm, 443, rfl⟩
abbrev main_call7_cst_0 : Ref sig .tc := ⟨.hbm, 444, rfl⟩
abbrev main_call7_v2 : Ref sig .tc := ⟨.hbm, 445, rfl⟩
abbrev main_call7_v3 : Ref sig .tc := ⟨.hbm, 446, rfl⟩
abbrev main_call7_v4 : Ref sig .tc := ⟨.hbm, 447, rfl⟩
abbrev main_call7_v5 : Ref sig .tc := ⟨.hbm, 448, rfl⟩
abbrev main_call7_v6 : Ref sig .tc := ⟨.hbm, 449, rfl⟩
abbrev main_call7_v7 : Ref sig .tc := ⟨.hbm, 450, rfl⟩
abbrev main_call7_cst_1 : Ref sig .tc := ⟨.hbm, 451, rfl⟩
abbrev main_call7_v8 : Ref sig .tc := ⟨.hbm, 452, rfl⟩
abbrev main_call7_cst_2 : Ref sig .tc := ⟨.hbm, 453, rfl⟩
abbrev main_call7_v9 : Ref sig .tc := ⟨.hbm, 454, rfl⟩
abbrev main_call7_v10 : Ref sig .tc := ⟨.hbm, 455, rfl⟩
abbrev main_call7_v11 : Ref sig .tc := ⟨.hbm, 456, rfl⟩
abbrev main_call7_cst_3 : Ref sig .tc := ⟨.hbm, 457, rfl⟩
abbrev main_call7_v12 : Ref sig .tc := ⟨.hbm, 458, rfl⟩
abbrev main_call7_cst_4 : Ref sig .tc := ⟨.hbm, 459, rfl⟩
abbrev main_call7_call0_v0 : Ref sig .tc := ⟨.hbm, 460, rfl⟩
abbrev main_call7_call0_v1 : Ref sig .tc := ⟨.hbm, 461, rfl⟩
abbrev main_v280 : Ref sig .tc := ⟨.hbm, 462, rfl⟩
abbrev main_v281 : Ref sig .tc := ⟨.hbm, 463, rfl⟩
abbrev main_v282 : Ref sig .tc := ⟨.hbm, 464, rfl⟩
abbrev main_v283 : Ref sig .tc := ⟨.hbm, 465, rfl⟩
abbrev main_cst_47 : Ref sig .tc := ⟨.hbm, 466, rfl⟩
abbrev main_v284 : Ref sig .tc := ⟨.hbm, 467, rfl⟩
abbrev main_v285 : Ref sig .tc := ⟨.hbm, 468, rfl⟩
abbrev main_v286 : Ref sig .tc := ⟨.hbm, 469, rfl⟩
abbrev main_v287 : Ref sig .tc := ⟨.hbm, 470, rfl⟩
abbrev main_v288 : Ref sig .tc := ⟨.hbm, 471, rfl⟩
abbrev main_v289 : Ref sig .tc := ⟨.hbm, 472, rfl⟩
abbrev main_v290 : Ref sig .tc := ⟨.hbm, 473, rfl⟩
abbrev main_v291 : Ref sig .tc := ⟨.hbm, 474, rfl⟩
abbrev main_v292 : Ref sig .tc := ⟨.hbm, 475, rfl⟩
abbrev main_v293 : Ref sig .tc := ⟨.hbm, 476, rfl⟩
abbrev main_v294 : Ref sig .tc := ⟨.hbm, 477, rfl⟩
abbrev main_v295 : Ref sig .tc := ⟨.hbm, 478, rfl⟩
abbrev main_cst_48 : Ref sig .tc := ⟨.hbm, 479, rfl⟩
abbrev main_v296 : Ref sig .tc := ⟨.hbm, 480, rfl⟩
abbrev main_v297 : Ref sig .tc := ⟨.hbm, 481, rfl⟩
abbrev main_v298 : Ref sig .tc := ⟨.hbm, 482, rfl⟩
abbrev main_cst_49 : Ref sig .tc := ⟨.hbm, 483, rfl⟩
abbrev main_v299 : Ref sig .tc := ⟨.hbm, 484, rfl⟩
abbrev main_cst_50 : Ref sig .tc := ⟨.hbm, 485, rfl⟩
abbrev main_v300 : Ref sig .tc := ⟨.hbm, 486, rfl⟩
abbrev main_v301 : Ref sig .tc := ⟨.hbm, 487, rfl⟩
abbrev main_v302 : Ref sig .tc := ⟨.hbm, 488, rfl⟩
abbrev main_cst_51 : Ref sig .tc := ⟨.hbm, 489, rfl⟩
abbrev main_v303 : Ref sig .tc := ⟨.hbm, 490, rfl⟩
abbrev main_v304 : Ref sig .tc := ⟨.hbm, 491, rfl⟩
abbrev main_v305 : Ref sig .tc := ⟨.hbm, 492, rfl⟩
abbrev main_v306 : Ref sig .tc := ⟨.hbm, 493, rfl⟩
abbrev main_v307 : Ref sig .tc := ⟨.hbm, 494, rfl⟩
abbrev main_v308 : Ref sig .tc := ⟨.hbm, 495, rfl⟩
abbrev main_v309 : Ref sig .tc := ⟨.hbm, 496, rfl⟩
abbrev main_v310 : Ref sig .tc := ⟨.hbm, 497, rfl⟩
abbrev main_v311 : Ref sig .tc := ⟨.hbm, 498, rfl⟩
abbrev main_v312 : Ref sig .tc := ⟨.hbm, 499, rfl⟩
abbrev main_v313 : Ref sig .tc := ⟨.hbm, 500, rfl⟩
abbrev main_v314 : Ref sig .tc := ⟨.hbm, 501, rfl⟩
abbrev main_c_52 : Ref sig .tc := ⟨.hbm, 502, rfl⟩
abbrev main_v315 : Ref sig .tc := ⟨.hbm, 503, rfl⟩
abbrev main_v316 : Ref sig .tc := ⟨.hbm, 504, rfl⟩
abbrev main_c_53 : Ref sig .tc := ⟨.hbm, 505, rfl⟩
abbrev main_v317 : Ref sig .tc := ⟨.hbm, 506, rfl⟩
abbrev main_v318 : Ref sig .tc := ⟨.hbm, 507, rfl⟩
abbrev main_v319 : Ref sig .tc := ⟨.hbm, 508, rfl⟩
abbrev main_v320 : Ref sig .tc := ⟨.hbm, 509, rfl⟩
abbrev main_v321 : Ref sig .tc := ⟨.hbm, 510, rfl⟩
abbrev main_v322 : Ref sig .tc := ⟨.hbm, 511, rfl⟩
abbrev main_v323 : Ref sig .tc := ⟨.hbm, 512, rfl⟩
abbrev main_cst_54 : Ref sig .tc := ⟨.hbm, 513, rfl⟩
abbrev main_v324 : Ref sig .tc := ⟨.hbm, 514, rfl⟩
abbrev main_v325 : Ref sig .tc := ⟨.hbm, 515, rfl⟩
abbrev main_v326 : Ref sig .tc := ⟨.hbm, 516, rfl⟩
abbrev main_v327 : Ref sig .tc := ⟨.hbm, 517, rfl⟩
abbrev main_v328 : Ref sig .tc := ⟨.hbm, 518, rfl⟩
abbrev main_v329 : Ref sig .tc := ⟨.hbm, 519, rfl⟩
abbrev main_v330 : Ref sig .tc := ⟨.hbm, 520, rfl⟩
abbrev main_v331 : Ref sig .tc := ⟨.hbm, 521, rfl⟩
abbrev main_v332 : Ref sig .tc := ⟨.hbm, 522, rfl⟩
abbrev main_v333 : Ref sig .tc := ⟨.hbm, 523, rfl⟩
abbrev main_v334 : Ref sig .tc := ⟨.hbm, 524, rfl⟩
abbrev main_v335 : Ref sig .tc := ⟨.hbm, 525, rfl⟩
abbrev main_v336 : Ref sig .tc := ⟨.hbm, 526, rfl⟩
abbrev main_cst_55 : Ref sig .tc := ⟨.hbm, 527, rfl⟩
abbrev main_v337 : Ref sig .tc := ⟨.hbm, 528, rfl⟩
abbrev main_cst_56 : Ref sig .tc := ⟨.hbm, 529, rfl⟩
abbrev main_v338 : Ref sig .tc := ⟨.hbm, 530, rfl⟩
abbrev main_v339 : Ref sig .tc := ⟨.hbm, 531, rfl⟩
abbrev main_c_57 : Ref sig .tc := ⟨.hbm, 532, rfl⟩
abbrev main_call8_cst : Ref sig .tc := ⟨.hbm, 533, rfl⟩
abbrev main_call8_v0 : Ref sig .tc := ⟨.hbm, 534, rfl⟩
abbrev main_call8_v1 : Ref sig .tc := ⟨.hbm, 535, rfl⟩
abbrev main_call8_cst_0 : Ref sig .tc := ⟨.hbm, 536, rfl⟩
abbrev main_call8_v2 : Ref sig .tc := ⟨.hbm, 537, rfl⟩
abbrev main_call8_v3 : Ref sig .tc := ⟨.hbm, 538, rfl⟩
abbrev main_call8_v4 : Ref sig .tc := ⟨.hbm, 539, rfl⟩
abbrev main_call8_v5 : Ref sig .tc := ⟨.hbm, 540, rfl⟩
abbrev main_call8_v6 : Ref sig .tc := ⟨.hbm, 541, rfl⟩
abbrev main_call8_v7 : Ref sig .tc := ⟨.hbm, 542, rfl⟩
abbrev main_call8_cst_1 : Ref sig .tc := ⟨.hbm, 543, rfl⟩
abbrev main_call8_v8 : Ref sig .tc := ⟨.hbm, 544, rfl⟩
abbrev main_call8_cst_2 : Ref sig .tc := ⟨.hbm, 545, rfl⟩
abbrev main_call8_v9 : Ref sig .tc := ⟨.hbm, 546, rfl⟩
abbrev main_call8_v10 : Ref sig .tc := ⟨.hbm, 547, rfl⟩
abbrev main_call8_v11 : Ref sig .tc := ⟨.hbm, 548, rfl⟩
abbrev main_call8_cst_3 : Ref sig .tc := ⟨.hbm, 549, rfl⟩
abbrev main_call8_v12 : Ref sig .tc := ⟨.hbm, 550, rfl⟩
abbrev main_call8_cst_4 : Ref sig .tc := ⟨.hbm, 551, rfl⟩
abbrev main_call8_call0_v0 : Ref sig .tc := ⟨.hbm, 552, rfl⟩
abbrev main_call8_call0_v1 : Ref sig .tc := ⟨.hbm, 553, rfl⟩
abbrev main_v340 : Ref sig .tc := ⟨.hbm, 554, rfl⟩
abbrev main_v341 : Ref sig .tc := ⟨.hbm, 555, rfl⟩
abbrev main_v342 : Ref sig .tc := ⟨.hbm, 556, rfl⟩
abbrev main_v343 : Ref sig .tc := ⟨.hbm, 557, rfl⟩
abbrev main_cst_58 : Ref sig .tc := ⟨.hbm, 558, rfl⟩
abbrev main_v344 : Ref sig .tc := ⟨.hbm, 559, rfl⟩
abbrev main_v345 : Ref sig .tc := ⟨.hbm, 560, rfl⟩
abbrev main_v346 : Ref sig .tc := ⟨.hbm, 561, rfl⟩
abbrev main_v347 : Ref sig .tc := ⟨.hbm, 562, rfl⟩
abbrev main_v348 : Ref sig .tc := ⟨.hbm, 563, rfl⟩
abbrev main_v349 : Ref sig .tc := ⟨.hbm, 564, rfl⟩
abbrev main_v350 : Ref sig .tc := ⟨.hbm, 565, rfl⟩
abbrev main_v351 : Ref sig .tc := ⟨.hbm, 566, rfl⟩
abbrev main_v352 : Ref sig .tc := ⟨.hbm, 567, rfl⟩
abbrev main_v353 : Ref sig .tc := ⟨.hbm, 568, rfl⟩
abbrev main_v354 : Ref sig .tc := ⟨.hbm, 569, rfl⟩
abbrev main_v355 : Ref sig .tc := ⟨.hbm, 570, rfl⟩
abbrev main_c_59 : Ref sig .tc := ⟨.hbm, 571, rfl⟩
abbrev main_v356 : Ref sig .tc := ⟨.hbm, 572, rfl⟩
abbrev main_v357 : Ref sig .tc := ⟨.hbm, 573, rfl⟩
abbrev main_c_60 : Ref sig .tc := ⟨.hbm, 574, rfl⟩
abbrev main_v358 : Ref sig .tc := ⟨.hbm, 575, rfl⟩
abbrev main_v359 : Ref sig .tc := ⟨.hbm, 576, rfl⟩
abbrev main_v360 : Ref sig .tc := ⟨.hbm, 577, rfl⟩
abbrev main_v361 : Ref sig .tc := ⟨.hbm, 578, rfl⟩
abbrev main_v362 : Ref sig .tc := ⟨.hbm, 579, rfl⟩
abbrev main_v363 : Ref sig .tc := ⟨.hbm, 580, rfl⟩
abbrev main_call9_cst : Ref sig .tc := ⟨.hbm, 581, rfl⟩
abbrev main_call9_v0 : Ref sig .tc := ⟨.hbm, 582, rfl⟩
abbrev main_v364 : Ref sig .tc := ⟨.hbm, 583, rfl⟩
abbrev main_v365 : Ref sig .tc := ⟨.hbm, 584, rfl⟩
abbrev main_v366 : Ref sig .tc := ⟨.hbm, 585, rfl⟩
abbrev main_v367 : Ref sig .tc := ⟨.hbm, 586, rfl⟩
abbrev main_v368 : Ref sig .tc := ⟨.hbm, 587, rfl⟩
abbrev main_v369 : Ref sig .tc := ⟨.hbm, 588, rfl⟩
abbrev main_v370 : Ref sig .tc := ⟨.hbm, 589, rfl⟩
abbrev main_v371 : Ref sig .tc := ⟨.hbm, 590, rfl⟩
abbrev main_v372 : Ref sig .tc := ⟨.hbm, 591, rfl⟩
abbrev main_c_61 : Ref sig .tc := ⟨.hbm, 592, rfl⟩
abbrev main_v373 : Ref sig .tc := ⟨.hbm, 593, rfl⟩
abbrev main_v374 : Ref sig .tc := ⟨.hbm, 594, rfl⟩
abbrev main_c_62 : Ref sig .tc := ⟨.hbm, 595, rfl⟩
abbrev main_v375 : Ref sig .tc := ⟨.hbm, 596, rfl⟩
abbrev main_v376 : Ref sig .tc := ⟨.hbm, 597, rfl⟩
abbrev main_v377 : Ref sig .tc := ⟨.hbm, 598, rfl⟩
abbrev main_v378 : Ref sig .tc := ⟨.hbm, 599, rfl⟩
abbrev main_v379 : Ref sig .tc := ⟨.hbm, 600, rfl⟩
abbrev main_v380 : Ref sig .tc := ⟨.hbm, 601, rfl⟩
abbrev main_v381 : Ref sig .tc := ⟨.hbm, 602, rfl⟩
abbrev main_cst_63 : Ref sig .tc := ⟨.hbm, 603, rfl⟩
abbrev main_v382 : Ref sig .tc := ⟨.hbm, 604, rfl⟩
abbrev main_v383 : Ref sig .tc := ⟨.hbm, 605, rfl⟩
abbrev main_v384 : Ref sig .tc := ⟨.hbm, 606, rfl⟩
abbrev main_v385 : Ref sig .tc := ⟨.hbm, 607, rfl⟩
abbrev main_v386 : Ref sig .tc := ⟨.hbm, 608, rfl⟩
abbrev main_v387 : Ref sig .tc := ⟨.hbm, 609, rfl⟩
abbrev main_v388 : Ref sig .tc := ⟨.hbm, 610, rfl⟩
abbrev main_v389 : Ref sig .tc := ⟨.hbm, 611, rfl⟩
abbrev main_v390 : Ref sig .tc := ⟨.hbm, 612, rfl⟩
abbrev main_v391 : Ref sig .tc := ⟨.hbm, 613, rfl⟩
abbrev main_v392 : Ref sig .tc := ⟨.hbm, 614, rfl⟩
abbrev main_v393 : Ref sig .tc := ⟨.hbm, 615, rfl⟩
abbrev main_v394 : Ref sig .tc := ⟨.hbm, 616, rfl⟩
abbrev main_cst_64 : Ref sig .tc := ⟨.hbm, 617, rfl⟩
abbrev main_v395 : Ref sig .tc := ⟨.hbm, 618, rfl⟩
abbrev main_cst_65 : Ref sig .tc := ⟨.hbm, 619, rfl⟩
abbrev main_v396 : Ref sig .tc := ⟨.hbm, 620, rfl⟩
abbrev main_v397 : Ref sig .tc := ⟨.hbm, 621, rfl⟩
abbrev main_c_66 : Ref sig .tc := ⟨.hbm, 622, rfl⟩
abbrev main_call10_cst : Ref sig .tc := ⟨.hbm, 623, rfl⟩
abbrev main_call10_v0 : Ref sig .tc := ⟨.hbm, 624, rfl⟩
abbrev main_call10_v1 : Ref sig .tc := ⟨.hbm, 625, rfl⟩
abbrev main_call10_cst_0 : Ref sig .tc := ⟨.hbm, 626, rfl⟩
abbrev main_call10_v2 : Ref sig .tc := ⟨.hbm, 627, rfl⟩
abbrev main_call10_v3 : Ref sig .tc := ⟨.hbm, 628, rfl⟩
abbrev main_call10_v4 : Ref sig .tc := ⟨.hbm, 629, rfl⟩
abbrev main_call10_v5 : Ref sig .tc := ⟨.hbm, 630, rfl⟩
abbrev main_call10_v6 : Ref sig .tc := ⟨.hbm, 631, rfl⟩
abbrev main_call10_v7 : Ref sig .tc := ⟨.hbm, 632, rfl⟩
abbrev main_call10_cst_1 : Ref sig .tc := ⟨.hbm, 633, rfl⟩
abbrev main_call10_v8 : Ref sig .tc := ⟨.hbm, 634, rfl⟩
abbrev main_call10_cst_2 : Ref sig .tc := ⟨.hbm, 635, rfl⟩
abbrev main_call10_v9 : Ref sig .tc := ⟨.hbm, 636, rfl⟩
abbrev main_call10_v10 : Ref sig .tc := ⟨.hbm, 637, rfl⟩
abbrev main_call10_v11 : Ref sig .tc := ⟨.hbm, 638, rfl⟩
abbrev main_call10_cst_3 : Ref sig .tc := ⟨.hbm, 639, rfl⟩
abbrev main_call10_v12 : Ref sig .tc := ⟨.hbm, 640, rfl⟩
abbrev main_call10_cst_4 : Ref sig .tc := ⟨.hbm, 641, rfl⟩
abbrev main_call10_call0_v0 : Ref sig .tc := ⟨.hbm, 642, rfl⟩
abbrev main_call10_call0_v1 : Ref sig .tc := ⟨.hbm, 643, rfl⟩
abbrev main_v398 : Ref sig .tc := ⟨.hbm, 644, rfl⟩
abbrev main_v399 : Ref sig .tc := ⟨.hbm, 645, rfl⟩
abbrev main_v400 : Ref sig .tc := ⟨.hbm, 646, rfl⟩
abbrev main_v401 : Ref sig .tc := ⟨.hbm, 647, rfl⟩
abbrev main_cst_67 : Ref sig .tc := ⟨.hbm, 648, rfl⟩
abbrev main_v402 : Ref sig .tc := ⟨.hbm, 649, rfl⟩
abbrev main_v403 : Ref sig .tc := ⟨.hbm, 650, rfl⟩
abbrev main_v404 : Ref sig .tc := ⟨.hbm, 651, rfl⟩
abbrev main_v405 : Ref sig .tc := ⟨.hbm, 652, rfl⟩
abbrev main_v406 : Ref sig .tc := ⟨.hbm, 653, rfl⟩
abbrev main_v407 : Ref sig .tc := ⟨.hbm, 654, rfl⟩
abbrev main_v408 : Ref sig .tc := ⟨.hbm, 655, rfl⟩
abbrev main_v409 : Ref sig .tc := ⟨.hbm, 656, rfl⟩
abbrev main_v410 : Ref sig .tc := ⟨.hbm, 657, rfl⟩
abbrev main_v411 : Ref sig .tc := ⟨.hbm, 658, rfl⟩
abbrev main_v412 : Ref sig .tc := ⟨.hbm, 659, rfl⟩
abbrev main_v413 : Ref sig .tc := ⟨.hbm, 660, rfl⟩
abbrev main_cst_68 : Ref sig .tc := ⟨.hbm, 661, rfl⟩
abbrev main_v414 : Ref sig .tc := ⟨.hbm, 662, rfl⟩
abbrev main_v415 : Ref sig .tc := ⟨.hbm, 663, rfl⟩
abbrev main_v416 : Ref sig .tc := ⟨.hbm, 664, rfl⟩
abbrev main_cst_69 : Ref sig .tc := ⟨.hbm, 665, rfl⟩
abbrev main_v417 : Ref sig .tc := ⟨.hbm, 666, rfl⟩
abbrev main_cst_70 : Ref sig .tc := ⟨.hbm, 667, rfl⟩
abbrev main_v418 : Ref sig .tc := ⟨.hbm, 668, rfl⟩
abbrev main_v419 : Ref sig .tc := ⟨.hbm, 669, rfl⟩
abbrev main_v420 : Ref sig .tc := ⟨.hbm, 670, rfl⟩
abbrev main_cst_71 : Ref sig .tc := ⟨.hbm, 671, rfl⟩
abbrev main_v421 : Ref sig .tc := ⟨.hbm, 672, rfl⟩
abbrev main_v422 : Ref sig .tc := ⟨.hbm, 673, rfl⟩
abbrev main_v423 : Ref sig .tc := ⟨.hbm, 674, rfl⟩
abbrev main_v424 : Ref sig .tc := ⟨.hbm, 675, rfl⟩
abbrev main_v425 : Ref sig .tc := ⟨.hbm, 676, rfl⟩
abbrev main_v426 : Ref sig .tc := ⟨.hbm, 677, rfl⟩
abbrev main_v427 : Ref sig .tc := ⟨.hbm, 678, rfl⟩
abbrev main_v428 : Ref sig .tc := ⟨.hbm, 679, rfl⟩
abbrev main_v429 : Ref sig .tc := ⟨.hbm, 680, rfl⟩
abbrev main_v430 : Ref sig .tc := ⟨.hbm, 681, rfl⟩
abbrev main_v431 : Ref sig .tc := ⟨.hbm, 682, rfl⟩
abbrev main_v432 : Ref sig .tc := ⟨.hbm, 683, rfl⟩
abbrev main_c_72 : Ref sig .tc := ⟨.hbm, 684, rfl⟩
abbrev main_v433 : Ref sig .tc := ⟨.hbm, 685, rfl⟩
abbrev main_v434 : Ref sig .tc := ⟨.hbm, 686, rfl⟩
abbrev main_c_73 : Ref sig .tc := ⟨.hbm, 687, rfl⟩
abbrev main_v435 : Ref sig .tc := ⟨.hbm, 688, rfl⟩
abbrev main_v436 : Ref sig .tc := ⟨.hbm, 689, rfl⟩
abbrev main_v437 : Ref sig .tc := ⟨.hbm, 690, rfl⟩
abbrev main_v438 : Ref sig .tc := ⟨.hbm, 691, rfl⟩
abbrev main_v439 : Ref sig .tc := ⟨.hbm, 692, rfl⟩
abbrev main_v440 : Ref sig .tc := ⟨.hbm, 693, rfl⟩
abbrev main_v441 : Ref sig .tc := ⟨.hbm, 694, rfl⟩
abbrev main_cst_74 : Ref sig .tc := ⟨.hbm, 695, rfl⟩
abbrev main_v442 : Ref sig .tc := ⟨.hbm, 696, rfl⟩
abbrev main_v443 : Ref sig .tc := ⟨.hbm, 697, rfl⟩
abbrev main_v444 : Ref sig .tc := ⟨.hbm, 698, rfl⟩
abbrev main_v445 : Ref sig .tc := ⟨.hbm, 699, rfl⟩
abbrev main_v446 : Ref sig .tc := ⟨.hbm, 700, rfl⟩
abbrev main_v447 : Ref sig .tc := ⟨.hbm, 701, rfl⟩
abbrev main_v448 : Ref sig .tc := ⟨.hbm, 702, rfl⟩
abbrev main_v449 : Ref sig .tc := ⟨.hbm, 703, rfl⟩
abbrev main_v450 : Ref sig .tc := ⟨.hbm, 704, rfl⟩
abbrev main_v451 : Ref sig .tc := ⟨.hbm, 705, rfl⟩
abbrev main_v452 : Ref sig .tc := ⟨.hbm, 706, rfl⟩
abbrev main_v453 : Ref sig .tc := ⟨.hbm, 707, rfl⟩
abbrev main_v454 : Ref sig .tc := ⟨.hbm, 708, rfl⟩
abbrev main_cst_75 : Ref sig .tc := ⟨.hbm, 709, rfl⟩
abbrev main_v455 : Ref sig .tc := ⟨.hbm, 710, rfl⟩
abbrev main_cst_76 : Ref sig .tc := ⟨.hbm, 711, rfl⟩
abbrev main_v456 : Ref sig .tc := ⟨.hbm, 712, rfl⟩
abbrev main_v457 : Ref sig .tc := ⟨.hbm, 713, rfl⟩
abbrev main_c_77 : Ref sig .tc := ⟨.hbm, 714, rfl⟩
abbrev main_call11_cst : Ref sig .tc := ⟨.hbm, 715, rfl⟩
abbrev main_call11_v0 : Ref sig .tc := ⟨.hbm, 716, rfl⟩
abbrev main_call11_v1 : Ref sig .tc := ⟨.hbm, 717, rfl⟩
abbrev main_call11_cst_0 : Ref sig .tc := ⟨.hbm, 718, rfl⟩
abbrev main_call11_v2 : Ref sig .tc := ⟨.hbm, 719, rfl⟩
abbrev main_call11_v3 : Ref sig .tc := ⟨.hbm, 720, rfl⟩
abbrev main_call11_v4 : Ref sig .tc := ⟨.hbm, 721, rfl⟩
abbrev main_call11_v5 : Ref sig .tc := ⟨.hbm, 722, rfl⟩
abbrev main_call11_v6 : Ref sig .tc := ⟨.hbm, 723, rfl⟩
abbrev main_call11_v7 : Ref sig .tc := ⟨.hbm, 724, rfl⟩
abbrev main_call11_cst_1 : Ref sig .tc := ⟨.hbm, 725, rfl⟩
abbrev main_call11_v8 : Ref sig .tc := ⟨.hbm, 726, rfl⟩
abbrev main_call11_cst_2 : Ref sig .tc := ⟨.hbm, 727, rfl⟩
abbrev main_call11_v9 : Ref sig .tc := ⟨.hbm, 728, rfl⟩
abbrev main_call11_v10 : Ref sig .tc := ⟨.hbm, 729, rfl⟩
abbrev main_call11_v11 : Ref sig .tc := ⟨.hbm, 730, rfl⟩
abbrev main_call11_cst_3 : Ref sig .tc := ⟨.hbm, 731, rfl⟩
abbrev main_call11_v12 : Ref sig .tc := ⟨.hbm, 732, rfl⟩
abbrev main_call11_cst_4 : Ref sig .tc := ⟨.hbm, 733, rfl⟩
abbrev main_call11_call0_v0 : Ref sig .tc := ⟨.hbm, 734, rfl⟩
abbrev main_call11_call0_v1 : Ref sig .tc := ⟨.hbm, 735, rfl⟩
abbrev main_v458 : Ref sig .tc := ⟨.hbm, 736, rfl⟩
abbrev main_v459 : Ref sig .tc := ⟨.hbm, 737, rfl⟩
abbrev main_v460 : Ref sig .tc := ⟨.hbm, 738, rfl⟩
abbrev main_v461 : Ref sig .tc := ⟨.hbm, 739, rfl⟩
abbrev main_cst_78 : Ref sig .tc := ⟨.hbm, 740, rfl⟩
abbrev main_v462 : Ref sig .tc := ⟨.hbm, 741, rfl⟩
abbrev main_v463 : Ref sig .tc := ⟨.hbm, 742, rfl⟩
abbrev main_v464 : Ref sig .tc := ⟨.hbm, 743, rfl⟩
abbrev main_v465 : Ref sig .tc := ⟨.hbm, 744, rfl⟩
abbrev main_v466 : Ref sig .tc := ⟨.hbm, 745, rfl⟩
abbrev main_v467 : Ref sig .tc := ⟨.hbm, 746, rfl⟩
abbrev main_v468 : Ref sig .tc := ⟨.hbm, 747, rfl⟩
abbrev main_v469 : Ref sig .tc := ⟨.hbm, 748, rfl⟩
abbrev main_v470 : Ref sig .tc := ⟨.hbm, 749, rfl⟩
abbrev main_v471 : Ref sig .tc := ⟨.hbm, 750, rfl⟩
abbrev main_v472 : Ref sig .tc := ⟨.hbm, 751, rfl⟩
abbrev main_v473 : Ref sig .tc := ⟨.hbm, 752, rfl⟩
abbrev main_c_79 : Ref sig .tc := ⟨.hbm, 753, rfl⟩
abbrev main_v474 : Ref sig .tc := ⟨.hbm, 754, rfl⟩
abbrev main_v475 : Ref sig .tc := ⟨.hbm, 755, rfl⟩
abbrev main_c_80 : Ref sig .tc := ⟨.hbm, 756, rfl⟩
abbrev main_v476 : Ref sig .tc := ⟨.hbm, 757, rfl⟩
abbrev main_v477 : Ref sig .tc := ⟨.hbm, 758, rfl⟩
abbrev main_v478 : Ref sig .tc := ⟨.hbm, 759, rfl⟩
abbrev main_v479 : Ref sig .tc := ⟨.hbm, 760, rfl⟩
abbrev main_v480 : Ref sig .tc := ⟨.hbm, 761, rfl⟩
abbrev main_v481 : Ref sig .tc := ⟨.hbm, 762, rfl⟩
abbrev main_call12_cst : Ref sig .tc := ⟨.hbm, 763, rfl⟩
abbrev main_call12_v0 : Ref sig .tc := ⟨.hbm, 764, rfl⟩
abbrev main_v482 : Ref sig .tc := ⟨.hbm, 765, rfl⟩
abbrev main_cst_81 : Ref sig .tc := ⟨.hbm, 766, rfl⟩
abbrev main_v483 : Ref sig .tc := ⟨.hbm, 767, rfl⟩
abbrev main_v484 : Ref sig .tc := ⟨.hbm, 768, rfl⟩
abbrev main_v485 : Ref sig .tc := ⟨.hbm, 769, rfl⟩
abbrev main_cst_82 : Ref sig .tc := ⟨.hbm, 770, rfl⟩
abbrev main_v486 : Ref sig .tc := ⟨.hbm, 771, rfl⟩
abbrev main_cst_83 : Ref sig .tc := ⟨.hbm, 772, rfl⟩
abbrev main_v487 : Ref sig .tc := ⟨.hbm, 773, rfl⟩
abbrev main_v488 : Ref sig .tc := ⟨.hbm, 774, rfl⟩
abbrev main_v489 : Ref sig .tc := ⟨.hbm, 775, rfl⟩
abbrev main_cst_84 : Ref sig .tc := ⟨.hbm, 776, rfl⟩
abbrev main_v490 : Ref sig .tc := ⟨.hbm, 777, rfl⟩
abbrev main_v491 : Ref sig .tc := ⟨.hbm, 778, rfl⟩
abbrev main_v492 : Ref sig .tc := ⟨.hbm, 779, rfl⟩
abbrev main_v493 : Ref sig .tc := ⟨.hbm, 780, rfl⟩
abbrev main_cst_85 : Ref sig .tc := ⟨.hbm, 781, rfl⟩
abbrev main_v494 : Ref sig .tc := ⟨.hbm, 782, rfl⟩
abbrev main_v495 : Ref sig .tc := ⟨.hbm, 783, rfl⟩
abbrev main_v496 : Ref sig .tc := ⟨.hbm, 784, rfl⟩
abbrev main_cst_86 : Ref sig .tc := ⟨.hbm, 785, rfl⟩
abbrev main_v497 : Ref sig .tc := ⟨.hbm, 786, rfl⟩
abbrev main_cst_87 : Ref sig .tc := ⟨.hbm, 787, rfl⟩
abbrev main_v498 : Ref sig .tc := ⟨.hbm, 788, rfl⟩
abbrev main_v499 : Ref sig .tc := ⟨.hbm, 789, rfl⟩
abbrev main_v500 : Ref sig .tc := ⟨.hbm, 790, rfl⟩
abbrev main_cst_88 : Ref sig .tc := ⟨.hbm, 791, rfl⟩
abbrev main_v501 : Ref sig .tc := ⟨.hbm, 792, rfl⟩
abbrev main_v502 : Ref sig .tc := ⟨.hbm, 793, rfl⟩
abbrev main_v503 : Ref sig .tc := ⟨.hbm, 794, rfl⟩
abbrev main_v504 : Ref sig .tc := ⟨.hbm, 795, rfl⟩
abbrev main_v505 : Ref sig .tc := ⟨.hbm, 796, rfl⟩
abbrev main_v506 : Ref sig .tc := ⟨.hbm, 797, rfl⟩
abbrev main_v507 : Ref sig .tc := ⟨.hbm, 798, rfl⟩
abbrev main_v508 : Ref sig .tc := ⟨.hbm, 799, rfl⟩
abbrev main_call13_cst : Ref sig .tc := ⟨.hbm, 800, rfl⟩
abbrev main_call13_v0 : Ref sig .tc := ⟨.hbm, 801, rfl⟩
abbrev main_v509 : Ref sig .tc := ⟨.hbm, 802, rfl⟩
abbrev main_v510 : Ref sig .tc := ⟨.hbm, 803, rfl⟩
abbrev main_v511 : Ref sig .tc := ⟨.hbm, 804, rfl⟩
abbrev main_v512 : Ref sig .tc := ⟨.hbm, 805, rfl⟩
abbrev main_v513 : Ref sig .tc := ⟨.hbm, 806, rfl⟩

abbrev nD : Nat := 1
abbrev τ : Topo := Topo.v7x

variable {F : FTy → Type} [FloatOps F]

class Facts₀ : Prop where
  bcast_S_S1 : S_.BroadcastsInDim S1 (![] : Fin 0 → Fin S1.rank)
  bcast_S_S_ : S_.BroadcastsInDim S_ (![] : Fin 0 → Fin S_.rank)
  reduceWindows_S16_S16_w16s1p15_0 : S16.ReduceWindows (![16] : Fin 1 → Nat) ![1] ![15] ![0] S16
  h_S_ : 0 < S_.numel
  concatenates_S1_S16_S17_d0 : Shape.Concatenates [S1, S16] S17 0
  bcast_S_S262144 : S_.BroadcastsInDim S262144 (![] : Fin 0 → Fin S262144.rank)
  bcast_S262144_S262144x1_0 : S262144.BroadcastsInDim S262144x1 (![0] : Fin 1 → Fin S262144x1.rank)
  slices_S4x128x128_S1x128x128_0_0_0 : S4x128x128.Slices ![0, 0, 0] S1x128x128
  shapeCasts_S1x128x128_S128x128 : S1x128x128.ShapeCasts S128x128
  slices_S4x128_S1x128_0_0 : S4x128.Slices ![0, 0] S1x128
  shapeCasts_S1x128_S128 : S1x128.ShapeCasts S128
  slices_S2x2097152_S1x2097152_0_0 : S2x2097152.Slices ![0, 0] S1x2097152
  shapeCasts_S1x2097152_S2097152 : S1x2097152.ShapeCasts S2097152
  bcast_S_S2097152 : S_.BroadcastsInDim S2097152 (![] : Fin 0 → Fin S2097152.rank)
  bcast_S2097152_S2097152x1_0 : S2097152.BroadcastsInDim S2097152x1 (![0] : Fin 1 → Fin S2097152x1.rank)
  slices_S2x2097152_S1x2097152_1_0 : S2x2097152.Slices ![1, 0] S1x2097152
  bcast_S_S262144x128 : S_.BroadcastsInDim S262144x128 (![] : Fin 0 → Fin S262144x128.rank)
  bcast_S128_S1x128_1 : S128.BroadcastsInDim S1x128 (![1] : Fin 1 → Fin S1x128.rank)
  bcast_S1x128_S262144x128_0_1 : S1x128.BroadcastsInDim S262144x128 (![0, 1] : Fin 2 → Fin S262144x128.rank)
  reducesTo_S262144x128_S128_d0 : S262144x128.ReducesTo [0] S128
  bcast_S_S128 : S_.BroadcastsInDim S128 (![] : Fin 0 → Fin S128.rank)
  bcast_S_S1x128 : S_.BroadcastsInDim S1x128 (![] : Fin 0 → Fin S1x128.rank)
  bcast_S_S2048x128 : S_.BroadcastsInDim S2048x128 (![] : Fin 0 → Fin S2048x128.rank)
  bcast_S_S262144x1 : S_.BroadcastsInDim S262144x1 (![] : Fin 0 → Fin S262144x1.rank)
  bcast_S_S2048x1 : S_.BroadcastsInDim S2048x1 (![] : Fin 0 → Fin S2048x1.rank)
  bcast_S2048x1_S2048x128_0_1 : S2048x1.BroadcastsInDim S2048x128 (![0, 1] : Fin 2 → Fin S2048x128.rank)
  slices_S2x32768_S1x32768_0_0 : S2x32768.Slices ![0, 0] S1x32768
  shapeCasts_S1x32768_S32768 : S1x32768.ShapeCasts S32768
  bcast_S_S32768 : S_.BroadcastsInDim S32768 (![] : Fin 0 → Fin S32768.rank)
  bcast_S32768_S32768x1_0 : S32768.BroadcastsInDim S32768x1 (![0] : Fin 1 → Fin S32768x1.rank)
  slices_S2x32768_S1x32768_1_0 : S2x32768.Slices ![1, 0] S1x32768
  bcast_S1x128_S2048x128_0_1 : S1x128.BroadcastsInDim S2048x128 (![0, 1] : Fin 2 → Fin S2048x128.rank)
  reducesTo_S2048x128_S128_d0 : S2048x128.ReducesTo [0] S128
  slices_S4x128x128_S1x128x128_1_0_0 : S4x128x128.Slices ![1, 0, 0] S1x128x128
  slices_S4x128_S1x128_1_0 : S4x128.Slices ![1, 0] S1x128
  slices_S4x128x128_S1x128x128_2_0_0 : S4x128x128.Slices ![2, 0, 0] S1x128x128
  slices_S4x128_S1x128_2_0 : S4x128.Slices ![2, 0] S1x128
  slices_S4x128x128_S1x128x128_3_0_0 : S4x128x128.Slices ![3, 0, 0] S1x128x128
  slices_S4x128_S1x128_3_0 : S4x128.Slices ![3, 0] S1x128
  bcast_S_S16x128 : S_.BroadcastsInDim S16x128 (![] : Fin 0 → Fin S16x128.rank)
  bcast_S2048_S2048x1_0 : S2048.BroadcastsInDim S2048x1 (![0] : Fin 1 → Fin S2048x1.rank)
  bcast_S_S16x1 : S_.BroadcastsInDim S16x1 (![] : Fin 0 → Fin S16x1.rank)
  bcast_S16x1_S16x128_0_1 : S16x1.BroadcastsInDim S16x128 (![0, 1] : Fin 2 → Fin S16x128.rank)
  bcast_S256_S1x256_1 : S256.BroadcastsInDim S1x256 (![1] : Fin 1 → Fin S1x256.rank)
  bcast_S1x256_S16x256_0_1 : S1x256.BroadcastsInDim S16x256 (![0, 1] : Fin 2 → Fin S16x256.rank)
  bcast_S_S16x256 : S_.BroadcastsInDim S16x256 (![] : Fin 0 → Fin S16x256.rank)
  bcast_S10_S1x10_1 : S10.BroadcastsInDim S1x10 (![1] : Fin 1 → Fin S1x10.rank)
  bcast_S1x10_S16x10_0_1 : S1x10.BroadcastsInDim S16x10 (![0, 1] : Fin 2 → Fin S16x10.rank)
  gather_S17_S262144x1_S262144_n_0_n_n_0_1_1_wf : GatherDims.WF S17 S262144x1 S262144 [] [0] [] [0] [] 1 ![1]
  gather_S262144x128_S2097152x1_S2097152x128_1_0_n_n_0_1_1128_wf : GatherDims.WF S262144x128 S2097152x1 S2097152x128 [1] [0] [] [0] [] 1 ![1, 128]
  scatter_S262144x128_S2097152x1_S2097152x128_1_0_0_1_wf : ScatterDims.WF S262144x128 S2097152x1 S2097152x128 [1] [0] [0] 1
  dot_S262144x128_S128x128_S262144x128_1_0_0_1_n_n_wf : DotDims.WF S262144x128 S128x128 S262144x128 [1] [0] [0] [1] [] []
  scatter_S2048x128_S262144x1_S262144x128_1_0_0_1_wf : ScatterDims.WF S2048x128 S262144x1 S262144x128 [1] [0] [0] 1
  scatter_S2048x1_S262144x1_S262144x1_1_0_0_1_wf : ScatterDims.WF S2048x1 S262144x1 S262144x1 [1] [0] [0] 1
  gather_S2048x128_S32768x1_S32768x128_1_0_n_n_0_1_1128_wf : GatherDims.WF S2048x128 S32768x1 S32768x128 [1] [0] [] [0] [] 1 ![1, 128]
  scatter_S2048x128_S32768x1_S32768x128_1_0_0_1_wf : ScatterDims.WF S2048x128 S32768x1 S32768x128 [1] [0] [0] 1
  dot_S2048x128_S128x128_S2048x128_1_0_0_1_n_n_wf : DotDims.WF S2048x128 S128x128 S2048x128 [1] [0] [0] [1] [] []
  gather_S2048x128_S262144x1_S262144x128_1_0_n_n_0_1_1128_wf : GatherDims.WF S2048x128 S262144x1 S262144x128 [1] [0] [] [0] [] 1 ![1, 128]
  scatter_S16x128_S2048x1_S2048x128_1_0_0_1_wf : ScatterDims.WF S16x128 S2048x1 S2048x128 [1] [0] [0] 1
  scatter_S16x1_S2048x1_S2048x1_1_0_0_1_wf : ScatterDims.WF S16x1 S2048x1 S2048x1 [1] [0] [0] 1
  dot_S16x128_S128x256_S16x256_1_0_0_1_n_n_wf : DotDims.WF S16x128 S128x256 S16x256 [1] [0] [0] [1] [] []
  dot_S16x256_S256x10_S16x10_1_0_0_1_n_n_wf : DotDims.WF S16x256 S256x10 S16x10 [1] [0] [0] [1] [] []

variable [Facts₀]

def gather_S17_S262144x1_S262144_n_0_n_n_0_1_1 : GatherDims S17 S262144x1 S262144 where
  offsetDims := []
  collapsedSliceDims := [0]
  operandBatchingDims := []
  startIndicesBatchingDims := []
  startIndexMap := [0]
  indexVectorDim := 1
  sliceSizes := ![1]
  wf := gather_S17_S262144x1_S262144_n_0_n_n_0_1_1_wf
def gather_S262144x128_S2097152x1_S2097152x128_1_0_n_n_0_1_1128 : GatherDims S262144x128 S2097152x1 S2097152x128 where
  offsetDims := [1]
  collapsedSliceDims := [0]
  operandBatchingDims := []
  startIndicesBatchingDims := []
  startIndexMap := [0]
  indexVectorDim := 1
  sliceSizes := ![1, 128]
  wf := gather_S262144x128_S2097152x1_S2097152x128_1_0_n_n_0_1_1128_wf
def scatter_S262144x128_S2097152x1_S2097152x128_1_0_0_1 : ScatterDims S262144x128 S2097152x1 S2097152x128 where
  updateWindowDims := [1]
  insertedWindowDims := [0]
  scatterDimsToOperandDims := [0]
  indexVectorDim := 1
  wf := scatter_S262144x128_S2097152x1_S2097152x128_1_0_0_1_wf
def dot_S262144x128_S128x128_S262144x128_1_0_0_1_n_n : DotDims S262144x128 S128x128 S262144x128 where
  lhsContracting := [1]
  rhsContracting := [0]
  lhsNonContracting := [0]
  rhsNonContracting := [1]
  lhsBatch := []
  rhsBatch := []
  wf := dot_S262144x128_S128x128_S262144x128_1_0_0_1_n_n_wf
def scatter_S2048x128_S262144x1_S262144x128_1_0_0_1 : ScatterDims S2048x128 S262144x1 S262144x128 where
  updateWindowDims := [1]
  insertedWindowDims := [0]
  scatterDimsToOperandDims := [0]
  indexVectorDim := 1
  wf := scatter_S2048x128_S262144x1_S262144x128_1_0_0_1_wf
def scatter_S2048x1_S262144x1_S262144x1_1_0_0_1 : ScatterDims S2048x1 S262144x1 S262144x1 where
  updateWindowDims := [1]
  insertedWindowDims := [0]
  scatterDimsToOperandDims := [0]
  indexVectorDim := 1
  wf := scatter_S2048x1_S262144x1_S262144x1_1_0_0_1_wf
def gather_S2048x128_S32768x1_S32768x128_1_0_n_n_0_1_1128 : GatherDims S2048x128 S32768x1 S32768x128 where
  offsetDims := [1]
  collapsedSliceDims := [0]
  operandBatchingDims := []
  startIndicesBatchingDims := []
  startIndexMap := [0]
  indexVectorDim := 1
  sliceSizes := ![1, 128]
  wf := gather_S2048x128_S32768x1_S32768x128_1_0_n_n_0_1_1128_wf
def scatter_S2048x128_S32768x1_S32768x128_1_0_0_1 : ScatterDims S2048x128 S32768x1 S32768x128 where
  updateWindowDims := [1]
  insertedWindowDims := [0]
  scatterDimsToOperandDims := [0]
  indexVectorDim := 1
  wf := scatter_S2048x128_S32768x1_S32768x128_1_0_0_1_wf
def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf
def gather_S2048x128_S262144x1_S262144x128_1_0_n_n_0_1_1128 : GatherDims S2048x128 S262144x1 S262144x128 where
  offsetDims := [1]
  collapsedSliceDims := [0]
  operandBatchingDims := []
  startIndicesBatchingDims := []
  startIndexMap := [0]
  indexVectorDim := 1
  sliceSizes := ![1, 128]
  wf := gather_S2048x128_S262144x1_S262144x128_1_0_n_n_0_1_1128_wf
def scatter_S16x128_S2048x1_S2048x128_1_0_0_1 : ScatterDims S16x128 S2048x1 S2048x128 where
  updateWindowDims := [1]
  insertedWindowDims := [0]
  scatterDimsToOperandDims := [0]
  indexVectorDim := 1
  wf := scatter_S16x128_S2048x1_S2048x128_1_0_0_1_wf
def scatter_S16x1_S2048x1_S2048x1_1_0_0_1 : ScatterDims S16x1 S2048x1 S2048x1 where
  updateWindowDims := [1]
  insertedWindowDims := [0]
  scatterDimsToOperandDims := [0]
  indexVectorDim := 1
  wf := scatter_S16x1_S2048x1_S2048x1_1_0_0_1_wf
def dot_S16x128_S128x256_S16x256_1_0_0_1_n_n : DotDims S16x128 S128x256 S16x256 where
  lhsContracting := [1]
  rhsContracting := [0]
  lhsNonContracting := [0]
  rhsNonContracting := [1]
  lhsBatch := []
  rhsBatch := []
  wf := dot_S16x128_S128x256_S16x256_1_0_0_1_n_n_wf
def dot_S16x256_S256x10_S16x10_1_0_0_1_n_n : DotDims S16x256 S256x10 S16x10 where
  lhsContracting := [1]
  rhsContracting := [0]
  lhsNonContracting := [0]
  rhsNonContracting := [1]
  lhsBatch := []
  rhsBatch := []
  wf := dot_S16x256_S256x10_S16x10_1_0_0_1_n_n_wf

class Facts : Prop extends Facts₀ where

variable [Facts]
-- ==== Proof.KLayers.lean ====
/-
  The program's boundary contents as functions of the contents a stretch starts from, at any float instance.
  Between two regions the program is a stretch of host operations (a fold over the contents); a region replaces each of
  its arrays by what its write-backs leave and keeps every other buffer. Composing the two kinds from the launch
  contents gives the contents at every boundary; here each piece is a function of the contents it starts from, so that a
  layer of the network can be studied from arbitrary contents. A region keeps its input arrays, and every buffer that
  is none of its arrays.
-/
import proofs.«170918_j12352325943916_1_alg».proof.Proof.FrameK

noncomputable section

namespace Cert.Kernel.KerLayers

open Cert.Kernel Cert.Kernel.Gen Cert.Kernel.GenP
open Idealize.ShloMosaic Idealize.ShloMosaic.TcCoe Idealize.SL.Sem
open Idealize.ShloMosaic.Pipeline (Dat)

variable {F : FTy → Type} [FloatOps F]

/-- Buffer contents, one valuation per core. -/
abbrev Fam (F : FTy → Type) [FloatOps F] := Dev nD → Valuation τ sig (Elt F)

/-- The same contents read at the TensorCore's references. -/
abbrev fv (W : Fam F) : (c : Dev nD) → (b : Ref sig .tc) → Buf (Elt F) ((c : Thread nD τ).loc b) := fun c b => W c b

/-- The host stretch before region 0. -/
def H0 (W : Fam F) : Fam F := fun c => StableHlo.after hostOps0_2 (StableHlo.after hostOps0_1 (StableHlo.after hostOps0 (W c)))

/-- Region 0: its arrays at what the write-backs leave, every other buffer kept. -/
def Rg0 (W : Fam F) : Fam F := fun c =>
  Pipeline.withArrays spec0 c (W c) fun w => (dat0 (F := F) (fv W) c).arrAt w cfg0.N

set_option backward.isDefEq.respectTransparency.types false in
/-- Region 0's input array 0 is kept. -/
theorem Rg0_in (W : Fam F) (c : Dev nD) :
    Rg0 W c (Proc.devRef .tc main_arg0) = W c (Proc.devRef .tc main_arg0) :=
  (Pipeline.withArrays_arr spec0 launch0.win.arr_inj c _ _ 0).trans (((dat0 (F := F) (fv W) c).arrAt_in 0 rfl _).trans (A_eq0 (fv W) c 0))

/-- A buffer that is none of region 0's arrays is kept. -/
theorem Rg0_ne (W : Fam F) (c : Dev nD) (b : Ref sig .tc) (hb : ∀ w, Pipeline.arrRef spec0 w ≠ b) :
    Rg0 W c (Proc.devRef .tc b) = W c (Proc.devRef .tc b) :=
  Pipeline.withArrays_of_ne spec0 c _ _ b hb

/-- The same, stated for rewriting: the buffer's reference is not part of the pattern. -/
theorem Rg0_ne' (W : Fam F) (c : Dev nD) (b : Ref sig .tc) (hb : ∀ w, Pipeline.arrRef spec0 w ≠ b) :
    Rg0 W c (no_index (Proc.devRef .tc b)) = W c (Proc.devRef .tc b) :=
  Rg0_ne W c b hb

/-- The host stretch before region 1. -/
def H1 (W : Fam F) : Fam F := fun c => StableHlo.after hostOps1_4 (StableHlo.after hostOps1_3 (StableHlo.after hostOps1_2 (StableHlo.after hostOps1_1 (StableHlo.after hostOps1 (W c)))))

/-- Region 1: its arrays at what the write-backs leave, every other buffer kept. -/
def Rg1 (W : Fam F) : Fam F := fun c =>
  Pipeline.withArrays spec1 c (W c) fun w => (dat1 (F := F) (fv W) c).arrAt w cfg1.N

set_option backward.isDefEq.respectTransparency.types false in
/-- Region 1's input array 0 is kept. -/
theorem Rg1_in (W : Fam F) (c : Dev nD) :
    Rg1 W c (Proc.devRef .tc main_v32) = W c (Proc.devRef .tc main_v32) :=
  (Pipeline.withArrays_arr spec1 launch1.win.arr_inj c _ _ 0).trans (((dat1 (F := F) (fv W) c).arrAt_in 0 rfl _).trans (A_eq1 (fv W) c 0))

/-- A buffer that is none of region 1's arrays is kept. -/
theorem Rg1_ne (W : Fam F) (c : Dev nD) (b : Ref sig .tc) (hb : ∀ w, Pipeline.arrRef spec1 w ≠ b) :
    Rg1 W c (Proc.devRef .tc b) = W c (Proc.devRef .tc b) :=
  Pipeline.withArrays_of_ne spec1 c _ _ b hb

/-- The same, stated for rewriting: the buffer's reference is not part of the pattern. -/
theorem Rg1_ne' (W : Fam F) (c : Dev nD) (b : Ref sig .tc) (hb : ∀ w, Pipeline.arrRef spec1 w ≠ b) :
    Rg1 W c (no_index (Proc.devRef .tc b)) = W c (Proc.devRef .tc b) :=
  Rg1_ne W c b hb

/-- The host stretch before region 2. -/
def H2 (W : Fam F) : Fam F := fun c => StableHlo.after hostOps2 (W c)

/-- Region 2: its arrays at what the write-backs leave, every other buffer kept. -/
def Rg2 (W : Fam F) : Fam F := fun c =>
  Pipeline.withArrays spec2 c (W c) fun w => (dat2 (F := F) (fv W) c).arrAt w cfg2.N

set_option backward.isDefEq.respectTransparency.types false in
/-- Region 2's input array 0 is kept. -/
theorem Rg2_in (W : Fam F) (c : Dev nD) :
    Rg2 W c (Proc.devRef .tc main_v112) = W c (Proc.devRef .tc main_v112) :=
  (Pipeline.withArrays_arr spec2 launch2.win.arr_inj c _ _ 0).trans (((dat2 (F := F) (fv W) c).arrAt_in 0 rfl _).trans (A_eq2 (fv W) c 0))

/-- A buffer that is none of region 2's arrays is kept. -/
theorem Rg2_ne (W : Fam F) (c : Dev nD) (b : Ref sig .tc) (hb : ∀ w, Pipeline.arrRef spec2 w ≠ b) :
    Rg2 W c (Proc.devRef .tc b) = W c (Proc.devRef .tc b) :=
  Pipeline.withArrays_of_ne spec2 c _ _ b hb

/-- The same, stated for rewriting: the buffer's reference is not part of the pattern. -/
theorem Rg2_ne' (W : Fam F) (c : Dev nD) (b : Ref sig .tc) (hb : ∀ w, Pipeline.arrRef spec2 w ≠ b) :
    Rg2 W c (no_index (Proc.devRef .tc b)) = W c (Proc.devRef .tc b) :=
  Rg2_ne W c b hb

/-- The host stretch before region 3. -/
def H3 (W : Fam F) : Fam F := fun c => StableHlo.after hostOps3_4 (StableHlo.after hostOps3_3 (StableHlo.after hostOps3_2 (StableHlo.after hostOps3_1 (StableHlo.after hostOps3 (W c)))))

/-- Region 3: its arrays at what the write-backs leave, every other buffer kept. -/
def Rg3 (W : Fam F) : Fam F := fun c =>
  Pipeline.withArrays spec3 c (W c) fun w => (dat3 (F := F) (fv W) c).arrAt w cfg3.N

set_option backward.isDefEq.respectTransparency.types false in
/-- Region 3's input array 0 is kept. -/
theorem Rg3_in (W : Fam F) (c : Dev nD) :
    Rg3 W c (Proc.devRef .tc main_v134) = W c (Proc.devRef .tc main_v134) :=
  (Pipeline.withArrays_arr spec3 launch3.win.arr_inj c _ _ 0).trans (((dat3 (F := F) (fv W) c).arrAt_in 0 rfl _).trans (A_eq3 (fv W) c 0))

/-- A buffer that is none of region 3's arrays is kept. -/
theorem Rg3_ne (W : Fam F) (c : Dev nD) (b : Ref sig .tc) (hb : ∀ w, Pipeline.arrRef spec3 w ≠ b) :
    Rg3 W c (Proc.devRef .tc b) = W c (Proc.devRef .tc b) :=
  Pipeline.withArrays_of_ne spec3 c _ _ b hb

/-- The same, stated for rewriting: the buffer's reference is not part of the pattern. -/
theorem Rg3_ne' (W : Fam F) (c : Dev nD) (b : Ref sig .tc) (hb : ∀ w, Pipeline.arrRef spec3 w ≠ b) :
    Rg3 W c (no_index (Proc.devRef .tc b)) = W c (Proc.devRef .tc b) :=
  Rg3_ne W c b hb

/-- The host stretch before region 4. -/
def H4 (W : Fam F) : Fam F := fun c => StableHlo.after hostOps4 (W c)

/-- Region 4: its arrays at what the write-backs leave, every other buffer kept. -/
def Rg4 (W : Fam F) : Fam F := fun c =>
  Pipeline.withArrays spec4 c (W c) fun w => (dat4 (F := F) (fv W) c).arrAt w cfg4.N

set_option backward.isDefEq.respectTransparency.types false in
/-- Region 4's input array 0 is kept. -/
theorem Rg4_in (W : Fam F) (c : Dev nD) :
    Rg4 W c (Proc.devRef .tc main_v214) = W c (Proc.devRef .tc main_v214) :=
  (Pipeline.withArrays_arr spec4 launch4.win.arr_inj c _ _ 0).trans (((dat4 (F := F) (fv W) c).arrAt_in 0 rfl _).trans (A_eq4 (fv W) c 0))

/-- A buffer that is none of region 4's arrays is kept. -/
theorem Rg4_ne (W : Fam F) (c : Dev nD) (b : Ref sig .tc) (hb : ∀ w, Pipeline.arrRef spec4 w ≠ b) :
    Rg4 W c (Proc.devRef .tc b) = W c (Proc.devRef .tc b) :=
  Pipeline.withArrays_of_ne spec4 c _ _ b hb

/-- The same, stated for rewriting: the buffer's reference is not part of the pattern. -/
theorem Rg4_ne' (W : Fam F) (c : Dev nD) (b : Ref sig .tc) (hb : ∀ w, Pipeline.arrRef spec4 w ≠ b) :
    Rg4 W c (no_index (Proc.devRef .tc b)) = W c (Proc.devRef .tc b) :=
  Rg4_ne W c b hb

/-- The host stretch before region 5. -/
def H5 (W : Fam F) : Fam F := fun c => StableHlo.after hostOps5_4 (StableHlo.after hostOps5_3 (StableHlo.after hostOps5_2 (StableHlo.after hostOps5_1 (StableHlo.after hostOps5 (W c)))))

/-- Region 5: its arrays at what the write-backs leave, every other buffer kept. -/
def Rg5 (W : Fam F) : Fam F := fun c =>
  Pipeline.withArrays spec5 c (W c) fun w => (dat5 (F := F) (fv W) c).arrAt w cfg5.N

set_option backward.isDefEq.respectTransparency.types false in
/-- Region 5's input array 0 is kept. -/
theorem Rg5_in (W : Fam F) (c : Dev nD) :
    Rg5 W c (Proc.devRef .tc main_v236) = W c (Proc.devRef .tc main_v236) :=
  (Pipeline.withArrays_arr spec5 launch5.win.arr_inj c _ _ 0).trans (((dat5 (F := F) (fv W) c).arrAt_in 0 rfl _).trans (A_eq5 (fv W) c 0))

/-- A buffer that is none of region 5's arrays is kept. -/
theorem Rg5_ne (W : Fam F) (c : Dev nD) (b : Ref sig .tc) (hb : ∀ w, Pipeline.arrRef spec5 w ≠ b) :
    Rg5 W c (Proc.devRef .tc b) = W c (Proc.devRef .tc b) :=
  Pipeline.withArrays_of_ne spec5 c _ _ b hb

/-- The same, stated for rewriting: the buffer's reference is not part of the pattern. -/
theorem Rg5_ne' (W : Fam F) (c : Dev nD) (b : Ref sig .tc) (hb : ∀ w, Pipeline.arrRef spec5 w ≠ b) :
    Rg5 W c (no_index (Proc.devRef .tc b)) = W c (Proc.devRef .tc b) :=
  Rg5_ne W c b hb

/-- The host stretch before region 6. -/
def H6 (W : Fam F) : Fam F := fun c => StableHlo.after hostOps6 (W c)

/-- Region 6: its arrays at what the write-backs leave, every other buffer kept. -/
def Rg6 (W : Fam F) : Fam F := fun c =>
  Pipeline.withArrays spec6 c (W c) fun w => (dat6 (F := F) (fv W) c).arrAt w cfg6.N

set_option backward.isDefEq.respectTransparency.types false in
/-- Region 6's input array 0 is kept. -/
theorem Rg6_in (W : Fam F) (c : Dev nD) :
    Rg6 W c (Proc.devRef .tc main_v316) = W c (Proc.devRef .tc main_v316) :=
  (Pipeline.withArrays_arr spec6 launch6.win.arr_inj c _ _ 0).trans (((dat6 (F := F) (fv W) c).arrAt_in 0 rfl _).trans (A_eq6 (fv W) c 0))

/-- A buffer that is none of region 6's arrays is kept. -/
theorem Rg6_ne (W : Fam F) (c : Dev nD) (b : Ref sig .tc) (hb : ∀ w, Pipeline.arrRef spec6 w ≠ b) :
    Rg6 W c (Proc.devRef .tc b) = W c (Proc.devRef .tc b) :=
  Pipeline.withArrays_of_ne spec6 c _ _ b hb

/-- The same, stated for rewriting: the buffer's reference is not part of the pattern. -/
theorem Rg6_ne' (W : Fam F) (c : Dev nD) (b : Ref sig .tc) (hb : ∀ w, Pipeline.arrRef spec6 w ≠ b) :
    Rg6 W c (no_index (Proc.devRef .tc b)) = W c (Proc.devRef .tc b) :=
  Rg6_ne W c b hb

/-- The host stretch before region 7. -/
def H7 (W : Fam F) : Fam F := fun c => StableHlo.after hostOps7_4 (StableHlo.after hostOps7_3 (StableHlo.after hostOps7_2 (StableHlo.after hostOps7_1 (StableHlo.after hostOps7 (W c)))))

/-- Region 7: its arrays at what the write-backs leave, every other buffer kept. -/
def Rg7 (W : Fam F) : Fam F := fun c =>
  Pipeline.withArrays spec7 c (W c) fun w => (dat7 (F := F) (fv W) c).arrAt w cfg7.N

set_option backward.isDefEq.respectTransparency.types false in
/-- Region 7's input array 0 is kept. -/
theorem Rg7_in (W : Fam F) (c : Dev nD) :
    Rg7 W c (Proc.devRef .tc main_v338) = W c (Proc.devRef .tc main_v338) :=
  (Pipeline.withArrays_arr spec7 launch7.win.arr_inj c _ _ 0).trans (((dat7 (F := F) (fv W) c).arrAt_in 0 rfl _).trans (A_eq7 (fv W) c 0))

/-- A buffer that is none of region 7's arrays is kept. -/
theorem Rg7_ne (W : Fam F) (c : Dev nD) (b : Ref sig .tc) (hb : ∀ w, Pipeline.arrRef spec7 w ≠ b) :
    Rg7 W c (Proc.devRef .tc b) = W c (Proc.devRef .tc b) :=
  Pipeline.withArrays_of_ne spec7 c _ _ b hb

/-- The same, stated for rewriting: the buffer's reference is not part of the pattern. -/
theorem Rg7_ne' (W : Fam F) (c : Dev nD) (b : Ref sig .tc) (hb : ∀ w, Pipeline.arrRef spec7 w ≠ b) :
    Rg7 W c (no_index (Proc.devRef .tc b)) = W c (Proc.devRef .tc b) :=
  Rg7_ne W c b hb

/-- The host stretch before region 8. -/
def H8 (W : Fam F) : Fam F := fun c => StableHlo.after hostOps8 (W c)

/-- Region 8: its arrays at what the write-backs leave, every other buffer kept. -/
def Rg8 (W : Fam F) : Fam F := fun c =>
  Pipeline.withArrays spec8 c (W c) fun w => (dat8 (F := F) (fv W) c).arrAt w cfg8.N

set_option backward.isDefEq.respectTransparency.types false in
/-- Region 8's input array 0 is kept. -/
theorem Rg8_in (W : Fam F) (c : Dev nD) :
    Rg8 W c (Proc.devRef .tc main_v440) = W c (Proc.devRef .tc main_v440) :=
  (Pipeline.withArrays_arr spec8 launch8.win.arr_inj c _ _ 0).trans (((dat8 (F := F) (fv W) c).arrAt_in 0 rfl _).trans (A_eq8 (fv W) c 0))

set_option backward.isDefEq.respectTransparency.types false in
/-- Region 8's input array 1 is kept. -/
theorem Rg8_in1 (W : Fam F) (c : Dev nD) :
    Rg8 W c (Proc.devRef .tc main_arg11) = W c (Proc.devRef .tc main_arg11) :=
  (Pipeline.withArrays_arr spec8 launch8.win.arr_inj c _ _ 1).trans (((dat8 (F := F) (fv W) c).arrAt_in 1 rfl _).trans (A_eq8 (fv W) c 1))

set_option backward.isDefEq.respectTransparency.types false in
/-- Region 8's input array 3 is kept. -/
theorem Rg8_in3 (W : Fam F) (c : Dev nD) :
    Rg8 W c (Proc.devRef .tc main_arg13) = W c (Proc.devRef .tc main_arg13) :=
  (Pipeline.withArrays_arr spec8 launch8.win.arr_inj c _ _ 3).trans (((dat8 (F := F) (fv W) c).arrAt_in 3 rfl _).trans (A_eq8 (fv W) c 3))

/-- A buffer that is none of region 8's arrays is kept. -/
theorem Rg8_ne (W : Fam F) (c : Dev nD) (b : Ref sig .tc) (hb : ∀ w, Pipeline.arrRef spec8 w ≠ b) :
    Rg8 W c (Proc.devRef .tc b) = W c (Proc.devRef .tc b) :=
  Pipeline.withArrays_of_ne spec8 c _ _ b hb

/-- The same, stated for rewriting: the buffer's reference is not part of the pattern. -/
theorem Rg8_ne' (W : Fam F) (c : Dev nD) (b : Ref sig .tc) (hb : ∀ w, Pipeline.arrRef spec8 w ≠ b) :
    Rg8 W c (no_index (Proc.devRef .tc b)) = W c (Proc.devRef .tc b) :=
  Rg8_ne W c b hb

/-! ## The layers -/

/-- Layer 0: the stretch, the linear region, the stretch, the normalise-combine region. -/
def KL0 (W : Fam F) : Fam F := Rg1 (H1 (Rg0 (H0 W)))

/-- Layer 1: the stretch, the linear region, the stretch, the normalise-combine region. -/
def KL1 (W : Fam F) : Fam F := Rg3 (H3 (Rg2 (H2 W)))

/-- Layer 2: the stretch, the linear region, the stretch, the normalise-combine region. -/
def KL2 (W : Fam F) : Fam F := Rg5 (H5 (Rg4 (H4 W)))

/-- Layer 3: the stretch, the linear region, the stretch, the normalise-combine region. -/
def KL3 (W : Fam F) : Fam F := Rg7 (H7 (Rg6 (H6 W)))

/-- The head: the stretch and the last region. -/
def KL4 (W : Fam F) : Fam F := Rg8 (H8 W)

/-- The contents at the last boundary are the five pieces composed from the launch contents. -/
theorem W36_eq (m : (ℓ : Loc nD τ sig) → Buf (Elt F) ℓ) (ρ : Dev nD → PrngReg) :
    W36 (F := F) m ρ = KL4 (KL3 (KL2 (KL1 (KL0 (W0 (F := F) m ρ))))) := by
  funext c
  rfl

end Cert.Kernel.KerLayers

end
-- ==== Proof.EvalAfter.lean ====
/-
  Reading a fold of host operations at one buffer, as one rewriting pass: each operation's result at its own buffer is its
  function of its operands' contents, and at any other buffer what was there (the two buffers being different is decided).
-/
import Idealize.ShloMosaic.Lib.StableHlo.Run

namespace Cert.Tac

open Idealize.ShloMosaic Idealize.ShloMosaic.StableHlo

/-- Reads a fold of host operations at a buffer, unfolding the given lists and definitions on the way. -/
macro "eval_after" "[" ls:Lean.Parser.Tactic.simpLemma,* "]" : tactic =>
  `(tactic| simp (disch := decide) only [$ls,*, Idealize.ShloMosaic.StableHlo.after_cons, Idealize.ShloMosaic.StableHlo.after_nil, List.cons_append, List.nil_append, Idealize.ShloMosaic.StableHlo.nullary_result', Idealize.ShloMosaic.StableHlo.unary_result', Idealize.ShloMosaic.StableHlo.binary_result', Idealize.ShloMosaic.StableHlo.ternary_result', Idealize.ShloMosaic.StableHlo.quaternary_result', Idealize.ShloMosaic.StableHlo.reshape_result', Idealize.ShloMosaic.StableHlo.nary4_result', Idealize.ShloMosaic.StableHlo.nary_result', Idealize.ShloMosaic.StableHlo.unaryIndexed_result', Idealize.ShloMosaic.StableHlo.binaryIndexed_result', Idealize.ShloMosaic.StableHlo.nullary_result_ne', Idealize.ShloMosaic.StableHlo.unary_result_ne', Idealize.ShloMosaic.StableHlo.binary_result_ne', Idealize.ShloMosaic.StableHlo.ternary_result_ne', Idealize.ShloMosaic.StableHlo.quaternary_result_ne', Idealize.ShloMosaic.StableHlo.reshape_result_ne', Idealize.ShloMosaic.StableHlo.nary_result_ne', Idealize.ShloMosaic.StableHlo.unaryIndexed_result_ne', Idealize.ShloMosaic.StableHlo.binaryIndexed_result_ne'])

end Cert.Tac
-- ==== Proof.KeepK0.lean ====
/-
  Layer 0 of the program writes none of the argument arrays: read after it, each holds what it held before
  (no host operation of its stretches writes it, and it is no array of its regions, or an input array they keep).
-/
import proofs.«170918_j12352325943916_1_alg».proof.Proof.KLayers
import proofs.«170918_j12352325943916_1_alg».proof.Proof.EvalAfter

set_option maxRecDepth 16384
set_option maxHeartbeats 2000000

noncomputable section

namespace Cert.Kernel.Keep

open Idealize.ShloMosaic Idealize.ShloMosaic.TcCoe Idealize.SL.Sem Idealize.ShloMosaic.StableHlo Cert.Tac
open Cert.Kernel

variable {F : FTy → Type} [FloatOps F]

theorem keep0_a0 (W : KerLayers.Fam F) (c : Dev nD) :
    KerLayers.KL0 W c (Proc.devRef .tc main_arg0) = W c (Proc.devRef .tc main_arg0) := by
  eval_after [KerLayers.KL0, KerLayers.Rg0_in, KerLayers.Rg0_ne', KerLayers.Rg1_ne', KerLayers.H0, KerLayers.H1, Cert.Kernel.Gen.hostOps0, Cert.Kernel.Gen.hostOps0_1, Cert.Kernel.Gen.hostOps0_2, Cert.Kernel.Gen.hostOps1, Cert.Kernel.Gen.hostOps1_1, Cert.Kernel.Gen.hostOps1_2, Cert.Kernel.Gen.hostOps1_3, Cert.Kernel.Gen.hostOps1_4]
  rw [KerLayers.Rg0_in]
  eval_after [KerLayers.H0, Cert.Kernel.Gen.hostOps0, Cert.Kernel.Gen.hostOps0_1, Cert.Kernel.Gen.hostOps0_2]

theorem keep0_a1 (W : KerLayers.Fam F) (c : Dev nD) :
    KerLayers.KL0 W c (Proc.devRef .tc main_arg1) = W c (Proc.devRef .tc main_arg1) := by
  eval_after [KerLayers.KL0, KerLayers.Rg0_in, KerLayers.Rg0_ne', KerLayers.Rg1_ne', KerLayers.H0, KerLayers.H1, Cert.Kernel.Gen.hostOps0, Cert.Kernel.Gen.hostOps0_1, Cert.Kernel.Gen.hostOps0_2, Cert.Kernel.Gen.hostOps1, Cert.Kernel.Gen.hostOps1_1, Cert.Kernel.Gen.hostOps1_2, Cert.Kernel.Gen.hostOps1_3, Cert.Kernel.Gen.hostOps1_4]

theorem keep0_a2 (W : KerLayers.Fam F) (c : Dev nD) :
    KerLayers.KL0 W c (Proc.devRef .tc main_arg2) = W c (Proc.devRef .tc main_arg2) := by
  eval_after [KerLayers.KL0, KerLayers.Rg0_in, KerLayers.Rg0_ne', KerLayers.Rg1_ne', KerLayers.H0, KerLayers.H1, Cert.Kernel.Gen.hostOps0, Cert.Kernel.Gen.hostOps0_1, Cert.Kernel.Gen.hostOps0_2, Cert.Kernel.Gen.hostOps1, Cert.Kernel.Gen.hostOps1_1, Cert.Kernel.Gen.hostOps1_2, Cert.Kernel.Gen.hostOps1_3, Cert.Kernel.Gen.hostOps1_4]

theorem keep0_a3 (W : KerLayers.Fam F) (c : Dev nD) :
    KerLayers.KL0 W c (Proc.devRef .tc main_arg3) = W c (Proc.devRef .tc main_arg3) := by
  eval_after [KerLayers.KL0, KerLayers.Rg0_in, KerLayers.Rg0_ne', KerLayers.Rg1_ne', KerLayers.H0, KerLayers.H1, Cert.Kernel.Gen.hostOps0, Cert.Kernel.Gen.hostOps0_1, Cert.Kernel.Gen.hostOps0_2, Cert.Kernel.Gen.hostOps1, Cert.Kernel.Gen.hostOps1_1, Cert.Kernel.Gen.hostOps1_2, Cert.Kernel.Gen.hostOps1_3, Cert.Kernel.Gen.hostOps1_4]

theorem keep0_a4 (W : KerLayers.Fam F) (c : Dev nD) :
    KerLayers.KL0 W c (Proc.devRef .tc main_arg4) = W c (Proc.devRef .tc main_arg4) := by
  eval_after [KerLayers.KL0, KerLayers.Rg0_in, KerLayers.Rg0_ne', KerLayers.Rg1_ne', KerLayers.H0, KerLayers.H1, Cert.Kernel.Gen.hostOps0, Cert.Kernel.Gen.hostOps0_1, Cert.Kernel.Gen.hostOps0_2, Cert.Kernel.Gen.hostOps1, Cert.Kernel.Gen.hostOps1_1, Cert.Kernel.Gen.hostOps1_2, Cert.Kernel.Gen.hostOps1_3, Cert.Kernel.Gen.hostOps1_4]

theorem keep0_a5 (W : KerLayers.Fam F) (c : Dev nD) :
    KerLayers.KL0 W c (Proc.devRef .tc main_arg5) = W c (Proc.devRef .tc main_arg5) := by
  eval_after [KerLayers.KL0, KerLayers.Rg0_in, KerLayers.Rg0_ne', KerLayers.Rg1_ne', KerLayers.H0, KerLayers.H1, Cert.Kernel.Gen.hostOps0, Cert.Kernel.Gen.hostOps0_1, Cert.Kernel.Gen.hostOps0_2, Cert.Kernel.Gen.hostOps1, Cert.Kernel.Gen.hostOps1_1, Cert.Kernel.Gen.hostOps1_2, Cert.Kernel.Gen.hostOps1_3, Cert.Kernel.Gen.hostOps1_4]

theorem keep0_a6 (W : KerLayers.Fam F) (c : Dev nD) :
    KerLayers.KL0 W c (Proc.devRef .tc main_arg6) = W c (Proc.devRef .tc main_arg6) := by
  eval_after [KerLayers.KL0, KerLayers.Rg0_in, KerLayers.Rg0_ne', KerLayers.Rg1_ne', KerLayers.H0, KerLayers.H1, Cert.Kernel.Gen.hostOps0, Cert.Kernel.Gen.hostOps0_1, Cert.Kernel.Gen.hostOps0_2, Cert.Kernel.Gen.hostOps1, Cert.Kernel.Gen.hostOps1_1, Cert.Kernel.Gen.hostOps1_2, Cert.Kernel.Gen.hostOps1_3, Cert.Kernel.Gen.hostOps1_4]

theorem keep0_a7 (W : KerLayers.Fam F) (c : Dev nD) :
    KerLayers.KL0 W c (Proc.devRef .tc main_arg7) = W c (Proc.devRef .tc main_arg7) := by
  eval_after [KerLayers.KL0, KerLayers.Rg0_in, KerLayers.Rg0_ne', KerLayers.Rg1_ne', KerLayers.H0, KerLayers.H1, Cert.Kernel.Gen.hostOps0, Cert.Kernel.Gen.hostOps0_1, Cert.Kernel.Gen.hostOps0_2, Cert.Kernel.Gen.hostOps1, Cert.Kernel.Gen.hostOps1_1, Cert.Kernel.Gen.hostOps1_2, Cert.Kernel.Gen.hostOps1_3, Cert.Kernel.Gen.hostOps1_4]

theorem keep0_a8 (W : KerLayers.Fam F) (c : Dev nD) :
    KerLayers.KL0 W c (Proc.devRef .tc main_arg8) = W c (Proc.devRef .tc main_arg8) := by
  eval_after [KerLayers.KL0, KerLayers.Rg0_in, KerLayers.Rg0_ne', KerLayers.Rg1_ne', KerLayers.H0, KerLayers.H1, Cert.Kernel.Gen.hostOps0, Cert.Kernel.Gen.hostOps0_1, Cert.Kernel.Gen.hostOps0_2, Cert.Kernel.Gen.hostOps1, Cert.Kernel.Gen.hostOps1_1, Cert.Kernel.Gen.hostOps1_2, Cert.Kernel.Gen.hostOps1_3, Cert.Kernel.Gen.hostOps1_4]

theorem keep0_a9 (W : KerLayers.Fam F) (c : Dev nD) :
    KerLayers.KL0 W c (Proc.devRef .tc main_arg9) = W c (Proc.devRef .tc main_arg9) := by
  eval_after [KerLayers.KL0, KerLayers.Rg0_in, KerLayers.Rg0_ne', KerLayers.Rg1_ne', KerLayers.H0, KerLayers.H1, Cert.Kernel.Gen.hostOps0, Cert.Kernel.Gen.hostOps0_1, Cert.Kernel.Gen.hostOps0_2, Cert.Kernel.Gen.hostOps1, Cert.Kernel.Gen.hostOps1_1, Cert.Kernel.Gen.hostOps1_2, Cert.Kernel.Gen.hostOps1_3, Cert.Kernel.Gen.hostOps1_4]

theorem keep0_a10 (W : KerLayers.Fam F) (c : Dev nD) :
    KerLayers.KL0 W c (Proc.devRef .tc main_arg10) = W c (Proc.devRef .tc main_arg10) := by
  eval_after [KerLayers.KL0, KerLayers.Rg0_in, KerLayers.Rg0_ne', KerLayers.Rg1_ne', KerLayers.H0, KerLayers.H1, Cert.Kernel.Gen.hostOps0, Cert.Kernel.Gen.hostOps0_1, Cert.Kernel.Gen.hostOps0_2, Cert.Kernel.Gen.hostOps1, Cert.Kernel.Gen.hostOps1_1, Cert.Kernel.Gen.hostOps1_2, Cert.Kernel.Gen.hostOps1_3, Cert.Kernel.Gen.hostOps1_4]

theorem keep0_a11 (W : KerLayers.Fam F) (c : Dev nD) :
    KerLayers.KL0 W c (Proc.devRef .tc main_arg11) = W c (Proc.devRef .tc main_arg11) := by
  eval_after [KerLayers.KL0, KerLayers.Rg0_in, KerLayers.Rg0_ne', KerLayers.Rg1_ne', KerLayers.H0, KerLayers.H1, Cert.Kernel.Gen.hostOps0, Cert.Kernel.Gen.hostOps0_1, Cert.Kernel.Gen.hostOps0_2, Cert.Kernel.Gen.hostOps1, Cert.Kernel.Gen.hostOps1_1, Cert.Kernel.Gen.hostOps1_2, Cert.Kernel.Gen.hostOps1_3, Cert.Kernel.Gen.hostOps1_4]

theorem keep0_a12 (W : KerLayers.Fam F) (c : Dev nD) :
    KerLayers.KL0 W c (Proc.devRef .tc main_arg12) = W c (Proc.devRef .tc main_arg12) := by
  eval_after [KerLayers.KL0, KerLayers.Rg0_in, KerLayers.Rg0_ne', KerLayers.Rg1_ne', KerLayers.H0, KerLayers.H1, Cert.Kernel.Gen.hostOps0, Cert.Kernel.Gen.hostOps0_1, Cert.Kernel.Gen.hostOps0_2, Cert.Kernel.Gen.hostOps1, Cert.Kernel.Gen.hostOps1_1, Cert.Kernel.Gen.hostOps1_2, Cert.Kernel.Gen.hostOps1_3, Cert.Kernel.Gen.hostOps1_4]

theorem keep0_a13 (W : KerLayers.Fam F) (c : Dev nD) :
    KerLayers.KL0 W c (Proc.devRef .tc main_arg13) = W c (Proc.devRef .tc main_arg13) := by
  eval_after [KerLayers.KL0, KerLayers.Rg0_in, KerLayers.Rg0_ne', KerLayers.Rg1_ne', KerLayers.H0, KerLayers.H1, Cert.Kernel.Gen.hostOps0, Cert.Kernel.Gen.hostOps0_1, Cert.Kernel.Gen.hostOps0_2, Cert.Kernel.Gen.hostOps1, Cert.Kernel.Gen.hostOps1_1, Cert.Kernel.Gen.hostOps1_2, Cert.Kernel.Gen.hostOps1_3, Cert.Kernel.Gen.hostOps1_4]

theorem keep0_a14 (W : KerLayers.Fam F) (c : Dev nD) :
    KerLayers.KL0 W c (Proc.devRef .tc main_arg14) = W c (Proc.devRef .tc main_arg14) := by
  eval_after [KerLayers.KL0, KerLayers.Rg0_in, KerLayers.Rg0_ne', KerLayers.Rg1_ne', KerLayers.H0, KerLayers.H1, Cert.Kernel.Gen.hostOps0, Cert.Kernel.Gen.hostOps0_1, Cert.Kernel.Gen.hostOps0_2, Cert.Kernel.Gen.hostOps1, Cert.Kernel.Gen.hostOps1_1, Cert.Kernel.Gen.hostOps1_2, Cert.Kernel.Gen.hostOps1_3, Cert.Kernel.Gen.hostOps1_4]

theorem keep0_a15 (W : KerLayers.Fam F) (c : Dev nD) :
    KerLayers.KL0 W c (Proc.devRef .tc main_arg15) = W c (Proc.devRef .tc main_arg15) := by
  eval_after [KerLayers.KL0, KerLayers.Rg0_in, KerLayers.Rg0_ne', KerLayers.Rg1_ne', KerLayers.H0, KerLayers.H1, Cert.Kernel.Gen.hostOps0, Cert.Kernel.Gen.hostOps0_1, Cert.Kernel.Gen.hostOps0_2, Cert.Kernel.Gen.hostOps1, Cert.Kernel.Gen.hostOps1_1, Cert.Kernel.Gen.hostOps1_2, Cert.Kernel.Gen.hostOps1_3, Cert.Kernel.Gen.hostOps1_4]

theorem keep0_a16 (W : KerLayers.Fam F) (c : Dev nD) :
    KerLayers.KL0 W c (Proc.devRef .tc main_arg16) = W c (Proc.devRef .tc main_arg16) := by
  eval_after [KerLayers.KL0, KerLayers.Rg0_in, KerLayers.Rg0_ne', KerLayers.Rg1_ne', KerLayers.H0, KerLayers.H1, Cert.Kernel.Gen.hostOps0, Cert.Kernel.Gen.hostOps0_1, Cert.Kernel.Gen.hostOps0_2, Cert.Kernel.Gen.hostOps1, Cert.Kernel.Gen.hostOps1_1, Cert.Kernel.Gen.hostOps1_2, Cert.Kernel.Gen.hostOps1_3, Cert.Kernel.Gen.hostOps1_4]

theorem keep0_a17 (W : KerLayers.Fam F) (c : Dev nD) :
    KerLayers.KL0 W c (Proc.devRef .tc main_arg17) = W c (Proc.devRef .tc main_arg17) := by
  eval_after [KerLayers.KL0, KerLayers.Rg0_in, KerLayers.Rg0_ne', KerLayers.Rg1_ne', KerLayers.H0, KerLayers.H1, Cert.Kernel.Gen.hostOps0, Cert.Kernel.Gen.hostOps0_1, Cert.Kernel.Gen.hostOps0_2, Cert.Kernel.Gen.hostOps1, Cert.Kernel.Gen.hostOps1_1, Cert.Kernel.Gen.hostOps1_2, Cert.Kernel.Gen.hostOps1_3, Cert.Kernel.Gen.hostOps1_4]

theorem keep0_a18 (W : KerLayers.Fam F) (c : Dev nD) :
    KerLayers.KL0 W c (Proc.devRef .tc main_arg18) = W c (Proc.devRef .tc main_arg18) := by
  eval_after [KerLayers.KL0, KerLayers.Rg0_in, KerLayers.Rg0_ne', KerLayers.Rg1_ne', KerLayers.H0, KerLayers.H1, Cert.Kernel.Gen.hostOps0, Cert.Kernel.Gen.hostOps0_1, Cert.Kernel.Gen.hostOps0_2, Cert.Kernel.Gen.hostOps1, Cert.Kernel.Gen.hostOps1_1, Cert.Kernel.Gen.hostOps1_2, Cert.Kernel.Gen.hostOps1_3, Cert.Kernel.Gen.hostOps1_4]

theorem keep0_a19 (W : KerLayers.Fam F) (c : Dev nD) :
    KerLayers.KL0 W c (Proc.devRef .tc main_arg19) = W c (Proc.devRef .tc main_arg19) := by
  eval_after [KerLayers.KL0, KerLayers.Rg0_in, KerLayers.Rg0_ne', KerLayers.Rg1_ne', KerLayers.H0, KerLayers.H1, Cert.Kernel.Gen.hostOps0, Cert.Kernel.Gen.hostOps0_1, Cert.Kernel.Gen.hostOps0_2, Cert.Kernel.Gen.hostOps1, Cert.Kernel.Gen.hostOps1_1, Cert.Kernel.Gen.hostOps1_2, Cert.Kernel.Gen.hostOps1_3, Cert.Kernel.Gen.hostOps1_4]

theorem keep0_a20 (W : KerLayers.Fam F) (c : Dev nD) :
    KerLayers.KL0 W c (Proc.devRef .tc main_arg20) = W c (Proc.devRef .tc main_arg20) := by
  eval_after [KerLayers.KL0, KerLayers.Rg0_in, KerLayers.Rg0_ne', KerLayers.Rg1_ne', KerLayers.H0, KerLayers.H1, Cert.Kernel.Gen.hostOps0, Cert.Kernel.Gen.hostOps0_1, Cert.Kernel.Gen.hostOps0_2, Cert.Kernel.Gen.hostOps1, Cert.Kernel.Gen.hostOps1_1, Cert.Kernel.Gen.hostOps1_2, Cert.Kernel.Gen.hostOps1_3, Cert.Kernel.Gen.hostOps1_4]

theorem keep0_a21 (W : KerLayers.Fam F) (c : Dev nD) :
    KerLayers.KL0 W c (Proc.devRef .tc main_arg21) = W c (Proc.devRef .tc main_arg21) := by
  eval_after [KerLayers.KL0, KerLayers.Rg0_in, KerLayers.Rg0_ne', KerLayers.Rg1_ne', KerLayers.H0, KerLayers.H1, Cert.Kernel.Gen.hostOps0, Cert.Kernel.Gen.hostOps0_1, Cert.Kernel.Gen.hostOps0_2, Cert.Kernel.Gen.hostOps1, Cert.Kernel.Gen.hostOps1_1, Cert.Kernel.Gen.hostOps1_2, Cert.Kernel.Gen.hostOps1_3, Cert.Kernel.Gen.hostOps1_4]

end Cert.Kernel.Keep

end
-- ==== Proof.KeepK1.lean ====
/-
  Layer 1 of the program writes none of the argument arrays: read after it, each holds what it held before
  (no host operation of its stretches writes it, and it is no array of its regions, or an input array they keep).
-/
import proofs.«170918_j12352325943916_1_alg».proof.Proof.KLayers
import proofs.«170918_j12352325943916_1_alg».proof.Proof.EvalAfter

set_option maxRecDepth 16384
set_option maxHeartbeats 2000000

noncomputable section

namespace Cert.Kernel.Keep

open Idealize.ShloMosaic Idealize.ShloMosaic.TcCoe Idealize.SL.Sem Idealize.ShloMosaic.StableHlo Cert.Tac
open Cert.Kernel

variable {F : FTy → Type} [FloatOps F]

theorem keep1_a0 (W : KerLayers.Fam F) (c : Dev nD) :
    KerLayers.KL1 W c (Proc.devRef .tc main_arg0) = W c (Proc.devRef .tc main_arg0) := by
  eval_after [KerLayers.KL1, KerLayers.Rg2_in, KerLayers.Rg2_ne', KerLayers.Rg3_ne', KerLayers.H2, KerLayers.H3, Cert.Kernel.Gen.hostOps2, Cert.Kernel.Gen.hostOps3, Cert.Kernel.Gen.hostOps3_1, Cert.Kernel.Gen.hostOps3_2, Cert.Kernel.Gen.hostOps3_3, Cert.Kernel.Gen.hostOps3_4]

theorem keep1_a1 (W : KerLayers.Fam F) (c : Dev nD) :
    KerLayers.KL1 W c (Proc.devRef .tc main_arg1) = W c (Proc.devRef .tc main_arg1) := by
  eval_after [KerLayers.KL1, KerLayers.Rg2_in, KerLayers.Rg2_ne', KerLayers.Rg3_ne', KerLayers.H2, KerLayers.H3, Cert.Kernel.Gen.hostOps2, Cert.Kernel.Gen.hostOps3, Cert.Kernel.Gen.hostOps3_1, Cert.Kernel.Gen.hostOps3_2, Cert.Kernel.Gen.hostOps3_3, Cert.Kernel.Gen.hostOps3_4]

theorem keep1_a2 (W : KerLayers.Fam F) (c : Dev nD) :
    KerLayers.KL1 W c (Proc.devRef .tc main_arg2) = W c (Proc.devRef .tc main_arg2) := by
  eval_after [KerLayers.KL1, KerLayers.Rg2_in, KerLayers.Rg2_ne', KerLayers.Rg3_ne', KerLayers.H2, KerLayers.H3, Cert.Kernel.Gen.hostOps2, Cert.Kernel.Gen.hostOps3, Cert.Kernel.Gen.hostOps3_1, Cert.Kernel.Gen.hostOps3_2, Cert.Kernel.Gen.hostOps3_3, Cert.Kernel.Gen.hostOps3_4]

theorem keep1_a3 (W : KerLayers.Fam F) (c : Dev nD) :
    KerLayers.KL1 W c (Proc.devRef .tc main_arg3) = W c (Proc.devRef .tc main_arg3) := by
  eval_after [KerLayers.KL1, KerLayers.Rg2_in, KerLayers.Rg2_ne', KerLayers.Rg3_ne', KerLayers.H2, KerLayers.H3, Cert.Kernel.Gen.hostOps2, Cert.Kernel.Gen.hostOps3, Cert.Kernel.Gen.hostOps3_1, Cert.Kernel.Gen.hostOps3_2, Cert.Kernel.Gen.hostOps3_3, Cert.Kernel.Gen.hostOps3_4]

theorem keep1_a4 (W : KerLayers.Fam F) (c : Dev nD) :
    KerLayers.KL1 W c (Proc.devRef .tc main_arg4) = W c (Proc.devRef .tc main_arg4) := by
  eval_after [KerLayers.KL1, KerLayers.Rg2_in, KerLayers.Rg2_ne', KerLayers.Rg3_ne', KerLayers.H2, KerLayers.H3, Cert.Kernel.Gen.hostOps2, Cert.Kernel.Gen.hostOps3, Cert.Kernel.Gen.hostOps3_1, Cert.Kernel.Gen.hostOps3_2, Cert.Kernel.Gen.hostOps3_3, Cert.Kernel.Gen.hostOps3_4]

theorem keep1_a5 (W : KerLayers.Fam F) (c : Dev nD) :
    KerLayers.KL1 W c (Proc.devRef .tc main_arg5) = W c (Proc.devRef .tc main_arg5) := by
  eval_after [KerLayers.KL1, KerLayers.Rg2_in, KerLayers.Rg2_ne', KerLayers.Rg3_ne', KerLayers.H2, KerLayers.H3, Cert.Kernel.Gen.hostOps2, Cert.Kernel.Gen.hostOps3, Cert.Kernel.Gen.hostOps3_1, Cert.Kernel.Gen.hostOps3_2, Cert.Kernel.Gen.hostOps3_3, Cert.Kernel.Gen.hostOps3_4]

theorem keep1_a6 (W : KerLayers.Fam F) (c : Dev nD) :
    KerLayers.KL1 W c (Proc.devRef .tc main_arg6) = W c (Proc.devRef .tc main_arg6) := by
  eval_after [KerLayers.KL1, KerLayers.Rg2_in, KerLayers.Rg2_ne', KerLayers.Rg3_ne', KerLayers.H2, KerLayers.H3, Cert.Kernel.Gen.hostOps2, Cert.Kernel.Gen.hostOps3, Cert.Kernel.Gen.hostOps3_1, Cert.Kernel.Gen.hostOps3_2, Cert.Kernel.Gen.hostOps3_3, Cert.Kernel.Gen.hostOps3_4]

theorem keep1_a7 (W : KerLayers.Fam F) (c : Dev nD) :
    KerLayers.KL1 W c (Proc.devRef .tc main_arg7) = W c (Proc.devRef .tc main_arg7) := by
  eval_after [KerLayers.KL1, KerLayers.Rg2_in, KerLayers.Rg2_ne', KerLayers.Rg3_ne', KerLayers.H2, KerLayers.H3, Cert.Kernel.Gen.hostOps2, Cert.Kernel.Gen.hostOps3, Cert.Kernel.Gen.hostOps3_1, Cert.Kernel.Gen.hostOps3_2, Cert.Kernel.Gen.hostOps3_3, Cert.Kernel.Gen.hostOps3_4]

theorem keep1_a8 (W : KerLayers.Fam F) (c : Dev nD) :
    KerLayers.KL1 W c (Proc.devRef .tc main_arg8) = W c (Proc.devRef .tc main_arg8) := by
  eval_after [KerLayers.KL1, KerLayers.Rg2_in, KerLayers.Rg2_ne', KerLayers.Rg3_ne', KerLayers.H2, KerLayers.H3, Cert.Kernel.Gen.hostOps2, Cert.Kernel.Gen.hostOps3, Cert.Kernel.Gen.hostOps3_1, Cert.Kernel.Gen.hostOps3_2, Cert.Kernel.Gen.hostOps3_3, Cert.Kernel.Gen.hostOps3_4]

theorem keep1_a9 (W : KerLayers.Fam F) (c : Dev nD) :
    KerLayers.KL1 W c (Proc.devRef .tc main_arg9) = W c (Proc.devRef .tc main_arg9) := by
  eval_after [KerLayers.KL1, KerLayers.Rg2_in, KerLayers.Rg2_ne', KerLayers.Rg3_ne', KerLayers.H2, KerLayers.H3, Cert.Kernel.Gen.hostOps2, Cert.Kernel.Gen.hostOps3, Cert.Kernel.Gen.hostOps3_1, Cert.Kernel.Gen.hostOps3_2, Cert.Kernel.Gen.hostOps3_3, Cert.Kernel.Gen.hostOps3_4]

theorem keep1_a10 (W : KerLayers.Fam F) (c : Dev nD) :
    KerLayers.KL1 W c (Proc.devRef .tc main_arg10) = W c (Proc.devRef .tc main_arg10) := by
  eval_after [KerLayers.KL1, KerLayers.Rg2_in, KerLayers.Rg2_ne', KerLayers.Rg3_ne', KerLayers.H2, KerLayers.H3, Cert.Kernel.Gen.hostOps2, Cert.Kernel.Gen.hostOps3, Cert.Kernel.Gen.hostOps3_1, Cert.Kernel.Gen.hostOps3_2, Cert.Kernel.Gen.hostOps3_3, Cert.Kernel.Gen.hostOps3_4]

theorem keep1_a11 (W : KerLayers.Fam F) (c : Dev nD) :
    KerLayers.KL1 W c (Proc.devRef .tc main_arg11) = W c (Proc.devRef .tc main_arg11) := by
  eval_after [KerLayers.KL1, KerLayers.Rg2_in, KerLayers.Rg2_ne', KerLayers.Rg3_ne', KerLayers.H2, KerLayers.H3, Cert.Kernel.Gen.hostOps2, Cert.Kernel.Gen.hostOps3, Cert.Kernel.Gen.hostOps3_1, Cert.Kernel.Gen.hostOps3_2, Cert.Kernel.Gen.hostOps3_3, Cert.Kernel.Gen.hostOps3_4]

theorem keep1_a12 (W : KerLayers.Fam F) (c : Dev nD) :
    KerLayers.KL1 W c (Proc.devRef .tc main_arg12) = W c (Proc.devRef .tc main_arg12) := by
  eval_after [KerLayers.KL1, KerLayers.Rg2_in, KerLayers.Rg2_ne', KerLayers.Rg3_ne', KerLayers.H2, KerLayers.H3, Cert.Kernel.Gen.hostOps2, Cert.Kernel.Gen.hostOps3, Cert.Kernel.Gen.hostOps3_1, Cert.Kernel.Gen.hostOps3_2, Cert.Kernel.Gen.hostOps3_3, Cert.Kernel.Gen.hostOps3_4]

theorem keep1_a13 (W : KerLayers.Fam F) (c : Dev nD) :
    KerLayers.KL1 W c (Proc.devRef .tc main_arg13) = W c (Proc.devRef .tc main_arg13) := by
  eval_after [KerLayers.KL1, KerLayers.Rg2_in, KerLayers.Rg2_ne', KerLayers.Rg3_ne', KerLayers.H2, KerLayers.H3, Cert.Kernel.Gen.hostOps2, Cert.Kernel.Gen.hostOps3, Cert.Kernel.Gen.hostOps3_1, Cert.Kernel.Gen.hostOps3_2, Cert.Kernel.Gen.hostOps3_3, Cert.Kernel.Gen.hostOps3_4]

theorem keep1_a14 (W : KerLayers.Fam F) (c : Dev nD) :
    KerLayers.KL1 W c (Proc.devRef .tc main_arg14) = W c (Proc.devRef .tc main_arg14) := by
  eval_after [KerLayers.KL1, KerLayers.Rg2_in, KerLayers.Rg2_ne', KerLayers.Rg3_ne', KerLayers.H2, KerLayers.H3, Cert.Kernel.Gen.hostOps2, Cert.Kernel.Gen.hostOps3, Cert.Kernel.Gen.hostOps3_1, Cert.Kernel.Gen.hostOps3_2, Cert.Kernel.Gen.hostOps3_3, Cert.Kernel.Gen.hostOps3_4]

theorem keep1_a15 (W : KerLayers.Fam F) (c : Dev nD) :
    KerLayers.KL1 W c (Proc.devRef .tc main_arg15) = W c (Proc.devRef .tc main_arg15) := by
  eval_after [KerLayers.KL1, KerLayers.Rg2_in, KerLayers.Rg2_ne', KerLayers.Rg3_ne', KerLayers.H2, KerLayers.H3, Cert.Kernel.Gen.hostOps2, Cert.Kernel.Gen.hostOps3, Cert.Kernel.Gen.hostOps3_1, Cert.Kernel.Gen.hostOps3_2, Cert.Kernel.Gen.hostOps3_3, Cert.Kernel.Gen.hostOps3_4]

theorem keep1_a16 (W : KerLayers.Fam F) (c : Dev nD) :
    KerLayers.KL1 W c (Proc.devRef .tc main_arg16) = W c (Proc.devRef .tc main_arg16) := by
  eval_after [KerLayers.KL1, KerLayers.Rg2_in, KerLayers.Rg2_ne', KerLayers.Rg3_ne', KerLayers.H2, KerLayers.H3, Cert.Kernel.Gen.hostOps2, Cert.Kernel.Gen.hostOps3, Cert.Kernel.Gen.hostOps3_1, Cert.Kernel.Gen.hostOps3_2, Cert.Kernel.Gen.hostOps3_3, Cert.Kernel.Gen.hostOps3_4]

theorem keep1_a17 (W : KerLayers.Fam F) (c : Dev nD) :
    KerLayers.KL1 W c (Proc.devRef .tc main_arg17) = W c (Proc.devRef .tc main_arg17) := by
  eval_after [KerLayers.KL1, KerLayers.Rg2_in, KerLayers.Rg2_ne', KerLayers.Rg3_ne', KerLayers.H2, KerLayers.H3, Cert.Kernel.Gen.hostOps2, Cert.Kernel.Gen.hostOps3, Cert.Kernel.Gen.hostOps3_1, Cert.Kernel.Gen.hostOps3_2, Cert.Kernel.Gen.hostOps3_3, Cert.Kernel.Gen.hostOps3_4]

theorem keep1_a18 (W : KerLayers.Fam F) (c : Dev nD) :
    KerLayers.KL1 W c (Proc.devRef .tc main_arg18) = W c (Proc.devRef .tc main_arg18) := by
  eval_after [KerLayers.KL1, KerLayers.Rg2_in, KerLayers.Rg2_ne', KerLayers.Rg3_ne', KerLayers.H2, KerLayers.H3, Cert.Kernel.Gen.hostOps2, Cert.Kernel.Gen.hostOps3, Cert.Kernel.Gen.hostOps3_1, Cert.Kernel.Gen.hostOps3_2, Cert.Kernel.Gen.hostOps3_3, Cert.Kernel.Gen.hostOps3_4]

theorem keep1_a19 (W : KerLayers.Fam F) (c : Dev nD) :
    KerLayers.KL1 W c (Proc.devRef .tc main_arg19) = W c (Proc.devRef .tc main_arg19) := by
  eval_after [KerLayers.KL1, KerLayers.Rg2_in, KerLayers.Rg2_ne', KerLayers.Rg3_ne', KerLayers.H2, KerLayers.H3, Cert.Kernel.Gen.hostOps2, Cert.Kernel.Gen.hostOps3, Cert.Kernel.Gen.hostOps3_1, Cert.Kernel.Gen.hostOps3_2, Cert.Kernel.Gen.hostOps3_3, Cert.Kernel.Gen.hostOps3_4]

theorem keep1_a20 (W : KerLayers.Fam F) (c : Dev nD) :
    KerLayers.KL1 W c (Proc.devRef .tc main_arg20) = W c (Proc.devRef .tc main_arg20) := by
  eval_after [KerLayers.KL1, KerLayers.Rg2_in, KerLayers.Rg2_ne', KerLayers.Rg3_ne', KerLayers.H2, KerLayers.H3, Cert.Kernel.Gen.hostOps2, Cert.Kernel.Gen.hostOps3, Cert.Kernel.Gen.hostOps3_1, Cert.Kernel.Gen.hostOps3_2, Cert.Kernel.Gen.hostOps3_3, Cert.Kernel.Gen.hostOps3_4]

theorem keep1_a21 (W : KerLayers.Fam F) (c : Dev nD) :
    KerLayers.KL1 W c (Proc.devRef .tc main_arg21) = W c (Proc.devRef .tc main_arg21) := by
  eval_after [KerLayers.KL1, KerLayers.Rg2_in, KerLayers.Rg2_ne', KerLayers.Rg3_ne', KerLayers.H2, KerLayers.H3, Cert.Kernel.Gen.hostOps2, Cert.Kernel.Gen.hostOps3, Cert.Kernel.Gen.hostOps3_1, Cert.Kernel.Gen.hostOps3_2, Cert.Kernel.Gen.hostOps3_3, Cert.Kernel.Gen.hostOps3_4]

end Cert.Kernel.Keep

end
-- ==== Proof.KeepK2.lean ====
/-
  Layer 2 of the program writes none of the argument arrays: read after it, each holds what it held before
  (no host operation of its stretches writes it, and it is no array of its regions, or an input array they keep).
-/
import proofs.«170918_j12352325943916_1_alg».proof.Proof.KLayers
import proofs.«170918_j12352325943916_1_alg».proof.Proof.EvalAfter

set_option maxRecDepth 16384
set_option maxHeartbeats 2000000

noncomputable section

namespace Cert.Kernel.Keep

open Idealize.ShloMosaic Idealize.ShloMosaic.TcCoe Idealize.SL.Sem Idealize.ShloMosaic.StableHlo Cert.Tac
open Cert.Kernel

variable {F : FTy → Type} [FloatOps F]

theorem keep2_a0 (W : KerLayers.Fam F) (c : Dev nD) :
    KerLayers.KL2 W c (Proc.devRef .tc main_arg0) = W c (Proc.devRef .tc main_arg0) := by
  eval_after [KerLayers.KL2, KerLayers.Rg4_in, KerLayers.Rg4_ne', KerLayers.Rg5_ne', KerLayers.H4, KerLayers.H5, Cert.Kernel.Gen.hostOps4, Cert.Kernel.Gen.hostOps5, Cert.Kernel.Gen.hostOps5_1, Cert.Kernel.Gen.hostOps5_2, Cert.Kernel.Gen.hostOps5_3, Cert.Kernel.Gen.hostOps5_4]

theorem keep2_a1 (W : KerLayers.Fam F) (c : Dev nD) :
    KerLayers.KL2 W c (Proc.devRef .tc main_arg1) = W c (Proc.devRef .tc main_arg1) := by
  eval_after [KerLayers.KL2, KerLayers.Rg4_in, KerLayers.Rg4_ne', KerLayers.Rg5_ne', KerLayers.H4, KerLayers.H5, Cert.Kernel.Gen.hostOps4, Cert.Kernel.Gen.hostOps5, Cert.Kernel.Gen.hostOps5_1, Cert.Kernel.Gen.hostOps5_2, Cert.Kernel.Gen.hostOps5_3, Cert.Kernel.Gen.hostOps5_4]

theorem keep2_a2 (W : KerLayers.Fam F) (c : Dev nD) :
    KerLayers.KL2 W c (Proc.devRef .tc main_arg2) = W c (Proc.devRef .tc main_arg2) := by
  eval_after [KerLayers.KL2, KerLayers.Rg4_in, KerLayers.Rg4_ne', KerLayers.Rg5_ne', KerLayers.H4, KerLayers.H5, Cert.Kernel.Gen.hostOps4, Cert.Kernel.Gen.hostOps5, Cert.Kernel.Gen.hostOps5_1, Cert.Kernel.Gen.hostOps5_2, Cert.Kernel.Gen.hostOps5_3, Cert.Kernel.Gen.hostOps5_4]

theorem keep2_a3 (W : KerLayers.Fam F) (c : Dev nD) :
    KerLayers.KL2 W c (Proc.devRef .tc main_arg3) = W c (Proc.devRef .tc main_arg3) := by
  eval_after [KerLayers.KL2, KerLayers.Rg4_in, KerLayers.Rg4_ne', KerLayers.Rg5_ne', KerLayers.H4, KerLayers.H5, Cert.Kernel.Gen.hostOps4, Cert.Kernel.Gen.hostOps5, Cert.Kernel.Gen.hostOps5_1, Cert.Kernel.Gen.hostOps5_2, Cert.Kernel.Gen.hostOps5_3, Cert.Kernel.Gen.hostOps5_4]

theorem keep2_a4 (W : KerLayers.Fam F) (c : Dev nD) :
    KerLayers.KL2 W c (Proc.devRef .tc main_arg4) = W c (Proc.devRef .tc main_arg4) := by
  eval_after [KerLayers.KL2, KerLayers.Rg4_in, KerLayers.Rg4_ne', KerLayers.Rg5_ne', KerLayers.H4, KerLayers.H5, Cert.Kernel.Gen.hostOps4, Cert.Kernel.Gen.hostOps5, Cert.Kernel.Gen.hostOps5_1, Cert.Kernel.Gen.hostOps5_2, Cert.Kernel.Gen.hostOps5_3, Cert.Kernel.Gen.hostOps5_4]

theorem keep2_a5 (W : KerLayers.Fam F) (c : Dev nD) :
    KerLayers.KL2 W c (Proc.devRef .tc main_arg5) = W c (Proc.devRef .tc main_arg5) := by
  eval_after [KerLayers.KL2, KerLayers.Rg4_in, KerLayers.Rg4_ne', KerLayers.Rg5_ne', KerLayers.H4, KerLayers.H5, Cert.Kernel.Gen.hostOps4, Cert.Kernel.Gen.hostOps5, Cert.Kernel.Gen.hostOps5_1, Cert.Kernel.Gen.hostOps5_2, Cert.Kernel.Gen.hostOps5_3, Cert.Kernel.Gen.hostOps5_4]

theorem keep2_a6 (W : KerLayers.Fam F) (c : Dev nD) :
    KerLayers.KL2 W c (Proc.devRef .tc main_arg6) = W c (Proc.devRef .tc main_arg6) := by
  eval_after [KerLayers.KL2, KerLayers.Rg4_in, KerLayers.Rg4_ne', KerLayers.Rg5_ne', KerLayers.H4, KerLayers.H5, Cert.Kernel.Gen.hostOps4, Cert.Kernel.Gen.hostOps5, Cert.Kernel.Gen.hostOps5_1, Cert.Kernel.Gen.hostOps5_2, Cert.Kernel.Gen.hostOps5_3, Cert.Kernel.Gen.hostOps5_4]

theorem keep2_a7 (W : KerLayers.Fam F) (c : Dev nD) :
    KerLayers.KL2 W c (Proc.devRef .tc main_arg7) = W c (Proc.devRef .tc main_arg7) := by
  eval_after [KerLayers.KL2, KerLayers.Rg4_in, KerLayers.Rg4_ne', KerLayers.Rg5_ne', KerLayers.H4, KerLayers.H5, Cert.Kernel.Gen.hostOps4, Cert.Kernel.Gen.hostOps5, Cert.Kernel.Gen.hostOps5_1, Cert.Kernel.Gen.hostOps5_2, Cert.Kernel.Gen.hostOps5_3, Cert.Kernel.Gen.hostOps5_4]

theorem keep2_a8 (W : KerLayers.Fam F) (c : Dev nD) :
    KerLayers.KL2 W c (Proc.devRef .tc main_arg8) = W c (Proc.devRef .tc main_arg8) := by
  eval_after [KerLayers.KL2, KerLayers.Rg4_in, KerLayers.Rg4_ne', KerLayers.Rg5_ne', KerLayers.H4, KerLayers.H5, Cert.Kernel.Gen.hostOps4, Cert.Kernel.Gen.hostOps5, Cert.Kernel.Gen.hostOps5_1, Cert.Kernel.Gen.hostOps5_2, Cert.Kernel.Gen.hostOps5_3, Cert.Kernel.Gen.hostOps5_4]

theorem keep2_a9 (W : KerLayers.Fam F) (c : Dev nD) :
    KerLayers.KL2 W c (Proc.devRef .tc main_arg9) = W c (Proc.devRef .tc main_arg9) := by
  eval_after [KerLayers.KL2, KerLayers.Rg4_in, KerLayers.Rg4_ne', KerLayers.Rg5_ne', KerLayers.H4, KerLayers.H5, Cert.Kernel.Gen.hostOps4, Cert.Kernel.Gen.hostOps5, Cert.Kernel.Gen.hostOps5_1, Cert.Kernel.Gen.hostOps5_2, Cert.Kernel.Gen.hostOps5_3, Cert.Kernel.Gen.hostOps5_4]

theorem keep2_a10 (W : KerLayers.Fam F) (c : Dev nD) :
    KerLayers.KL2 W c (Proc.devRef .tc main_arg10) = W c (Proc.devRef .tc main_arg10) := by
  eval_after [KerLayers.KL2, KerLayers.Rg4_in, KerLayers.Rg4_ne', KerLayers.Rg5_ne', KerLayers.H4, KerLayers.H5, Cert.Kernel.Gen.hostOps4, Cert.Kernel.Gen.hostOps5, Cert.Kernel.Gen.hostOps5_1, Cert.Kernel.Gen.hostOps5_2, Cert.Kernel.Gen.hostOps5_3, Cert.Kernel.Gen.hostOps5_4]

theorem keep2_a11 (W : KerLayers.Fam F) (c : Dev nD) :
    KerLayers.KL2 W c (Proc.devRef .tc main_arg11) = W c (Proc.devRef .tc main_arg11) := by
  eval_after [KerLayers.KL2, KerLayers.Rg4_in, KerLayers.Rg4_ne', KerLayers.Rg5_ne', KerLayers.H4, KerLayers.H5, Cert.Kernel.Gen.hostOps4, Cert.Kernel.Gen.hostOps5, Cert.Kernel.Gen.hostOps5_1, Cert.Kernel.Gen.hostOps5_2, Cert.Kernel.Gen.hostOps5_3, Cert.Kernel.Gen.hostOps5_4]

theorem keep2_a12 (W : KerLayers.Fam F) (c : Dev nD) :
    KerLayers.KL2 W c (Proc.devRef .tc main_arg12) = W c (Proc.devRef .tc main_arg12) := by
  eval_after [KerLayers.KL2, KerLayers.Rg4_in, KerLayers.Rg4_ne', KerLayers.Rg5_ne', KerLayers.H4, KerLayers.H5, Cert.Kernel.Gen.hostOps4, Cert.Kernel.Gen.hostOps5, Cert.Kernel.Gen.hostOps5_1, Cert.Kernel.Gen.hostOps5_2, Cert.Kernel.Gen.hostOps5_3, Cert.Kernel.Gen.hostOps5_4]

theorem keep2_a13 (W : KerLayers.Fam F) (c : Dev nD) :
    KerLayers.KL2 W c (Proc.devRef .tc main_arg13) = W c (Proc.devRef .tc main_arg13) := by
  eval_after [KerLayers.KL2, KerLayers.Rg4_in, KerLayers.Rg4_ne', KerLayers.Rg5_ne', KerLayers.H4, KerLayers.H5, Cert.Kernel.Gen.hostOps4, Cert.Kernel.Gen.hostOps5, Cert.Kernel.Gen.hostOps5_1, Cert.Kernel.Gen.hostOps5_2, Cert.Kernel.Gen.hostOps5_3, Cert.Kernel.Gen.hostOps5_4]

theorem keep2_a14 (W : KerLayers.Fam F) (c : Dev nD) :
    KerLayers.KL2 W c (Proc.devRef .tc main_arg14) = W c (Proc.devRef .tc main_arg14) := by
  eval_after [KerLayers.KL2, KerLayers.Rg4_in, KerLayers.Rg4_ne', KerLayers.Rg5_ne', KerLayers.H4, KerLayers.H5, Cert.Kernel.Gen.hostOps4, Cert.Kernel.Gen.hostOps5, Cert.Kernel.Gen.hostOps5_1, Cert.Kernel.Gen.hostOps5_2, Cert.Kernel.Gen.hostOps5_3, Cert.Kernel.Gen.hostOps5_4]

theorem keep2_a15 (W : KerLayers.Fam F) (c : Dev nD) :
    KerLayers.KL2 W c (Proc.devRef .tc main_arg15) = W c (Proc.devRef .tc main_arg15) := by
  eval_after [KerLayers.KL2, KerLayers.Rg4_in, KerLayers.Rg4_ne', KerLayers.Rg5_ne', KerLayers.H4, KerLayers.H5, Cert.Kernel.Gen.hostOps4, Cert.Kernel.Gen.hostOps5, Cert.Kernel.Gen.hostOps5_1, Cert.Kernel.Gen.hostOps5_2, Cert.Kernel.Gen.hostOps5_3, Cert.Kernel.Gen.hostOps5_4]

theorem keep2_a16 (W : KerLayers.Fam F) (c : Dev nD) :
    KerLayers.KL2 W c (Proc.devRef .tc main_arg16) = W c (Proc.devRef .tc main_arg16) := by
  eval_after [KerLayers.KL2, KerLayers.Rg4_in, KerLayers.Rg4_ne', KerLayers.Rg5_ne', KerLayers.H4, KerLayers.H5, Cert.Kernel.Gen.hostOps4, Cert.Kernel.Gen.hostOps5, Cert.Kernel.Gen.hostOps5_1, Cert.Kernel.Gen.hostOps5_2, Cert.Kernel.Gen.hostOps5_3, Cert.Kernel.Gen.hostOps5_4]

theorem keep2_a17 (W : KerLayers.Fam F) (c : Dev nD) :
    KerLayers.KL2 W c (Proc.devRef .tc main_arg17) = W c (Proc.devRef .tc main_arg17) := by
  eval_after [KerLayers.KL2, KerLayers.Rg4_in, KerLayers.Rg4_ne', KerLayers.Rg5_ne', KerLayers.H4, KerLayers.H5, Cert.Kernel.Gen.hostOps4, Cert.Kernel.Gen.hostOps5, Cert.Kernel.Gen.hostOps5_1, Cert.Kernel.Gen.hostOps5_2, Cert.Kernel.Gen.hostOps5_3, Cert.Kernel.Gen.hostOps5_4]

theorem keep2_a18 (W : KerLayers.Fam F) (c : Dev nD) :
    KerLayers.KL2 W c (Proc.devRef .tc main_arg18) = W c (Proc.devRef .tc main_arg18) := by
  eval_after [KerLayers.KL2, KerLayers.Rg4_in, KerLayers.Rg4_ne', KerLayers.Rg5_ne', KerLayers.H4, KerLayers.H5, Cert.Kernel.Gen.hostOps4, Cert.Kernel.Gen.hostOps5, Cert.Kernel.Gen.hostOps5_1, Cert.Kernel.Gen.hostOps5_2, Cert.Kernel.Gen.hostOps5_3, Cert.Kernel.Gen.hostOps5_4]

theorem keep2_a19 (W : KerLayers.Fam F) (c : Dev nD) :
    KerLayers.KL2 W c (Proc.devRef .tc main_arg19) = W c (Proc.devRef .tc main_arg19) := by
  eval_after [KerLayers.KL2, KerLayers.Rg4_in, KerLayers.Rg4_ne', KerLayers.Rg5_ne', KerLayers.H4, KerLayers.H5, Cert.Kernel.Gen.hostOps4, Cert.Kernel.Gen.hostOps5, Cert.Kernel.Gen.hostOps5_1, Cert.Kernel.Gen.hostOps5_2, Cert.Kernel.Gen.hostOps5_3, Cert.Kernel.Gen.hostOps5_4]

theorem keep2_a20 (W : KerLayers.Fam F) (c : Dev nD) :
    KerLayers.KL2 W c (Proc.devRef .tc main_arg20) = W c (Proc.devRef .tc main_arg20) := by
  eval_after [KerLayers.KL2, KerLayers.Rg4_in, KerLayers.Rg4_ne', KerLayers.Rg5_ne', KerLayers.H4, KerLayers.H5, Cert.Kernel.Gen.hostOps4, Cert.Kernel.Gen.hostOps5, Cert.Kernel.Gen.hostOps5_1, Cert.Kernel.Gen.hostOps5_2, Cert.Kernel.Gen.hostOps5_3, Cert.Kernel.Gen.hostOps5_4]

theorem keep2_a21 (W : KerLayers.Fam F) (c : Dev nD) :
    KerLayers.KL2 W c (Proc.devRef .tc main_arg21) = W c (Proc.devRef .tc main_arg21) := by
  eval_after [KerLayers.KL2, KerLayers.Rg4_in, KerLayers.Rg4_ne', KerLayers.Rg5_ne', KerLayers.H4, KerLayers.H5, Cert.Kernel.Gen.hostOps4, Cert.Kernel.Gen.hostOps5, Cert.Kernel.Gen.hostOps5_1, Cert.Kernel.Gen.hostOps5_2, Cert.Kernel.Gen.hostOps5_3, Cert.Kernel.Gen.hostOps5_4]

end Cert.Kernel.Keep

end
-- ==== Proof.KeepK3.lean ====
/-
  Layer 3 of the program writes none of the argument arrays: read after it, each holds what it held before
  (no host operation of its stretches writes it, and it is no array of its regions, or an input array they keep).
-/
import proofs.«170918_j12352325943916_1_alg».proof.Proof.KLayers
import proofs.«170918_j12352325943916_1_alg».proof.Proof.EvalAfter

set_option maxRecDepth 16384
set_option maxHeartbeats 2000000

noncomputable section

namespace Cert.Kernel.Keep

open Idealize.ShloMosaic Idealize.ShloMosaic.TcCoe Idealize.SL.Sem Idealize.ShloMosaic.StableHlo Cert.Tac
open Cert.Kernel

variable {F : FTy → Type} [FloatOps F]

theorem keep3_a0 (W : KerLayers.Fam F) (c : Dev nD) :
    KerLayers.KL3 W c (Proc.devRef .tc main_arg0) = W c (Proc.devRef .tc main_arg0) := by
  eval_after [KerLayers.KL3, KerLayers.Rg6_in, KerLayers.Rg6_ne', KerLayers.Rg7_ne', KerLayers.H6, KerLayers.H7, Cert.Kernel.Gen.hostOps6, Cert.Kernel.Gen.hostOps7, Cert.Kernel.Gen.hostOps7_1, Cert.Kernel.Gen.hostOps7_2, Cert.Kernel.Gen.hostOps7_3, Cert.Kernel.Gen.hostOps7_4]

theorem keep3_a1 (W : KerLayers.Fam F) (c : Dev nD) :
    KerLayers.KL3 W c (Proc.devRef .tc main_arg1) = W c (Proc.devRef .tc main_arg1) := by
  eval_after [KerLayers.KL3, KerLayers.Rg6_in, KerLayers.Rg6_ne', KerLayers.Rg7_ne', KerLayers.H6, KerLayers.H7, Cert.Kernel.Gen.hostOps6, Cert.Kernel.Gen.hostOps7, Cert.Kernel.Gen.hostOps7_1, Cert.Kernel.Gen.hostOps7_2, Cert.Kernel.Gen.hostOps7_3, Cert.Kernel.Gen.hostOps7_4]

theorem keep3_a2 (W : KerLayers.Fam F) (c : Dev nD) :
    KerLayers.KL3 W c (Proc.devRef .tc main_arg2) = W c (Proc.devRef .tc main_arg2) := by
  eval_after [KerLayers.KL3, KerLayers.Rg6_in, KerLayers.Rg6_ne', KerLayers.Rg7_ne', KerLayers.H6, KerLayers.H7, Cert.Kernel.Gen.hostOps6, Cert.Kernel.Gen.hostOps7, Cert.Kernel.Gen.hostOps7_1, Cert.Kernel.Gen.hostOps7_2, Cert.Kernel.Gen.hostOps7_3, Cert.Kernel.Gen.hostOps7_4]

theorem keep3_a3 (W : KerLayers.Fam F) (c : Dev nD) :
    KerLayers.KL3 W c (Proc.devRef .tc main_arg3) = W c (Proc.devRef .tc main_arg3) := by
  eval_after [KerLayers.KL3, KerLayers.Rg6_in, KerLayers.Rg6_ne', KerLayers.Rg7_ne', KerLayers.H6, KerLayers.H7, Cert.Kernel.Gen.hostOps6, Cert.Kernel.Gen.hostOps7, Cert.Kernel.Gen.hostOps7_1, Cert.Kernel.Gen.hostOps7_2, Cert.Kernel.Gen.hostOps7_3, Cert.Kernel.Gen.hostOps7_4]

theorem keep3_a4 (W : KerLayers.Fam F) (c : Dev nD) :
    KerLayers.KL3 W c (Proc.devRef .tc main_arg4) = W c (Proc.devRef .tc main_arg4) := by
  eval_after [KerLayers.KL3, KerLayers.Rg6_in, KerLayers.Rg6_ne', KerLayers.Rg7_ne', KerLayers.H6, KerLayers.H7, Cert.Kernel.Gen.hostOps6, Cert.Kernel.Gen.hostOps7, Cert.Kernel.Gen.hostOps7_1, Cert.Kernel.Gen.hostOps7_2, Cert.Kernel.Gen.hostOps7_3, Cert.Kernel.Gen.hostOps7_4]

theorem keep3_a5 (W : KerLayers.Fam F) (c : Dev nD) :
    KerLayers.KL3 W c (Proc.devRef .tc main_arg5) = W c (Proc.devRef .tc main_arg5) := by
  eval_after [KerLayers.KL3, KerLayers.Rg6_in, KerLayers.Rg6_ne', KerLayers.Rg7_ne', KerLayers.H6, KerLayers.H7, Cert.Kernel.Gen.hostOps6, Cert.Kernel.Gen.hostOps7, Cert.Kernel.Gen.hostOps7_1, Cert.Kernel.Gen.hostOps7_2, Cert.Kernel.Gen.hostOps7_3, Cert.Kernel.Gen.hostOps7_4]

theorem keep3_a6 (W : KerLayers.Fam F) (c : Dev nD) :
    KerLayers.KL3 W c (Proc.devRef .tc main_arg6) = W c (Proc.devRef .tc main_arg6) := by
  eval_after [KerLayers.KL3, KerLayers.Rg6_in, KerLayers.Rg6_ne', KerLayers.Rg7_ne', KerLayers.H6, KerLayers.H7, Cert.Kernel.Gen.hostOps6, Cert.Kernel.Gen.hostOps7, Cert.Kernel.Gen.hostOps7_1, Cert.Kernel.Gen.hostOps7_2, Cert.Kernel.Gen.hostOps7_3, Cert.Kernel.Gen.hostOps7_4]

theorem keep3_a7 (W : KerLayers.Fam F) (c : Dev nD) :
    KerLayers.KL3 W c (Proc.devRef .tc main_arg7) = W c (Proc.devRef .tc main_arg7) := by
  eval_after [KerLayers.KL3, KerLayers.Rg6_in, KerLayers.Rg6_ne', KerLayers.Rg7_ne', KerLayers.H6, KerLayers.H7, Cert.Kernel.Gen.hostOps6, Cert.Kernel.Gen.hostOps7, Cert.Kernel.Gen.hostOps7_1, Cert.Kernel.Gen.hostOps7_2, Cert.Kernel.Gen.hostOps7_3, Cert.Kernel.Gen.hostOps7_4]

theorem keep3_a8 (W : KerLayers.Fam F) (c : Dev nD) :
    KerLayers.KL3 W c (Proc.devRef .tc main_arg8) = W c (Proc.devRef .tc main_arg8) := by
  eval_after [KerLayers.KL3, KerLayers.Rg6_in, KerLayers.Rg6_ne', KerLayers.Rg7_ne', KerLayers.H6, KerLayers.H7, Cert.Kernel.Gen.hostOps6, Cert.Kernel.Gen.hostOps7, Cert.Kernel.Gen.hostOps7_1, Cert.Kernel.Gen.hostOps7_2, Cert.Kernel.Gen.hostOps7_3, Cert.Kernel.Gen.hostOps7_4]

theorem keep3_a9 (W : KerLayers.Fam F) (c : Dev nD) :
    KerLayers.KL3 W c (Proc.devRef .tc main_arg9) = W c (Proc.devRef .tc main_arg9) := by
  eval_after [KerLayers.KL3, KerLayers.Rg6_in, KerLayers.Rg6_ne', KerLayers.Rg7_ne', KerLayers.H6, KerLayers.H7, Cert.Kernel.Gen.hostOps6, Cert.Kernel.Gen.hostOps7, Cert.Kernel.Gen.hostOps7_1, Cert.Kernel.Gen.hostOps7_2, Cert.Kernel.Gen.hostOps7_3, Cert.Kernel.Gen.hostOps7_4]

theorem keep3_a10 (W : KerLayers.Fam F) (c : Dev nD) :
    KerLayers.KL3 W c (Proc.devRef .tc main_arg10) = W c (Proc.devRef .tc main_arg10) := by
  eval_after [KerLayers.KL3, KerLayers.Rg6_in, KerLayers.Rg6_ne', KerLayers.Rg7_ne', KerLayers.H6, KerLayers.H7, Cert.Kernel.Gen.hostOps6, Cert.Kernel.Gen.hostOps7, Cert.Kernel.Gen.hostOps7_1, Cert.Kernel.Gen.hostOps7_2, Cert.Kernel.Gen.hostOps7_3, Cert.Kernel.Gen.hostOps7_4]

theorem keep3_a11 (W : KerLayers.Fam F) (c : Dev nD) :
    KerLayers.KL3 W c (Proc.devRef .tc main_arg11) = W c (Proc.devRef .tc main_arg11) := by
  eval_after [KerLayers.KL3, KerLayers.Rg6_in, KerLayers.Rg6_ne', KerLayers.Rg7_ne', KerLayers.H6, KerLayers.H7, Cert.Kernel.Gen.hostOps6, Cert.Kernel.Gen.hostOps7, Cert.Kernel.Gen.hostOps7_1, Cert.Kernel.Gen.hostOps7_2, Cert.Kernel.Gen.hostOps7_3, Cert.Kernel.Gen.hostOps7_4]

theorem keep3_a12 (W : KerLayers.Fam F) (c : Dev nD) :
    KerLayers.KL3 W c (Proc.devRef .tc main_arg12) = W c (Proc.devRef .tc main_arg12) := by
  eval_after [KerLayers.KL3, KerLayers.Rg6_in, KerLayers.Rg6_ne', KerLayers.Rg7_ne', KerLayers.H6, KerLayers.H7, Cert.Kernel.Gen.hostOps6, Cert.Kernel.Gen.hostOps7, Cert.Kernel.Gen.hostOps7_1, Cert.Kernel.Gen.hostOps7_2, Cert.Kernel.Gen.hostOps7_3, Cert.Kernel.Gen.hostOps7_4]

theorem keep3_a13 (W : KerLayers.Fam F) (c : Dev nD) :
    KerLayers.KL3 W c (Proc.devRef .tc main_arg13) = W c (Proc.devRef .tc main_arg13) := by
  eval_after [KerLayers.KL3, KerLayers.Rg6_in, KerLayers.Rg6_ne', KerLayers.Rg7_ne', KerLayers.H6, KerLayers.H7, Cert.Kernel.Gen.hostOps6, Cert.Kernel.Gen.hostOps7, Cert.Kernel.Gen.hostOps7_1, Cert.Kernel.Gen.hostOps7_2, Cert.Kernel.Gen.hostOps7_3, Cert.Kernel.Gen.hostOps7_4]

theorem keep3_a14 (W : KerLayers.Fam F) (c : Dev nD) :
    KerLayers.KL3 W c (Proc.devRef .tc main_arg14) = W c (Proc.devRef .tc main_arg14) := by
  eval_after [KerLayers.KL3, KerLayers.Rg6_in, KerLayers.Rg6_ne', KerLayers.Rg7_ne', KerLayers.H6, KerLayers.H7, Cert.Kernel.Gen.hostOps6, Cert.Kernel.Gen.hostOps7, Cert.Kernel.Gen.hostOps7_1, Cert.Kernel.Gen.hostOps7_2, Cert.Kernel.Gen.hostOps7_3, Cert.Kernel.Gen.hostOps7_4]

theorem keep3_a15 (W : KerLayers.Fam F) (c : Dev nD) :
    KerLayers.KL3 W c (Proc.devRef .tc main_arg15) = W c (Proc.devRef .tc main_arg15) := by
  eval_after [KerLayers.KL3, KerLayers.Rg6_in, KerLayers.Rg6_ne', KerLayers.Rg7_ne', KerLayers.H6, KerLayers.H7, Cert.Kernel.Gen.hostOps6, Cert.Kernel.Gen.hostOps7, Cert.Kernel.Gen.hostOps7_1, Cert.Kernel.Gen.hostOps7_2, Cert.Kernel.Gen.hostOps7_3, Cert.Kernel.Gen.hostOps7_4]

theorem keep3_a16 (W : KerLayers.Fam F) (c : Dev nD) :
    KerLayers.KL3 W c (Proc.devRef .tc main_arg16) = W c (Proc.devRef .tc main_arg16) := by
  eval_after [KerLayers.KL3, KerLayers.Rg6_in, KerLayers.Rg6_ne', KerLayers.Rg7_ne', KerLayers.H6, KerLayers.H7, Cert.Kernel.Gen.hostOps6, Cert.Kernel.Gen.hostOps7, Cert.Kernel.Gen.hostOps7_1, Cert.Kernel.Gen.hostOps7_2, Cert.Kernel.Gen.hostOps7_3, Cert.Kernel.Gen.hostOps7_4]

theorem keep3_a17 (W : KerLayers.Fam F) (c : Dev nD) :
    KerLayers.KL3 W c (Proc.devRef .tc main_arg17) = W c (Proc.devRef .tc main_arg17) := by
  eval_after [KerLayers.KL3, KerLayers.Rg6_in, KerLayers.Rg6_ne', KerLayers.Rg7_ne', KerLayers.H6, KerLayers.H7, Cert.Kernel.Gen.hostOps6, Cert.Kernel.Gen.hostOps7, Cert.Kernel.Gen.hostOps7_1, Cert.Kernel.Gen.hostOps7_2, Cert.Kernel.Gen.hostOps7_3, Cert.Kernel.Gen.hostOps7_4]

theorem keep3_a18 (W : KerLayers.Fam F) (c : Dev nD) :
    KerLayers.KL3 W c (Proc.devRef .tc main_arg18) = W c (Proc.devRef .tc main_arg18) := by
  eval_after [KerLayers.KL3, KerLayers.Rg6_in, KerLayers.Rg6_ne', KerLayers.Rg7_ne', KerLayers.H6, KerLayers.H7, Cert.Kernel.Gen.hostOps6, Cert.Kernel.Gen.hostOps7, Cert.Kernel.Gen.hostOps7_1, Cert.Kernel.Gen.hostOps7_2, Cert.Kernel.Gen.hostOps7_3, Cert.Kernel.Gen.hostOps7_4]

theorem keep3_a19 (W : KerLayers.Fam F) (c : Dev nD) :
    KerLayers.KL3 W c (Proc.devRef .tc main_arg19) = W c (Proc.devRef .tc main_arg19) := by
  eval_after [KerLayers.KL3, KerLayers.Rg6_in, KerLayers.Rg6_ne', KerLayers.Rg7_ne', KerLayers.H6, KerLayers.H7, Cert.Kernel.Gen.hostOps6, Cert.Kernel.Gen.hostOps7, Cert.Kernel.Gen.hostOps7_1, Cert.Kernel.Gen.hostOps7_2, Cert.Kernel.Gen.hostOps7_3, Cert.Kernel.Gen.hostOps7_4]

theorem keep3_a20 (W : KerLayers.Fam F) (c : Dev nD) :
    KerLayers.KL3 W c (Proc.devRef .tc main_arg20) = W c (Proc.devRef .tc main_arg20) := by
  eval_after [KerLayers.KL3, KerLayers.Rg6_in, KerLayers.Rg6_ne', KerLayers.Rg7_ne', KerLayers.H6, KerLayers.H7, Cert.Kernel.Gen.hostOps6, Cert.Kernel.Gen.hostOps7, Cert.Kernel.Gen.hostOps7_1, Cert.Kernel.Gen.hostOps7_2, Cert.Kernel.Gen.hostOps7_3, Cert.Kernel.Gen.hostOps7_4]

theorem keep3_a21 (W : KerLayers.Fam F) (c : Dev nD) :
    KerLayers.KL3 W c (Proc.devRef .tc main_arg21) = W c (Proc.devRef .tc main_arg21) := by
  eval_after [KerLayers.KL3, KerLayers.Rg6_in, KerLayers.Rg6_ne', KerLayers.Rg7_ne', KerLayers.H6, KerLayers.H7, Cert.Kernel.Gen.hostOps6, Cert.Kernel.Gen.hostOps7, Cert.Kernel.Gen.hostOps7_1, Cert.Kernel.Gen.hostOps7_2, Cert.Kernel.Gen.hostOps7_3, Cert.Kernel.Gen.hostOps7_4]

end Cert.Kernel.Keep

end
-- ==== Proof.KeepK4.lean ====
/-
  The head of the program writes none of the argument arrays: read after it, each holds what it held before
  (no host operation of its stretches writes it, and it is no array of its regions, or an input array they keep).
-/
import proofs.«170918_j12352325943916_1_alg».proof.Proof.KLayers
import proofs.«170918_j12352325943916_1_alg».proof.Proof.EvalAfter

set_option maxRecDepth 16384
set_option maxHeartbeats 2000000

noncomputable section

namespace Cert.Kernel.Keep

open Idealize.ShloMosaic Idealize.ShloMosaic.TcCoe Idealize.SL.Sem Idealize.ShloMosaic.StableHlo Cert.Tac
open Cert.Kernel

variable {F : FTy → Type} [FloatOps F]

theorem keep4_a0 (W : KerLayers.Fam F) (c : Dev nD) :
    KerLayers.KL4 W c (Proc.devRef .tc main_arg0) = W c (Proc.devRef .tc main_arg0) := by
  eval_after [KerLayers.KL4, KerLayers.Rg8_in1, KerLayers.Rg8_in3, KerLayers.Rg8_ne', KerLayers.H8, Cert.Kernel.Gen.hostOps8]

theorem keep4_a1 (W : KerLayers.Fam F) (c : Dev nD) :
    KerLayers.KL4 W c (Proc.devRef .tc main_arg1) = W c (Proc.devRef .tc main_arg1) := by
  eval_after [KerLayers.KL4, KerLayers.Rg8_in1, KerLayers.Rg8_in3, KerLayers.Rg8_ne', KerLayers.H8, Cert.Kernel.Gen.hostOps8]

theorem keep4_a2 (W : KerLayers.Fam F) (c : Dev nD) :
    KerLayers.KL4 W c (Proc.devRef .tc main_arg2) = W c (Proc.devRef .tc main_arg2) := by
  eval_after [KerLayers.KL4, KerLayers.Rg8_in1, KerLayers.Rg8_in3, KerLayers.Rg8_ne', KerLayers.H8, Cert.Kernel.Gen.hostOps8]

theorem keep4_a3 (W : KerLayers.Fam F) (c : Dev nD) :
    KerLayers.KL4 W c (Proc.devRef .tc main_arg3) = W c (Proc.devRef .tc main_arg3) := by
  eval_after [KerLayers.KL4, KerLayers.Rg8_in1, KerLayers.Rg8_in3, KerLayers.Rg8_ne', KerLayers.H8, Cert.Kernel.Gen.hostOps8]

theorem keep4_a4 (W : KerLayers.Fam F) (c : Dev nD) :
    KerLayers.KL4 W c (Proc.devRef .tc main_arg4) = W c (Proc.devRef .tc main_arg4) := by
  eval_after [KerLayers.KL4, KerLayers.Rg8_in1, KerLayers.Rg8_in3, KerLayers.Rg8_ne', KerLayers.H8, Cert.Kernel.Gen.hostOps8]

theorem keep4_a5 (W : KerLayers.Fam F) (c : Dev nD) :
    KerLayers.KL4 W c (Proc.devRef .tc main_arg5) = W c (Proc.devRef .tc main_arg5) := by
  eval_after [KerLayers.KL4, KerLayers.Rg8_in1, KerLayers.Rg8_in3, KerLayers.Rg8_ne', KerLayers.H8, Cert.Kernel.Gen.hostOps8]

theorem keep4_a6 (W : KerLayers.Fam F) (c : Dev nD) :
    KerLayers.KL4 W c (Proc.devRef .tc main_arg6) = W c (Proc.devRef .tc main_arg6) := by
  eval_after [KerLayers.KL4, KerLayers.Rg8_in1, KerLayers.Rg8_in3, KerLayers.Rg8_ne', KerLayers.H8, Cert.Kernel.Gen.hostOps8]

theorem keep4_a7 (W : KerLayers.Fam F) (c : Dev nD) :
    KerLayers.KL4 W c (Proc.devRef .tc main_arg7) = W c (Proc.devRef .tc main_arg7) := by
  eval_after [KerLayers.KL4, KerLayers.Rg8_in1, KerLayers.Rg8_in3, KerLayers.Rg8_ne', KerLayers.H8, Cert.Kernel.Gen.hostOps8]

theorem keep4_a8 (W : KerLayers.Fam F) (c : Dev nD) :
    KerLayers.KL4 W c (Proc.devRef .tc main_arg8) = W c (Proc.devRef .tc main_arg8) := by
  eval_after [KerLayers.KL4, KerLayers.Rg8_in1, KerLayers.Rg8_in3, KerLayers.Rg8_ne', KerLayers.H8, Cert.Kernel.Gen.hostOps8]

theorem keep4_a9 (W : KerLayers.Fam F) (c : Dev nD) :
    KerLayers.KL4 W c (Proc.devRef .tc main_arg9) = W c (Proc.devRef .tc main_arg9) := by
  eval_after [KerLayers.KL4, KerLayers.Rg8_in1, KerLayers.Rg8_in3, KerLayers.Rg8_ne', KerLayers.H8, Cert.Kernel.Gen.hostOps8]

theorem keep4_a10 (W : KerLayers.Fam F) (c : Dev nD) :
    KerLayers.KL4 W c (Proc.devRef .tc main_arg10) = W c (Proc.devRef .tc main_arg10) := by
  eval_after [KerLayers.KL4, KerLayers.Rg8_in1, KerLayers.Rg8_in3, KerLayers.Rg8_ne', KerLayers.H8, Cert.Kernel.Gen.hostOps8]

theorem keep4_a11 (W : KerLayers.Fam F) (c : Dev nD) :
    KerLayers.KL4 W c (Proc.devRef .tc main_arg11) = W c (Proc.devRef .tc main_arg11) := by
  eval_after [KerLayers.KL4, KerLayers.Rg8_in1, KerLayers.Rg8_in3, KerLayers.Rg8_ne', KerLayers.H8, Cert.Kernel.Gen.hostOps8]
  rw [KerLayers.Rg8_in1]
  eval_after [KerLayers.H8, Cert.Kernel.Gen.hostOps8]

theorem keep4_a12 (W : KerLayers.Fam F) (c : Dev nD) :
    KerLayers.KL4 W c (Proc.devRef .tc main_arg12) = W c (Proc.devRef .tc main_arg12) := by
  eval_after [KerLayers.KL4, KerLayers.Rg8_in1, KerLayers.Rg8_in3, KerLayers.Rg8_ne', KerLayers.H8, Cert.Kernel.Gen.hostOps8]

theorem keep4_a13 (W : KerLayers.Fam F) (c : Dev nD) :
    KerLayers.KL4 W c (Proc.devRef .tc main_arg13) = W c (Proc.devRef .tc main_arg13) := by
  eval_after [KerLayers.KL4, KerLayers.Rg8_in1, KerLayers.Rg8_in3, KerLayers.Rg8_ne', KerLayers.H8, Cert.Kernel.Gen.hostOps8]
  rw [KerLayers.Rg8_in3]
  eval_after [KerLayers.H8, Cert.Kernel.Gen.hostOps8]

theorem keep4_a14 (W : KerLayers.Fam F) (c : Dev nD) :
    KerLayers.KL4 W c (Proc.devRef .tc main_arg14) = W c (Proc.devRef .tc main_arg14) := by
  eval_after [KerLayers.KL4, KerLayers.Rg8_in1, KerLayers.Rg8_in3, KerLayers.Rg8_ne', KerLayers.H8, Cert.Kernel.Gen.hostOps8]

theorem keep4_a15 (W : KerLayers.Fam F) (c : Dev nD) :
    KerLayers.KL4 W c (Proc.devRef .tc main_arg15) = W c (Proc.devRef .tc main_arg15) := by
  eval_after [KerLayers.KL4, KerLayers.Rg8_in1, KerLayers.Rg8_in3, KerLayers.Rg8_ne', KerLayers.H8, Cert.Kernel.Gen.hostOps8]

theorem keep4_a16 (W : KerLayers.Fam F) (c : Dev nD) :
    KerLayers.KL4 W c (Proc.devRef .tc main_arg16) = W c (Proc.devRef .tc main_arg16) := by
  eval_after [KerLayers.KL4, KerLayers.Rg8_in1, KerLayers.Rg8_in3, KerLayers.Rg8_ne', KerLayers.H8, Cert.Kernel.Gen.hostOps8]

theorem keep4_a17 (W : KerLayers.Fam F) (c : Dev nD) :
    KerLayers.KL4 W c (Proc.devRef .tc main_arg17) = W c (Proc.devRef .tc main_arg17) := by
  eval_after [KerLayers.KL4, KerLayers.Rg8_in1, KerLayers.Rg8_in3, KerLayers.Rg8_ne', KerLayers.H8, Cert.Kernel.Gen.hostOps8]

theorem keep4_a18 (W : KerLayers.Fam F) (c : Dev nD) :
    KerLayers.KL4 W c (Proc.devRef .tc main_arg18) = W c (Proc.devRef .tc main_arg18) := by
  eval_after [KerLayers.KL4, KerLayers.Rg8_in1, KerLayers.Rg8_in3, KerLayers.Rg8_ne', KerLayers.H8, Cert.Kernel.Gen.hostOps8]

theorem keep4_a19 (W : KerLayers.Fam F) (c : Dev nD) :
    KerLayers.KL4 W c (Proc.devRef .tc main_arg19) = W c (Proc.devRef .tc main_arg19) := by
  eval_after [KerLayers.KL4, KerLayers.Rg8_in1, KerLayers.Rg8_in3, KerLayers.Rg8_ne', KerLayers.H8, Cert.Kernel.Gen.hostOps8]

theorem keep4_a20 (W : KerLayers.Fam F) (c : Dev nD) :
    KerLayers.KL4 W c (Proc.devRef .tc main_arg20) = W c (Proc.devRef .tc main_arg20) := by
  eval_after [KerLayers.KL4, KerLayers.Rg8_in1, KerLayers.Rg8_in3, KerLayers.Rg8_ne', KerLayers.H8, Cert.Kernel.Gen.hostOps8]

theorem keep4_a21 (W : KerLayers.Fam F) (c : Dev nD) :
    KerLayers.KL4 W c (Proc.devRef .tc main_arg21) = W c (Proc.devRef .tc main_arg21) := by
  eval_after [KerLayers.KL4, KerLayers.Rg8_in1, KerLayers.Rg8_in3, KerLayers.Rg8_ne', KerLayers.H8, Cert.Kernel.Gen.hostOps8]

end Cert.Kernel.Keep

end
-- ==== Proof.KRun.lean ====
/-
  The program's run with its arguments kept, at any float instance: every weakly fair execution of @main
  terminates, nothing faulting, the argument arrays as launched: no stretch and no region
  writes an argument, layer by layer. The run is the generated segments' run; the property read off the final state is proved here.
-/
import proofs.«170918_j12352325943916_1_alg».proof.Proof.FrameK
import proofs.«170918_j12352325943916_1_alg».proof.Proof.KLayers
import proofs.«170918_j12352325943916_1_alg».proof.Proof.KeepK0
import proofs.«170918_j12352325943916_1_alg».proof.Proof.KeepK1
import proofs.«170918_j12352325943916_1_alg».proof.Proof.KeepK2
import proofs.«170918_j12352325943916_1_alg».proof.Proof.KeepK3
import proofs.«170918_j12352325943916_1_alg».proof.Proof.KeepK4

set_option maxRecDepth 16384

noncomputable section

namespace Cert.Kernel.KerRun

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Argument 0 ends as launched. -/
theorem W36_arg0 (c : Dev nD) : W36 m ρ c (Proc.devRef .tc main_arg0) = m ((c : Thread nD τ).loc main_arg0) := by
  rw [KerLayers.W36_eq]
  exact (Keep.keep4_a0 _ c).trans ((Keep.keep3_a0 _ c).trans ((Keep.keep2_a0 _ c).trans ((Keep.keep1_a0 _ c).trans (Keep.keep0_a0 _ c))))

/-- Argument 1 ends as launched. -/
theorem W36_arg1 (c : Dev nD) : W36 m ρ c (Proc.devRef .tc main_arg1) = m ((c : Thread nD τ).loc main_arg1) := by
  rw [KerLayers.W36_eq]
  exact (Keep.keep4_a1 _ c).trans ((Keep.keep3_a1 _ c).trans ((Keep.keep2_a1 _ c).trans ((Keep.keep1_a1 _ c).trans (Keep.keep0_a1 _ c))))

/-- Argument 2 ends as launched. -/
theorem W36_arg2 (c : Dev nD) : W36 m ρ c (Proc.devRef .tc main_arg2) = m ((c : Thread nD τ).loc main_arg2) := by
  rw [KerLayers.W36_eq]
  exact (Keep.keep4_a2 _ c).trans ((Keep.keep3_a2 _ c).trans ((Keep.keep2_a2 _ c).trans ((Keep.keep1_a2 _ c).trans (Keep.keep0_a2 _ c))))

/-- Argument 3 ends as launched. -/
theorem W36_arg3 (c : Dev nD) : W36 m ρ c (Proc.devRef .tc main_arg3) = m ((c : Thread nD τ).loc main_arg3) := by
  rw [KerLayers.W36_eq]
  exact (Keep.keep4_a3 _ c).trans ((Keep.keep3_a3 _ c).trans ((Keep.keep2_a3 _ c).trans ((Keep.keep1_a3 _ c).trans (Keep.keep0_a3 _ c))))

/-- Argument 4 ends as launched. -/
theorem W36_arg4 (c : Dev nD) : W36 m ρ c (Proc.devRef .tc main_arg4) = m ((c : Thread nD τ).loc main_arg4) := by
  rw [KerLayers.W36_eq]
  exact (Keep.keep4_a4 _ c).trans ((Keep.keep3_a4 _ c).trans ((Keep.keep2_a4 _ c).trans ((Keep.keep1_a4 _ c).trans (Keep.keep0_a4 _ c))))

/-- Argument 5 ends as launched. -/
theorem W36_arg5 (c : Dev nD) : W36 m ρ c (Proc.devRef .tc main_arg5) = m ((c : Thread nD τ).loc main_arg5) := by
  rw [KerLayers.W36_eq]
  exact (Keep.keep4_a5 _ c).trans ((Keep.keep3_a5 _ c).trans ((Keep.keep2_a5 _ c).trans ((Keep.keep1_a5 _ c).trans (Keep.keep0_a5 _ c))))

/-- Argument 6 ends as launched. -/
theorem W36_arg6 (c : Dev nD) : W36 m ρ c (Proc.devRef .tc main_arg6) = m ((c : Thread nD τ).loc main_arg6) := by
  rw [KerLayers.W36_eq]
  exact (Keep.keep4_a6 _ c).trans ((Keep.keep3_a6 _ c).trans ((Keep.keep2_a6 _ c).trans ((Keep.keep1_a6 _ c).trans (Keep.keep0_a6 _ c))))

/-- Argument 7 ends as launched. -/
theorem W36_arg7 (c : Dev nD) : W36 m ρ c (Proc.devRef .tc main_arg7) = m ((c : Thread nD τ).loc main_arg7) := by
  rw [KerLayers.W36_eq]
  exact (Keep.keep4_a7 _ c).trans ((Keep.keep3_a7 _ c).trans ((Keep.keep2_a7 _ c).trans ((Keep.keep1_a7 _ c).trans (Keep.keep0_a7 _ c))))

/-- Argument 8 ends as launched. -/
theorem W36_arg8 (c : Dev nD) : W36 m ρ c (Proc.devRef .tc main_arg8) = m ((c : Thread nD τ).loc main_arg8) := by
  rw [KerLayers.W36_eq]
  exact (Keep.keep4_a8 _ c).trans ((Keep.keep3_a8 _ c).trans ((Keep.keep2_a8 _ c).trans ((Keep.keep1_a8 _ c).trans (Keep.keep0_a8 _ c))))

/-- Argument 9 ends as launched. -/
theorem W36_arg9 (c : Dev nD) : W36 m ρ c (Proc.devRef .tc main_arg9) = m ((c : Thread nD τ).loc main_arg9) := by
  rw [KerLayers.W36_eq]
  exact (Keep.keep4_a9 _ c).trans ((Keep.keep3_a9 _ c).trans ((Keep.keep2_a9 _ c).trans ((Keep.keep1_a9 _ c).trans (Keep.keep0_a9 _ c))))

/-- Argument 10 ends as launched. -/
theorem W36_arg10 (c : Dev nD) : W36 m ρ c (Proc.devRef .tc main_arg10) = m ((c : Thread nD τ).loc main_arg10) := by
  rw [KerLayers.W36_eq]
  exact (Keep.keep4_a10 _ c).trans ((Keep.keep3_a10 _ c).trans ((Keep.keep2_a10 _ c).trans ((Keep.keep1_a10 _ c).trans (Keep.keep0_a10 _ c))))

/-- Argument 11 ends as launched. -/
theorem W36_arg11 (c : Dev nD) : W36 m ρ c (Proc.devRef .tc main_arg11) = m ((c : Thread nD τ).loc main_arg11) := by
  rw [KerLayers.W36_eq]
  exact (Keep.keep4_a11 _ c).trans ((Keep.keep3_a11 _ c).trans ((Keep.keep2_a11 _ c).trans ((Keep.keep1_a11 _ c).trans (Keep.keep0_a11 _ c))))

/-- Argument 12 ends as launched. -/
theorem W36_arg12 (c : Dev nD) : W36 m ρ c (Proc.devRef .tc main_arg12) = m ((c : Thread nD τ).loc main_arg12) := by
  rw [KerLayers.W36_eq]
  exact (Keep.keep4_a12 _ c).trans ((Keep.keep3_a12 _ c).trans ((Keep.keep2_a12 _ c).trans ((Keep.keep1_a12 _ c).trans (Keep.keep0_a12 _ c))))

/-- Argument 13 ends as launched. -/
theorem W36_arg13 (c : Dev nD) : W36 m ρ c (Proc.devRef .tc main_arg13) = m ((c : Thread nD τ).loc main_arg13) := by
  rw [KerLayers.W36_eq]
  exact (Keep.keep4_a13 _ c).trans ((Keep.keep3_a13 _ c).trans ((Keep.keep2_a13 _ c).trans ((Keep.keep1_a13 _ c).trans (Keep.keep0_a13 _ c))))

/-- Argument 14 ends as launched. -/
theorem W36_arg14 (c : Dev nD) : W36 m ρ c (Proc.devRef .tc main_arg14) = m ((c : Thread nD τ).loc main_arg14) := by
  rw [KerLayers.W36_eq]
  exact (Keep.keep4_a14 _ c).trans ((Keep.keep3_a14 _ c).trans ((Keep.keep2_a14 _ c).trans ((Keep.keep1_a14 _ c).trans (Keep.keep0_a14 _ c))))

/-- Argument 15 ends as launched. -/
theorem W36_arg15 (c : Dev nD) : W36 m ρ c (Proc.devRef .tc main_arg15) = m ((c : Thread nD τ).loc main_arg15) := by
  rw [KerLayers.W36_eq]
  exact (Keep.keep4_a15 _ c).trans ((Keep.keep3_a15 _ c).trans ((Keep.keep2_a15 _ c).trans ((Keep.keep1_a15 _ c).trans (Keep.keep0_a15 _ c))))

/-- Argument 16 ends as launched. -/
theorem W36_arg16 (c : Dev nD) : W36 m ρ c (Proc.devRef .tc main_arg16) = m ((c : Thread nD τ).loc main_arg16) := by
  rw [KerLayers.W36_eq]
  exact (Keep.keep4_a16 _ c).trans ((Keep.keep3_a16 _ c).trans ((Keep.keep2_a16 _ c).trans ((Keep.keep1_a16 _ c).trans (Keep.keep0_a16 _ c))))

/-- Argument 17 ends as launched. -/
theorem W36_arg17 (c : Dev nD) : W36 m ρ c (Proc.devRef .tc main_arg17) = m ((c : Thread nD τ).loc main_arg17) := by
  rw [KerLayers.W36_eq]
  exact (Keep.keep4_a17 _ c).trans ((Keep.keep3_a17 _ c).trans ((Keep.keep2_a17 _ c).trans ((Keep.keep1_a17 _ c).trans (Keep.keep0_a17 _ c))))

/-- Argument 18 ends as launched. -/
theorem W36_arg18 (c : Dev nD) : W36 m ρ c (Proc.devRef .tc main_arg18) = m ((c : Thread nD τ).loc main_arg18) := by
  rw [KerLayers.W36_eq]
  exact (Keep.keep4_a18 _ c).trans ((Keep.keep3_a18 _ c).trans ((Keep.keep2_a18 _ c).trans ((Keep.keep1_a18 _ c).trans (Keep.keep0_a18 _ c))))

/-- Argument 19 ends as launched. -/
theorem W36_arg19 (c : Dev nD) : W36 m ρ c (Proc.devRef .tc main_arg19) = m ((c : Thread nD τ).loc main_arg19) := by
  rw [KerLayers.W36_eq]
  exact (Keep.keep4_a19 _ c).trans ((Keep.keep3_a19 _ c).trans ((Keep.keep2_a19 _ c).trans ((Keep.keep1_a19 _ c).trans (Keep.keep0_a19 _ c))))

/-- Argument 20 ends as launched. -/
theorem W36_arg20 (c : Dev nD) : W36 m ρ c (Proc.devRef .tc main_arg20) = m ((c : Thread nD τ).loc main_arg20) := by
  rw [KerLayers.W36_eq]
  exact (Keep.keep4_a20 _ c).trans ((Keep.keep3_a20 _ c).trans ((Keep.keep2_a20 _ c).trans ((Keep.keep1_a20 _ c).trans (Keep.keep0_a20 _ c))))

/-- Argument 21 ends as launched. -/
theorem W36_arg21 (c : Dev nD) : W36 m ρ c (Proc.devRef .tc main_arg21) = m ((c : Thread nD τ).loc main_arg21) := by
  rw [KerLayers.W36_eq]
  exact (Keep.keep4_a21 _ c).trans ((Keep.keep3_a21 _ c).trans ((Keep.keep2_a21 _ c).trans ((Keep.keep1_a21 _ c).trans (Keep.keep0_a21 _ c))))

set_option backward.isDefEq.respectTransparency.types false in
/-- The run and the arguments unchanged. -/
theorem run_value : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W36 m ρ c b)
    (hfin := fun c s' => by
      iintro ⟨⟨Hh, -⟩, HSI⟩
      unfold StableHlo.held
      imodintro
      iapply (pointsTo_read_all (Pipeline.ucRefs τ sig) (fun b => (((c : Thread nD τ)).1, b)) (W36 m ρ c) s')
      isplitl [Hh] <;> iassumption)
    (hQ := fun s h c =>
      ⟨(h c _ (mem_uc main_arg0 (by decide))).trans (W36_arg0 m ρ c),
       (h c _ (mem_uc main_arg1 (by decide))).trans (W36_arg1 m ρ c),
       (h c _ (mem_uc main_arg2 (by decide))).trans (W36_arg2 m ρ c),
       (h c _ (mem_uc main_arg3 (by decide))).trans (W36_arg3 m ρ c),
       (h c _ (mem_uc main_arg4 (by decide))).trans (W36_arg4 m ρ c),
       (h c _ (mem_uc main_arg5 (by decide))).trans (W36_arg5 m ρ c),
       (h c _ (mem_uc main_arg6 (by decide))).trans (W36_arg6 m ρ c),
       (h c _ (mem_uc main_arg7 (by decide))).trans (W36_arg7 m ρ c),
       (h c _ (mem_uc main_arg8 (by decide))).trans (W36_arg8 m ρ c),
       (h c _ (mem_uc main_arg9 (by decide))).trans (W36_arg9 m ρ c),
       (h c _ (mem_uc main_arg10 (by decide))).trans (W36_arg10 m ρ c),
       (h c _ (mem_uc main_arg11 (by decide))).trans (W36_arg11 m ρ c),
       (h c _ (mem_uc main_arg12 (by decide))).trans (W36_arg12 m ρ c),
       (h c _ (mem_uc main_arg13 (by decide))).trans (W36_arg13 m ρ c),
       (h c _ (mem_uc main_arg14 (by decide))).trans (W36_arg14 m ρ c),
       (h c _ (mem_uc main_arg15 (by decide))).trans (W36_arg15 m ρ c),
       (h c _ (mem_uc main_arg16 (by decide))).trans (W36_arg16 m ρ c),
       (h c _ (mem_uc main_arg17 (by decide))).trans (W36_arg17 m ρ c),
       (h c _ (mem_uc main_arg18 (by decide))).trans (W36_arg18 m ρ c),
       (h c _ (mem_uc main_arg19 (by decide))).trans (W36_arg19 m ρ c),
       (h c _ (mem_uc main_arg20 (by decide))).trans (W36_arg20 m ρ c),
       (h c _ (mem_uc main_arg21 (by decide))).trans (W36_arg21 m ρ c)⟩)

end Cert.Kernel.KerRun

end
-- ==== Proof.KerLayers.lean ====
/-
  The program's boundary contents as functions of the contents a stretch starts from, at any float instance.
  Between two regions the program is a stretch of host operations (a fold over the contents); a region replaces each of
  its arrays by what its write-backs leave and keeps every other buffer. Composing the two kinds from the launch
  contents gives the contents at every boundary; here each piece is a function of the contents it starts from, so that a
  layer of the network can be studied from arbitrary contents. A region keeps its input arrays, and every buffer that
  is none of its arrays.
-/
import proofs.«170918_j12352325943916_1_alg».proof.Proof.FrameKI

noncomputable section

namespace Cert.KernelIdeal.KerLayers

open Cert.KernelIdeal Cert.KernelIdeal.Gen Cert.KernelIdeal.GenP
open Idealize.ShloMosaic Idealize.ShloMosaic.TcCoe Idealize.SL.Sem
open Idealize.ShloMosaic.Pipeline (Dat)

variable {F : FTy → Type} [FloatOps F]

/-- Buffer contents, one valuation per core. -/
abbrev Fam (F : FTy → Type) [FloatOps F] := Dev nD → Valuation τ sig (Elt F)

/-- The same contents read at the TensorCore's references. -/
abbrev fv (W : Fam F) : (c : Dev nD) → (b : Ref sig .tc) → Buf (Elt F) ((c : Thread nD τ).loc b) := fun c b => W c b

/-- The host stretch before region 0. -/
def H0 (W : Fam F) : Fam F := fun c => StableHlo.after hostOps0_2 (StableHlo.after hostOps0_1 (StableHlo.after hostOps0 (W c)))

/-- Region 0: its arrays at what the write-backs leave, every other buffer kept. -/
def Rg0 (W : Fam F) : Fam F := fun c =>
  Pipeline.withArrays spec0 c (W c) fun w => (dat0 (F := F) (fv W) c).arrAt w cfg0.N

set_option backward.isDefEq.respectTransparency.types false in
/-- Region 0's input array 0 is kept. -/
theorem Rg0_in (W : Fam F) (c : Dev nD) :
    Rg0 W c (Proc.devRef .tc main_arg0) = W c (Proc.devRef .tc main_arg0) :=
  (Pipeline.withArrays_arr spec0 launch0.win.arr_inj c _ _ 0).trans (((dat0 (F := F) (fv W) c).arrAt_in 0 rfl _).trans (A_eq0 (fv W) c 0))

/-- A buffer that is none of region 0's arrays is kept. -/
theorem Rg0_ne (W : Fam F) (c : Dev nD) (b : Ref sig .tc) (hb : ∀ w, Pipeline.arrRef spec0 w ≠ b) :
    Rg0 W c (Proc.devRef .tc b) = W c (Proc.devRef .tc b) :=
  Pipeline.withArrays_of_ne spec0 c _ _ b hb

/-- The same, stated for rewriting: the buffer's reference is not part of the pattern. -/
theorem Rg0_ne' (W : Fam F) (c : Dev nD) (b : Ref sig .tc) (hb : ∀ w, Pipeline.arrRef spec0 w ≠ b) :
    Rg0 W c (no_index (Proc.devRef .tc b)) = W c (Proc.devRef .tc b) :=
  Rg0_ne W c b hb

/-- The host stretch before region 1. -/
def H1 (W : Fam F) : Fam F := fun c => StableHlo.after hostOps1_4 (StableHlo.after hostOps1_3 (StableHlo.after hostOps1_2 (StableHlo.after hostOps1_1 (StableHlo.after hostOps1 (W c)))))

/-- Region 1: its arrays at what the write-backs leave, every other buffer kept. -/
def Rg1 (W : Fam F) : Fam F := fun c =>
  Pipeline.withArrays spec1 c (W c) fun w => (dat1 (F := F) (fv W) c).arrAt w cfg1.N

set_option backward.isDefEq.respectTransparency.types false in
/-- Region 1's input array 0 is kept. -/
theorem Rg1_in (W : Fam F) (c : Dev nD) :
    Rg1 W c (Proc.devRef .tc main_v32) = W c (Proc.devRef .tc main_v32) :=
  (Pipeline.withArrays_arr spec1 launch1.win.arr_inj c _ _ 0).trans (((dat1 (F := F) (fv W) c).arrAt_in 0 rfl _).trans (A_eq1 (fv W) c 0))

/-- A buffer that is none of region 1's arrays is kept. -/
theorem Rg1_ne (W : Fam F) (c : Dev nD) (b : Ref sig .tc) (hb : ∀ w, Pipeline.arrRef spec1 w ≠ b) :
    Rg1 W c (Proc.devRef .tc b) = W c (Proc.devRef .tc b) :=
  Pipeline.withArrays_of_ne spec1 c _ _ b hb

/-- The same, stated for rewriting: the buffer's reference is not part of the pattern. -/
theorem Rg1_ne' (W : Fam F) (c : Dev nD) (b : Ref sig .tc) (hb : ∀ w, Pipeline.arrRef spec1 w ≠ b) :
    Rg1 W c (no_index (Proc.devRef .tc b)) = W c (Proc.devRef .tc b) :=
  Rg1_ne W c b hb

/-- The host stretch before region 2. -/
def H2 (W : Fam F) : Fam F := fun c => StableHlo.after hostOps2 (W c)

/-- Region 2: its arrays at what the write-backs leave, every other buffer kept. -/
def Rg2 (W : Fam F) : Fam F := fun c =>
  Pipeline.withArrays spec2 c (W c) fun w => (dat2 (F := F) (fv W) c).arrAt w cfg2.N

set_option backward.isDefEq.respectTransparency.types false in
/-- Region 2's input array 0 is kept. -/
theorem Rg2_in (W : Fam F) (c : Dev nD) :
    Rg2 W c (Proc.devRef .tc main_v112) = W c (Proc.devRef .tc main_v112) :=
  (Pipeline.withArrays_arr spec2 launch2.win.arr_inj c _ _ 0).trans (((dat2 (F := F) (fv W) c).arrAt_in 0 rfl _).trans (A_eq2 (fv W) c 0))

/-- A buffer that is none of region 2's arrays is kept. -/
theorem Rg2_ne (W : Fam F) (c : Dev nD) (b : Ref sig .tc) (hb : ∀ w, Pipeline.arrRef spec2 w ≠ b) :
    Rg2 W c (Proc.devRef .tc b) = W c (Proc.devRef .tc b) :=
  Pipeline.withArrays_of_ne spec2 c _ _ b hb

/-- The same, stated for rewriting: the buffer's reference is not part of the pattern. -/
theorem Rg2_ne' (W : Fam F) (c : Dev nD) (b : Ref sig .tc) (hb : ∀ w, Pipeline.arrRef spec2 w ≠ b) :
    Rg2 W c (no_index (Proc.devRef .tc b)) = W c (Proc.devRef .tc b) :=
  Rg2_ne W c b hb

/-- The host stretch before region 3. -/
def H3 (W : Fam F) : Fam F := fun c => StableHlo.after hostOps3_4 (StableHlo.after hostOps3_3 (StableHlo.after hostOps3_2 (StableHlo.after hostOps3_1 (StableHlo.after hostOps3 (W c)))))

/-- Region 3: its arrays at what the write-backs leave, every other buffer kept. -/
def Rg3 (W : Fam F) : Fam F := fun c =>
  Pipeline.withArrays spec3 c (W c) fun w => (dat3 (F := F) (fv W) c).arrAt w cfg3.N

set_option backward.isDefEq.respectTransparency.types false in
/-- Region 3's input array 0 is kept. -/
theorem Rg3_in (W : Fam F) (c : Dev nD) :
    Rg3 W c (Proc.devRef .tc main_v134) = W c (Proc.devRef .tc main_v134) :=
  (Pipeline.withArrays_arr spec3 launch3.win.arr_inj c _ _ 0).trans (((dat3 (F := F) (fv W) c).arrAt_in 0 rfl _).trans (A_eq3 (fv W) c 0))

/-- A buffer that is none of region 3's arrays is kept. -/
theorem Rg3_ne (W : Fam F) (c : Dev nD) (b : Ref sig .tc) (hb : ∀ w, Pipeline.arrRef spec3 w ≠ b) :
    Rg3 W c (Proc.devRef .tc b) = W c (Proc.devRef .tc b) :=
  Pipeline.withArrays_of_ne spec3 c _ _ b hb

/-- The same, stated for rewriting: the buffer's reference is not part of the pattern. -/
theorem Rg3_ne' (W : Fam F) (c : Dev nD) (b : Ref sig .tc) (hb : ∀ w, Pipeline.arrRef spec3 w ≠ b) :
    Rg3 W c (no_index (Proc.devRef .tc b)) = W c (Proc.devRef .tc b) :=
  Rg3_ne W c b hb

/-- The host stretch before region 4. -/
def H4 (W : Fam F) : Fam F := fun c => StableHlo.after hostOps4 (W c)

/-- Region 4: its arrays at what the write-backs leave, every other buffer kept. -/
def Rg4 (W : Fam F) : Fam F := fun c =>
  Pipeline.withArrays spec4 c (W c) fun w => (dat4 (F := F) (fv W) c).arrAt w cfg4.N

set_option backward.isDefEq.respectTransparency.types false in
/-- Region 4's input array 0 is kept. -/
theorem Rg4_in (W : Fam F) (c : Dev nD) :
    Rg4 W c (Proc.devRef .tc main_v214) = W c (Proc.devRef .tc main_v214) :=
  (Pipeline.withArrays_arr spec4 launch4.win.arr_inj c _ _ 0).trans (((dat4 (F := F) (fv W) c).arrAt_in 0 rfl _).trans (A_eq4 (fv W) c 0))

/-- A buffer that is none of region 4's arrays is kept. -/
theorem Rg4_ne (W : Fam F) (c : Dev nD) (b : Ref sig .tc) (hb : ∀ w, Pipeline.arrRef spec4 w ≠ b) :
    Rg4 W c (Proc.devRef .tc b) = W c (Proc.devRef .tc b) :=
  Pipeline.withArrays_of_ne spec4 c _ _ b hb

/-- The same, stated for rewriting: the buffer's reference is not part of the pattern. -/
theorem Rg4_ne' (W : Fam F) (c : Dev nD) (b : Ref sig .tc) (hb : ∀ w, Pipeline.arrRef spec4 w ≠ b) :
    Rg4 W c (no_index (Proc.devRef .tc b)) = W c (Proc.devRef .tc b) :=
  Rg4_ne W c b hb

/-- The host stretch before region 5. -/
def H5 (W : Fam F) : Fam F := fun c => StableHlo.after hostOps5_4 (StableHlo.after hostOps5_3 (StableHlo.after hostOps5_2 (StableHlo.after hostOps5_1 (StableHlo.after hostOps5 (W c)))))

/-- Region 5: its arrays at what the write-backs leave, every other buffer kept. -/
def Rg5 (W : Fam F) : Fam F := fun c =>
  Pipeline.withArrays spec5 c (W c) fun w => (dat5 (F := F) (fv W) c).arrAt w cfg5.N

set_option backward.isDefEq.respectTransparency.types false in
/-- Region 5's input array 0 is kept. -/
theorem Rg5_in (W : Fam F) (c : Dev nD) :
    Rg5 W c (Proc.devRef .tc main_v236) = W c (Proc.devRef .tc main_v236) :=
  (Pipeline.withArrays_arr spec5 launch5.win.arr_inj c _ _ 0).trans (((dat5 (F := F) (fv W) c).arrAt_in 0 rfl _).trans (A_eq5 (fv W) c 0))

/-- A buffer that is none of region 5's arrays is kept. -/
theorem Rg5_ne (W : Fam F) (c : Dev nD) (b : Ref sig .tc) (hb : ∀ w, Pipeline.arrRef spec5 w ≠ b) :
    Rg5 W c (Proc.devRef .tc b) = W c (Proc.devRef .tc b) :=
  Pipeline.withArrays_of_ne spec5 c _ _ b hb

/-- The same, stated for rewriting: the buffer's reference is not part of the pattern. -/
theorem Rg5_ne' (W : Fam F) (c : Dev nD) (b : Ref sig .tc) (hb : ∀ w, Pipeline.arrRef spec5 w ≠ b) :
    Rg5 W c (no_index (Proc.devRef .tc b)) = W c (Proc.devRef .tc b) :=
  Rg5_ne W c b hb

/-- The host stretch before region 6. -/
def H6 (W : Fam F) : Fam F := fun c => StableHlo.after hostOps6 (W c)

/-- Region 6: its arrays at what the write-backs leave, every other buffer kept. -/
def Rg6 (W : Fam F) : Fam F := fun c =>
  Pipeline.withArrays spec6 c (W c) fun w => (dat6 (F := F) (fv W) c).arrAt w cfg6.N

set_option backward.isDefEq.respectTransparency.types false in
/-- Region 6's input array 0 is kept. -/
theorem Rg6_in (W : Fam F) (c : Dev nD) :
    Rg6 W c (Proc.devRef .tc main_v316) = W c (Proc.devRef .tc main_v316) :=
  (Pipeline.withArrays_arr spec6 launch6.win.arr_inj c _ _ 0).trans (((dat6 (F := F) (fv W) c).arrAt_in 0 rfl _).trans (A_eq6 (fv W) c 0))

/-- A buffer that is none of region 6's arrays is kept. -/
theorem Rg6_ne (W : Fam F) (c : Dev nD) (b : Ref sig .tc) (hb : ∀ w, Pipeline.arrRef spec6 w ≠ b) :
    Rg6 W c (Proc.devRef .tc b) = W c (Proc.devRef .tc b) :=
  Pipeline.withArrays_of_ne spec6 c _ _ b hb

/-- The same, stated for rewriting: the buffer's reference is not part of the pattern. -/
theorem Rg6_ne' (W : Fam F) (c : Dev nD) (b : Ref sig .tc) (hb : ∀ w, Pipeline.arrRef spec6 w ≠ b) :
    Rg6 W c (no_index (Proc.devRef .tc b)) = W c (Proc.devRef .tc b) :=
  Rg6_ne W c b hb

/-- The host stretch before region 7. -/
def H7 (W : Fam F) : Fam F := fun c => StableHlo.after hostOps7_4 (StableHlo.after hostOps7_3 (StableHlo.after hostOps7_2 (StableHlo.after hostOps7_1 (StableHlo.after hostOps7 (W c)))))

/-- Region 7: its arrays at what the write-backs leave, every other buffer kept. -/
def Rg7 (W : Fam F) : Fam F := fun c =>
  Pipeline.withArrays spec7 c (W c) fun w => (dat7 (F := F) (fv W) c).arrAt w cfg7.N

set_option backward.isDefEq.respectTransparency.types false in
/-- Region 7's input array 0 is kept. -/
theorem Rg7_in (W : Fam F) (c : Dev nD) :
    Rg7 W c (Proc.devRef .tc main_v338) = W c (Proc.devRef .tc main_v338) :=
  (Pipeline.withArrays_arr spec7 launch7.win.arr_inj c _ _ 0).trans (((dat7 (F := F) (fv W) c).arrAt_in 0 rfl _).trans (A_eq7 (fv W) c 0))

/-- A buffer that is none of region 7's arrays is kept. -/
theorem Rg7_ne (W : Fam F) (c : Dev nD) (b : Ref sig .tc) (hb : ∀ w, Pipeline.arrRef spec7 w ≠ b) :
    Rg7 W c (Proc.devRef .tc b) = W c (Proc.devRef .tc b) :=
  Pipeline.withArrays_of_ne spec7 c _ _ b hb

/-- The same, stated for rewriting: the buffer's reference is not part of the pattern. -/
theorem Rg7_ne' (W : Fam F) (c : Dev nD) (b : Ref sig .tc) (hb : ∀ w, Pipeline.arrRef spec7 w ≠ b) :
    Rg7 W c (no_index (Proc.devRef .tc b)) = W c (Proc.devRef .tc b) :=
  Rg7_ne W c b hb

/-- The host stretch before region 8. -/
def H8 (W : Fam F) : Fam F := fun c => StableHlo.after hostOps8 (W c)

/-- Region 8: its arrays at what the write-backs leave, every other buffer kept. -/
def Rg8 (W : Fam F) : Fam F := fun c =>
  Pipeline.withArrays spec8 c (W c) fun w => (dat8 (F := F) (fv W) c).arrAt w cfg8.N

set_option backward.isDefEq.respectTransparency.types false in
/-- Region 8's input array 0 is kept. -/
theorem Rg8_in (W : Fam F) (c : Dev nD) :
    Rg8 W c (Proc.devRef .tc main_v440) = W c (Proc.devRef .tc main_v440) :=
  (Pipeline.withArrays_arr spec8 launch8.win.arr_inj c _ _ 0).trans (((dat8 (F := F) (fv W) c).arrAt_in 0 rfl _).trans (A_eq8 (fv W) c 0))

set_option backward.isDefEq.respectTransparency.types false in
/-- Region 8's input array 1 is kept. -/
theorem Rg8_in1 (W : Fam F) (c : Dev nD) :
    Rg8 W c (Proc.devRef .tc main_arg11) = W c (Proc.devRef .tc main_arg11) :=
  (Pipeline.withArrays_arr spec8 launch8.win.arr_inj c _ _ 1).trans (((dat8 (F := F) (fv W) c).arrAt_in 1 rfl _).trans (A_eq8 (fv W) c 1))

set_option backward.isDefEq.respectTransparency.types false in
/-- Region 8's input array 3 is kept. -/
theorem Rg8_in3 (W : Fam F) (c : Dev nD) :
    Rg8 W c (Proc.devRef .tc main_arg13) = W c (Proc.devRef .tc main_arg13) :=
  (Pipeline.withArrays_arr spec8 launch8.win.arr_inj c _ _ 3).trans (((dat8 (F := F) (fv W) c).arrAt_in 3 rfl _).trans (A_eq8 (fv W) c 3))

/-- A buffer that is none of region 8's arrays is kept. -/
theorem Rg8_ne (W : Fam F) (c : Dev nD) (b : Ref sig .tc) (hb : ∀ w, Pipeline.arrRef spec8 w ≠ b) :
    Rg8 W c (Proc.devRef .tc b) = W c (Proc.devRef .tc b) :=
  Pipeline.withArrays_of_ne spec8 c _ _ b hb

/-- The same, stated for rewriting: the buffer's reference is not part of the pattern. -/
theorem Rg8_ne' (W : Fam F) (c : Dev nD) (b : Ref sig .tc) (hb : ∀ w, Pipeline.arrRef spec8 w ≠ b) :
    Rg8 W c (no_index (Proc.devRef .tc b)) = W c (Proc.devRef .tc b) :=
  Rg8_ne W c b hb

/-! ## The layers -/

/-- Layer 0: the stretch, the linear region, the stretch, the normalise-combine region. -/
def KL0 (W : Fam F) : Fam F := Rg1 (H1 (Rg0 (H0 W)))

/-- Layer 1: the stretch, the linear region, the stretch, the normalise-combine region. -/
def KL1 (W : Fam F) : Fam F := Rg3 (H3 (Rg2 (H2 W)))

/-- Layer 2: the stretch, the linear region, the stretch, the normalise-combine region. -/
def KL2 (W : Fam F) : Fam F := Rg5 (H5 (Rg4 (H4 W)))

/-- Layer 3: the stretch, the linear region, the stretch, the normalise-combine region. -/
def KL3 (W : Fam F) : Fam F := Rg7 (H7 (Rg6 (H6 W)))

/-- The head: the stretch and the last region. -/
def KL4 (W : Fam F) : Fam F := Rg8 (H8 W)

/-- The contents at the last boundary are the five pieces composed from the launch contents. -/
theorem W36_eq (m : (ℓ : Loc nD τ sig) → Buf (Elt F) ℓ) (ρ : Dev nD → PrngReg) :
    W36 (F := F) m ρ = KL4 (KL3 (KL2 (KL1 (KL0 (W0 (F := F) m ρ))))) := by
  funext c
  rfl

end Cert.KernelIdeal.KerLayers

end
-- ==== Proof.KeepKI0.lean ====
/-
  Layer 0 of the program writes none of the argument arrays: read after it, each holds what it held before
  (no host operation of its stretches writes it, and it is no array of its regions, or an input array they keep).
-/
import proofs.«170918_j12352325943916_1_alg».proof.Proof.KerLayers
import proofs.«170918_j12352325943916_1_alg».proof.Proof.EvalAfter

set_option maxRecDepth 16384
set_option maxHeartbeats 2000000

noncomputable section

namespace Cert.KernelIdeal.Keep

open Idealize.ShloMosaic Idealize.ShloMosaic.TcCoe Idealize.SL.Sem Idealize.ShloMosaic.StableHlo Cert.Tac
open Cert.KernelIdeal

variable {F : FTy → Type} [FloatOps F]

theorem keep0_a0 (W : KerLayers.Fam F) (c : Dev nD) :
    KerLayers.KL0 W c (Proc.devRef .tc main_arg0) = W c (Proc.devRef .tc main_arg0) := by
  eval_after [KerLayers.KL0, KerLayers.Rg0_in, KerLayers.Rg0_ne', KerLayers.Rg1_ne', KerLayers.H0, KerLayers.H1, Cert.KernelIdeal.Gen.hostOps0, Cert.KernelIdeal.Gen.hostOps0_1, Cert.KernelIdeal.Gen.hostOps0_2, Cert.KernelIdeal.Gen.hostOps1, Cert.KernelIdeal.Gen.hostOps1_1, Cert.KernelIdeal.Gen.hostOps1_2, Cert.KernelIdeal.Gen.hostOps1_3, Cert.KernelIdeal.Gen.hostOps1_4]
  rw [KerLayers.Rg0_in]
  eval_after [KerLayers.H0, Cert.KernelIdeal.Gen.hostOps0, Cert.KernelIdeal.Gen.hostOps0_1, Cert.KernelIdeal.Gen.hostOps0_2]

theorem keep0_a1 (W : KerLayers.Fam F) (c : Dev nD) :
    KerLayers.KL0 W c (Proc.devRef .tc main_arg1) = W c (Proc.devRef .tc main_arg1) := by
  eval_after [KerLayers.KL0, KerLayers.Rg0_in, KerLayers.Rg0_ne', KerLayers.Rg1_ne', KerLayers.H0, KerLayers.H1, Cert.KernelIdeal.Gen.hostOps0, Cert.KernelIdeal.Gen.hostOps0_1, Cert.KernelIdeal.Gen.hostOps0_2, Cert.KernelIdeal.Gen.hostOps1, Cert.KernelIdeal.Gen.hostOps1_1, Cert.KernelIdeal.Gen.hostOps1_2, Cert.KernelIdeal.Gen.hostOps1_3, Cert.KernelIdeal.Gen.hostOps1_4]

theorem keep0_a2 (W : KerLayers.Fam F) (c : Dev nD) :
    KerLayers.KL0 W c (Proc.devRef .tc main_arg2) = W c (Proc.devRef .tc main_arg2) := by
  eval_after [KerLayers.KL0, KerLayers.Rg0_in, KerLayers.Rg0_ne', KerLayers.Rg1_ne', KerLayers.H0, KerLayers.H1, Cert.KernelIdeal.Gen.hostOps0, Cert.KernelIdeal.Gen.hostOps0_1, Cert.KernelIdeal.Gen.hostOps0_2, Cert.KernelIdeal.Gen.hostOps1, Cert.KernelIdeal.Gen.hostOps1_1, Cert.KernelIdeal.Gen.hostOps1_2, Cert.KernelIdeal.Gen.hostOps1_3, Cert.KernelIdeal.Gen.hostOps1_4]

theorem keep0_a3 (W : KerLayers.Fam F) (c : Dev nD) :
    KerLayers.KL0 W c (Proc.devRef .tc main_arg3) = W c (Proc.devRef .tc main_arg3) := by
  eval_after [KerLayers.KL0, KerLayers.Rg0_in, KerLayers.Rg0_ne', KerLayers.Rg1_ne', KerLayers.H0, KerLayers.H1, Cert.KernelIdeal.Gen.hostOps0, Cert.KernelIdeal.Gen.hostOps0_1, Cert.KernelIdeal.Gen.hostOps0_2, Cert.KernelIdeal.Gen.hostOps1, Cert.KernelIdeal.Gen.hostOps1_1, Cert.KernelIdeal.Gen.hostOps1_2, Cert.KernelIdeal.Gen.hostOps1_3, Cert.KernelIdeal.Gen.hostOps1_4]

theorem keep0_a4 (W : KerLayers.Fam F) (c : Dev nD) :
    KerLayers.KL0 W c (Proc.devRef .tc main_arg4) = W c (Proc.devRef .tc main_arg4) := by
  eval_after [KerLayers.KL0, KerLayers.Rg0_in, KerLayers.Rg0_ne', KerLayers.Rg1_ne', KerLayers.H0, KerLayers.H1, Cert.KernelIdeal.Gen.hostOps0, Cert.KernelIdeal.Gen.hostOps0_1, Cert.KernelIdeal.Gen.hostOps0_2, Cert.KernelIdeal.Gen.hostOps1, Cert.KernelIdeal.Gen.hostOps1_1, Cert.KernelIdeal.Gen.hostOps1_2, Cert.KernelIdeal.Gen.hostOps1_3, Cert.KernelIdeal.Gen.hostOps1_4]

theorem keep0_a5 (W : KerLayers.Fam F) (c : Dev nD) :
    KerLayers.KL0 W c (Proc.devRef .tc main_arg5) = W c (Proc.devRef .tc main_arg5) := by
  eval_after [KerLayers.KL0, KerLayers.Rg0_in, KerLayers.Rg0_ne', KerLayers.Rg1_ne', KerLayers.H0, KerLayers.H1, Cert.KernelIdeal.Gen.hostOps0, Cert.KernelIdeal.Gen.hostOps0_1, Cert.KernelIdeal.Gen.hostOps0_2, Cert.KernelIdeal.Gen.hostOps1, Cert.KernelIdeal.Gen.hostOps1_1, Cert.KernelIdeal.Gen.hostOps1_2, Cert.KernelIdeal.Gen.hostOps1_3, Cert.KernelIdeal.Gen.hostOps1_4]

theorem keep0_a6 (W : KerLayers.Fam F) (c : Dev nD) :
    KerLayers.KL0 W c (Proc.devRef .tc main_arg6) = W c (Proc.devRef .tc main_arg6) := by
  eval_after [KerLayers.KL0, KerLayers.Rg0_in, KerLayers.Rg0_ne', KerLayers.Rg1_ne', KerLayers.H0, KerLayers.H1, Cert.KernelIdeal.Gen.hostOps0, Cert.KernelIdeal.Gen.hostOps0_1, Cert.KernelIdeal.Gen.hostOps0_2, Cert.KernelIdeal.Gen.hostOps1, Cert.KernelIdeal.Gen.hostOps1_1, Cert.KernelIdeal.Gen.hostOps1_2, Cert.KernelIdeal.Gen.hostOps1_3, Cert.KernelIdeal.Gen.hostOps1_4]

theorem keep0_a7 (W : KerLayers.Fam F) (c : Dev nD) :
    KerLayers.KL0 W c (Proc.devRef .tc main_arg7) = W c (Proc.devRef .tc main_arg7) := by
  eval_after [KerLayers.KL0, KerLayers.Rg0_in, KerLayers.Rg0_ne', KerLayers.Rg1_ne', KerLayers.H0, KerLayers.H1, Cert.KernelIdeal.Gen.hostOps0, Cert.KernelIdeal.Gen.hostOps0_1, Cert.KernelIdeal.Gen.hostOps0_2, Cert.KernelIdeal.Gen.hostOps1, Cert.KernelIdeal.Gen.hostOps1_1, Cert.KernelIdeal.Gen.hostOps1_2, Cert.KernelIdeal.Gen.hostOps1_3, Cert.KernelIdeal.Gen.hostOps1_4]

theorem keep0_a8 (W : KerLayers.Fam F) (c : Dev nD) :
    KerLayers.KL0 W c (Proc.devRef .tc main_arg8) = W c (Proc.devRef .tc main_arg8) := by
  eval_after [KerLayers.KL0, KerLayers.Rg0_in, KerLayers.Rg0_ne', KerLayers.Rg1_ne', KerLayers.H0, KerLayers.H1, Cert.KernelIdeal.Gen.hostOps0, Cert.KernelIdeal.Gen.hostOps0_1, Cert.KernelIdeal.Gen.hostOps0_2, Cert.KernelIdeal.Gen.hostOps1, Cert.KernelIdeal.Gen.hostOps1_1, Cert.KernelIdeal.Gen.hostOps1_2, Cert.KernelIdeal.Gen.hostOps1_3, Cert.KernelIdeal.Gen.hostOps1_4]

theorem keep0_a9 (W : KerLayers.Fam F) (c : Dev nD) :
    KerLayers.KL0 W c (Proc.devRef .tc main_arg9) = W c (Proc.devRef .tc main_arg9) := by
  eval_after [KerLayers.KL0, KerLayers.Rg0_in, KerLayers.Rg0_ne', KerLayers.Rg1_ne', KerLayers.H0, KerLayers.H1, Cert.KernelIdeal.Gen.hostOps0, Cert.KernelIdeal.Gen.hostOps0_1, Cert.KernelIdeal.Gen.hostOps0_2, Cert.KernelIdeal.Gen.hostOps1, Cert.KernelIdeal.Gen.hostOps1_1, Cert.KernelIdeal.Gen.hostOps1_2, Cert.KernelIdeal.Gen.hostOps1_3, Cert.KernelIdeal.Gen.hostOps1_4]

theorem keep0_a10 (W : KerLayers.Fam F) (c : Dev nD) :
    KerLayers.KL0 W c (Proc.devRef .tc main_arg10) = W c (Proc.devRef .tc main_arg10) := by
  eval_after [KerLayers.KL0, KerLayers.Rg0_in, KerLayers.Rg0_ne', KerLayers.Rg1_ne', KerLayers.H0, KerLayers.H1, Cert.KernelIdeal.Gen.hostOps0, Cert.KernelIdeal.Gen.hostOps0_1, Cert.KernelIdeal.Gen.hostOps0_2, Cert.KernelIdeal.Gen.hostOps1, Cert.KernelIdeal.Gen.hostOps1_1, Cert.KernelIdeal.Gen.hostOps1_2, Cert.KernelIdeal.Gen.hostOps1_3, Cert.KernelIdeal.Gen.hostOps1_4]

theorem keep0_a11 (W : KerLayers.Fam F) (c : Dev nD) :
    KerLayers.KL0 W c (Proc.devRef .tc main_arg11) = W c (Proc.devRef .tc main_arg11) := by
  eval_after [KerLayers.KL0, KerLayers.Rg0_in, KerLayers.Rg0_ne', KerLayers.Rg1_ne', KerLayers.H0, KerLayers.H1, Cert.KernelIdeal.Gen.hostOps0, Cert.KernelIdeal.Gen.hostOps0_1, Cert.KernelIdeal.Gen.hostOps0_2, Cert.KernelIdeal.Gen.hostOps1, Cert.KernelIdeal.Gen.hostOps1_1, Cert.KernelIdeal.Gen.hostOps1_2, Cert.KernelIdeal.Gen.hostOps1_3, Cert.KernelIdeal.Gen.hostOps1_4]

theorem keep0_a12 (W : KerLayers.Fam F) (c : Dev nD) :
    KerLayers.KL0 W c (Proc.devRef .tc main_arg12) = W c (Proc.devRef .tc main_arg12) := by
  eval_after [KerLayers.KL0, KerLayers.Rg0_in, KerLayers.Rg0_ne', KerLayers.Rg1_ne', KerLayers.H0, KerLayers.H1, Cert.KernelIdeal.Gen.hostOps0, Cert.KernelIdeal.Gen.hostOps0_1, Cert.KernelIdeal.Gen.hostOps0_2, Cert.KernelIdeal.Gen.hostOps1, Cert.KernelIdeal.Gen.hostOps1_1, Cert.KernelIdeal.Gen.hostOps1_2, Cert.KernelIdeal.Gen.hostOps1_3, Cert.KernelIdeal.Gen.hostOps1_4]

theorem keep0_a13 (W : KerLayers.Fam F) (c : Dev nD) :
    KerLayers.KL0 W c (Proc.devRef .tc main_arg13) = W c (Proc.devRef .tc main_arg13) := by
  eval_after [KerLayers.KL0, KerLayers.Rg0_in, KerLayers.Rg0_ne', KerLayers.Rg1_ne', KerLayers.H0, KerLayers.H1, Cert.KernelIdeal.Gen.hostOps0, Cert.KernelIdeal.Gen.hostOps0_1, Cert.KernelIdeal.Gen.hostOps0_2, Cert.KernelIdeal.Gen.hostOps1, Cert.KernelIdeal.Gen.hostOps1_1, Cert.KernelIdeal.Gen.hostOps1_2, Cert.KernelIdeal.Gen.hostOps1_3, Cert.KernelIdeal.Gen.hostOps1_4]

theorem keep0_a14 (W : KerLayers.Fam F) (c : Dev nD) :
    KerLayers.KL0 W c (Proc.devRef .tc main_arg14) = W c (Proc.devRef .tc main_arg14) := by
  eval_after [KerLayers.KL0, KerLayers.Rg0_in, KerLayers.Rg0_ne', KerLayers.Rg1_ne', KerLayers.H0, KerLayers.H1, Cert.KernelIdeal.Gen.hostOps0, Cert.KernelIdeal.Gen.hostOps0_1, Cert.KernelIdeal.Gen.hostOps0_2, Cert.KernelIdeal.Gen.hostOps1, Cert.KernelIdeal.Gen.hostOps1_1, Cert.KernelIdeal.Gen.hostOps1_2, Cert.KernelIdeal.Gen.hostOps1_3, Cert.KernelIdeal.Gen.hostOps1_4]

theorem keep0_a15 (W : KerLayers.Fam F) (c : Dev nD) :
    KerLayers.KL0 W c (Proc.devRef .tc main_arg15) = W c (Proc.devRef .tc main_arg15) := by
  eval_after [KerLayers.KL0, KerLayers.Rg0_in, KerLayers.Rg0_ne', KerLayers.Rg1_ne', KerLayers.H0, KerLayers.H1, Cert.KernelIdeal.Gen.hostOps0, Cert.KernelIdeal.Gen.hostOps0_1, Cert.KernelIdeal.Gen.hostOps0_2, Cert.KernelIdeal.Gen.hostOps1, Cert.KernelIdeal.Gen.hostOps1_1, Cert.KernelIdeal.Gen.hostOps1_2, Cert.KernelIdeal.Gen.hostOps1_3, Cert.KernelIdeal.Gen.hostOps1_4]

theorem keep0_a16 (W : KerLayers.Fam F) (c : Dev nD) :
    KerLayers.KL0 W c (Proc.devRef .tc main_arg16) = W c (Proc.devRef .tc main_arg16) := by
  eval_after [KerLayers.KL0, KerLayers.Rg0_in, KerLayers.Rg0_ne', KerLayers.Rg1_ne', KerLayers.H0, KerLayers.H1, Cert.KernelIdeal.Gen.hostOps0, Cert.KernelIdeal.Gen.hostOps0_1, Cert.KernelIdeal.Gen.hostOps0_2, Cert.KernelIdeal.Gen.hostOps1, Cert.KernelIdeal.Gen.hostOps1_1, Cert.KernelIdeal.Gen.hostOps1_2, Cert.KernelIdeal.Gen.hostOps1_3, Cert.KernelIdeal.Gen.hostOps1_4]

theorem keep0_a17 (W : KerLayers.Fam F) (c : Dev nD) :
    KerLayers.KL0 W c (Proc.devRef .tc main_arg17) = W c (Proc.devRef .tc main_arg17) := by
  eval_after [KerLayers.KL0, KerLayers.Rg0_in, KerLayers.Rg0_ne', KerLayers.Rg1_ne', KerLayers.H0, KerLayers.H1, Cert.KernelIdeal.Gen.hostOps0, Cert.KernelIdeal.Gen.hostOps0_1, Cert.KernelIdeal.Gen.hostOps0_2, Cert.KernelIdeal.Gen.hostOps1, Cert.KernelIdeal.Gen.hostOps1_1, Cert.KernelIdeal.Gen.hostOps1_2, Cert.KernelIdeal.Gen.hostOps1_3, Cert.KernelIdeal.Gen.hostOps1_4]

theorem keep0_a18 (W : KerLayers.Fam F) (c : Dev nD) :
    KerLayers.KL0 W c (Proc.devRef .tc main_arg18) = W c (Proc.devRef .tc main_arg18) := by
  eval_after [KerLayers.KL0, KerLayers.Rg0_in, KerLayers.Rg0_ne', KerLayers.Rg1_ne', KerLayers.H0, KerLayers.H1, Cert.KernelIdeal.Gen.hostOps0, Cert.KernelIdeal.Gen.hostOps0_1, Cert.KernelIdeal.Gen.hostOps0_2, Cert.KernelIdeal.Gen.hostOps1, Cert.KernelIdeal.Gen.hostOps1_1, Cert.KernelIdeal.Gen.hostOps1_2, Cert.KernelIdeal.Gen.hostOps1_3, Cert.KernelIdeal.Gen.hostOps1_4]

theorem keep0_a19 (W : KerLayers.Fam F) (c : Dev nD) :
    KerLayers.KL0 W c (Proc.devRef .tc main_arg19) = W c (Proc.devRef .tc main_arg19) := by
  eval_after [KerLayers.KL0, KerLayers.Rg0_in, KerLayers.Rg0_ne', KerLayers.Rg1_ne', KerLayers.H0, KerLayers.H1, Cert.KernelIdeal.Gen.hostOps0, Cert.KernelIdeal.Gen.hostOps0_1, Cert.KernelIdeal.Gen.hostOps0_2, Cert.KernelIdeal.Gen.hostOps1, Cert.KernelIdeal.Gen.hostOps1_1, Cert.KernelIdeal.Gen.hostOps1_2, Cert.KernelIdeal.Gen.hostOps1_3, Cert.KernelIdeal.Gen.hostOps1_4]

theorem keep0_a20 (W : KerLayers.Fam F) (c : Dev nD) :
    KerLayers.KL0 W c (Proc.devRef .tc main_arg20) = W c (Proc.devRef .tc main_arg20) := by
  eval_after [KerLayers.KL0, KerLayers.Rg0_in, KerLayers.Rg0_ne', KerLayers.Rg1_ne', KerLayers.H0, KerLayers.H1, Cert.KernelIdeal.Gen.hostOps0, Cert.KernelIdeal.Gen.hostOps0_1, Cert.KernelIdeal.Gen.hostOps0_2, Cert.KernelIdeal.Gen.hostOps1, Cert.KernelIdeal.Gen.hostOps1_1, Cert.KernelIdeal.Gen.hostOps1_2, Cert.KernelIdeal.Gen.hostOps1_3, Cert.KernelIdeal.Gen.hostOps1_4]

theorem keep0_a21 (W : KerLayers.Fam F) (c : Dev nD) :
    KerLayers.KL0 W c (Proc.devRef .tc main_arg21) = W c (Proc.devRef .tc main_arg21) := by
  eval_after [KerLayers.KL0, KerLayers.Rg0_in, KerLayers.Rg0_ne', KerLayers.Rg1_ne', KerLayers.H0, KerLayers.H1, Cert.KernelIdeal.Gen.hostOps0, Cert.KernelIdeal.Gen.hostOps0_1, Cert.KernelIdeal.Gen.hostOps0_2, Cert.KernelIdeal.Gen.hostOps1, Cert.KernelIdeal.Gen.hostOps1_1, Cert.KernelIdeal.Gen.hostOps1_2, Cert.KernelIdeal.Gen.hostOps1_3, Cert.KernelIdeal.Gen.hostOps1_4]

end Cert.KernelIdeal.Keep

end
-- ==== Proof.KeepKI1.lean ====
/-
  Layer 1 of the program writes none of the argument arrays and not the table of node ids: read after it, each holds what it held before
  (no host operation of its stretches writes it, and it is no array of its regions, or an input array they keep).
-/
import proofs.«170918_j12352325943916_1_alg».proof.Proof.KerLayers
import proofs.«170918_j12352325943916_1_alg».proof.Proof.EvalAfter

set_option maxRecDepth 16384
set_option maxHeartbeats 2000000

noncomputable section

namespace Cert.KernelIdeal.Keep

open Idealize.ShloMosaic Idealize.ShloMosaic.TcCoe Idealize.SL.Sem Idealize.ShloMosaic.StableHlo Cert.Tac
open Cert.KernelIdeal

variable {F : FTy → Type} [FloatOps F]

theorem keep1_a0 (W : KerLayers.Fam F) (c : Dev nD) :
    KerLayers.KL1 W c (Proc.devRef .tc main_arg0) = W c (Proc.devRef .tc main_arg0) := by
  eval_after [KerLayers.KL1, KerLayers.Rg2_in, KerLayers.Rg2_ne', KerLayers.Rg3_ne', KerLayers.H2, KerLayers.H3, Cert.KernelIdeal.Gen.hostOps2, Cert.KernelIdeal.Gen.hostOps3, Cert.KernelIdeal.Gen.hostOps3_1, Cert.KernelIdeal.Gen.hostOps3_2, Cert.KernelIdeal.Gen.hostOps3_3, Cert.KernelIdeal.Gen.hostOps3_4]

theorem keep1_a1 (W : KerLayers.Fam F) (c : Dev nD) :
    KerLayers.KL1 W c (Proc.devRef .tc main_arg1) = W c (Proc.devRef .tc main_arg1) := by
  eval_after [KerLayers.KL1, KerLayers.Rg2_in, KerLayers.Rg2_ne', KerLayers.Rg3_ne', KerLayers.H2, KerLayers.H3, Cert.KernelIdeal.Gen.hostOps2, Cert.KernelIdeal.Gen.hostOps3, Cert.KernelIdeal.Gen.hostOps3_1, Cert.KernelIdeal.Gen.hostOps3_2, Cert.KernelIdeal.Gen.hostOps3_3, Cert.KernelIdeal.Gen.hostOps3_4]

theorem keep1_a2 (W : KerLayers.Fam F) (c : Dev nD) :
    KerLayers.KL1 W c (Proc.devRef .tc main_arg2) = W c (Proc.devRef .tc main_arg2) := by
  eval_after [KerLayers.KL1, KerLayers.Rg2_in, KerLayers.Rg2_ne', KerLayers.Rg3_ne', KerLayers.H2, KerLayers.H3, Cert.KernelIdeal.Gen.hostOps2, Cert.KernelIdeal.Gen.hostOps3, Cert.KernelIdeal.Gen.hostOps3_1, Cert.KernelIdeal.Gen.hostOps3_2, Cert.KernelIdeal.Gen.hostOps3_3, Cert.KernelIdeal.Gen.hostOps3_4]

theorem keep1_a3 (W : KerLayers.Fam F) (c : Dev nD) :
    KerLayers.KL1 W c (Proc.devRef .tc main_arg3) = W c (Proc.devRef .tc main_arg3) := by
  eval_after [KerLayers.KL1, KerLayers.Rg2_in, KerLayers.Rg2_ne', KerLayers.Rg3_ne', KerLayers.H2, KerLayers.H3, Cert.KernelIdeal.Gen.hostOps2, Cert.KernelIdeal.Gen.hostOps3, Cert.KernelIdeal.Gen.hostOps3_1, Cert.KernelIdeal.Gen.hostOps3_2, Cert.KernelIdeal.Gen.hostOps3_3, Cert.KernelIdeal.Gen.hostOps3_4]

theorem keep1_a4 (W : KerLayers.Fam F) (c : Dev nD) :
    KerLayers.KL1 W c (Proc.devRef .tc main_arg4) = W c (Proc.devRef .tc main_arg4) := by
  eval_after [KerLayers.KL1, KerLayers.Rg2_in, KerLayers.Rg2_ne', KerLayers.Rg3_ne', KerLayers.H2, KerLayers.H3, Cert.KernelIdeal.Gen.hostOps2, Cert.KernelIdeal.Gen.hostOps3, Cert.KernelIdeal.Gen.hostOps3_1, Cert.KernelIdeal.Gen.hostOps3_2, Cert.KernelIdeal.Gen.hostOps3_3, Cert.KernelIdeal.Gen.hostOps3_4]

theorem keep1_a5 (W : KerLayers.Fam F) (c : Dev nD) :
    KerLayers.KL1 W c (Proc.devRef .tc main_arg5) = W c (Proc.devRef .tc main_arg5) := by
  eval_after [KerLayers.KL1, KerLayers.Rg2_in, KerLayers.Rg2_ne', KerLayers.Rg3_ne', KerLayers.H2, KerLayers.H3, Cert.KernelIdeal.Gen.hostOps2, Cert.KernelIdeal.Gen.hostOps3, Cert.KernelIdeal.Gen.hostOps3_1, Cert.KernelIdeal.Gen.hostOps3_2, Cert.KernelIdeal.Gen.hostOps3_3, Cert.KernelIdeal.Gen.hostOps3_4]

theorem keep1_a6 (W : KerLayers.Fam F) (c : Dev nD) :
    KerLayers.KL1 W c (Proc.devRef .tc main_arg6) = W c (Proc.devRef .tc main_arg6) := by
  eval_after [KerLayers.KL1, KerLayers.Rg2_in, KerLayers.Rg2_ne', KerLayers.Rg3_ne', KerLayers.H2, KerLayers.H3, Cert.KernelIdeal.Gen.hostOps2, Cert.KernelIdeal.Gen.hostOps3, Cert.KernelIdeal.Gen.hostOps3_1, Cert.KernelIdeal.Gen.hostOps3_2, Cert.KernelIdeal.Gen.hostOps3_3, Cert.KernelIdeal.Gen.hostOps3_4]

theorem keep1_a7 (W : KerLayers.Fam F) (c : Dev nD) :
    KerLayers.KL1 W c (Proc.devRef .tc main_arg7) = W c (Proc.devRef .tc main_arg7) := by
  eval_after [KerLayers.KL1, KerLayers.Rg2_in, KerLayers.Rg2_ne', KerLayers.Rg3_ne', KerLayers.H2, KerLayers.H3, Cert.KernelIdeal.Gen.hostOps2, Cert.KernelIdeal.Gen.hostOps3, Cert.KernelIdeal.Gen.hostOps3_1, Cert.KernelIdeal.Gen.hostOps3_2, Cert.KernelIdeal.Gen.hostOps3_3, Cert.KernelIdeal.Gen.hostOps3_4]

theorem keep1_a8 (W : KerLayers.Fam F) (c : Dev nD) :
    KerLayers.KL1 W c (Proc.devRef .tc main_arg8) = W c (Proc.devRef .tc main_arg8) := by
  eval_after [KerLayers.KL1, KerLayers.Rg2_in, KerLayers.Rg2_ne', KerLayers.Rg3_ne', KerLayers.H2, KerLayers.H3, Cert.KernelIdeal.Gen.hostOps2, Cert.KernelIdeal.Gen.hostOps3, Cert.KernelIdeal.Gen.hostOps3_1, Cert.KernelIdeal.Gen.hostOps3_2, Cert.KernelIdeal.Gen.hostOps3_3, Cert.KernelIdeal.Gen.hostOps3_4]

theorem keep1_a9 (W : KerLayers.Fam F) (c : Dev nD) :
    KerLayers.KL1 W c (Proc.devRef .tc main_arg9) = W c (Proc.devRef .tc main_arg9) := by
  eval_after [KerLayers.KL1, KerLayers.Rg2_in, KerLayers.Rg2_ne', KerLayers.Rg3_ne', KerLayers.H2, KerLayers.H3, Cert.KernelIdeal.Gen.hostOps2, Cert.KernelIdeal.Gen.hostOps3, Cert.KernelIdeal.Gen.hostOps3_1, Cert.KernelIdeal.Gen.hostOps3_2, Cert.KernelIdeal.Gen.hostOps3_3, Cert.KernelIdeal.Gen.hostOps3_4]

theorem keep1_a10 (W : KerLayers.Fam F) (c : Dev nD) :
    KerLayers.KL1 W c (Proc.devRef .tc main_arg10) = W c (Proc.devRef .tc main_arg10) := by
  eval_after [KerLayers.KL1, KerLayers.Rg2_in, KerLayers.Rg2_ne', KerLayers.Rg3_ne', KerLayers.H2, KerLayers.H3, Cert.KernelIdeal.Gen.hostOps2, Cert.KernelIdeal.Gen.hostOps3, Cert.KernelIdeal.Gen.hostOps3_1, Cert.KernelIdeal.Gen.hostOps3_2, Cert.KernelIdeal.Gen.hostOps3_3, Cert.KernelIdeal.Gen.hostOps3_4]

theorem keep1_a11 (W : KerLayers.Fam F) (c : Dev nD) :
    KerLayers.KL1 W c (Proc.devRef .tc main_arg11) = W c (Proc.devRef .tc main_arg11) := by
  eval_after [KerLayers.KL1, KerLayers.Rg2_in, KerLayers.Rg2_ne', KerLayers.Rg3_ne', KerLayers.H2, KerLayers.H3, Cert.KernelIdeal.Gen.hostOps2, Cert.KernelIdeal.Gen.hostOps3, Cert.KernelIdeal.Gen.hostOps3_1, Cert.KernelIdeal.Gen.hostOps3_2, Cert.KernelIdeal.Gen.hostOps3_3, Cert.KernelIdeal.Gen.hostOps3_4]

theorem keep1_a12 (W : KerLayers.Fam F) (c : Dev nD) :
    KerLayers.KL1 W c (Proc.devRef .tc main_arg12) = W c (Proc.devRef .tc main_arg12) := by
  eval_after [KerLayers.KL1, KerLayers.Rg2_in, KerLayers.Rg2_ne', KerLayers.Rg3_ne', KerLayers.H2, KerLayers.H3, Cert.KernelIdeal.Gen.hostOps2, Cert.KernelIdeal.Gen.hostOps3, Cert.KernelIdeal.Gen.hostOps3_1, Cert.KernelIdeal.Gen.hostOps3_2, Cert.KernelIdeal.Gen.hostOps3_3, Cert.KernelIdeal.Gen.hostOps3_4]

theorem keep1_a13 (W : KerLayers.Fam F) (c : Dev nD) :
    KerLayers.KL1 W c (Proc.devRef .tc main_arg13) = W c (Proc.devRef .tc main_arg13) := by
  eval_after [KerLayers.KL1, KerLayers.Rg2_in, KerLayers.Rg2_ne', KerLayers.Rg3_ne', KerLayers.H2, KerLayers.H3, Cert.KernelIdeal.Gen.hostOps2, Cert.KernelIdeal.Gen.hostOps3, Cert.KernelIdeal.Gen.hostOps3_1, Cert.KernelIdeal.Gen.hostOps3_2, Cert.KernelIdeal.Gen.hostOps3_3, Cert.KernelIdeal.Gen.hostOps3_4]

theorem keep1_a14 (W : KerLayers.Fam F) (c : Dev nD) :
    KerLayers.KL1 W c (Proc.devRef .tc main_arg14) = W c (Proc.devRef .tc main_arg14) := by
  eval_after [KerLayers.KL1, KerLayers.Rg2_in, KerLayers.Rg2_ne', KerLayers.Rg3_ne', KerLayers.H2, KerLayers.H3, Cert.KernelIdeal.Gen.hostOps2, Cert.KernelIdeal.Gen.hostOps3, Cert.KernelIdeal.Gen.hostOps3_1, Cert.KernelIdeal.Gen.hostOps3_2, Cert.KernelIdeal.Gen.hostOps3_3, Cert.KernelIdeal.Gen.hostOps3_4]

theorem keep1_a15 (W : KerLayers.Fam F) (c : Dev nD) :
    KerLayers.KL1 W c (Proc.devRef .tc main_arg15) = W c (Proc.devRef .tc main_arg15) := by
  eval_after [KerLayers.KL1, KerLayers.Rg2_in, KerLayers.Rg2_ne', KerLayers.Rg3_ne', KerLayers.H2, KerLayers.H3, Cert.KernelIdeal.Gen.hostOps2, Cert.KernelIdeal.Gen.hostOps3, Cert.KernelIdeal.Gen.hostOps3_1, Cert.KernelIdeal.Gen.hostOps3_2, Cert.KernelIdeal.Gen.hostOps3_3, Cert.KernelIdeal.Gen.hostOps3_4]

theorem keep1_a16 (W : KerLayers.Fam F) (c : Dev nD) :
    KerLayers.KL1 W c (Proc.devRef .tc main_arg16) = W c (Proc.devRef .tc main_arg16) := by
  eval_after [KerLayers.KL1, KerLayers.Rg2_in, KerLayers.Rg2_ne', KerLayers.Rg3_ne', KerLayers.H2, KerLayers.H3, Cert.KernelIdeal.Gen.hostOps2, Cert.KernelIdeal.Gen.hostOps3, Cert.KernelIdeal.Gen.hostOps3_1, Cert.KernelIdeal.Gen.hostOps3_2, Cert.KernelIdeal.Gen.hostOps3_3, Cert.KernelIdeal.Gen.hostOps3_4]

theorem keep1_a17 (W : KerLayers.Fam F) (c : Dev nD) :
    KerLayers.KL1 W c (Proc.devRef .tc main_arg17) = W c (Proc.devRef .tc main_arg17) := by
  eval_after [KerLayers.KL1, KerLayers.Rg2_in, KerLayers.Rg2_ne', KerLayers.Rg3_ne', KerLayers.H2, KerLayers.H3, Cert.KernelIdeal.Gen.hostOps2, Cert.KernelIdeal.Gen.hostOps3, Cert.KernelIdeal.Gen.hostOps3_1, Cert.KernelIdeal.Gen.hostOps3_2, Cert.KernelIdeal.Gen.hostOps3_3, Cert.KernelIdeal.Gen.hostOps3_4]

theorem keep1_a18 (W : KerLayers.Fam F) (c : Dev nD) :
    KerLayers.KL1 W c (Proc.devRef .tc main_arg18) = W c (Proc.devRef .tc main_arg18) := by
  eval_after [KerLayers.KL1, KerLayers.Rg2_in, KerLayers.Rg2_ne', KerLayers.Rg3_ne', KerLayers.H2, KerLayers.H3, Cert.KernelIdeal.Gen.hostOps2, Cert.KernelIdeal.Gen.hostOps3, Cert.KernelIdeal.Gen.hostOps3_1, Cert.KernelIdeal.Gen.hostOps3_2, Cert.KernelIdeal.Gen.hostOps3_3, Cert.KernelIdeal.Gen.hostOps3_4]

theorem keep1_a19 (W : KerLayers.Fam F) (c : Dev nD) :
    KerLayers.KL1 W c (Proc.devRef .tc main_arg19) = W c (Proc.devRef .tc main_arg19) := by
  eval_after [KerLayers.KL1, KerLayers.Rg2_in, KerLayers.Rg2_ne', KerLayers.Rg3_ne', KerLayers.H2, KerLayers.H3, Cert.KernelIdeal.Gen.hostOps2, Cert.KernelIdeal.Gen.hostOps3, Cert.KernelIdeal.Gen.hostOps3_1, Cert.KernelIdeal.Gen.hostOps3_2, Cert.KernelIdeal.Gen.hostOps3_3, Cert.KernelIdeal.Gen.hostOps3_4]

theorem keep1_a20 (W : KerLayers.Fam F) (c : Dev nD) :
    KerLayers.KL1 W c (Proc.devRef .tc main_arg20) = W c (Proc.devRef .tc main_arg20) := by
  eval_after [KerLayers.KL1, KerLayers.Rg2_in, KerLayers.Rg2_ne', KerLayers.Rg3_ne', KerLayers.H2, KerLayers.H3, Cert.KernelIdeal.Gen.hostOps2, Cert.KernelIdeal.Gen.hostOps3, Cert.KernelIdeal.Gen.hostOps3_1, Cert.KernelIdeal.Gen.hostOps3_2, Cert.KernelIdeal.Gen.hostOps3_3, Cert.KernelIdeal.Gen.hostOps3_4]

theorem keep1_a21 (W : KerLayers.Fam F) (c : Dev nD) :
    KerLayers.KL1 W c (Proc.devRef .tc main_arg21) = W c (Proc.devRef .tc main_arg21) := by
  eval_after [KerLayers.KL1, KerLayers.Rg2_in, KerLayers.Rg2_ne', KerLayers.Rg3_ne', KerLayers.H2, KerLayers.H3, Cert.KernelIdeal.Gen.hostOps2, Cert.KernelIdeal.Gen.hostOps3, Cert.KernelIdeal.Gen.hostOps3_1, Cert.KernelIdeal.Gen.hostOps3_2, Cert.KernelIdeal.Gen.hostOps3_3, Cert.KernelIdeal.Gen.hostOps3_4]

theorem keep1_n (W : KerLayers.Fam F) (c : Dev nD) :
    KerLayers.KL1 W c (Proc.devRef .tc main_v10) = W c (Proc.devRef .tc main_v10) := by
  eval_after [KerLayers.KL1, KerLayers.Rg2_in, KerLayers.Rg2_ne', KerLayers.Rg3_ne', KerLayers.H2, KerLayers.H3, Cert.KernelIdeal.Gen.hostOps2, Cert.KernelIdeal.Gen.hostOps3, Cert.KernelIdeal.Gen.hostOps3_1, Cert.KernelIdeal.Gen.hostOps3_2, Cert.KernelIdeal.Gen.hostOps3_3, Cert.KernelIdeal.Gen.hostOps3_4]

end Cert.KernelIdeal.Keep

end
-- ==== Proof.KeepKI2.lean ====
/-
  Layer 2 of the program writes none of the argument arrays and not the table of node ids: read after it, each holds what it held before
  (no host operation of its stretches writes it, and it is no array of its regions, or an input array they keep).
-/
import proofs.«170918_j12352325943916_1_alg».proof.Proof.KerLayers
import proofs.«170918_j12352325943916_1_alg».proof.Proof.EvalAfter

set_option maxRecDepth 16384
set_option maxHeartbeats 2000000

noncomputable section

namespace Cert.KernelIdeal.Keep

open Idealize.ShloMosaic Idealize.ShloMosaic.TcCoe Idealize.SL.Sem Idealize.ShloMosaic.StableHlo Cert.Tac
open Cert.KernelIdeal

variable {F : FTy → Type} [FloatOps F]

theorem keep2_a0 (W : KerLayers.Fam F) (c : Dev nD) :
    KerLayers.KL2 W c (Proc.devRef .tc main_arg0) = W c (Proc.devRef .tc main_arg0) := by
  eval_after [KerLayers.KL2, KerLayers.Rg4_in, KerLayers.Rg4_ne', KerLayers.Rg5_ne', KerLayers.H4, KerLayers.H5, Cert.KernelIdeal.Gen.hostOps4, Cert.KernelIdeal.Gen.hostOps5, Cert.KernelIdeal.Gen.hostOps5_1, Cert.KernelIdeal.Gen.hostOps5_2, Cert.KernelIdeal.Gen.hostOps5_3, Cert.KernelIdeal.Gen.hostOps5_4]

theorem keep2_a1 (W : KerLayers.Fam F) (c : Dev nD) :
    KerLayers.KL2 W c (Proc.devRef .tc main_arg1) = W c (Proc.devRef .tc main_arg1) := by
  eval_after [KerLayers.KL2, KerLayers.Rg4_in, KerLayers.Rg4_ne', KerLayers.Rg5_ne', KerLayers.H4, KerLayers.H5, Cert.KernelIdeal.Gen.hostOps4, Cert.KernelIdeal.Gen.hostOps5, Cert.KernelIdeal.Gen.hostOps5_1, Cert.KernelIdeal.Gen.hostOps5_2, Cert.KernelIdeal.Gen.hostOps5_3, Cert.KernelIdeal.Gen.hostOps5_4]

theorem keep2_a2 (W : KerLayers.Fam F) (c : Dev nD) :
    KerLayers.KL2 W c (Proc.devRef .tc main_arg2) = W c (Proc.devRef .tc main_arg2) := by
  eval_after [KerLayers.KL2, KerLayers.Rg4_in, KerLayers.Rg4_ne', KerLayers.Rg5_ne', KerLayers.H4, KerLayers.H5, Cert.KernelIdeal.Gen.hostOps4, Cert.KernelIdeal.Gen.hostOps5, Cert.KernelIdeal.Gen.hostOps5_1, Cert.KernelIdeal.Gen.hostOps5_2, Cert.KernelIdeal.Gen.hostOps5_3, Cert.KernelIdeal.Gen.hostOps5_4]

theorem keep2_a3 (W : KerLayers.Fam F) (c : Dev nD) :
    KerLayers.KL2 W c (Proc.devRef .tc main_arg3) = W c (Proc.devRef .tc main_arg3) := by
  eval_after [KerLayers.KL2, KerLayers.Rg4_in, KerLayers.Rg4_ne', KerLayers.Rg5_ne', KerLayers.H4, KerLayers.H5, Cert.KernelIdeal.Gen.hostOps4, Cert.KernelIdeal.Gen.hostOps5, Cert.KernelIdeal.Gen.hostOps5_1, Cert.KernelIdeal.Gen.hostOps5_2, Cert.KernelIdeal.Gen.hostOps5_3, Cert.KernelIdeal.Gen.hostOps5_4]

theorem keep2_a4 (W : KerLayers.Fam F) (c : Dev nD) :
    KerLayers.KL2 W c (Proc.devRef .tc main_arg4) = W c (Proc.devRef .tc main_arg4) := by
  eval_after [KerLayers.KL2, KerLayers.Rg4_in, KerLayers.Rg4_ne', KerLayers.Rg5_ne', KerLayers.H4, KerLayers.H5, Cert.KernelIdeal.Gen.hostOps4, Cert.KernelIdeal.Gen.hostOps5, Cert.KernelIdeal.Gen.hostOps5_1, Cert.KernelIdeal.Gen.hostOps5_2, Cert.KernelIdeal.Gen.hostOps5_3, Cert.KernelIdeal.Gen.hostOps5_4]

theorem keep2_a5 (W : KerLayers.Fam F) (c : Dev nD) :
    KerLayers.KL2 W c (Proc.devRef .tc main_arg5) = W c (Proc.devRef .tc main_arg5) := by
  eval_after [KerLayers.KL2, KerLayers.Rg4_in, KerLayers.Rg4_ne', KerLayers.Rg5_ne', KerLayers.H4, KerLayers.H5, Cert.KernelIdeal.Gen.hostOps4, Cert.KernelIdeal.Gen.hostOps5, Cert.KernelIdeal.Gen.hostOps5_1, Cert.KernelIdeal.Gen.hostOps5_2, Cert.KernelIdeal.Gen.hostOps5_3, Cert.KernelIdeal.Gen.hostOps5_4]

theorem keep2_a6 (W : KerLayers.Fam F) (c : Dev nD) :
    KerLayers.KL2 W c (Proc.devRef .tc main_arg6) = W c (Proc.devRef .tc main_arg6) := by
  eval_after [KerLayers.KL2, KerLayers.Rg4_in, KerLayers.Rg4_ne', KerLayers.Rg5_ne', KerLayers.H4, KerLayers.H5, Cert.KernelIdeal.Gen.hostOps4, Cert.KernelIdeal.Gen.hostOps5, Cert.KernelIdeal.Gen.hostOps5_1, Cert.KernelIdeal.Gen.hostOps5_2, Cert.KernelIdeal.Gen.hostOps5_3, Cert.KernelIdeal.Gen.hostOps5_4]

theorem keep2_a7 (W : KerLayers.Fam F) (c : Dev nD) :
    KerLayers.KL2 W c (Proc.devRef .tc main_arg7) = W c (Proc.devRef .tc main_arg7) := by
  eval_after [KerLayers.KL2, KerLayers.Rg4_in, KerLayers.Rg4_ne', KerLayers.Rg5_ne', KerLayers.H4, KerLayers.H5, Cert.KernelIdeal.Gen.hostOps4, Cert.KernelIdeal.Gen.hostOps5, Cert.KernelIdeal.Gen.hostOps5_1, Cert.KernelIdeal.Gen.hostOps5_2, Cert.KernelIdeal.Gen.hostOps5_3, Cert.KernelIdeal.Gen.hostOps5_4]

theorem keep2_a8 (W : KerLayers.Fam F) (c : Dev nD) :
    KerLayers.KL2 W c (Proc.devRef .tc main_arg8) = W c (Proc.devRef .tc main_arg8) := by
  eval_after [KerLayers.KL2, KerLayers.Rg4_in, KerLayers.Rg4_ne', KerLayers.Rg5_ne', KerLayers.H4, KerLayers.H5, Cert.KernelIdeal.Gen.hostOps4, Cert.KernelIdeal.Gen.hostOps5, Cert.KernelIdeal.Gen.hostOps5_1, Cert.KernelIdeal.Gen.hostOps5_2, Cert.KernelIdeal.Gen.hostOps5_3, Cert.KernelIdeal.Gen.hostOps5_4]

theorem keep2_a9 (W : KerLayers.Fam F) (c : Dev nD) :
    KerLayers.KL2 W c (Proc.devRef .tc main_arg9) = W c (Proc.devRef .tc main_arg9) := by
  eval_after [KerLayers.KL2, KerLayers.Rg4_in, KerLayers.Rg4_ne', KerLayers.Rg5_ne', KerLayers.H4, KerLayers.H5, Cert.KernelIdeal.Gen.hostOps4, Cert.KernelIdeal.Gen.hostOps5, Cert.KernelIdeal.Gen.hostOps5_1, Cert.KernelIdeal.Gen.hostOps5_2, Cert.KernelIdeal.Gen.hostOps5_3, Cert.KernelIdeal.Gen.hostOps5_4]

theorem keep2_a10 (W : KerLayers.Fam F) (c : Dev nD) :
    KerLayers.KL2 W c (Proc.devRef .tc main_arg10) = W c (Proc.devRef .tc main_arg10) := by
  eval_after [KerLayers.KL2, KerLayers.Rg4_in, KerLayers.Rg4_ne', KerLayers.Rg5_ne', KerLayers.H4, KerLayers.H5, Cert.KernelIdeal.Gen.hostOps4, Cert.KernelIdeal.Gen.hostOps5, Cert.KernelIdeal.Gen.hostOps5_1, Cert.KernelIdeal.Gen.hostOps5_2, Cert.KernelIdeal.Gen.hostOps5_3, Cert.KernelIdeal.Gen.hostOps5_4]

theorem keep2_a11 (W : KerLayers.Fam F) (c : Dev nD) :
    KerLayers.KL2 W c (Proc.devRef .tc main_arg11) = W c (Proc.devRef .tc main_arg11) := by
  eval_after [KerLayers.KL2, KerLayers.Rg4_in, KerLayers.Rg4_ne', KerLayers.Rg5_ne', KerLayers.H4, KerLayers.H5, Cert.KernelIdeal.Gen.hostOps4, Cert.KernelIdeal.Gen.hostOps5, Cert.KernelIdeal.Gen.hostOps5_1, Cert.KernelIdeal.Gen.hostOps5_2, Cert.KernelIdeal.Gen.hostOps5_3, Cert.KernelIdeal.Gen.hostOps5_4]

theorem keep2_a12 (W : KerLayers.Fam F) (c : Dev nD) :
    KerLayers.KL2 W c (Proc.devRef .tc main_arg12) = W c (Proc.devRef .tc main_arg12) := by
  eval_after [KerLayers.KL2, KerLayers.Rg4_in, KerLayers.Rg4_ne', KerLayers.Rg5_ne', KerLayers.H4, KerLayers.H5, Cert.KernelIdeal.Gen.hostOps4, Cert.KernelIdeal.Gen.hostOps5, Cert.KernelIdeal.Gen.hostOps5_1, Cert.KernelIdeal.Gen.hostOps5_2, Cert.KernelIdeal.Gen.hostOps5_3, Cert.KernelIdeal.Gen.hostOps5_4]

theorem keep2_a13 (W : KerLayers.Fam F) (c : Dev nD) :
    KerLayers.KL2 W c (Proc.devRef .tc main_arg13) = W c (Proc.devRef .tc main_arg13) := by
  eval_after [KerLayers.KL2, KerLayers.Rg4_in, KerLayers.Rg4_ne', KerLayers.Rg5_ne', KerLayers.H4, KerLayers.H5, Cert.KernelIdeal.Gen.hostOps4, Cert.KernelIdeal.Gen.hostOps5, Cert.KernelIdeal.Gen.hostOps5_1, Cert.KernelIdeal.Gen.hostOps5_2, Cert.KernelIdeal.Gen.hostOps5_3, Cert.KernelIdeal.Gen.hostOps5_4]

theorem keep2_a14 (W : KerLayers.Fam F) (c : Dev nD) :
    KerLayers.KL2 W c (Proc.devRef .tc main_arg14) = W c (Proc.devRef .tc main_arg14) := by
  eval_after [KerLayers.KL2, KerLayers.Rg4_in, KerLayers.Rg4_ne', KerLayers.Rg5_ne', KerLayers.H4, KerLayers.H5, Cert.KernelIdeal.Gen.hostOps4, Cert.KernelIdeal.Gen.hostOps5, Cert.KernelIdeal.Gen.hostOps5_1, Cert.KernelIdeal.Gen.hostOps5_2, Cert.KernelIdeal.Gen.hostOps5_3, Cert.KernelIdeal.Gen.hostOps5_4]

theorem keep2_a15 (W : KerLayers.Fam F) (c : Dev nD) :
    KerLayers.KL2 W c (Proc.devRef .tc main_arg15) = W c (Proc.devRef .tc main_arg15) := by
  eval_after [KerLayers.KL2, KerLayers.Rg4_in, KerLayers.Rg4_ne', KerLayers.Rg5_ne', KerLayers.H4, KerLayers.H5, Cert.KernelIdeal.Gen.hostOps4, Cert.KernelIdeal.Gen.hostOps5, Cert.KernelIdeal.Gen.hostOps5_1, Cert.KernelIdeal.Gen.hostOps5_2, Cert.KernelIdeal.Gen.hostOps5_3, Cert.KernelIdeal.Gen.hostOps5_4]

theorem keep2_a16 (W : KerLayers.Fam F) (c : Dev nD) :
    KerLayers.KL2 W c (Proc.devRef .tc main_arg16) = W c (Proc.devRef .tc main_arg16) := by
  eval_after [KerLayers.KL2, KerLayers.Rg4_in, KerLayers.Rg4_ne', KerLayers.Rg5_ne', KerLayers.H4, KerLayers.H5, Cert.KernelIdeal.Gen.hostOps4, Cert.KernelIdeal.Gen.hostOps5, Cert.KernelIdeal.Gen.hostOps5_1, Cert.KernelIdeal.Gen.hostOps5_2, Cert.KernelIdeal.Gen.hostOps5_3, Cert.KernelIdeal.Gen.hostOps5_4]

theorem keep2_a17 (W : KerLayers.Fam F) (c : Dev nD) :
    KerLayers.KL2 W c (Proc.devRef .tc main_arg17) = W c (Proc.devRef .tc main_arg17) := by
  eval_after [KerLayers.KL2, KerLayers.Rg4_in, KerLayers.Rg4_ne', KerLayers.Rg5_ne', KerLayers.H4, KerLayers.H5, Cert.KernelIdeal.Gen.hostOps4, Cert.KernelIdeal.Gen.hostOps5, Cert.KernelIdeal.Gen.hostOps5_1, Cert.KernelIdeal.Gen.hostOps5_2, Cert.KernelIdeal.Gen.hostOps5_3, Cert.KernelIdeal.Gen.hostOps5_4]

theorem keep2_a18 (W : KerLayers.Fam F) (c : Dev nD) :
    KerLayers.KL2 W c (Proc.devRef .tc main_arg18) = W c (Proc.devRef .tc main_arg18) := by
  eval_after [KerLayers.KL2, KerLayers.Rg4_in, KerLayers.Rg4_ne', KerLayers.Rg5_ne', KerLayers.H4, KerLayers.H5, Cert.KernelIdeal.Gen.hostOps4, Cert.KernelIdeal.Gen.hostOps5, Cert.KernelIdeal.Gen.hostOps5_1, Cert.KernelIdeal.Gen.hostOps5_2, Cert.KernelIdeal.Gen.hostOps5_3, Cert.KernelIdeal.Gen.hostOps5_4]

theorem keep2_a19 (W : KerLayers.Fam F) (c : Dev nD) :
    KerLayers.KL2 W c (Proc.devRef .tc main_arg19) = W c (Proc.devRef .tc main_arg19) := by
  eval_after [KerLayers.KL2, KerLayers.Rg4_in, KerLayers.Rg4_ne', KerLayers.Rg5_ne', KerLayers.H4, KerLayers.H5, Cert.KernelIdeal.Gen.hostOps4, Cert.KernelIdeal.Gen.hostOps5, Cert.KernelIdeal.Gen.hostOps5_1, Cert.KernelIdeal.Gen.hostOps5_2, Cert.KernelIdeal.Gen.hostOps5_3, Cert.KernelIdeal.Gen.hostOps5_4]

theorem keep2_a20 (W : KerLayers.Fam F) (c : Dev nD) :
    KerLayers.KL2 W c (Proc.devRef .tc main_arg20) = W c (Proc.devRef .tc main_arg20) := by
  eval_after [KerLayers.KL2, KerLayers.Rg4_in, KerLayers.Rg4_ne', KerLayers.Rg5_ne', KerLayers.H4, KerLayers.H5, Cert.KernelIdeal.Gen.hostOps4, Cert.KernelIdeal.Gen.hostOps5, Cert.KernelIdeal.Gen.hostOps5_1, Cert.KernelIdeal.Gen.hostOps5_2, Cert.KernelIdeal.Gen.hostOps5_3, Cert.KernelIdeal.Gen.hostOps5_4]

theorem keep2_a21 (W : KerLayers.Fam F) (c : Dev nD) :
    KerLayers.KL2 W c (Proc.devRef .tc main_arg21) = W c (Proc.devRef .tc main_arg21) := by
  eval_after [KerLayers.KL2, KerLayers.Rg4_in, KerLayers.Rg4_ne', KerLayers.Rg5_ne', KerLayers.H4, KerLayers.H5, Cert.KernelIdeal.Gen.hostOps4, Cert.KernelIdeal.Gen.hostOps5, Cert.KernelIdeal.Gen.hostOps5_1, Cert.KernelIdeal.Gen.hostOps5_2, Cert.KernelIdeal.Gen.hostOps5_3, Cert.KernelIdeal.Gen.hostOps5_4]

theorem keep2_n (W : KerLayers.Fam F) (c : Dev nD) :
    KerLayers.KL2 W c (Proc.devRef .tc main_v10) = W c (Proc.devRef .tc main_v10) := by
  eval_after [KerLayers.KL2, KerLayers.Rg4_in, KerLayers.Rg4_ne', KerLayers.Rg5_ne', KerLayers.H4, KerLayers.H5, Cert.KernelIdeal.Gen.hostOps4, Cert.KernelIdeal.Gen.hostOps5, Cert.KernelIdeal.Gen.hostOps5_1, Cert.KernelIdeal.Gen.hostOps5_2, Cert.KernelIdeal.Gen.hostOps5_3, Cert.KernelIdeal.Gen.hostOps5_4]

end Cert.KernelIdeal.Keep

end
-- ==== Proof.KeepKI3.lean ====
/-
  Layer 3 of the program writes none of the argument arrays and not the table of node ids: read after it, each holds what it held before
  (no host operation of its stretches writes it, and it is no array of its regions, or an input array they keep).
-/
import proofs.«170918_j12352325943916_1_alg».proof.Proof.KerLayers
import proofs.«170918_j12352325943916_1_alg».proof.Proof.EvalAfter

set_option maxRecDepth 16384
set_option maxHeartbeats 2000000

noncomputable section

namespace Cert.KernelIdeal.Keep

open Idealize.ShloMosaic Idealize.ShloMosaic.TcCoe Idealize.SL.Sem Idealize.ShloMosaic.StableHlo Cert.Tac
open Cert.KernelIdeal

variable {F : FTy → Type} [FloatOps F]

theorem keep3_a0 (W : KerLayers.Fam F) (c : Dev nD) :
    KerLayers.KL3 W c (Proc.devRef .tc main_arg0) = W c (Proc.devRef .tc main_arg0) := by
  eval_after [KerLayers.KL3, KerLayers.Rg6_in, KerLayers.Rg6_ne', KerLayers.Rg7_ne', KerLayers.H6, KerLayers.H7, Cert.KernelIdeal.Gen.hostOps6, Cert.KernelIdeal.Gen.hostOps7, Cert.KernelIdeal.Gen.hostOps7_1, Cert.KernelIdeal.Gen.hostOps7_2, Cert.KernelIdeal.Gen.hostOps7_3, Cert.KernelIdeal.Gen.hostOps7_4]

theorem keep3_a1 (W : KerLayers.Fam F) (c : Dev nD) :
    KerLayers.KL3 W c (Proc.devRef .tc main_arg1) = W c (Proc.devRef .tc main_arg1) := by
  eval_after [KerLayers.KL3, KerLayers.Rg6_in, KerLayers.Rg6_ne', KerLayers.Rg7_ne', KerLayers.H6, KerLayers.H7, Cert.KernelIdeal.Gen.hostOps6, Cert.KernelIdeal.Gen.hostOps7, Cert.KernelIdeal.Gen.hostOps7_1, Cert.KernelIdeal.Gen.hostOps7_2, Cert.KernelIdeal.Gen.hostOps7_3, Cert.KernelIdeal.Gen.hostOps7_4]

theorem keep3_a2 (W : KerLayers.Fam F) (c : Dev nD) :
    KerLayers.KL3 W c (Proc.devRef .tc main_arg2) = W c (Proc.devRef .tc main_arg2) := by
  eval_after [KerLayers.KL3, KerLayers.Rg6_in, KerLayers.Rg6_ne', KerLayers.Rg7_ne', KerLayers.H6, KerLayers.H7, Cert.KernelIdeal.Gen.hostOps6, Cert.KernelIdeal.Gen.hostOps7, Cert.KernelIdeal.Gen.hostOps7_1, Cert.KernelIdeal.Gen.hostOps7_2, Cert.KernelIdeal.Gen.hostOps7_3, Cert.KernelIdeal.Gen.hostOps7_4]

theorem keep3_a3 (W : KerLayers.Fam F) (c : Dev nD) :
    KerLayers.KL3 W c (Proc.devRef .tc main_arg3) = W c (Proc.devRef .tc main_arg3) := by
  eval_after [KerLayers.KL3, KerLayers.Rg6_in, KerLayers.Rg6_ne', KerLayers.Rg7_ne', KerLayers.H6, KerLayers.H7, Cert.KernelIdeal.Gen.hostOps6, Cert.KernelIdeal.Gen.hostOps7, Cert.KernelIdeal.Gen.hostOps7_1, Cert.KernelIdeal.Gen.hostOps7_2, Cert.KernelIdeal.Gen.hostOps7_3, Cert.KernelIdeal.Gen.hostOps7_4]

theorem keep3_a4 (W : KerLayers.Fam F) (c : Dev nD) :
    KerLayers.KL3 W c (Proc.devRef .tc main_arg4) = W c (Proc.devRef .tc main_arg4) := by
  eval_after [KerLayers.KL3, KerLayers.Rg6_in, KerLayers.Rg6_ne', KerLayers.Rg7_ne', KerLayers.H6, KerLayers.H7, Cert.KernelIdeal.Gen.hostOps6, Cert.KernelIdeal.Gen.hostOps7, Cert.KernelIdeal.Gen.hostOps7_1, Cert.KernelIdeal.Gen.hostOps7_2, Cert.KernelIdeal.Gen.hostOps7_3, Cert.KernelIdeal.Gen.hostOps7_4]

theorem keep3_a5 (W : KerLayers.Fam F) (c : Dev nD) :
    KerLayers.KL3 W c (Proc.devRef .tc main_arg5) = W c (Proc.devRef .tc main_arg5) := by
  eval_after [KerLayers.KL3, KerLayers.Rg6_in, KerLayers.Rg6_ne', KerLayers.Rg7_ne', KerLayers.H6, KerLayers.H7, Cert.KernelIdeal.Gen.hostOps6, Cert.KernelIdeal.Gen.hostOps7, Cert.KernelIdeal.Gen.hostOps7_1, Cert.KernelIdeal.Gen.hostOps7_2, Cert.KernelIdeal.Gen.hostOps7_3, Cert.KernelIdeal.Gen.hostOps7_4]

theorem keep3_a6 (W : KerLayers.Fam F) (c : Dev nD) :
    KerLayers.KL3 W c (Proc.devRef .tc main_arg6) = W c (Proc.devRef .tc main_arg6) := by
  eval_after [KerLayers.KL3, KerLayers.Rg6_in, KerLayers.Rg6_ne', KerLayers.Rg7_ne', KerLayers.H6, KerLayers.H7, Cert.KernelIdeal.Gen.hostOps6, Cert.KernelIdeal.Gen.hostOps7, Cert.KernelIdeal.Gen.hostOps7_1, Cert.KernelIdeal.Gen.hostOps7_2, Cert.KernelIdeal.Gen.hostOps7_3, Cert.KernelIdeal.Gen.hostOps7_4]

theorem keep3_a7 (W : KerLayers.Fam F) (c : Dev nD) :
    KerLayers.KL3 W c (Proc.devRef .tc main_arg7) = W c (Proc.devRef .tc main_arg7) := by
  eval_after [KerLayers.KL3, KerLayers.Rg6_in, KerLayers.Rg6_ne', KerLayers.Rg7_ne', KerLayers.H6, KerLayers.H7, Cert.KernelIdeal.Gen.hostOps6, Cert.KernelIdeal.Gen.hostOps7, Cert.KernelIdeal.Gen.hostOps7_1, Cert.KernelIdeal.Gen.hostOps7_2, Cert.KernelIdeal.Gen.hostOps7_3, Cert.KernelIdeal.Gen.hostOps7_4]

theorem keep3_a8 (W : KerLayers.Fam F) (c : Dev nD) :
    KerLayers.KL3 W c (Proc.devRef .tc main_arg8) = W c (Proc.devRef .tc main_arg8) := by
  eval_after [KerLayers.KL3, KerLayers.Rg6_in, KerLayers.Rg6_ne', KerLayers.Rg7_ne', KerLayers.H6, KerLayers.H7, Cert.KernelIdeal.Gen.hostOps6, Cert.KernelIdeal.Gen.hostOps7, Cert.KernelIdeal.Gen.hostOps7_1, Cert.KernelIdeal.Gen.hostOps7_2, Cert.KernelIdeal.Gen.hostOps7_3, Cert.KernelIdeal.Gen.hostOps7_4]

theorem keep3_a9 (W : KerLayers.Fam F) (c : Dev nD) :
    KerLayers.KL3 W c (Proc.devRef .tc main_arg9) = W c (Proc.devRef .tc main_arg9) := by
  eval_after [KerLayers.KL3, KerLayers.Rg6_in, KerLayers.Rg6_ne', KerLayers.Rg7_ne', KerLayers.H6, KerLayers.H7, Cert.KernelIdeal.Gen.hostOps6, Cert.KernelIdeal.Gen.hostOps7, Cert.KernelIdeal.Gen.hostOps7_1, Cert.KernelIdeal.Gen.hostOps7_2, Cert.KernelIdeal.Gen.hostOps7_3, Cert.KernelIdeal.Gen.hostOps7_4]

theorem keep3_a10 (W : KerLayers.Fam F) (c : Dev nD) :
    KerLayers.KL3 W c (Proc.devRef .tc main_arg10) = W c (Proc.devRef .tc main_arg10) := by
  eval_after [KerLayers.KL3, KerLayers.Rg6_in, KerLayers.Rg6_ne', KerLayers.Rg7_ne', KerLayers.H6, KerLayers.H7, Cert.KernelIdeal.Gen.hostOps6, Cert.KernelIdeal.Gen.hostOps7, Cert.KernelIdeal.Gen.hostOps7_1, Cert.KernelIdeal.Gen.hostOps7_2, Cert.KernelIdeal.Gen.hostOps7_3, Cert.KernelIdeal.Gen.hostOps7_4]

theorem keep3_a11 (W : KerLayers.Fam F) (c : Dev nD) :
    KerLayers.KL3 W c (Proc.devRef .tc main_arg11) = W c (Proc.devRef .tc main_arg11) := by
  eval_after [KerLayers.KL3, KerLayers.Rg6_in, KerLayers.Rg6_ne', KerLayers.Rg7_ne', KerLayers.H6, KerLayers.H7, Cert.KernelIdeal.Gen.hostOps6, Cert.KernelIdeal.Gen.hostOps7, Cert.KernelIdeal.Gen.hostOps7_1, Cert.KernelIdeal.Gen.hostOps7_2, Cert.KernelIdeal.Gen.hostOps7_3, Cert.KernelIdeal.Gen.hostOps7_4]

theorem keep3_a12 (W : KerLayers.Fam F) (c : Dev nD) :
    KerLayers.KL3 W c (Proc.devRef .tc main_arg12) = W c (Proc.devRef .tc main_arg12) := by
  eval_after [KerLayers.KL3, KerLayers.Rg6_in, KerLayers.Rg6_ne', KerLayers.Rg7_ne', KerLayers.H6, KerLayers.H7, Cert.KernelIdeal.Gen.hostOps6, Cert.KernelIdeal.Gen.hostOps7, Cert.KernelIdeal.Gen.hostOps7_1, Cert.KernelIdeal.Gen.hostOps7_2, Cert.KernelIdeal.Gen.hostOps7_3, Cert.KernelIdeal.Gen.hostOps7_4]

theorem keep3_a13 (W : KerLayers.Fam F) (c : Dev nD) :
    KerLayers.KL3 W c (Proc.devRef .tc main_arg13) = W c (Proc.devRef .tc main_arg13) := by
  eval_after [KerLayers.KL3, KerLayers.Rg6_in, KerLayers.Rg6_ne', KerLayers.Rg7_ne', KerLayers.H6, KerLayers.H7, Cert.KernelIdeal.Gen.hostOps6, Cert.KernelIdeal.Gen.hostOps7, Cert.KernelIdeal.Gen.hostOps7_1, Cert.KernelIdeal.Gen.hostOps7_2, Cert.KernelIdeal.Gen.hostOps7_3, Cert.KernelIdeal.Gen.hostOps7_4]

theorem keep3_a14 (W : KerLayers.Fam F) (c : Dev nD) :
    KerLayers.KL3 W c (Proc.devRef .tc main_arg14) = W c (Proc.devRef .tc main_arg14) := by
  eval_after [KerLayers.KL3, KerLayers.Rg6_in, KerLayers.Rg6_ne', KerLayers.Rg7_ne', KerLayers.H6, KerLayers.H7, Cert.KernelIdeal.Gen.hostOps6, Cert.KernelIdeal.Gen.hostOps7, Cert.KernelIdeal.Gen.hostOps7_1, Cert.KernelIdeal.Gen.hostOps7_2, Cert.KernelIdeal.Gen.hostOps7_3, Cert.KernelIdeal.Gen.hostOps7_4]

theorem keep3_a15 (W : KerLayers.Fam F) (c : Dev nD) :
    KerLayers.KL3 W c (Proc.devRef .tc main_arg15) = W c (Proc.devRef .tc main_arg15) := by
  eval_after [KerLayers.KL3, KerLayers.Rg6_in, KerLayers.Rg6_ne', KerLayers.Rg7_ne', KerLayers.H6, KerLayers.H7, Cert.KernelIdeal.Gen.hostOps6, Cert.KernelIdeal.Gen.hostOps7, Cert.KernelIdeal.Gen.hostOps7_1, Cert.KernelIdeal.Gen.hostOps7_2, Cert.KernelIdeal.Gen.hostOps7_3, Cert.KernelIdeal.Gen.hostOps7_4]

theorem keep3_a16 (W : KerLayers.Fam F) (c : Dev nD) :
    KerLayers.KL3 W c (Proc.devRef .tc main_arg16) = W c (Proc.devRef .tc main_arg16) := by
  eval_after [KerLayers.KL3, KerLayers.Rg6_in, KerLayers.Rg6_ne', KerLayers.Rg7_ne', KerLayers.H6, KerLayers.H7, Cert.KernelIdeal.Gen.hostOps6, Cert.KernelIdeal.Gen.hostOps7, Cert.KernelIdeal.Gen.hostOps7_1, Cert.KernelIdeal.Gen.hostOps7_2, Cert.KernelIdeal.Gen.hostOps7_3, Cert.KernelIdeal.Gen.hostOps7_4]

theorem keep3_a17 (W : KerLayers.Fam F) (c : Dev nD) :
    KerLayers.KL3 W c (Proc.devRef .tc main_arg17) = W c (Proc.devRef .tc main_arg17) := by
  eval_after [KerLayers.KL3, KerLayers.Rg6_in, KerLayers.Rg6_ne', KerLayers.Rg7_ne', KerLayers.H6, KerLayers.H7, Cert.KernelIdeal.Gen.hostOps6, Cert.KernelIdeal.Gen.hostOps7, Cert.KernelIdeal.Gen.hostOps7_1, Cert.KernelIdeal.Gen.hostOps7_2, Cert.KernelIdeal.Gen.hostOps7_3, Cert.KernelIdeal.Gen.hostOps7_4]

theorem keep3_a18 (W : KerLayers.Fam F) (c : Dev nD) :
    KerLayers.KL3 W c (Proc.devRef .tc main_arg18) = W c (Proc.devRef .tc main_arg18) := by
  eval_after [KerLayers.KL3, KerLayers.Rg6_in, KerLayers.Rg6_ne', KerLayers.Rg7_ne', KerLayers.H6, KerLayers.H7, Cert.KernelIdeal.Gen.hostOps6, Cert.KernelIdeal.Gen.hostOps7, Cert.KernelIdeal.Gen.hostOps7_1, Cert.KernelIdeal.Gen.hostOps7_2, Cert.KernelIdeal.Gen.hostOps7_3, Cert.KernelIdeal.Gen.hostOps7_4]

theorem keep3_a19 (W : KerLayers.Fam F) (c : Dev nD) :
    KerLayers.KL3 W c (Proc.devRef .tc main_arg19) = W c (Proc.devRef .tc main_arg19) := by
  eval_after [KerLayers.KL3, KerLayers.Rg6_in, KerLayers.Rg6_ne', KerLayers.Rg7_ne', KerLayers.H6, KerLayers.H7, Cert.KernelIdeal.Gen.hostOps6, Cert.KernelIdeal.Gen.hostOps7, Cert.KernelIdeal.Gen.hostOps7_1, Cert.KernelIdeal.Gen.hostOps7_2, Cert.KernelIdeal.Gen.hostOps7_3, Cert.KernelIdeal.Gen.hostOps7_4]

theorem keep3_a20 (W : KerLayers.Fam F) (c : Dev nD) :
    KerLayers.KL3 W c (Proc.devRef .tc main_arg20) = W c (Proc.devRef .tc main_arg20) := by
  eval_after [KerLayers.KL3, KerLayers.Rg6_in, KerLayers.Rg6_ne', KerLayers.Rg7_ne', KerLayers.H6, KerLayers.H7, Cert.KernelIdeal.Gen.hostOps6, Cert.KernelIdeal.Gen.hostOps7, Cert.KernelIdeal.Gen.hostOps7_1, Cert.KernelIdeal.Gen.hostOps7_2, Cert.KernelIdeal.Gen.hostOps7_3, Cert.KernelIdeal.Gen.hostOps7_4]

theorem keep3_a21 (W : KerLayers.Fam F) (c : Dev nD) :
    KerLayers.KL3 W c (Proc.devRef .tc main_arg21) = W c (Proc.devRef .tc main_arg21) := by
  eval_after [KerLayers.KL3, KerLayers.Rg6_in, KerLayers.Rg6_ne', KerLayers.Rg7_ne', KerLayers.H6, KerLayers.H7, Cert.KernelIdeal.Gen.hostOps6, Cert.KernelIdeal.Gen.hostOps7, Cert.KernelIdeal.Gen.hostOps7_1, Cert.KernelIdeal.Gen.hostOps7_2, Cert.KernelIdeal.Gen.hostOps7_3, Cert.KernelIdeal.Gen.hostOps7_4]

theorem keep3_n (W : KerLayers.Fam F) (c : Dev nD) :
    KerLayers.KL3 W c (Proc.devRef .tc main_v10) = W c (Proc.devRef .tc main_v10) := by
  eval_after [KerLayers.KL3, KerLayers.Rg6_in, KerLayers.Rg6_ne', KerLayers.Rg7_ne', KerLayers.H6, KerLayers.H7, Cert.KernelIdeal.Gen.hostOps6, Cert.KernelIdeal.Gen.hostOps7, Cert.KernelIdeal.Gen.hostOps7_1, Cert.KernelIdeal.Gen.hostOps7_2, Cert.KernelIdeal.Gen.hostOps7_3, Cert.KernelIdeal.Gen.hostOps7_4]

end Cert.KernelIdeal.Keep

end
-- ==== Proof.KeepKI4.lean ====
/-
  The head of the program writes none of the argument arrays: read after it, each holds what it held before
  (no host operation of its stretches writes it, and it is no array of its regions, or an input array they keep).
-/
import proofs.«170918_j12352325943916_1_alg».proof.Proof.KerLayers
import proofs.«170918_j12352325943916_1_alg».proof.Proof.EvalAfter

set_option maxRecDepth 16384
set_option maxHeartbeats 2000000

noncomputable section

namespace Cert.KernelIdeal.Keep

open Idealize.ShloMosaic Idealize.ShloMosaic.TcCoe Idealize.SL.Sem Idealize.ShloMosaic.StableHlo Cert.Tac
open Cert.KernelIdeal

variable {F : FTy → Type} [FloatOps F]

theorem keep4_a0 (W : KerLayers.Fam F) (c : Dev nD) :
    KerLayers.KL4 W c (Proc.devRef .tc main_arg0) = W c (Proc.devRef .tc main_arg0) := by
  eval_after [KerLayers.KL4, KerLayers.Rg8_in1, KerLayers.Rg8_in3, KerLayers.Rg8_ne', KerLayers.H8, Cert.KernelIdeal.Gen.hostOps8]

theorem keep4_a1 (W : KerLayers.Fam F) (c : Dev nD) :
    KerLayers.KL4 W c (Proc.devRef .tc main_arg1) = W c (Proc.devRef .tc main_arg1) := by
  eval_after [KerLayers.KL4, KerLayers.Rg8_in1, KerLayers.Rg8_in3, KerLayers.Rg8_ne', KerLayers.H8, Cert.KernelIdeal.Gen.hostOps8]

theorem keep4_a2 (W : KerLayers.Fam F) (c : Dev nD) :
    KerLayers.KL4 W c (Proc.devRef .tc main_arg2) = W c (Proc.devRef .tc main_arg2) := by
  eval_after [KerLayers.KL4, KerLayers.Rg8_in1, KerLayers.Rg8_in3, KerLayers.Rg8_ne', KerLayers.H8, Cert.KernelIdeal.Gen.hostOps8]

theorem keep4_a3 (W : KerLayers.Fam F) (c : Dev nD) :
    KerLayers.KL4 W c (Proc.devRef .tc main_arg3) = W c (Proc.devRef .tc main_arg3) := by
  eval_after [KerLayers.KL4, KerLayers.Rg8_in1, KerLayers.Rg8_in3, KerLayers.Rg8_ne', KerLayers.H8, Cert.KernelIdeal.Gen.hostOps8]

theorem keep4_a4 (W : KerLayers.Fam F) (c : Dev nD) :
    KerLayers.KL4 W c (Proc.devRef .tc main_arg4) = W c (Proc.devRef .tc main_arg4) := by
  eval_after [KerLayers.KL4, KerLayers.Rg8_in1, KerLayers.Rg8_in3, KerLayers.Rg8_ne', KerLayers.H8, Cert.KernelIdeal.Gen.hostOps8]

theorem keep4_a5 (W : KerLayers.Fam F) (c : Dev nD) :
    KerLayers.KL4 W c (Proc.devRef .tc main_arg5) = W c (Proc.devRef .tc main_arg5) := by
  eval_after [KerLayers.KL4, KerLayers.Rg8_in1, KerLayers.Rg8_in3, KerLayers.Rg8_ne', KerLayers.H8, Cert.KernelIdeal.Gen.hostOps8]

theorem keep4_a6 (W : KerLayers.Fam F) (c : Dev nD) :
    KerLayers.KL4 W c (Proc.devRef .tc main_arg6) = W c (Proc.devRef .tc main_arg6) := by
  eval_after [KerLayers.KL4, KerLayers.Rg8_in1, KerLayers.Rg8_in3, KerLayers.Rg8_ne', KerLayers.H8, Cert.KernelIdeal.Gen.hostOps8]

theorem keep4_a7 (W : KerLayers.Fam F) (c : Dev nD) :
    KerLayers.KL4 W c (Proc.devRef .tc main_arg7) = W c (Proc.devRef .tc main_arg7) := by
  eval_after [KerLayers.KL4, KerLayers.Rg8_in1, KerLayers.Rg8_in3, KerLayers.Rg8_ne', KerLayers.H8, Cert.KernelIdeal.Gen.hostOps8]

theorem keep4_a8 (W : KerLayers.Fam F) (c : Dev nD) :
    KerLayers.KL4 W c (Proc.devRef .tc main_arg8) = W c (Proc.devRef .tc main_arg8) := by
  eval_after [KerLayers.KL4, KerLayers.Rg8_in1, KerLayers.Rg8_in3, KerLayers.Rg8_ne', KerLayers.H8, Cert.KernelIdeal.Gen.hostOps8]

theorem keep4_a9 (W : KerLayers.Fam F) (c : Dev nD) :
    KerLayers.KL4 W c (Proc.devRef .tc main_arg9) = W c (Proc.devRef .tc main_arg9) := by
  eval_after [KerLayers.KL4, KerLayers.Rg8_in1, KerLayers.Rg8_in3, KerLayers.Rg8_ne', KerLayers.H8, Cert.KernelIdeal.Gen.hostOps8]

theorem keep4_a10 (W : KerLayers.Fam F) (c : Dev nD) :
    KerLayers.KL4 W c (Proc.devRef .tc main_arg10) = W c (Proc.devRef .tc main_arg10) := by
  eval_after [KerLayers.KL4, KerLayers.Rg8_in1, KerLayers.Rg8_in3, KerLayers.Rg8_ne', KerLayers.H8, Cert.KernelIdeal.Gen.hostOps8]

theorem keep4_a11 (W : KerLayers.Fam F) (c : Dev nD) :
    KerLayers.KL4 W c (Proc.devRef .tc main_arg11) = W c (Proc.devRef .tc main_arg11) := by
  eval_after [KerLayers.KL4, KerLayers.Rg8_in1, KerLayers.Rg8_in3, KerLayers.Rg8_ne', KerLayers.H8, Cert.KernelIdeal.Gen.hostOps8]
  rw [KerLayers.Rg8_in1]
  eval_after [KerLayers.H8, Cert.KernelIdeal.Gen.hostOps8]

theorem keep4_a12 (W : KerLayers.Fam F) (c : Dev nD) :
    KerLayers.KL4 W c (Proc.devRef .tc main_arg12) = W c (Proc.devRef .tc main_arg12) := by
  eval_after [KerLayers.KL4, KerLayers.Rg8_in1, KerLayers.Rg8_in3, KerLayers.Rg8_ne', KerLayers.H8, Cert.KernelIdeal.Gen.hostOps8]

theorem keep4_a13 (W : KerLayers.Fam F) (c : Dev nD) :
    KerLayers.KL4 W c (Proc.devRef .tc main_arg13) = W c (Proc.devRef .tc main_arg13) := by
  eval_after [KerLayers.KL4, KerLayers.Rg8_in1, KerLayers.Rg8_in3, KerLayers.Rg8_ne', KerLayers.H8, Cert.KernelIdeal.Gen.hostOps8]
  rw [KerLayers.Rg8_in3]
  eval_after [KerLayers.H8, Cert.KernelIdeal.Gen.hostOps8]

theorem keep4_a14 (W : KerLayers.Fam F) (c : Dev nD) :
    KerLayers.KL4 W c (Proc.devRef .tc main_arg14) = W c (Proc.devRef .tc main_arg14) := by
  eval_after [KerLayers.KL4, KerLayers.Rg8_in1, KerLayers.Rg8_in3, KerLayers.Rg8_ne', KerLayers.H8, Cert.KernelIdeal.Gen.hostOps8]

theorem keep4_a15 (W : KerLayers.Fam F) (c : Dev nD) :
    KerLayers.KL4 W c (Proc.devRef .tc main_arg15) = W c (Proc.devRef .tc main_arg15) := by
  eval_after [KerLayers.KL4, KerLayers.Rg8_in1, KerLayers.Rg8_in3, KerLayers.Rg8_ne', KerLayers.H8, Cert.KernelIdeal.Gen.hostOps8]

theorem keep4_a16 (W : KerLayers.Fam F) (c : Dev nD) :
    KerLayers.KL4 W c (Proc.devRef .tc main_arg16) = W c (Proc.devRef .tc main_arg16) := by
  eval_after [KerLayers.KL4, KerLayers.Rg8_in1, KerLayers.Rg8_in3, KerLayers.Rg8_ne', KerLayers.H8, Cert.KernelIdeal.Gen.hostOps8]

theorem keep4_a17 (W : KerLayers.Fam F) (c : Dev nD) :
    KerLayers.KL4 W c (Proc.devRef .tc main_arg17) = W c (Proc.devRef .tc main_arg17) := by
  eval_after [KerLayers.KL4, KerLayers.Rg8_in1, KerLayers.Rg8_in3, KerLayers.Rg8_ne', KerLayers.H8, Cert.KernelIdeal.Gen.hostOps8]

theorem keep4_a18 (W : KerLayers.Fam F) (c : Dev nD) :
    KerLayers.KL4 W c (Proc.devRef .tc main_arg18) = W c (Proc.devRef .tc main_arg18) := by
  eval_after [KerLayers.KL4, KerLayers.Rg8_in1, KerLayers.Rg8_in3, KerLayers.Rg8_ne', KerLayers.H8, Cert.KernelIdeal.Gen.hostOps8]

theorem keep4_a19 (W : KerLayers.Fam F) (c : Dev nD) :
    KerLayers.KL4 W c (Proc.devRef .tc main_arg19) = W c (Proc.devRef .tc main_arg19) := by
  eval_after [KerLayers.KL4, KerLayers.Rg8_in1, KerLayers.Rg8_in3, KerLayers.Rg8_ne', KerLayers.H8, Cert.KernelIdeal.Gen.hostOps8]

theorem keep4_a20 (W : KerLayers.Fam F) (c : Dev nD) :
    KerLayers.KL4 W c (Proc.devRef .tc main_arg20) = W c (Proc.devRef .tc main_arg20) := by
  eval_after [KerLayers.KL4, KerLayers.Rg8_in1, KerLayers.Rg8_in3, KerLayers.Rg8_ne', KerLayers.H8, Cert.KernelIdeal.Gen.hostOps8]

theorem keep4_a21 (W : KerLayers.Fam F) (c : Dev nD) :
    KerLayers.KL4 W c (Proc.devRef .tc main_arg21) = W c (Proc.devRef .tc main_arg21) := by
  eval_after [KerLayers.KL4, KerLayers.Rg8_in1, KerLayers.Rg8_in3, KerLayers.Rg8_ne', KerLayers.H8, Cert.KernelIdeal.Gen.hostOps8]

end Cert.KernelIdeal.Keep

end
-- ==== Proof.KerRun.lean ====
/-
  The program's run with its result named and its arguments kept, at any float instance: every weakly fair execution of @main
  terminates, nothing faulting, the result array holding the last boundary's contents at its buffer — the fold of the host stretches
  and of the nine regions' write-backs over the launch memory — and the argument arrays as launched: no stretch and no region
  writes an argument, layer by layer. The run is the generated segments' run; the property read off the final state is proved here.
-/
import proofs.«170918_j12352325943916_1_alg».proof.Proof.FrameKI
import proofs.«170918_j12352325943916_1_alg».proof.Proof.KerLayers
import proofs.«170918_j12352325943916_1_alg».proof.Proof.KeepKI0
import proofs.«170918_j12352325943916_1_alg».proof.Proof.KeepKI1
import proofs.«170918_j12352325943916_1_alg».proof.Proof.KeepKI2
import proofs.«170918_j12352325943916_1_alg».proof.Proof.KeepKI3
import proofs.«170918_j12352325943916_1_alg».proof.Proof.KeepKI4

set_option maxRecDepth 16384

noncomputable section

namespace Cert.KernelIdeal.KerRun

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Argument 0 ends as launched. -/
theorem W36_arg0 (c : Dev nD) : W36 m ρ c (Proc.devRef .tc main_arg0) = m ((c : Thread nD τ).loc main_arg0) := by
  rw [KerLayers.W36_eq]
  exact (Keep.keep4_a0 _ c).trans ((Keep.keep3_a0 _ c).trans ((Keep.keep2_a0 _ c).trans ((Keep.keep1_a0 _ c).trans (Keep.keep0_a0 _ c))))

/-- Argument 1 ends as launched. -/
theorem W36_arg1 (c : Dev nD) : W36 m ρ c (Proc.devRef .tc main_arg1) = m ((c : Thread nD τ).loc main_arg1) := by
  rw [KerLayers.W36_eq]
  exact (Keep.keep4_a1 _ c).trans ((Keep.keep3_a1 _ c).trans ((Keep.keep2_a1 _ c).trans ((Keep.keep1_a1 _ c).trans (Keep.keep0_a1 _ c))))

/-- Argument 2 ends as launched. -/
theorem W36_arg2 (c : Dev nD) : W36 m ρ c (Proc.devRef .tc main_arg2) = m ((c : Thread nD τ).loc main_arg2) := by
  rw [KerLayers.W36_eq]
  exact (Keep.keep4_a2 _ c).trans ((Keep.keep3_a2 _ c).trans ((Keep.keep2_a2 _ c).trans ((Keep.keep1_a2 _ c).trans (Keep.keep0_a2 _ c))))

/-- Argument 3 ends as launched. -/
theorem W36_arg3 (c : Dev nD) : W36 m ρ c (Proc.devRef .tc main_arg3) = m ((c : Thread nD τ).loc main_arg3) := by
  rw [KerLayers.W36_eq]
  exact (Keep.keep4_a3 _ c).trans ((Keep.keep3_a3 _ c).trans ((Keep.keep2_a3 _ c).trans ((Keep.keep1_a3 _ c).trans (Keep.keep0_a3 _ c))))

/-- Argument 4 ends as launched. -/
theorem W36_arg4 (c : Dev nD) : W36 m ρ c (Proc.devRef .tc main_arg4) = m ((c : Thread nD τ).loc main_arg4) := by
  rw [KerLayers.W36_eq]
  exact (Keep.keep4_a4 _ c).trans ((Keep.keep3_a4 _ c).trans ((Keep.keep2_a4 _ c).trans ((Keep.keep1_a4 _ c).trans (Keep.keep0_a4 _ c))))

/-- Argument 5 ends as launched. -/
theorem W36_arg5 (c : Dev nD) : W36 m ρ c (Proc.devRef .tc main_arg5) = m ((c : Thread nD τ).loc main_arg5) := by
  rw [KerLayers.W36_eq]
  exact (Keep.keep4_a5 _ c).trans ((Keep.keep3_a5 _ c).trans ((Keep.keep2_a5 _ c).trans ((Keep.keep1_a5 _ c).trans (Keep.keep0_a5 _ c))))

/-- Argument 6 ends as launched. -/
theorem W36_arg6 (c : Dev nD) : W36 m ρ c (Proc.devRef .tc main_arg6) = m ((c : Thread nD τ).loc main_arg6) := by
  rw [KerLayers.W36_eq]
  exact (Keep.keep4_a6 _ c).trans ((Keep.keep3_a6 _ c).trans ((Keep.keep2_a6 _ c).trans ((Keep.keep1_a6 _ c).trans (Keep.keep0_a6 _ c))))

/-- Argument 7 ends as launched. -/
theorem W36_arg7 (c : Dev nD) : W36 m ρ c (Proc.devRef .tc main_arg7) = m ((c : Thread nD τ).loc main_arg7) := by
  rw [KerLayers.W36_eq]
  exact (Keep.keep4_a7 _ c).trans ((Keep.keep3_a7 _ c).trans ((Keep.keep2_a7 _ c).trans ((Keep.keep1_a7 _ c).trans (Keep.keep0_a7 _ c))))

/-- Argument 8 ends as launched. -/
theorem W36_arg8 (c : Dev nD) : W36 m ρ c (Proc.devRef .tc main_arg8) = m ((c : Thread nD τ).loc main_arg8) := by
  rw [KerLayers.W36_eq]
  exact (Keep.keep4_a8 _ c).trans ((Keep.keep3_a8 _ c).trans ((Keep.keep2_a8 _ c).trans ((Keep.keep1_a8 _ c).trans (Keep.keep0_a8 _ c))))

/-- Argument 9 ends as launched. -/
theorem W36_arg9 (c : Dev nD) : W36 m ρ c (Proc.devRef .tc main_arg9) = m ((c : Thread nD τ).loc main_arg9) := by
  rw [KerLayers.W36_eq]
  exact (Keep.keep4_a9 _ c).trans ((Keep.keep3_a9 _ c).trans ((Keep.keep2_a9 _ c).trans ((Keep.keep1_a9 _ c).trans (Keep.keep0_a9 _ c))))

/-- Argument 10 ends as launched. -/
theorem W36_arg10 (c : Dev nD) : W36 m ρ c (Proc.devRef .tc main_arg10) = m ((c : Thread nD τ).loc main_arg10) := by
  rw [KerLayers.W36_eq]
  exact (Keep.keep4_a10 _ c).trans ((Keep.keep3_a10 _ c).trans ((Keep.keep2_a10 _ c).trans ((Keep.keep1_a10 _ c).trans (Keep.keep0_a10 _ c))))

/-- Argument 11 ends as launched. -/
theorem W36_arg11 (c : Dev nD) : W36 m ρ c (Proc.devRef .tc main_arg11) = m ((c : Thread nD τ).loc main_arg11) := by
  rw [KerLayers.W36_eq]
  exact (Keep.keep4_a11 _ c).trans ((Keep.keep3_a11 _ c).trans ((Keep.keep2_a11 _ c).trans ((Keep.keep1_a11 _ c).trans (Keep.keep0_a11 _ c))))

/-- Argument 12 ends as launched. -/
theorem W36_arg12 (c : Dev nD) : W36 m ρ c (Proc.devRef .tc main_arg12) = m ((c : Thread nD τ).loc main_arg12) := by
  rw [KerLayers.W36_eq]
  exact (Keep.keep4_a12 _ c).trans ((Keep.keep3_a12 _ c).trans ((Keep.keep2_a12 _ c).trans ((Keep.keep1_a12 _ c).trans (Keep.keep0_a12 _ c))))

/-- Argument 13 ends as launched. -/
theorem W36_arg13 (c : Dev nD) : W36 m ρ c (Proc.devRef .tc main_arg13) = m ((c : Thread nD τ).loc main_arg13) := by
  rw [KerLayers.W36_eq]
  exact (Keep.keep4_a13 _ c).trans ((Keep.keep3_a13 _ c).trans ((Keep.keep2_a13 _ c).trans ((Keep.keep1_a13 _ c).trans (Keep.keep0_a13 _ c))))

/-- Argument 14 ends as launched. -/
theorem W36_arg14 (c : Dev nD) : W36 m ρ c (Proc.devRef .tc main_arg14) = m ((c : Thread nD τ).loc main_arg14) := by
  rw [KerLayers.W36_eq]
  exact (Keep.keep4_a14 _ c).trans ((Keep.keep3_a14 _ c).trans ((Keep.keep2_a14 _ c).trans ((Keep.keep1_a14 _ c).trans (Keep.keep0_a14 _ c))))

/-- Argument 15 ends as launched. -/
theorem W36_arg15 (c : Dev nD) : W36 m ρ c (Proc.devRef .tc main_arg15) = m ((c : Thread nD τ).loc main_arg15) := by
  rw [KerLayers.W36_eq]
  exact (Keep.keep4_a15 _ c).trans ((Keep.keep3_a15 _ c).trans ((Keep.keep2_a15 _ c).trans ((Keep.keep1_a15 _ c).trans (Keep.keep0_a15 _ c))))

/-- Argument 16 ends as launched. -/
theorem W36_arg16 (c : Dev nD) : W36 m ρ c (Proc.devRef .tc main_arg16) = m ((c : Thread nD τ).loc main_arg16) := by
  rw [KerLayers.W36_eq]
  exact (Keep.keep4_a16 _ c).trans ((Keep.keep3_a16 _ c).trans ((Keep.keep2_a16 _ c).trans ((Keep.keep1_a16 _ c).trans (Keep.keep0_a16 _ c))))

/-- Argument 17 ends as launched. -/
theorem W36_arg17 (c : Dev nD) : W36 m ρ c (Proc.devRef .tc main_arg17) = m ((c : Thread nD τ).loc main_arg17) := by
  rw [KerLayers.W36_eq]
  exact (Keep.keep4_a17 _ c).trans ((Keep.keep3_a17 _ c).trans ((Keep.keep2_a17 _ c).trans ((Keep.keep1_a17 _ c).trans (Keep.keep0_a17 _ c))))

/-- Argument 18 ends as launched. -/
theorem W36_arg18 (c : Dev nD) : W36 m ρ c (Proc.devRef .tc main_arg18) = m ((c : Thread nD τ).loc main_arg18) := by
  rw [KerLayers.W36_eq]
  exact (Keep.keep4_a18 _ c).trans ((Keep.keep3_a18 _ c).trans ((Keep.keep2_a18 _ c).trans ((Keep.keep1_a18 _ c).trans (Keep.keep0_a18 _ c))))

/-- Argument 19 ends as launched. -/
theorem W36_arg19 (c : Dev nD) : W36 m ρ c (Proc.devRef .tc main_arg19) = m ((c : Thread nD τ).loc main_arg19) := by
  rw [KerLayers.W36_eq]
  exact (Keep.keep4_a19 _ c).trans ((Keep.keep3_a19 _ c).trans ((Keep.keep2_a19 _ c).trans ((Keep.keep1_a19 _ c).trans (Keep.keep0_a19 _ c))))

/-- Argument 20 ends as launched. -/
theorem W36_arg20 (c : Dev nD) : W36 m ρ c (Proc.devRef .tc main_arg20) = m ((c : Thread nD τ).loc main_arg20) := by
  rw [KerLayers.W36_eq]
  exact (Keep.keep4_a20 _ c).trans ((Keep.keep3_a20 _ c).trans ((Keep.keep2_a20 _ c).trans ((Keep.keep1_a20 _ c).trans (Keep.keep0_a20 _ c))))

/-- Argument 21 ends as launched. -/
theorem W36_arg21 (c : Dev nD) : W36 m ρ c (Proc.devRef .tc main_arg21) = m ((c : Thread nD τ).loc main_arg21) := by
  rw [KerLayers.W36_eq]
  exact (Keep.keep4_a21 _ c).trans ((Keep.keep3_a21 _ c).trans ((Keep.keep2_a21 _ c).trans ((Keep.keep1_a21 _ c).trans (Keep.keep0_a21 _ c))))

set_option backward.isDefEq.respectTransparency.types false in
/-- The run, with the result array at the last boundary's contents and the arguments unchanged. -/
theorem run_value : θ_run defs (onTc (τ := τ) (main (F := F))) ⟨m, fun _ => 0, ρ⟩ (fun r => ∀ c : Dev nD,
      r.2.mem ((c.tc : Thread nD τ).loc main_v443) = W36 m ρ c (Proc.devRef .tc main_v443)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W36 m ρ c b)
    (hfin := fun c s' => by
      iintro ⟨⟨Hh, -⟩, HSI⟩
      unfold StableHlo.held
      imodintro
      iapply (pointsTo_read_all (Pipeline.ucRefs τ sig) (fun b => (((c : Thread nD τ)).1, b)) (W36 m ρ c) s')
      isplitl [Hh] <;> iassumption)
    (hQ := fun s h c =>
      ⟨h c _ (mem_uc main_v443 (by decide)),
       (h c _ (mem_uc main_arg0 (by decide))).trans (W36_arg0 m ρ c),
       (h c _ (mem_uc main_arg1 (by decide))).trans (W36_arg1 m ρ c),
       (h c _ (mem_uc main_arg2 (by decide))).trans (W36_arg2 m ρ c),
       (h c _ (mem_uc main_arg3 (by decide))).trans (W36_arg3 m ρ c),
       (h c _ (mem_uc main_arg4 (by decide))).trans (W36_arg4 m ρ c),
       (h c _ (mem_uc main_arg5 (by decide))).trans (W36_arg5 m ρ c),
       (h c _ (mem_uc main_arg6 (by decide))).trans (W36_arg6 m ρ c),
       (h c _ (mem_uc main_arg7 (by decide))).trans (W36_arg7 m ρ c),
       (h c _ (mem_uc main_arg8 (by decide))).trans (W36_arg8 m ρ c),
       (h c _ (mem_uc main_arg9 (by decide))).trans (W36_arg9 m ρ c),
       (h c _ (mem_uc main_arg10 (by decide))).trans (W36_arg10 m ρ c),
       (h c _ (mem_uc main_arg11 (by decide))).trans (W36_arg11 m ρ c),
       (h c _ (mem_uc main_arg12 (by decide))).trans (W36_arg12 m ρ c),
       (h c _ (mem_uc main_arg13 (by decide))).trans (W36_arg13 m ρ c),
       (h c _ (mem_uc main_arg14 (by decide))).trans (W36_arg14 m ρ c),
       (h c _ (mem_uc main_arg15 (by decide))).trans (W36_arg15 m ρ c),
       (h c _ (mem_uc main_arg16 (by decide))).trans (W36_arg16 m ρ c),
       (h c _ (mem_uc main_arg17 (by decide))).trans (W36_arg17 m ρ c),
       (h c _ (mem_uc main_arg18 (by decide))).trans (W36_arg18 m ρ c),
       (h c _ (mem_uc main_arg19 (by decide))).trans (W36_arg19 m ρ c),
       (h c _ (mem_uc main_arg20 (by decide))).trans (W36_arg20 m ρ c),
       (h c _ (mem_uc main_arg21 (by decide))).trans (W36_arg21 m ρ c)⟩)

end Cert.KernelIdeal.KerRun

end
-- ==== Proof.RefOps.lean ====
/- The reference program's host operations as lists, in program order, cut at its sixty-statement windows and at the end of each
   network layer: a transliteration of the printed program, statement by statement; it carries no argument. -/
import proofs.«170918_j12352325943916_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Statements 1 … 60 of @main: 83 operations. -/
abbrev ops0 : List (HloOp τ sig (Elt F)) :=
  [ nullary main_c (constantI S_ 32 0#32),
    unary main_c main_v0 (broadcastInDim S1 ![] bcast_S_S1 : (⟨S_, .i32⟩ : BufTy).Contents (Elt F) → (⟨S1, .i32⟩ : BufTy).Contents (Elt F)),
    TRef.nullary main_call0.call0.c (constantI S_ 32 0#32),
    TRef.unary main_call0.call0.c main_call0.call0.v0 (broadcastInDim S_ ![] bcast_S_S_),
    TRef.binary (.of main_arg20) main_call0.call0.v0 main_call0.call0.v1 (fun x v => Host.reduceWindow IntOp.addi ![16] ![1] ![15] ![0] x v reduceWindows_S16_S16_w16s1p15_0 h_S_),
    binary main_v0 main_v1 main_v2 ((fun a b => concatenate S17 0 [⟨S1, a⟩, ⟨S16, b⟩] concatenates_S1_S16_S17_d0) : (⟨S1, .i32⟩ : BufTy).Contents (Elt F) → (⟨S16, .i32⟩ : BufTy).Contents (Elt F) → (⟨S17, .i32⟩ : BufTy).Contents (Elt F)),
    nullary main_c_0 (constantI S_ 32 0#32),
    unary main_c_0 main_v3 (broadcastInDim S262144 ![] bcast_S_S262144 : (⟨S_, .i32⟩ : BufTy).Contents (Elt F) → (⟨S262144, .i32⟩ : BufTy).Contents (Elt F)),
    binary main_arg17 main_v3 main_v4 (cmpi .slt : (⟨S262144, .i32⟩ : BufTy).Contents (Elt F) → (⟨S262144, .i32⟩ : BufTy).Contents (Elt F) → (⟨S262144, .i1⟩ : BufTy).Contents (Elt F)),
    nullary main_c_1 (constantI S_ 32 17#32),
    unary main_c_1 main_v5 (broadcastInDim S262144 ![] bcast_S_S262144 : (⟨S_, .i32⟩ : BufTy).Contents (Elt F) → (⟨S262144, .i32⟩ : BufTy).Contents (Elt F)),
    binary main_arg17 main_v5 main_v6 (addi : (⟨S262144, .i32⟩ : BufTy).Contents (Elt F) → (⟨S262144, .i32⟩ : BufTy).Contents (Elt F) → (⟨S262144, .i32⟩ : BufTy).Contents (Elt F)),
    ternary main_v4 main_v6 main_arg17 main_v7 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    unary main_v7 main_v8 (broadcastInDim S262144x1 ![0] bcast_S262144_S262144x1_0 : (⟨S262144, .i32⟩ : BufTy).Contents (Elt F) → (⟨S262144x1, .i32⟩ : BufTy).Contents (Elt F)),
    binary main_v2 main_v8 main_v9 ((fun x i => Host.gather gather_S17_S262144x1_S262144_n_0_n_n_0_1_1 x i) : (⟨S17, .i32⟩ : BufTy).Contents (Elt F) → (⟨S262144x1, .i32⟩ : BufTy).Contents (Elt F) → (⟨S262144, .i32⟩ : BufTy).Contents (Elt F)),
    binary main_v9 main_arg18 main_v10 (addi : (⟨S262144, .i32⟩ : BufTy).Contents (Elt F) → (⟨S262144, .i32⟩ : BufTy).Contents (Elt F) → (⟨S262144, .i32⟩ : BufTy).Contents (Elt F)),
    unary main_arg1 main_v11 ((extractStridedSlice S1x128x128 ![0, 0, 0] · slices_S4x128x128_S1x128x128_0_0_0) : (⟨S4x128x128, .f32⟩ : BufTy).Contents (Elt F) → (⟨S1x128x128, .f32⟩ : BufTy).Contents (Elt F)),
    reshape main_v11 main_v12 rfl shapeCasts_S1x128x128_S128x128,
    unary main_arg2 main_v13 ((extractStridedSlice S1x128x128 ![0, 0, 0] · slices_S4x128x128_S1x128x128_0_0_0) : (⟨S4x128x128, .f32⟩ : BufTy).Contents (Elt F) → (⟨S1x128x128, .f32⟩ : BufTy).Contents (Elt F)),
    reshape main_v13 main_v14 rfl shapeCasts_S1x128x128_S128x128,
    unary main_arg3 main_v15 ((extractStridedSlice S1x128 ![0, 0] · slices_S4x128_S1x128_0_0) : (⟨S4x128, .f32⟩ : BufTy).Contents (Elt F) → (⟨S1x128, .f32⟩ : BufTy).Contents (Elt F)),
    reshape main_v15 main_v16 rfl shapeCasts_S1x128_S128,
    unary main_arg15 main_v17 ((extractStridedSlice S1x2097152 ![0, 0] · slices_S2x2097152_S1x2097152_0_0) : (⟨S2x2097152, .i32⟩ : BufTy).Contents (Elt F) → (⟨S1x2097152, .i32⟩ : BufTy).Contents (Elt F)),
    reshape main_v17 main_v18 rfl shapeCasts_S1x2097152_S2097152,
    nullary main_c_2 (constantI S_ 32 0#32),
    unary main_c_2 main_v19 (broadcastInDim S2097152 ![] bcast_S_S2097152 : (⟨S_, .i32⟩ : BufTy).Contents (Elt F) → (⟨S2097152, .i32⟩ : BufTy).Contents (Elt F)),
    binary main_v18 main_v19 main_v20 (cmpi .slt : (⟨S2097152, .i32⟩ : BufTy).Contents (Elt F) → (⟨S2097152, .i32⟩ : BufTy).Contents (Elt F) → (⟨S2097152, .i1⟩ : BufTy).Contents (Elt F)),
    nullary main_c_3 (constantI S_ 32 262144#32),
    unary main_c_3 main_v21 (broadcastInDim S2097152 ![] bcast_S_S2097152 : (⟨S_, .i32⟩ : BufTy).Contents (Elt F) → (⟨S2097152, .i32⟩ : BufTy).Contents (Elt F)),
    binary main_v18 main_v21 main_v22 (addi : (⟨S2097152, .i32⟩ : BufTy).Contents (Elt F) → (⟨S2097152, .i32⟩ : BufTy).Contents (Elt F) → (⟨S2097152, .i32⟩ : BufTy).Contents (Elt F)),
    ternary main_v20 main_v22 main_v18 main_v23 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    unary main_v23 main_v24 (broadcastInDim S2097152x1 ![0] bcast_S2097152_S2097152x1_0 : (⟨S2097152, .i32⟩ : BufTy).Contents (Elt F) → (⟨S2097152x1, .i32⟩ : BufTy).Contents (Elt F)),
    binary main_arg0 main_v24 main_v25 ((fun x i => Host.gather gather_S262144x128_S2097152x1_S2097152x128_1_0_n_n_0_1_1128 x i) : (⟨S262144x128, .f32⟩ : BufTy).Contents (Elt F) → (⟨S2097152x1, .i32⟩ : BufTy).Contents (Elt F) → (⟨S2097152x128, .f32⟩ : BufTy).Contents (Elt F)),
    unary main_arg15 main_v26 ((extractStridedSlice S1x2097152 ![1, 0] · slices_S2x2097152_S1x2097152_1_0) : (⟨S2x2097152, .i32⟩ : BufTy).Contents (Elt F) → (⟨S1x2097152, .i32⟩ : BufTy).Contents (Elt F)),
    reshape main_v26 main_v27 rfl shapeCasts_S1x2097152_S2097152,
    nullary main_cst (constant S_ .f32 0x00000000#32),
    unary main_cst main_v28 (broadcastInDim S262144x128 ![] bcast_S_S262144x128 : (⟨S_, .f32⟩ : BufTy).Contents (Elt F) → (⟨S262144x128, .f32⟩ : BufTy).Contents (Elt F)),
    unary main_v27 main_v29 (broadcastInDim S2097152x1 ![0] bcast_S2097152_S2097152x1_0 : (⟨S2097152, .i32⟩ : BufTy).Contents (Elt F) → (⟨S2097152x1, .i32⟩ : BufTy).Contents (Elt F)),
    ternary main_v28 main_v29 main_v25 main_v30 ((fun x i u => Host.scatterAdd scatter_S262144x128_S2097152x1_S2097152x128_1_0_0_1 x i u) : (⟨S262144x128, .f32⟩ : BufTy).Contents (Elt F) → (⟨S2097152x1, .i32⟩ : BufTy).Contents (Elt F) → (⟨S2097152x128, .f32⟩ : BufTy).Contents (Elt F) → (⟨S262144x128, .f32⟩ : BufTy).Contents (Elt F)),
    binary main_arg0 main_v12 main_v31 ((fun l r => Host.dotGeneral dot_S262144x128_S128x128_S262144x128_1_0_0_1_n_n none l r) : (⟨S262144x128, .f32⟩ : BufTy).Contents (Elt F) → (⟨S128x128, .f32⟩ : BufTy).Contents (Elt F) → (⟨S262144x128, .f32⟩ : BufTy).Contents (Elt F)),
    binary main_v30 main_v14 main_v32 ((fun l r => Host.dotGeneral dot_S262144x128_S128x128_S262144x128_1_0_0_1_n_n none l r) : (⟨S262144x128, .f32⟩ : BufTy).Contents (Elt F) → (⟨S128x128, .f32⟩ : BufTy).Contents (Elt F) → (⟨S262144x128, .f32⟩ : BufTy).Contents (Elt F)),
    binary main_v31 main_v32 main_v33 (addf : (⟨S262144x128, .f32⟩ : BufTy).Contents (Elt F) → (⟨S262144x128, .f32⟩ : BufTy).Contents (Elt F) → (⟨S262144x128, .f32⟩ : BufTy).Contents (Elt F)),
    unary main_v16 main_v34 (broadcastInDim S1x128 ![1] bcast_S128_S1x128_1 : (⟨S128, .f32⟩ : BufTy).Contents (Elt F) → (⟨S1x128, .f32⟩ : BufTy).Contents (Elt F)),
    unary main_v34 main_v35 (broadcastInDim S262144x128 ![0, 1] bcast_S1x128_S262144x128_0_1 : (⟨S1x128, .f32⟩ : BufTy).Contents (Elt F) → (⟨S262144x128, .f32⟩ : BufTy).Contents (Elt F)),
    binary main_v33 main_v35 main_v36 (addf : (⟨S262144x128, .f32⟩ : BufTy).Contents (Elt F) → (⟨S262144x128, .f32⟩ : BufTy).Contents (Elt F) → (⟨S262144x128, .f32⟩ : BufTy).Contents (Elt F)),
    unary main_arg4 main_v37 ((extractStridedSlice S1x128 ![0, 0] · slices_S4x128_S1x128_0_0) : (⟨S4x128, .f32⟩ : BufTy).Contents (Elt F) → (⟨S1x128, .f32⟩ : BufTy).Contents (Elt F)),
    reshape main_v37 main_v38 rfl shapeCasts_S1x128_S128,
    unary main_arg5 main_v39 ((extractStridedSlice S1x128 ![0, 0] · slices_S4x128_S1x128_0_0) : (⟨S4x128, .f32⟩ : BufTy).Contents (Elt F) → (⟨S1x128, .f32⟩ : BufTy).Contents (Elt F)),
    reshape main_v39 main_v40 rfl shapeCasts_S1x128_S128,
    nullary main_cst_4 (constant S_ .f32 0x00000000#32),
    binary main_v36 main_cst_4 main_v41 ((fun x v => Host.reduceAdd x v reducesTo_S262144x128_S128_d0 h_S_) : (⟨S262144x128, .f32⟩ : BufTy).Contents (Elt F) → (⟨S_, .f32⟩ : BufTy).Contents (Elt F) → (⟨S128, .f32⟩ : BufTy).Contents (Elt F)),
    nullary main_cst_5 (constant S_ .f32 0x48800000#32),
    unary main_cst_5 main_v42 (broadcastInDim S128 ![] bcast_S_S128 : (⟨S_, .f32⟩ : BufTy).Contents (Elt F) → (⟨S128, .f32⟩ : BufTy).Contents (Elt F)),
    binary main_v41 main_v42 main_v43 (Host.divf : (⟨S128, .f32⟩ : BufTy).Contents (Elt F) → (⟨S128, .f32⟩ : BufTy).Contents (Elt F) → (⟨S128, .f32⟩ : BufTy).Contents (Elt F)),
    nullary main_c_6 (constantI S_ 32 0#32),
    TRef.nullary main_call1.cst (constant S_ .f32 0x00000000#32),
    TRef.binary (.of main_v36) main_call1.cst main_call1.v0 (fun x v => Host.reduceAdd x v reducesTo_S262144x128_S128_d0 h_S_),
    TRef.unary main_call1.v0 main_call1.v1 (broadcastInDim S1x128 ![1] bcast_S128_S1x128_1),
    TRef.nullary main_call1.cst_0 (constant S_ .f32 0x48800000#32),
    TRef.unary main_call1.cst_0 main_call1.v2 (broadcastInDim S1x128 ![] bcast_S_S1x128),
    TRef.binary main_call1.v1 main_call1.v2 main_call1.v3 Host.divf,
    TRef.unary main_call1.v3 main_call1.v4 (broadcastInDim S262144x128 ![0, 1] bcast_S1x128_S262144x128_0_1),
    TRef.binary (.of main_v36) main_call1.v4 main_call1.v5 subf,
    TRef.binary main_call1.v5 main_call1.v5 main_call1.v6 mulf,
    TRef.unary (.of main_c_6) main_call1.v7 (sitofp .f32),
    TRef.nullary main_call1.cst_1 (constant S_ .f32 0x48800000#32),
    TRef.binary main_call1.cst_1 main_call1.v7 main_call1.v8 subf,
    TRef.nullary main_call1.cst_2 (constant S_ .f32 0x00000000#32),
    TRef.binary main_call1.v6 main_call1.cst_2 main_call1.v9 (fun x v => Host.reduceAdd x v reducesTo_S262144x128_S128_d0 h_S_),
    TRef.unary main_call1.v8 main_call1.v10 (broadcastInDim S128 ![] bcast_S_S128),
    TRef.binary main_call1.v9 main_call1.v10 main_call1.v11 Host.divf,
    TRef.nullary main_call1.cst_3 (constant S_ .f32 0x00000000#32),
    TRef.binary main_call1.v8 main_call1.cst_3 main_call1.v12 (cmpf .ogt),
    TRef.nullary main_call1.cst_4 (constant S_ .f32 0x7FC00000#32),
    TRef.unary main_call1.cst_4 main_call1.call0.v0 id,
    TRef.unary main_call1.call0.v0 main_call1.call0.v1 (broadcastInDim S128 ![] bcast_S_S128),
    TRef.ternary main_call1.v12 main_call1.v11 main_call1.call0.v1 main_call1.call0.v2 (fun p a b => select (broadcastInDim S128 ![] bcast_S_S128 p) a b),
    unary main_v43 main_v45 (broadcastInDim S1x128 ![1] bcast_S128_S1x128_1 : (⟨S128, .f32⟩ : BufTy).Contents (Elt F) → (⟨S1x128, .f32⟩ : BufTy).Contents (Elt F)),
    unary main_v45 main_v46 (broadcastInDim S262144x128 ![0, 1] bcast_S1x128_S262144x128_0_1 : (⟨S1x128, .f32⟩ : BufTy).Contents (Elt F) → (⟨S262144x128, .f32⟩ : BufTy).Contents (Elt F)),
    binary main_v36 main_v46 main_v47 (subf : (⟨S262144x128, .f32⟩ : BufTy).Contents (Elt F) → (⟨S262144x128, .f32⟩ : BufTy).Contents (Elt F) → (⟨S262144x128, .f32⟩ : BufTy).Contents (Elt F)),
    nullary main_cst_7 (constant S_ .f32 0x3727C5AC#32),
    unary main_cst_7 main_v48 (broadcastInDim S128 ![] bcast_S_S128 : (⟨S_, .f32⟩ : BufTy).Contents (Elt F) → (⟨S128, .f32⟩ : BufTy).Contents (Elt F)),
    binary main_v44 main_v48 main_v49 (addf : (⟨S128, .f32⟩ : BufTy).Contents (Elt F) → (⟨S128, .f32⟩ : BufTy).Contents (Elt F) → (⟨S128, .f32⟩ : BufTy).Contents (Elt F)) ]

/-- Statements 61 … 120 of @main: 60 operations. -/
abbrev ops1 : List (HloOp τ sig (Elt F)) :=
  [ unary main_v49 main_v50 (Host.rsqrt : (⟨S128, .f32⟩ : BufTy).Contents (Elt F) → (⟨S128, .f32⟩ : BufTy).Contents (Elt F)),
    unary main_v50 main_v51 (broadcastInDim S1x128 ![1] bcast_S128_S1x128_1 : (⟨S128, .f32⟩ : BufTy).Contents (Elt F) → (⟨S1x128, .f32⟩ : BufTy).Contents (Elt F)),
    unary main_v51 main_v52 (broadcastInDim S262144x128 ![0, 1] bcast_S1x128_S262144x128_0_1 : (⟨S1x128, .f32⟩ : BufTy).Contents (Elt F) → (⟨S262144x128, .f32⟩ : BufTy).Contents (Elt F)),
    binary main_v47 main_v52 main_v53 (mulf : (⟨S262144x128, .f32⟩ : BufTy).Contents (Elt F) → (⟨S262144x128, .f32⟩ : BufTy).Contents (Elt F) → (⟨S262144x128, .f32⟩ : BufTy).Contents (Elt F)),
    unary main_v38 main_v54 (broadcastInDim S1x128 ![1] bcast_S128_S1x128_1 : (⟨S128, .f32⟩ : BufTy).Contents (Elt F) → (⟨S1x128, .f32⟩ : BufTy).Contents (Elt F)),
    unary main_v54 main_v55 (broadcastInDim S262144x128 ![0, 1] bcast_S1x128_S262144x128_0_1 : (⟨S1x128, .f32⟩ : BufTy).Contents (Elt F) → (⟨S262144x128, .f32⟩ : BufTy).Contents (Elt F)),
    binary main_v53 main_v55 main_v56 (mulf : (⟨S262144x128, .f32⟩ : BufTy).Contents (Elt F) → (⟨S262144x128, .f32⟩ : BufTy).Contents (Elt F) → (⟨S262144x128, .f32⟩ : BufTy).Contents (Elt F)),
    unary main_v40 main_v57 (broadcastInDim S1x128 ![1] bcast_S128_S1x128_1 : (⟨S128, .f32⟩ : BufTy).Contents (Elt F) → (⟨S1x128, .f32⟩ : BufTy).Contents (Elt F)),
    unary main_v57 main_v58 (broadcastInDim S262144x128 ![0, 1] bcast_S1x128_S262144x128_0_1 : (⟨S1x128, .f32⟩ : BufTy).Contents (Elt F) → (⟨S262144x128, .f32⟩ : BufTy).Contents (Elt F)),
    binary main_v56 main_v58 main_v59 (addf : (⟨S262144x128, .f32⟩ : BufTy).Contents (Elt F) → (⟨S262144x128, .f32⟩ : BufTy).Contents (Elt F) → (⟨S262144x128, .f32⟩ : BufTy).Contents (Elt F)),
    nullary main_cst_8 (constant S_ .f32 0x00000000#32),
    unary main_cst_8 main_v60 (broadcastInDim S2048x128 ![] bcast_S_S2048x128 : (⟨S_, .f32⟩ : BufTy).Contents (Elt F) → (⟨S2048x128, .f32⟩ : BufTy).Contents (Elt F)),
    unary main_v10 main_v61 (broadcastInDim S262144x1 ![0] bcast_S262144_S262144x1_0 : (⟨S262144, .i32⟩ : BufTy).Contents (Elt F) → (⟨S262144x1, .i32⟩ : BufTy).Contents (Elt F)),
    ternary main_v60 main_v61 main_arg0 main_v62 ((fun x i u => Host.scatterAdd scatter_S2048x128_S262144x1_S262144x128_1_0_0_1 x i u) : (⟨S2048x128, .f32⟩ : BufTy).Contents (Elt F) → (⟨S262144x1, .i32⟩ : BufTy).Contents (Elt F) → (⟨S262144x128, .f32⟩ : BufTy).Contents (Elt F) → (⟨S2048x128, .f32⟩ : BufTy).Contents (Elt F)),
    nullary main_cst_9 (constant S_ .f32 0x3F800000#32),
    unary main_cst_9 main_v63 (broadcastInDim S262144x1 ![] bcast_S_S262144x1 : (⟨S_, .f32⟩ : BufTy).Contents (Elt F) → (⟨S262144x1, .f32⟩ : BufTy).Contents (Elt F)),
    nullary main_cst_10 (constant S_ .f32 0x00000000#32),
    unary main_cst_10 main_v64 (broadcastInDim S2048x1 ![] bcast_S_S2048x1 : (⟨S_, .f32⟩ : BufTy).Contents (Elt F) → (⟨S2048x1, .f32⟩ : BufTy).Contents (Elt F)),
    unary main_v10 main_v65 (broadcastInDim S262144x1 ![0] bcast_S262144_S262144x1_0 : (⟨S262144, .i32⟩ : BufTy).Contents (Elt F) → (⟨S262144x1, .i32⟩ : BufTy).Contents (Elt F)),
    ternary main_v64 main_v65 main_v63 main_v66 ((fun x i u => Host.scatterAdd scatter_S2048x1_S262144x1_S262144x1_1_0_0_1 x i u) : (⟨S2048x1, .f32⟩ : BufTy).Contents (Elt F) → (⟨S262144x1, .i32⟩ : BufTy).Contents (Elt F) → (⟨S262144x1, .f32⟩ : BufTy).Contents (Elt F) → (⟨S2048x1, .f32⟩ : BufTy).Contents (Elt F)),
    nullary main_cst_11 (constant S_ .f32 0x3F800000#32),
    unary main_cst_11 main_v67 (broadcastInDim S2048x1 ![] bcast_S_S2048x1 : (⟨S_, .f32⟩ : BufTy).Contents (Elt F) → (⟨S2048x1, .f32⟩ : BufTy).Contents (Elt F)),
    binary main_v66 main_v67 main_v68 (maximumf : (⟨S2048x1, .f32⟩ : BufTy).Contents (Elt F) → (⟨S2048x1, .f32⟩ : BufTy).Contents (Elt F) → (⟨S2048x1, .f32⟩ : BufTy).Contents (Elt F)),
    unary main_v68 main_v69 (broadcastInDim S2048x128 ![0, 1] bcast_S2048x1_S2048x128_0_1 : (⟨S2048x1, .f32⟩ : BufTy).Contents (Elt F) → (⟨S2048x128, .f32⟩ : BufTy).Contents (Elt F)),
    binary main_v62 main_v69 main_v70 (Host.divf : (⟨S2048x128, .f32⟩ : BufTy).Contents (Elt F) → (⟨S2048x128, .f32⟩ : BufTy).Contents (Elt F) → (⟨S2048x128, .f32⟩ : BufTy).Contents (Elt F)),
    unary main_arg6 main_v71 ((extractStridedSlice S1x128x128 ![0, 0, 0] · slices_S4x128x128_S1x128x128_0_0_0) : (⟨S4x128x128, .f32⟩ : BufTy).Contents (Elt F) → (⟨S1x128x128, .f32⟩ : BufTy).Contents (Elt F)),
    reshape main_v71 main_v72 rfl shapeCasts_S1x128x128_S128x128,
    unary main_arg7 main_v73 ((extractStridedSlice S1x128x128 ![0, 0, 0] · slices_S4x128x128_S1x128x128_0_0_0) : (⟨S4x128x128, .f32⟩ : BufTy).Contents (Elt F) → (⟨S1x128x128, .f32⟩ : BufTy).Contents (Elt F)),
    reshape main_v73 main_v74 rfl shapeCasts_S1x128x128_S128x128,
    unary main_arg8 main_v75 ((extractStridedSlice S1x128 ![0, 0] · slices_S4x128_S1x128_0_0) : (⟨S4x128, .f32⟩ : BufTy).Contents (Elt F) → (⟨S1x128, .f32⟩ : BufTy).Contents (Elt F)),
    reshape main_v75 main_v76 rfl shapeCasts_S1x128_S128,
    unary main_arg16 main_v77 ((extractStridedSlice S1x32768 ![0, 0] · slices_S2x32768_S1x32768_0_0) : (⟨S2x32768, .i32⟩ : BufTy).Contents (Elt F) → (⟨S1x32768, .i32⟩ : BufTy).Contents (Elt F)),
    reshape main_v77 main_v78 rfl shapeCasts_S1x32768_S32768,
    nullary main_c_12 (constantI S_ 32 0#32),
    unary main_c_12 main_v79 (broadcastInDim S32768 ![] bcast_S_S32768 : (⟨S_, .i32⟩ : BufTy).Contents (Elt F) → (⟨S32768, .i32⟩ : BufTy).Contents (Elt F)),
    binary main_v78 main_v79 main_v80 (cmpi .slt : (⟨S32768, .i32⟩ : BufTy).Contents (Elt F) → (⟨S32768, .i32⟩ : BufTy).Contents (Elt F) → (⟨S32768, .i1⟩ : BufTy).Contents (Elt F)),
    nullary main_c_13 (constantI S_ 32 2048#32),
    unary main_c_13 main_v81 (broadcastInDim S32768 ![] bcast_S_S32768 : (⟨S_, .i32⟩ : BufTy).Contents (Elt F) → (⟨S32768, .i32⟩ : BufTy).Contents (Elt F)),
    binary main_v78 main_v81 main_v82 (addi : (⟨S32768, .i32⟩ : BufTy).Contents (Elt F) → (⟨S32768, .i32⟩ : BufTy).Contents (Elt F) → (⟨S32768, .i32⟩ : BufTy).Contents (Elt F)),
    ternary main_v80 main_v82 main_v78 main_v83 (select : (⟨S32768, .i1⟩ : BufTy).Contents (Elt F) → (⟨S32768, .i32⟩ : BufTy).Contents (Elt F) → (⟨S32768, .i32⟩ : BufTy).Contents (Elt F) → (⟨S32768, .i32⟩ : BufTy).Contents (Elt F)),
    unary main_v83 main_v84 (broadcastInDim S32768x1 ![0] bcast_S32768_S32768x1_0 : (⟨S32768, .i32⟩ : BufTy).Contents (Elt F) → (⟨S32768x1, .i32⟩ : BufTy).Contents (Elt F)),
    binary main_v70 main_v84 main_v85 ((fun x i => Host.gather gather_S2048x128_S32768x1_S32768x128_1_0_n_n_0_1_1128 x i) : (⟨S2048x128, .f32⟩ : BufTy).Contents (Elt F) → (⟨S32768x1, .i32⟩ : BufTy).Contents (Elt F) → (⟨S32768x128, .f32⟩ : BufTy).Contents (Elt F)),
    unary main_arg16 main_v86 ((extractStridedSlice S1x32768 ![1, 0] · slices_S2x32768_S1x32768_1_0) : (⟨S2x32768, .i32⟩ : BufTy).Contents (Elt F) → (⟨S1x32768, .i32⟩ : BufTy).Contents (Elt F)),
    reshape main_v86 main_v87 rfl shapeCasts_S1x32768_S32768,
    nullary main_cst_14 (constant S_ .f32 0x00000000#32),
    unary main_cst_14 main_v88 (broadcastInDim S2048x128 ![] bcast_S_S2048x128 : (⟨S_, .f32⟩ : BufTy).Contents (Elt F) → (⟨S2048x128, .f32⟩ : BufTy).Contents (Elt F)),
    unary main_v87 main_v89 (broadcastInDim S32768x1 ![0] bcast_S32768_S32768x1_0 : (⟨S32768, .i32⟩ : BufTy).Contents (Elt F) → (⟨S32768x1, .i32⟩ : BufTy).Contents (Elt F)),
    ternary main_v88 main_v89 main_v85 main_v90 ((fun x i u => Host.scatterAdd scatter_S2048x128_S32768x1_S32768x128_1_0_0_1 x i u) : (⟨S2048x128, .f32⟩ : BufTy).Contents (Elt F) → (⟨S32768x1, .i32⟩ : BufTy).Contents (Elt F) → (⟨S32768x128, .f32⟩ : BufTy).Contents (Elt F) → (⟨S2048x128, .f32⟩ : BufTy).Contents (Elt F)),
    binary main_v70 main_v72 main_v91 ((fun l r => Host.dotGeneral dot_S2048x128_S128x128_S2048x128_1_0_0_1_n_n none l r) : (⟨S2048x128, .f32⟩ : BufTy).Contents (Elt F) → (⟨S128x128, .f32⟩ : BufTy).Contents (Elt F) → (⟨S2048x128, .f32⟩ : BufTy).Contents (Elt F)),
    binary main_v90 main_v74 main_v92 ((fun l r => Host.dotGeneral dot_S2048x128_S128x128_S2048x128_1_0_0_1_n_n none l r) : (⟨S2048x128, .f32⟩ : BufTy).Contents (Elt F) → (⟨S128x128, .f32⟩ : BufTy).Contents (Elt F) → (⟨S2048x128, .f32⟩ : BufTy).Contents (Elt F)),
    binary main_v91 main_v92 main_v93 (addf : (⟨S2048x128, .f32⟩ : BufTy).Contents (Elt F) → (⟨S2048x128, .f32⟩ : BufTy).Contents (Elt F) → (⟨S2048x128, .f32⟩ : BufTy).Contents (Elt F)),
    unary main_v76 main_v94 (broadcastInDim S1x128 ![1] bcast_S128_S1x128_1 : (⟨S128, .f32⟩ : BufTy).Contents (Elt F) → (⟨S1x128, .f32⟩ : BufTy).Contents (Elt F)),
    unary main_v94 main_v95 (broadcastInDim S2048x128 ![0, 1] bcast_S1x128_S2048x128_0_1 : (⟨S1x128, .f32⟩ : BufTy).Contents (Elt F) → (⟨S2048x128, .f32⟩ : BufTy).Contents (Elt F)),
    binary main_v93 main_v95 main_v96 (addf : (⟨S2048x128, .f32⟩ : BufTy).Contents (Elt F) → (⟨S2048x128, .f32⟩ : BufTy).Contents (Elt F) → (⟨S2048x128, .f32⟩ : BufTy).Contents (Elt F)),
    unary main_arg9 main_v97 ((extractStridedSlice S1x128 ![0, 0] · slices_S4x128_S1x128_0_0) : (⟨S4x128, .f32⟩ : BufTy).Contents (Elt F) → (⟨S1x128, .f32⟩ : BufTy).Contents (Elt F)),
    reshape main_v97 main_v98 rfl shapeCasts_S1x128_S128,
    unary main_arg10 main_v99 ((extractStridedSlice S1x128 ![0, 0] · slices_S4x128_S1x128_0_0) : (⟨S4x128, .f32⟩ : BufTy).Contents (Elt F) → (⟨S1x128, .f32⟩ : BufTy).Contents (Elt F)),
    reshape main_v99 main_v100 rfl shapeCasts_S1x128_S128,
    nullary main_cst_15 (constant S_ .f32 0x00000000#32),
    binary main_v96 main_cst_15 main_v101 ((fun x v => Host.reduceAdd x v reducesTo_S2048x128_S128_d0 h_S_) : (⟨S2048x128, .f32⟩ : BufTy).Contents (Elt F) → (⟨S_, .f32⟩ : BufTy).Contents (Elt F) → (⟨S128, .f32⟩ : BufTy).Contents (Elt F)) ]

/-- Statements 121 … 152 of @main: 55 operations. -/
abbrev ops2 : List (HloOp τ sig (Elt F)) :=
  [ nullary main_cst_16 (constant S_ .f32 0x45000000#32),
    unary main_cst_16 main_v102 (broadcastInDim S128 ![] bcast_S_S128 : (⟨S_, .f32⟩ : BufTy).Contents (Elt F) → (⟨S128, .f32⟩ : BufTy).Contents (Elt F)),
    binary main_v101 main_v102 main_v103 (Host.divf : (⟨S128, .f32⟩ : BufTy).Contents (Elt F) → (⟨S128, .f32⟩ : BufTy).Contents (Elt F) → (⟨S128, .f32⟩ : BufTy).Contents (Elt F)),
    nullary main_c_17 (constantI S_ 32 0#32),
    TRef.nullary main_call2.cst (constant S_ .f32 0x00000000#32),
    TRef.binary (.of main_v96) main_call2.cst main_call2.v0 (fun x v => Host.reduceAdd x v reducesTo_S2048x128_S128_d0 h_S_),
    TRef.unary main_call2.v0 main_call2.v1 (broadcastInDim S1x128 ![1] bcast_S128_S1x128_1),
    TRef.nullary main_call2.cst_0 (constant S_ .f32 0x45000000#32),
    TRef.unary main_call2.cst_0 main_call2.v2 (broadcastInDim S1x128 ![] bcast_S_S1x128),
    TRef.binary main_call2.v1 main_call2.v2 main_call2.v3 Host.divf,
    TRef.unary main_call2.v3 main_call2.v4 (broadcastInDim S2048x128 ![0, 1] bcast_S1x128_S2048x128_0_1),
    TRef.binary (.of main_v96) main_call2.v4 main_call2.v5 subf,
    TRef.binary main_call2.v5 main_call2.v5 main_call2.v6 mulf,
    TRef.unary (.of main_c_17) main_call2.v7 (sitofp .f32),
    TRef.nullary main_call2.cst_1 (constant S_ .f32 0x45000000#32),
    TRef.binary main_call2.cst_1 main_call2.v7 main_call2.v8 subf,
    TRef.nullary main_call2.cst_2 (constant S_ .f32 0x00000000#32),
    TRef.binary main_call2.v6 main_call2.cst_2 main_call2.v9 (fun x v => Host.reduceAdd x v reducesTo_S2048x128_S128_d0 h_S_),
    TRef.unary main_call2.v8 main_call2.v10 (broadcastInDim S128 ![] bcast_S_S128),
    TRef.binary main_call2.v9 main_call2.v10 main_call2.v11 Host.divf,
    TRef.nullary main_call2.cst_3 (constant S_ .f32 0x00000000#32),
    TRef.binary main_call2.v8 main_call2.cst_3 main_call2.v12 (cmpf .ogt),
    TRef.nullary main_call2.cst_4 (constant S_ .f32 0x7FC00000#32),
    TRef.unary main_call2.cst_4 main_call2.call0.v0 id,
    TRef.unary main_call2.call0.v0 main_call2.call0.v1 (broadcastInDim S128 ![] bcast_S_S128),
    TRef.ternary main_call2.v12 main_call2.v11 main_call2.call0.v1 main_call2.call0.v2 (fun p a b => select (broadcastInDim S128 ![] bcast_S_S128 p) a b),
    unary main_v103 main_v105 (broadcastInDim S1x128 ![1] bcast_S128_S1x128_1 : (⟨S128, .f32⟩ : BufTy).Contents (Elt F) → (⟨S1x128, .f32⟩ : BufTy).Contents (Elt F)),
    unary main_v105 main_v106 (broadcastInDim S2048x128 ![0, 1] bcast_S1x128_S2048x128_0_1 : (⟨S1x128, .f32⟩ : BufTy).Contents (Elt F) → (⟨S2048x128, .f32⟩ : BufTy).Contents (Elt F)),
    binary main_v96 main_v106 main_v107 (subf : (⟨S2048x128, .f32⟩ : BufTy).Contents (Elt F) → (⟨S2048x128, .f32⟩ : BufTy).Contents (Elt F) → (⟨S2048x128, .f32⟩ : BufTy).Contents (Elt F)),
    nullary main_cst_18 (constant S_ .f32 0x3727C5AC#32),
    unary main_cst_18 main_v108 (broadcastInDim S128 ![] bcast_S_S128 : (⟨S_, .f32⟩ : BufTy).Contents (Elt F) → (⟨S128, .f32⟩ : BufTy).Contents (Elt F)),
    binary main_v104 main_v108 main_v109 (addf : (⟨S128, .f32⟩ : BufTy).Contents (Elt F) → (⟨S128, .f32⟩ : BufTy).Contents (Elt F) → (⟨S128, .f32⟩ : BufTy).Contents (Elt F)),
    unary main_v109 main_v110 (Host.rsqrt : (⟨S128, .f32⟩ : BufTy).Contents (Elt F) → (⟨S128, .f32⟩ : BufTy).Contents (Elt F)),
    unary main_v110 main_v111 (broadcastInDim S1x128 ![1] bcast_S128_S1x128_1 : (⟨S128, .f32⟩ : BufTy).Contents (Elt F) → (⟨S1x128, .f32⟩ : BufTy).Contents (Elt F)),
    unary main_v111 main_v112 (broadcastInDim S2048x128 ![0, 1] bcast_S1x128_S2048x128_0_1 : (⟨S1x128, .f32⟩ : BufTy).Contents (Elt F) → (⟨S2048x128, .f32⟩ : BufTy).Contents (Elt F)),
    binary main_v107 main_v112 main_v113 (mulf : (⟨S2048x128, .f32⟩ : BufTy).Contents (Elt F) → (⟨S2048x128, .f32⟩ : BufTy).Contents (Elt F) → (⟨S2048x128, .f32⟩ : BufTy).Contents (Elt F)),
    unary main_v98 main_v114 (broadcastInDim S1x128 ![1] bcast_S128_S1x128_1 : (⟨S128, .f32⟩ : BufTy).Contents (Elt F) → (⟨S1x128, .f32⟩ : BufTy).Contents (Elt F)),
    unary main_v114 main_v115 (broadcastInDim S2048x128 ![0, 1] bcast_S1x128_S2048x128_0_1 : (⟨S1x128, .f32⟩ : BufTy).Contents (Elt F) → (⟨S2048x128, .f32⟩ : BufTy).Contents (Elt F)),
    binary main_v113 main_v115 main_v116 (mulf : (⟨S2048x128, .f32⟩ : BufTy).Contents (Elt F) → (⟨S2048x128, .f32⟩ : BufTy).Contents (Elt F) → (⟨S2048x128, .f32⟩ : BufTy).Contents (Elt F)),
    unary main_v100 main_v117 (broadcastInDim S1x128 ![1] bcast_S128_S1x128_1 : (⟨S128, .f32⟩ : BufTy).Contents (Elt F) → (⟨S1x128, .f32⟩ : BufTy).Contents (Elt F)),
    unary main_v117 main_v118 (broadcastInDim S2048x128 ![0, 1] bcast_S1x128_S2048x128_0_1 : (⟨S1x128, .f32⟩ : BufTy).Contents (Elt F) → (⟨S2048x128, .f32⟩ : BufTy).Contents (Elt F)),
    binary main_v116 main_v118 main_v119 (addf : (⟨S2048x128, .f32⟩ : BufTy).Contents (Elt F) → (⟨S2048x128, .f32⟩ : BufTy).Contents (Elt F) → (⟨S2048x128, .f32⟩ : BufTy).Contents (Elt F)),
    nullary main_c_19 (constantI S_ 32 0#32),
    unary main_c_19 main_v120 (broadcastInDim S262144 ![] bcast_S_S262144 : (⟨S_, .i32⟩ : BufTy).Contents (Elt F) → (⟨S262144, .i32⟩ : BufTy).Contents (Elt F)),
    binary main_v10 main_v120 main_v121 (cmpi .slt : (⟨S262144, .i32⟩ : BufTy).Contents (Elt F) → (⟨S262144, .i32⟩ : BufTy).Contents (Elt F) → (⟨S262144, .i1⟩ : BufTy).Contents (Elt F)),
    nullary main_c_20 (constantI S_ 32 2048#32),
    unary main_c_20 main_v122 (broadcastInDim S262144 ![] bcast_S_S262144 : (⟨S_, .i32⟩ : BufTy).Contents (Elt F) → (⟨S262144, .i32⟩ : BufTy).Contents (Elt F)),
    binary main_v10 main_v122 main_v123 (addi : (⟨S262144, .i32⟩ : BufTy).Contents (Elt F) → (⟨S262144, .i32⟩ : BufTy).Contents (Elt F) → (⟨S262144, .i32⟩ : BufTy).Contents (Elt F)),
    ternary main_v121 main_v123 main_v10 main_v124 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    unary main_v124 main_v125 (broadcastInDim S262144x1 ![0] bcast_S262144_S262144x1_0 : (⟨S262144, .i32⟩ : BufTy).Contents (Elt F) → (⟨S262144x1, .i32⟩ : BufTy).Contents (Elt F)),
    binary main_v119 main_v125 main_v126 ((fun x i => Host.gather gather_S2048x128_S262144x1_S262144x128_1_0_n_n_0_1_1128 x i) : (⟨S2048x128, .f32⟩ : BufTy).Contents (Elt F) → (⟨S262144x1, .i32⟩ : BufTy).Contents (Elt F) → (⟨S262144x128, .f32⟩ : BufTy).Contents (Elt F)),
    binary main_v59 main_v126 main_v127 (addf : (⟨S262144x128, .f32⟩ : BufTy).Contents (Elt F) → (⟨S262144x128, .f32⟩ : BufTy).Contents (Elt F) → (⟨S262144x128, .f32⟩ : BufTy).Contents (Elt F)),
    TRef.nullary main_call3.cst (constant S_ .f32 0x00000000#32),
    TRef.unary main_call3.cst main_call3.v0 (broadcastInDim S262144x128 ![] bcast_S_S262144x128),
    TRef.binary (.of main_v127) main_call3.v0 main_call3.v1 maximumf ]

/-- Statements 153 … 180 of @main: 28 operations. -/
abbrev ops3 : List (HloOp τ sig (Elt F)) :=
  [ unary main_arg1 main_v129 ((extractStridedSlice S1x128x128 ![1, 0, 0] · slices_S4x128x128_S1x128x128_1_0_0) : (⟨S4x128x128, .f32⟩ : BufTy).Contents (Elt F) → (⟨S1x128x128, .f32⟩ : BufTy).Contents (Elt F)),
    reshape main_v129 main_v130 rfl shapeCasts_S1x128x128_S128x128,
    unary main_arg2 main_v131 ((extractStridedSlice S1x128x128 ![1, 0, 0] · slices_S4x128x128_S1x128x128_1_0_0) : (⟨S4x128x128, .f32⟩ : BufTy).Contents (Elt F) → (⟨S1x128x128, .f32⟩ : BufTy).Contents (Elt F)),
    reshape main_v131 main_v132 rfl shapeCasts_S1x128x128_S128x128,
    unary main_arg3 main_v133 ((extractStridedSlice S1x128 ![1, 0] · slices_S4x128_S1x128_1_0) : (⟨S4x128, .f32⟩ : BufTy).Contents (Elt F) → (⟨S1x128, .f32⟩ : BufTy).Contents (Elt F)),
    reshape main_v133 main_v134 rfl shapeCasts_S1x128_S128,
    unary main_arg15 main_v135 ((extractStridedSlice S1x2097152 ![0, 0] · slices_S2x2097152_S1x2097152_0_0) : (⟨S2x2097152, .i32⟩ : BufTy).Contents (Elt F) → (⟨S1x2097152, .i32⟩ : BufTy).Contents (Elt F)),
    reshape main_v135 main_v136 rfl shapeCasts_S1x2097152_S2097152,
    nullary main_c_21 (constantI S_ 32 0#32),
    unary main_c_21 main_v137 (broadcastInDim S2097152 ![] bcast_S_S2097152 : (⟨S_, .i32⟩ : BufTy).Contents (Elt F) → (⟨S2097152, .i32⟩ : BufTy).Contents (Elt F)),
    binary main_v136 main_v137 main_v138 (cmpi .slt : (⟨S2097152, .i32⟩ : BufTy).Contents (Elt F) → (⟨S2097152, .i32⟩ : BufTy).Contents (Elt F) → (⟨S2097152, .i1⟩ : BufTy).Contents (Elt F)),
    nullary main_c_22 (constantI S_ 32 262144#32),
    unary main_c_22 main_v139 (broadcastInDim S2097152 ![] bcast_S_S2097152 : (⟨S_, .i32⟩ : BufTy).Contents (Elt F) → (⟨S2097152, .i32⟩ : BufTy).Contents (Elt F)),
    binary main_v136 main_v139 main_v140 (addi : (⟨S2097152, .i32⟩ : BufTy).Contents (Elt F) → (⟨S2097152, .i32⟩ : BufTy).Contents (Elt F) → (⟨S2097152, .i32⟩ : BufTy).Contents (Elt F)),
    ternary main_v138 main_v140 main_v136 main_v141 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    unary main_v141 main_v142 (broadcastInDim S2097152x1 ![0] bcast_S2097152_S2097152x1_0 : (⟨S2097152, .i32⟩ : BufTy).Contents (Elt F) → (⟨S2097152x1, .i32⟩ : BufTy).Contents (Elt F)),
    binary main_v128 main_v142 main_v143 ((fun x i => Host.gather gather_S262144x128_S2097152x1_S2097152x128_1_0_n_n_0_1_1128 x i) : (⟨S262144x128, .f32⟩ : BufTy).Contents (Elt F) → (⟨S2097152x1, .i32⟩ : BufTy).Contents (Elt F) → (⟨S2097152x128, .f32⟩ : BufTy).Contents (Elt F)),
    unary main_arg15 main_v144 ((extractStridedSlice S1x2097152 ![1, 0] · slices_S2x2097152_S1x2097152_1_0) : (⟨S2x2097152, .i32⟩ : BufTy).Contents (Elt F) → (⟨S1x2097152, .i32⟩ : BufTy).Contents (Elt F)),
    reshape main_v144 main_v145 rfl shapeCasts_S1x2097152_S2097152,
    nullary main_cst_23 (constant S_ .f32 0x00000000#32),
    unary main_cst_23 main_v146 (broadcastInDim S262144x128 ![] bcast_S_S262144x128 : (⟨S_, .f32⟩ : BufTy).Contents (Elt F) → (⟨S262144x128, .f32⟩ : BufTy).Contents (Elt F)),
    unary main_v145 main_v147 (broadcastInDim S2097152x1 ![0] bcast_S2097152_S2097152x1_0 : (⟨S2097152, .i32⟩ : BufTy).Contents (Elt F) → (⟨S2097152x1, .i32⟩ : BufTy).Contents (Elt F)),
    ternary main_v146 main_v147 main_v143 main_v148 ((fun x i u => Host.scatterAdd scatter_S262144x128_S2097152x1_S2097152x128_1_0_0_1 x i u) : (⟨S262144x128, .f32⟩ : BufTy).Contents (Elt F) → (⟨S2097152x1, .i32⟩ : BufTy).Contents (Elt F) → (⟨S2097152x128, .f32⟩ : BufTy).Contents (Elt F) → (⟨S262144x128, .f32⟩ : BufTy).Contents (Elt F)),
    binary main_v128 main_v130 main_v149 ((fun l r => Host.dotGeneral dot_S262144x128_S128x128_S262144x128_1_0_0_1_n_n none l r) : (⟨S262144x128, .f32⟩ : BufTy).Contents (Elt F) → (⟨S128x128, .f32⟩ : BufTy).Contents (Elt F) → (⟨S262144x128, .f32⟩ : BufTy).Contents (Elt F)),
    binary main_v148 main_v132 main_v150 ((fun l r => Host.dotGeneral dot_S262144x128_S128x128_S262144x128_1_0_0_1_n_n none l r) : (⟨S262144x128, .f32⟩ : BufTy).Contents (Elt F) → (⟨S128x128, .f32⟩ : BufTy).Contents (Elt F) → (⟨S262144x128, .f32⟩ : BufTy).Contents (Elt F)),
    binary main_v149 main_v150 main_v151 (addf : (⟨S262144x128, .f32⟩ : BufTy).Contents (Elt F) → (⟨S262144x128, .f32⟩ : BufTy).Contents (Elt F) → (⟨S262144x128, .f32⟩ : BufTy).Contents (Elt F)),
    unary main_v134 main_v152 (broadcastInDim S1x128 ![1] bcast_S128_S1x128_1 : (⟨S128, .f32⟩ : BufTy).Contents (Elt F) → (⟨S1x128, .f32⟩ : BufTy).Contents (Elt F)),
    unary main_v152 main_v153 (broadcastInDim S262144x128 ![0, 1] bcast_S1x128_S262144x128_0_1 : (⟨S1x128, .f32⟩ : BufTy).Contents (Elt F) → (⟨S262144x128, .f32⟩ : BufTy).Contents (Elt F)) ]

/-- Statements 181 … 240 of @main: 81 operations. -/
abbrev ops4 : List (HloOp τ sig (Elt F)) :=
  [ binary main_v151 main_v153 main_v154 (addf : (⟨S262144x128, .f32⟩ : BufTy).Contents (Elt F) → (⟨S262144x128, .f32⟩ : BufTy).Contents (Elt F) → (⟨S262144x128, .f32⟩ : BufTy).Contents (Elt F)),
    unary main_arg4 main_v155 ((extractStridedSlice S1x128 ![1, 0] · slices_S4x128_S1x128_1_0) : (⟨S4x128, .f32⟩ : BufTy).Contents (Elt F) → (⟨S1x128, .f32⟩ : BufTy).Contents (Elt F)),
    reshape main_v155 main_v156 rfl shapeCasts_S1x128_S128,
    unary main_arg5 main_v157 ((extractStridedSlice S1x128 ![1, 0] · slices_S4x128_S1x128_1_0) : (⟨S4x128, .f32⟩ : BufTy).Contents (Elt F) → (⟨S1x128, .f32⟩ : BufTy).Contents (Elt F)),
    reshape main_v157 main_v158 rfl shapeCasts_S1x128_S128,
    nullary main_cst_24 (constant S_ .f32 0x00000000#32),
    binary main_v154 main_cst_24 main_v159 ((fun x v => Host.reduceAdd x v reducesTo_S262144x128_S128_d0 h_S_) : (⟨S262144x128, .f32⟩ : BufTy).Contents (Elt F) → (⟨S_, .f32⟩ : BufTy).Contents (Elt F) → (⟨S128, .f32⟩ : BufTy).Contents (Elt F)),
    nullary main_cst_25 (constant S_ .f32 0x48800000#32),
    unary main_cst_25 main_v160 (broadcastInDim S128 ![] bcast_S_S128 : (⟨S_, .f32⟩ : BufTy).Contents (Elt F) → (⟨S128, .f32⟩ : BufTy).Contents (Elt F)),
    binary main_v159 main_v160 main_v161 (Host.divf : (⟨S128, .f32⟩ : BufTy).Contents (Elt F) → (⟨S128, .f32⟩ : BufTy).Contents (Elt F) → (⟨S128, .f32⟩ : BufTy).Contents (Elt F)),
    nullary main_c_26 (constantI S_ 32 0#32),
    TRef.nullary main_call4.cst (constant S_ .f32 0x00000000#32),
    TRef.binary (.of main_v154) main_call4.cst main_call4.v0 (fun x v => Host.reduceAdd x v reducesTo_S262144x128_S128_d0 h_S_),
    TRef.unary main_call4.v0 main_call4.v1 (broadcastInDim S1x128 ![1] bcast_S128_S1x128_1),
    TRef.nullary main_call4.cst_0 (constant S_ .f32 0x48800000#32),
    TRef.unary main_call4.cst_0 main_call4.v2 (broadcastInDim S1x128 ![] bcast_S_S1x128),
    TRef.binary main_call4.v1 main_call4.v2 main_call4.v3 Host.divf,
    TRef.unary main_call4.v3 main_call4.v4 (broadcastInDim S262144x128 ![0, 1] bcast_S1x128_S262144x128_0_1),
    TRef.binary (.of main_v154) main_call4.v4 main_call4.v5 subf,
    TRef.binary main_call4.v5 main_call4.v5 main_call4.v6 mulf,
    TRef.unary (.of main_c_26) main_call4.v7 (sitofp .f32),
    TRef.nullary main_call4.cst_1 (constant S_ .f32 0x48800000#32),
    TRef.binary main_call4.cst_1 main_call4.v7 main_call4.v8 subf,
    TRef.nullary main_call4.cst_2 (constant S_ .f32 0x00000000#32),
    TRef.binary main_call4.v6 main_call4.cst_2 main_call4.v9 (fun x v => Host.reduceAdd x v reducesTo_S262144x128_S128_d0 h_S_),
    TRef.unary main_call4.v8 main_call4.v10 (broadcastInDim S128 ![] bcast_S_S128),
    TRef.binary main_call4.v9 main_call4.v10 main_call4.v11 Host.divf,
    TRef.nullary main_call4.cst_3 (constant S_ .f32 0x00000000#32),
    TRef.binary main_call4.v8 main_call4.cst_3 main_call4.v12 (cmpf .ogt),
    TRef.nullary main_call4.cst_4 (constant S_ .f32 0x7FC00000#32),
    TRef.unary main_call4.cst_4 main_call4.call0.v0 id,
    TRef.unary main_call4.call0.v0 main_call4.call0.v1 (broadcastInDim S128 ![] bcast_S_S128),
    TRef.ternary main_call4.v12 main_call4.v11 main_call4.call0.v1 main_call4.call0.v2 (fun p a b => select (broadcastInDim S128 ![] bcast_S_S128 p) a b),
    unary main_v161 main_v163 (broadcastInDim S1x128 ![1] bcast_S128_S1x128_1 : (⟨S128, .f32⟩ : BufTy).Contents (Elt F) → (⟨S1x128, .f32⟩ : BufTy).Contents (Elt F)),
    unary main_v163 main_v164 (broadcastInDim S262144x128 ![0, 1] bcast_S1x128_S262144x128_0_1 : (⟨S1x128, .f32⟩ : BufTy).Contents (Elt F) → (⟨S262144x128, .f32⟩ : BufTy).Contents (Elt F)),
    binary main_v154 main_v164 main_v165 (subf : (⟨S262144x128, .f32⟩ : BufTy).Contents (Elt F) → (⟨S262144x128, .f32⟩ : BufTy).Contents (Elt F) → (⟨S262144x128, .f32⟩ : BufTy).Contents (Elt F)),
    nullary main_cst_27 (constant S_ .f32 0x3727C5AC#32),
    unary main_cst_27 main_v166 (broadcastInDim S128 ![] bcast_S_S128 : (⟨S_, .f32⟩ : BufTy).Contents (Elt F) → (⟨S128, .f32⟩ : BufTy).Contents (Elt F)),
    binary main_v162 main_v166 main_v167 (addf : (⟨S128, .f32⟩ : BufTy).Contents (Elt F) → (⟨S128, .f32⟩ : BufTy).Contents (Elt F) → (⟨S128, .f32⟩ : BufTy).Contents (Elt F)),
    unary main_v167 main_v168 (Host.rsqrt : (⟨S128, .f32⟩ : BufTy).Contents (Elt F) → (⟨S128, .f32⟩ : BufTy).Contents (Elt F)),
    unary main_v168 main_v169 (broadcastInDim S1x128 ![1] bcast_S128_S1x128_1 : (⟨S128, .f32⟩ : BufTy).Contents (Elt F) → (⟨S1x128, .f32⟩ : BufTy).Contents (Elt F)),
    unary main_v169 main_v170 (broadcastInDim S262144x128 ![0, 1] bcast_S1x128_S262144x128_0_1 : (⟨S1x128, .f32⟩ : BufTy).Contents (Elt F) → (⟨S262144x128, .f32⟩ : BufTy).Contents (Elt F)),
    binary main_v165 main_v170 main_v171 (mulf : (⟨S262144x128, .f32⟩ : BufTy).Contents (Elt F) → (⟨S262144x128, .f32⟩ : BufTy).Contents (Elt F) → (⟨S262144x128, .f32⟩ : BufTy).Contents (Elt F)),
    unary main_v156 main_v172 (broadcastInDim S1x128 ![1] bcast_S128_S1x128_1 : (⟨S128, .f32⟩ : BufTy).Contents (Elt F) → (⟨S1x128, .f32⟩ : BufTy).Contents (Elt F)),
    unary main_v172 main_v173 (broadcastInDim S262144x128 ![0, 1] bcast_S1x128_S262144x128_0_1 : (⟨S1x128, .f32⟩ : BufTy).Contents (Elt F) → (⟨S262144x128, .f32⟩ : BufTy).Contents (Elt F)),
    binary main_v171 main_v173 main_v174 (mulf : (⟨S262144x128, .f32⟩ : BufTy).Contents (Elt F) → (⟨S262144x128, .f32⟩ : BufTy).Contents (Elt F) → (⟨S262144x128, .f32⟩ : BufTy).Contents (Elt F)),
    unary main_v158 main_v175 (broadcastInDim S1x128 ![1] bcast_S128_S1x128_1 : (⟨S128, .f32⟩ : BufTy).Contents (Elt F) → (⟨S1x128, .f32⟩ : BufTy).Contents (Elt F)),
    unary main_v175 main_v176 (broadcastInDim S262144x128 ![0, 1] bcast_S1x128_S262144x128_0_1 : (⟨S1x128, .f32⟩ : BufTy).Contents (Elt F) → (⟨S262144x128, .f32⟩ : BufTy).Contents (Elt F)),
    binary main_v174 main_v176 main_v177 (addf : (⟨S262144x128, .f32⟩ : BufTy).Contents (Elt F) → (⟨S262144x128, .f32⟩ : BufTy).Contents (Elt F) → (⟨S262144x128, .f32⟩ : BufTy).Contents (Elt F)),
    nullary main_cst_28 (constant S_ .f32 0x00000000#32),
    unary main_cst_28 main_v178 (broadcastInDim S2048x128 ![] bcast_S_S2048x128 : (⟨S_, .f32⟩ : BufTy).Contents (Elt F) → (⟨S2048x128, .f32⟩ : BufTy).Contents (Elt F)),
    unary main_v10 main_v179 (broadcastInDim S262144x1 ![0] bcast_S262144_S262144x1_0 : (⟨S262144, .i32⟩ : BufTy).Contents (Elt F) → (⟨S262144x1, .i32⟩ : BufTy).Contents (Elt F)),
    ternary main_v178 main_v179 main_v128 main_v180 ((fun x i u => Host.scatterAdd scatter_S2048x128_S262144x1_S262144x128_1_0_0_1 x i u) : (⟨S2048x128, .f32⟩ : BufTy).Contents (Elt F) → (⟨S262144x1, .i32⟩ : BufTy).Contents (Elt F) → (⟨S262144x128, .f32⟩ : BufTy).Contents (Elt F) → (⟨S2048x128, .f32⟩ : BufTy).Contents (Elt F)),
    nullary main_cst_29 (constant S_ .f32 0x3F800000#32),
    unary main_cst_29 main_v181 (broadcastInDim S262144x1 ![] bcast_S_S262144x1 : (⟨S_, .f32⟩ : BufTy).Contents (Elt F) → (⟨S262144x1, .f32⟩ : BufTy).Contents (Elt F)),
    nullary main_cst_30 (constant S_ .f32 0x00000000#32),
    unary main_cst_30 main_v182 (broadcastInDim S2048x1 ![] bcast_S_S2048x1 : (⟨S_, .f32⟩ : BufTy).Contents (Elt F) → (⟨S2048x1, .f32⟩ : BufTy).Contents (Elt F)),
    unary main_v10 main_v183 (broadcastInDim S262144x1 ![0] bcast_S262144_S262144x1_0 : (⟨S262144, .i32⟩ : BufTy).Contents (Elt F) → (⟨S262144x1, .i32⟩ : BufTy).Contents (Elt F)),
    ternary main_v182 main_v183 main_v181 main_v184 ((fun x i u => Host.scatterAdd scatter_S2048x1_S262144x1_S262144x1_1_0_0_1 x i u) : (⟨S2048x1, .f32⟩ : BufTy).Contents (Elt F) → (⟨S262144x1, .i32⟩ : BufTy).Contents (Elt F) → (⟨S262144x1, .f32⟩ : BufTy).Contents (Elt F) → (⟨S2048x1, .f32⟩ : BufTy).Contents (Elt F)),
    nullary main_cst_31 (constant S_ .f32 0x3F800000#32),
    unary main_cst_31 main_v185 (broadcastInDim S2048x1 ![] bcast_S_S2048x1 : (⟨S_, .f32⟩ : BufTy).Contents (Elt F) → (⟨S2048x1, .f32⟩ : BufTy).Contents (Elt F)),
    binary main_v184 main_v185 main_v186 (maximumf : (⟨S2048x1, .f32⟩ : BufTy).Contents (Elt F) → (⟨S2048x1, .f32⟩ : BufTy).Contents (Elt F) → (⟨S2048x1, .f32⟩ : BufTy).Contents (Elt F)),
    unary main_v186 main_v187 (broadcastInDim S2048x128 ![0, 1] bcast_S2048x1_S2048x128_0_1 : (⟨S2048x1, .f32⟩ : BufTy).Contents (Elt F) → (⟨S2048x128, .f32⟩ : BufTy).Contents (Elt F)),
    binary main_v180 main_v187 main_v188 (Host.divf : (⟨S2048x128, .f32⟩ : BufTy).Contents (Elt F) → (⟨S2048x128, .f32⟩ : BufTy).Contents (Elt F) → (⟨S2048x128, .f32⟩ : BufTy).Contents (Elt F)),
    unary main_arg6 main_v189 ((extractStridedSlice S1x128x128 ![1, 0, 0] · slices_S4x128x128_S1x128x128_1_0_0) : (⟨S4x128x128, .f32⟩ : BufTy).Contents (Elt F) → (⟨S1x128x128, .f32⟩ : BufTy).Contents (Elt F)),
    reshape main_v189 main_v190 rfl shapeCasts_S1x128x128_S128x128,
    unary main_arg7 main_v191 ((extractStridedSlice S1x128x128 ![1, 0, 0] · slices_S4x128x128_S1x128x128_1_0_0) : (⟨S4x128x128, .f32⟩ : BufTy).Contents (Elt F) → (⟨S1x128x128, .f32⟩ : BufTy).Contents (Elt F)),
    reshape main_v191 main_v192 rfl shapeCasts_S1x128x128_S128x128,
    unary main_arg8 main_v193 ((extractStridedSlice S1x128 ![1, 0] · slices_S4x128_S1x128_1_0) : (⟨S4x128, .f32⟩ : BufTy).Contents (Elt F) → (⟨S1x128, .f32⟩ : BufTy).Contents (Elt F)),
    reshape main_v193 main_v194 rfl shapeCasts_S1x128_S128,
    unary main_arg16 main_v195 ((extractStridedSlice S1x32768 ![0, 0] · slices_S2x32768_S1x32768_0_0) : (⟨S2x32768, .i32⟩ : BufTy).Contents (Elt F) → (⟨S1x32768, .i32⟩ : BufTy).Contents (Elt F)),
    reshape main_v195 main_v196 rfl shapeCasts_S1x32768_S32768,
    nullary main_c_32 (constantI S_ 32 0#32),
    unary main_c_32 main_v197 (broadcastInDim S32768 ![] bcast_S_S32768 : (⟨S_, .i32⟩ : BufTy).Contents (Elt F) → (⟨S32768, .i32⟩ : BufTy).Contents (Elt F)),
    binary main_v196 main_v197 main_v198 (cmpi .slt : (⟨S32768, .i32⟩ : BufTy).Contents (Elt F) → (⟨S32768, .i32⟩ : BufTy).Contents (Elt F) → (⟨S32768, .i1⟩ : BufTy).Contents (Elt F)),
    nullary main_c_33 (constantI S_ 32 2048#32),
    unary main_c_33 main_v199 (broadcastInDim S32768 ![] bcast_S_S32768 : (⟨S_, .i32⟩ : BufTy).Contents (Elt F) → (⟨S32768, .i32⟩ : BufTy).Contents (Elt F)),
    binary main_v196 main_v199 main_v200 (addi : (⟨S32768, .i32⟩ : BufTy).Contents (Elt F) → (⟨S32768, .i32⟩ : BufTy).Contents (Elt F) → (⟨S32768, .i32⟩ : BufTy).Contents (Elt F)),
    ternary main_v198 main_v200 main_v196 main_v201 (select : (⟨S32768, .i1⟩ : BufTy).Contents (Elt F) → (⟨S32768, .i32⟩ : BufTy).Contents (Elt F) → (⟨S32768, .i32⟩ : BufTy).Contents (Elt F) → (⟨S32768, .i32⟩ : BufTy).Contents (Elt F)),
    unary main_v201 main_v202 (broadcastInDim S32768x1 ![0] bcast_S32768_S32768x1_0 : (⟨S32768, .i32⟩ : BufTy).Contents (Elt F) → (⟨S32768x1, .i32⟩ : BufTy).Contents (Elt F)),
    binary main_v188 main_v202 main_v203 ((fun x i => Host.gather gather_S2048x128_S32768x1_S32768x128_1_0_n_n_0_1_1128 x i) : (⟨S2048x128, .f32⟩ : BufTy).Contents (Elt F) → (⟨S32768x1, .i32⟩ : BufTy).Contents (Elt F) → (⟨S32768x128, .f32⟩ : BufTy).Contents (Elt F)) ]

/-- Statements 241 … 290 of @main: 73 operations. -/
abbrev ops5 : List (HloOp τ sig (Elt F)) :=
  [ unary main_arg16 main_v204 ((extractStridedSlice S1x32768 ![1, 0] · slices_S2x32768_S1x32768_1_0) : (⟨S2x32768, .i32⟩ : BufTy).Contents (Elt F) → (⟨S1x32768, .i32⟩ : BufTy).Contents (Elt F)),
    reshape main_v204 main_v205 rfl shapeCasts_S1x32768_S32768,
    nullary main_cst_34 (constant S_ .f32 0x00000000#32),
    unary main_cst_34 main_v206 (broadcastInDim S2048x128 ![] bcast_S_S2048x128 : (⟨S_, .f32⟩ : BufTy).Contents (Elt F) → (⟨S2048x128, .f32⟩ : BufTy).Contents (Elt F)),
    unary main_v205 main_v207 (broadcastInDim S32768x1 ![0] bcast_S32768_S32768x1_0 : (⟨S32768, .i32⟩ : BufTy).Contents (Elt F) → (⟨S32768x1, .i32⟩ : BufTy).Contents (Elt F)),
    ternary main_v206 main_v207 main_v203 main_v208 ((fun x i u => Host.scatterAdd scatter_S2048x128_S32768x1_S32768x128_1_0_0_1 x i u) : (⟨S2048x128, .f32⟩ : BufTy).Contents (Elt F) → (⟨S32768x1, .i32⟩ : BufTy).Contents (Elt F) → (⟨S32768x128, .f32⟩ : BufTy).Contents (Elt F) → (⟨S2048x128, .f32⟩ : BufTy).Contents (Elt F)),
    binary main_v188 main_v190 main_v209 ((fun l r => Host.dotGeneral dot_S2048x128_S128x128_S2048x128_1_0_0_1_n_n none l r) : (⟨S2048x128, .f32⟩ : BufTy).Contents (Elt F) → (⟨S128x128, .f32⟩ : BufTy).Contents (Elt F) → (⟨S2048x128, .f32⟩ : BufTy).Contents (Elt F)),
    binary main_v208 main_v192 main_v210 ((fun l r => Host.dotGeneral dot_S2048x128_S128x128_S2048x128_1_0_0_1_n_n none l r) : (⟨S2048x128, .f32⟩ : BufTy).Contents (Elt F) → (⟨S128x128, .f32⟩ : BufTy).Contents (Elt F) → (⟨S2048x128, .f32⟩ : BufTy).Contents (Elt F)),
    binary main_v209 main_v210 main_v211 (addf : (⟨S2048x128, .f32⟩ : BufTy).Contents (Elt F) → (⟨S2048x128, .f32⟩ : BufTy).Contents (Elt F) → (⟨S2048x128, .f32⟩ : BufTy).Contents (Elt F)),
    unary main_v194 main_v212 (broadcastInDim S1x128 ![1] bcast_S128_S1x128_1 : (⟨S128, .f32⟩ : BufTy).Contents (Elt F) → (⟨S1x128, .f32⟩ : BufTy).Contents (Elt F)),
    unary main_v212 main_v213 (broadcastInDim S2048x128 ![0, 1] bcast_S1x128_S2048x128_0_1 : (⟨S1x128, .f32⟩ : BufTy).Contents (Elt F) → (⟨S2048x128, .f32⟩ : BufTy).Contents (Elt F)),
    binary main_v211 main_v213 main_v214 (addf : (⟨S2048x128, .f32⟩ : BufTy).Contents (Elt F) → (⟨S2048x128, .f32⟩ : BufTy).Contents (Elt F) → (⟨S2048x128, .f32⟩ : BufTy).Contents (Elt F)),
    unary main_arg9 main_v215 ((extractStridedSlice S1x128 ![1, 0] · slices_S4x128_S1x128_1_0) : (⟨S4x128, .f32⟩ : BufTy).Contents (Elt F) → (⟨S1x128, .f32⟩ : BufTy).Contents (Elt F)),
    reshape main_v215 main_v216 rfl shapeCasts_S1x128_S128,
    unary main_arg10 main_v217 ((extractStridedSlice S1x128 ![1, 0] · slices_S4x128_S1x128_1_0) : (⟨S4x128, .f32⟩ : BufTy).Contents (Elt F) → (⟨S1x128, .f32⟩ : BufTy).Contents (Elt F)),
    reshape main_v217 main_v218 rfl shapeCasts_S1x128_S128,
    nullary main_cst_35 (constant S_ .f32 0x00000000#32),
    binary main_v214 main_cst_35 main_v219 ((fun x v => Host.reduceAdd x v reducesTo_S2048x128_S128_d0 h_S_) : (⟨S2048x128, .f32⟩ : BufTy).Contents (Elt F) → (⟨S_, .f32⟩ : BufTy).Contents (Elt F) → (⟨S128, .f32⟩ : BufTy).Contents (Elt F)),
    nullary main_cst_36 (constant S_ .f32 0x45000000#32),
    unary main_cst_36 main_v220 (broadcastInDim S128 ![] bcast_S_S128 : (⟨S_, .f32⟩ : BufTy).Contents (Elt F) → (⟨S128, .f32⟩ : BufTy).Contents (Elt F)),
    binary main_v219 main_v220 main_v221 (Host.divf : (⟨S128, .f32⟩ : BufTy).Contents (Elt F) → (⟨S128, .f32⟩ : BufTy).Contents (Elt F) → (⟨S128, .f32⟩ : BufTy).Contents (Elt F)),
    nullary main_c_37 (constantI S_ 32 0#32),
    TRef.nullary main_call5.cst (constant S_ .f32 0x00000000#32),
    TRef.binary (.of main_v214) main_call5.cst main_call5.v0 (fun x v => Host.reduceAdd x v reducesTo_S2048x128_S128_d0 h_S_),
    TRef.unary main_call5.v0 main_call5.v1 (broadcastInDim S1x128 ![1] bcast_S128_S1x128_1),
    TRef.nullary main_call5.cst_0 (constant S_ .f32 0x45000000#32),
    TRef.unary main_call5.cst_0 main_call5.v2 (broadcastInDim S1x128 ![] bcast_S_S1x128),
    TRef.binary main_call5.v1 main_call5.v2 main_call5.v3 Host.divf,
    TRef.unary main_call5.v3 main_call5.v4 (broadcastInDim S2048x128 ![0, 1] bcast_S1x128_S2048x128_0_1),
    TRef.binary (.of main_v214) main_call5.v4 main_call5.v5 subf,
    TRef.binary main_call5.v5 main_call5.v5 main_call5.v6 mulf,
    TRef.unary (.of main_c_37) main_call5.v7 (sitofp .f32),
    TRef.nullary main_call5.cst_1 (constant S_ .f32 0x45000000#32),
    TRef.binary main_call5.cst_1 main_call5.v7 main_call5.v8 subf,
    TRef.nullary main_call5.cst_2 (constant S_ .f32 0x00000000#32),
    TRef.binary main_call5.v6 main_call5.cst_2 main_call5.v9 (fun x v => Host.reduceAdd x v reducesTo_S2048x128_S128_d0 h_S_),
    TRef.unary main_call5.v8 main_call5.v10 (broadcastInDim S128 ![] bcast_S_S128),
    TRef.binary main_call5.v9 main_call5.v10 main_call5.v11 Host.divf,
    TRef.nullary main_call5.cst_3 (constant S_ .f32 0x00000000#32),
    TRef.binary main_call5.v8 main_call5.cst_3 main_call5.v12 (cmpf .ogt),
    TRef.nullary main_call5.cst_4 (constant S_ .f32 0x7FC00000#32),
    TRef.unary main_call5.cst_4 main_call5.call0.v0 id,
    TRef.unary main_call5.call0.v0 main_call5.call0.v1 (broadcastInDim S128 ![] bcast_S_S128),
    TRef.ternary main_call5.v12 main_call5.v11 main_call5.call0.v1 main_call5.call0.v2 (fun p a b => select (broadcastInDim S128 ![] bcast_S_S128 p) a b),
    unary main_v221 main_v223 (broadcastInDim S1x128 ![1] bcast_S128_S1x128_1 : (⟨S128, .f32⟩ : BufTy).Contents (Elt F) → (⟨S1x128, .f32⟩ : BufTy).Contents (Elt F)),
    unary main_v223 main_v224 (broadcastInDim S2048x128 ![0, 1] bcast_S1x128_S2048x128_0_1 : (⟨S1x128, .f32⟩ : BufTy).Contents (Elt F) → (⟨S2048x128, .f32⟩ : BufTy).Contents (Elt F)),
    binary main_v214 main_v224 main_v225 (subf : (⟨S2048x128, .f32⟩ : BufTy).Contents (Elt F) → (⟨S2048x128, .f32⟩ : BufTy).Contents (Elt F) → (⟨S2048x128, .f32⟩ : BufTy).Contents (Elt F)),
    nullary main_cst_38 (constant S_ .f32 0x3727C5AC#32),
    unary main_cst_38 main_v226 (broadcastInDim S128 ![] bcast_S_S128 : (⟨S_, .f32⟩ : BufTy).Contents (Elt F) → (⟨S128, .f32⟩ : BufTy).Contents (Elt F)),
    binary main_v222 main_v226 main_v227 (addf : (⟨S128, .f32⟩ : BufTy).Contents (Elt F) → (⟨S128, .f32⟩ : BufTy).Contents (Elt F) → (⟨S128, .f32⟩ : BufTy).Contents (Elt F)),
    unary main_v227 main_v228 (Host.rsqrt : (⟨S128, .f32⟩ : BufTy).Contents (Elt F) → (⟨S128, .f32⟩ : BufTy).Contents (Elt F)),
    unary main_v228 main_v229 (broadcastInDim S1x128 ![1] bcast_S128_S1x128_1 : (⟨S128, .f32⟩ : BufTy).Contents (Elt F) → (⟨S1x128, .f32⟩ : BufTy).Contents (Elt F)),
    unary main_v229 main_v230 (broadcastInDim S2048x128 ![0, 1] bcast_S1x128_S2048x128_0_1 : (⟨S1x128, .f32⟩ : BufTy).Contents (Elt F) → (⟨S2048x128, .f32⟩ : BufTy).Contents (Elt F)),
    binary main_v225 main_v230 main_v231 (mulf : (⟨S2048x128, .f32⟩ : BufTy).Contents (Elt F) → (⟨S2048x128, .f32⟩ : BufTy).Contents (Elt F) → (⟨S2048x128, .f32⟩ : BufTy).Contents (Elt F)),
    unary main_v216 main_v232 (broadcastInDim S1x128 ![1] bcast_S128_S1x128_1 : (⟨S128, .f32⟩ : BufTy).Contents (Elt F) → (⟨S1x128, .f32⟩ : BufTy).Contents (Elt F)),
    unary main_v232 main_v233 (broadcastInDim S2048x128 ![0, 1] bcast_S1x128_S2048x128_0_1 : (⟨S1x128, .f32⟩ : BufTy).Contents (Elt F) → (⟨S2048x128, .f32⟩ : BufTy).Contents (Elt F)),
    binary main_v231 main_v233 main_v234 (mulf : (⟨S2048x128, .f32⟩ : BufTy).Contents (Elt F) → (⟨S2048x128, .f32⟩ : BufTy).Contents (Elt F) → (⟨S2048x128, .f32⟩ : BufTy).Contents (Elt F)),
    unary main_v218 main_v235 (broadcastInDim S1x128 ![1] bcast_S128_S1x128_1 : (⟨S128, .f32⟩ : BufTy).Contents (Elt F) → (⟨S1x128, .f32⟩ : BufTy).Contents (Elt F)),
    unary main_v235 main_v236 (broadcastInDim S2048x128 ![0, 1] bcast_S1x128_S2048x128_0_1 : (⟨S1x128, .f32⟩ : BufTy).Contents (Elt F) → (⟨S2048x128, .f32⟩ : BufTy).Contents (Elt F)),
    binary main_v234 main_v236 main_v237 (addf : (⟨S2048x128, .f32⟩ : BufTy).Contents (Elt F) → (⟨S2048x128, .f32⟩ : BufTy).Contents (Elt F) → (⟨S2048x128, .f32⟩ : BufTy).Contents (Elt F)),
    nullary main_c_39 (constantI S_ 32 0#32),
    unary main_c_39 main_v238 (broadcastInDim S262144 ![] bcast_S_S262144 : (⟨S_, .i32⟩ : BufTy).Contents (Elt F) → (⟨S262144, .i32⟩ : BufTy).Contents (Elt F)),
    binary main_v10 main_v238 main_v239 (cmpi .slt : (⟨S262144, .i32⟩ : BufTy).Contents (Elt F) → (⟨S262144, .i32⟩ : BufTy).Contents (Elt F) → (⟨S262144, .i1⟩ : BufTy).Contents (Elt F)),
    nullary main_c_40 (constantI S_ 32 2048#32),
    unary main_c_40 main_v240 (broadcastInDim S262144 ![] bcast_S_S262144 : (⟨S_, .i32⟩ : BufTy).Contents (Elt F) → (⟨S262144, .i32⟩ : BufTy).Contents (Elt F)),
    binary main_v10 main_v240 main_v241 (addi : (⟨S262144, .i32⟩ : BufTy).Contents (Elt F) → (⟨S262144, .i32⟩ : BufTy).Contents (Elt F) → (⟨S262144, .i32⟩ : BufTy).Contents (Elt F)),
    ternary main_v239 main_v241 main_v10 main_v242 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    unary main_v242 main_v243 (broadcastInDim S262144x1 ![0] bcast_S262144_S262144x1_0 : (⟨S262144, .i32⟩ : BufTy).Contents (Elt F) → (⟨S262144x1, .i32⟩ : BufTy).Contents (Elt F)),
    binary main_v237 main_v243 main_v244 ((fun x i => Host.gather gather_S2048x128_S262144x1_S262144x128_1_0_n_n_0_1_1128 x i) : (⟨S2048x128, .f32⟩ : BufTy).Contents (Elt F) → (⟨S262144x1, .i32⟩ : BufTy).Contents (Elt F) → (⟨S262144x128, .f32⟩ : BufTy).Contents (Elt F)),
    binary main_v177 main_v244 main_v245 (addf : (⟨S262144x128, .f32⟩ : BufTy).Contents (Elt F) → (⟨S262144x128, .f32⟩ : BufTy).Contents (Elt F) → (⟨S262144x128, .f32⟩ : BufTy).Contents (Elt F)),
    TRef.nullary main_call6.cst (constant S_ .f32 0x00000000#32),
    TRef.unary main_call6.cst main_call6.v0 (broadcastInDim S262144x128 ![] bcast_S_S262144x128),
    TRef.binary (.of main_v245) main_call6.v0 main_call6.v1 maximumf ]

/-- Statements 291 … 300 of @main: 10 operations. -/
abbrev ops6 : List (HloOp τ sig (Elt F)) :=
  [ unary main_arg1 main_v247 ((extractStridedSlice S1x128x128 ![2, 0, 0] · slices_S4x128x128_S1x128x128_2_0_0) : (⟨S4x128x128, .f32⟩ : BufTy).Contents (Elt F) → (⟨S1x128x128, .f32⟩ : BufTy).Contents (Elt F)),
    reshape main_v247 main_v248 rfl shapeCasts_S1x128x128_S128x128,
    unary main_arg2 main_v249 ((extractStridedSlice S1x128x128 ![2, 0, 0] · slices_S4x128x128_S1x128x128_2_0_0) : (⟨S4x128x128, .f32⟩ : BufTy).Contents (Elt F) → (⟨S1x128x128, .f32⟩ : BufTy).Contents (Elt F)),
    reshape main_v249 main_v250 rfl shapeCasts_S1x128x128_S128x128,
    unary main_arg3 main_v251 ((extractStridedSlice S1x128 ![2, 0] · slices_S4x128_S1x128_2_0) : (⟨S4x128, .f32⟩ : BufTy).Contents (Elt F) → (⟨S1x128, .f32⟩ : BufTy).Contents (Elt F)),
    reshape main_v251 main_v252 rfl shapeCasts_S1x128_S128,
    unary main_arg15 main_v253 ((extractStridedSlice S1x2097152 ![0, 0] · slices_S2x2097152_S1x2097152_0_0) : (⟨S2x2097152, .i32⟩ : BufTy).Contents (Elt F) → (⟨S1x2097152, .i32⟩ : BufTy).Contents (Elt F)),
    reshape main_v253 main_v254 rfl shapeCasts_S1x2097152_S2097152,
    nullary main_c_41 (constantI S_ 32 0#32),
    unary main_c_41 main_v255 (broadcastInDim S2097152 ![] bcast_S_S2097152 : (⟨S_, .i32⟩ : BufTy).Contents (Elt F) → (⟨S2097152, .i32⟩ : BufTy).Contents (Elt F)) ]

/-- Statements 301 … 360 of @main: 81 operations. -/
abbrev ops7 : List (HloOp τ sig (Elt F)) :=
  [ binary main_v254 main_v255 main_v256 (cmpi .slt : (⟨S2097152, .i32⟩ : BufTy).Contents (Elt F) → (⟨S2097152, .i32⟩ : BufTy).Contents (Elt F) → (⟨S2097152, .i1⟩ : BufTy).Contents (Elt F)),
    nullary main_c_42 (constantI S_ 32 262144#32),
    unary main_c_42 main_v257 (broadcastInDim S2097152 ![] bcast_S_S2097152 : (⟨S_, .i32⟩ : BufTy).Contents (Elt F) → (⟨S2097152, .i32⟩ : BufTy).Contents (Elt F)),
    binary main_v254 main_v257 main_v258 (addi : (⟨S2097152, .i32⟩ : BufTy).Contents (Elt F) → (⟨S2097152, .i32⟩ : BufTy).Contents (Elt F) → (⟨S2097152, .i32⟩ : BufTy).Contents (Elt F)),
    ternary main_v256 main_v258 main_v254 main_v259 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    unary main_v259 main_v260 (broadcastInDim S2097152x1 ![0] bcast_S2097152_S2097152x1_0 : (⟨S2097152, .i32⟩ : BufTy).Contents (Elt F) → (⟨S2097152x1, .i32⟩ : BufTy).Contents (Elt F)),
    binary main_v246 main_v260 main_v261 ((fun x i => Host.gather gather_S262144x128_S2097152x1_S2097152x128_1_0_n_n_0_1_1128 x i) : (⟨S262144x128, .f32⟩ : BufTy).Contents (Elt F) → (⟨S2097152x1, .i32⟩ : BufTy).Contents (Elt F) → (⟨S2097152x128, .f32⟩ : BufTy).Contents (Elt F)),
    unary main_arg15 main_v262 ((extractStridedSlice S1x2097152 ![1, 0] · slices_S2x2097152_S1x2097152_1_0) : (⟨S2x2097152, .i32⟩ : BufTy).Contents (Elt F) → (⟨S1x2097152, .i32⟩ : BufTy).Contents (Elt F)),
    reshape main_v262 main_v263 rfl shapeCasts_S1x2097152_S2097152,
    nullary main_cst_43 (constant S_ .f32 0x00000000#32),
    unary main_cst_43 main_v264 (broadcastInDim S262144x128 ![] bcast_S_S262144x128 : (⟨S_, .f32⟩ : BufTy).Contents (Elt F) → (⟨S262144x128, .f32⟩ : BufTy).Contents (Elt F)),
    unary main_v263 main_v265 (broadcastInDim S2097152x1 ![0] bcast_S2097152_S2097152x1_0 : (⟨S2097152, .i32⟩ : BufTy).Contents (Elt F) → (⟨S2097152x1, .i32⟩ : BufTy).Contents (Elt F)),
    ternary main_v264 main_v265 main_v261 main_v266 ((fun x i u => Host.scatterAdd scatter_S262144x128_S2097152x1_S2097152x128_1_0_0_1 x i u) : (⟨S262144x128, .f32⟩ : BufTy).Contents (Elt F) → (⟨S2097152x1, .i32⟩ : BufTy).Contents (Elt F) → (⟨S2097152x128, .f32⟩ : BufTy).Contents (Elt F) → (⟨S262144x128, .f32⟩ : BufTy).Contents (Elt F)),
    binary main_v246 main_v248 main_v267 ((fun l r => Host.dotGeneral dot_S262144x128_S128x128_S262144x128_1_0_0_1_n_n none l r) : (⟨S262144x128, .f32⟩ : BufTy).Contents (Elt F) → (⟨S128x128, .f32⟩ : BufTy).Contents (Elt F) → (⟨S262144x128, .f32⟩ : BufTy).Contents (Elt F)),
    binary main_v266 main_v250 main_v268 ((fun l r => Host.dotGeneral dot_S262144x128_S128x128_S262144x128_1_0_0_1_n_n none l r) : (⟨S262144x128, .f32⟩ : BufTy).Contents (Elt F) → (⟨S128x128, .f32⟩ : BufTy).Contents (Elt F) → (⟨S262144x128, .f32⟩ : BufTy).Contents (Elt F)),
    binary main_v267 main_v268 main_v269 (addf : (⟨S262144x128, .f32⟩ : BufTy).Contents (Elt F) → (⟨S262144x128, .f32⟩ : BufTy).Contents (Elt F) → (⟨S262144x128, .f32⟩ : BufTy).Contents (Elt F)),
    unary main_v252 main_v270 (broadcastInDim S1x128 ![1] bcast_S128_S1x128_1 : (⟨S128, .f32⟩ : BufTy).Contents (Elt F) → (⟨S1x128, .f32⟩ : BufTy).Contents (Elt F)),
    unary main_v270 main_v271 (broadcastInDim S262144x128 ![0, 1] bcast_S1x128_S262144x128_0_1 : (⟨S1x128, .f32⟩ : BufTy).Contents (Elt F) → (⟨S262144x128, .f32⟩ : BufTy).Contents (Elt F)),
    binary main_v269 main_v271 main_v272 (addf : (⟨S262144x128, .f32⟩ : BufTy).Contents (Elt F) → (⟨S262144x128, .f32⟩ : BufTy).Contents (Elt F) → (⟨S262144x128, .f32⟩ : BufTy).Contents (Elt F)),
    unary main_arg4 main_v273 ((extractStridedSlice S1x128 ![2, 0] · slices_S4x128_S1x128_2_0) : (⟨S4x128, .f32⟩ : BufTy).Contents (Elt F) → (⟨S1x128, .f32⟩ : BufTy).Contents (Elt F)),
    reshape main_v273 main_v274 rfl shapeCasts_S1x128_S128,
    unary main_arg5 main_v275 ((extractStridedSlice S1x128 ![2, 0] · slices_S4x128_S1x128_2_0) : (⟨S4x128, .f32⟩ : BufTy).Contents (Elt F) → (⟨S1x128, .f32⟩ : BufTy).Contents (Elt F)),
    reshape main_v275 main_v276 rfl shapeCasts_S1x128_S128,
    nullary main_cst_44 (constant S_ .f32 0x00000000#32),
    binary main_v272 main_cst_44 main_v277 ((fun x v => Host.reduceAdd x v reducesTo_S262144x128_S128_d0 h_S_) : (⟨S262144x128, .f32⟩ : BufTy).Contents (Elt F) → (⟨S_, .f32⟩ : BufTy).Contents (Elt F) → (⟨S128, .f32⟩ : BufTy).Contents (Elt F)),
    nullary main_cst_45 (constant S_ .f32 0x48800000#32),
    unary main_cst_45 main_v278 (broadcastInDim S128 ![] bcast_S_S128 : (⟨S_, .f32⟩ : BufTy).Contents (Elt F) → (⟨S128, .f32⟩ : BufTy).Contents (Elt F)),
    binary main_v277 main_v278 main_v279 (Host.divf : (⟨S128, .f32⟩ : BufTy).Contents (Elt F) → (⟨S128, .f32⟩ : BufTy).Contents (Elt F) → (⟨S128, .f32⟩ : BufTy).Contents (Elt F)),
    nullary main_c_46 (constantI S_ 32 0#32),
    TRef.nullary main_call7.cst (constant S_ .f32 0x00000000#32),
    TRef.binary (.of main_v272) main_call7.cst main_call7.v0 (fun x v => Host.reduceAdd x v reducesTo_S262144x128_S128_d0 h_S_),
    TRef.unary main_call7.v0 main_call7.v1 (broadcastInDim S1x128 ![1] bcast_S128_S1x128_1),
    TRef.nullary main_call7.cst_0 (constant S_ .f32 0x48800000#32),
    TRef.unary main_call7.cst_0 main_call7.v2 (broadcastInDim S1x128 ![] bcast_S_S1x128),
    TRef.binary main_call7.v1 main_call7.v2 main_call7.v3 Host.divf,
    TRef.unary main_call7.v3 main_call7.v4 (broadcastInDim S262144x128 ![0, 1] bcast_S1x128_S262144x128_0_1),
    TRef.binary (.of main_v272) main_call7.v4 main_call7.v5 subf,
    TRef.binary main_call7.v5 main_call7.v5 main_call7.v6 mulf,
    TRef.unary (.of main_c_46) main_call7.v7 (sitofp .f32),
    TRef.nullary main_call7.cst_1 (constant S_ .f32 0x48800000#32),
    TRef.binary main_call7.cst_1 main_call7.v7 main_call7.v8 subf,
    TRef.nullary main_call7.cst_2 (constant S_ .f32 0x00000000#32),
    TRef.binary main_call7.v6 main_call7.cst_2 main_call7.v9 (fun x v => Host.reduceAdd x v reducesTo_S262144x128_S128_d0 h_S_),
    TRef.unary main_call7.v8 main_call7.v10 (broadcastInDim S128 ![] bcast_S_S128),
    TRef.binary main_call7.v9 main_call7.v10 main_call7.v11 Host.divf,
    TRef.nullary main_call7.cst_3 (constant S_ .f32 0x00000000#32),
    TRef.binary main_call7.v8 main_call7.cst_3 main_call7.v12 (cmpf .ogt),
    TRef.nullary main_call7.cst_4 (constant S_ .f32 0x7FC00000#32),
    TRef.unary main_call7.cst_4 main_call7.call0.v0 id,
    TRef.unary main_call7.call0.v0 main_call7.call0.v1 (broadcastInDim S128 ![] bcast_S_S128),
    TRef.ternary main_call7.v12 main_call7.v11 main_call7.call0.v1 main_call7.call0.v2 (fun p a b => select (broadcastInDim S128 ![] bcast_S_S128 p) a b),
    unary main_v279 main_v281 (broadcastInDim S1x128 ![1] bcast_S128_S1x128_1 : (⟨S128, .f32⟩ : BufTy).Contents (Elt F) → (⟨S1x128, .f32⟩ : BufTy).Contents (Elt F)),
    unary main_v281 main_v282 (broadcastInDim S262144x128 ![0, 1] bcast_S1x128_S262144x128_0_1 : (⟨S1x128, .f32⟩ : BufTy).Contents (Elt F) → (⟨S262144x128, .f32⟩ : BufTy).Contents (Elt F)),
    binary main_v272 main_v282 main_v283 (subf : (⟨S262144x128, .f32⟩ : BufTy).Contents (Elt F) → (⟨S262144x128, .f32⟩ : BufTy).Contents (Elt F) → (⟨S262144x128, .f32⟩ : BufTy).Contents (Elt F)),
    nullary main_cst_47 (constant S_ .f32 0x3727C5AC#32),
    unary main_cst_47 main_v284 (broadcastInDim S128 ![] bcast_S_S128 : (⟨S_, .f32⟩ : BufTy).Contents (Elt F) → (⟨S128, .f32⟩ : BufTy).Contents (Elt F)),
    binary main_v280 main_v284 main_v285 (addf : (⟨S128, .f32⟩ : BufTy).Contents (Elt F) → (⟨S128, .f32⟩ : BufTy).Contents (Elt F) → (⟨S128, .f32⟩ : BufTy).Contents (Elt F)),
    unary main_v285 main_v286 (Host.rsqrt : (⟨S128, .f32⟩ : BufTy).Contents (Elt F) → (⟨S128, .f32⟩ : BufTy).Contents (Elt F)),
    unary main_v286 main_v287 (broadcastInDim S1x128 ![1] bcast_S128_S1x128_1 : (⟨S128, .f32⟩ : BufTy).Contents (Elt F) → (⟨S1x128, .f32⟩ : BufTy).Contents (Elt F)),
    unary main_v287 main_v288 (broadcastInDim S262144x128 ![0, 1] bcast_S1x128_S262144x128_0_1 : (⟨S1x128, .f32⟩ : BufTy).Contents (Elt F) → (⟨S262144x128, .f32⟩ : BufTy).Contents (Elt F)),
    binary main_v283 main_v288 main_v289 (mulf : (⟨S262144x128, .f32⟩ : BufTy).Contents (Elt F) → (⟨S262144x128, .f32⟩ : BufTy).Contents (Elt F) → (⟨S262144x128, .f32⟩ : BufTy).Contents (Elt F)),
    unary main_v274 main_v290 (broadcastInDim S1x128 ![1] bcast_S128_S1x128_1 : (⟨S128, .f32⟩ : BufTy).Contents (Elt F) → (⟨S1x128, .f32⟩ : BufTy).Contents (Elt F)),
    unary main_v290 main_v291 (broadcastInDim S262144x128 ![0, 1] bcast_S1x128_S262144x128_0_1 : (⟨S1x128, .f32⟩ : BufTy).Contents (Elt F) → (⟨S262144x128, .f32⟩ : BufTy).Contents (Elt F)),
    binary main_v289 main_v291 main_v292 (mulf : (⟨S262144x128, .f32⟩ : BufTy).Contents (Elt F) → (⟨S262144x128, .f32⟩ : BufTy).Contents (Elt F) → (⟨S262144x128, .f32⟩ : BufTy).Contents (Elt F)),
    unary main_v276 main_v293 (broadcastInDim S1x128 ![1] bcast_S128_S1x128_1 : (⟨S128, .f32⟩ : BufTy).Contents (Elt F) → (⟨S1x128, .f32⟩ : BufTy).Contents (Elt F)),
    unary main_v293 main_v294 (broadcastInDim S262144x128 ![0, 1] bcast_S1x128_S262144x128_0_1 : (⟨S1x128, .f32⟩ : BufTy).Contents (Elt F) → (⟨S262144x128, .f32⟩ : BufTy).Contents (Elt F)),
    binary main_v292 main_v294 main_v295 (addf : (⟨S262144x128, .f32⟩ : BufTy).Contents (Elt F) → (⟨S262144x128, .f32⟩ : BufTy).Contents (Elt F) → (⟨S262144x128, .f32⟩ : BufTy).Contents (Elt F)),
    nullary main_cst_48 (constant S_ .f32 0x00000000#32),
    unary main_cst_48 main_v296 (broadcastInDim S2048x128 ![] bcast_S_S2048x128 : (⟨S_, .f32⟩ : BufTy).Contents (Elt F) → (⟨S2048x128, .f32⟩ : BufTy).Contents (Elt F)),
    unary main_v10 main_v297 (broadcastInDim S262144x1 ![0] bcast_S262144_S262144x1_0 : (⟨S262144, .i32⟩ : BufTy).Contents (Elt F) → (⟨S262144x1, .i32⟩ : BufTy).Contents (Elt F)),
    ternary main_v296 main_v297 main_v246 main_v298 ((fun x i u => Host.scatterAdd scatter_S2048x128_S262144x1_S262144x128_1_0_0_1 x i u) : (⟨S2048x128, .f32⟩ : BufTy).Contents (Elt F) → (⟨S262144x1, .i32⟩ : BufTy).Contents (Elt F) → (⟨S262144x128, .f32⟩ : BufTy).Contents (Elt F) → (⟨S2048x128, .f32⟩ : BufTy).Contents (Elt F)),
    nullary main_cst_49 (constant S_ .f32 0x3F800000#32),
    unary main_cst_49 main_v299 (broadcastInDim S262144x1 ![] bcast_S_S262144x1 : (⟨S_, .f32⟩ : BufTy).Contents (Elt F) → (⟨S262144x1, .f32⟩ : BufTy).Contents (Elt F)),
    nullary main_cst_50 (constant S_ .f32 0x00000000#32),
    unary main_cst_50 main_v300 (broadcastInDim S2048x1 ![] bcast_S_S2048x1 : (⟨S_, .f32⟩ : BufTy).Contents (Elt F) → (⟨S2048x1, .f32⟩ : BufTy).Contents (Elt F)),
    unary main_v10 main_v301 (broadcastInDim S262144x1 ![0] bcast_S262144_S262144x1_0 : (⟨S262144, .i32⟩ : BufTy).Contents (Elt F) → (⟨S262144x1, .i32⟩ : BufTy).Contents (Elt F)),
    ternary main_v300 main_v301 main_v299 main_v302 ((fun x i u => Host.scatterAdd scatter_S2048x1_S262144x1_S262144x1_1_0_0_1 x i u) : (⟨S2048x1, .f32⟩ : BufTy).Contents (Elt F) → (⟨S262144x1, .i32⟩ : BufTy).Contents (Elt F) → (⟨S262144x1, .f32⟩ : BufTy).Contents (Elt F) → (⟨S2048x1, .f32⟩ : BufTy).Contents (Elt F)),
    nullary main_cst_51 (constant S_ .f32 0x3F800000#32),
    unary main_cst_51 main_v303 (broadcastInDim S2048x1 ![] bcast_S_S2048x1 : (⟨S_, .f32⟩ : BufTy).Contents (Elt F) → (⟨S2048x1, .f32⟩ : BufTy).Contents (Elt F)),
    binary main_v302 main_v303 main_v304 (maximumf : (⟨S2048x1, .f32⟩ : BufTy).Contents (Elt F) → (⟨S2048x1, .f32⟩ : BufTy).Contents (Elt F) → (⟨S2048x1, .f32⟩ : BufTy).Contents (Elt F)),
    unary main_v304 main_v305 (broadcastInDim S2048x128 ![0, 1] bcast_S2048x1_S2048x128_0_1 : (⟨S2048x1, .f32⟩ : BufTy).Contents (Elt F) → (⟨S2048x128, .f32⟩ : BufTy).Contents (Elt F)) ]

/-- Statements 361 … 420 of @main: 81 operations. -/
abbrev ops8 : List (HloOp τ sig (Elt F)) :=
  [ binary main_v298 main_v305 main_v306 (Host.divf : (⟨S2048x128, .f32⟩ : BufTy).Contents (Elt F) → (⟨S2048x128, .f32⟩ : BufTy).Contents (Elt F) → (⟨S2048x128, .f32⟩ : BufTy).Contents (Elt F)),
    unary main_arg6 main_v307 ((extractStridedSlice S1x128x128 ![2, 0, 0] · slices_S4x128x128_S1x128x128_2_0_0) : (⟨S4x128x128, .f32⟩ : BufTy).Contents (Elt F) → (⟨S1x128x128, .f32⟩ : BufTy).Contents (Elt F)),
    reshape main_v307 main_v308 rfl shapeCasts_S1x128x128_S128x128,
    unary main_arg7 main_v309 ((extractStridedSlice S1x128x128 ![2, 0, 0] · slices_S4x128x128_S1x128x128_2_0_0) : (⟨S4x128x128, .f32⟩ : BufTy).Contents (Elt F) → (⟨S1x128x128, .f32⟩ : BufTy).Contents (Elt F)),
    reshape main_v309 main_v310 rfl shapeCasts_S1x128x128_S128x128,
    unary main_arg8 main_v311 ((extractStridedSlice S1x128 ![2, 0] · slices_S4x128_S1x128_2_0) : (⟨S4x128, .f32⟩ : BufTy).Contents (Elt F) → (⟨S1x128, .f32⟩ : BufTy).Contents (Elt F)),
    reshape main_v311 main_v312 rfl shapeCasts_S1x128_S128,
    unary main_arg16 main_v313 ((extractStridedSlice S1x32768 ![0, 0] · slices_S2x32768_S1x32768_0_0) : (⟨S2x32768, .i32⟩ : BufTy).Contents (Elt F) → (⟨S1x32768, .i32⟩ : BufTy).Contents (Elt F)),
    reshape main_v313 main_v314 rfl shapeCasts_S1x32768_S32768,
    nullary main_c_52 (constantI S_ 32 0#32),
    unary main_c_52 main_v315 (broadcastInDim S32768 ![] bcast_S_S32768 : (⟨S_, .i32⟩ : BufTy).Contents (Elt F) → (⟨S32768, .i32⟩ : BufTy).Contents (Elt F)),
    binary main_v314 main_v315 main_v316 (cmpi .slt : (⟨S32768, .i32⟩ : BufTy).Contents (Elt F) → (⟨S32768, .i32⟩ : BufTy).Contents (Elt F) → (⟨S32768, .i1⟩ : BufTy).Contents (Elt F)),
    nullary main_c_53 (constantI S_ 32 2048#32),
    unary main_c_53 main_v317 (broadcastInDim S32768 ![] bcast_S_S32768 : (⟨S_, .i32⟩ : BufTy).Contents (Elt F) → (⟨S32768, .i32⟩ : BufTy).Contents (Elt F)),
    binary main_v314 main_v317 main_v318 (addi : (⟨S32768, .i32⟩ : BufTy).Contents (Elt F) → (⟨S32768, .i32⟩ : BufTy).Contents (Elt F) → (⟨S32768, .i32⟩ : BufTy).Contents (Elt F)),
    ternary main_v316 main_v318 main_v314 main_v319 (select : (⟨S32768, .i1⟩ : BufTy).Contents (Elt F) → (⟨S32768, .i32⟩ : BufTy).Contents (Elt F) → (⟨S32768, .i32⟩ : BufTy).Contents (Elt F) → (⟨S32768, .i32⟩ : BufTy).Contents (Elt F)),
    unary main_v319 main_v320 (broadcastInDim S32768x1 ![0] bcast_S32768_S32768x1_0 : (⟨S32768, .i32⟩ : BufTy).Contents (Elt F) → (⟨S32768x1, .i32⟩ : BufTy).Contents (Elt F)),
    binary main_v306 main_v320 main_v321 ((fun x i => Host.gather gather_S2048x128_S32768x1_S32768x128_1_0_n_n_0_1_1128 x i) : (⟨S2048x128, .f32⟩ : BufTy).Contents (Elt F) → (⟨S32768x1, .i32⟩ : BufTy).Contents (Elt F) → (⟨S32768x128, .f32⟩ : BufTy).Contents (Elt F)),
    unary main_arg16 main_v322 ((extractStridedSlice S1x32768 ![1, 0] · slices_S2x32768_S1x32768_1_0) : (⟨S2x32768, .i32⟩ : BufTy).Contents (Elt F) → (⟨S1x32768, .i32⟩ : BufTy).Contents (Elt F)),
    reshape main_v322 main_v323 rfl shapeCasts_S1x32768_S32768,
    nullary main_cst_54 (constant S_ .f32 0x00000000#32),
    unary main_cst_54 main_v324 (broadcastInDim S2048x128 ![] bcast_S_S2048x128 : (⟨S_, .f32⟩ : BufTy).Contents (Elt F) → (⟨S2048x128, .f32⟩ : BufTy).Contents (Elt F)),
    unary main_v323 main_v325 (broadcastInDim S32768x1 ![0] bcast_S32768_S32768x1_0 : (⟨S32768, .i32⟩ : BufTy).Contents (Elt F) → (⟨S32768x1, .i32⟩ : BufTy).Contents (Elt F)),
    ternary main_v324 main_v325 main_v321 main_v326 ((fun x i u => Host.scatterAdd scatter_S2048x128_S32768x1_S32768x128_1_0_0_1 x i u) : (⟨S2048x128, .f32⟩ : BufTy).Contents (Elt F) → (⟨S32768x1, .i32⟩ : BufTy).Contents (Elt F) → (⟨S32768x128, .f32⟩ : BufTy).Contents (Elt F) → (⟨S2048x128, .f32⟩ : BufTy).Contents (Elt F)),
    binary main_v306 main_v308 main_v327 ((fun l r => Host.dotGeneral dot_S2048x128_S128x128_S2048x128_1_0_0_1_n_n none l r) : (⟨S2048x128, .f32⟩ : BufTy).Contents (Elt F) → (⟨S128x128, .f32⟩ : BufTy).Contents (Elt F) → (⟨S2048x128, .f32⟩ : BufTy).Contents (Elt F)),
    binary main_v326 main_v310 main_v328 ((fun l r => Host.dotGeneral dot_S2048x128_S128x128_S2048x128_1_0_0_1_n_n none l r) : (⟨S2048x128, .f32⟩ : BufTy).Contents (Elt F) → (⟨S128x128, .f32⟩ : BufTy).Contents (Elt F) → (⟨S2048x128, .f32⟩ : BufTy).Contents (Elt F)),
    binary main_v327 main_v328 main_v329 (addf : (⟨S2048x128, .f32⟩ : BufTy).Contents (Elt F) → (⟨S2048x128, .f32⟩ : BufTy).Contents (Elt F) → (⟨S2048x128, .f32⟩ : BufTy).Contents (Elt F)),
    unary main_v312 main_v330 (broadcastInDim S1x128 ![1] bcast_S128_S1x128_1 : (⟨S128, .f32⟩ : BufTy).Contents (Elt F) → (⟨S1x128, .f32⟩ : BufTy).Contents (Elt F)),
    unary main_v330 main_v331 (broadcastInDim S2048x128 ![0, 1] bcast_S1x128_S2048x128_0_1 : (⟨S1x128, .f32⟩ : BufTy).Contents (Elt F) → (⟨S2048x128, .f32⟩ : BufTy).Contents (Elt F)),
    binary main_v329 main_v331 main_v332 (addf : (⟨S2048x128, .f32⟩ : BufTy).Contents (Elt F) → (⟨S2048x128, .f32⟩ : BufTy).Contents (Elt F) → (⟨S2048x128, .f32⟩ : BufTy).Contents (Elt F)),
    unary main_arg9 main_v333 ((extractStridedSlice S1x128 ![2, 0] · slices_S4x128_S1x128_2_0) : (⟨S4x128, .f32⟩ : BufTy).Contents (Elt F) → (⟨S1x128, .f32⟩ : BufTy).Contents (Elt F)),
    reshape main_v333 main_v334 rfl shapeCasts_S1x128_S128,
    unary main_arg10 main_v335 ((extractStridedSlice S1x128 ![2, 0] · slices_S4x128_S1x128_2_0) : (⟨S4x128, .f32⟩ : BufTy).Contents (Elt F) → (⟨S1x128, .f32⟩ : BufTy).Contents (Elt F)),
    reshape main_v335 main_v336 rfl shapeCasts_S1x128_S128,
    nullary main_cst_55 (constant S_ .f32 0x00000000#32),
    binary main_v332 main_cst_55 main_v337 ((fun x v => Host.reduceAdd x v reducesTo_S2048x128_S128_d0 h_S_) : (⟨S2048x128, .f32⟩ : BufTy).Contents (Elt F) → (⟨S_, .f32⟩ : BufTy).Contents (Elt F) → (⟨S128, .f32⟩ : BufTy).Contents (Elt F)),
    nullary main_cst_56 (constant S_ .f32 0x45000000#32),
    unary main_cst_56 main_v338 (broadcastInDim S128 ![] bcast_S_S128 : (⟨S_, .f32⟩ : BufTy).Contents (Elt F) → (⟨S128, .f32⟩ : BufTy).Contents (Elt F)),
    binary main_v337 main_v338 main_v339 (Host.divf : (⟨S128, .f32⟩ : BufTy).Contents (Elt F) → (⟨S128, .f32⟩ : BufTy).Contents (Elt F) → (⟨S128, .f32⟩ : BufTy).Contents (Elt F)),
    nullary main_c_57 (constantI S_ 32 0#32),
    TRef.nullary main_call8.cst (constant S_ .f32 0x00000000#32),
    TRef.binary (.of main_v332) main_call8.cst main_call8.v0 (fun x v => Host.reduceAdd x v reducesTo_S2048x128_S128_d0 h_S_),
    TRef.unary main_call8.v0 main_call8.v1 (broadcastInDim S1x128 ![1] bcast_S128_S1x128_1),
    TRef.nullary main_call8.cst_0 (constant S_ .f32 0x45000000#32),
    TRef.unary main_call8.cst_0 main_call8.v2 (broadcastInDim S1x128 ![] bcast_S_S1x128),
    TRef.binary main_call8.v1 main_call8.v2 main_call8.v3 Host.divf,
    TRef.unary main_call8.v3 main_call8.v4 (broadcastInDim S2048x128 ![0, 1] bcast_S1x128_S2048x128_0_1),
    TRef.binary (.of main_v332) main_call8.v4 main_call8.v5 subf,
    TRef.binary main_call8.v5 main_call8.v5 main_call8.v6 mulf,
    TRef.unary (.of main_c_57) main_call8.v7 (sitofp .f32),
    TRef.nullary main_call8.cst_1 (constant S_ .f32 0x45000000#32),
    TRef.binary main_call8.cst_1 main_call8.v7 main_call8.v8 subf,
    TRef.nullary main_call8.cst_2 (constant S_ .f32 0x00000000#32),
    TRef.binary main_call8.v6 main_call8.cst_2 main_call8.v9 (fun x v => Host.reduceAdd x v reducesTo_S2048x128_S128_d0 h_S_),
    TRef.unary main_call8.v8 main_call8.v10 (broadcastInDim S128 ![] bcast_S_S128),
    TRef.binary main_call8.v9 main_call8.v10 main_call8.v11 Host.divf,
    TRef.nullary main_call8.cst_3 (constant S_ .f32 0x00000000#32),
    TRef.binary main_call8.v8 main_call8.cst_3 main_call8.v12 (cmpf .ogt),
    TRef.nullary main_call8.cst_4 (constant S_ .f32 0x7FC00000#32),
    TRef.unary main_call8.cst_4 main_call8.call0.v0 id,
    TRef.unary main_call8.call0.v0 main_call8.call0.v1 (broadcastInDim S128 ![] bcast_S_S128),
    TRef.ternary main_call8.v12 main_call8.v11 main_call8.call0.v1 main_call8.call0.v2 (fun p a b => select (broadcastInDim S128 ![] bcast_S_S128 p) a b),
    unary main_v339 main_v341 (broadcastInDim S1x128 ![1] bcast_S128_S1x128_1 : (⟨S128, .f32⟩ : BufTy).Contents (Elt F) → (⟨S1x128, .f32⟩ : BufTy).Contents (Elt F)),
    unary main_v341 main_v342 (broadcastInDim S2048x128 ![0, 1] bcast_S1x128_S2048x128_0_1 : (⟨S1x128, .f32⟩ : BufTy).Contents (Elt F) → (⟨S2048x128, .f32⟩ : BufTy).Contents (Elt F)),
    binary main_v332 main_v342 main_v343 (subf : (⟨S2048x128, .f32⟩ : BufTy).Contents (Elt F) → (⟨S2048x128, .f32⟩ : BufTy).Contents (Elt F) → (⟨S2048x128, .f32⟩ : BufTy).Contents (Elt F)),
    nullary main_cst_58 (constant S_ .f32 0x3727C5AC#32),
    unary main_cst_58 main_v344 (broadcastInDim S128 ![] bcast_S_S128 : (⟨S_, .f32⟩ : BufTy).Contents (Elt F) → (⟨S128, .f32⟩ : BufTy).Contents (Elt F)),
    binary main_v340 main_v344 main_v345 (addf : (⟨S128, .f32⟩ : BufTy).Contents (Elt F) → (⟨S128, .f32⟩ : BufTy).Contents (Elt F) → (⟨S128, .f32⟩ : BufTy).Contents (Elt F)),
    unary main_v345 main_v346 (Host.rsqrt : (⟨S128, .f32⟩ : BufTy).Contents (Elt F) → (⟨S128, .f32⟩ : BufTy).Contents (Elt F)),
    unary main_v346 main_v347 (broadcastInDim S1x128 ![1] bcast_S128_S1x128_1 : (⟨S128, .f32⟩ : BufTy).Contents (Elt F) → (⟨S1x128, .f32⟩ : BufTy).Contents (Elt F)),
    unary main_v347 main_v348 (broadcastInDim S2048x128 ![0, 1] bcast_S1x128_S2048x128_0_1 : (⟨S1x128, .f32⟩ : BufTy).Contents (Elt F) → (⟨S2048x128, .f32⟩ : BufTy).Contents (Elt F)),
    binary main_v343 main_v348 main_v349 (mulf : (⟨S2048x128, .f32⟩ : BufTy).Contents (Elt F) → (⟨S2048x128, .f32⟩ : BufTy).Contents (Elt F) → (⟨S2048x128, .f32⟩ : BufTy).Contents (Elt F)),
    unary main_v334 main_v350 (broadcastInDim S1x128 ![1] bcast_S128_S1x128_1 : (⟨S128, .f32⟩ : BufTy).Contents (Elt F) → (⟨S1x128, .f32⟩ : BufTy).Contents (Elt F)),
    unary main_v350 main_v351 (broadcastInDim S2048x128 ![0, 1] bcast_S1x128_S2048x128_0_1 : (⟨S1x128, .f32⟩ : BufTy).Contents (Elt F) → (⟨S2048x128, .f32⟩ : BufTy).Contents (Elt F)),
    binary main_v349 main_v351 main_v352 (mulf : (⟨S2048x128, .f32⟩ : BufTy).Contents (Elt F) → (⟨S2048x128, .f32⟩ : BufTy).Contents (Elt F) → (⟨S2048x128, .f32⟩ : BufTy).Contents (Elt F)),
    unary main_v336 main_v353 (broadcastInDim S1x128 ![1] bcast_S128_S1x128_1 : (⟨S128, .f32⟩ : BufTy).Contents (Elt F) → (⟨S1x128, .f32⟩ : BufTy).Contents (Elt F)),
    unary main_v353 main_v354 (broadcastInDim S2048x128 ![0, 1] bcast_S1x128_S2048x128_0_1 : (⟨S1x128, .f32⟩ : BufTy).Contents (Elt F) → (⟨S2048x128, .f32⟩ : BufTy).Contents (Elt F)),
    binary main_v352 main_v354 main_v355 (addf : (⟨S2048x128, .f32⟩ : BufTy).Contents (Elt F) → (⟨S2048x128, .f32⟩ : BufTy).Contents (Elt F) → (⟨S2048x128, .f32⟩ : BufTy).Contents (Elt F)),
    nullary main_c_59 (constantI S_ 32 0#32),
    unary main_c_59 main_v356 (broadcastInDim S262144 ![] bcast_S_S262144 : (⟨S_, .i32⟩ : BufTy).Contents (Elt F) → (⟨S262144, .i32⟩ : BufTy).Contents (Elt F)),
    binary main_v10 main_v356 main_v357 (cmpi .slt : (⟨S262144, .i32⟩ : BufTy).Contents (Elt F) → (⟨S262144, .i32⟩ : BufTy).Contents (Elt F) → (⟨S262144, .i1⟩ : BufTy).Contents (Elt F)) ]

/-- Statements 421 … 428 of @main: 10 operations. -/
abbrev ops9 : List (HloOp τ sig (Elt F)) :=
  [ nullary main_c_60 (constantI S_ 32 2048#32),
    unary main_c_60 main_v358 (broadcastInDim S262144 ![] bcast_S_S262144 : (⟨S_, .i32⟩ : BufTy).Contents (Elt F) → (⟨S262144, .i32⟩ : BufTy).Contents (Elt F)),
    binary main_v10 main_v358 main_v359 (addi : (⟨S262144, .i32⟩ : BufTy).Contents (Elt F) → (⟨S262144, .i32⟩ : BufTy).Contents (Elt F) → (⟨S262144, .i32⟩ : BufTy).Contents (Elt F)),
    ternary main_v357 main_v359 main_v10 main_v360 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    unary main_v360 main_v361 (broadcastInDim S262144x1 ![0] bcast_S262144_S262144x1_0 : (⟨S262144, .i32⟩ : BufTy).Contents (Elt F) → (⟨S262144x1, .i32⟩ : BufTy).Contents (Elt F)),
    binary main_v355 main_v361 main_v362 ((fun x i => Host.gather gather_S2048x128_S262144x1_S262144x128_1_0_n_n_0_1_1128 x i) : (⟨S2048x128, .f32⟩ : BufTy).Contents (Elt F) → (⟨S262144x1, .i32⟩ : BufTy).Contents (Elt F) → (⟨S262144x128, .f32⟩ : BufTy).Contents (Elt F)),
    binary main_v295 main_v362 main_v363 (addf : (⟨S262144x128, .f32⟩ : BufTy).Contents (Elt F) → (⟨S262144x128, .f32⟩ : BufTy).Contents (Elt F) → (⟨S262144x128, .f32⟩ : BufTy).Contents (Elt F)),
    TRef.nullary main_call9.cst (constant S_ .f32 0x00000000#32),
    TRef.unary main_call9.cst main_call9.v0 (broadcastInDim S262144x128 ![] bcast_S_S262144x128),
    TRef.binary (.of main_v363) main_call9.v0 main_call9.v1 maximumf ]

/-- Statements 429 … 480 of @main: 73 operations. -/
abbrev ops10 : List (HloOp τ sig (Elt F)) :=
  [ unary main_arg1 main_v365 ((extractStridedSlice S1x128x128 ![3, 0, 0] · slices_S4x128x128_S1x128x128_3_0_0) : (⟨S4x128x128, .f32⟩ : BufTy).Contents (Elt F) → (⟨S1x128x128, .f32⟩ : BufTy).Contents (Elt F)),
    reshape main_v365 main_v366 rfl shapeCasts_S1x128x128_S128x128,
    unary main_arg2 main_v367 ((extractStridedSlice S1x128x128 ![3, 0, 0] · slices_S4x128x128_S1x128x128_3_0_0) : (⟨S4x128x128, .f32⟩ : BufTy).Contents (Elt F) → (⟨S1x128x128, .f32⟩ : BufTy).Contents (Elt F)),
    reshape main_v367 main_v368 rfl shapeCasts_S1x128x128_S128x128,
    unary main_arg3 main_v369 ((extractStridedSlice S1x128 ![3, 0] · slices_S4x128_S1x128_3_0) : (⟨S4x128, .f32⟩ : BufTy).Contents (Elt F) → (⟨S1x128, .f32⟩ : BufTy).Contents (Elt F)),
    reshape main_v369 main_v370 rfl shapeCasts_S1x128_S128,
    unary main_arg15 main_v371 ((extractStridedSlice S1x2097152 ![0, 0] · slices_S2x2097152_S1x2097152_0_0) : (⟨S2x2097152, .i32⟩ : BufTy).Contents (Elt F) → (⟨S1x2097152, .i32⟩ : BufTy).Contents (Elt F)),
    reshape main_v371 main_v372 rfl shapeCasts_S1x2097152_S2097152,
    nullary main_c_61 (constantI S_ 32 0#32),
    unary main_c_61 main_v373 (broadcastInDim S2097152 ![] bcast_S_S2097152 : (⟨S_, .i32⟩ : BufTy).Contents (Elt F) → (⟨S2097152, .i32⟩ : BufTy).Contents (Elt F)),
    binary main_v372 main_v373 main_v374 (cmpi .slt : (⟨S2097152, .i32⟩ : BufTy).Contents (Elt F) → (⟨S2097152, .i32⟩ : BufTy).Contents (Elt F) → (⟨S2097152, .i1⟩ : BufTy).Contents (Elt F)),
    nullary main_c_62 (constantI S_ 32 262144#32),
    unary main_c_62 main_v375 (broadcastInDim S2097152 ![] bcast_S_S2097152 : (⟨S_, .i32⟩ : BufTy).Contents (Elt F) → (⟨S2097152, .i32⟩ : BufTy).Contents (Elt F)),
    binary main_v372 main_v375 main_v376 (addi : (⟨S2097152, .i32⟩ : BufTy).Contents (Elt F) → (⟨S2097152, .i32⟩ : BufTy).Contents (Elt F) → (⟨S2097152, .i32⟩ : BufTy).Contents (Elt F)),
    ternary main_v374 main_v376 main_v372 main_v377 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    unary main_v377 main_v378 (broadcastInDim S2097152x1 ![0] bcast_S2097152_S2097152x1_0 : (⟨S2097152, .i32⟩ : BufTy).Contents (Elt F) → (⟨S2097152x1, .i32⟩ : BufTy).Contents (Elt F)),
    binary main_v364 main_v378 main_v379 ((fun x i => Host.gather gather_S262144x128_S2097152x1_S2097152x128_1_0_n_n_0_1_1128 x i) : (⟨S262144x128, .f32⟩ : BufTy).Contents (Elt F) → (⟨S2097152x1, .i32⟩ : BufTy).Contents (Elt F) → (⟨S2097152x128, .f32⟩ : BufTy).Contents (Elt F)),
    unary main_arg15 main_v380 ((extractStridedSlice S1x2097152 ![1, 0] · slices_S2x2097152_S1x2097152_1_0) : (⟨S2x2097152, .i32⟩ : BufTy).Contents (Elt F) → (⟨S1x2097152, .i32⟩ : BufTy).Contents (Elt F)),
    reshape main_v380 main_v381 rfl shapeCasts_S1x2097152_S2097152,
    nullary main_cst_63 (constant S_ .f32 0x00000000#32),
    unary main_cst_63 main_v382 (broadcastInDim S262144x128 ![] bcast_S_S262144x128 : (⟨S_, .f32⟩ : BufTy).Contents (Elt F) → (⟨S262144x128, .f32⟩ : BufTy).Contents (Elt F)),
    unary main_v381 main_v383 (broadcastInDim S2097152x1 ![0] bcast_S2097152_S2097152x1_0 : (⟨S2097152, .i32⟩ : BufTy).Contents (Elt F) → (⟨S2097152x1, .i32⟩ : BufTy).Contents (Elt F)),
    ternary main_v382 main_v383 main_v379 main_v384 ((fun x i u => Host.scatterAdd scatter_S262144x128_S2097152x1_S2097152x128_1_0_0_1 x i u) : (⟨S262144x128, .f32⟩ : BufTy).Contents (Elt F) → (⟨S2097152x1, .i32⟩ : BufTy).Contents (Elt F) → (⟨S2097152x128, .f32⟩ : BufTy).Contents (Elt F) → (⟨S262144x128, .f32⟩ : BufTy).Contents (Elt F)),
    binary main_v364 main_v366 main_v385 ((fun l r => Host.dotGeneral dot_S262144x128_S128x128_S262144x128_1_0_0_1_n_n none l r) : (⟨S262144x128, .f32⟩ : BufTy).Contents (Elt F) → (⟨S128x128, .f32⟩ : BufTy).Contents (Elt F) → (⟨S262144x128, .f32⟩ : BufTy).Contents (Elt F)),
    binary main_v384 main_v368 main_v386 ((fun l r => Host.dotGeneral dot_S262144x128_S128x128_S262144x128_1_0_0_1_n_n none l r) : (⟨S262144x128, .f32⟩ : BufTy).Contents (Elt F) → (⟨S128x128, .f32⟩ : BufTy).Contents (Elt F) → (⟨S262144x128, .f32⟩ : BufTy).Contents (Elt F)),
    binary main_v385 main_v386 main_v387 (addf : (⟨S262144x128, .f32⟩ : BufTy).Contents (Elt F) → (⟨S262144x128, .f32⟩ : BufTy).Contents (Elt F) → (⟨S262144x128, .f32⟩ : BufTy).Contents (Elt F)),
    unary main_v370 main_v388 (broadcastInDim S1x128 ![1] bcast_S128_S1x128_1 : (⟨S128, .f32⟩ : BufTy).Contents (Elt F) → (⟨S1x128, .f32⟩ : BufTy).Contents (Elt F)),
    unary main_v388 main_v389 (broadcastInDim S262144x128 ![0, 1] bcast_S1x128_S262144x128_0_1 : (⟨S1x128, .f32⟩ : BufTy).Contents (Elt F) → (⟨S262144x128, .f32⟩ : BufTy).Contents (Elt F)),
    binary main_v387 main_v389 main_v390 (addf : (⟨S262144x128, .f32⟩ : BufTy).Contents (Elt F) → (⟨S262144x128, .f32⟩ : BufTy).Contents (Elt F) → (⟨S262144x128, .f32⟩ : BufTy).Contents (Elt F)),
    unary main_arg4 main_v391 ((extractStridedSlice S1x128 ![3, 0] · slices_S4x128_S1x128_3_0) : (⟨S4x128, .f32⟩ : BufTy).Contents (Elt F) → (⟨S1x128, .f32⟩ : BufTy).Contents (Elt F)),
    reshape main_v391 main_v392 rfl shapeCasts_S1x128_S128,
    unary main_arg5 main_v393 ((extractStridedSlice S1x128 ![3, 0] · slices_S4x128_S1x128_3_0) : (⟨S4x128, .f32⟩ : BufTy).Contents (Elt F) → (⟨S1x128, .f32⟩ : BufTy).Contents (Elt F)),
    reshape main_v393 main_v394 rfl shapeCasts_S1x128_S128,
    nullary main_cst_64 (constant S_ .f32 0x00000000#32),
    binary main_v390 main_cst_64 main_v395 ((fun x v => Host.reduceAdd x v reducesTo_S262144x128_S128_d0 h_S_) : (⟨S262144x128, .f32⟩ : BufTy).Contents (Elt F) → (⟨S_, .f32⟩ : BufTy).Contents (Elt F) → (⟨S128, .f32⟩ : BufTy).Contents (Elt F)),
    nullary main_cst_65 (constant S_ .f32 0x48800000#32),
    unary main_cst_65 main_v396 (broadcastInDim S128 ![] bcast_S_S128 : (⟨S_, .f32⟩ : BufTy).Contents (Elt F) → (⟨S128, .f32⟩ : BufTy).Contents (Elt F)),
    binary main_v395 main_v396 main_v397 (Host.divf : (⟨S128, .f32⟩ : BufTy).Contents (Elt F) → (⟨S128, .f32⟩ : BufTy).Contents (Elt F) → (⟨S128, .f32⟩ : BufTy).Contents (Elt F)),
    nullary main_c_66 (constantI S_ 32 0#32),
    TRef.nullary main_call10.cst (constant S_ .f32 0x00000000#32),
    TRef.binary (.of main_v390) main_call10.cst main_call10.v0 (fun x v => Host.reduceAdd x v reducesTo_S262144x128_S128_d0 h_S_),
    TRef.unary main_call10.v0 main_call10.v1 (broadcastInDim S1x128 ![1] bcast_S128_S1x128_1),
    TRef.nullary main_call10.cst_0 (constant S_ .f32 0x48800000#32),
    TRef.unary main_call10.cst_0 main_call10.v2 (broadcastInDim S1x128 ![] bcast_S_S1x128),
    TRef.binary main_call10.v1 main_call10.v2 main_call10.v3 Host.divf,
    TRef.unary main_call10.v3 main_call10.v4 (broadcastInDim S262144x128 ![0, 1] bcast_S1x128_S262144x128_0_1),
    TRef.binary (.of main_v390) main_call10.v4 main_call10.v5 subf,
    TRef.binary main_call10.v5 main_call10.v5 main_call10.v6 mulf,
    TRef.unary (.of main_c_66) main_call10.v7 (sitofp .f32),
    TRef.nullary main_call10.cst_1 (constant S_ .f32 0x48800000#32),
    TRef.binary main_call10.cst_1 main_call10.v7 main_call10.v8 subf,
    TRef.nullary main_call10.cst_2 (constant S_ .f32 0x00000000#32),
    TRef.binary main_call10.v6 main_call10.cst_2 main_call10.v9 (fun x v => Host.reduceAdd x v reducesTo_S262144x128_S128_d0 h_S_),
    TRef.unary main_call10.v8 main_call10.v10 (broadcastInDim S128 ![] bcast_S_S128),
    TRef.binary main_call10.v9 main_call10.v10 main_call10.v11 Host.divf,
    TRef.nullary main_call10.cst_3 (constant S_ .f32 0x00000000#32),
    TRef.binary main_call10.v8 main_call10.cst_3 main_call10.v12 (cmpf .ogt),
    TRef.nullary main_call10.cst_4 (constant S_ .f32 0x7FC00000#32),
    TRef.unary main_call10.cst_4 main_call10.call0.v0 id,
    TRef.unary main_call10.call0.v0 main_call10.call0.v1 (broadcastInDim S128 ![] bcast_S_S128),
    TRef.ternary main_call10.v12 main_call10.v11 main_call10.call0.v1 main_call10.call0.v2 (fun p a b => select (broadcastInDim S128 ![] bcast_S_S128 p) a b),
    unary main_v397 main_v399 (broadcastInDim S1x128 ![1] bcast_S128_S1x128_1 : (⟨S128, .f32⟩ : BufTy).Contents (Elt F) → (⟨S1x128, .f32⟩ : BufTy).Contents (Elt F)),
    unary main_v399 main_v400 (broadcastInDim S262144x128 ![0, 1] bcast_S1x128_S262144x128_0_1 : (⟨S1x128, .f32⟩ : BufTy).Contents (Elt F) → (⟨S262144x128, .f32⟩ : BufTy).Contents (Elt F)),
    binary main_v390 main_v400 main_v401 (subf : (⟨S262144x128, .f32⟩ : BufTy).Contents (Elt F) → (⟨S262144x128, .f32⟩ : BufTy).Contents (Elt F) → (⟨S262144x128, .f32⟩ : BufTy).Contents (Elt F)),
    nullary main_cst_67 (constant S_ .f32 0x3727C5AC#32),
    unary main_cst_67 main_v402 (broadcastInDim S128 ![] bcast_S_S128 : (⟨S_, .f32⟩ : BufTy).Contents (Elt F) → (⟨S128, .f32⟩ : BufTy).Contents (Elt F)),
    binary main_v398 main_v402 main_v403 (addf : (⟨S128, .f32⟩ : BufTy).Contents (Elt F) → (⟨S128, .f32⟩ : BufTy).Contents (Elt F) → (⟨S128, .f32⟩ : BufTy).Contents (Elt F)),
    unary main_v403 main_v404 (Host.rsqrt : (⟨S128, .f32⟩ : BufTy).Contents (Elt F) → (⟨S128, .f32⟩ : BufTy).Contents (Elt F)),
    unary main_v404 main_v405 (broadcastInDim S1x128 ![1] bcast_S128_S1x128_1 : (⟨S128, .f32⟩ : BufTy).Contents (Elt F) → (⟨S1x128, .f32⟩ : BufTy).Contents (Elt F)),
    unary main_v405 main_v406 (broadcastInDim S262144x128 ![0, 1] bcast_S1x128_S262144x128_0_1 : (⟨S1x128, .f32⟩ : BufTy).Contents (Elt F) → (⟨S262144x128, .f32⟩ : BufTy).Contents (Elt F)),
    binary main_v401 main_v406 main_v407 (mulf : (⟨S262144x128, .f32⟩ : BufTy).Contents (Elt F) → (⟨S262144x128, .f32⟩ : BufTy).Contents (Elt F) → (⟨S262144x128, .f32⟩ : BufTy).Contents (Elt F)),
    unary main_v392 main_v408 (broadcastInDim S1x128 ![1] bcast_S128_S1x128_1 : (⟨S128, .f32⟩ : BufTy).Contents (Elt F) → (⟨S1x128, .f32⟩ : BufTy).Contents (Elt F)),
    unary main_v408 main_v409 (broadcastInDim S262144x128 ![0, 1] bcast_S1x128_S262144x128_0_1 : (⟨S1x128, .f32⟩ : BufTy).Contents (Elt F) → (⟨S262144x128, .f32⟩ : BufTy).Contents (Elt F)) ]

/-- Statements 481 … 540 of @main: 81 operations. -/
abbrev ops11 : List (HloOp τ sig (Elt F)) :=
  [ binary main_v407 main_v409 main_v410 (mulf : (⟨S262144x128, .f32⟩ : BufTy).Contents (Elt F) → (⟨S262144x128, .f32⟩ : BufTy).Contents (Elt F) → (⟨S262144x128, .f32⟩ : BufTy).Contents (Elt F)),
    unary main_v394 main_v411 (broadcastInDim S1x128 ![1] bcast_S128_S1x128_1 : (⟨S128, .f32⟩ : BufTy).Contents (Elt F) → (⟨S1x128, .f32⟩ : BufTy).Contents (Elt F)),
    unary main_v411 main_v412 (broadcastInDim S262144x128 ![0, 1] bcast_S1x128_S262144x128_0_1 : (⟨S1x128, .f32⟩ : BufTy).Contents (Elt F) → (⟨S262144x128, .f32⟩ : BufTy).Contents (Elt F)),
    binary main_v410 main_v412 main_v413 (addf : (⟨S262144x128, .f32⟩ : BufTy).Contents (Elt F) → (⟨S262144x128, .f32⟩ : BufTy).Contents (Elt F) → (⟨S262144x128, .f32⟩ : BufTy).Contents (Elt F)),
    nullary main_cst_68 (constant S_ .f32 0x00000000#32),
    unary main_cst_68 main_v414 (broadcastInDim S2048x128 ![] bcast_S_S2048x128 : (⟨S_, .f32⟩ : BufTy).Contents (Elt F) → (⟨S2048x128, .f32⟩ : BufTy).Contents (Elt F)),
    unary main_v10 main_v415 (broadcastInDim S262144x1 ![0] bcast_S262144_S262144x1_0 : (⟨S262144, .i32⟩ : BufTy).Contents (Elt F) → (⟨S262144x1, .i32⟩ : BufTy).Contents (Elt F)),
    ternary main_v414 main_v415 main_v364 main_v416 ((fun x i u => Host.scatterAdd scatter_S2048x128_S262144x1_S262144x128_1_0_0_1 x i u) : (⟨S2048x128, .f32⟩ : BufTy).Contents (Elt F) → (⟨S262144x1, .i32⟩ : BufTy).Contents (Elt F) → (⟨S262144x128, .f32⟩ : BufTy).Contents (Elt F) → (⟨S2048x128, .f32⟩ : BufTy).Contents (Elt F)),
    nullary main_cst_69 (constant S_ .f32 0x3F800000#32),
    unary main_cst_69 main_v417 (broadcastInDim S262144x1 ![] bcast_S_S262144x1 : (⟨S_, .f32⟩ : BufTy).Contents (Elt F) → (⟨S262144x1, .f32⟩ : BufTy).Contents (Elt F)),
    nullary main_cst_70 (constant S_ .f32 0x00000000#32),
    unary main_cst_70 main_v418 (broadcastInDim S2048x1 ![] bcast_S_S2048x1 : (⟨S_, .f32⟩ : BufTy).Contents (Elt F) → (⟨S2048x1, .f32⟩ : BufTy).Contents (Elt F)),
    unary main_v10 main_v419 (broadcastInDim S262144x1 ![0] bcast_S262144_S262144x1_0 : (⟨S262144, .i32⟩ : BufTy).Contents (Elt F) → (⟨S262144x1, .i32⟩ : BufTy).Contents (Elt F)),
    ternary main_v418 main_v419 main_v417 main_v420 ((fun x i u => Host.scatterAdd scatter_S2048x1_S262144x1_S262144x1_1_0_0_1 x i u) : (⟨S2048x1, .f32⟩ : BufTy).Contents (Elt F) → (⟨S262144x1, .i32⟩ : BufTy).Contents (Elt F) → (⟨S262144x1, .f32⟩ : BufTy).Contents (Elt F) → (⟨S2048x1, .f32⟩ : BufTy).Contents (Elt F)),
    nullary main_cst_71 (constant S_ .f32 0x3F800000#32),
    unary main_cst_71 main_v421 (broadcastInDim S2048x1 ![] bcast_S_S2048x1 : (⟨S_, .f32⟩ : BufTy).Contents (Elt F) → (⟨S2048x1, .f32⟩ : BufTy).Contents (Elt F)),
    binary main_v420 main_v421 main_v422 (maximumf : (⟨S2048x1, .f32⟩ : BufTy).Contents (Elt F) → (⟨S2048x1, .f32⟩ : BufTy).Contents (Elt F) → (⟨S2048x1, .f32⟩ : BufTy).Contents (Elt F)),
    unary main_v422 main_v423 (broadcastInDim S2048x128 ![0, 1] bcast_S2048x1_S2048x128_0_1 : (⟨S2048x1, .f32⟩ : BufTy).Contents (Elt F) → (⟨S2048x128, .f32⟩ : BufTy).Contents (Elt F)),
    binary main_v416 main_v423 main_v424 (Host.divf : (⟨S2048x128, .f32⟩ : BufTy).Contents (Elt F) → (⟨S2048x128, .f32⟩ : BufTy).Contents (Elt F) → (⟨S2048x128, .f32⟩ : BufTy).Contents (Elt F)),
    unary main_arg6 main_v425 ((extractStridedSlice S1x128x128 ![3, 0, 0] · slices_S4x128x128_S1x128x128_3_0_0) : (⟨S4x128x128, .f32⟩ : BufTy).Contents (Elt F) → (⟨S1x128x128, .f32⟩ : BufTy).Contents (Elt F)),
    reshape main_v425 main_v426 rfl shapeCasts_S1x128x128_S128x128,
    unary main_arg7 main_v427 ((extractStridedSlice S1x128x128 ![3, 0, 0] · slices_S4x128x128_S1x128x128_3_0_0) : (⟨S4x128x128, .f32⟩ : BufTy).Contents (Elt F) → (⟨S1x128x128, .f32⟩ : BufTy).Contents (Elt F)),
    reshape main_v427 main_v428 rfl shapeCasts_S1x128x128_S128x128,
    unary main_arg8 main_v429 ((extractStridedSlice S1x128 ![3, 0] · slices_S4x128_S1x128_3_0) : (⟨S4x128, .f32⟩ : BufTy).Contents (Elt F) → (⟨S1x128, .f32⟩ : BufTy).Contents (Elt F)),
    reshape main_v429 main_v430 rfl shapeCasts_S1x128_S128,
    unary main_arg16 main_v431 ((extractStridedSlice S1x32768 ![0, 0] · slices_S2x32768_S1x32768_0_0) : (⟨S2x32768, .i32⟩ : BufTy).Contents (Elt F) → (⟨S1x32768, .i32⟩ : BufTy).Contents (Elt F)),
    reshape main_v431 main_v432 rfl shapeCasts_S1x32768_S32768,
    nullary main_c_72 (constantI S_ 32 0#32),
    unary main_c_72 main_v433 (broadcastInDim S32768 ![] bcast_S_S32768 : (⟨S_, .i32⟩ : BufTy).Contents (Elt F) → (⟨S32768, .i32⟩ : BufTy).Contents (Elt F)),
    binary main_v432 main_v433 main_v434 (cmpi .slt : (⟨S32768, .i32⟩ : BufTy).Contents (Elt F) → (⟨S32768, .i32⟩ : BufTy).Contents (Elt F) → (⟨S32768, .i1⟩ : BufTy).Contents (Elt F)),
    nullary main_c_73 (constantI S_ 32 2048#32),
    unary main_c_73 main_v435 (broadcastInDim S32768 ![] bcast_S_S32768 : (⟨S_, .i32⟩ : BufTy).Contents (Elt F) → (⟨S32768, .i32⟩ : BufTy).Contents (Elt F)),
    binary main_v432 main_v435 main_v436 (addi : (⟨S32768, .i32⟩ : BufTy).Contents (Elt F) → (⟨S32768, .i32⟩ : BufTy).Contents (Elt F) → (⟨S32768, .i32⟩ : BufTy).Contents (Elt F)),
    ternary main_v434 main_v436 main_v432 main_v437 (select : (⟨S32768, .i1⟩ : BufTy).Contents (Elt F) → (⟨S32768, .i32⟩ : BufTy).Contents (Elt F) → (⟨S32768, .i32⟩ : BufTy).Contents (Elt F) → (⟨S32768, .i32⟩ : BufTy).Contents (Elt F)),
    unary main_v437 main_v438 (broadcastInDim S32768x1 ![0] bcast_S32768_S32768x1_0 : (⟨S32768, .i32⟩ : BufTy).Contents (Elt F) → (⟨S32768x1, .i32⟩ : BufTy).Contents (Elt F)),
    binary main_v424 main_v438 main_v439 ((fun x i => Host.gather gather_S2048x128_S32768x1_S32768x128_1_0_n_n_0_1_1128 x i) : (⟨S2048x128, .f32⟩ : BufTy).Contents (Elt F) → (⟨S32768x1, .i32⟩ : BufTy).Contents (Elt F) → (⟨S32768x128, .f32⟩ : BufTy).Contents (Elt F)),
    unary main_arg16 main_v440 ((extractStridedSlice S1x32768 ![1, 0] · slices_S2x32768_S1x32768_1_0) : (⟨S2x32768, .i32⟩ : BufTy).Contents (Elt F) → (⟨S1x32768, .i32⟩ : BufTy).Contents (Elt F)),
    reshape main_v440 main_v441 rfl shapeCasts_S1x32768_S32768,
    nullary main_cst_74 (constant S_ .f32 0x00000000#32),
    unary main_cst_74 main_v442 (broadcastInDim S2048x128 ![] bcast_S_S2048x128 : (⟨S_, .f32⟩ : BufTy).Contents (Elt F) → (⟨S2048x128, .f32⟩ : BufTy).Contents (Elt F)),
    unary main_v441 main_v443 (broadcastInDim S32768x1 ![0] bcast_S32768_S32768x1_0 : (⟨S32768, .i32⟩ : BufTy).Contents (Elt F) → (⟨S32768x1, .i32⟩ : BufTy).Contents (Elt F)),
    ternary main_v442 main_v443 main_v439 main_v444 ((fun x i u => Host.scatterAdd scatter_S2048x128_S32768x1_S32768x128_1_0_0_1 x i u) : (⟨S2048x128, .f32⟩ : BufTy).Contents (Elt F) → (⟨S32768x1, .i32⟩ : BufTy).Contents (Elt F) → (⟨S32768x128, .f32⟩ : BufTy).Contents (Elt F) → (⟨S2048x128, .f32⟩ : BufTy).Contents (Elt F)),
    binary main_v424 main_v426 main_v445 ((fun l r => Host.dotGeneral dot_S2048x128_S128x128_S2048x128_1_0_0_1_n_n none l r) : (⟨S2048x128, .f32⟩ : BufTy).Contents (Elt F) → (⟨S128x128, .f32⟩ : BufTy).Contents (Elt F) → (⟨S2048x128, .f32⟩ : BufTy).Contents (Elt F)),
    binary main_v444 main_v428 main_v446 ((fun l r => Host.dotGeneral dot_S2048x128_S128x128_S2048x128_1_0_0_1_n_n none l r) : (⟨S2048x128, .f32⟩ : BufTy).Contents (Elt F) → (⟨S128x128, .f32⟩ : BufTy).Contents (Elt F) → (⟨S2048x128, .f32⟩ : BufTy).Contents (Elt F)),
    binary main_v445 main_v446 main_v447 (addf : (⟨S2048x128, .f32⟩ : BufTy).Contents (Elt F) → (⟨S2048x128, .f32⟩ : BufTy).Contents (Elt F) → (⟨S2048x128, .f32⟩ : BufTy).Contents (Elt F)),
    unary main_v430 main_v448 (broadcastInDim S1x128 ![1] bcast_S128_S1x128_1 : (⟨S128, .f32⟩ : BufTy).Contents (Elt F) → (⟨S1x128, .f32⟩ : BufTy).Contents (Elt F)),
    unary main_v448 main_v449 (broadcastInDim S2048x128 ![0, 1] bcast_S1x128_S2048x128_0_1 : (⟨S1x128, .f32⟩ : BufTy).Contents (Elt F) → (⟨S2048x128, .f32⟩ : BufTy).Contents (Elt F)),
    binary main_v447 main_v449 main_v450 (addf : (⟨S2048x128, .f32⟩ : BufTy).Contents (Elt F) → (⟨S2048x128, .f32⟩ : BufTy).Contents (Elt F) → (⟨S2048x128, .f32⟩ : BufTy).Contents (Elt F)),
    unary main_arg9 main_v451 ((extractStridedSlice S1x128 ![3, 0] · slices_S4x128_S1x128_3_0) : (⟨S4x128, .f32⟩ : BufTy).Contents (Elt F) → (⟨S1x128, .f32⟩ : BufTy).Contents (Elt F)),
    reshape main_v451 main_v452 rfl shapeCasts_S1x128_S128,
    unary main_arg10 main_v453 ((extractStridedSlice S1x128 ![3, 0] · slices_S4x128_S1x128_3_0) : (⟨S4x128, .f32⟩ : BufTy).Contents (Elt F) → (⟨S1x128, .f32⟩ : BufTy).Contents (Elt F)),
    reshape main_v453 main_v454 rfl shapeCasts_S1x128_S128,
    nullary main_cst_75 (constant S_ .f32 0x00000000#32),
    binary main_v450 main_cst_75 main_v455 ((fun x v => Host.reduceAdd x v reducesTo_S2048x128_S128_d0 h_S_) : (⟨S2048x128, .f32⟩ : BufTy).Contents (Elt F) → (⟨S_, .f32⟩ : BufTy).Contents (Elt F) → (⟨S128, .f32⟩ : BufTy).Contents (Elt F)),
    nullary main_cst_76 (constant S_ .f32 0x45000000#32),
    unary main_cst_76 main_v456 (broadcastInDim S128 ![] bcast_S_S128 : (⟨S_, .f32⟩ : BufTy).Contents (Elt F) → (⟨S128, .f32⟩ : BufTy).Contents (Elt F)),
    binary main_v455 main_v456 main_v457 (Host.divf : (⟨S128, .f32⟩ : BufTy).Contents (Elt F) → (⟨S128, .f32⟩ : BufTy).Contents (Elt F) → (⟨S128, .f32⟩ : BufTy).Contents (Elt F)),
    nullary main_c_77 (constantI S_ 32 0#32),
    TRef.nullary main_call11.cst (constant S_ .f32 0x00000000#32),
    TRef.binary (.of main_v450) main_call11.cst main_call11.v0 (fun x v => Host.reduceAdd x v reducesTo_S2048x128_S128_d0 h_S_),
    TRef.unary main_call11.v0 main_call11.v1 (broadcastInDim S1x128 ![1] bcast_S128_S1x128_1),
    TRef.nullary main_call11.cst_0 (constant S_ .f32 0x45000000#32),
    TRef.unary main_call11.cst_0 main_call11.v2 (broadcastInDim S1x128 ![] bcast_S_S1x128),
    TRef.binary main_call11.v1 main_call11.v2 main_call11.v3 Host.divf,
    TRef.unary main_call11.v3 main_call11.v4 (broadcastInDim S2048x128 ![0, 1] bcast_S1x128_S2048x128_0_1),
    TRef.binary (.of main_v450) main_call11.v4 main_call11.v5 subf,
    TRef.binary main_call11.v5 main_call11.v5 main_call11.v6 mulf,
    TRef.unary (.of main_c_77) main_call11.v7 (sitofp .f32),
    TRef.nullary main_call11.cst_1 (constant S_ .f32 0x45000000#32),
    TRef.binary main_call11.cst_1 main_call11.v7 main_call11.v8 subf,
    TRef.nullary main_call11.cst_2 (constant S_ .f32 0x00000000#32),
    TRef.binary main_call11.v6 main_call11.cst_2 main_call11.v9 (fun x v => Host.reduceAdd x v reducesTo_S2048x128_S128_d0 h_S_),
    TRef.unary main_call11.v8 main_call11.v10 (broadcastInDim S128 ![] bcast_S_S128),
    TRef.binary main_call11.v9 main_call11.v10 main_call11.v11 Host.divf,
    TRef.nullary main_call11.cst_3 (constant S_ .f32 0x00000000#32),
    TRef.binary main_call11.v8 main_call11.cst_3 main_call11.v12 (cmpf .ogt),
    TRef.nullary main_call11.cst_4 (constant S_ .f32 0x7FC00000#32),
    TRef.unary main_call11.cst_4 main_call11.call0.v0 id,
    TRef.unary main_call11.call0.v0 main_call11.call0.v1 (broadcastInDim S128 ![] bcast_S_S128),
    TRef.ternary main_call11.v12 main_call11.v11 main_call11.call0.v1 main_call11.call0.v2 (fun p a b => select (broadcastInDim S128 ![] bcast_S_S128 p) a b),
    unary main_v457 main_v459 (broadcastInDim S1x128 ![1] bcast_S128_S1x128_1 : (⟨S128, .f32⟩ : BufTy).Contents (Elt F) → (⟨S1x128, .f32⟩ : BufTy).Contents (Elt F)) ]

/-- Statements 541 … 566 of @main: 28 operations. -/
abbrev ops12 : List (HloOp τ sig (Elt F)) :=
  [ unary main_v459 main_v460 (broadcastInDim S2048x128 ![0, 1] bcast_S1x128_S2048x128_0_1 : (⟨S1x128, .f32⟩ : BufTy).Contents (Elt F) → (⟨S2048x128, .f32⟩ : BufTy).Contents (Elt F)),
    binary main_v450 main_v460 main_v461 (subf : (⟨S2048x128, .f32⟩ : BufTy).Contents (Elt F) → (⟨S2048x128, .f32⟩ : BufTy).Contents (Elt F) → (⟨S2048x128, .f32⟩ : BufTy).Contents (Elt F)),
    nullary main_cst_78 (constant S_ .f32 0x3727C5AC#32),
    unary main_cst_78 main_v462 (broadcastInDim S128 ![] bcast_S_S128 : (⟨S_, .f32⟩ : BufTy).Contents (Elt F) → (⟨S128, .f32⟩ : BufTy).Contents (Elt F)),
    binary main_v458 main_v462 main_v463 (addf : (⟨S128, .f32⟩ : BufTy).Contents (Elt F) → (⟨S128, .f32⟩ : BufTy).Contents (Elt F) → (⟨S128, .f32⟩ : BufTy).Contents (Elt F)),
    unary main_v463 main_v464 (Host.rsqrt : (⟨S128, .f32⟩ : BufTy).Contents (Elt F) → (⟨S128, .f32⟩ : BufTy).Contents (Elt F)),
    unary main_v464 main_v465 (broadcastInDim S1x128 ![1] bcast_S128_S1x128_1 : (⟨S128, .f32⟩ : BufTy).Contents (Elt F) → (⟨S1x128, .f32⟩ : BufTy).Contents (Elt F)),
    unary main_v465 main_v466 (broadcastInDim S2048x128 ![0, 1] bcast_S1x128_S2048x128_0_1 : (⟨S1x128, .f32⟩ : BufTy).Contents (Elt F) → (⟨S2048x128, .f32⟩ : BufTy).Contents (Elt F)),
    binary main_v461 main_v466 main_v467 (mulf : (⟨S2048x128, .f32⟩ : BufTy).Contents (Elt F) → (⟨S2048x128, .f32⟩ : BufTy).Contents (Elt F) → (⟨S2048x128, .f32⟩ : BufTy).Contents (Elt F)),
    unary main_v452 main_v468 (broadcastInDim S1x128 ![1] bcast_S128_S1x128_1 : (⟨S128, .f32⟩ : BufTy).Contents (Elt F) → (⟨S1x128, .f32⟩ : BufTy).Contents (Elt F)),
    unary main_v468 main_v469 (broadcastInDim S2048x128 ![0, 1] bcast_S1x128_S2048x128_0_1 : (⟨S1x128, .f32⟩ : BufTy).Contents (Elt F) → (⟨S2048x128, .f32⟩ : BufTy).Contents (Elt F)),
    binary main_v467 main_v469 main_v470 (mulf : (⟨S2048x128, .f32⟩ : BufTy).Contents (Elt F) → (⟨S2048x128, .f32⟩ : BufTy).Contents (Elt F) → (⟨S2048x128, .f32⟩ : BufTy).Contents (Elt F)),
    unary main_v454 main_v471 (broadcastInDim S1x128 ![1] bcast_S128_S1x128_1 : (⟨S128, .f32⟩ : BufTy).Contents (Elt F) → (⟨S1x128, .f32⟩ : BufTy).Contents (Elt F)),
    unary main_v471 main_v472 (broadcastInDim S2048x128 ![0, 1] bcast_S1x128_S2048x128_0_1 : (⟨S1x128, .f32⟩ : BufTy).Contents (Elt F) → (⟨S2048x128, .f32⟩ : BufTy).Contents (Elt F)),
    binary main_v470 main_v472 main_v473 (addf : (⟨S2048x128, .f32⟩ : BufTy).Contents (Elt F) → (⟨S2048x128, .f32⟩ : BufTy).Contents (Elt F) → (⟨S2048x128, .f32⟩ : BufTy).Contents (Elt F)),
    nullary main_c_79 (constantI S_ 32 0#32),
    unary main_c_79 main_v474 (broadcastInDim S262144 ![] bcast_S_S262144 : (⟨S_, .i32⟩ : BufTy).Contents (Elt F) → (⟨S262144, .i32⟩ : BufTy).Contents (Elt F)),
    binary main_v10 main_v474 main_v475 (cmpi .slt : (⟨S262144, .i32⟩ : BufTy).Contents (Elt F) → (⟨S262144, .i32⟩ : BufTy).Contents (Elt F) → (⟨S262144, .i1⟩ : BufTy).Contents (Elt F)),
    nullary main_c_80 (constantI S_ 32 2048#32),
    unary main_c_80 main_v476 (broadcastInDim S262144 ![] bcast_S_S262144 : (⟨S_, .i32⟩ : BufTy).Contents (Elt F) → (⟨S262144, .i32⟩ : BufTy).Contents (Elt F)),
    binary main_v10 main_v476 main_v477 (addi : (⟨S262144, .i32⟩ : BufTy).Contents (Elt F) → (⟨S262144, .i32⟩ : BufTy).Contents (Elt F) → (⟨S262144, .i32⟩ : BufTy).Contents (Elt F)),
    ternary main_v475 main_v477 main_v10 main_v478 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    unary main_v478 main_v479 (broadcastInDim S262144x1 ![0] bcast_S262144_S262144x1_0 : (⟨S262144, .i32⟩ : BufTy).Contents (Elt F) → (⟨S262144x1, .i32⟩ : BufTy).Contents (Elt F)),
    binary main_v473 main_v479 main_v480 ((fun x i => Host.gather gather_S2048x128_S262144x1_S262144x128_1_0_n_n_0_1_1128 x i) : (⟨S2048x128, .f32⟩ : BufTy).Contents (Elt F) → (⟨S262144x1, .i32⟩ : BufTy).Contents (Elt F) → (⟨S262144x128, .f32⟩ : BufTy).Contents (Elt F)),
    binary main_v413 main_v480 main_v481 (addf : (⟨S262144x128, .f32⟩ : BufTy).Contents (Elt F) → (⟨S262144x128, .f32⟩ : BufTy).Contents (Elt F) → (⟨S262144x128, .f32⟩ : BufTy).Contents (Elt F)),
    TRef.nullary main_call12.cst (constant S_ .f32 0x00000000#32),
    TRef.unary main_call12.cst main_call12.v0 (broadcastInDim S262144x128 ![] bcast_S_S262144x128),
    TRef.binary (.of main_v481) main_call12.v0 main_call12.v1 maximumf ]

/-- Statements 567 … 600 of @main: 34 operations. -/
abbrev ops13 : List (HloOp τ sig (Elt F)) :=
  [ nullary main_cst_81 (constant S_ .f32 0x00000000#32),
    unary main_cst_81 main_v483 (broadcastInDim S2048x128 ![] bcast_S_S2048x128 : (⟨S_, .f32⟩ : BufTy).Contents (Elt F) → (⟨S2048x128, .f32⟩ : BufTy).Contents (Elt F)),
    unary main_arg19 main_v484 (broadcastInDim S262144x1 ![0] bcast_S262144_S262144x1_0 : (⟨S262144, .i32⟩ : BufTy).Contents (Elt F) → (⟨S262144x1, .i32⟩ : BufTy).Contents (Elt F)),
    ternary main_v483 main_v484 main_v482 main_v485 ((fun x i u => Host.scatterAdd scatter_S2048x128_S262144x1_S262144x128_1_0_0_1 x i u) : (⟨S2048x128, .f32⟩ : BufTy).Contents (Elt F) → (⟨S262144x1, .i32⟩ : BufTy).Contents (Elt F) → (⟨S262144x128, .f32⟩ : BufTy).Contents (Elt F) → (⟨S2048x128, .f32⟩ : BufTy).Contents (Elt F)),
    nullary main_cst_82 (constant S_ .f32 0x3F800000#32),
    unary main_cst_82 main_v486 (broadcastInDim S262144x1 ![] bcast_S_S262144x1 : (⟨S_, .f32⟩ : BufTy).Contents (Elt F) → (⟨S262144x1, .f32⟩ : BufTy).Contents (Elt F)),
    nullary main_cst_83 (constant S_ .f32 0x00000000#32),
    unary main_cst_83 main_v487 (broadcastInDim S2048x1 ![] bcast_S_S2048x1 : (⟨S_, .f32⟩ : BufTy).Contents (Elt F) → (⟨S2048x1, .f32⟩ : BufTy).Contents (Elt F)),
    unary main_arg19 main_v488 (broadcastInDim S262144x1 ![0] bcast_S262144_S262144x1_0 : (⟨S262144, .i32⟩ : BufTy).Contents (Elt F) → (⟨S262144x1, .i32⟩ : BufTy).Contents (Elt F)),
    ternary main_v487 main_v488 main_v486 main_v489 ((fun x i u => Host.scatterAdd scatter_S2048x1_S262144x1_S262144x1_1_0_0_1 x i u) : (⟨S2048x1, .f32⟩ : BufTy).Contents (Elt F) → (⟨S262144x1, .i32⟩ : BufTy).Contents (Elt F) → (⟨S262144x1, .f32⟩ : BufTy).Contents (Elt F) → (⟨S2048x1, .f32⟩ : BufTy).Contents (Elt F)),
    nullary main_cst_84 (constant S_ .f32 0x3F800000#32),
    unary main_cst_84 main_v490 (broadcastInDim S2048x1 ![] bcast_S_S2048x1 : (⟨S_, .f32⟩ : BufTy).Contents (Elt F) → (⟨S2048x1, .f32⟩ : BufTy).Contents (Elt F)),
    binary main_v489 main_v490 main_v491 (maximumf : (⟨S2048x1, .f32⟩ : BufTy).Contents (Elt F) → (⟨S2048x1, .f32⟩ : BufTy).Contents (Elt F) → (⟨S2048x1, .f32⟩ : BufTy).Contents (Elt F)),
    unary main_v491 main_v492 (broadcastInDim S2048x128 ![0, 1] bcast_S2048x1_S2048x128_0_1 : (⟨S2048x1, .f32⟩ : BufTy).Contents (Elt F) → (⟨S2048x128, .f32⟩ : BufTy).Contents (Elt F)),
    binary main_v485 main_v492 main_v493 (Host.divf : (⟨S2048x128, .f32⟩ : BufTy).Contents (Elt F) → (⟨S2048x128, .f32⟩ : BufTy).Contents (Elt F) → (⟨S2048x128, .f32⟩ : BufTy).Contents (Elt F)),
    nullary main_cst_85 (constant S_ .f32 0x00000000#32),
    unary main_cst_85 main_v494 (broadcastInDim S16x128 ![] bcast_S_S16x128 : (⟨S_, .f32⟩ : BufTy).Contents (Elt F) → (⟨S16x128, .f32⟩ : BufTy).Contents (Elt F)),
    unary main_arg21 main_v495 (broadcastInDim S2048x1 ![0] bcast_S2048_S2048x1_0 : (⟨S2048, .i32⟩ : BufTy).Contents (Elt F) → (⟨S2048x1, .i32⟩ : BufTy).Contents (Elt F)),
    ternary main_v494 main_v495 main_v493 main_v496 ((fun x i u => Host.scatterAdd scatter_S16x128_S2048x1_S2048x128_1_0_0_1 x i u) : (⟨S16x128, .f32⟩ : BufTy).Contents (Elt F) → (⟨S2048x1, .i32⟩ : BufTy).Contents (Elt F) → (⟨S2048x128, .f32⟩ : BufTy).Contents (Elt F) → (⟨S16x128, .f32⟩ : BufTy).Contents (Elt F)),
    nullary main_cst_86 (constant S_ .f32 0x3F800000#32),
    unary main_cst_86 main_v497 (broadcastInDim S2048x1 ![] bcast_S_S2048x1 : (⟨S_, .f32⟩ : BufTy).Contents (Elt F) → (⟨S2048x1, .f32⟩ : BufTy).Contents (Elt F)),
    nullary main_cst_87 (constant S_ .f32 0x00000000#32),
    unary main_cst_87 main_v498 (broadcastInDim S16x1 ![] bcast_S_S16x1 : (⟨S_, .f32⟩ : BufTy).Contents (Elt F) → (⟨S16x1, .f32⟩ : BufTy).Contents (Elt F)),
    unary main_arg21 main_v499 (broadcastInDim S2048x1 ![0] bcast_S2048_S2048x1_0 : (⟨S2048, .i32⟩ : BufTy).Contents (Elt F) → (⟨S2048x1, .i32⟩ : BufTy).Contents (Elt F)),
    ternary main_v498 main_v499 main_v497 main_v500 ((fun x i u => Host.scatterAdd scatter_S16x1_S2048x1_S2048x1_1_0_0_1 x i u) : (⟨S16x1, .f32⟩ : BufTy).Contents (Elt F) → (⟨S2048x1, .i32⟩ : BufTy).Contents (Elt F) → (⟨S2048x1, .f32⟩ : BufTy).Contents (Elt F) → (⟨S16x1, .f32⟩ : BufTy).Contents (Elt F)),
    nullary main_cst_88 (constant S_ .f32 0x3F800000#32),
    unary main_cst_88 main_v501 (broadcastInDim S16x1 ![] bcast_S_S16x1 : (⟨S_, .f32⟩ : BufTy).Contents (Elt F) → (⟨S16x1, .f32⟩ : BufTy).Contents (Elt F)),
    binary main_v500 main_v501 main_v502 (maximumf : (⟨S16x1, .f32⟩ : BufTy).Contents (Elt F) → (⟨S16x1, .f32⟩ : BufTy).Contents (Elt F) → (⟨S16x1, .f32⟩ : BufTy).Contents (Elt F)),
    unary main_v502 main_v503 (broadcastInDim S16x128 ![0, 1] bcast_S16x1_S16x128_0_1 : (⟨S16x1, .f32⟩ : BufTy).Contents (Elt F) → (⟨S16x128, .f32⟩ : BufTy).Contents (Elt F)),
    binary main_v496 main_v503 main_v504 (Host.divf : (⟨S16x128, .f32⟩ : BufTy).Contents (Elt F) → (⟨S16x128, .f32⟩ : BufTy).Contents (Elt F) → (⟨S16x128, .f32⟩ : BufTy).Contents (Elt F)),
    binary main_v504 main_arg11 main_v505 ((fun l r => Host.dotGeneral dot_S16x128_S128x256_S16x256_1_0_0_1_n_n none l r) : (⟨S16x128, .f32⟩ : BufTy).Contents (Elt F) → (⟨S128x256, .f32⟩ : BufTy).Contents (Elt F) → (⟨S16x256, .f32⟩ : BufTy).Contents (Elt F)),
    unary main_arg12 main_v506 (broadcastInDim S1x256 ![1] bcast_S256_S1x256_1 : (⟨S256, .f32⟩ : BufTy).Contents (Elt F) → (⟨S1x256, .f32⟩ : BufTy).Contents (Elt F)),
    unary main_v506 main_v507 (broadcastInDim S16x256 ![0, 1] bcast_S1x256_S16x256_0_1 : (⟨S1x256, .f32⟩ : BufTy).Contents (Elt F) → (⟨S16x256, .f32⟩ : BufTy).Contents (Elt F)),
    binary main_v505 main_v507 main_v508 (addf : (⟨S16x256, .f32⟩ : BufTy).Contents (Elt F) → (⟨S16x256, .f32⟩ : BufTy).Contents (Elt F) → (⟨S16x256, .f32⟩ : BufTy).Contents (Elt F)) ]

/-- Statements 601 … 605 of @main: 7 operations. -/
abbrev ops14 : List (HloOp τ sig (Elt F)) :=
  [ TRef.nullary main_call13.cst (constant S_ .f32 0x00000000#32),
    TRef.unary main_call13.cst main_call13.v0 (broadcastInDim S16x256 ![] bcast_S_S16x256),
    TRef.binary (.of main_v508) main_call13.v0 main_call13.v1 maximumf,
    binary main_v509 main_arg13 main_v510 ((fun l r => Host.dotGeneral dot_S16x256_S256x10_S16x10_1_0_0_1_n_n none l r) : (⟨S16x256, .f32⟩ : BufTy).Contents (Elt F) → (⟨S256x10, .f32⟩ : BufTy).Contents (Elt F) → (⟨S16x10, .f32⟩ : BufTy).Contents (Elt F)),
    unary main_arg14 main_v511 (broadcastInDim S1x10 ![1] bcast_S10_S1x10_1 : (⟨S10, .f32⟩ : BufTy).Contents (Elt F) → (⟨S1x10, .f32⟩ : BufTy).Contents (Elt F)),
    unary main_v511 main_v512 (broadcastInDim S16x10 ![0, 1] bcast_S1x10_S16x10_0_1 : (⟨S1x10, .f32⟩ : BufTy).Contents (Elt F) → (⟨S16x10, .f32⟩ : BufTy).Contents (Elt F)),
    binary main_v510 main_v512 main_v513 (addf : (⟨S16x10, .f32⟩ : BufTy).Contents (Elt F) → (⟨S16x10, .f32⟩ : BufTy).Contents (Elt F) → (⟨S16x10, .f32⟩ : BufTy).Contents (Elt F)) ]

end Cert.ReferenceIdeal.RefRun

end
-- ==== Proof.RefPart0.lean ====
/- Statements 1 … 60 of the reference program's @main as the list of their host operations. -/
import proofs.«170918_j12352325943916_1_alg».proof.Proof.RefOps

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

-- the rewrite under a chain of binds recurses once per statement
set_option maxRecDepth 8192 in
/-- Statements 1 … 60 of @main are the straight line ops0: with each callee's definition unfolded at its call and the
    call's record at its fields, both sides are one chain of host steps once sequencing is re-associated
    (`bind_assoc`, `pure_bind`). -/
theorem part0_eq (c : Dev nD) : main_part0 (F := F) c = seq ops0 := by
  simp only [main_part0, fn_cumsum.body, fn_cumsum_0.body, fn_var.body, fn_where.body, seq, bind_assoc, pure_bind]
  all_goals rfl

end Cert.ReferenceIdeal.RefRun

end
-- ==== Proof.RefPart1.lean ====
/- Statements 61 … 120 of the reference program's @main as the list of their host operations. -/
import proofs.«170918_j12352325943916_1_alg».proof.Proof.RefOps

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

-- the rewrite under a chain of binds recurses once per statement
set_option maxRecDepth 8192 in
/-- Statements 61 … 120 of @main are the straight line ops1: there is no call among them, and both sides are one chain
    of host steps once sequencing is re-associated (`bind_assoc`, `pure_bind`). -/
theorem part1_eq (c : Dev nD) : main_part1 (F := F) c = seq ops1 := by
  simp only [main_part1, seq, bind_assoc, pure_bind]
  all_goals rfl

end Cert.ReferenceIdeal.RefRun

end
-- ==== Proof.RefPart2.lean ====
/- Statements 121 … 180 of the reference program's @main as the list of their host operations. -/
import proofs.«170918_j12352325943916_1_alg».proof.Proof.RefOps

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

-- the rewrite under a chain of binds recurses once per statement
set_option maxRecDepth 8192 in
/-- Statements 121 … 180 of @main are the straight line (ops2 ++ ops3): with each callee's definition unfolded at its call and the
    call's record at its fields, both sides are one chain of host steps once sequencing is re-associated
    (`bind_assoc`, `pure_bind`); the two lists run one after the other are their concatenation (`seq_append`). -/
theorem part2_eq (c : Dev nD) : main_part2 (F := F) c = seq (ops2 ++ ops3) := by
  simp only [seq_append, main_part2, fn_var_1.body, fn_where.body, fn_relu.body, seq, bind_assoc, pure_bind]
  all_goals rfl

end Cert.ReferenceIdeal.RefRun

end
-- ==== Proof.RefPart3.lean ====
/- Statements 181 … 240 of the reference program's @main as the list of their host operations. -/
import proofs.«170918_j12352325943916_1_alg».proof.Proof.RefOps

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

-- the rewrite under a chain of binds recurses once per statement
set_option maxRecDepth 8192 in
/-- Statements 181 … 240 of @main are the straight line ops4: with each callee's definition unfolded at its call and the
    call's record at its fields, both sides are one chain of host steps once sequencing is re-associated
    (`bind_assoc`, `pure_bind`). -/
theorem part3_eq (c : Dev nD) : main_part3 (F := F) c = seq ops4 := by
  simp only [main_part3, fn_var.body, fn_where.body, seq, bind_assoc, pure_bind]
  all_goals rfl

end Cert.ReferenceIdeal.RefRun

end
-- ==== Proof.RefPart4.lean ====
/- Statements 241 … 300 of the reference program's @main as the list of their host operations. -/
import proofs.«170918_j12352325943916_1_alg».proof.Proof.RefOps

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

-- the rewrite under a chain of binds recurses once per statement
set_option maxRecDepth 8192 in
/-- Statements 241 … 300 of @main are the straight line (ops5 ++ ops6): with each callee's definition unfolded at its call and the
    call's record at its fields, both sides are one chain of host steps once sequencing is re-associated
    (`bind_assoc`, `pure_bind`); the two lists run one after the other are their concatenation (`seq_append`). -/
theorem part4_eq (c : Dev nD) : main_part4 (F := F) c = seq (ops5 ++ ops6) := by
  simp only [seq_append, main_part4, fn_var_1.body, fn_where.body, fn_relu.body, seq, bind_assoc, pure_bind]
  all_goals rfl

end Cert.ReferenceIdeal.RefRun

end
-- ==== Proof.RefPart5.lean ====
/- Statements 301 … 360 of the reference program's @main as the list of their host operations. -/
import proofs.«170918_j12352325943916_1_alg».proof.Proof.RefOps

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

-- the rewrite under a chain of binds recurses once per statement
set_option maxRecDepth 8192 in
/-- Statements 301 … 360 of @main are the straight line ops7: with each callee's definition unfolded at its call and the
    call's record at its fields, both sides are one chain of host steps once sequencing is re-associated
    (`bind_assoc`, `pure_bind`). -/
theorem part5_eq (c : Dev nD) : main_part5 (F := F) c = seq ops7 := by
  simp only [main_part5, fn_var.body, fn_where.body, seq, bind_assoc, pure_bind]
  all_goals rfl

end Cert.ReferenceIdeal.RefRun

end
-- ==== Proof.RefPart6.lean ====
/- Statements 361 … 420 of the reference program's @main as the list of their host operations. -/
import proofs.«170918_j12352325943916_1_alg».proof.Proof.RefOps

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

-- the rewrite under a chain of binds recurses once per statement
set_option maxRecDepth 8192 in
/-- Statements 361 … 420 of @main are the straight line ops8: with each callee's definition unfolded at its call and the
    call's record at its fields, both sides are one chain of host steps once sequencing is re-associated
    (`bind_assoc`, `pure_bind`). -/
theorem part6_eq (c : Dev nD) : main_part6 (F := F) c = seq ops8 := by
  simp only [main_part6, fn_var_1.body, fn_where.body, seq, bind_assoc, pure_bind]
  all_goals rfl

end Cert.ReferenceIdeal.RefRun

end
-- ==== Proof.RefPart7.lean ====
/- Statements 421 … 480 of the reference program's @main as the list of their host operations. -/
import proofs.«170918_j12352325943916_1_alg».proof.Proof.RefOps

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

-- the rewrite under a chain of binds recurses once per statement
set_option maxRecDepth 8192 in
/-- Statements 421 … 480 of @main are the straight line (ops9 ++ ops10): with each callee's definition unfolded at its call and the
    call's record at its fields, both sides are one chain of host steps once sequencing is re-associated
    (`bind_assoc`, `pure_bind`); the two lists run one after the other are their concatenation (`seq_append`). -/
theorem part7_eq (c : Dev nD) : main_part7 (F := F) c = seq (ops9 ++ ops10) := by
  simp only [seq_append, main_part7, fn_relu.body, fn_var.body, fn_where.body, seq, bind_assoc, pure_bind]
  all_goals rfl

end Cert.ReferenceIdeal.RefRun

end
-- ==== Proof.RefPart8.lean ====
/- Statements 481 … 540 of the reference program's @main as the list of their host operations. -/
import proofs.«170918_j12352325943916_1_alg».proof.Proof.RefOps

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

-- the rewrite under a chain of binds recurses once per statement
set_option maxRecDepth 8192 in
/-- Statements 481 … 540 of @main are the straight line ops11: with each callee's definition unfolded at its call and the
    call's record at its fields, both sides are one chain of host steps once sequencing is re-associated
    (`bind_assoc`, `pure_bind`). -/
theorem part8_eq (c : Dev nD) : main_part8 (F := F) c = seq ops11 := by
  simp only [main_part8, fn_var_1.body, fn_where.body, seq, bind_assoc, pure_bind]
  all_goals rfl

end Cert.ReferenceIdeal.RefRun

end
-- ==== Proof.RefPart9.lean ====
/- Statements 541 … 600 of the reference program's @main as the list of their host operations. -/
import proofs.«170918_j12352325943916_1_alg».proof.Proof.RefOps

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

-- the rewrite under a chain of binds recurses once per statement
set_option maxRecDepth 8192 in
/-- Statements 541 … 600 of @main are the straight line (ops12 ++ ops13): with each callee's definition unfolded at its call and the
    call's record at its fields, both sides are one chain of host steps once sequencing is re-associated
    (`bind_assoc`, `pure_bind`); the two lists run one after the other are their concatenation (`seq_append`). -/
theorem part9_eq (c : Dev nD) : main_part9 (F := F) c = seq (ops12 ++ ops13) := by
  simp only [seq_append, main_part9, fn_relu.body, seq, bind_assoc, pure_bind]
  all_goals rfl

end Cert.ReferenceIdeal.RefRun

end
-- ==== Proof.RefPart10.lean ====
/- Statements 601 … 606 of the reference program's @main as the list of their host operations. -/
import proofs.«170918_j12352325943916_1_alg».proof.Proof.RefOps

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

-- the rewrite under a chain of binds recurses once per statement
set_option maxRecDepth 8192 in
/-- Statements 601 … 606 of @main are the straight line ops14: with each callee's definition unfolded at its call and the
    call's record at its fields, both sides are one chain of host steps once sequencing is re-associated
    (`bind_assoc`, `pure_bind`). -/
theorem part10_eq (c : Dev nD) : main_part10 (F := F) c = seq ops14 := by
  simp only [main_part10, fn_relu_2.body, seq, bind_assoc, pure_bind]
  all_goals rfl

end Cert.ReferenceIdeal.RefRun

end
-- ==== Proof.RefSub.lean ====
/- Per list of the reference program's host operations: every buffer an operation touches is a TensorCore reference, every
   operation determines its result, and the references the list writes. -/
import proofs.«170918_j12352325943916_1_alg».proof.Proof.RefOps

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- An operation whose one result buffer is among a list of references writes within that list. -/
theorem writes_sub_of_mem {W : List (Ref sig .tc)} {y : Ref sig .tc} {op : HloOp τ sig (Elt F)}
    (hw : op.writes = {Proc.devRef .tc y}) (hy : y ∈ W) :
    op.writes ⊆ (W.map (Proc.devRef (τ := τ) .tc)).toFinset := by
  rw [hw, Finset.singleton_subset_iff, List.mem_toFinset]
  exact List.mem_map_of_mem hy

/-- The references the operations of `ops0` write, in order: each operation's one result. -/
abbrev written0 : List (Ref sig .tc) :=
  [ main_c, main_v0, main_call0.call0.c.ref, main_call0.call0.v0.ref, main_call0.call0.v1.ref, main_v2, main_c_0, main_v3,
    main_v4, main_c_1, main_v5, main_v6, main_v7, main_v8, main_v9, main_v10,
    main_v11, main_v12, main_v13, main_v14, main_v15, main_v16, main_v17, main_v18,
    main_c_2, main_v19, main_v20, main_c_3, main_v21, main_v22, main_v23, main_v24,
    main_v25, main_v26, main_v27, main_cst, main_v28, main_v29, main_v30, main_v31,
    main_v32, main_v33, main_v34, main_v35, main_v36, main_v37, main_v38, main_v39,
    main_v40, main_cst_4, main_v41, main_cst_5, main_v42, main_v43, main_c_6, main_call1.cst.ref,
    main_call1.v0.ref, main_call1.v1.ref, main_call1.cst_0.ref, main_call1.v2.ref, main_call1.v3.ref, main_call1.v4.ref, main_call1.v5.ref, main_call1.v6.ref,
    main_call1.v7.ref, main_call1.cst_1.ref, main_call1.v8.ref, main_call1.cst_2.ref, main_call1.v9.ref, main_call1.v10.ref, main_call1.v11.ref, main_call1.cst_3.ref,
    main_call1.v12.ref, main_call1.cst_4.ref, main_call1.call0.v0.ref, main_call1.call0.v1.ref, main_call1.call0.v2.ref, main_v45, main_v46, main_v47,
    main_cst_7, main_v48, main_v49 ]

/-- Every buffer an operation of `ops0` touches is a TensorCore reference. -/
theorem ops0_sub : (ops0 : List (HloOp τ sig (Elt F))).Forall fun op => op.bufs ⊆ tcRefs τ sig :=
  ⟨nullary_bufs_sub .., unary_bufs_sub .., nullary_bufs_sub .., unary_bufs_sub .., binary_bufs_sub .., binary_bufs_sub ..,
    nullary_bufs_sub .., unary_bufs_sub .., binary_bufs_sub .., nullary_bufs_sub .., unary_bufs_sub .., binary_bufs_sub ..,
    ternary_bufs_sub .., unary_bufs_sub .., binary_bufs_sub .., binary_bufs_sub .., unary_bufs_sub .., reshape_bufs_sub ..,
    unary_bufs_sub .., reshape_bufs_sub .., unary_bufs_sub .., reshape_bufs_sub .., unary_bufs_sub .., reshape_bufs_sub ..,
    nullary_bufs_sub .., unary_bufs_sub .., binary_bufs_sub .., nullary_bufs_sub .., unary_bufs_sub .., binary_bufs_sub ..,
    ternary_bufs_sub .., unary_bufs_sub .., binary_bufs_sub .., unary_bufs_sub .., reshape_bufs_sub .., nullary_bufs_sub ..,
    unary_bufs_sub .., unary_bufs_sub .., ternary_bufs_sub .., binary_bufs_sub .., binary_bufs_sub .., binary_bufs_sub ..,
    unary_bufs_sub .., unary_bufs_sub .., binary_bufs_sub .., unary_bufs_sub .., reshape_bufs_sub .., unary_bufs_sub ..,
    reshape_bufs_sub .., nullary_bufs_sub .., binary_bufs_sub .., nullary_bufs_sub .., unary_bufs_sub .., binary_bufs_sub ..,
    nullary_bufs_sub .., nullary_bufs_sub .., binary_bufs_sub .., unary_bufs_sub .., nullary_bufs_sub .., unary_bufs_sub ..,
    binary_bufs_sub .., unary_bufs_sub .., binary_bufs_sub .., binary_bufs_sub .., unary_bufs_sub .., nullary_bufs_sub ..,
    binary_bufs_sub .., nullary_bufs_sub .., binary_bufs_sub .., unary_bufs_sub .., binary_bufs_sub .., nullary_bufs_sub ..,
    binary_bufs_sub .., nullary_bufs_sub .., unary_bufs_sub .., unary_bufs_sub .., ternary_bufs_sub .., unary_bufs_sub ..,
    unary_bufs_sub .., binary_bufs_sub .., nullary_bufs_sub .., unary_bufs_sub .., binary_bufs_sub ..⟩

/-- Every operation of `ops0` determines its result. -/
theorem ops0_fresh : (ops0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl⟩

/-- The operations of `ops0` write only the references of `written0`. -/
theorem ops0_writes : (ops0 : List (HloOp τ sig (Elt F))).Forall fun op =>
    op.writes ⊆ (written0.map (Proc.devRef (τ := τ) .tc)).toFinset :=
  ⟨writes_sub_of_mem (y := main_c) rfl (by decide), writes_sub_of_mem (y := main_v0) rfl (by decide), writes_sub_of_mem (y := main_call0.call0.c.ref) rfl (by decide),
    writes_sub_of_mem (y := main_call0.call0.v0.ref) rfl (by decide), writes_sub_of_mem (y := main_call0.call0.v1.ref) rfl (by decide), writes_sub_of_mem (y := main_v2) rfl (by decide),
    writes_sub_of_mem (y := main_c_0) rfl (by decide), writes_sub_of_mem (y := main_v3) rfl (by decide), writes_sub_of_mem (y := main_v4) rfl (by decide),
    writes_sub_of_mem (y := main_c_1) rfl (by decide), writes_sub_of_mem (y := main_v5) rfl (by decide), writes_sub_of_mem (y := main_v6) rfl (by decide),
    writes_sub_of_mem (y := main_v7) rfl (by decide), writes_sub_of_mem (y := main_v8) rfl (by decide), writes_sub_of_mem (y := main_v9) rfl (by decide),
    writes_sub_of_mem (y := main_v10) rfl (by decide), writes_sub_of_mem (y := main_v11) rfl (by decide), writes_sub_of_mem (y := main_v12) rfl (by decide),
    writes_sub_of_mem (y := main_v13) rfl (by decide), writes_sub_of_mem (y := main_v14) rfl (by decide), writes_sub_of_mem (y := main_v15) rfl (by decide),
    writes_sub_of_mem (y := main_v16) rfl (by decide), writes_sub_of_mem (y := main_v17) rfl (by decide), writes_sub_of_mem (y := main_v18) rfl (by decide),
    writes_sub_of_mem (y := main_c_2) rfl (by decide), writes_sub_of_mem (y := main_v19) rfl (by decide), writes_sub_of_mem (y := main_v20) rfl (by decide),
    writes_sub_of_mem (y := main_c_3) rfl (by decide), writes_sub_of_mem (y := main_v21) rfl (by decide), writes_sub_of_mem (y := main_v22) rfl (by decide),
    writes_sub_of_mem (y := main_v23) rfl (by decide), writes_sub_of_mem (y := main_v24) rfl (by decide), writes_sub_of_mem (y := main_v25) rfl (by decide),
    writes_sub_of_mem (y := main_v26) rfl (by decide), writes_sub_of_mem (y := main_v27) rfl (by decide), writes_sub_of_mem (y := main_cst) rfl (by decide),
    writes_sub_of_mem (y := main_v28) rfl (by decide), writes_sub_of_mem (y := main_v29) rfl (by decide), writes_sub_of_mem (y := main_v30) rfl (by decide),
    writes_sub_of_mem (y := main_v31) rfl (by decide), writes_sub_of_mem (y := main_v32) rfl (by decide), writes_sub_of_mem (y := main_v33) rfl (by decide),
    writes_sub_of_mem (y := main_v34) rfl (by decide), writes_sub_of_mem (y := main_v35) rfl (by decide), writes_sub_of_mem (y := main_v36) rfl (by decide),
    writes_sub_of_mem (y := main_v37) rfl (by decide), writes_sub_of_mem (y := main_v38) rfl (by decide), writes_sub_of_mem (y := main_v39) rfl (by decide),
    writes_sub_of_mem (y := main_v40) rfl (by decide), writes_sub_of_mem (y := main_cst_4) rfl (by decide), writes_sub_of_mem (y := main_v41) rfl (by decide),
    writes_sub_of_mem (y := main_cst_5) rfl (by decide), writes_sub_of_mem (y := main_v42) rfl (by decide), writes_sub_of_mem (y := main_v43) rfl (by decide),
    writes_sub_of_mem (y := main_c_6) rfl (by decide), writes_sub_of_mem (y := main_call1.cst.ref) rfl (by decide), writes_sub_of_mem (y := main_call1.v0.ref) rfl (by decide),
    writes_sub_of_mem (y := main_call1.v1.ref) rfl (by decide), writes_sub_of_mem (y := main_call1.cst_0.ref) rfl (by decide), writes_sub_of_mem (y := main_call1.v2.ref) rfl (by decide),
    writes_sub_of_mem (y := main_call1.v3.ref) rfl (by decide), writes_sub_of_mem (y := main_call1.v4.ref) rfl (by decide), writes_sub_of_mem (y := main_call1.v5.ref) rfl (by decide),
    writes_sub_of_mem (y := main_call1.v6.ref) rfl (by decide), writes_sub_of_mem (y := main_call1.v7.ref) rfl (by decide), writes_sub_of_mem (y := main_call1.cst_1.ref) rfl (by decide),
    writes_sub_of_mem (y := main_call1.v8.ref) rfl (by decide), writes_sub_of_mem (y := main_call1.cst_2.ref) rfl (by decide), writes_sub_of_mem (y := main_call1.v9.ref) rfl (by decide),
    writes_sub_of_mem (y := main_call1.v10.ref) rfl (by decide), writes_sub_of_mem (y := main_call1.v11.ref) rfl (by decide), writes_sub_of_mem (y := main_call1.cst_3.ref) rfl (by decide),
    writes_sub_of_mem (y := main_call1.v12.ref) rfl (by decide), writes_sub_of_mem (y := main_call1.cst_4.ref) rfl (by decide), writes_sub_of_mem (y := main_call1.call0.v0.ref) rfl (by decide),
    writes_sub_of_mem (y := main_call1.call0.v1.ref) rfl (by decide), writes_sub_of_mem (y := main_call1.call0.v2.ref) rfl (by decide), writes_sub_of_mem (y := main_v45) rfl (by decide),
    writes_sub_of_mem (y := main_v46) rfl (by decide), writes_sub_of_mem (y := main_v47) rfl (by decide), writes_sub_of_mem (y := main_cst_7) rfl (by decide),
    writes_sub_of_mem (y := main_v48) rfl (by decide), writes_sub_of_mem (y := main_v49) rfl (by decide)⟩

/-- The references the operations of `ops1` write, in order: each operation's one result. -/
abbrev written1 : List (Ref sig .tc) :=
  [ main_v50, main_v51, main_v52, main_v53, main_v54, main_v55, main_v56, main_v57,
    main_v58, main_v59, main_cst_8, main_v60, main_v61, main_v62, main_cst_9, main_v63,
    main_cst_10, main_v64, main_v65, main_v66, main_cst_11, main_v67, main_v68, main_v69,
    main_v70, main_v71, main_v72, main_v73, main_v74, main_v75, main_v76, main_v77,
    main_v78, main_c_12, main_v79, main_v80, main_c_13, main_v81, main_v82, main_v83,
    main_v84, main_v85, main_v86, main_v87, main_cst_14, main_v88, main_v89, main_v90,
    main_v91, main_v92, main_v93, main_v94, main_v95, main_v96, main_v97, main_v98,
    main_v99, main_v100, main_cst_15, main_v101 ]

/-- Every buffer an operation of `ops1` touches is a TensorCore reference. -/
theorem ops1_sub : (ops1 : List (HloOp τ sig (Elt F))).Forall fun op => op.bufs ⊆ tcRefs τ sig :=
  ⟨unary_bufs_sub .., unary_bufs_sub .., unary_bufs_sub .., binary_bufs_sub .., unary_bufs_sub .., unary_bufs_sub ..,
    binary_bufs_sub .., unary_bufs_sub .., unary_bufs_sub .., binary_bufs_sub .., nullary_bufs_sub .., unary_bufs_sub ..,
    unary_bufs_sub .., ternary_bufs_sub .., nullary_bufs_sub .., unary_bufs_sub .., nullary_bufs_sub .., unary_bufs_sub ..,
    unary_bufs_sub .., ternary_bufs_sub .., nullary_bufs_sub .., unary_bufs_sub .., binary_bufs_sub .., unary_bufs_sub ..,
    binary_bufs_sub .., unary_bufs_sub .., reshape_bufs_sub .., unary_bufs_sub .., reshape_bufs_sub .., unary_bufs_sub ..,
    reshape_bufs_sub .., unary_bufs_sub .., reshape_bufs_sub .., nullary_bufs_sub .., unary_bufs_sub .., binary_bufs_sub ..,
    nullary_bufs_sub .., unary_bufs_sub .., binary_bufs_sub .., ternary_bufs_sub .., unary_bufs_sub .., binary_bufs_sub ..,
    unary_bufs_sub .., reshape_bufs_sub .., nullary_bufs_sub .., unary_bufs_sub .., unary_bufs_sub .., ternary_bufs_sub ..,
    binary_bufs_sub .., binary_bufs_sub .., binary_bufs_sub .., unary_bufs_sub .., unary_bufs_sub .., binary_bufs_sub ..,
    unary_bufs_sub .., reshape_bufs_sub .., unary_bufs_sub .., reshape_bufs_sub .., nullary_bufs_sub .., binary_bufs_sub ..⟩

/-- Every operation of `ops1` determines its result. -/
theorem ops1_fresh : (ops1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The operations of `ops1` write only the references of `written1`. -/
theorem ops1_writes : (ops1 : List (HloOp τ sig (Elt F))).Forall fun op =>
    op.writes ⊆ (written1.map (Proc.devRef (τ := τ) .tc)).toFinset :=
  ⟨writes_sub_of_mem (y := main_v50) rfl (by decide), writes_sub_of_mem (y := main_v51) rfl (by decide), writes_sub_of_mem (y := main_v52) rfl (by decide),
    writes_sub_of_mem (y := main_v53) rfl (by decide), writes_sub_of_mem (y := main_v54) rfl (by decide), writes_sub_of_mem (y := main_v55) rfl (by decide),
    writes_sub_of_mem (y := main_v56) rfl (by decide), writes_sub_of_mem (y := main_v57) rfl (by decide), writes_sub_of_mem (y := main_v58) rfl (by decide),
    writes_sub_of_mem (y := main_v59) rfl (by decide), writes_sub_of_mem (y := main_cst_8) rfl (by decide), writes_sub_of_mem (y := main_v60) rfl (by decide),
    writes_sub_of_mem (y := main_v61) rfl (by decide), writes_sub_of_mem (y := main_v62) rfl (by decide), writes_sub_of_mem (y := main_cst_9) rfl (by decide),
    writes_sub_of_mem (y := main_v63) rfl (by decide), writes_sub_of_mem (y := main_cst_10) rfl (by decide), writes_sub_of_mem (y := main_v64) rfl (by decide),
    writes_sub_of_mem (y := main_v65) rfl (by decide), writes_sub_of_mem (y := main_v66) rfl (by decide), writes_sub_of_mem (y := main_cst_11) rfl (by decide),
    writes_sub_of_mem (y := main_v67) rfl (by decide), writes_sub_of_mem (y := main_v68) rfl (by decide), writes_sub_of_mem (y := main_v69) rfl (by decide),
    writes_sub_of_mem (y := main_v70) rfl (by decide), writes_sub_of_mem (y := main_v71) rfl (by decide), writes_sub_of_mem (y := main_v72) rfl (by decide),
    writes_sub_of_mem (y := main_v73) rfl (by decide), writes_sub_of_mem (y := main_v74) rfl (by decide), writes_sub_of_mem (y := main_v75) rfl (by decide),
    writes_sub_of_mem (y := main_v76) rfl (by decide), writes_sub_of_mem (y := main_v77) rfl (by decide), writes_sub_of_mem (y := main_v78) rfl (by decide),
    writes_sub_of_mem (y := main_c_12) rfl (by decide), writes_sub_of_mem (y := main_v79) rfl (by decide), writes_sub_of_mem (y := main_v80) rfl (by decide),
    writes_sub_of_mem (y := main_c_13) rfl (by decide), writes_sub_of_mem (y := main_v81) rfl (by decide), writes_sub_of_mem (y := main_v82) rfl (by decide),
    writes_sub_of_mem (y := main_v83) rfl (by decide), writes_sub_of_mem (y := main_v84) rfl (by decide), writes_sub_of_mem (y := main_v85) rfl (by decide),
    writes_sub_of_mem (y := main_v86) rfl (by decide), writes_sub_of_mem (y := main_v87) rfl (by decide), writes_sub_of_mem (y := main_cst_14) rfl (by decide),
    writes_sub_of_mem (y := main_v88) rfl (by decide), writes_sub_of_mem (y := main_v89) rfl (by decide), writes_sub_of_mem (y := main_v90) rfl (by decide),
    writes_sub_of_mem (y := main_v91) rfl (by decide), writes_sub_of_mem (y := main_v92) rfl (by decide), writes_sub_of_mem (y := main_v93) rfl (by decide),
    writes_sub_of_mem (y := main_v94) rfl (by decide), writes_sub_of_mem (y := main_v95) rfl (by decide), writes_sub_of_mem (y := main_v96) rfl (by decide),
    writes_sub_of_mem (y := main_v97) rfl (by decide), writes_sub_of_mem (y := main_v98) rfl (by decide), writes_sub_of_mem (y := main_v99) rfl (by decide),
    writes_sub_of_mem (y := main_v100) rfl (by decide), writes_sub_of_mem (y := main_cst_15) rfl (by decide), writes_sub_of_mem (y := main_v101) rfl (by decide)⟩

/-- The references the operations of `ops2` write, in order: each operation's one result. -/
abbrev written2 : List (Ref sig .tc) :=
  [ main_cst_16, main_v102, main_v103, main_c_17, main_call2.cst.ref, main_call2.v0.ref, main_call2.v1.ref, main_call2.cst_0.ref,
    main_call2.v2.ref, main_call2.v3.ref, main_call2.v4.ref, main_call2.v5.ref, main_call2.v6.ref, main_call2.v7.ref, main_call2.cst_1.ref, main_call2.v8.ref,
    main_call2.cst_2.ref, main_call2.v9.ref, main_call2.v10.ref, main_call2.v11.ref, main_call2.cst_3.ref, main_call2.v12.ref, main_call2.cst_4.ref, main_call2.call0.v0.ref,
    main_call2.call0.v1.ref, main_call2.call0.v2.ref, main_v105, main_v106, main_v107, main_cst_18, main_v108, main_v109,
    main_v110, main_v111, main_v112, main_v113, main_v114, main_v115, main_v116, main_v117,
    main_v118, main_v119, main_c_19, main_v120, main_v121, main_c_20, main_v122, main_v123,
    main_v124, main_v125, main_v126, main_v127, main_call3.cst.ref, main_call3.v0.ref, main_call3.v1.ref ]

/-- Every buffer an operation of `ops2` touches is a TensorCore reference. -/
theorem ops2_sub : (ops2 : List (HloOp τ sig (Elt F))).Forall fun op => op.bufs ⊆ tcRefs τ sig :=
  ⟨nullary_bufs_sub .., unary_bufs_sub .., binary_bufs_sub .., nullary_bufs_sub .., nullary_bufs_sub .., binary_bufs_sub ..,
    unary_bufs_sub .., nullary_bufs_sub .., unary_bufs_sub .., binary_bufs_sub .., unary_bufs_sub .., binary_bufs_sub ..,
    binary_bufs_sub .., unary_bufs_sub .., nullary_bufs_sub .., binary_bufs_sub .., nullary_bufs_sub .., binary_bufs_sub ..,
    unary_bufs_sub .., binary_bufs_sub .., nullary_bufs_sub .., binary_bufs_sub .., nullary_bufs_sub .., unary_bufs_sub ..,
    unary_bufs_sub .., ternary_bufs_sub .., unary_bufs_sub .., unary_bufs_sub .., binary_bufs_sub .., nullary_bufs_sub ..,
    unary_bufs_sub .., binary_bufs_sub .., unary_bufs_sub .., unary_bufs_sub .., unary_bufs_sub .., binary_bufs_sub ..,
    unary_bufs_sub .., unary_bufs_sub .., binary_bufs_sub .., unary_bufs_sub .., unary_bufs_sub .., binary_bufs_sub ..,
    nullary_bufs_sub .., unary_bufs_sub .., binary_bufs_sub .., nullary_bufs_sub .., unary_bufs_sub .., binary_bufs_sub ..,
    ternary_bufs_sub .., unary_bufs_sub .., binary_bufs_sub .., binary_bufs_sub .., nullary_bufs_sub .., unary_bufs_sub ..,
    binary_bufs_sub ..⟩

/-- Every operation of `ops2` determines its result. -/
theorem ops2_fresh : (ops2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl⟩

/-- The operations of `ops2` write only the references of `written2`. -/
theorem ops2_writes : (ops2 : List (HloOp τ sig (Elt F))).Forall fun op =>
    op.writes ⊆ (written2.map (Proc.devRef (τ := τ) .tc)).toFinset :=
  ⟨writes_sub_of_mem (y := main_cst_16) rfl (by decide), writes_sub_of_mem (y := main_v102) rfl (by decide), writes_sub_of_mem (y := main_v103) rfl (by decide),
    writes_sub_of_mem (y := main_c_17) rfl (by decide), writes_sub_of_mem (y := main_call2.cst.ref) rfl (by decide), writes_sub_of_mem (y := main_call2.v0.ref) rfl (by decide),
    writes_sub_of_mem (y := main_call2.v1.ref) rfl (by decide), writes_sub_of_mem (y := main_call2.cst_0.ref) rfl (by decide), writes_sub_of_mem (y := main_call2.v2.ref) rfl (by decide),
    writes_sub_of_mem (y := main_call2.v3.ref) rfl (by decide), writes_sub_of_mem (y := main_call2.v4.ref) rfl (by decide), writes_sub_of_mem (y := main_call2.v5.ref) rfl (by decide),
    writes_sub_of_mem (y := main_call2.v6.ref) rfl (by decide), writes_sub_of_mem (y := main_call2.v7.ref) rfl (by decide), writes_sub_of_mem (y := main_call2.cst_1.ref) rfl (by decide),
    writes_sub_of_mem (y := main_call2.v8.ref) rfl (by decide), writes_sub_of_mem (y := main_call2.cst_2.ref) rfl (by decide), writes_sub_of_mem (y := main_call2.v9.ref) rfl (by decide),
    writes_sub_of_mem (y := main_call2.v10.ref) rfl (by decide), writes_sub_of_mem (y := main_call2.v11.ref) rfl (by decide), writes_sub_of_mem (y := main_call2.cst_3.ref) rfl (by decide),
    writes_sub_of_mem (y := main_call2.v12.ref) rfl (by decide), writes_sub_of_mem (y := main_call2.cst_4.ref) rfl (by decide), writes_sub_of_mem (y := main_call2.call0.v0.ref) rfl (by decide),
    writes_sub_of_mem (y := main_call2.call0.v1.ref) rfl (by decide), writes_sub_of_mem (y := main_call2.call0.v2.ref) rfl (by decide), writes_sub_of_mem (y := main_v105) rfl (by decide),
    writes_sub_of_mem (y := main_v106) rfl (by decide), writes_sub_of_mem (y := main_v107) rfl (by decide), writes_sub_of_mem (y := main_cst_18) rfl (by decide),
    writes_sub_of_mem (y := main_v108) rfl (by decide), writes_sub_of_mem (y := main_v109) rfl (by decide), writes_sub_of_mem (y := main_v110) rfl (by decide),
    writes_sub_of_mem (y := main_v111) rfl (by decide), writes_sub_of_mem (y := main_v112) rfl (by decide), writes_sub_of_mem (y := main_v113) rfl (by decide),
    writes_sub_of_mem (y := main_v114) rfl (by decide), writes_sub_of_mem (y := main_v115) rfl (by decide), writes_sub_of_mem (y := main_v116) rfl (by decide),
    writes_sub_of_mem (y := main_v117) rfl (by decide), writes_sub_of_mem (y := main_v118) rfl (by decide), writes_sub_of_mem (y := main_v119) rfl (by decide),
    writes_sub_of_mem (y := main_c_19) rfl (by decide), writes_sub_of_mem (y := main_v120) rfl (by decide), writes_sub_of_mem (y := main_v121) rfl (by decide),
    writes_sub_of_mem (y := main_c_20) rfl (by decide), writes_sub_of_mem (y := main_v122) rfl (by decide), writes_sub_of_mem (y := main_v123) rfl (by decide),
    writes_sub_of_mem (y := main_v124) rfl (by decide), writes_sub_of_mem (y := main_v125) rfl (by decide), writes_sub_of_mem (y := main_v126) rfl (by decide),
    writes_sub_of_mem (y := main_v127) rfl (by decide), writes_sub_of_mem (y := main_call3.cst.ref) rfl (by decide), writes_sub_of_mem (y := main_call3.v0.ref) rfl (by decide),
    writes_sub_of_mem (y := main_call3.v1.ref) rfl (by decide)⟩

/-- The references the operations of `ops3` write, in order: each operation's one result. -/
abbrev written3 : List (Ref sig .tc) :=
  [ main_v129, main_v130, main_v131, main_v132, main_v133, main_v134, main_v135, main_v136,
    main_c_21, main_v137, main_v138, main_c_22, main_v139, main_v140, main_v141, main_v142,
    main_v143, main_v144, main_v145, main_cst_23, main_v146, main_v147, main_v148, main_v149,
    main_v150, main_v151, main_v152, main_v153 ]

/-- Every buffer an operation of `ops3` touches is a TensorCore reference. -/
theorem ops3_sub : (ops3 : List (HloOp τ sig (Elt F))).Forall fun op => op.bufs ⊆ tcRefs τ sig :=
  ⟨unary_bufs_sub .., reshape_bufs_sub .., unary_bufs_sub .., reshape_bufs_sub .., unary_bufs_sub .., reshape_bufs_sub ..,
    unary_bufs_sub .., reshape_bufs_sub .., nullary_bufs_sub .., unary_bufs_sub .., binary_bufs_sub .., nullary_bufs_sub ..,
    unary_bufs_sub .., binary_bufs_sub .., ternary_bufs_sub .., unary_bufs_sub .., binary_bufs_sub .., unary_bufs_sub ..,
    reshape_bufs_sub .., nullary_bufs_sub .., unary_bufs_sub .., unary_bufs_sub .., ternary_bufs_sub .., binary_bufs_sub ..,
    binary_bufs_sub .., binary_bufs_sub .., unary_bufs_sub .., unary_bufs_sub ..⟩

/-- Every operation of `ops3` determines its result. -/
theorem ops3_fresh : (ops3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl⟩

/-- The operations of `ops3` write only the references of `written3`. -/
theorem ops3_writes : (ops3 : List (HloOp τ sig (Elt F))).Forall fun op =>
    op.writes ⊆ (written3.map (Proc.devRef (τ := τ) .tc)).toFinset :=
  ⟨writes_sub_of_mem (y := main_v129) rfl (by decide), writes_sub_of_mem (y := main_v130) rfl (by decide), writes_sub_of_mem (y := main_v131) rfl (by decide),
    writes_sub_of_mem (y := main_v132) rfl (by decide), writes_sub_of_mem (y := main_v133) rfl (by decide), writes_sub_of_mem (y := main_v134) rfl (by decide),
    writes_sub_of_mem (y := main_v135) rfl (by decide), writes_sub_of_mem (y := main_v136) rfl (by decide), writes_sub_of_mem (y := main_c_21) rfl (by decide),
    writes_sub_of_mem (y := main_v137) rfl (by decide), writes_sub_of_mem (y := main_v138) rfl (by decide), writes_sub_of_mem (y := main_c_22) rfl (by decide),
    writes_sub_of_mem (y := main_v139) rfl (by decide), writes_sub_of_mem (y := main_v140) rfl (by decide), writes_sub_of_mem (y := main_v141) rfl (by decide),
    writes_sub_of_mem (y := main_v142) rfl (by decide), writes_sub_of_mem (y := main_v143) rfl (by decide), writes_sub_of_mem (y := main_v144) rfl (by decide),
    writes_sub_of_mem (y := main_v145) rfl (by decide), writes_sub_of_mem (y := main_cst_23) rfl (by decide), writes_sub_of_mem (y := main_v146) rfl (by decide),
    writes_sub_of_mem (y := main_v147) rfl (by decide), writes_sub_of_mem (y := main_v148) rfl (by decide), writes_sub_of_mem (y := main_v149) rfl (by decide),
    writes_sub_of_mem (y := main_v150) rfl (by decide), writes_sub_of_mem (y := main_v151) rfl (by decide), writes_sub_of_mem (y := main_v152) rfl (by decide),
    writes_sub_of_mem (y := main_v153) rfl (by decide)⟩

/-- The references the operations of `ops4` write, in order: each operation's one result. -/
abbrev written4 : List (Ref sig .tc) :=
  [ main_v154, main_v155, main_v156, main_v157, main_v158, main_cst_24, main_v159, main_cst_25,
    main_v160, main_v161, main_c_26, main_call4.cst.ref, main_call4.v0.ref, main_call4.v1.ref, main_call4.cst_0.ref, main_call4.v2.ref,
    main_call4.v3.ref, main_call4.v4.ref, main_call4.v5.ref, main_call4.v6.ref, main_call4.v7.ref, main_call4.cst_1.ref, main_call4.v8.ref, main_call4.cst_2.ref,
    main_call4.v9.ref, main_call4.v10.ref, main_call4.v11.ref, main_call4.cst_3.ref, main_call4.v12.ref, main_call4.cst_4.ref, main_call4.call0.v0.ref, main_call4.call0.v1.ref,
    main_call4.call0.v2.ref, main_v163, main_v164, main_v165, main_cst_27, main_v166, main_v167, main_v168,
    main_v169, main_v170, main_v171, main_v172, main_v173, main_v174, main_v175, main_v176,
    main_v177, main_cst_28, main_v178, main_v179, main_v180, main_cst_29, main_v181, main_cst_30,
    main_v182, main_v183, main_v184, main_cst_31, main_v185, main_v186, main_v187, main_v188,
    main_v189, main_v190, main_v191, main_v192, main_v193, main_v194, main_v195, main_v196,
    main_c_32, main_v197, main_v198, main_c_33, main_v199, main_v200, main_v201, main_v202,
    main_v203 ]

/-- Every buffer an operation of `ops4` touches is a TensorCore reference. -/
theorem ops4_sub : (ops4 : List (HloOp τ sig (Elt F))).Forall fun op => op.bufs ⊆ tcRefs τ sig :=
  ⟨binary_bufs_sub .., unary_bufs_sub .., reshape_bufs_sub .., unary_bufs_sub .., reshape_bufs_sub .., nullary_bufs_sub ..,
    binary_bufs_sub .., nullary_bufs_sub .., unary_bufs_sub .., binary_bufs_sub .., nullary_bufs_sub .., nullary_bufs_sub ..,
    binary_bufs_sub .., unary_bufs_sub .., nullary_bufs_sub .., unary_bufs_sub .., binary_bufs_sub .., unary_bufs_sub ..,
    binary_bufs_sub .., binary_bufs_sub .., unary_bufs_sub .., nullary_bufs_sub .., binary_bufs_sub .., nullary_bufs_sub ..,
    binary_bufs_sub .., unary_bufs_sub .., binary_bufs_sub .., nullary_bufs_sub .., binary_bufs_sub .., nullary_bufs_sub ..,
    unary_bufs_sub .., unary_bufs_sub .., ternary_bufs_sub .., unary_bufs_sub .., unary_bufs_sub .., binary_bufs_sub ..,
    nullary_bufs_sub .., unary_bufs_sub .., binary_bufs_sub .., unary_bufs_sub .., unary_bufs_sub .., unary_bufs_sub ..,
    binary_bufs_sub .., unary_bufs_sub .., unary_bufs_sub .., binary_bufs_sub .., unary_bufs_sub .., unary_bufs_sub ..,
    binary_bufs_sub .., nullary_bufs_sub .., unary_bufs_sub .., unary_bufs_sub .., ternary_bufs_sub .., nullary_bufs_sub ..,
    unary_bufs_sub .., nullary_bufs_sub .., unary_bufs_sub .., unary_bufs_sub .., ternary_bufs_sub .., nullary_bufs_sub ..,
    unary_bufs_sub .., binary_bufs_sub .., unary_bufs_sub .., binary_bufs_sub .., unary_bufs_sub .., reshape_bufs_sub ..,
    unary_bufs_sub .., reshape_bufs_sub .., unary_bufs_sub .., reshape_bufs_sub .., unary_bufs_sub .., reshape_bufs_sub ..,
    nullary_bufs_sub .., unary_bufs_sub .., binary_bufs_sub .., nullary_bufs_sub .., unary_bufs_sub .., binary_bufs_sub ..,
    ternary_bufs_sub .., unary_bufs_sub .., binary_bufs_sub ..⟩

/-- Every operation of `ops4` determines its result. -/
theorem ops4_fresh : (ops4 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl⟩

/-- The operations of `ops4` write only the references of `written4`. -/
theorem ops4_writes : (ops4 : List (HloOp τ sig (Elt F))).Forall fun op =>
    op.writes ⊆ (written4.map (Proc.devRef (τ := τ) .tc)).toFinset :=
  ⟨writes_sub_of_mem (y := main_v154) rfl (by decide), writes_sub_of_mem (y := main_v155) rfl (by decide), writes_sub_of_mem (y := main_v156) rfl (by decide),
    writes_sub_of_mem (y := main_v157) rfl (by decide), writes_sub_of_mem (y := main_v158) rfl (by decide), writes_sub_of_mem (y := main_cst_24) rfl (by decide),
    writes_sub_of_mem (y := main_v159) rfl (by decide), writes_sub_of_mem (y := main_cst_25) rfl (by decide), writes_sub_of_mem (y := main_v160) rfl (by decide),
    writes_sub_of_mem (y := main_v161) rfl (by decide), writes_sub_of_mem (y := main_c_26) rfl (by decide), writes_sub_of_mem (y := main_call4.cst.ref) rfl (by decide),
    writes_sub_of_mem (y := main_call4.v0.ref) rfl (by decide), writes_sub_of_mem (y := main_call4.v1.ref) rfl (by decide), writes_sub_of_mem (y := main_call4.cst_0.ref) rfl (by decide),
    writes_sub_of_mem (y := main_call4.v2.ref) rfl (by decide), writes_sub_of_mem (y := main_call4.v3.ref) rfl (by decide), writes_sub_of_mem (y := main_call4.v4.ref) rfl (by decide),
    writes_sub_of_mem (y := main_call4.v5.ref) rfl (by decide), writes_sub_of_mem (y := main_call4.v6.ref) rfl (by decide), writes_sub_of_mem (y := main_call4.v7.ref) rfl (by decide),
    writes_sub_of_mem (y := main_call4.cst_1.ref) rfl (by decide), writes_sub_of_mem (y := main_call4.v8.ref) rfl (by decide), writes_sub_of_mem (y := main_call4.cst_2.ref) rfl (by decide),
    writes_sub_of_mem (y := main_call4.v9.ref) rfl (by decide), writes_sub_of_mem (y := main_call4.v10.ref) rfl (by decide), writes_sub_of_mem (y := main_call4.v11.ref) rfl (by decide),
    writes_sub_of_mem (y := main_call4.cst_3.ref) rfl (by decide), writes_sub_of_mem (y := main_call4.v12.ref) rfl (by decide), writes_sub_of_mem (y := main_call4.cst_4.ref) rfl (by decide),
    writes_sub_of_mem (y := main_call4.call0.v0.ref) rfl (by decide), writes_sub_of_mem (y := main_call4.call0.v1.ref) rfl (by decide), writes_sub_of_mem (y := main_call4.call0.v2.ref) rfl (by decide),
    writes_sub_of_mem (y := main_v163) rfl (by decide), writes_sub_of_mem (y := main_v164) rfl (by decide), writes_sub_of_mem (y := main_v165) rfl (by decide),
    writes_sub_of_mem (y := main_cst_27) rfl (by decide), writes_sub_of_mem (y := main_v166) rfl (by decide), writes_sub_of_mem (y := main_v167) rfl (by decide),
    writes_sub_of_mem (y := main_v168) rfl (by decide), writes_sub_of_mem (y := main_v169) rfl (by decide), writes_sub_of_mem (y := main_v170) rfl (by decide),
    writes_sub_of_mem (y := main_v171) rfl (by decide), writes_sub_of_mem (y := main_v172) rfl (by decide), writes_sub_of_mem (y := main_v173) rfl (by decide),
    writes_sub_of_mem (y := main_v174) rfl (by decide), writes_sub_of_mem (y := main_v175) rfl (by decide), writes_sub_of_mem (y := main_v176) rfl (by decide),
    writes_sub_of_mem (y := main_v177) rfl (by decide), writes_sub_of_mem (y := main_cst_28) rfl (by decide), writes_sub_of_mem (y := main_v178) rfl (by decide),
    writes_sub_of_mem (y := main_v179) rfl (by decide), writes_sub_of_mem (y := main_v180) rfl (by decide), writes_sub_of_mem (y := main_cst_29) rfl (by decide),
    writes_sub_of_mem (y := main_v181) rfl (by decide), writes_sub_of_mem (y := main_cst_30) rfl (by decide), writes_sub_of_mem (y := main_v182) rfl (by decide),
    writes_sub_of_mem (y := main_v183) rfl (by decide), writes_sub_of_mem (y := main_v184) rfl (by decide), writes_sub_of_mem (y := main_cst_31) rfl (by decide),
    writes_sub_of_mem (y := main_v185) rfl (by decide), writes_sub_of_mem (y := main_v186) rfl (by decide), writes_sub_of_mem (y := main_v187) rfl (by decide),
    writes_sub_of_mem (y := main_v188) rfl (by decide), writes_sub_of_mem (y := main_v189) rfl (by decide), writes_sub_of_mem (y := main_v190) rfl (by decide),
    writes_sub_of_mem (y := main_v191) rfl (by decide), writes_sub_of_mem (y := main_v192) rfl (by decide), writes_sub_of_mem (y := main_v193) rfl (by decide),
    writes_sub_of_mem (y := main_v194) rfl (by decide), writes_sub_of_mem (y := main_v195) rfl (by decide), writes_sub_of_mem (y := main_v196) rfl (by decide),
    writes_sub_of_mem (y := main_c_32) rfl (by decide), writes_sub_of_mem (y := main_v197) rfl (by decide), writes_sub_of_mem (y := main_v198) rfl (by decide),
    writes_sub_of_mem (y := main_c_33) rfl (by decide), writes_sub_of_mem (y := main_v199) rfl (by decide), writes_sub_of_mem (y := main_v200) rfl (by decide),
    writes_sub_of_mem (y := main_v201) rfl (by decide), writes_sub_of_mem (y := main_v202) rfl (by decide), writes_sub_of_mem (y := main_v203) rfl (by decide)⟩

/-- The references the operations of `ops5` write, in order: each operation's one result. -/
abbrev written5 : List (Ref sig .tc) :=
  [ main_v204, main_v205, main_cst_34, main_v206, main_v207, main_v208, main_v209, main_v210,
    main_v211, main_v212, main_v213, main_v214, main_v215, main_v216, main_v217, main_v218,
    main_cst_35, main_v219, main_cst_36, main_v220, main_v221, main_c_37, main_call5.cst.ref, main_call5.v0.ref,
    main_call5.v1.ref, main_call5.cst_0.ref, main_call5.v2.ref, main_call5.v3.ref, main_call5.v4.ref, main_call5.v5.ref, main_call5.v6.ref, main_call5.v7.ref,
    main_call5.cst_1.ref, main_call5.v8.ref, main_call5.cst_2.ref, main_call5.v9.ref, main_call5.v10.ref, main_call5.v11.ref, main_call5.cst_3.ref, main_call5.v12.ref,
    main_call5.cst_4.ref, main_call5.call0.v0.ref, main_call5.call0.v1.ref, main_call5.call0.v2.ref, main_v223, main_v224, main_v225, main_cst_38,
    main_v226, main_v227, main_v228, main_v229, main_v230, main_v231, main_v232, main_v233,
    main_v234, main_v235, main_v236, main_v237, main_c_39, main_v238, main_v239, main_c_40,
    main_v240, main_v241, main_v242, main_v243, main_v244, main_v245, main_call6.cst.ref, main_call6.v0.ref,
    main_call6.v1.ref ]

/-- Every buffer an operation of `ops5` touches is a TensorCore reference. -/
theorem ops5_sub : (ops5 : List (HloOp τ sig (Elt F))).Forall fun op => op.bufs ⊆ tcRefs τ sig :=
  ⟨unary_bufs_sub .., reshape_bufs_sub .., nullary_bufs_sub .., unary_bufs_sub .., unary_bufs_sub .., ternary_bufs_sub ..,
    binary_bufs_sub .., binary_bufs_sub .., binary_bufs_sub .., unary_bufs_sub .., unary_bufs_sub .., binary_bufs_sub ..,
    unary_bufs_sub .., reshape_bufs_sub .., unary_bufs_sub .., reshape_bufs_sub .., nullary_bufs_sub .., binary_bufs_sub ..,
    nullary_bufs_sub .., unary_bufs_sub .., binary_bufs_sub .., nullary_bufs_sub .., nullary_bufs_sub .., binary_bufs_sub ..,
    unary_bufs_sub .., nullary_bufs_sub .., unary_bufs_sub .., binary_bufs_sub .., unary_bufs_sub .., binary_bufs_sub ..,
    binary_bufs_sub .., unary_bufs_sub .., nullary_bufs_sub .., binary_bufs_sub .., nullary_bufs_sub .., binary_bufs_sub ..,
    unary_bufs_sub .., binary_bufs_sub .., nullary_bufs_sub .., binary_bufs_sub .., nullary_bufs_sub .., unary_bufs_sub ..,
    unary_bufs_sub .., ternary_bufs_sub .., unary_bufs_sub .., unary_bufs_sub .., binary_bufs_sub .., nullary_bufs_sub ..,
    unary_bufs_sub .., binary_bufs_sub .., unary_bufs_sub .., unary_bufs_sub .., unary_bufs_sub .., binary_bufs_sub ..,
    unary_bufs_sub .., unary_bufs_sub .., binary_bufs_sub .., unary_bufs_sub .., unary_bufs_sub .., binary_bufs_sub ..,
    nullary_bufs_sub .., unary_bufs_sub .., binary_bufs_sub .., nullary_bufs_sub .., unary_bufs_sub .., binary_bufs_sub ..,
    ternary_bufs_sub .., unary_bufs_sub .., binary_bufs_sub .., binary_bufs_sub .., nullary_bufs_sub .., unary_bufs_sub ..,
    binary_bufs_sub ..⟩

/-- Every operation of `ops5` determines its result. -/
theorem ops5_fresh : (ops5 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl⟩

/-- The operations of `ops5` write only the references of `written5`. -/
theorem ops5_writes : (ops5 : List (HloOp τ sig (Elt F))).Forall fun op =>
    op.writes ⊆ (written5.map (Proc.devRef (τ := τ) .tc)).toFinset :=
  ⟨writes_sub_of_mem (y := main_v204) rfl (by decide), writes_sub_of_mem (y := main_v205) rfl (by decide), writes_sub_of_mem (y := main_cst_34) rfl (by decide),
    writes_sub_of_mem (y := main_v206) rfl (by decide), writes_sub_of_mem (y := main_v207) rfl (by decide), writes_sub_of_mem (y := main_v208) rfl (by decide),
    writes_sub_of_mem (y := main_v209) rfl (by decide), writes_sub_of_mem (y := main_v210) rfl (by decide), writes_sub_of_mem (y := main_v211) rfl (by decide),
    writes_sub_of_mem (y := main_v212) rfl (by decide), writes_sub_of_mem (y := main_v213) rfl (by decide), writes_sub_of_mem (y := main_v214) rfl (by decide),
    writes_sub_of_mem (y := main_v215) rfl (by decide), writes_sub_of_mem (y := main_v216) rfl (by decide), writes_sub_of_mem (y := main_v217) rfl (by decide),
    writes_sub_of_mem (y := main_v218) rfl (by decide), writes_sub_of_mem (y := main_cst_35) rfl (by decide), writes_sub_of_mem (y := main_v219) rfl (by decide),
    writes_sub_of_mem (y := main_cst_36) rfl (by decide), writes_sub_of_mem (y := main_v220) rfl (by decide), writes_sub_of_mem (y := main_v221) rfl (by decide),
    writes_sub_of_mem (y := main_c_37) rfl (by decide), writes_sub_of_mem (y := main_call5.cst.ref) rfl (by decide), writes_sub_of_mem (y := main_call5.v0.ref) rfl (by decide),
    writes_sub_of_mem (y := main_call5.v1.ref) rfl (by decide), writes_sub_of_mem (y := main_call5.cst_0.ref) rfl (by decide), writes_sub_of_mem (y := main_call5.v2.ref) rfl (by decide),
    writes_sub_of_mem (y := main_call5.v3.ref) rfl (by decide), writes_sub_of_mem (y := main_call5.v4.ref) rfl (by decide), writes_sub_of_mem (y := main_call5.v5.ref) rfl (by decide),
    writes_sub_of_mem (y := main_call5.v6.ref) rfl (by decide), writes_sub_of_mem (y := main_call5.v7.ref) rfl (by decide), writes_sub_of_mem (y := main_call5.cst_1.ref) rfl (by decide),
    writes_sub_of_mem (y := main_call5.v8.ref) rfl (by decide), writes_sub_of_mem (y := main_call5.cst_2.ref) rfl (by decide), writes_sub_of_mem (y := main_call5.v9.ref) rfl (by decide),
    writes_sub_of_mem (y := main_call5.v10.ref) rfl (by decide), writes_sub_of_mem (y := main_call5.v11.ref) rfl (by decide), writes_sub_of_mem (y := main_call5.cst_3.ref) rfl (by decide),
    writes_sub_of_mem (y := main_call5.v12.ref) rfl (by decide), writes_sub_of_mem (y := main_call5.cst_4.ref) rfl (by decide), writes_sub_of_mem (y := main_call5.call0.v0.ref) rfl (by decide),
    writes_sub_of_mem (y := main_call5.call0.v1.ref) rfl (by decide), writes_sub_of_mem (y := main_call5.call0.v2.ref) rfl (by decide), writes_sub_of_mem (y := main_v223) rfl (by decide),
    writes_sub_of_mem (y := main_v224) rfl (by decide), writes_sub_of_mem (y := main_v225) rfl (by decide), writes_sub_of_mem (y := main_cst_38) rfl (by decide),
    writes_sub_of_mem (y := main_v226) rfl (by decide), writes_sub_of_mem (y := main_v227) rfl (by decide), writes_sub_of_mem (y := main_v228) rfl (by decide),
    writes_sub_of_mem (y := main_v229) rfl (by decide), writes_sub_of_mem (y := main_v230) rfl (by decide), writes_sub_of_mem (y := main_v231) rfl (by decide),
    writes_sub_of_mem (y := main_v232) rfl (by decide), writes_sub_of_mem (y := main_v233) rfl (by decide), writes_sub_of_mem (y := main_v234) rfl (by decide),
    writes_sub_of_mem (y := main_v235) rfl (by decide), writes_sub_of_mem (y := main_v236) rfl (by decide), writes_sub_of_mem (y := main_v237) rfl (by decide),
    writes_sub_of_mem (y := main_c_39) rfl (by decide), writes_sub_of_mem (y := main_v238) rfl (by decide), writes_sub_of_mem (y := main_v239) rfl (by decide),
    writes_sub_of_mem (y := main_c_40) rfl (by decide), writes_sub_of_mem (y := main_v240) rfl (by decide), writes_sub_of_mem (y := main_v241) rfl (by decide),
    writes_sub_of_mem (y := main_v242) rfl (by decide), writes_sub_of_mem (y := main_v243) rfl (by decide), writes_sub_of_mem (y := main_v244) rfl (by decide),
    writes_sub_of_mem (y := main_v245) rfl (by decide), writes_sub_of_mem (y := main_call6.cst.ref) rfl (by decide), writes_sub_of_mem (y := main_call6.v0.ref) rfl (by decide),
    writes_sub_of_mem (y := main_call6.v1.ref) rfl (by decide)⟩

/-- The references the operations of `ops6` write, in order: each operation's one result. -/
abbrev written6 : List (Ref sig .tc) :=
  [ main_v247, main_v248, main_v249, main_v250, main_v251, main_v252, main_v253, main_v254,
    main_c_41, main_v255 ]

/-- Every buffer an operation of `ops6` touches is a TensorCore reference. -/
theorem ops6_sub : (ops6 : List (HloOp τ sig (Elt F))).Forall fun op => op.bufs ⊆ tcRefs τ sig :=
  ⟨unary_bufs_sub .., reshape_bufs_sub .., unary_bufs_sub .., reshape_bufs_sub .., unary_bufs_sub .., reshape_bufs_sub ..,
    unary_bufs_sub .., reshape_bufs_sub .., nullary_bufs_sub .., unary_bufs_sub ..⟩

/-- Every operation of `ops6` determines its result. -/
theorem ops6_fresh : (ops6 : List (HloOp τ sig (Elt F))).Forall fun op => op.fresh = ∅ :=
  ⟨rfl, rfl, rfl, rfl, rfl, rfl, rfl, rfl, rfl, rfl⟩

/-- The operations of `ops6` write only the references of `written6`. -/
theorem ops6_writes : (ops6 : List (HloOp τ sig (Elt F))).Forall fun op =>
    op.writes ⊆ (written6.map (Proc.devRef (τ := τ) .tc)).toFinset :=
  ⟨writes_sub_of_mem (y := main_v247) rfl (by decide), writes_sub_of_mem (y := main_v248) rfl (by decide), writes_sub_of_mem (y := main_v249) rfl (by decide),
    writes_sub_of_mem (y := main_v250) rfl (by decide), writes_sub_of_mem (y := main_v251) rfl (by decide), writes_sub_of_mem (y := main_v252) rfl (by decide),
    writes_sub_of_mem (y := main_v253) rfl (by decide), writes_sub_of_mem (y := main_v254) rfl (by decide), writes_sub_of_mem (y := main_c_41) rfl (by decide),
    writes_sub_of_mem (y := main_v255) rfl (by decide)⟩

/-- The references the operations of `ops7` write, in order: each operation's one result. -/
abbrev written7 : List (Ref sig .tc) :=
  [ main_v256, main_c_42, main_v257, main_v258, main_v259, main_v260, main_v261, main_v262,
    main_v263, main_cst_43, main_v264, main_v265, main_v266, main_v267, main_v268, main_v269,
    main_v270, main_v271, main_v272, main_v273, main_v274, main_v275, main_v276, main_cst_44,
    main_v277, main_cst_45, main_v278, main_v279, main_c_46, main_call7.cst.ref, main_call7.v0.ref, main_call7.v1.ref,
    main_call7.cst_0.ref, main_call7.v2.ref, main_call7.v3.ref, main_call7.v4.ref, main_call7.v5.ref, main_call7.v6.ref, main_call7.v7.ref, main_call7.cst_1.ref,
    main_call7.v8.ref, main_call7.cst_2.ref, main_call7.v9.ref, main_call7.v10.ref, main_call7.v11.ref, main_call7.cst_3.ref, main_call7.v12.ref, main_call7.cst_4.ref,
    main_call7.call0.v0.ref, main_call7.call0.v1.ref, main_call7.call0.v2.ref, main_v281, main_v282, main_v283, main_cst_47, main_v284,
    main_v285, main_v286, main_v287, main_v288, main_v289, main_v290, main_v291, main_v292,
    main_v293, main_v294, main_v295, main_cst_48, main_v296, main_v297, main_v298, main_cst_49,
    main_v299, main_cst_50, main_v300, main_v301, main_v302, main_cst_51, main_v303, main_v304,
    main_v305 ]

/-- Every buffer an operation of `ops7` touches is a TensorCore reference. -/
theorem ops7_sub : (ops7 : List (HloOp τ sig (Elt F))).Forall fun op => op.bufs ⊆ tcRefs τ sig :=
  ⟨binary_bufs_sub .., nullary_bufs_sub .., unary_bufs_sub .., binary_bufs_sub .., ternary_bufs_sub .., unary_bufs_sub ..,
    binary_bufs_sub .., unary_bufs_sub .., reshape_bufs_sub .., nullary_bufs_sub .., unary_bufs_sub .., unary_bufs_sub ..,
    ternary_bufs_sub .., binary_bufs_sub .., binary_bufs_sub .., binary_bufs_sub .., unary_bufs_sub .., unary_bufs_sub ..,
    binary_bufs_sub .., unary_bufs_sub .., reshape_bufs_sub .., unary_bufs_sub .., reshape_bufs_sub .., nullary_bufs_sub ..,
    binary_bufs_sub .., nullary_bufs_sub .., unary_bufs_sub .., binary_bufs_sub .., nullary_bufs_sub .., nullary_bufs_sub ..,
    binary_bufs_sub .., unary_bufs_sub .., nullary_bufs_sub .., unary_bufs_sub .., binary_bufs_sub .., unary_bufs_sub ..,
    binary_bufs_sub .., binary_bufs_sub .., unary_bufs_sub .., nullary_bufs_sub .., binary_bufs_sub .., nullary_bufs_sub ..,
    binary_bufs_sub .., unary_bufs_sub .., binary_bufs_sub .., nullary_bufs_sub .., binary_bufs_sub .., nullary_bufs_sub ..,
    unary_bufs_sub .., unary_bufs_sub .., ternary_bufs_sub .., unary_bufs_sub .., unary_bufs_sub .., binary_bufs_sub ..,
    nullary_bufs_sub .., unary_bufs_sub .., binary_bufs_sub .., unary_bufs_sub .., unary_bufs_sub .., unary_bufs_sub ..,
    binary_bufs_sub .., unary_bufs_sub .., unary_bufs_sub .., binary_bufs_sub .., unary_bufs_sub .., unary_bufs_sub ..,
    binary_bufs_sub .., nullary_bufs_sub .., unary_bufs_sub .., unary_bufs_sub .., ternary_bufs_sub .., nullary_bufs_sub ..,
    unary_bufs_sub .., nullary_bufs_sub .., unary_bufs_sub .., unary_bufs_sub .., ternary_bufs_sub .., nullary_bufs_sub ..,
    unary_bufs_sub .., binary_bufs_sub .., unary_bufs_sub ..⟩

/-- Every operation of `ops7` determines its result. -/
theorem ops7_fresh : (ops7 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl⟩

/-- The operations of `ops7` write only the references of `written7`. -/
theorem ops7_writes : (ops7 : List (HloOp τ sig (Elt F))).Forall fun op =>
    op.writes ⊆ (written7.map (Proc.devRef (τ := τ) .tc)).toFinset :=
  ⟨writes_sub_of_mem (y := main_v256) rfl (by decide), writes_sub_of_mem (y := main_c_42) rfl (by decide), writes_sub_of_mem (y := main_v257) rfl (by decide),
    writes_sub_of_mem (y := main_v258) rfl (by decide), writes_sub_of_mem (y := main_v259) rfl (by decide), writes_sub_of_mem (y := main_v260) rfl (by decide),
    writes_sub_of_mem (y := main_v261) rfl (by decide), writes_sub_of_mem (y := main_v262) rfl (by decide), writes_sub_of_mem (y := main_v263) rfl (by decide),
    writes_sub_of_mem (y := main_cst_43) rfl (by decide), writes_sub_of_mem (y := main_v264) rfl (by decide), writes_sub_of_mem (y := main_v265) rfl (by decide),
    writes_sub_of_mem (y := main_v266) rfl (by decide), writes_sub_of_mem (y := main_v267) rfl (by decide), writes_sub_of_mem (y := main_v268) rfl (by decide),
    writes_sub_of_mem (y := main_v269) rfl (by decide), writes_sub_of_mem (y := main_v270) rfl (by decide), writes_sub_of_mem (y := main_v271) rfl (by decide),
    writes_sub_of_mem (y := main_v272) rfl (by decide), writes_sub_of_mem (y := main_v273) rfl (by decide), writes_sub_of_mem (y := main_v274) rfl (by decide),
    writes_sub_of_mem (y := main_v275) rfl (by decide), writes_sub_of_mem (y := main_v276) rfl (by decide), writes_sub_of_mem (y := main_cst_44) rfl (by decide),
    writes_sub_of_mem (y := main_v277) rfl (by decide), writes_sub_of_mem (y := main_cst_45) rfl (by decide), writes_sub_of_mem (y := main_v278) rfl (by decide),
    writes_sub_of_mem (y := main_v279) rfl (by decide), writes_sub_of_mem (y := main_c_46) rfl (by decide), writes_sub_of_mem (y := main_call7.cst.ref) rfl (by decide),
    writes_sub_of_mem (y := main_call7.v0.ref) rfl (by decide), writes_sub_of_mem (y := main_call7.v1.ref) rfl (by decide), writes_sub_of_mem (y := main_call7.cst_0.ref) rfl (by decide),
    writes_sub_of_mem (y := main_call7.v2.ref) rfl (by decide), writes_sub_of_mem (y := main_call7.v3.ref) rfl (by decide), writes_sub_of_mem (y := main_call7.v4.ref) rfl (by decide),
    writes_sub_of_mem (y := main_call7.v5.ref) rfl (by decide), writes_sub_of_mem (y := main_call7.v6.ref) rfl (by decide), writes_sub_of_mem (y := main_call7.v7.ref) rfl (by decide),
    writes_sub_of_mem (y := main_call7.cst_1.ref) rfl (by decide), writes_sub_of_mem (y := main_call7.v8.ref) rfl (by decide), writes_sub_of_mem (y := main_call7.cst_2.ref) rfl (by decide),
    writes_sub_of_mem (y := main_call7.v9.ref) rfl (by decide), writes_sub_of_mem (y := main_call7.v10.ref) rfl (by decide), writes_sub_of_mem (y := main_call7.v11.ref) rfl (by decide),
    writes_sub_of_mem (y := main_call7.cst_3.ref) rfl (by decide), writes_sub_of_mem (y := main_call7.v12.ref) rfl (by decide), writes_sub_of_mem (y := main_call7.cst_4.ref) rfl (by decide),
    writes_sub_of_mem (y := main_call7.call0.v0.ref) rfl (by decide), writes_sub_of_mem (y := main_call7.call0.v1.ref) rfl (by decide), writes_sub_of_mem (y := main_call7.call0.v2.ref) rfl (by decide),
    writes_sub_of_mem (y := main_v281) rfl (by decide), writes_sub_of_mem (y := main_v282) rfl (by decide), writes_sub_of_mem (y := main_v283) rfl (by decide),
    writes_sub_of_mem (y := main_cst_47) rfl (by decide), writes_sub_of_mem (y := main_v284) rfl (by decide), writes_sub_of_mem (y := main_v285) rfl (by decide),
    writes_sub_of_mem (y := main_v286) rfl (by decide), writes_sub_of_mem (y := main_v287) rfl (by decide), writes_sub_of_mem (y := main_v288) rfl (by decide),
    writes_sub_of_mem (y := main_v289) rfl (by decide), writes_sub_of_mem (y := main_v290) rfl (by decide), writes_sub_of_mem (y := main_v291) rfl (by decide),
    writes_sub_of_mem (y := main_v292) rfl (by decide), writes_sub_of_mem (y := main_v293) rfl (by decide), writes_sub_of_mem (y := main_v294) rfl (by decide),
    writes_sub_of_mem (y := main_v295) rfl (by decide), writes_sub_of_mem (y := main_cst_48) rfl (by decide), writes_sub_of_mem (y := main_v296) rfl (by decide),
    writes_sub_of_mem (y := main_v297) rfl (by decide), writes_sub_of_mem (y := main_v298) rfl (by decide), writes_sub_of_mem (y := main_cst_49) rfl (by decide),
    writes_sub_of_mem (y := main_v299) rfl (by decide), writes_sub_of_mem (y := main_cst_50) rfl (by decide), writes_sub_of_mem (y := main_v300) rfl (by decide),
    writes_sub_of_mem (y := main_v301) rfl (by decide), writes_sub_of_mem (y := main_v302) rfl (by decide), writes_sub_of_mem (y := main_cst_51) rfl (by decide),
    writes_sub_of_mem (y := main_v303) rfl (by decide), writes_sub_of_mem (y := main_v304) rfl (by decide), writes_sub_of_mem (y := main_v305) rfl (by decide)⟩

/-- The references the operations of `ops8` write, in order: each operation's one result. -/
abbrev written8 : List (Ref sig .tc) :=
  [ main_v306, main_v307, main_v308, main_v309, main_v310, main_v311, main_v312, main_v313,
    main_v314, main_c_52, main_v315, main_v316, main_c_53, main_v317, main_v318, main_v319,
    main_v320, main_v321, main_v322, main_v323, main_cst_54, main_v324, main_v325, main_v326,
    main_v327, main_v328, main_v329, main_v330, main_v331, main_v332, main_v333, main_v334,
    main_v335, main_v336, main_cst_55, main_v337, main_cst_56, main_v338, main_v339, main_c_57,
    main_call8.cst.ref, main_call8.v0.ref, main_call8.v1.ref, main_call8.cst_0.ref, main_call8.v2.ref, main_call8.v3.ref, main_call8.v4.ref, main_call8.v5.ref,
    main_call8.v6.ref, main_call8.v7.ref, main_call8.cst_1.ref, main_call8.v8.ref, main_call8.cst_2.ref, main_call8.v9.ref, main_call8.v10.ref, main_call8.v11.ref,
    main_call8.cst_3.ref, main_call8.v12.ref, main_call8.cst_4.ref, main_call8.call0.v0.ref, main_call8.call0.v1.ref, main_call8.call0.v2.ref, main_v341, main_v342,
    main_v343, main_cst_58, main_v344, main_v345, main_v346, main_v347, main_v348, main_v349,
    main_v350, main_v351, main_v352, main_v353, main_v354, main_v355, main_c_59, main_v356,
    main_v357 ]

/-- Every buffer an operation of `ops8` touches is a TensorCore reference. -/
theorem ops8_sub : (ops8 : List (HloOp τ sig (Elt F))).Forall fun op => op.bufs ⊆ tcRefs τ sig :=
  ⟨binary_bufs_sub .., unary_bufs_sub .., reshape_bufs_sub .., unary_bufs_sub .., reshape_bufs_sub .., unary_bufs_sub ..,
    reshape_bufs_sub .., unary_bufs_sub .., reshape_bufs_sub .., nullary_bufs_sub .., unary_bufs_sub .., binary_bufs_sub ..,
    nullary_bufs_sub .., unary_bufs_sub .., binary_bufs_sub .., ternary_bufs_sub .., unary_bufs_sub .., binary_bufs_sub ..,
    unary_bufs_sub .., reshape_bufs_sub .., nullary_bufs_sub .., unary_bufs_sub .., unary_bufs_sub .., ternary_bufs_sub ..,
    binary_bufs_sub .., binary_bufs_sub .., binary_bufs_sub .., unary_bufs_sub .., unary_bufs_sub .., binary_bufs_sub ..,
    unary_bufs_sub .., reshape_bufs_sub .., unary_bufs_sub .., reshape_bufs_sub .., nullary_bufs_sub .., binary_bufs_sub ..,
    nullary_bufs_sub .., unary_bufs_sub .., binary_bufs_sub .., nullary_bufs_sub .., nullary_bufs_sub .., binary_bufs_sub ..,
    unary_bufs_sub .., nullary_bufs_sub .., unary_bufs_sub .., binary_bufs_sub .., unary_bufs_sub .., binary_bufs_sub ..,
    binary_bufs_sub .., unary_bufs_sub .., nullary_bufs_sub .., binary_bufs_sub .., nullary_bufs_sub .., binary_bufs_sub ..,
    unary_bufs_sub .., binary_bufs_sub .., nullary_bufs_sub .., binary_bufs_sub .., nullary_bufs_sub .., unary_bufs_sub ..,
    unary_bufs_sub .., ternary_bufs_sub .., unary_bufs_sub .., unary_bufs_sub .., binary_bufs_sub .., nullary_bufs_sub ..,
    unary_bufs_sub .., binary_bufs_sub .., unary_bufs_sub .., unary_bufs_sub .., unary_bufs_sub .., binary_bufs_sub ..,
    unary_bufs_sub .., unary_bufs_sub .., binary_bufs_sub .., unary_bufs_sub .., unary_bufs_sub .., binary_bufs_sub ..,
    nullary_bufs_sub .., unary_bufs_sub .., binary_bufs_sub ..⟩

/-- Every operation of `ops8` determines its result. -/
theorem ops8_fresh : (ops8 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl⟩

/-- The operations of `ops8` write only the references of `written8`. -/
theorem ops8_writes : (ops8 : List (HloOp τ sig (Elt F))).Forall fun op =>
    op.writes ⊆ (written8.map (Proc.devRef (τ := τ) .tc)).toFinset :=
  ⟨writes_sub_of_mem (y := main_v306) rfl (by decide), writes_sub_of_mem (y := main_v307) rfl (by decide), writes_sub_of_mem (y := main_v308) rfl (by decide),
    writes_sub_of_mem (y := main_v309) rfl (by decide), writes_sub_of_mem (y := main_v310) rfl (by decide), writes_sub_of_mem (y := main_v311) rfl (by decide),
    writes_sub_of_mem (y := main_v312) rfl (by decide), writes_sub_of_mem (y := main_v313) rfl (by decide), writes_sub_of_mem (y := main_v314) rfl (by decide),
    writes_sub_of_mem (y := main_c_52) rfl (by decide), writes_sub_of_mem (y := main_v315) rfl (by decide), writes_sub_of_mem (y := main_v316) rfl (by decide),
    writes_sub_of_mem (y := main_c_53) rfl (by decide), writes_sub_of_mem (y := main_v317) rfl (by decide), writes_sub_of_mem (y := main_v318) rfl (by decide),
    writes_sub_of_mem (y := main_v319) rfl (by decide), writes_sub_of_mem (y := main_v320) rfl (by decide), writes_sub_of_mem (y := main_v321) rfl (by decide),
    writes_sub_of_mem (y := main_v322) rfl (by decide), writes_sub_of_mem (y := main_v323) rfl (by decide), writes_sub_of_mem (y := main_cst_54) rfl (by decide),
    writes_sub_of_mem (y := main_v324) rfl (by decide), writes_sub_of_mem (y := main_v325) rfl (by decide), writes_sub_of_mem (y := main_v326) rfl (by decide),
    writes_sub_of_mem (y := main_v327) rfl (by decide), writes_sub_of_mem (y := main_v328) rfl (by decide), writes_sub_of_mem (y := main_v329) rfl (by decide),
    writes_sub_of_mem (y := main_v330) rfl (by decide), writes_sub_of_mem (y := main_v331) rfl (by decide), writes_sub_of_mem (y := main_v332) rfl (by decide),
    writes_sub_of_mem (y := main_v333) rfl (by decide), writes_sub_of_mem (y := main_v334) rfl (by decide), writes_sub_of_mem (y := main_v335) rfl (by decide),
    writes_sub_of_mem (y := main_v336) rfl (by decide), writes_sub_of_mem (y := main_cst_55) rfl (by decide), writes_sub_of_mem (y := main_v337) rfl (by decide),
    writes_sub_of_mem (y := main_cst_56) rfl (by decide), writes_sub_of_mem (y := main_v338) rfl (by decide), writes_sub_of_mem (y := main_v339) rfl (by decide),
    writes_sub_of_mem (y := main_c_57) rfl (by decide), writes_sub_of_mem (y := main_call8.cst.ref) rfl (by decide), writes_sub_of_mem (y := main_call8.v0.ref) rfl (by decide),
    writes_sub_of_mem (y := main_call8.v1.ref) rfl (by decide), writes_sub_of_mem (y := main_call8.cst_0.ref) rfl (by decide), writes_sub_of_mem (y := main_call8.v2.ref) rfl (by decide),
    writes_sub_of_mem (y := main_call8.v3.ref) rfl (by decide), writes_sub_of_mem (y := main_call8.v4.ref) rfl (by decide), writes_sub_of_mem (y := main_call8.v5.ref) rfl (by decide),
    writes_sub_of_mem (y := main_call8.v6.ref) rfl (by decide), writes_sub_of_mem (y := main_call8.v7.ref) rfl (by decide), writes_sub_of_mem (y := main_call8.cst_1.ref) rfl (by decide),
    writes_sub_of_mem (y := main_call8.v8.ref) rfl (by decide), writes_sub_of_mem (y := main_call8.cst_2.ref) rfl (by decide), writes_sub_of_mem (y := main_call8.v9.ref) rfl (by decide),
    writes_sub_of_mem (y := main_call8.v10.ref) rfl (by decide), writes_sub_of_mem (y := main_call8.v11.ref) rfl (by decide), writes_sub_of_mem (y := main_call8.cst_3.ref) rfl (by decide),
    writes_sub_of_mem (y := main_call8.v12.ref) rfl (by decide), writes_sub_of_mem (y := main_call8.cst_4.ref) rfl (by decide), writes_sub_of_mem (y := main_call8.call0.v0.ref) rfl (by decide),
    writes_sub_of_mem (y := main_call8.call0.v1.ref) rfl (by decide), writes_sub_of_mem (y := main_call8.call0.v2.ref) rfl (by decide), writes_sub_of_mem (y := main_v341) rfl (by decide),
    writes_sub_of_mem (y := main_v342) rfl (by decide), writes_sub_of_mem (y := main_v343) rfl (by decide), writes_sub_of_mem (y := main_cst_58) rfl (by decide),
    writes_sub_of_mem (y := main_v344) rfl (by decide), writes_sub_of_mem (y := main_v345) rfl (by decide), writes_sub_of_mem (y := main_v346) rfl (by decide),
    writes_sub_of_mem (y := main_v347) rfl (by decide), writes_sub_of_mem (y := main_v348) rfl (by decide), writes_sub_of_mem (y := main_v349) rfl (by decide),
    writes_sub_of_mem (y := main_v350) rfl (by decide), writes_sub_of_mem (y := main_v351) rfl (by decide), writes_sub_of_mem (y := main_v352) rfl (by decide),
    writes_sub_of_mem (y := main_v353) rfl (by decide), writes_sub_of_mem (y := main_v354) rfl (by decide), writes_sub_of_mem (y := main_v355) rfl (by decide),
    writes_sub_of_mem (y := main_c_59) rfl (by decide), writes_sub_of_mem (y := main_v356) rfl (by decide), writes_sub_of_mem (y := main_v357) rfl (by decide)⟩

/-- The references the operations of `ops9` write, in order: each operation's one result. -/
abbrev written9 : List (Ref sig .tc) :=
  [ main_c_60, main_v358, main_v359, main_v360, main_v361, main_v362, main_v363, main_call9.cst.ref,
    main_call9.v0.ref, main_call9.v1.ref ]

/-- Every buffer an operation of `ops9` touches is a TensorCore reference. -/
theorem ops9_sub : (ops9 : List (HloOp τ sig (Elt F))).Forall fun op => op.bufs ⊆ tcRefs τ sig :=
  ⟨nullary_bufs_sub .., unary_bufs_sub .., binary_bufs_sub .., ternary_bufs_sub .., unary_bufs_sub .., binary_bufs_sub ..,
    binary_bufs_sub .., nullary_bufs_sub .., unary_bufs_sub .., binary_bufs_sub ..⟩

/-- Every operation of `ops9` determines its result. -/
theorem ops9_fresh : (ops9 : List (HloOp τ sig (Elt F))).Forall fun op => op.fresh = ∅ :=
  ⟨rfl, rfl, rfl, rfl, rfl, rfl, rfl, rfl, rfl, rfl⟩

/-- The operations of `ops9` write only the references of `written9`. -/
theorem ops9_writes : (ops9 : List (HloOp τ sig (Elt F))).Forall fun op =>
    op.writes ⊆ (written9.map (Proc.devRef (τ := τ) .tc)).toFinset :=
  ⟨writes_sub_of_mem (y := main_c_60) rfl (by decide), writes_sub_of_mem (y := main_v358) rfl (by decide), writes_sub_of_mem (y := main_v359) rfl (by decide),
    writes_sub_of_mem (y := main_v360) rfl (by decide), writes_sub_of_mem (y := main_v361) rfl (by decide), writes_sub_of_mem (y := main_v362) rfl (by decide),
    writes_sub_of_mem (y := main_v363) rfl (by decide), writes_sub_of_mem (y := main_call9.cst.ref) rfl (by decide), writes_sub_of_mem (y := main_call9.v0.ref) rfl (by decide),
    writes_sub_of_mem (y := main_call9.v1.ref) rfl (by decide)⟩

/-- The references the operations of `ops10` write, in order: each operation's one result. -/
abbrev written10 : List (Ref sig .tc) :=
  [ main_v365, main_v366, main_v367, main_v368, main_v369, main_v370, main_v371, main_v372,
    main_c_61, main_v373, main_v374, main_c_62, main_v375, main_v376, main_v377, main_v378,
    main_v379, main_v380, main_v381, main_cst_63, main_v382, main_v383, main_v384, main_v385,
    main_v386, main_v387, main_v388, main_v389, main_v390, main_v391, main_v392, main_v393,
    main_v394, main_cst_64, main_v395, main_cst_65, main_v396, main_v397, main_c_66, main_call10.cst.ref,
    main_call10.v0.ref, main_call10.v1.ref, main_call10.cst_0.ref, main_call10.v2.ref, main_call10.v3.ref, main_call10.v4.ref, main_call10.v5.ref, main_call10.v6.ref,
    main_call10.v7.ref, main_call10.cst_1.ref, main_call10.v8.ref, main_call10.cst_2.ref, main_call10.v9.ref, main_call10.v10.ref, main_call10.v11.ref, main_call10.cst_3.ref,
    main_call10.v12.ref, main_call10.cst_4.ref, main_call10.call0.v0.ref, main_call10.call0.v1.ref, main_call10.call0.v2.ref, main_v399, main_v400, main_v401,
    main_cst_67, main_v402, main_v403, main_v404, main_v405, main_v406, main_v407, main_v408,
    main_v409 ]

/-- Every buffer an operation of `ops10` touches is a TensorCore reference. -/
theorem ops10_sub : (ops10 : List (HloOp τ sig (Elt F))).Forall fun op => op.bufs ⊆ tcRefs τ sig :=
  ⟨unary_bufs_sub .., reshape_bufs_sub .., unary_bufs_sub .., reshape_bufs_sub .., unary_bufs_sub .., reshape_bufs_sub ..,
    unary_bufs_sub .., reshape_bufs_sub .., nullary_bufs_sub .., unary_bufs_sub .., binary_bufs_sub .., nullary_bufs_sub ..,
    unary_bufs_sub .., binary_bufs_sub .., ternary_bufs_sub .., unary_bufs_sub .., binary_bufs_sub .., unary_bufs_sub ..,
    reshape_bufs_sub .., nullary_bufs_sub .., unary_bufs_sub .., unary_bufs_sub .., ternary_bufs_sub .., binary_bufs_sub ..,
    binary_bufs_sub .., binary_bufs_sub .., unary_bufs_sub .., unary_bufs_sub .., binary_bufs_sub .., unary_bufs_sub ..,
    reshape_bufs_sub .., unary_bufs_sub .., reshape_bufs_sub .., nullary_bufs_sub .., binary_bufs_sub .., nullary_bufs_sub ..,
    unary_bufs_sub .., binary_bufs_sub .., nullary_bufs_sub .., nullary_bufs_sub .., binary_bufs_sub .., unary_bufs_sub ..,
    nullary_bufs_sub .., unary_bufs_sub .., binary_bufs_sub .., unary_bufs_sub .., binary_bufs_sub .., binary_bufs_sub ..,
    unary_bufs_sub .., nullary_bufs_sub .., binary_bufs_sub .., nullary_bufs_sub .., binary_bufs_sub .., unary_bufs_sub ..,
    binary_bufs_sub .., nullary_bufs_sub .., binary_bufs_sub .., nullary_bufs_sub .., unary_bufs_sub .., unary_bufs_sub ..,
    ternary_bufs_sub .., unary_bufs_sub .., unary_bufs_sub .., binary_bufs_sub .., nullary_bufs_sub .., unary_bufs_sub ..,
    binary_bufs_sub .., unary_bufs_sub .., unary_bufs_sub .., unary_bufs_sub .., binary_bufs_sub .., unary_bufs_sub ..,
    unary_bufs_sub ..⟩

/-- Every operation of `ops10` determines its result. -/
theorem ops10_fresh : (ops10 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl⟩

/-- The operations of `ops10` write only the references of `written10`. -/
theorem ops10_writes : (ops10 : List (HloOp τ sig (Elt F))).Forall fun op =>
    op.writes ⊆ (written10.map (Proc.devRef (τ := τ) .tc)).toFinset :=
  ⟨writes_sub_of_mem (y := main_v365) rfl (by decide), writes_sub_of_mem (y := main_v366) rfl (by decide), writes_sub_of_mem (y := main_v367) rfl (by decide),
    writes_sub_of_mem (y := main_v368) rfl (by decide), writes_sub_of_mem (y := main_v369) rfl (by decide), writes_sub_of_mem (y := main_v370) rfl (by decide),
    writes_sub_of_mem (y := main_v371) rfl (by decide), writes_sub_of_mem (y := main_v372) rfl (by decide), writes_sub_of_mem (y := main_c_61) rfl (by decide),
    writes_sub_of_mem (y := main_v373) rfl (by decide), writes_sub_of_mem (y := main_v374) rfl (by decide), writes_sub_of_mem (y := main_c_62) rfl (by decide),
    writes_sub_of_mem (y := main_v375) rfl (by decide), writes_sub_of_mem (y := main_v376) rfl (by decide), writes_sub_of_mem (y := main_v377) rfl (by decide),
    writes_sub_of_mem (y := main_v378) rfl (by decide), writes_sub_of_mem (y := main_v379) rfl (by decide), writes_sub_of_mem (y := main_v380) rfl (by decide),
    writes_sub_of_mem (y := main_v381) rfl (by decide), writes_sub_of_mem (y := main_cst_63) rfl (by decide), writes_sub_of_mem (y := main_v382) rfl (by decide),
    writes_sub_of_mem (y := main_v383) rfl (by decide), writes_sub_of_mem (y := main_v384) rfl (by decide), writes_sub_of_mem (y := main_v385) rfl (by decide),
    writes_sub_of_mem (y := main_v386) rfl (by decide), writes_sub_of_mem (y := main_v387) rfl (by decide), writes_sub_of_mem (y := main_v388) rfl (by decide),
    writes_sub_of_mem (y := main_v389) rfl (by decide), writes_sub_of_mem (y := main_v390) rfl (by decide), writes_sub_of_mem (y := main_v391) rfl (by decide),
    writes_sub_of_mem (y := main_v392) rfl (by decide), writes_sub_of_mem (y := main_v393) rfl (by decide), writes_sub_of_mem (y := main_v394) rfl (by decide),
    writes_sub_of_mem (y := main_cst_64) rfl (by decide), writes_sub_of_mem (y := main_v395) rfl (by decide), writes_sub_of_mem (y := main_cst_65) rfl (by decide),
    writes_sub_of_mem (y := main_v396) rfl (by decide), writes_sub_of_mem (y := main_v397) rfl (by decide), writes_sub_of_mem (y := main_c_66) rfl (by decide),
    writes_sub_of_mem (y := main_call10.cst.ref) rfl (by decide), writes_sub_of_mem (y := main_call10.v0.ref) rfl (by decide), writes_sub_of_mem (y := main_call10.v1.ref) rfl (by decide),
    writes_sub_of_mem (y := main_call10.cst_0.ref) rfl (by decide), writes_sub_of_mem (y := main_call10.v2.ref) rfl (by decide), writes_sub_of_mem (y := main_call10.v3.ref) rfl (by decide),
    writes_sub_of_mem (y := main_call10.v4.ref) rfl (by decide), writes_sub_of_mem (y := main_call10.v5.ref) rfl (by decide), writes_sub_of_mem (y := main_call10.v6.ref) rfl (by decide),
    writes_sub_of_mem (y := main_call10.v7.ref) rfl (by decide), writes_sub_of_mem (y := main_call10.cst_1.ref) rfl (by decide), writes_sub_of_mem (y := main_call10.v8.ref) rfl (by decide),
    writes_sub_of_mem (y := main_call10.cst_2.ref) rfl (by decide), writes_sub_of_mem (y := main_call10.v9.ref) rfl (by decide), writes_sub_of_mem (y := main_call10.v10.ref) rfl (by decide),
    writes_sub_of_mem (y := main_call10.v11.ref) rfl (by decide), writes_sub_of_mem (y := main_call10.cst_3.ref) rfl (by decide), writes_sub_of_mem (y := main_call10.v12.ref) rfl (by decide),
    writes_sub_of_mem (y := main_call10.cst_4.ref) rfl (by decide), writes_sub_of_mem (y := main_call10.call0.v0.ref) rfl (by decide), writes_sub_of_mem (y := main_call10.call0.v1.ref) rfl (by decide),
    writes_sub_of_mem (y := main_call10.call0.v2.ref) rfl (by decide), writes_sub_of_mem (y := main_v399) rfl (by decide), writes_sub_of_mem (y := main_v400) rfl (by decide),
    writes_sub_of_mem (y := main_v401) rfl (by decide), writes_sub_of_mem (y := main_cst_67) rfl (by decide), writes_sub_of_mem (y := main_v402) rfl (by decide),
    writes_sub_of_mem (y := main_v403) rfl (by decide), writes_sub_of_mem (y := main_v404) rfl (by decide), writes_sub_of_mem (y := main_v405) rfl (by decide),
    writes_sub_of_mem (y := main_v406) rfl (by decide), writes_sub_of_mem (y := main_v407) rfl (by decide), writes_sub_of_mem (y := main_v408) rfl (by decide),
    writes_sub_of_mem (y := main_v409) rfl (by decide)⟩

/-- The references the operations of `ops11` write, in order: each operation's one result. -/
abbrev written11 : List (Ref sig .tc) :=
  [ main_v410, main_v411, main_v412, main_v413, main_cst_68, main_v414, main_v415, main_v416,
    main_cst_69, main_v417, main_cst_70, main_v418, main_v419, main_v420, main_cst_71, main_v421,
    main_v422, main_v423, main_v424, main_v425, main_v426, main_v427, main_v428, main_v429,
    main_v430, main_v431, main_v432, main_c_72, main_v433, main_v434, main_c_73, main_v435,
    main_v436, main_v437, main_v438, main_v439, main_v440, main_v441, main_cst_74, main_v442,
    main_v443, main_v444, main_v445, main_v446, main_v447, main_v448, main_v449, main_v450,
    main_v451, main_v452, main_v453, main_v454, main_cst_75, main_v455, main_cst_76, main_v456,
    main_v457, main_c_77, main_call11.cst.ref, main_call11.v0.ref, main_call11.v1.ref, main_call11.cst_0.ref, main_call11.v2.ref, main_call11.v3.ref,
    main_call11.v4.ref, main_call11.v5.ref, main_call11.v6.ref, main_call11.v7.ref, main_call11.cst_1.ref, main_call11.v8.ref, main_call11.cst_2.ref, main_call11.v9.ref,
    main_call11.v10.ref, main_call11.v11.ref, main_call11.cst_3.ref, main_call11.v12.ref, main_call11.cst_4.ref, main_call11.call0.v0.ref, main_call11.call0.v1.ref, main_call11.call0.v2.ref,
    main_v459 ]

/-- Every buffer an operation of `ops11` touches is a TensorCore reference. -/
theorem ops11_sub : (ops11 : List (HloOp τ sig (Elt F))).Forall fun op => op.bufs ⊆ tcRefs τ sig :=
  ⟨binary_bufs_sub .., unary_bufs_sub .., unary_bufs_sub .., binary_bufs_sub .., nullary_bufs_sub .., unary_bufs_sub ..,
    unary_bufs_sub .., ternary_bufs_sub .., nullary_bufs_sub .., unary_bufs_sub .., nullary_bufs_sub .., unary_bufs_sub ..,
    unary_bufs_sub .., ternary_bufs_sub .., nullary_bufs_sub .., unary_bufs_sub .., binary_bufs_sub .., unary_bufs_sub ..,
    binary_bufs_sub .., unary_bufs_sub .., reshape_bufs_sub .., unary_bufs_sub .., reshape_bufs_sub .., unary_bufs_sub ..,
    reshape_bufs_sub .., unary_bufs_sub .., reshape_bufs_sub .., nullary_bufs_sub .., unary_bufs_sub .., binary_bufs_sub ..,
    nullary_bufs_sub .., unary_bufs_sub .., binary_bufs_sub .., ternary_bufs_sub .., unary_bufs_sub .., binary_bufs_sub ..,
    unary_bufs_sub .., reshape_bufs_sub .., nullary_bufs_sub .., unary_bufs_sub .., unary_bufs_sub .., ternary_bufs_sub ..,
    binary_bufs_sub .., binary_bufs_sub .., binary_bufs_sub .., unary_bufs_sub .., unary_bufs_sub .., binary_bufs_sub ..,
    unary_bufs_sub .., reshape_bufs_sub .., unary_bufs_sub .., reshape_bufs_sub .., nullary_bufs_sub .., binary_bufs_sub ..,
    nullary_bufs_sub .., unary_bufs_sub .., binary_bufs_sub .., nullary_bufs_sub .., nullary_bufs_sub .., binary_bufs_sub ..,
    unary_bufs_sub .., nullary_bufs_sub .., unary_bufs_sub .., binary_bufs_sub .., unary_bufs_sub .., binary_bufs_sub ..,
    binary_bufs_sub .., unary_bufs_sub .., nullary_bufs_sub .., binary_bufs_sub .., nullary_bufs_sub .., binary_bufs_sub ..,
    unary_bufs_sub .., binary_bufs_sub .., nullary_bufs_sub .., binary_bufs_sub .., nullary_bufs_sub .., unary_bufs_sub ..,
    unary_bufs_sub .., ternary_bufs_sub .., unary_bufs_sub ..⟩

/-- Every operation of `ops11` determines its result. -/
theorem ops11_fresh : (ops11 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl⟩

/-- The operations of `ops11` write only the references of `written11`. -/
theorem ops11_writes : (ops11 : List (HloOp τ sig (Elt F))).Forall fun op =>
    op.writes ⊆ (written11.map (Proc.devRef (τ := τ) .tc)).toFinset :=
  ⟨writes_sub_of_mem (y := main_v410) rfl (by decide), writes_sub_of_mem (y := main_v411) rfl (by decide), writes_sub_of_mem (y := main_v412) rfl (by decide),
    writes_sub_of_mem (y := main_v413) rfl (by decide), writes_sub_of_mem (y := main_cst_68) rfl (by decide), writes_sub_of_mem (y := main_v414) rfl (by decide),
    writes_sub_of_mem (y := main_v415) rfl (by decide), writes_sub_of_mem (y := main_v416) rfl (by decide), writes_sub_of_mem (y := main_cst_69) rfl (by decide),
    writes_sub_of_mem (y := main_v417) rfl (by decide), writes_sub_of_mem (y := main_cst_70) rfl (by decide), writes_sub_of_mem (y := main_v418) rfl (by decide),
    writes_sub_of_mem (y := main_v419) rfl (by decide), writes_sub_of_mem (y := main_v420) rfl (by decide), writes_sub_of_mem (y := main_cst_71) rfl (by decide),
    writes_sub_of_mem (y := main_v421) rfl (by decide), writes_sub_of_mem (y := main_v422) rfl (by decide), writes_sub_of_mem (y := main_v423) rfl (by decide),
    writes_sub_of_mem (y := main_v424) rfl (by decide), writes_sub_of_mem (y := main_v425) rfl (by decide), writes_sub_of_mem (y := main_v426) rfl (by decide),
    writes_sub_of_mem (y := main_v427) rfl (by decide), writes_sub_of_mem (y := main_v428) rfl (by decide), writes_sub_of_mem (y := main_v429) rfl (by decide),
    writes_sub_of_mem (y := main_v430) rfl (by decide), writes_sub_of_mem (y := main_v431) rfl (by decide), writes_sub_of_mem (y := main_v432) rfl (by decide),
    writes_sub_of_mem (y := main_c_72) rfl (by decide), writes_sub_of_mem (y := main_v433) rfl (by decide), writes_sub_of_mem (y := main_v434) rfl (by decide),
    writes_sub_of_mem (y := main_c_73) rfl (by decide), writes_sub_of_mem (y := main_v435) rfl (by decide), writes_sub_of_mem (y := main_v436) rfl (by decide),
    writes_sub_of_mem (y := main_v437) rfl (by decide), writes_sub_of_mem (y := main_v438) rfl (by decide), writes_sub_of_mem (y := main_v439) rfl (by decide),
    writes_sub_of_mem (y := main_v440) rfl (by decide), writes_sub_of_mem (y := main_v441) rfl (by decide), writes_sub_of_mem (y := main_cst_74) rfl (by decide),
    writes_sub_of_mem (y := main_v442) rfl (by decide), writes_sub_of_mem (y := main_v443) rfl (by decide), writes_sub_of_mem (y := main_v444) rfl (by decide),
    writes_sub_of_mem (y := main_v445) rfl (by decide), writes_sub_of_mem (y := main_v446) rfl (by decide), writes_sub_of_mem (y := main_v447) rfl (by decide),
    writes_sub_of_mem (y := main_v448) rfl (by decide), writes_sub_of_mem (y := main_v449) rfl (by decide), writes_sub_of_mem (y := main_v450) rfl (by decide),
    writes_sub_of_mem (y := main_v451) rfl (by decide), writes_sub_of_mem (y := main_v452) rfl (by decide), writes_sub_of_mem (y := main_v453) rfl (by decide),
    writes_sub_of_mem (y := main_v454) rfl (by decide), writes_sub_of_mem (y := main_cst_75) rfl (by decide), writes_sub_of_mem (y := main_v455) rfl (by decide),
    writes_sub_of_mem (y := main_cst_76) rfl (by decide), writes_sub_of_mem (y := main_v456) rfl (by decide), writes_sub_of_mem (y := main_v457) rfl (by decide),
    writes_sub_of_mem (y := main_c_77) rfl (by decide), writes_sub_of_mem (y := main_call11.cst.ref) rfl (by decide), writes_sub_of_mem (y := main_call11.v0.ref) rfl (by decide),
    writes_sub_of_mem (y := main_call11.v1.ref) rfl (by decide), writes_sub_of_mem (y := main_call11.cst_0.ref) rfl (by decide), writes_sub_of_mem (y := main_call11.v2.ref) rfl (by decide),
    writes_sub_of_mem (y := main_call11.v3.ref) rfl (by decide), writes_sub_of_mem (y := main_call11.v4.ref) rfl (by decide), writes_sub_of_mem (y := main_call11.v5.ref) rfl (by decide),
    writes_sub_of_mem (y := main_call11.v6.ref) rfl (by decide), writes_sub_of_mem (y := main_call11.v7.ref) rfl (by decide), writes_sub_of_mem (y := main_call11.cst_1.ref) rfl (by decide),
    writes_sub_of_mem (y := main_call11.v8.ref) rfl (by decide), writes_sub_of_mem (y := main_call11.cst_2.ref) rfl (by decide), writes_sub_of_mem (y := main_call11.v9.ref) rfl (by decide),
    writes_sub_of_mem (y := main_call11.v10.ref) rfl (by decide), writes_sub_of_mem (y := main_call11.v11.ref) rfl (by decide), writes_sub_of_mem (y := main_call11.cst_3.ref) rfl (by decide),
    writes_sub_of_mem (y := main_call11.v12.ref) rfl (by decide), writes_sub_of_mem (y := main_call11.cst_4.ref) rfl (by decide), writes_sub_of_mem (y := main_call11.call0.v0.ref) rfl (by decide),
    writes_sub_of_mem (y := main_call11.call0.v1.ref) rfl (by decide), writes_sub_of_mem (y := main_call11.call0.v2.ref) rfl (by decide), writes_sub_of_mem (y := main_v459) rfl (by decide)⟩

/-- The references the operations of `ops12` write, in order: each operation's one result. -/
abbrev written12 : List (Ref sig .tc) :=
  [ main_v460, main_v461, main_cst_78, main_v462, main_v463, main_v464, main_v465, main_v466,
    main_v467, main_v468, main_v469, main_v470, main_v471, main_v472, main_v473, main_c_79,
    main_v474, main_v475, main_c_80, main_v476, main_v477, main_v478, main_v479, main_v480,
    main_v481, main_call12.cst.ref, main_call12.v0.ref, main_call12.v1.ref ]

/-- Every buffer an operation of `ops12` touches is a TensorCore reference. -/
theorem ops12_sub : (ops12 : List (HloOp τ sig (Elt F))).Forall fun op => op.bufs ⊆ tcRefs τ sig :=
  ⟨unary_bufs_sub .., binary_bufs_sub .., nullary_bufs_sub .., unary_bufs_sub .., binary_bufs_sub .., unary_bufs_sub ..,
    unary_bufs_sub .., unary_bufs_sub .., binary_bufs_sub .., unary_bufs_sub .., unary_bufs_sub .., binary_bufs_sub ..,
    unary_bufs_sub .., unary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    binary_bufs_sub .., nullary_bufs_sub .., unary_bufs_sub .., binary_bufs_sub ..⟩

/-- Every operation of `ops12` determines its result. -/
theorem ops12_fresh : (ops12 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl⟩

/-- The operations of `ops12` write only the references of `written12`. -/
theorem ops12_writes : (ops12 : List (HloOp τ sig (Elt F))).Forall fun op =>
    op.writes ⊆ (written12.map (Proc.devRef (τ := τ) .tc)).toFinset :=
  ⟨writes_sub_of_mem (y := main_v460) rfl (by decide), writes_sub_of_mem (y := main_v461) rfl (by decide), writes_sub_of_mem (y := main_cst_78) rfl (by decide),
    writes_sub_of_mem (y := main_v462) rfl (by decide), writes_sub_of_mem (y := main_v463) rfl (by decide), writes_sub_of_mem (y := main_v464) rfl (by decide),
    writes_sub_of_mem (y := main_v465) rfl (by decide), writes_sub_of_mem (y := main_v466) rfl (by decide), writes_sub_of_mem (y := main_v467) rfl (by decide),
    writes_sub_of_mem (y := main_v468) rfl (by decide), writes_sub_of_mem (y := main_v469) rfl (by decide), writes_sub_of_mem (y := main_v470) rfl (by decide),
    writes_sub_of_mem (y := main_v471) rfl (by decide), writes_sub_of_mem (y := main_v472) rfl (by decide), writes_sub_of_mem (y := main_v473) rfl (by decide),
    writes_sub_of_mem (y := main_c_79) rfl (by decide), writes_sub_of_mem (y := main_v474) rfl (by decide), writes_sub_of_mem (y := main_v475) rfl (by decide),
    writes_sub_of_mem (y := main_c_80) rfl (by decide), writes_sub_of_mem (y := main_v476) rfl (by decide), writes_sub_of_mem (y := main_v477) rfl (by decide),
    writes_sub_of_mem (y := main_v478) rfl (by decide), writes_sub_of_mem (y := main_v479) rfl (by decide), writes_sub_of_mem (y := main_v480) rfl (by decide),
    writes_sub_of_mem (y := main_v481) rfl (by decide), writes_sub_of_mem (y := main_call12.cst.ref) rfl (by decide), writes_sub_of_mem (y := main_call12.v0.ref) rfl (by decide),
    writes_sub_of_mem (y := main_call12.v1.ref) rfl (by decide)⟩

/-- The references the operations of `ops13` write, in order: each operation's one result. -/
abbrev written13 : List (Ref sig .tc) :=
  [ main_cst_81, main_v483, main_v484, main_v485, main_cst_82, main_v486, main_cst_83, main_v487,
    main_v488, main_v489, main_cst_84, main_v490, main_v491, main_v492, main_v493, main_cst_85,
    main_v494, main_v495, main_v496, main_cst_86, main_v497, main_cst_87, main_v498, main_v499,
    main_v500, main_cst_88, main_v501, main_v502, main_v503, main_v504, main_v505, main_v506,
    main_v507, main_v508 ]

/-- Every buffer an operation of `ops13` touches is a TensorCore reference. -/
theorem ops13_sub : (ops13 : List (HloOp τ sig (Elt F))).Forall fun op => op.bufs ⊆ tcRefs τ sig :=
  ⟨nullary_bufs_sub .., unary_bufs_sub .., unary_bufs_sub .., ternary_bufs_sub .., nullary_bufs_sub .., unary_bufs_sub ..,
    nullary_bufs_sub .., unary_bufs_sub .., unary_bufs_sub .., ternary_bufs_sub .., nullary_bufs_sub .., unary_bufs_sub ..,
    binary_bufs_sub .., unary_bufs_sub .., binary_bufs_sub .., nullary_bufs_sub .., unary_bufs_sub .., unary_bufs_sub ..,
    ternary_bufs_sub .., nullary_bufs_sub .., unary_bufs_sub .., nullary_bufs_sub .., unary_bufs_sub .., unary_bufs_sub ..,
    ternary_bufs_sub .., nullary_bufs_sub .., unary_bufs_sub .., binary_bufs_sub .., unary_bufs_sub .., binary_bufs_sub ..,
    binary_bufs_sub .., unary_bufs_sub .., unary_bufs_sub .., binary_bufs_sub ..⟩

/-- Every operation of `ops13` determines its result. -/
theorem ops13_fresh : (ops13 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl⟩

/-- The operations of `ops13` write only the references of `written13`. -/
theorem ops13_writes : (ops13 : List (HloOp τ sig (Elt F))).Forall fun op =>
    op.writes ⊆ (written13.map (Proc.devRef (τ := τ) .tc)).toFinset :=
  ⟨writes_sub_of_mem (y := main_cst_81) rfl (by decide), writes_sub_of_mem (y := main_v483) rfl (by decide), writes_sub_of_mem (y := main_v484) rfl (by decide),
    writes_sub_of_mem (y := main_v485) rfl (by decide), writes_sub_of_mem (y := main_cst_82) rfl (by decide), writes_sub_of_mem (y := main_v486) rfl (by decide),
    writes_sub_of_mem (y := main_cst_83) rfl (by decide), writes_sub_of_mem (y := main_v487) rfl (by decide), writes_sub_of_mem (y := main_v488) rfl (by decide),
    writes_sub_of_mem (y := main_v489) rfl (by decide), writes_sub_of_mem (y := main_cst_84) rfl (by decide), writes_sub_of_mem (y := main_v490) rfl (by decide),
    writes_sub_of_mem (y := main_v491) rfl (by decide), writes_sub_of_mem (y := main_v492) rfl (by decide), writes_sub_of_mem (y := main_v493) rfl (by decide),
    writes_sub_of_mem (y := main_cst_85) rfl (by decide), writes_sub_of_mem (y := main_v494) rfl (by decide), writes_sub_of_mem (y := main_v495) rfl (by decide),
    writes_sub_of_mem (y := main_v496) rfl (by decide), writes_sub_of_mem (y := main_cst_86) rfl (by decide), writes_sub_of_mem (y := main_v497) rfl (by decide),
    writes_sub_of_mem (y := main_cst_87) rfl (by decide), writes_sub_of_mem (y := main_v498) rfl (by decide), writes_sub_of_mem (y := main_v499) rfl (by decide),
    writes_sub_of_mem (y := main_v500) rfl (by decide), writes_sub_of_mem (y := main_cst_88) rfl (by decide), writes_sub_of_mem (y := main_v501) rfl (by decide),
    writes_sub_of_mem (y := main_v502) rfl (by decide), writes_sub_of_mem (y := main_v503) rfl (by decide), writes_sub_of_mem (y := main_v504) rfl (by decide),
    writes_sub_of_mem (y := main_v505) rfl (by decide), writes_sub_of_mem (y := main_v506) rfl (by decide), writes_sub_of_mem (y := main_v507) rfl (by decide),
    writes_sub_of_mem (y := main_v508) rfl (by decide)⟩

/-- The references the operations of `ops14` write, in order: each operation's one result. -/
abbrev written14 : List (Ref sig .tc) :=
  [ main_call13.cst.ref, main_call13.v0.ref, main_call13.v1.ref, main_v510, main_v511, main_v512, main_v513 ]

/-- Every buffer an operation of `ops14` touches is a TensorCore reference. -/
theorem ops14_sub : (ops14 : List (HloOp τ sig (Elt F))).Forall fun op => op.bufs ⊆ tcRefs τ sig :=
  ⟨nullary_bufs_sub .., unary_bufs_sub .., binary_bufs_sub .., binary_bufs_sub .., unary_bufs_sub .., unary_bufs_sub ..,
    binary_bufs_sub ..⟩

/-- Every operation of `ops14` determines its result. -/
theorem ops14_fresh : (ops14 : List (HloOp τ sig (Elt F))).Forall fun op => op.fresh = ∅ :=
  ⟨rfl, rfl, rfl, rfl, rfl, rfl, rfl⟩

/-- The operations of `ops14` write only the references of `written14`. -/
theorem ops14_writes : (ops14 : List (HloOp τ sig (Elt F))).Forall fun op =>
    op.writes ⊆ (written14.map (Proc.devRef (τ := τ) .tc)).toFinset :=
  ⟨writes_sub_of_mem (y := main_call13.cst.ref) rfl (by decide), writes_sub_of_mem (y := main_call13.v0.ref) rfl (by decide), writes_sub_of_mem (y := main_call13.v1.ref) rfl (by decide),
    writes_sub_of_mem (y := main_v510) rfl (by decide), writes_sub_of_mem (y := main_v511) rfl (by decide), writes_sub_of_mem (y := main_v512) rfl (by decide),
    writes_sub_of_mem (y := main_v513) rfl (by decide)⟩

end Cert.ReferenceIdeal.RefRun

end
-- ==== Proof.RefRun.lean ====
/- The reference program's run: @main as the list of its 785 host operations, in order, and every weakly fair execution's
   final memory as the fold of those operations over the launch memory. -/
import proofs.«170918_j12352325943916_1_alg».proof.Proof.RefPart0
import proofs.«170918_j12352325943916_1_alg».proof.Proof.RefPart1
import proofs.«170918_j12352325943916_1_alg».proof.Proof.RefPart2
import proofs.«170918_j12352325943916_1_alg».proof.Proof.RefPart3
import proofs.«170918_j12352325943916_1_alg».proof.Proof.RefPart4
import proofs.«170918_j12352325943916_1_alg».proof.Proof.RefPart5
import proofs.«170918_j12352325943916_1_alg».proof.Proof.RefPart6
import proofs.«170918_j12352325943916_1_alg».proof.Proof.RefPart7
import proofs.«170918_j12352325943916_1_alg».proof.Proof.RefPart8
import proofs.«170918_j12352325943916_1_alg».proof.Proof.RefPart9
import proofs.«170918_j12352325943916_1_alg».proof.Proof.RefPart10
import proofs.«170918_j12352325943916_1_alg».proof.Proof.RefSub

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 785 operations, in order: the fifteen lists one after another. -/
abbrev ops : List (HloOp τ sig (Elt F)) :=
  ops0 ++ (ops1 ++ (ops2 ++ (ops3 ++ (ops4 ++ (ops5 ++ (ops6 ++ (ops7 ++ (ops8 ++ (ops9 ++ (ops10 ++ (ops11 ++ (ops12 ++ (ops13 ++ ops14)))))))))))))

/-- @main is that straight line: each of its eleven windows is the line of its lists (`part0_eq` … `part10_eq`), and lines
    run one after another are the line of the concatenation (`seq_append`), sequencing re-associated (`bind_assoc`). -/
theorem main_eq (c : Dev nD) : main (F := F) c = seq ops := by
  simp only [main, part0_eq, part1_eq, part2_eq, part3_eq, part4_eq, part5_eq, part6_eq, part7_eq, part8_eq, part9_eq,
    part10_eq, ops, seq_append, bind_assoc]

/-- The signature scopes no buffer and no semaphore: every tensor value's buffer is in HBM, and there is no semaphore. -/
theorem scopedRefs_eq : (Finset.univ.filter fun b : Ref sig .tc => b.isScoped) = ∅ := by decide
theorem scopedSems_eq : (Finset.univ.filter fun sm : SemLoc sig => sm.isScoped .tc) = ∅ := by decide

/-- Every buffer an operation touches is a TensorCore reference: list by list. -/
theorem ops_sub : (ops : List (HloOp τ sig (Elt F))).Forall fun op => op.bufs ⊆ tcRefs τ sig :=
  List.forall_append.mpr ⟨ops0_sub, List.forall_append.mpr ⟨ops1_sub, List.forall_append.mpr ⟨ops2_sub, List.forall_append.mpr ⟨ops3_sub, List.forall_append.mpr ⟨ops4_sub, List.forall_append.mpr ⟨ops5_sub, List.forall_append.mpr ⟨ops6_sub, List.forall_append.mpr ⟨ops7_sub, List.forall_append.mpr ⟨ops8_sub, List.forall_append.mpr ⟨ops9_sub, List.forall_append.mpr ⟨ops10_sub, List.forall_append.mpr ⟨ops11_sub, List.forall_append.mpr ⟨ops12_sub, List.forall_append.mpr ⟨ops13_sub, ops14_sub⟩⟩⟩⟩⟩⟩⟩⟩⟩⟩⟩⟩⟩⟩

/-- Every operation determines its result: list by list. -/
theorem ops_fresh : (ops : List (HloOp τ sig (Elt F))).Forall fun op => op.fresh = ∅ :=
  List.forall_append.mpr ⟨ops0_fresh, List.forall_append.mpr ⟨ops1_fresh, List.forall_append.mpr ⟨ops2_fresh, List.forall_append.mpr ⟨ops3_fresh, List.forall_append.mpr ⟨ops4_fresh, List.forall_append.mpr ⟨ops5_fresh, List.forall_append.mpr ⟨ops6_fresh, List.forall_append.mpr ⟨ops7_fresh, List.forall_append.mpr ⟨ops8_fresh, List.forall_append.mpr ⟨ops9_fresh, List.forall_append.mpr ⟨ops10_fresh, List.forall_append.mpr ⟨ops11_fresh, List.forall_append.mpr ⟨ops12_fresh, List.forall_append.mpr ⟨ops13_fresh, ops14_fresh⟩⟩⟩⟩⟩⟩⟩⟩⟩⟩⟩⟩⟩⟩

/-- At the compiled mesh, for any float values, from any memory with zero counters: every weakly fair execution of @main on
    the TensorCores terminates, and every final state has each TensorCore buffer at the operations' fold over the launch
    contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ
    (fun _ => List.forall_iff_forall_mem.mp ops_fresh)

end Cert.ReferenceIdeal.RefRun

end
-- ==== Proof.RefKept.lean ====
/- No operation of the reference program writes one of @main's arguments: after the program each argument's buffer holds
   what it held at launch. -/
import proofs.«170918_j12352325943916_1_alg».proof.Proof.RefRun
import Idealize.ShloMosaic.Lib.Pipeline.Frame

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- A reference none of the fifteen lists writes holds after @main's operations what it held before them: the fold over the
    concatenation is the lists' folds in turn (`after_append`), and each list leaves a reference outside the ones it writes
    as it was (`after_of_writes_sub`). -/
theorem after_ops_of_not_written {r : Ref sig .tc} (V : Valuation τ sig (Elt F))
    (h0 : r ∉ written0) (h1 : r ∉ written1) (h2 : r ∉ written2) (h3 : r ∉ written3) (h4 : r ∉ written4)
    (h5 : r ∉ written5) (h6 : r ∉ written6) (h7 : r ∉ written7) (h8 : r ∉ written8) (h9 : r ∉ written9)
    (h10 : r ∉ written10) (h11 : r ∉ written11) (h12 : r ∉ written12) (h13 : r ∉ written13) (h14 : r ∉ written14) :
    after ops V (Proc.devRef .tc r) = V (Proc.devRef .tc r) := by
  simp only [ops, after_append]
  rw [after_of_writes_sub ops14 _ ops14_writes h14, after_of_writes_sub ops13 _ ops13_writes h13, after_of_writes_sub ops12 _ ops12_writes h12,
    after_of_writes_sub ops11 _ ops11_writes h11, after_of_writes_sub ops10 _ ops10_writes h10, after_of_writes_sub ops9 _ ops9_writes h9,
    after_of_writes_sub ops8 _ ops8_writes h8, after_of_writes_sub ops7 _ ops7_writes h7, after_of_writes_sub ops6 _ ops6_writes h6,
    after_of_writes_sub ops5 _ ops5_writes h5, after_of_writes_sub ops4 _ ops4_writes h4, after_of_writes_sub ops3 _ ops3_writes h3,
    after_of_writes_sub ops2 _ ops2_writes h2, after_of_writes_sub ops1 _ ops1_writes h1, after_of_writes_sub ops0 _ ops0_writes h0]

/-- Argument 0's buffer is the result of no operation. -/
theorem kept0 (V : Valuation τ sig (Elt F)) : after ops V (main_arg0 : DevRef τ sig) = V (main_arg0 : DevRef τ sig) :=
  after_ops_of_not_written V (by decide) (by decide) (by decide) (by decide) (by decide) (by decide) (by decide) (by decide) (by decide) (by decide) (by decide) (by decide) (by decide) (by decide) (by decide)

/-- Argument 1's buffer is the result of no operation. -/
theorem kept1 (V : Valuation τ sig (Elt F)) : after ops V (main_arg1 : DevRef τ sig) = V (main_arg1 : DevRef τ sig) :=
  after_ops_of_not_written V (by decide) (by decide) (by decide) (by decide) (by decide) (by decide) (by decide) (by decide) (by decide) (by decide) (by decide) (by decide) (by decide) (by decide) (by decide)

/-- Argument 2's buffer is the result of no operation. -/
theorem kept2 (V : Valuation τ sig (Elt F)) : after ops V (main_arg2 : DevRef τ sig) = V (main_arg2 : DevRef τ sig) :=
  after_ops_of_not_written V (by decide) (by decide) (by decide) (by decide) (by decide) (by decide) (by decide) (by decide) (by decide) (by decide) (by decide) (by decide) (by decide) (by decide) (by decide)

/-- Argument 3's buffer is the result of no operation. -/
theorem kept3 (V : Valuation τ sig (Elt F)) : after ops V (main_arg3 : DevRef τ sig) = V (main_arg3 : DevRef τ sig) :=
  after_ops_of_not_written V (by decide) (by decide) (by decide) (by decide) (by decide) (by decide) (by decide) (by decide) (by decide) (by decide) (by decide) (by decide) (by decide) (by decide) (by decide)

/-- Argument 4's buffer is the result of no operation. -/
theorem kept4 (V : Valuation τ sig (Elt F)) : after ops V (main_arg4 : DevRef τ sig) = V (main_arg4 : DevRef τ sig) :=
  after_ops_of_not_written V (by decide) (by decide) (by decide) (by decide) (by decide) (by decide) (by decide) (by decide) (by decide) (by decide) (by decide) (by decide) (by decide) (by decide) (by decide)

/-- Argument 5's buffer is the result of no operation. -/
theorem kept5 (V : Valuation τ sig (Elt F)) : after ops V (main_arg5 : DevRef τ sig) = V (main_arg5 : DevRef τ sig) :=
  after_ops_of_not_written V (by decide) (by decide) (by decide) (by decide) (by decide) (by decide) (by decide) (by decide) (by decide) (by decide) (by decide) (by decide) (by decide) (by decide) (by decide)

/-- Argument 6's buffer is the result of no operation. -/
theorem kept6 (V : Valuation τ sig (Elt F)) : after ops V (main_arg6 : DevRef τ sig) = V (main_arg6 : DevRef τ sig) :=
  after_ops_of_not_written V (by decide) (by decide) (by decide) (by decide) (by decide) (by decide) (by decide) (by decide) (by decide) (by decide) (by decide) (by decide) (by decide) (by decide) (by decide)

/-- Argument 7's buffer is the result of no operation. -/
theorem kept7 (V : Valuation τ sig (Elt F)) : after ops V (main_arg7 : DevRef τ sig) = V (main_arg7 : DevRef τ sig) :=
  after_ops_of_not_written V (by decide) (by decide) (by decide) (by decide) (by decide) (by decide) (by decide) (by decide) (by decide) (by decide) (by decide) (by decide) (by decide) (by decide) (by decide)

/-- Argument 8's buffer is the result of no operation. -/
theorem kept8 (V : Valuation τ sig (Elt F)) : after ops V (main_arg8 : DevRef τ sig) = V (main_arg8 : DevRef τ sig) :=
  after_ops_of_not_written V (by decide) (by decide) (by decide) (by decide) (by decide) (by decide) (by decide) (by decide) (by decide) (by decide) (by decide) (by decide) (by decide) (by decide) (by decide)

/-- Argument 9's buffer is the result of no operation. -/
theorem kept9 (V : Valuation τ sig (Elt F)) : after ops V (main_arg9 : DevRef τ sig) = V (main_arg9 : DevRef τ sig) :=
  after_ops_of_not_written V (by decide) (by decide) (by decide) (by decide) (by decide) (by decide) (by decide) (by decide) (by decide) (by decide) (by decide) (by decide) (by decide) (by decide) (by decide)

/-- Argument 10's buffer is the result of no operation. -/
theorem kept10 (V : Valuation τ sig (Elt F)) : after ops V (main_arg10 : DevRef τ sig) = V (main_arg10 : DevRef τ sig) :=
  after_ops_of_not_written V (by decide) (by decide) (by decide) (by decide) (by decide) (by decide) (by decide) (by decide) (by decide) (by decide) (by decide) (by decide) (by decide) (by decide) (by decide)

/-- Argument 11's buffer is the result of no operation. -/
theorem kept11 (V : Valuation τ sig (Elt F)) : after ops V (main_arg11 : DevRef τ sig) = V (main_arg11 : DevRef τ sig) :=
  after_ops_of_not_written V (by decide) (by decide) (by decide) (by decide) (by decide) (by decide) (by decide) (by decide) (by decide) (by decide) (by decide) (by decide) (by decide) (by decide) (by decide)

/-- Argument 12's buffer is the result of no operation. -/
theorem kept12 (V : Valuation τ sig (Elt F)) : after ops V (main_arg12 : DevRef τ sig) = V (main_arg12 : DevRef τ sig) :=
  after_ops_of_not_written V (by decide) (by decide) (by decide) (by decide) (by decide) (by decide) (by decide) (by decide) (by decide) (by decide) (by decide) (by decide) (by decide) (by decide) (by decide)

/-- Argument 13's buffer is the result of no operation. -/
theorem kept13 (V : Valuation τ sig (Elt F)) : after ops V (main_arg13 : DevRef τ sig) = V (main_arg13 : DevRef τ sig) :=
  after_ops_of_not_written V (by decide) (by decide) (by decide) (by decide) (by decide) (by decide) (by decide) (by decide) (by decide) (by decide) (by decide) (by decide) (by decide) (by decide) (by decide)

/-- Argument 14's buffer is the result of no operation. -/
theorem kept14 (V : Valuation τ sig (Elt F)) : after ops V (main_arg14 : DevRef τ sig) = V (main_arg14 : DevRef τ sig) :=
  after_ops_of_not_written V (by decide) (by decide) (by decide) (by decide) (by decide) (by decide) (by decide) (by decide) (by decide) (by decide) (by decide) (by decide) (by decide) (by decide) (by decide)

/-- Argument 15's buffer is the result of no operation. -/
theorem kept15 (V : Valuation τ sig (Elt F)) : after ops V (main_arg15 : DevRef τ sig) = V (main_arg15 : DevRef τ sig) :=
  after_ops_of_not_written V (by decide) (by decide) (by decide) (by decide) (by decide) (by decide) (by decide) (by decide) (by decide) (by decide) (by decide) (by decide) (by decide) (by decide) (by decide)

/-- Argument 16's buffer is the result of no operation. -/
theorem kept16 (V : Valuation τ sig (Elt F)) : after ops V (main_arg16 : DevRef τ sig) = V (main_arg16 : DevRef τ sig) :=
  after_ops_of_not_written V (by decide) (by decide) (by decide) (by decide) (by decide) (by decide) (by decide) (by decide) (by decide) (by decide) (by decide) (by decide) (by decide) (by decide) (by decide)

/-- Argument 17's buffer is the result of no operation. -/
theorem kept17 (V : Valuation τ sig (Elt F)) : after ops V (main_arg17 : DevRef τ sig) = V (main_arg17 : DevRef τ sig) :=
  after_ops_of_not_written V (by decide) (by decide) (by decide) (by decide) (by decide) (by decide) (by decide) (by decide) (by decide) (by decide) (by decide) (by decide) (by decide) (by decide) (by decide)

/-- Argument 18's buffer is the result of no operation. -/
theorem kept18 (V : Valuation τ sig (Elt F)) : after ops V (main_arg18 : DevRef τ sig) = V (main_arg18 : DevRef τ sig) :=
  after_ops_of_not_written V (by decide) (by decide) (by decide) (by decide) (by decide) (by decide) (by decide) (by decide) (by decide) (by decide) (by decide) (by decide) (by decide) (by decide) (by decide)

/-- Argument 19's buffer is the result of no operation. -/
theorem kept19 (V : Valuation τ sig (Elt F)) : after ops V (main_arg19 : DevRef τ sig) = V (main_arg19 : DevRef τ sig) :=
  after_ops_of_not_written V (by decide) (by decide) (by decide) (by decide) (by decide) (by decide) (by decide) (by decide) (by decide) (by decide) (by decide) (by decide) (by decide) (by decide) (by decide)

/-- Argument 20's buffer is the result of no operation. -/
theorem kept20 (V : Valuation τ sig (Elt F)) : after ops V (main_arg20 : DevRef τ sig) = V (main_arg20 : DevRef τ sig) :=
  after_ops_of_not_written V (by decide) (by decide) (by decide) (by decide) (by decide) (by decide) (by decide) (by decide) (by decide) (by decide) (by decide) (by decide) (by decide) (by decide) (by decide)

/-- Argument 21's buffer is the result of no operation. -/
theorem kept21 (V : Valuation τ sig (Elt F)) : after ops V (main_arg21 : DevRef τ sig) = V (main_arg21 : DevRef τ sig) :=
  after_ops_of_not_written V (by decide) (by decide) (by decide) (by decide) (by decide) (by decide) (by decide) (by decide) (by decide) (by decide) (by decide) (by decide) (by decide) (by decide) (by decide)

end Cert.ReferenceIdeal.RefRun

end
-- ==== Proof.BridgeDefs.lean ====
/-
  What it means for the kernel program's contents and the reference program's contents to agree at the start of a layer:
  the twenty-two argument arrays pairwise equal, and (after the first layer) the layer's input features and the table of
  original node ids equal as well.
-/
import proofs.«170918_j12352325943916_1_alg».proof.Proof.KerLayers
import proofs.«170918_j12352325943916_1_alg».proof.Proof.RefOps
import proofs.«170918_j12352325943916_1_alg».proof.Proof.EvalAfter
import Idealize.ShloMosaic.PureOps.Ideal

set_option maxHeartbeats 2000000

noncomputable section

namespace Cert.Bridge

open Idealize.ShloMosaic Idealize.ShloMosaic.TcCoe Idealize.SL.Sem Idealize.ShloMosaic.StableHlo

/-- Contents of the kernel program's buffers on one core, and of the reference program's. -/
abbrev KV := Valuation Cert.KernelIdeal.τ Cert.KernelIdeal.sig (Elt Ideal)
abbrev RV := Valuation Cert.ReferenceIdeal.τ Cert.ReferenceIdeal.sig (Elt Ideal)

/-- The argument arrays agree, argument 0 first. -/
def Args (W : KV) (V : RV) : Prop :=
  W (Proc.devRef .tc Cert.KernelIdeal.main_arg0) = V (Proc.devRef .tc Cert.ReferenceIdeal.main_arg0)
  ∧ W (Proc.devRef .tc Cert.KernelIdeal.main_arg1) = V (Proc.devRef .tc Cert.ReferenceIdeal.main_arg1)
  ∧ W (Proc.devRef .tc Cert.KernelIdeal.main_arg2) = V (Proc.devRef .tc Cert.ReferenceIdeal.main_arg2)
  ∧ W (Proc.devRef .tc Cert.KernelIdeal.main_arg3) = V (Proc.devRef .tc Cert.ReferenceIdeal.main_arg3)
  ∧ W (Proc.devRef .tc Cert.KernelIdeal.main_arg4) = V (Proc.devRef .tc Cert.ReferenceIdeal.main_arg4)
  ∧ W (Proc.devRef .tc Cert.KernelIdeal.main_arg5) = V (Proc.devRef .tc Cert.ReferenceIdeal.main_arg5)
  ∧ W (Proc.devRef .tc Cert.KernelIdeal.main_arg6) = V (Proc.devRef .tc Cert.ReferenceIdeal.main_arg6)
  ∧ W (Proc.devRef .tc Cert.KernelIdeal.main_arg7) = V (Proc.devRef .tc Cert.ReferenceIdeal.main_arg7)
  ∧ W (Proc.devRef .tc Cert.KernelIdeal.main_arg8) = V (Proc.devRef .tc Cert.ReferenceIdeal.main_arg8)
  ∧ W (Proc.devRef .tc Cert.KernelIdeal.main_arg9) = V (Proc.devRef .tc Cert.ReferenceIdeal.main_arg9)
  ∧ W (Proc.devRef .tc Cert.KernelIdeal.main_arg10) = V (Proc.devRef .tc Cert.ReferenceIdeal.main_arg10)
  ∧ W (Proc.devRef .tc Cert.KernelIdeal.main_arg11) = V (Proc.devRef .tc Cert.ReferenceIdeal.main_arg11)
  ∧ W (Proc.devRef .tc Cert.KernelIdeal.main_arg12) = V (Proc.devRef .tc Cert.ReferenceIdeal.main_arg12)
  ∧ W (Proc.devRef .tc Cert.KernelIdeal.main_arg13) = V (Proc.devRef .tc Cert.ReferenceIdeal.main_arg13)
  ∧ W (Proc.devRef .tc Cert.KernelIdeal.main_arg14) = V (Proc.devRef .tc Cert.ReferenceIdeal.main_arg14)
  ∧ W (Proc.devRef .tc Cert.KernelIdeal.main_arg15) = V (Proc.devRef .tc Cert.ReferenceIdeal.main_arg15)
  ∧ W (Proc.devRef .tc Cert.KernelIdeal.main_arg16) = V (Proc.devRef .tc Cert.ReferenceIdeal.main_arg16)
  ∧ W (Proc.devRef .tc Cert.KernelIdeal.main_arg17) = V (Proc.devRef .tc Cert.ReferenceIdeal.main_arg17)
  ∧ W (Proc.devRef .tc Cert.KernelIdeal.main_arg18) = V (Proc.devRef .tc Cert.ReferenceIdeal.main_arg18)
  ∧ W (Proc.devRef .tc Cert.KernelIdeal.main_arg19) = V (Proc.devRef .tc Cert.ReferenceIdeal.main_arg19)
  ∧ W (Proc.devRef .tc Cert.KernelIdeal.main_arg20) = V (Proc.devRef .tc Cert.ReferenceIdeal.main_arg20)
  ∧ W (Proc.devRef .tc Cert.KernelIdeal.main_arg21) = V (Proc.devRef .tc Cert.ReferenceIdeal.main_arg21)

/-- Agreement at the start of layer 1, 2, 3 and of the head: the features, the node ids, the arguments. -/
def Agree1 (W : KV) (V : RV) : Prop :=
  W (Proc.devRef .tc Cert.KernelIdeal.main_v112) = V (Proc.devRef .tc Cert.ReferenceIdeal.main_v128)
  ∧ W (Proc.devRef .tc Cert.KernelIdeal.main_v10) = V (Proc.devRef .tc Cert.ReferenceIdeal.main_v10)
  ∧ Args W V

def Agree2 (W : KV) (V : RV) : Prop :=
  W (Proc.devRef .tc Cert.KernelIdeal.main_v214) = V (Proc.devRef .tc Cert.ReferenceIdeal.main_v246)
  ∧ W (Proc.devRef .tc Cert.KernelIdeal.main_v10) = V (Proc.devRef .tc Cert.ReferenceIdeal.main_v10)
  ∧ Args W V

def Agree3 (W : KV) (V : RV) : Prop :=
  W (Proc.devRef .tc Cert.KernelIdeal.main_v316) = V (Proc.devRef .tc Cert.ReferenceIdeal.main_v364)
  ∧ W (Proc.devRef .tc Cert.KernelIdeal.main_v10) = V (Proc.devRef .tc Cert.ReferenceIdeal.main_v10)
  ∧ Args W V

def Agree4 (W : KV) (V : RV) : Prop :=
  W (Proc.devRef .tc Cert.KernelIdeal.main_v418) = V (Proc.devRef .tc Cert.ReferenceIdeal.main_v482)
  ∧ W (Proc.devRef .tc Cert.KernelIdeal.main_v10) = V (Proc.devRef .tc Cert.ReferenceIdeal.main_v10)
  ∧ Args W V

end Cert.Bridge

end
-- ==== Proof.RegTerms.lean ====
/-
  The three array expressions the kernel's regions are compared against, written with the reference program's own
  host operations, so that each can stand where the reference computes the same thing:
  * the graph-convolution's linear part  x·Wr + agg·Wn + b  over [262144, 128], the bias a one-row matrix repeated down the rows;
  * the normalised, recombined and rectified features  max(((lin − μ)·rsqrt(var + ε))·γ + β + h, 0),  the four statistics one-row
    matrices repeated down the rows, rsqrt taken on the one-row matrix;
  * the two-layer head  max(hg·W1 + b1, 0)·W2 + b2  over [16, 10].
-/
import proofs.«170918_j12352325943916_1_alg».proof.Proof.Gen.ReferenceIdeal
import Idealize.ShloMosaic.PureOps.Ideal

noncomputable section

namespace Cert.RegTerms

open Idealize.ShloMosaic Cert.ReferenceIdeal Cert.ReferenceIdeal.Gen

/-- A one-row matrix repeated down the 262144 rows. -/
abbrev rows (v : FVec Ideal S1x128 .f32) : FVec Ideal S262144x128 .f32 :=
  broadcastInDim S262144x128 ![0, 1] bcast_S1x128_S262144x128_0_1 v

/-- x·Wr + agg·Wn + b. -/
def linTerm (x agg : FVec Ideal S262144x128 .f32) (wr wn : FVec Ideal S128x128 .f32) (b2 : FVec Ideal S1x128 .f32) :
    FVec Ideal S262144x128 .f32 :=
  addf (addf (Host.dotGeneral (F := Ideal) dot_S262144x128_S128x128_S262144x128_1_0_0_1_n_n none x wr)
    (Host.dotGeneral (F := Ideal) dot_S262144x128_S128x128_S262144x128_1_0_0_1_n_n none agg wn)) (rows b2)

/-- max(((lin − μ)·rsqrt(var + ε))·γ + β + h, 0). -/
def normTerm (lin : FVec Ideal S262144x128 .f32) (mu2 var2 g2 b2 : FVec Ideal S1x128 .f32) (h : FVec Ideal S262144x128 .f32) :
    FVec Ideal S262144x128 .f32 :=
  maximumf (addf (addf (mulf (mulf (subf lin (rows mu2))
    (rows (Host.rsqrt (F := Ideal) (addf var2 (broadcastInDim S1x128 ![] bcast_S_S1x128 (constant (F := Ideal) S_ .f32 0x3727C5AC#32))))))
    (rows g2)) (rows b2)) h) (broadcastInDim S262144x128 ![] bcast_S_S262144x128 (constant (F := Ideal) S_ .f32 0x00000000#32))

/-- max(hg·W1 + b1, 0)·W2 + b2. -/
def mlpTerm (hg : FVec Ideal S16x128 .f32) (w1 : FVec Ideal S128x256 .f32) (b1 : FVec Ideal S1x256 .f32) (w2 : FVec Ideal S256x10 .f32)
    (b2 : FVec Ideal S1x10 .f32) : FVec Ideal S16x10 .f32 :=
  addf (Host.dotGeneral (F := Ideal) dot_S16x256_S256x10_S16x10_1_0_0_1_n_n none
    (maximumf (addf (Host.dotGeneral (F := Ideal) dot_S16x128_S128x256_S16x256_1_0_0_1_n_n none hg w1)
      (broadcastInDim S16x256 ![0, 1] bcast_S1x256_S16x256_0_1 b1))
      (broadcastInDim S16x256 ![] bcast_S_S16x256 (constant (F := Ideal) S_ .f32 0x00000000#32))) w2)
    (broadcastInDim S16x10 ![0, 1] bcast_S1x10_S16x10_0_1 b2)

end Cert.RegTerms

end
-- ==== Proof.RefShapes.lean ====
/-
  The regions' array expressions with every one-row matrix written as the broadcast of a vector, which is how the reference
  program writes them, and the pure facts that move between the two spellings:
  * the linear part and the head are the earlier expressions at row matrices that are broadcasts of vectors;
  * for the normalised features, rsqrt(var + ε) may be taken on the vector and then made a row, or on the row: entry
    (0, i) of either is rsqrt(var i + ε).
-/
import proofs.«170918_j12352325943916_1_alg».proof.Proof.RegTerms
import Idealize.ShloMosaic.Lib.Pipeline.Value
import Idealize.ShloMosaic.Lib.ValueIdx

noncomputable section

namespace Cert.RefShapes

open Idealize.ShloMosaic Idealize.ShloMosaic.ValueIdx Cert.ReferenceIdeal Cert.ReferenceIdeal.Gen Cert.RegTerms

/-- A vector of 128 as a one-row matrix. -/
abbrev row (v : FVec Ideal S128 .f32) : FVec Ideal S1x128 .f32 := broadcastInDim S1x128 ![1] bcast_S128_S1x128_1 v

/-- x·Wr + agg·Wn + b with the bias a vector. -/
def linRef (x agg : FVec Ideal S262144x128 .f32) (wr wn : FVec Ideal S128x128 .f32) (b : FVec Ideal S128 .f32) :
    FVec Ideal S262144x128 .f32 :=
  addf (addf (Host.dotGeneral (F := Ideal) dot_S262144x128_S128x128_S262144x128_1_0_0_1_n_n none x wr)
    (Host.dotGeneral (F := Ideal) dot_S262144x128_S128x128_S262144x128_1_0_0_1_n_n none agg wn)) (rows (row b))

theorem linTerm_row (x agg : FVec Ideal S262144x128 .f32) (wr wn : FVec Ideal S128x128 .f32) (b : FVec Ideal S128 .f32) :
    linTerm x agg wr wn (row b) = linRef x agg wr wn b := rfl

/-- max(((lin − μ)·rsqrt(var + ε))·γ + β + h, 0) with the statistics vectors, rsqrt taken on the vector. -/
def normRef (lin : FVec Ideal S262144x128 .f32) (mu var g be : FVec Ideal S128 .f32) (h : FVec Ideal S262144x128 .f32) :
    FVec Ideal S262144x128 .f32 :=
  maximumf (addf (addf (mulf (mulf (subf lin (rows (row mu)))
    (rows (row (Host.rsqrt (F := Ideal) (addf var (broadcastInDim S128 ![] bcast_S_S128 (constant (F := Ideal) S_ .f32 0x3727C5AC#32)))))))
    (rows (row g))) (rows (row be))) h) (broadcastInDim S262144x128 ![] bcast_S_S262144x128 (constant (F := Ideal) S_ .f32 0x00000000#32))

/-- Entry (0, i) of a vector made a row is entry i. -/
theorem row_apply (w : FVec Ideal S128 .f32) (u : Fin 1) (i : Fin 128) : row w (ix2 u i) = w (ix1 i) :=
  broadcastInDim_apply (![1] : Fin 1 → Fin 2) bcast_S128_S1x128_1 w (ix2 u i) (ix1 i) fun a => by
    match a with
    | ⟨0, _⟩ =>
      show i.val = if (128 : ℕ) = 1 then 0 else i.val
      rw [if_neg (by decide)]

/-- rsqrt(var + ε) on the row is the row of rsqrt(var + ε) on the vector. -/
theorem rsqrt_row (var : FVec Ideal S128 .f32) (e : FVec Ideal S_ .f32) :
    Host.rsqrt (F := Ideal) (addf (row var) (broadcastInDim S1x128 ![] bcast_S_S1x128 e))
      = row (Host.rsqrt (F := Ideal) (addf var (broadcastInDim S128 ![] bcast_S_S128 e))) := by
  funext j
  obtain ⟨u, i, rfl⟩ : ∃ (u : Fin 1) (i : Fin 128), j = ix2 u i := ⟨j 0, j 1, eq_ix2 j⟩
  have h1 : broadcastInDim S1x128 ![] bcast_S_S1x128 e (ix2 u i) = e ix0 :=
    broadcastInDim_apply (![] : Fin 0 → Fin 2) bcast_S_S1x128 e (ix2 u i) ix0 fun a => a.elim0
  have h2 : broadcastInDim S128 ![] bcast_S_S128 e (ix1 i) = e ix0 :=
    broadcastInDim_apply (![] : Fin 0 → Fin 1) bcast_S_S128 e (ix1 i) ix0 fun a => a.elim0
  rw [row_apply]
  show FloatOps.hostUnary .rsqrt (row var (ix2 u i) + broadcastInDim S1x128 ![] bcast_S_S1x128 e (ix2 u i))
    = FloatOps.hostUnary .rsqrt (var (ix1 i) + broadcastInDim S128 ![] bcast_S_S128 e (ix1 i))
  rw [row_apply, h1, h2]

theorem normTerm_row (lin : FVec Ideal S262144x128 .f32) (mu var g be : FVec Ideal S128 .f32) (h : FVec Ideal S262144x128 .f32) :
    normTerm lin (row mu) (row var) (row g) (row be) h = normRef lin mu var g be h := by
  unfold normTerm normRef
  rw [rsqrt_row]

/-- A vector of 256, of 10, as a one-row matrix. -/
abbrev row256 (v : FVec Ideal S256 .f32) : FVec Ideal S1x256 .f32 := broadcastInDim S1x256 ![1] bcast_S256_S1x256_1 v
abbrev row10 (v : FVec Ideal S10 .f32) : FVec Ideal S1x10 .f32 := broadcastInDim S1x10 ![1] bcast_S10_S1x10_1 v

end Cert.RefShapes

end
-- ==== Proof.LibLayout.lean ====
/-
  Two small facts about arrays.
  * A vector of length a made a one-row matrix [1, a]: by a shape cast, or by broadcasting it along the last axis — the
    same array, entry (0, i) being entry i of the vector.
  * On the extended reals x + 0 = x for every x, the infinities included; so adding an array that is 0 everywhere
    changes nothing.
-/
import Idealize.ShloMosaic.Lib.Pipeline.Value
import Idealize.ShloMosaic.Lib.ValueLayout
import Idealize.ShloMosaic.PureOps.Ideal.Laws

noncomputable section

namespace Cert.LibLayout

open Idealize.ShloMosaic Idealize.ShloMosaic.ValueIdx

/-- The one-row matrix of a vector, by a cast or by a broadcast. -/
theorem shapeCast_eq_broadcastInDim_row {α : Type} {a : ℕ} (x : (⟨1, ![a]⟩ : Shape).Idx → α)
    (h : (⟨1, ![a]⟩ : Shape).ShapeCasts ⟨2, ![1, a]⟩)
    (h' : (⟨1, ![a]⟩ : Shape).BroadcastsInDim ⟨2, ![1, a]⟩ (![1] : Fin 1 → Fin 2)) :
    shapeCast ⟨2, ![1, a]⟩ x h = broadcastInDim ⟨2, ![1, a]⟩ ![1] h' x := by
  funext j
  obtain ⟨u, i, rfl⟩ : ∃ (u : Fin 1) (i : Fin a), j = ix2 u i := ⟨j 0, j 1, eq_ix2 j⟩
  rw [shapeCast_a_1a_apply]
  refine (broadcastInDim_apply (![1] : Fin 1 → Fin 2) h' x (ix2 u i) (ix1 i) fun ax => ?_).symm
  match ax with
  | ⟨0, _⟩ =>
    show i.val = if a = 1 then 0 else i.val
    split
    · have := i.isLt; omega
    · rfl

/-- An array that is 0 everywhere. -/
def IsZero {s : Shape} (z : FVec Ideal s .f32) : Prop := ∀ j, z j = 0

/-- Adding an everywhere-zero array. -/
theorem addf_zero {s : Shape} (y z : FVec Ideal s .f32) (hz : IsZero z) : addf y z = y :=
  funext fun j => by rw [addf_apply, hz j, add_zero]

end Cert.LibLayout

end
-- ==== Proof.LibPlainDot.lean ====
/-
  A plain matrix product at the ideal values, read at an index.
  For the dimension numbers of an M×K by K×N product (`DotDims.plain M K N`: the left operand contracted on its last axis,
  the right on its first, no batch axis) both the kernel's `tpu.matmul` into a zero accumulator and the host's
  `dot_general` are, at the output index (a, b), the sum over k < K of l(a, k) · r(k, b) on the extended reals.
-/
import Idealize.ShloMosaic.PureOps.Ideal.Laws
import Idealize.ShloMosaic.Lib.ValueIdx

noncomputable section

namespace Cert.LibPlainDot

open Idealize.ShloMosaic Idealize.ShloMosaic.ValueIdx

variable (M K N : Nat)

/-- The left operand's row is the output's row. -/
theorem lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch by simp [DotDims.plain]),
    dif_pos (show (0 : Fin 2) ∈ (DotDims.plain M K N).lhsNonContracting by simp [DotDims.plain])]
  rfl

/-- The left operand's column is the contraction index. -/
theorem lhs1 (i : (⟨2, ![M, N]⟩ : Shape).Idx) (q : (DotDims.plain M K N).contr.Idx) :
    ((DotDims.plain M K N).lhsIdx i q 1).val = (q ⟨0, by rw [(DotDims.plain M K N).rank_contr]; exact Nat.one_pos⟩).val :=
  (DotDims.plain M K N).lhsIdx_val_of_single rfl i q

/-- The right operand's row is the contraction index. -/
theorem rhs0 (i : (⟨2, ![M, N]⟩ : Shape).Idx) (q : (DotDims.plain M K N).contr.Idx) :
    ((DotDims.plain M K N).rhsIdx i q 0).val = (q ⟨0, by rw [(DotDims.plain M K N).rank_contr]; exact Nat.one_pos⟩).val :=
  (DotDims.plain M K N).rhsIdx_val_of_single rfl i q

/-- The right operand's column is the output's column. -/
theorem rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch by simp [DotDims.plain]),
    dif_pos (show (1 : Fin 2) ∈ (DotDims.plain M K N).rhsNonContracting by simp [DotDims.plain])]
  rfl

/-- The contraction's sum, re-indexed by k < K. -/
theorem sum_plain {φ₁ φ₂ : FTy} (l : FVec Ideal ⟨2, ![M, K]⟩ φ₁) (r : FVec Ideal ⟨2, ![K, N]⟩ φ₂) (j : (⟨2, ![M, N]⟩ : Shape).Idx) :
    ∑ k : (DotDims.plain M K N).contr.Idx, l ((DotDims.plain M K N).lhsIdx j k) * r ((DotDims.plain M K N).rhsIdx j k)
      = ∑ k : Fin K, l (ix2 (j 0) k) * r (ix2 k (j 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhs0 M K N _ _
      | ⟨1, _⟩ => exact (lhs1 M K N _ _).trans hk)
  have er : (DotDims.plain M K N).rhsIdx j ((contrEquiv1 (DotDims.plain M K N) K rfl rfl).symm k) = ix2 k (j 1) :=
    funext fun a => Fin.ext (by
      match a with
      | ⟨0, _⟩ => exact (rhs0 M K N _ _).trans hk
      | ⟨1, _⟩ => exact rhs1 M K N _ _)
  exact congr (congrArg HMul.hMul (congrArg l el)) (congrArg r er)

/-- The kernel's product into a zero accumulator, at an index. -/
theorem matmul_plain {φ₁ φ₂ : FTy} (prec : Option ContractPrecision) (l : FVec Ideal ⟨2, ![M, K]⟩ φ₁) (r : FVec Ideal ⟨2, ![K, N]⟩ φ₂)
    (j : (⟨2, ![M, N]⟩ : Shape).Idx) :
    matmul (F := Ideal) (DotDims.plain M K N) prec l r (constant ⟨2, ![M, N]⟩ .f32 0x00000000#32) j
      = ∑ k : Fin K, l (ix2 (j 0) k) * r (ix2 k (j 1)) :=
  (Ideal.matmul_constant_zero_apply (DotDims.plain M K N) prec l r j).trans (sum_plain M K N l r j)

/-- The host's product, at an index. -/
theorem dotGeneral_plain {φ₁ φ₂ : FTy} (prec : Option ContractPrecision) (l : FVec Ideal ⟨2, ![M, K]⟩ φ₁) (r : FVec Ideal ⟨2, ![K, N]⟩ φ₂)
    (j : (⟨2, ![M, N]⟩ : Shape).Idx) :
    Host.dotGeneral (F := Ideal) (DotDims.plain M K N) prec l r j
      = ∑ k : Fin K, l (ix2 (j 0) k) * r (ix2 k (j 1)) :=
  (Ideal.dotGeneral_apply (DotDims.plain M K N) prec .single l r j).trans (sum_plain M K N l r j)

end Cert.LibPlainDot

end
-- ==== Proof.RegLinPoint.lean ====
/-
  The linear part of a graph-convolution layer, one row tile at a time.
  A row tile of 8192 rows of x and of agg, the two 128×128 weights and the one-row bias give the tile
      x_tile · Wr + agg_tile · Wn + b   (the bias row repeated down the tile's rows),
  each product a plain matrix product into a zero accumulator; the operands are rounded to bf16 on the way in, which on
  the extended reals changes nothing. Read at row p and column q of the tile this is
      ∑ k x_tile(p, k) · Wr(k, q) + ∑ k agg_tile(p, k) · Wn(k, q) + b(0, q).
  The whole-array expression  x · Wr + agg · Wn + b  over [262144, 128] read at row r and column q is the same sum with
  the rows of the whole arrays. So when row p of the two tiles is row r of the two arrays, the tile at (p, q) is the
  whole-array expression at (r, q). Stated for each of the four layers' tile payloads.
-/
import proofs.«170918_j12352325943916_1_alg».proof.Proof.Gen.KernelIdeal.Skeleton
import proofs.«170918_j12352325943916_1_alg».proof.Proof.RegTerms
import proofs.«170918_j12352325943916_1_alg».proof.Proof.LibPlainDot
import Idealize.ShloMosaic.Lib.Pipeline.Value

noncomputable section

namespace Cert.KernelIdeal.RegValue

open Idealize.ShloMosaic Idealize.ShloMosaic.ValueIdx Cert.KernelIdeal Cert.KernelIdeal.Gen

/-- The row tile's dimension numbers are those of an 8192×128 by 128×128 product. -/
theorem tileDims_eq : dot_S8192x128_S128x128_S8192x128_1_0_0_1_n_n = DotDims.plain 8192 128 128 := rfl

/-- The whole array's dimension numbers are those of a 262144×128 by 128×128 product. -/
theorem arrayDims_eq : Cert.ReferenceIdeal.dot_S262144x128_S128x128_S262144x128_1_0_0_1_n_n = DotDims.plain 262144 128 128 := rfl

/-- A row tile's product into a zero accumulator, at row p and column q: the sum over k of l(p, k) · r(k, q). -/
theorem tileDot_apply {φ₁ φ₂ : FTy} (l : FVec Ideal S8192x128 φ₁) (r : FVec Ideal S128x128 φ₂) (p : Fin 8192) (q : Fin 128) :
    matmul (F := Ideal) dot_S8192x128_S128x128_S8192x128_1_0_0_1_n_n none l r (constant (F := Ideal) S8192x128 .f32 0x00000000#32) (ix2 p q)
      = ∑ k : Fin 128, l (ix2 p k) * r (ix2 k q) := by
  rw [tileDims_eq]
  exact Cert.LibPlainDot.matmul_plain 8192 128 128 none l r (ix2 p q)

/-- The whole array's product, at row r and column q. -/
theorem arrayDot_apply (l : FVec Ideal S262144x128 .f32) (w : FVec Ideal S128x128 .f32) (r : Fin 262144) (q : Fin 128) :
    Host.dotGeneral (F := Ideal) Cert.ReferenceIdeal.dot_S262144x128_S128x128_S262144x128_1_0_0_1_n_n none l w (ix2 r q)
      = ∑ k : Fin 128, l (ix2 r k) * w (ix2 k q) := by
  rw [arrayDims_eq]
  exact Cert.LibPlainDot.dotGeneral_plain 262144 128 128 none l w (ix2 r q)

/-- A one-row matrix repeated down the rows of a tile reads its entry (0, q) at (p, q). -/
theorem tileRows_apply (v : FVec Ideal S1x128 .f32) (h : S1x128.Broadcasts S8192x128) (p : Fin 8192) (q : Fin 128) :
    broadcastTo S8192x128 v h (ix2 p q) = v (ix2 0 q) :=
  broadcastTo_apply v h (ix2 p q) (ix2 0 q) fun a => by
    match a with
    | ⟨0, _⟩ => rfl
    | ⟨1, _⟩ => rfl

/-- A one-row matrix repeated down the rows of the whole array reads its entry (0, q) at (r, q). -/
theorem arrayRows_apply (v : FVec Ideal S1x128 .f32) (r : Fin 262144) (q : Fin 128) :
    Cert.RegTerms.rows v (ix2 r q) = v (ix2 0 q) :=
  broadcastInDim_apply _ _ v (ix2 r q) (ix2 0 q) fun a => by
    match a with
    | ⟨0, _⟩ => rfl
    | ⟨1, _⟩ => rfl

/-- x·Wr + agg·Wn + b at row r and column q. -/
theorem linTerm_apply (X A : FVec Ideal S262144x128 .f32) (wr wn : FVec Ideal S128x128 .f32) (b2 : FVec Ideal S1x128 .f32)
    (r : Fin 262144) (q : Fin 128) :
    Cert.RegTerms.linTerm X A wr wn b2 (ix2 r q)
      = (∑ k : Fin 128, X (ix2 r k) * wr (ix2 k q)) + (∑ k : Fin 128, A (ix2 r k) * wn (ix2 k q)) + b2 (ix2 0 q) := by
  unfold Cert.RegTerms.linTerm
  rw [addf_apply, addf_apply, arrayDot_apply, arrayDot_apply, arrayRows_apply]

/-- Row p of the two tiles being row r of X and of A, the tile's closed form at (p, q) is x·Wr + agg·Wn + b at (r, q). -/
theorem rowsClosed_eq (x0 x1 : Vec Ideal S8192x128 .f32) (x2 x3 : Vec Ideal S128x128 .f32) (x4 : Vec Ideal S1x128 .f32)
    (X A : FVec Ideal S262144x128 .f32) (p : Fin 8192) (q : Fin 128) (r : Fin 262144)
    (h0 : ∀ k : Fin 128, x0 (ix2 p k) = X (ix2 r k)) (h1 : ∀ k : Fin 128, x1 (ix2 p k) = A (ix2 r k)) :
    (∑ k : Fin 128, x0 (ix2 p k) * x2 (ix2 k q)) + (∑ k : Fin 128, x1 (ix2 p k) * x3 (ix2 k q)) + x4 (ix2 0 q)
      = Cert.RegTerms.linTerm X A x2 x3 x4 (ix2 r q) := by
  rw [linTerm_apply]
  refine congr (congrArg HAdd.hAdd (congr (congrArg HAdd.hAdd ?_) ?_)) rfl
  · exact Finset.sum_congr rfl fun k _ => by rw [h0 k]
  · exact Finset.sum_congr rfl fun k _ => by rw [h1 k]

/-- The tile payload of the linear kernel of region 0, at row p and column q of the tile. -/
theorem pay0_apply (x0 x1 : Vec Ideal S8192x128 .f32) (x2 x3 : Vec Ideal S128x128 .f32) (x4 : Vec Ideal S1x128 .f32)
    (p : Fin 8192) (q : Fin 128) :
    k0_pay1 (F := Ideal) x0 x1 x2 x3 x4 (ix2 p q)
      = (∑ k : Fin 128, x0 (ix2 p k) * x2 (ix2 k q)) + (∑ k : Fin 128, x1 (ix2 p k) * x3 (ix2 k q)) + x4 (ix2 0 q) := by
  unfold k0_pay1
  simp only [shapeCast_self]
  refine congr (congrArg HAdd.hAdd (congr (congrArg HAdd.hAdd ?_) ?_)) ?_
  · exact tileDot_apply _ _ p q
  · exact tileDot_apply _ _ p q
  · exact tileRows_apply _ _ p q

/-- Region 0: when the two row tiles hold, on the tile row of j, the rows of X and A at the array row of i, and the two
    weight tiles and the bias tile are the whole weights and bias row, the payload at j is x·Wr + agg·Wn + b at i (same column). -/
theorem pay0_eq_linTerm (x0 x1 : Vec Ideal S8192x128 .f32) (x2 x3 : Vec Ideal S128x128 .f32) (x4 : Vec Ideal S1x128 .f32)
    (X A : FVec Ideal S262144x128 .f32) (wr wn : FVec Ideal S128x128 .f32) (b2 : FVec Ideal S1x128 .f32)
    (j : S8192x128.Idx) (i : S262144x128.Idx) (hcol : (i 1).val = (j 1).val)
    (h0 : ∀ (y : S8192x128.Idx) (z : S262144x128.Idx), (y 0).val = (j 0).val → (z 0).val = (i 0).val → (z 1).val = (y 1).val → x0 y = X z)
    (h1 : ∀ (y : S8192x128.Idx) (z : S262144x128.Idx), (y 0).val = (j 0).val → (z 0).val = (i 0).val → (z 1).val = (y 1).val → x1 y = A z)
    (h2 : x2 = wr) (h3 : x3 = wn) (h4 : x4 = b2) :
    k0_pay1 (F := Ideal) x0 x1 x2 x3 x4 j = Cert.RegTerms.linTerm X A wr wn b2 i := by
  subst h2 h3 h4
  obtain ⟨p, q, rfl⟩ : ∃ (p : Fin 8192) (q : Fin 128), j = ix2 p q := ⟨j 0, j 1, eq_ix2 j⟩
  obtain ⟨r, q', rfl⟩ : ∃ (r : Fin 262144) (q' : Fin 128), i = ix2 r q' := ⟨i 0, i 1, eq_ix2 i⟩
  obtain rfl : q' = q := Fin.ext hcol
  rw [pay0_apply]
  exact rowsClosed_eq x0 x1 x2 x3 x4 X A p q' r (fun k => h0 _ _ rfl rfl rfl) (fun k => h1 _ _ rfl rfl rfl)

/-- The tile payload of the linear kernel of region 2, at row p and column q of the tile. -/
theorem pay2_apply (x0 x1 : Vec Ideal S8192x128 .f32) (x2 x3 : Vec Ideal S128x128 .f32) (x4 : Vec Ideal S1x128 .f32)
    (p : Fin 8192) (q : Fin 128) :
    k2_pay1 (F := Ideal) x0 x1 x2 x3 x4 (ix2 p q)
      = (∑ k : Fin 128, x0 (ix2 p k) * x2 (ix2 k q)) + (∑ k : Fin 128, x1 (ix2 p k) * x3 (ix2 k q)) + x4 (ix2 0 q) := by
  unfold k2_pay1
  simp only [shapeCast_self]
  refine congr (congrArg HAdd.hAdd (congr (congrArg HAdd.hAdd ?_) ?_)) ?_
  · exact tileDot_apply _ _ p q
  · exact tileDot_apply _ _ p q
  · exact tileRows_apply _ _ p q

/-- Region 2: when the two row tiles hold, on the tile row of j, the rows of X and A at the array row of i, and the two
    weight tiles and the bias tile are the whole weights and bias row, the payload at j is x·Wr + agg·Wn + b at i (same column). -/
theorem pay2_eq_linTerm (x0 x1 : Vec Ideal S8192x128 .f32) (x2 x3 : Vec Ideal S128x128 .f32) (x4 : Vec Ideal S1x128 .f32)
    (X A : FVec Ideal S262144x128 .f32) (wr wn : FVec Ideal S128x128 .f32) (b2 : FVec Ideal S1x128 .f32)
    (j : S8192x128.Idx) (i : S262144x128.Idx) (hcol : (i 1).val = (j 1).val)
    (h0 : ∀ (y : S8192x128.Idx) (z : S262144x128.Idx), (y 0).val = (j 0).val → (z 0).val = (i 0).val → (z 1).val = (y 1).val → x0 y = X z)
    (h1 : ∀ (y : S8192x128.Idx) (z : S262144x128.Idx), (y 0).val = (j 0).val → (z 0).val = (i 0).val → (z 1).val = (y 1).val → x1 y = A z)
    (h2 : x2 = wr) (h3 : x3 = wn) (h4 : x4 = b2) :
    k2_pay1 (F := Ideal) x0 x1 x2 x3 x4 j = Cert.RegTerms.linTerm X A wr wn b2 i := by
  subst h2 h3 h4
  obtain ⟨p, q, rfl⟩ : ∃ (p : Fin 8192) (q : Fin 128), j = ix2 p q := ⟨j 0, j 1, eq_ix2 j⟩
  obtain ⟨r, q', rfl⟩ : ∃ (r : Fin 262144) (q' : Fin 128), i = ix2 r q' := ⟨i 0, i 1, eq_ix2 i⟩
  obtain rfl : q' = q := Fin.ext hcol
  rw [pay2_apply]
  exact rowsClosed_eq x0 x1 x2 x3 x4 X A p q' r (fun k => h0 _ _ rfl rfl rfl) (fun k => h1 _ _ rfl rfl rfl)

/-- The tile payload of the linear kernel of region 4, at row p and column q of the tile. -/
theorem pay4_apply (x0 x1 : Vec Ideal S8192x128 .f32) (x2 x3 : Vec Ideal S128x128 .f32) (x4 : Vec Ideal S1x128 .f32)
    (p : Fin 8192) (q : Fin 128) :
    k4_pay1 (F := Ideal) x0 x1 x2 x3 x4 (ix2 p q)
      = (∑ k : Fin 128, x0 (ix2 p k) * x2 (ix2 k q)) + (∑ k : Fin 128, x1 (ix2 p k) * x3 (ix2 k q)) + x4 (ix2 0 q) := by
  unfold k4_pay1
  simp only [shapeCast_self]
  refine congr (congrArg HAdd.hAdd (congr (congrArg HAdd.hAdd ?_) ?_)) ?_
  · exact tileDot_apply _ _ p q
  · exact tileDot_apply _ _ p q
  · exact tileRows_apply _ _ p q

/-- Region 4: when the two row tiles hold, on the tile row of j, the rows of X and A at the array row of i, and the two
    weight tiles and the bias tile are the whole weights and bias row, the payload at j is x·Wr + agg·Wn + b at i (same column). -/
theorem pay4_eq_linTerm (x0 x1 : Vec Ideal S8192x128 .f32) (x2 x3 : Vec Ideal S128x128 .f32) (x4 : Vec Ideal S1x128 .f32)
    (X A : FVec Ideal S262144x128 .f32) (wr wn : FVec Ideal S128x128 .f32) (b2 : FVec Ideal S1x128 .f32)
    (j : S8192x128.Idx) (i : S262144x128.Idx) (hcol : (i 1).val = (j 1).val)
    (h0 : ∀ (y : S8192x128.Idx) (z : S262144x128.Idx), (y 0).val = (j 0).val → (z 0).val = (i 0).val → (z 1).val = (y 1).val → x0 y = X z)
    (h1 : ∀ (y : S8192x128.Idx) (z : S262144x128.Idx), (y 0).val = (j 0).val → (z 0).val = (i 0).val → (z 1).val = (y 1).val → x1 y = A z)
    (h2 : x2 = wr) (h3 : x3 = wn) (h4 : x4 = b2) :
    k4_pay1 (F := Ideal) x0 x1 x2 x3 x4 j = Cert.RegTerms.linTerm X A wr wn b2 i := by
  subst h2 h3 h4
  obtain ⟨p, q, rfl⟩ : ∃ (p : Fin 8192) (q : Fin 128), j = ix2 p q := ⟨j 0, j 1, eq_ix2 j⟩
  obtain ⟨r, q', rfl⟩ : ∃ (r : Fin 262144) (q' : Fin 128), i = ix2 r q' := ⟨i 0, i 1, eq_ix2 i⟩
  obtain rfl : q' = q := Fin.ext hcol
  rw [pay4_apply]
  exact rowsClosed_eq x0 x1 x2 x3 x4 X A p q' r (fun k => h0 _ _ rfl rfl rfl) (fun k => h1 _ _ rfl rfl rfl)

/-- The tile payload of the linear kernel of region 6, at row p and column q of the tile. -/
theorem pay6_apply (x0 x1 : Vec Ideal S8192x128 .f32) (x2 x3 : Vec Ideal S128x128 .f32) (x4 : Vec Ideal S1x128 .f32)
    (p : Fin 8192) (q : Fin 128) :
    k6_pay1 (F := Ideal) x0 x1 x2 x3 x4 (ix2 p q)
      = (∑ k : Fin 128, x0 (ix2 p k) * x2 (ix2 k q)) + (∑ k : Fin 128, x1 (ix2 p k) * x3 (ix2 k q)) + x4 (ix2 0 q) := by
  unfold k6_pay1
  simp only [shapeCast_self]
  refine congr (congrArg HAdd.hAdd (congr (congrArg HAdd.hAdd ?_) ?_)) ?_
  · exact tileDot_apply _ _ p q
  · exact tileDot_apply _ _ p q
  · exact tileRows_apply _ _ p q

/-- Region 6: when the two row tiles hold, on the tile row of j, the rows of X and A at the array row of i, and the two
    weight tiles and the bias tile are the whole weights and bias row, the payload at j is x·Wr + agg·Wn + b at i (same column). -/
theorem pay6_eq_linTerm (x0 x1 : Vec Ideal S8192x128 .f32) (x2 x3 : Vec Ideal S128x128 .f32) (x4 : Vec Ideal S1x128 .f32)
    (X A : FVec Ideal S262144x128 .f32) (wr wn : FVec Ideal S128x128 .f32) (b2 : FVec Ideal S1x128 .f32)
    (j : S8192x128.Idx) (i : S262144x128.Idx) (hcol : (i 1).val = (j 1).val)
    (h0 : ∀ (y : S8192x128.Idx) (z : S262144x128.Idx), (y 0).val = (j 0).val → (z 0).val = (i 0).val → (z 1).val = (y 1).val → x0 y = X z)
    (h1 : ∀ (y : S8192x128.Idx) (z : S262144x128.Idx), (y 0).val = (j 0).val → (z 0).val = (i 0).val → (z 1).val = (y 1).val → x1 y = A z)
    (h2 : x2 = wr) (h3 : x3 = wn) (h4 : x4 = b2) :
    k6_pay1 (F := Ideal) x0 x1 x2 x3 x4 j = Cert.RegTerms.linTerm X A wr wn b2 i := by
  subst h2 h3 h4
  obtain ⟨p, q, rfl⟩ : ∃ (p : Fin 8192) (q : Fin 128), j = ix2 p q := ⟨j 0, j 1, eq_ix2 j⟩
  obtain ⟨r, q', rfl⟩ : ∃ (r : Fin 262144) (q' : Fin 128), i = ix2 r q' := ⟨i 0, i 1, eq_ix2 i⟩
  obtain rfl : q' = q := Fin.ext hcol
  rw [pay6_apply]
  exact rowsClosed_eq x0 x1 x2 x3 x4 X A p q' r (fun k => h0 _ _ rfl rfl rfl) (fun k => h1 _ _ rfl rfl rfl)

end Cert.KernelIdeal.RegValue

end
-- ==== Proof.RegLin0.lean ====
/-
  What the first layer's linear kernel leaves in its output array.
  The kernel runs over 32 row tiles of 8192 rows. At tile t it reads rows 8192·t … 8192·t + 8191 of x and of agg, the
  whole of the two 128×128 weights and of the one-row bias, and writes rows 8192·t … 8192·t + 8191 of the output with
      x_tile · Wr + agg_tile · Wn + b.
  Row r of the output lies in tile r / 8192, and there it is row r of  x · Wr + agg · Wn + b  taken over the whole
  arrays (the tile's row p is the arrays' row 8192·t + p). The 32 tiles cover the 262144 rows, so the output array ends
  holding  x · Wr + agg · Wn + b.
-/
import proofs.«170918_j12352325943916_1_alg».proof.Proof.FrameKI
import proofs.«170918_j12352325943916_1_alg».proof.Proof.RegLinPoint
import Idealize.ShloMosaic.Lib.Pipeline.Value

noncomputable section

namespace Cert.KernelIdeal.RegValue

open Cert.KernelIdeal Cert.KernelIdeal.Gen Cert.KernelIdeal.GenP Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- The zero offsets of a whole-tile access. -/
theorem zeroOffsets0 : (![0, 0] : Fin 2 → Nat) = fun _ => 0 := funext fun a => by fin_cases a <;> rfl

/-- The tiles' block indices at grid point t: the two row-tiled inputs and the output are at block (t, 0), the weights
    and the bias row at block (0, 0). -/
theorem blockIndices0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- What grid point t writes back is tile t of  x · Wr + agg · Wn + b  over the whole arrays. -/
theorem written0_eq (c : Dev nD) (t : Fin cfg0.N) :
    (dat0 (F := Ideal) V c).flushed 5 t
      = ((cfg0.win 5).blk t).view.read (Elt Ideal) (Cert.RegTerms.linTerm (V c main_arg0) (V c main_v24) (V c main_v26) (V c main_v28) (V c main_v31)) := by
  show (cfg0.win 5).cut (grid0.coords t) ((dat0 (F := Ideal) V c).after 5 t) = _
  rw [after0_5]
  unfold out0_5
  rw [View.canon_unit_zero zeroOffsets0]
  simp only [View.ld_unit_zero (S := S8192x128) zeroOffsets0, View.ld_unit_zero (S := S128x128) zeroOffsets0,
    View.ld_unit_zero (S := S1x128) zeroOffsets0]
  obtain ⟨e00, e01, e10, e11, e20, e21, e30, e31, e40, e41, e50, e51⟩ := blockIndices0 t
  funext j
  show k0_pay1 (F := Ideal) (iblk0 V c 0 t) (iblk0 V c 1 t) (iblk0 V c 2 t) (iblk0 V c 3 t) (iblk0 V c 4 t) j
    = (Cert.RegTerms.linTerm (V c main_arg0) (V c main_v24) (V c main_v26) (V c main_v28) (V c main_v31)) (((cfg0.win 5).blk t).view.emb j)
  refine pay0_eq_linTerm (iblk0 V c 0 t) (iblk0 V c 1 t) (iblk0 V c 2 t) (iblk0 V c 3 t) (iblk0 V c 4 t)
    (V c main_arg0) (V c main_v24) (V c main_v26) (V c main_v28) (V c main_v31) j (((cfg0.win 5).blk t).view.emb j) ?_ ?_ ?_ ?_ ?_ ?_
  · show win0_5.index t (1 : Fin 2) * 128 + 1 * (j 1).val = (j 1).val
    omega
  ·
    intro y z hy hz0 hz1
    show V c main_arg0 (((cfg0.win 0).blk t).view.emb y) = V c main_arg0 z
    refine congrArg (V c main_arg0) (funext fun a => Fin.ext ?_)
    match a with
    | ⟨0, _⟩ =>
      show win0_0.index t (0 : Fin 2) * 8192 + 1 * (y 0).val = (z 0).val
      rw [hz0, hy]
      show _ = win0_5.index t (0 : Fin 2) * 8192 + 1 * (j 0).val
      omega
    | ⟨1, _⟩ =>
      show win0_0.index t (1 : Fin 2) * 128 + 1 * (y 1).val = (z 1).val
      rw [hz1]
      omega
  ·
    intro y z hy hz0 hz1
    show V c main_v24 (((cfg0.win 1).blk t).view.emb y) = V c main_v24 z
    refine congrArg (V c main_v24) (funext fun a => Fin.ext ?_)
    match a with
    | ⟨0, _⟩ =>
      show win0_1.index t (0 : Fin 2) * 8192 + 1 * (y 0).val = (z 0).val
      rw [hz0, hy]
      show _ = win0_5.index t (0 : Fin 2) * 8192 + 1 * (j 0).val
      omega
    | ⟨1, _⟩ =>
      show win0_1.index t (1 : Fin 2) * 128 + 1 * (y 1).val = (z 1).val
      rw [hz1]
      omega
  ·
    funext y
    show V c main_v26 (((cfg0.win 2).blk t).view.emb y) = V c main_v26 y
    refine congrArg (V c main_v26) (funext fun a => Fin.ext ?_)
    match a with
    | ⟨0, _⟩ =>
      show win0_2.index t (0 : Fin 2) * 128 + 1 * (y 0).val = (y 0).val
      omega
    | ⟨1, _⟩ =>
      show win0_2.index t (1 : Fin 2) * 128 + 1 * (y 1).val = (y 1).val
      omega
  ·
    funext y
    show V c main_v28 (((cfg0.win 3).blk t).view.emb y) = V c main_v28 y
    refine congrArg (V c main_v28) (funext fun a => Fin.ext ?_)
    match a with
    | ⟨0, _⟩ =>
      show win0_3.index t (0 : Fin 2) * 128 + 1 * (y 0).val = (y 0).val
      omega
    | ⟨1, _⟩ =>
      show win0_3.index t (1 : Fin 2) * 128 + 1 * (y 1).val = (y 1).val
      omega
  ·
    funext y
    show V c main_v31 (((cfg0.win 4).blk t).view.emb y) = V c main_v31 y
    refine congrArg (V c main_v31) (funext fun a => Fin.ext ?_)
    match a with
    | ⟨0, _⟩ =>
      show win0_4.index t (0 : Fin 2) * 1 + 1 * (y 0).val = (y 0).val
      omega
    | ⟨1, _⟩ =>
      show win0_4.index t (1 : Fin 2) * 128 + 1 * (y 1).val = (y 1).val
      omega

/-- An index of the output array is in tile t iff each coordinate is in the tile's range on its axis. -/
theorem mem_tile0 (t : Fin cfg0.N) (i : S262144x128.Idx) :
    i ∈ ((cfg0.win 5).blk t).view.set
      ↔ ∀ a : Fin 2, win0_5.index t a * S8192x128.size a ≤ (i a).val ∧ (i a).val < win0_5.index t a * S8192x128.size a + S8192x128.size a := by
  show i ∈ ((View.whole main_v32).slice (win0_5.rect t)).set ↔ _
  rw [View.set_slice_whole, Rect.mem_set_unit]
  exact Iff.rfl

/-- Row r of the output array lies in tile r / 8192. -/
theorem tiles_cover0 (i : S262144x128.Idx) :
    ∃ t : Fin cfg0.N, (cfg0.win 5).flush t = true ∧ i ∈ ((cfg0.win 5).blk t).view.set := by
  have hi0 : (i 0).val < 262144 := (i 0).isLt
  have hi1 : (i 1).val < 128 := (i 1).isLt
  have hN : cfg0.N = 32 := N_0
  have ht : (i 0).val / 8192 < cfg0.N := by rw [hN]; omega
  obtain ⟨e00, e01, e10, e11, e20, e21, e30, e31, e40, e41, e50, e51⟩ := blockIndices0 ⟨(i 0).val / 8192, ht⟩
  refine ⟨⟨(i 0).val / 8192, ht⟩, flush0_5 _, ?_⟩
  rw [mem_tile0]
  intro a
  match a with
  | ⟨0, _⟩ =>
    show win0_5.index ⟨(i 0).val / 8192, ht⟩ (0 : Fin 2) * 8192 ≤ (i 0).val
      ∧ (i 0).val < win0_5.index ⟨(i 0).val / 8192, ht⟩ (0 : Fin 2) * 8192 + 8192
    rw [e50]
    show (i 0).val / 8192 * 8192 ≤ (i 0).val ∧ (i 0).val < (i 0).val / 8192 * 8192 + 8192
    omega
  | ⟨1, _⟩ =>
    show win0_5.index ⟨(i 0).val / 8192, ht⟩ (1 : Fin 2) * 128 ≤ (i 1).val
      ∧ (i 1).val < win0_5.index ⟨(i 0).val / 8192, ht⟩ (1 : Fin 2) * 128 + 128
    rw [e51]
    omega

/-- The first layer's linear kernel leaves  x · Wr + agg · Wn + b  in its output array. -/
theorem lin0 (c : Dev nD) :
    (dat0 (F := Ideal) V c).arrAt 5 cfg0.N
      = Cert.RegTerms.linTerm (V c main_arg0) (V c main_v24) (V c main_v26) (V c main_v28) (V c main_v31) :=
  (dat0 (F := Ideal) V c).arrAt_eq_of_cover 5 (Cert.RegTerms.linTerm (V c main_arg0) (V c main_v24) (V c main_v26) (V c main_v28) (V c main_v31))
    (fun t _ => written0_eq V c t) tiles_cover0

end Cert.KernelIdeal.RegValue

end
-- ==== Proof.RegRows.lean ====
/-
  A one-row matrix repeated down the rows of an m × n matrix. The kernel writes it as a vector broadcast of the [1, n]
  value to [m, n], the host as a broadcast along both axes; either way the entry at (r, t) is the row's entry at (0, t),
  so the two arrays are one.
-/
import Idealize.ShloMosaic.Lib.KernelVsHost

noncomputable section

namespace Cert.KernelIdeal.RegValue

open Idealize.ShloMosaic Idealize.ShloMosaic.ValueIdx

/-- The zero offsets of a whole-tile access, as the constant function. -/
theorem zero_offsets : (![0, 0] : Fin 2 → Nat) = fun _ => 0 := funext fun a => by fin_cases a <;> rfl

/-- The vector broadcast of a one-row matrix, read at (r, t), is the row at (0, t). -/
theorem broadcastTo_oneRow_apply {α : Type} {m n : Nat} (hb : (⟨2, ![1, n]⟩ : Shape).Broadcasts ⟨2, ![m, n]⟩)
    (y : (⟨2, ![1, n]⟩ : Shape).Idx → α) (r : Fin m) (t : Fin n) :
    broadcastTo ⟨2, ![m, n]⟩ y hb (ix2 r t) = y (ix2 (0 : Fin 1) t) := by
  refine broadcastTo_apply y hb (ix2 r t) (ix2 (0 : Fin 1) t) ?_
  intro a
  match a with
  | ⟨0, _⟩ => rfl
  | ⟨1, _⟩ =>
    show t.val = if n = 1 then 0 else t.val
    split_ifs with hn
    · have := t.isLt; omega
    · rfl

/-- The vector broadcast of a one-row matrix and its broadcast along both axes are one array. -/
theorem broadcastTo_oneRow_eq_broadcastInDim {α : Type} {m n : Nat} (hb : (⟨2, ![1, n]⟩ : Shape).Broadcasts ⟨2, ![m, n]⟩)
    (hbc : (⟨2, ![1, n]⟩ : Shape).BroadcastsInDim ⟨2, ![m, n]⟩ ![0, 1]) (y : (⟨2, ![1, n]⟩ : Shape).Idx → α) :
    broadcastTo ⟨2, ![m, n]⟩ y hb = broadcastInDim ⟨2, ![m, n]⟩ ![0, 1] hbc y := by
  funext j
  obtain ⟨r, t, rfl⟩ : ∃ (r : Fin m) (t : Fin n), j = ix2 r t := ⟨j 0, j 1, eq_ix2 j⟩
  rw [broadcastTo_oneRow_apply, broadcastInDim_oneRow_apply]

end Cert.KernelIdeal.RegValue

end
-- ==== Proof.RegNormPoint.lean ====
/-
  The normalise-and-recombine regions, one entry at a time.
  At row r, column col of a tile the stored value is  max(((a − μ)·rsqrt(v + ε))·γ + β + h, 0)  with a and h the tile's
  entries at (r, col) and μ, v, γ, β the one-row statistics' entries at (0, col); the whole-array term read at (R, col) is
  the same expression of the arrays' entries at (R, col) and of the statistics' entries at (0, col). ε and 0 stay the
  words they are written as; rsqrt is the extended reals' on both sides.
-/
import proofs.«170918_j12352325943916_1_alg».proof.Proof.Gen.KernelIdeal.Skeleton
import proofs.«170918_j12352325943916_1_alg».proof.Proof.RegTerms
import proofs.«170918_j12352325943916_1_alg».proof.Proof.RegRows

noncomputable section

namespace Cert.KernelIdeal.RegValue

open Cert.KernelIdeal Cert.KernelIdeal.Gen Idealize.ShloMosaic Idealize.ShloMosaic.ValueIdx

/-- The normalise-and-recombine arithmetic on one entry: max(((a − μ)·rsqrt(v + ε))·γ + β + h, 0). -/
def normEntry (a mu var g b h : EReal) : EReal :=
  max ((((a - mu) * Ideal.rsqrt (var + Ideal.ofBits .f32 0x3727C5AC#32)) * g + b) + h) (Ideal.ofBits .f32 0x00000000#32)

/-- The one-row matrix repeated down the 262144 rows, read at (R, col), is the row at (0, col). -/
theorem rows_apply (v : FVec Ideal Cert.ReferenceIdeal.S1x128 .f32) (R : Fin 262144) (col : Fin 128) :
    Cert.RegTerms.rows v (ix2 R col) = v (ix2 0 col) :=
  broadcastInDim_oneRow_apply Cert.ReferenceIdeal.Gen.bcast_S1x128_S262144x128_0_1 v R col

/-- The whole-array term at row R, column col. -/
theorem normTerm_apply (lin : FVec Ideal Cert.ReferenceIdeal.S262144x128 .f32) (mu2 var2 g2 b2 : FVec Ideal Cert.ReferenceIdeal.S1x128 .f32)
    (h : FVec Ideal Cert.ReferenceIdeal.S262144x128 .f32) (R : Fin 262144) (col : Fin 128) :
    Cert.RegTerms.normTerm lin mu2 var2 g2 b2 h (ix2 R col)
      = normEntry (lin (ix2 R col)) (mu2 (ix2 0 col)) (var2 (ix2 0 col)) (g2 (ix2 0 col)) (b2 (ix2 0 col)) (h (ix2 R col)) := by
  unfold Cert.RegTerms.normTerm
  simp only [maximumf_apply, addf_apply, mulf_apply, subf_apply]
  rw [rows_apply mu2 R col, rows_apply g2 R col, rows_apply b2 R col, rows_apply _ R col]
  rfl

/-- Region 1's stored value at row r, column col of a tile. -/
theorem k1_pay1_apply (x0 : Vec Ideal S8192x128 .f32) (x1 x2 x3 x4 : Vec Ideal S1x128 .f32) (x5 : Vec Ideal S8192x128 .f32)
    (r : Fin 8192) (col : Fin 128) :
    k1_pay1 (F := Ideal) x0 x1 x2 x3 x4 x5 (ix2 r col)
      = normEntry (x0 (ix2 r col)) (x1 (ix2 0 col)) (x2 (ix2 0 col)) (x3 (ix2 0 col)) (x4 (ix2 0 col)) (x5 (ix2 r col)) := by
  unfold k1_pay1
  simp only [shapeCast_self]
  simp only [maximumf_apply, addf_apply, mulf_apply, subf_apply, broadcast_apply]
  rw [broadcastTo_oneRow_apply broadcasts_S1x128_S8192x128 x1 r col, broadcastTo_oneRow_apply broadcasts_S1x128_S8192x128 x3 r col,
    broadcastTo_oneRow_apply broadcasts_S1x128_S8192x128 x4 r col, broadcastTo_oneRow_apply broadcasts_S1x128_S8192x128 _ r col]
  rfl

/-- A tile entry of region 1 is the term's entry, once the tile's six reads are the arrays' entries. -/
theorem norm_point1 (x0 : Vec Ideal S8192x128 .f32) (x1 x2 x3 x4 : Vec Ideal S1x128 .f32) (x5 : Vec Ideal S8192x128 .f32)
    (lin : FVec Ideal Cert.ReferenceIdeal.S262144x128 .f32) (mu2 var2 g2 b2 : FVec Ideal Cert.ReferenceIdeal.S1x128 .f32)
    (h : FVec Ideal Cert.ReferenceIdeal.S262144x128 .f32) (r : Fin 8192) (col : Fin 128) (R : Fin 262144)
    (h0 : x0 (ix2 r col) = lin (ix2 R col)) (h1 : x1 (ix2 0 col) = mu2 (ix2 0 col)) (h2 : x2 (ix2 0 col) = var2 (ix2 0 col))
    (h3 : x3 (ix2 0 col) = g2 (ix2 0 col)) (h4 : x4 (ix2 0 col) = b2 (ix2 0 col)) (h5 : x5 (ix2 r col) = h (ix2 R col)) :
    k1_pay1 (F := Ideal) x0 x1 x2 x3 x4 x5 (ix2 r col) = Cert.RegTerms.normTerm lin mu2 var2 g2 b2 h (ix2 R col) := by
  rw [k1_pay1_apply, normTerm_apply, h0, h1, h2, h3, h4, h5]

/-- Region 3's stored value at row r, column col of a tile. -/
theorem k3_pay1_apply (x0 : Vec Ideal S8192x128 .f32) (x1 x2 x3 x4 : Vec Ideal S1x128 .f32) (x5 : Vec Ideal S8192x128 .f32)
    (r : Fin 8192) (col : Fin 128) :
    k3_pay1 (F := Ideal) x0 x1 x2 x3 x4 x5 (ix2 r col)
      = normEntry (x0 (ix2 r col)) (x1 (ix2 0 col)) (x2 (ix2 0 col)) (x3 (ix2 0 col)) (x4 (ix2 0 col)) (x5 (ix2 r col)) := by
  unfold k3_pay1
  simp only [shapeCast_self]
  simp only [maximumf_apply, addf_apply, mulf_apply, subf_apply, broadcast_apply]
  rw [broadcastTo_oneRow_apply broadcasts_S1x128_S8192x128 x1 r col, broadcastTo_oneRow_apply broadcasts_S1x128_S8192x128 x3 r col,
    broadcastTo_oneRow_apply broadcasts_S1x128_S8192x128 x4 r col, broadcastTo_oneRow_apply broadcasts_S1x128_S8192x128 _ r col]
  rfl

/-- A tile entry of region 3 is the term's entry, once the tile's six reads are the arrays' entries. -/
theorem norm_point3 (x0 : Vec Ideal S8192x128 .f32) (x1 x2 x3 x4 : Vec Ideal S1x128 .f32) (x5 : Vec Ideal S8192x128 .f32)
    (lin : FVec Ideal Cert.ReferenceIdeal.S262144x128 .f32) (mu2 var2 g2 b2 : FVec Ideal Cert.ReferenceIdeal.S1x128 .f32)
    (h : FVec Ideal Cert.ReferenceIdeal.S262144x128 .f32) (r : Fin 8192) (col : Fin 128) (R : Fin 262144)
    (h0 : x0 (ix2 r col) = lin (ix2 R col)) (h1 : x1 (ix2 0 col) = mu2 (ix2 0 col)) (h2 : x2 (ix2 0 col) = var2 (ix2 0 col))
    (h3 : x3 (ix2 0 col) = g2 (ix2 0 col)) (h4 : x4 (ix2 0 col) = b2 (ix2 0 col)) (h5 : x5 (ix2 r col) = h (ix2 R col)) :
    k3_pay1 (F := Ideal) x0 x1 x2 x3 x4 x5 (ix2 r col) = Cert.RegTerms.normTerm lin mu2 var2 g2 b2 h (ix2 R col) := by
  rw [k3_pay1_apply, normTerm_apply, h0, h1, h2, h3, h4, h5]

/-- Region 5's stored value at row r, column col of a tile. -/
theorem k5_pay1_apply (x0 : Vec Ideal S8192x128 .f32) (x1 x2 x3 x4 : Vec Ideal S1x128 .f32) (x5 : Vec Ideal S8192x128 .f32)
    (r : Fin 8192) (col : Fin 128) :
    k5_pay1 (F := Ideal) x0 x1 x2 x3 x4 x5 (ix2 r col)
      = normEntry (x0 (ix2 r col)) (x1 (ix2 0 col)) (x2 (ix2 0 col)) (x3 (ix2 0 col)) (x4 (ix2 0 col)) (x5 (ix2 r col)) := by
  unfold k5_pay1
  simp only [shapeCast_self]
  simp only [maximumf_apply, addf_apply, mulf_apply, subf_apply, broadcast_apply]
  rw [broadcastTo_oneRow_apply broadcasts_S1x128_S8192x128 x1 r col, broadcastTo_oneRow_apply broadcasts_S1x128_S8192x128 x3 r col,
    broadcastTo_oneRow_apply broadcasts_S1x128_S8192x128 x4 r col, broadcastTo_oneRow_apply broadcasts_S1x128_S8192x128 _ r col]
  rfl

/-- A tile entry of region 5 is the term's entry, once the tile's six reads are the arrays' entries. -/
theorem norm_point5 (x0 : Vec Ideal S8192x128 .f32) (x1 x2 x3 x4 : Vec Ideal S1x128 .f32) (x5 : Vec Ideal S8192x128 .f32)
    (lin : FVec Ideal Cert.ReferenceIdeal.S262144x128 .f32) (mu2 var2 g2 b2 : FVec Ideal Cert.ReferenceIdeal.S1x128 .f32)
    (h : FVec Ideal Cert.ReferenceIdeal.S262144x128 .f32) (r : Fin 8192) (col : Fin 128) (R : Fin 262144)
    (h0 : x0 (ix2 r col) = lin (ix2 R col)) (h1 : x1 (ix2 0 col) = mu2 (ix2 0 col)) (h2 : x2 (ix2 0 col) = var2 (ix2 0 col))
    (h3 : x3 (ix2 0 col) = g2 (ix2 0 col)) (h4 : x4 (ix2 0 col) = b2 (ix2 0 col)) (h5 : x5 (ix2 r col) = h (ix2 R col)) :
    k5_pay1 (F := Ideal) x0 x1 x2 x3 x4 x5 (ix2 r col) = Cert.RegTerms.normTerm lin mu2 var2 g2 b2 h (ix2 R col) := by
  rw [k5_pay1_apply, normTerm_apply, h0, h1, h2, h3, h4, h5]

/-- Region 7's stored value at row r, column col of a tile. -/
theorem k7_pay1_apply (x0 : Vec Ideal S8192x128 .f32) (x1 x2 x3 x4 : Vec Ideal S1x128 .f32) (x5 : Vec Ideal S8192x128 .f32)
    (r : Fin 8192) (col : Fin 128) :
    k7_pay1 (F := Ideal) x0 x1 x2 x3 x4 x5 (ix2 r col)
      = normEntry (x0 (ix2 r col)) (x1 (ix2 0 col)) (x2 (ix2 0 col)) (x3 (ix2 0 col)) (x4 (ix2 0 col)) (x5 (ix2 r col)) := by
  unfold k7_pay1
  simp only [shapeCast_self]
  simp only [maximumf_apply, addf_apply, mulf_apply, subf_apply, broadcast_apply]
  rw [broadcastTo_oneRow_apply broadcasts_S1x128_S8192x128 x1 r col, broadcastTo_oneRow_apply broadcasts_S1x128_S8192x128 x3 r col,
    broadcastTo_oneRow_apply broadcasts_S1x128_S8192x128 x4 r col, broadcastTo_oneRow_apply broadcasts_S1x128_S8192x128 _ r col]
  rfl

/-- A tile entry of region 7 is the term's entry, once the tile's six reads are the arrays' entries. -/
theorem norm_point7 (x0 : Vec Ideal S8192x128 .f32) (x1 x2 x3 x4 : Vec Ideal S1x128 .f32) (x5 : Vec Ideal S8192x128 .f32)
    (lin : FVec Ideal Cert.ReferenceIdeal.S262144x128 .f32) (mu2 var2 g2 b2 : FVec Ideal Cert.ReferenceIdeal.S1x128 .f32)
    (h : FVec Ideal Cert.ReferenceIdeal.S262144x128 .f32) (r : Fin 8192) (col : Fin 128) (R : Fin 262144)
    (h0 : x0 (ix2 r col) = lin (ix2 R col)) (h1 : x1 (ix2 0 col) = mu2 (ix2 0 col)) (h2 : x2 (ix2 0 col) = var2 (ix2 0 col))
    (h3 : x3 (ix2 0 col) = g2 (ix2 0 col)) (h4 : x4 (ix2 0 col) = b2 (ix2 0 col)) (h5 : x5 (ix2 r col) = h (ix2 R col)) :
    k7_pay1 (F := Ideal) x0 x1 x2 x3 x4 x5 (ix2 r col) = Cert.RegTerms.normTerm lin mu2 var2 g2 b2 h (ix2 R col) := by
  rw [k7_pay1_apply, normTerm_apply, h0, h1, h2, h3, h4, h5]

end Cert.KernelIdeal.RegValue

end
-- ==== Proof.RegNorm1.lean ====
/-
  Normalise-and-recombine region 1, as one array. The grid has 32 points; point t reads rows 8192·t … 8192·t + 8191 of the
  linear part and of the carried features, reads the four one-row statistics whole, and writes the same rows of the output.
  So every row R of the output is written by point R / 8192, and what is written there is the whole-array term's row R.
-/
import proofs.«170918_j12352325943916_1_alg».proof.Proof.FrameKI
import proofs.«170918_j12352325943916_1_alg».proof.Proof.RegNormPoint
import Idealize.ShloMosaic.Lib.Pipeline.Value

noncomputable section

namespace Cert.KernelIdeal.RegValue

open Cert.KernelIdeal Cert.KernelIdeal.Gen Cert.KernelIdeal.GenP Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The printed index maps over the 32 points: the two tiled inputs and the output sit at block row t, the four
    statistics at block (0, 0). -/
theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0
    ∧ win1_6.index t (0 : Fin 2) = t.val ∧ win1_6.index t (1 : Fin 2) = 0 :=
  (by decide +kernel : ∀ t : Fin grid1.N, _)

/-- What point t writes back is block t of the whole-array term of the arrays as the region finds them. -/
theorem flushed_eq1 (c : Dev nD) (t : Fin cfg1.N) :
    (dat1 (F := Ideal) V c).flushed 6 t = ((cfg1.win 6).blk t).view.read (Elt Ideal)
      (Cert.RegTerms.normTerm (V c main_v32) (V c main_v108) (V c main_v109) (V c main_v110) (V c main_v111) (V c main_v103)) := by
  show (cfg1.win 6).cut (grid1.coords t) ((dat1 V c).after 6 t) = _
  rw [after1_6]
  unfold out1_6
  rw [View.canon_unit_zero zero_offsets]
  simp only [View.ld_unit_zero (S := S8192x128) zero_offsets, View.ld_unit_zero (S := S1x128) zero_offsets]
  obtain ⟨e00, e01, e10, e11, e20, e21, e30, e31, e40, e41, e50, e51, e60, e61⟩ := idx_facts1 t
  have hN : t.val < 32 := by have h := t.isLt; have e : cfg1.N = 32 := N_1; omega
  funext j
  obtain ⟨r, col, rfl⟩ : ∃ (r : Fin 8192) (col : Fin 128), j = ix2 r col := ⟨j 0, j 1, eq_ix2 j⟩
  have hR : t.val * 8192 + r.val < 262144 := by have := r.isLt; omega
  have hemb : ((cfg1.win 6).blk t).view.emb (ix2 r col) = ix2 (⟨t.val * 8192 + r.val, hR⟩ : Fin 262144) col := by
    funext a; apply Fin.ext
    match a with
    | ⟨0, _⟩ => show win1_6.index t (0 : Fin 2) * 8192 + 1 * r.val = t.val * 8192 + r.val; rw [e60]; omega
    | ⟨1, _⟩ => show win1_6.index t (1 : Fin 2) * 128 + 1 * col.val = col.val; rw [e61]; omega
  show k1_pay1 (iblk1 V c 0 t) (iblk1 V c 1 t) (iblk1 V c 2 t) (iblk1 V c 3 t) (iblk1 V c 4 t) (iblk1 V c 5 t) (ix2 r col)
      = Cert.RegTerms.normTerm (V c main_v32) (V c main_v108) (V c main_v109) (V c main_v110) (V c main_v111) (V c main_v103) (((cfg1.win 6).blk t).view.emb (ix2 r col))
  rw [hemb]
  refine norm_point1 (iblk1 V c 0 t) (iblk1 V c 1 t) (iblk1 V c 2 t) (iblk1 V c 3 t) (iblk1 V c 4 t) (iblk1 V c 5 t)
    (V c main_v32) (V c main_v108) (V c main_v109) (V c main_v110) (V c main_v111) (V c main_v103) r col ⟨t.val * 8192 + r.val, hR⟩ ?_ ?_ ?_ ?_ ?_ ?_
  · show V c main_v32 (((cfg1.win 0).blk t).view.emb (ix2 r col)) = V c main_v32 (ix2 (⟨t.val * 8192 + r.val, hR⟩ : Fin 262144) col)
    refine congrArg _ (funext fun a => Fin.ext ?_)
    match a with
    | ⟨0, _⟩ => show win1_0.index t (0 : Fin 2) * 8192 + 1 * r.val = t.val * 8192 + r.val; rw [e00]; omega
    | ⟨1, _⟩ => show win1_0.index t (1 : Fin 2) * 128 + 1 * col.val = col.val; rw [e01]; omega
  · show V c main_v108 (((cfg1.win 1).blk t).view.emb (ix2 (0 : Fin 1) col)) = V c main_v108 (ix2 (0 : Fin 1) col)
    refine congrArg _ (funext fun a => Fin.ext ?_)
    match a with
    | ⟨0, _⟩ => show win1_1.index t (0 : Fin 2) * 1 + 1 * (0 : Nat) = 0; rw [e10]
    | ⟨1, _⟩ => show win1_1.index t (1 : Fin 2) * 128 + 1 * col.val = col.val; rw [e11]; omega
  · show V c main_v109 (((cfg1.win 2).blk t).view.emb (ix2 (0 : Fin 1) col)) = V c main_v109 (ix2 (0 : Fin 1) col)
    refine congrArg _ (funext fun a => Fin.ext ?_)
    match a with
    | ⟨0, _⟩ => show win1_2.index t (0 : Fin 2) * 1 + 1 * (0 : Nat) = 0; rw [e20]
    | ⟨1, _⟩ => show win1_2.index t (1 : Fin 2) * 128 + 1 * col.val = col.val; rw [e21]; omega
  · show V c main_v110 (((cfg1.win 3).blk t).view.emb (ix2 (0 : Fin 1) col)) = V c main_v110 (ix2 (0 : Fin 1) col)
    refine congrArg _ (funext fun a => Fin.ext ?_)
    match a with
    | ⟨0, _⟩ => show win1_3.index t (0 : Fin 2) * 1 + 1 * (0 : Nat) = 0; rw [e30]
    | ⟨1, _⟩ => show win1_3.index t (1 : Fin 2) * 128 + 1 * col.val = col.val; rw [e31]; omega
  · show V c main_v111 (((cfg1.win 4).blk t).view.emb (ix2 (0 : Fin 1) col)) = V c main_v111 (ix2 (0 : Fin 1) col)
    refine congrArg _ (funext fun a => Fin.ext ?_)
    match a with
    | ⟨0, _⟩ => show win1_4.index t (0 : Fin 2) * 1 + 1 * (0 : Nat) = 0; rw [e40]
    | ⟨1, _⟩ => show win1_4.index t (1 : Fin 2) * 128 + 1 * col.val = col.val; rw [e41]; omega
  · show V c main_v103 (((cfg1.win 5).blk t).view.emb (ix2 r col)) = V c main_v103 (ix2 (⟨t.val * 8192 + r.val, hR⟩ : Fin 262144) col)
    refine congrArg _ (funext fun a => Fin.ext ?_)
    match a with
    | ⟨0, _⟩ => show win1_5.index t (0 : Fin 2) * 8192 + 1 * r.val = t.val * 8192 + r.val; rw [e50]; omega
    | ⟨1, _⟩ => show win1_5.index t (1 : Fin 2) * 128 + 1 * col.val = col.val; rw [e51]; omega

/-- An index of the output is in point t's block iff each coordinate is in the block's range on its axis. -/
theorem mem_blk1 (t : Fin cfg1.N) (i : S262144x128.Idx) :
    i ∈ ((cfg1.win 6).blk t).view.set ↔ ∀ a : Fin 2, win1_6.index t a * S8192x128.size a ≤ (i a).val ∧ (i a).val < win1_6.index t a * S8192x128.size a + S8192x128.size a := by
  show i ∈ ((View.whole main_v112).slice (win1_6.rect t)).set ↔ _
  rw [View.set_slice_whole, Rect.mem_set_unit]
  exact Iff.rfl

/-- Row R of the output lies in the block of point R / 8192. -/
theorem cover1 (i : S262144x128.Idx) : ∃ t : Fin cfg1.N, (cfg1.win 6).flush t = true ∧ i ∈ ((cfg1.win 6).blk t).view.set := by
  have hi0 : (i 0).val < 262144 := (i 0).isLt
  have hi1 : (i 1).val < 128 := (i 1).isLt
  have hN : cfg1.N = 32 := N_1
  have hq : (i 0).val / 8192 < cfg1.N := by rw [hN]; omega
  obtain ⟨-, -, -, -, -, -, -, -, -, -, -, -, e60, e61⟩ := idx_facts1 ⟨(i 0).val / 8192, hq⟩
  refine ⟨⟨(i 0).val / 8192, hq⟩, flush1_6 _, ?_⟩
  rw [mem_blk1]
  intro a
  match a with
  | ⟨0, _⟩ =>
    show win1_6.index ⟨(i 0).val / 8192, hq⟩ (0 : Fin 2) * 8192 ≤ (i 0).val ∧ (i 0).val < win1_6.index ⟨(i 0).val / 8192, hq⟩ (0 : Fin 2) * 8192 + 8192
    rw [e60]; show (i 0).val / 8192 * 8192 ≤ (i 0).val ∧ (i 0).val < (i 0).val / 8192 * 8192 + 8192; omega
  | ⟨1, _⟩ =>
    show win1_6.index ⟨(i 0).val / 8192, hq⟩ (1 : Fin 2) * 128 ≤ (i 1).val ∧ (i 1).val < win1_6.index ⟨(i 0).val / 8192, hq⟩ (1 : Fin 2) * 128 + 128
    rw [e61]; omega

/-- The region's output array after the run is the whole-array term of the arrays as the region finds them. -/
theorem norm1 (c : Dev nD) :
    (dat1 (F := Ideal) V c).arrAt 6 cfg1.N
      = Cert.RegTerms.normTerm (V c main_v32) (V c main_v108) (V c main_v109) (V c main_v110) (V c main_v111) (V c main_v103) :=
  (dat1 (F := Ideal) V c).arrAt_eq_of_cover 6 _ (fun t _ => flushed_eq1 V c t) cover1

end Cert.KernelIdeal.RegValue

end
-- ==== Proof.RegLin2.lean ====
/-
  What the second layer's linear kernel leaves in its output array.
  The kernel runs over 32 row tiles of 8192 rows. At tile t it reads rows 8192·t … 8192·t + 8191 of x and of agg, the
  whole of the two 128×128 weights and of the one-row bias, and writes rows 8192·t … 8192·t + 8191 of the output with
      x_tile · Wr + agg_tile · Wn + b.
  Row r of the output lies in tile r / 8192, and there it is row r of  x · Wr + agg · Wn + b  taken over the whole
  arrays (the tile's row p is the arrays' row 8192·t + p). The 32 tiles cover the 262144 rows, so the output array ends
  holding  x · Wr + agg · Wn + b.
-/
import proofs.«170918_j12352325943916_1_alg».proof.Proof.FrameKI
import proofs.«170918_j12352325943916_1_alg».proof.Proof.RegLinPoint
import Idealize.ShloMosaic.Lib.Pipeline.Value

noncomputable section

namespace Cert.KernelIdeal.RegValue

open Cert.KernelIdeal Cert.KernelIdeal.Gen Cert.KernelIdeal.GenP Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- The zero offsets of a whole-tile access. -/
theorem zeroOffsets2 : (![0, 0] : Fin 2 → Nat) = fun _ => 0 := funext fun a => by fin_cases a <;> rfl

/-- The tiles' block indices at grid point t: the two row-tiled inputs and the output are at block (t, 0), the weights
    and the bias row at block (0, 0). -/
theorem blockIndices2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- What grid point t writes back is tile t of  x · Wr + agg · Wn + b  over the whole arrays. -/
theorem written2_eq (c : Dev nD) (t : Fin cfg2.N) :
    (dat2 (F := Ideal) V c).flushed 5 t
      = ((cfg2.win 5).blk t).view.read (Elt Ideal) (Cert.RegTerms.linTerm (V c main_v112) (V c main_v126) (V c main_v128) (V c main_v130) (V c main_v133)) := by
  show (cfg2.win 5).cut (grid2.coords t) ((dat2 (F := Ideal) V c).after 5 t) = _
  rw [after2_5]
  unfold out2_5
  rw [View.canon_unit_zero zeroOffsets2]
  simp only [View.ld_unit_zero (S := S8192x128) zeroOffsets2, View.ld_unit_zero (S := S128x128) zeroOffsets2,
    View.ld_unit_zero (S := S1x128) zeroOffsets2]
  obtain ⟨e00, e01, e10, e11, e20, e21, e30, e31, e40, e41, e50, e51⟩ := blockIndices2 t
  funext j
  show k2_pay1 (F := Ideal) (iblk2 V c 0 t) (iblk2 V c 1 t) (iblk2 V c 2 t) (iblk2 V c 3 t) (iblk2 V c 4 t) j
    = (Cert.RegTerms.linTerm (V c main_v112) (V c main_v126) (V c main_v128) (V c main_v130) (V c main_v133)) (((cfg2.win 5).blk t).view.emb j)
  refine pay2_eq_linTerm (iblk2 V c 0 t) (iblk2 V c 1 t) (iblk2 V c 2 t) (iblk2 V c 3 t) (iblk2 V c 4 t)
    (V c main_v112) (V c main_v126) (V c main_v128) (V c main_v130) (V c main_v133) j (((cfg2.win 5).blk t).view.emb j) ?_ ?_ ?_ ?_ ?_ ?_
  · show win2_5.index t (1 : Fin 2) * 128 + 1 * (j 1).val = (j 1).val
    omega
  ·
    intro y z hy hz0 hz1
    show V c main_v112 (((cfg2.win 0).blk t).view.emb y) = V c main_v112 z
    refine congrArg (V c main_v112) (funext fun a => Fin.ext ?_)
    match a with
    | ⟨0, _⟩ =>
      show win2_0.index t (0 : Fin 2) * 8192 + 1 * (y 0).val = (z 0).val
      rw [hz0, hy]
      show _ = win2_5.index t (0 : Fin 2) * 8192 + 1 * (j 0).val
      omega
    | ⟨1, _⟩ =>
      show win2_0.index t (1 : Fin 2) * 128 + 1 * (y 1).val = (z 1).val
      rw [hz1]
      omega
  ·
    intro y z hy hz0 hz1
    show V c main_v126 (((cfg2.win 1).blk t).view.emb y) = V c main_v126 z
    refine congrArg (V c main_v126) (funext fun a => Fin.ext ?_)
    match a with
    | ⟨0, _⟩ =>
      show win2_1.index t (0 : Fin 2) * 8192 + 1 * (y 0).val = (z 0).val
      rw [hz0, hy]
      show _ = win2_5.index t (0 : Fin 2) * 8192 + 1 * (j 0).val
      omega
    | ⟨1, _⟩ =>
      show win2_1.index t (1 : Fin 2) * 128 + 1 * (y 1).val = (z 1).val
      rw [hz1]
      omega
  ·
    funext y
    show V c main_v128 (((cfg2.win 2).blk t).view.emb y) = V c main_v128 y
    refine congrArg (V c main_v128) (funext fun a => Fin.ext ?_)
    match a with
    | ⟨0, _⟩ =>
      show win2_2.index t (0 : Fin 2) * 128 + 1 * (y 0).val = (y 0).val
      omega
    | ⟨1, _⟩ =>
      show win2_2.index t (1 : Fin 2) * 128 + 1 * (y 1).val = (y 1).val
      omega
  ·
    funext y
    show V c main_v130 (((cfg2.win 3).blk t).view.emb y) = V c main_v130 y
    refine congrArg (V c main_v130) (funext fun a => Fin.ext ?_)
    match a with
    | ⟨0, _⟩ =>
      show win2_3.index t (0 : Fin 2) * 128 + 1 * (y 0).val = (y 0).val
      omega
    | ⟨1, _⟩ =>
      show win2_3.index t (1 : Fin 2) * 128 + 1 * (y 1).val = (y 1).val
      omega
  ·
    funext y
    show V c main_v133 (((cfg2.win 4).blk t).view.emb y) = V c main_v133 y
    refine congrArg (V c main_v133) (funext fun a => Fin.ext ?_)
    match a with
    | ⟨0, _⟩ =>
      show win2_4.index t (0 : Fin 2) * 1 + 1 * (y 0).val = (y 0).val
      omega
    | ⟨1, _⟩ =>
      show win2_4.index t (1 : Fin 2) * 128 + 1 * (y 1).val = (y 1).val
      omega

/-- An index of the output array is in tile t iff each coordinate is in the tile's range on its axis. -/
theorem mem_tile2 (t : Fin cfg2.N) (i : S262144x128.Idx) :
    i ∈ ((cfg2.win 5).blk t).view.set
      ↔ ∀ a : Fin 2, win2_5.index t a * S8192x128.size a ≤ (i a).val ∧ (i a).val < win2_5.index t a * S8192x128.size a + S8192x128.size a := by
  show i ∈ ((View.whole main_v134).slice (win2_5.rect t)).set ↔ _
  rw [View.set_slice_whole, Rect.mem_set_unit]
  exact Iff.rfl

/-- Row r of the output array lies in tile r / 8192. -/
theorem tiles_cover2 (i : S262144x128.Idx) :
    ∃ t : Fin cfg2.N, (cfg2.win 5).flush t = true ∧ i ∈ ((cfg2.win 5).blk t).view.set := by
  have hi0 : (i 0).val < 262144 := (i 0).isLt
  have hi1 : (i 1).val < 128 := (i 1).isLt
  have hN : cfg2.N = 32 := N_2
  have ht : (i 0).val / 8192 < cfg2.N := by rw [hN]; omega
  obtain ⟨e00, e01, e10, e11, e20, e21, e30, e31, e40, e41, e50, e51⟩ := blockIndices2 ⟨(i 0).val / 8192, ht⟩
  refine ⟨⟨(i 0).val / 8192, ht⟩, flush2_5 _, ?_⟩
  rw [mem_tile2]
  intro a
  match a with
  | ⟨0, _⟩ =>
    show win2_5.index ⟨(i 0).val / 8192, ht⟩ (0 : Fin 2) * 8192 ≤ (i 0).val
      ∧ (i 0).val < win2_5.index ⟨(i 0).val / 8192, ht⟩ (0 : Fin 2) * 8192 + 8192
    rw [e50]
    show (i 0).val / 8192 * 8192 ≤ (i 0).val ∧ (i 0).val < (i 0).val / 8192 * 8192 + 8192
    omega
  | ⟨1, _⟩ =>
    show win2_5.index ⟨(i 0).val / 8192, ht⟩ (1 : Fin 2) * 128 ≤ (i 1).val
      ∧ (i 1).val < win2_5.index ⟨(i 0).val / 8192, ht⟩ (1 : Fin 2) * 128 + 128
    rw [e51]
    omega

/-- The second layer's linear kernel leaves  x · Wr + agg · Wn + b  in its output array. -/
theorem lin2 (c : Dev nD) :
    (dat2 (F := Ideal) V c).arrAt 5 cfg2.N
      = Cert.RegTerms.linTerm (V c main_v112) (V c main_v126) (V c main_v128) (V c main_v130) (V c main_v133) :=
  (dat2 (F := Ideal) V c).arrAt_eq_of_cover 5 (Cert.RegTerms.linTerm (V c main_v112) (V c main_v126) (V c main_v128) (V c main_v130) (V c main_v133))
    (fun t _ => written2_eq V c t) tiles_cover2

end Cert.KernelIdeal.RegValue

end
-- ==== Proof.RegNorm3.lean ====
/-
  Normalise-and-recombine region 3, as one array. The grid has 32 points; point t reads rows 8192·t … 8192·t + 8191 of the
  linear part and of the carried features, reads the four one-row statistics whole, and writes the same rows of the output.
  So every row R of the output is written by point R / 8192, and what is written there is the whole-array term's row R.
-/
import proofs.«170918_j12352325943916_1_alg».proof.Proof.FrameKI
import proofs.«170918_j12352325943916_1_alg».proof.Proof.RegNormPoint
import Idealize.ShloMosaic.Lib.Pipeline.Value

noncomputable section

namespace Cert.KernelIdeal.RegValue

open Cert.KernelIdeal Cert.KernelIdeal.Gen Cert.KernelIdeal.GenP Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The printed index maps over the 32 points: the two tiled inputs and the output sit at block row t, the four
    statistics at block (0, 0). -/
theorem idx_facts3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0
    ∧ win3_6.index t (0 : Fin 2) = t.val ∧ win3_6.index t (1 : Fin 2) = 0 :=
  (by decide +kernel : ∀ t : Fin grid3.N, _)

/-- What point t writes back is block t of the whole-array term of the arrays as the region finds them. -/
theorem flushed_eq3 (c : Dev nD) (t : Fin cfg3.N) :
    (dat3 (F := Ideal) V c).flushed 6 t = ((cfg3.win 6).blk t).view.read (Elt Ideal)
      (Cert.RegTerms.normTerm (V c main_v134) (V c main_v210) (V c main_v211) (V c main_v212) (V c main_v213) (V c main_v205)) := by
  show (cfg3.win 6).cut (grid3.coords t) ((dat3 V c).after 6 t) = _
  rw [after3_6]
  unfold out3_6
  rw [View.canon_unit_zero zero_offsets]
  simp only [View.ld_unit_zero (S := S8192x128) zero_offsets, View.ld_unit_zero (S := S1x128) zero_offsets]
  obtain ⟨e00, e01, e10, e11, e20, e21, e30, e31, e40, e41, e50, e51, e60, e61⟩ := idx_facts3 t
  have hN : t.val < 32 := by have h := t.isLt; have e : cfg3.N = 32 := N_3; omega
  funext j
  obtain ⟨r, col, rfl⟩ : ∃ (r : Fin 8192) (col : Fin 128), j = ix2 r col := ⟨j 0, j 1, eq_ix2 j⟩
  have hR : t.val * 8192 + r.val < 262144 := by have := r.isLt; omega
  have hemb : ((cfg3.win 6).blk t).view.emb (ix2 r col) = ix2 (⟨t.val * 8192 + r.val, hR⟩ : Fin 262144) col := by
    funext a; apply Fin.ext
    match a with
    | ⟨0, _⟩ => show win3_6.index t (0 : Fin 2) * 8192 + 1 * r.val = t.val * 8192 + r.val; rw [e60]; omega
    | ⟨1, _⟩ => show win3_6.index t (1 : Fin 2) * 128 + 1 * col.val = col.val; rw [e61]; omega
  show k3_pay1 (iblk3 V c 0 t) (iblk3 V c 1 t) (iblk3 V c 2 t) (iblk3 V c 3 t) (iblk3 V c 4 t) (iblk3 V c 5 t) (ix2 r col)
      = Cert.RegTerms.normTerm (V c main_v134) (V c main_v210) (V c main_v211) (V c main_v212) (V c main_v213) (V c main_v205) (((cfg3.win 6).blk t).view.emb (ix2 r col))
  rw [hemb]
  refine norm_point3 (iblk3 V c 0 t) (iblk3 V c 1 t) (iblk3 V c 2 t) (iblk3 V c 3 t) (iblk3 V c 4 t) (iblk3 V c 5 t)
    (V c main_v134) (V c main_v210) (V c main_v211) (V c main_v212) (V c main_v213) (V c main_v205) r col ⟨t.val * 8192 + r.val, hR⟩ ?_ ?_ ?_ ?_ ?_ ?_
  · show V c main_v134 (((cfg3.win 0).blk t).view.emb (ix2 r col)) = V c main_v134 (ix2 (⟨t.val * 8192 + r.val, hR⟩ : Fin 262144) col)
    refine congrArg _ (funext fun a => Fin.ext ?_)
    match a with
    | ⟨0, _⟩ => show win3_0.index t (0 : Fin 2) * 8192 + 1 * r.val = t.val * 8192 + r.val; rw [e00]; omega
    | ⟨1, _⟩ => show win3_0.index t (1 : Fin 2) * 128 + 1 * col.val = col.val; rw [e01]; omega
  · show V c main_v210 (((cfg3.win 1).blk t).view.emb (ix2 (0 : Fin 1) col)) = V c main_v210 (ix2 (0 : Fin 1) col)
    refine congrArg _ (funext fun a => Fin.ext ?_)
    match a with
    | ⟨0, _⟩ => show win3_1.index t (0 : Fin 2) * 1 + 1 * (0 : Nat) = 0; rw [e10]
    | ⟨1, _⟩ => show win3_1.index t (1 : Fin 2) * 128 + 1 * col.val = col.val; rw [e11]; omega
  · show V c main_v211 (((cfg3.win 2).blk t).view.emb (ix2 (0 : Fin 1) col)) = V c main_v211 (ix2 (0 : Fin 1) col)
    refine congrArg _ (funext fun a => Fin.ext ?_)
    match a with
    | ⟨0, _⟩ => show win3_2.index t (0 : Fin 2) * 1 + 1 * (0 : Nat) = 0; rw [e20]
    | ⟨1, _⟩ => show win3_2.index t (1 : Fin 2) * 128 + 1 * col.val = col.val; rw [e21]; omega
  · show V c main_v212 (((cfg3.win 3).blk t).view.emb (ix2 (0 : Fin 1) col)) = V c main_v212 (ix2 (0 : Fin 1) col)
    refine congrArg _ (funext fun a => Fin.ext ?_)
    match a with
    | ⟨0, _⟩ => show win3_3.index t (0 : Fin 2) * 1 + 1 * (0 : Nat) = 0; rw [e30]
    | ⟨1, _⟩ => show win3_3.index t (1 : Fin 2) * 128 + 1 * col.val = col.val; rw [e31]; omega
  · show V c main_v213 (((cfg3.win 4).blk t).view.emb (ix2 (0 : Fin 1) col)) = V c main_v213 (ix2 (0 : Fin 1) col)
    refine congrArg _ (funext fun a => Fin.ext ?_)
    match a with
    | ⟨0, _⟩ => show win3_4.index t (0 : Fin 2) * 1 + 1 * (0 : Nat) = 0; rw [e40]
    | ⟨1, _⟩ => show win3_4.index t (1 : Fin 2) * 128 + 1 * col.val = col.val; rw [e41]; omega
  · show V c main_v205 (((cfg3.win 5).blk t).view.emb (ix2 r col)) = V c main_v205 (ix2 (⟨t.val * 8192 + r.val, hR⟩ : Fin 262144) col)
    refine congrArg _ (funext fun a => Fin.ext ?_)
    match a with
    | ⟨0, _⟩ => show win3_5.index t (0 : Fin 2) * 8192 + 1 * r.val = t.val * 8192 + r.val; rw [e50]; omega
    | ⟨1, _⟩ => show win3_5.index t (1 : Fin 2) * 128 + 1 * col.val = col.val; rw [e51]; omega

/-- An index of the output is in point t's block iff each coordinate is in the block's range on its axis. -/
theorem mem_blk3 (t : Fin cfg3.N) (i : S262144x128.Idx) :
    i ∈ ((cfg3.win 6).blk t).view.set ↔ ∀ a : Fin 2, win3_6.index t a * S8192x128.size a ≤ (i a).val ∧ (i a).val < win3_6.index t a * S8192x128.size a + S8192x128.size a := by
  show i ∈ ((View.whole main_v214).slice (win3_6.rect t)).set ↔ _
  rw [View.set_slice_whole, Rect.mem_set_unit]
  exact Iff.rfl

/-- Row R of the output lies in the block of point R / 8192. -/
theorem cover3 (i : S262144x128.Idx) : ∃ t : Fin cfg3.N, (cfg3.win 6).flush t = true ∧ i ∈ ((cfg3.win 6).blk t).view.set := by
  have hi0 : (i 0).val < 262144 := (i 0).isLt
  have hi1 : (i 1).val < 128 := (i 1).isLt
  have hN : cfg3.N = 32 := N_3
  have hq : (i 0).val / 8192 < cfg3.N := by rw [hN]; omega
  obtain ⟨-, -, -, -, -, -, -, -, -, -, -, -, e60, e61⟩ := idx_facts3 ⟨(i 0).val / 8192, hq⟩
  refine ⟨⟨(i 0).val / 8192, hq⟩, flush3_6 _, ?_⟩
  rw [mem_blk3]
  intro a
  match a with
  | ⟨0, _⟩ =>
    show win3_6.index ⟨(i 0).val / 8192, hq⟩ (0 : Fin 2) * 8192 ≤ (i 0).val ∧ (i 0).val < win3_6.index ⟨(i 0).val / 8192, hq⟩ (0 : Fin 2) * 8192 + 8192
    rw [e60]; show (i 0).val / 8192 * 8192 ≤ (i 0).val ∧ (i 0).val < (i 0).val / 8192 * 8192 + 8192; omega
  | ⟨1, _⟩ =>
    show win3_6.index ⟨(i 0).val / 8192, hq⟩ (1 : Fin 2) * 128 ≤ (i 1).val ∧ (i 1).val < win3_6.index ⟨(i 0).val / 8192, hq⟩ (1 : Fin 2) * 128 + 128
    rw [e61]; omega

/-- The region's output array after the run is the whole-array term of the arrays as the region finds them. -/
theorem norm3 (c : Dev nD) :
    (dat3 (F := Ideal) V c).arrAt 6 cfg3.N
      = Cert.RegTerms.normTerm (V c main_v134) (V c main_v210) (V c main_v211) (V c main_v212) (V c main_v213) (V c main_v205) :=
  (dat3 (F := Ideal) V c).arrAt_eq_of_cover 6 _ (fun t _ => flushed_eq3 V c t) cover3

end Cert.KernelIdeal.RegValue

end
-- ==== Proof.RegLin4.lean ====
/-
  What the third layer's linear kernel leaves in its output array.
  The kernel runs over 32 row tiles of 8192 rows. At tile t it reads rows 8192·t … 8192·t + 8191 of x and of agg, the
  whole of the two 128×128 weights and of the one-row bias, and writes rows 8192·t … 8192·t + 8191 of the output with
      x_tile · Wr + agg_tile · Wn + b.
  Row r of the output lies in tile r / 8192, and there it is row r of  x · Wr + agg · Wn + b  taken over the whole
  arrays (the tile's row p is the arrays' row 8192·t + p). The 32 tiles cover the 262144 rows, so the output array ends
  holding  x · Wr + agg · Wn + b.
-/
import proofs.«170918_j12352325943916_1_alg».proof.Proof.FrameKI
import proofs.«170918_j12352325943916_1_alg».proof.Proof.RegLinPoint
import Idealize.ShloMosaic.Lib.Pipeline.Value

noncomputable section

namespace Cert.KernelIdeal.RegValue

open Cert.KernelIdeal Cert.KernelIdeal.Gen Cert.KernelIdeal.GenP Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- The zero offsets of a whole-tile access. -/
theorem zeroOffsets4 : (![0, 0] : Fin 2 → Nat) = fun _ => 0 := funext fun a => by fin_cases a <;> rfl

/-- The tiles' block indices at grid point t: the two row-tiled inputs and the output are at block (t, 0), the weights
    and the bias row at block (0, 0). -/
theorem blockIndices4 : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = t.val ∧ win4_5.index t (1 : Fin 2) = 0 :=
  (by decide +kernel : ∀ t : Fin grid4.N, _)

/-- What grid point t writes back is tile t of  x · Wr + agg · Wn + b  over the whole arrays. -/
theorem written4_eq (c : Dev nD) (t : Fin cfg4.N) :
    (dat4 (F := Ideal) V c).flushed 5 t
      = ((cfg4.win 5).blk t).view.read (Elt Ideal) (Cert.RegTerms.linTerm (V c main_v214) (V c main_v228) (V c main_v230) (V c main_v232) (V c main_v235)) := by
  show (cfg4.win 5).cut (grid4.coords t) ((dat4 (F := Ideal) V c).after 5 t) = _
  rw [after4_5]
  unfold out4_5
  rw [View.canon_unit_zero zeroOffsets4]
  simp only [View.ld_unit_zero (S := S8192x128) zeroOffsets4, View.ld_unit_zero (S := S128x128) zeroOffsets4,
    View.ld_unit_zero (S := S1x128) zeroOffsets4]
  obtain ⟨e00, e01, e10, e11, e20, e21, e30, e31, e40, e41, e50, e51⟩ := blockIndices4 t
  funext j
  show k4_pay1 (F := Ideal) (iblk4 V c 0 t) (iblk4 V c 1 t) (iblk4 V c 2 t) (iblk4 V c 3 t) (iblk4 V c 4 t) j
    = (Cert.RegTerms.linTerm (V c main_v214) (V c main_v228) (V c main_v230) (V c main_v232) (V c main_v235)) (((cfg4.win 5).blk t).view.emb j)
  refine pay4_eq_linTerm (iblk4 V c 0 t) (iblk4 V c 1 t) (iblk4 V c 2 t) (iblk4 V c 3 t) (iblk4 V c 4 t)
    (V c main_v214) (V c main_v228) (V c main_v230) (V c main_v232) (V c main_v235) j (((cfg4.win 5).blk t).view.emb j) ?_ ?_ ?_ ?_ ?_ ?_
  · show win4_5.index t (1 : Fin 2) * 128 + 1 * (j 1).val = (j 1).val
    omega
  ·
    intro y z hy hz0 hz1
    show V c main_v214 (((cfg4.win 0).blk t).view.emb y) = V c main_v214 z
    refine congrArg (V c main_v214) (funext fun a => Fin.ext ?_)
    match a with
    | ⟨0, _⟩ =>
      show win4_0.index t (0 : Fin 2) * 8192 + 1 * (y 0).val = (z 0).val
      rw [hz0, hy]
      show _ = win4_5.index t (0 : Fin 2) * 8192 + 1 * (j 0).val
      omega
    | ⟨1, _⟩ =>
      show win4_0.index t (1 : Fin 2) * 128 + 1 * (y 1).val = (z 1).val
      rw [hz1]
      omega
  ·
    intro y z hy hz0 hz1
    show V c main_v228 (((cfg4.win 1).blk t).view.emb y) = V c main_v228 z
    refine congrArg (V c main_v228) (funext fun a => Fin.ext ?_)
    match a with
    | ⟨0, _⟩ =>
      show win4_1.index t (0 : Fin 2) * 8192 + 1 * (y 0).val = (z 0).val
      rw [hz0, hy]
      show _ = win4_5.index t (0 : Fin 2) * 8192 + 1 * (j 0).val
      omega
    | ⟨1, _⟩ =>
      show win4_1.index t (1 : Fin 2) * 128 + 1 * (y 1).val = (z 1).val
      rw [hz1]
      omega
  ·
    funext y
    show V c main_v230 (((cfg4.win 2).blk t).view.emb y) = V c main_v230 y
    refine congrArg (V c main_v230) (funext fun a => Fin.ext ?_)
    match a with
    | ⟨0, _⟩ =>
      show win4_2.index t (0 : Fin 2) * 128 + 1 * (y 0).val = (y 0).val
      omega
    | ⟨1, _⟩ =>
      show win4_2.index t (1 : Fin 2) * 128 + 1 * (y 1).val = (y 1).val
      omega
  ·
    funext y
    show V c main_v232 (((cfg4.win 3).blk t).view.emb y) = V c main_v232 y
    refine congrArg (V c main_v232) (funext fun a => Fin.ext ?_)
    match a with
    | ⟨0, _⟩ =>
      show win4_3.index t (0 : Fin 2) * 128 + 1 * (y 0).val = (y 0).val
      omega
    | ⟨1, _⟩ =>
      show win4_3.index t (1 : Fin 2) * 128 + 1 * (y 1).val = (y 1).val
      omega
  ·
    funext y
    show V c main_v235 (((cfg4.win 4).blk t).view.emb y) = V c main_v235 y
    refine congrArg (V c main_v235) (funext fun a => Fin.ext ?_)
    match a with
    | ⟨0, _⟩ =>
      show win4_4.index t (0 : Fin 2) * 1 + 1 * (y 0).val = (y 0).val
      omega
    | ⟨1, _⟩ =>
      show win4_4.index t (1 : Fin 2) * 128 + 1 * (y 1).val = (y 1).val
      omega

/-- An index of the output array is in tile t iff each coordinate is in the tile's range on its axis. -/
theorem mem_tile4 (t : Fin cfg4.N) (i : S262144x128.Idx) :
    i ∈ ((cfg4.win 5).blk t).view.set
      ↔ ∀ a : Fin 2, win4_5.index t a * S8192x128.size a ≤ (i a).val ∧ (i a).val < win4_5.index t a * S8192x128.size a + S8192x128.size a := by
  show i ∈ ((View.whole main_v236).slice (win4_5.rect t)).set ↔ _
  rw [View.set_slice_whole, Rect.mem_set_unit]
  exact Iff.rfl

/-- Row r of the output array lies in tile r / 8192. -/
theorem tiles_cover4 (i : S262144x128.Idx) :
    ∃ t : Fin cfg4.N, (cfg4.win 5).flush t = true ∧ i ∈ ((cfg4.win 5).blk t).view.set := by
  have hi0 : (i 0).val < 262144 := (i 0).isLt
  have hi1 : (i 1).val < 128 := (i 1).isLt
  have hN : cfg4.N = 32 := N_4
  have ht : (i 0).val / 8192 < cfg4.N := by rw [hN]; omega
  obtain ⟨e00, e01, e10, e11, e20, e21, e30, e31, e40, e41, e50, e51⟩ := blockIndices4 ⟨(i 0).val / 8192, ht⟩
  refine ⟨⟨(i 0).val / 8192, ht⟩, flush4_5 _, ?_⟩
  rw [mem_tile4]
  intro a
  match a with
  | ⟨0, _⟩ =>
    show win4_5.index ⟨(i 0).val / 8192, ht⟩ (0 : Fin 2) * 8192 ≤ (i 0).val
      ∧ (i 0).val < win4_5.index ⟨(i 0).val / 8192, ht⟩ (0 : Fin 2) * 8192 + 8192
    rw [e50]
    show (i 0).val / 8192 * 8192 ≤ (i 0).val ∧ (i 0).val < (i 0).val / 8192 * 8192 + 8192
    omega
  | ⟨1, _⟩ =>
    show win4_5.index ⟨(i 0).val / 8192, ht⟩ (1 : Fin 2) * 128 ≤ (i 1).val
      ∧ (i 1).val < win4_5.index ⟨(i 0).val / 8192, ht⟩ (1 : Fin 2) * 128 + 128
    rw [e51]
    omega

/-- The third layer's linear kernel leaves  x · Wr + agg · Wn + b  in its output array. -/
theorem lin4 (c : Dev nD) :
    (dat4 (F := Ideal) V c).arrAt 5 cfg4.N
      = Cert.RegTerms.linTerm (V c main_v214) (V c main_v228) (V c main_v230) (V c main_v232) (V c main_v235) :=
  (dat4 (F := Ideal) V c).arrAt_eq_of_cover 5 (Cert.RegTerms.linTerm (V c main_v214) (V c main_v228) (V c main_v230) (V c main_v232) (V c main_v235))
    (fun t _ => written4_eq V c t) tiles_cover4

end Cert.KernelIdeal.RegValue

end
-- ==== Proof.RegNorm5.lean ====
/-
  Normalise-and-recombine region 5, as one array. The grid has 32 points; point t reads rows 8192·t … 8192·t + 8191 of the
  linear part and of the carried features, reads the four one-row statistics whole, and writes the same rows of the output.
  So every row R of the output is written by point R / 8192, and what is written there is the whole-array term's row R.
-/
import proofs.«170918_j12352325943916_1_alg».proof.Proof.FrameKI
import proofs.«170918_j12352325943916_1_alg».proof.Proof.RegNormPoint
import Idealize.ShloMosaic.Lib.Pipeline.Value

noncomputable section

namespace Cert.KernelIdeal.RegValue

open Cert.KernelIdeal Cert.KernelIdeal.Gen Cert.KernelIdeal.GenP Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The printed index maps over the 32 points: the two tiled inputs and the output sit at block row t, the four
    statistics at block (0, 0). -/
theorem idx_facts5 : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0
    ∧ win5_6.index t (0 : Fin 2) = t.val ∧ win5_6.index t (1 : Fin 2) = 0 :=
  (by decide +kernel : ∀ t : Fin grid5.N, _)

/-- What point t writes back is block t of the whole-array term of the arrays as the region finds them. -/
theorem flushed_eq5 (c : Dev nD) (t : Fin cfg5.N) :
    (dat5 (F := Ideal) V c).flushed 6 t = ((cfg5.win 6).blk t).view.read (Elt Ideal)
      (Cert.RegTerms.normTerm (V c main_v236) (V c main_v312) (V c main_v313) (V c main_v314) (V c main_v315) (V c main_v307)) := by
  show (cfg5.win 6).cut (grid5.coords t) ((dat5 V c).after 6 t) = _
  rw [after5_6]
  unfold out5_6
  rw [View.canon_unit_zero zero_offsets]
  simp only [View.ld_unit_zero (S := S8192x128) zero_offsets, View.ld_unit_zero (S := S1x128) zero_offsets]
  obtain ⟨e00, e01, e10, e11, e20, e21, e30, e31, e40, e41, e50, e51, e60, e61⟩ := idx_facts5 t
  have hN : t.val < 32 := by have h := t.isLt; have e : cfg5.N = 32 := N_5; omega
  funext j
  obtain ⟨r, col, rfl⟩ : ∃ (r : Fin 8192) (col : Fin 128), j = ix2 r col := ⟨j 0, j 1, eq_ix2 j⟩
  have hR : t.val * 8192 + r.val < 262144 := by have := r.isLt; omega
  have hemb : ((cfg5.win 6).blk t).view.emb (ix2 r col) = ix2 (⟨t.val * 8192 + r.val, hR⟩ : Fin 262144) col := by
    funext a; apply Fin.ext
    match a with
    | ⟨0, _⟩ => show win5_6.index t (0 : Fin 2) * 8192 + 1 * r.val = t.val * 8192 + r.val; rw [e60]; omega
    | ⟨1, _⟩ => show win5_6.index t (1 : Fin 2) * 128 + 1 * col.val = col.val; rw [e61]; omega
  show k5_pay1 (iblk5 V c 0 t) (iblk5 V c 1 t) (iblk5 V c 2 t) (iblk5 V c 3 t) (iblk5 V c 4 t) (iblk5 V c 5 t) (ix2 r col)
      = Cert.RegTerms.normTerm (V c main_v236) (V c main_v312) (V c main_v313) (V c main_v314) (V c main_v315) (V c main_v307) (((cfg5.win 6).blk t).view.emb (ix2 r col))
  rw [hemb]
  refine norm_point5 (iblk5 V c 0 t) (iblk5 V c 1 t) (iblk5 V c 2 t) (iblk5 V c 3 t) (iblk5 V c 4 t) (iblk5 V c 5 t)
    (V c main_v236) (V c main_v312) (V c main_v313) (V c main_v314) (V c main_v315) (V c main_v307) r col ⟨t.val * 8192 + r.val, hR⟩ ?_ ?_ ?_ ?_ ?_ ?_
  · show V c main_v236 (((cfg5.win 0).blk t).view.emb (ix2 r col)) = V c main_v236 (ix2 (⟨t.val * 8192 + r.val, hR⟩ : Fin 262144) col)
    refine congrArg _ (funext fun a => Fin.ext ?_)
    match a with
    | ⟨0, _⟩ => show win5_0.index t (0 : Fin 2) * 8192 + 1 * r.val = t.val * 8192 + r.val; rw [e00]; omega
    | ⟨1, _⟩ => show win5_0.index t (1 : Fin 2) * 128 + 1 * col.val = col.val; rw [e01]; omega
  · show V c main_v312 (((cfg5.win 1).blk t).view.emb (ix2 (0 : Fin 1) col)) = V c main_v312 (ix2 (0 : Fin 1) col)
    refine congrArg _ (funext fun a => Fin.ext ?_)
    match a with
    | ⟨0, _⟩ => show win5_1.index t (0 : Fin 2) * 1 + 1 * (0 : Nat) = 0; rw [e10]
    | ⟨1, _⟩ => show win5_1.index t (1 : Fin 2) * 128 + 1 * col.val = col.val; rw [e11]; omega
  · show V c main_v313 (((cfg5.win 2).blk t).view.emb (ix2 (0 : Fin 1) col)) = V c main_v313 (ix2 (0 : Fin 1) col)
    refine congrArg _ (funext fun a => Fin.ext ?_)
    match a with
    | ⟨0, _⟩ => show win5_2.index t (0 : Fin 2) * 1 + 1 * (0 : Nat) = 0; rw [e20]
    | ⟨1, _⟩ => show win5_2.index t (1 : Fin 2) * 128 + 1 * col.val = col.val; rw [e21]; omega
  · show V c main_v314 (((cfg5.win 3).blk t).view.emb (ix2 (0 : Fin 1) col)) = V c main_v314 (ix2 (0 : Fin 1) col)
    refine congrArg _ (funext fun a => Fin.ext ?_)
    match a with
    | ⟨0, _⟩ => show win5_3.index t (0 : Fin 2) * 1 + 1 * (0 : Nat) = 0; rw [e30]
    | ⟨1, _⟩ => show win5_3.index t (1 : Fin 2) * 128 + 1 * col.val = col.val; rw [e31]; omega
  · show V c main_v315 (((cfg5.win 4).blk t).view.emb (ix2 (0 : Fin 1) col)) = V c main_v315 (ix2 (0 : Fin 1) col)
    refine congrArg _ (funext fun a => Fin.ext ?_)
    match a with
    | ⟨0, _⟩ => show win5_4.index t (0 : Fin 2) * 1 + 1 * (0 : Nat) = 0; rw [e40]
    | ⟨1, _⟩ => show win5_4.index t (1 : Fin 2) * 128 + 1 * col.val = col.val; rw [e41]; omega
  · show V c main_v307 (((cfg5.win 5).blk t).view.emb (ix2 r col)) = V c main_v307 (ix2 (⟨t.val * 8192 + r.val, hR⟩ : Fin 262144) col)
    refine congrArg _ (funext fun a => Fin.ext ?_)
    match a with
    | ⟨0, _⟩ => show win5_5.index t (0 : Fin 2) * 8192 + 1 * r.val = t.val * 8192 + r.val; rw [e50]; omega
    | ⟨1, _⟩ => show win5_5.index t (1 : Fin 2) * 128 + 1 * col.val = col.val; rw [e51]; omega

/-- An index of the output is in point t's block iff each coordinate is in the block's range on its axis. -/
theorem mem_blk5 (t : Fin cfg5.N) (i : S262144x128.Idx) :
    i ∈ ((cfg5.win 6).blk t).view.set ↔ ∀ a : Fin 2, win5_6.index t a * S8192x128.size a ≤ (i a).val ∧ (i a).val < win5_6.index t a * S8192x128.size a + S8192x128.size a := by
  show i ∈ ((View.whole main_v316).slice (win5_6.rect t)).set ↔ _
  rw [View.set_slice_whole, Rect.mem_set_unit]
  exact Iff.rfl

/-- Row R of the output lies in the block of point R / 8192. -/
theorem cover5 (i : S262144x128.Idx) : ∃ t : Fin cfg5.N, (cfg5.win 6).flush t = true ∧ i ∈ ((cfg5.win 6).blk t).view.set := by
  have hi0 : (i 0).val < 262144 := (i 0).isLt
  have hi1 : (i 1).val < 128 := (i 1).isLt
  have hN : cfg5.N = 32 := N_5
  have hq : (i 0).val / 8192 < cfg5.N := by rw [hN]; omega
  obtain ⟨-, -, -, -, -, -, -, -, -, -, -, -, e60, e61⟩ := idx_facts5 ⟨(i 0).val / 8192, hq⟩
  refine ⟨⟨(i 0).val / 8192, hq⟩, flush5_6 _, ?_⟩
  rw [mem_blk5]
  intro a
  match a with
  | ⟨0, _⟩ =>
    show win5_6.index ⟨(i 0).val / 8192, hq⟩ (0 : Fin 2) * 8192 ≤ (i 0).val ∧ (i 0).val < win5_6.index ⟨(i 0).val / 8192, hq⟩ (0 : Fin 2) * 8192 + 8192
    rw [e60]; show (i 0).val / 8192 * 8192 ≤ (i 0).val ∧ (i 0).val < (i 0).val / 8192 * 8192 + 8192; omega
  | ⟨1, _⟩ =>
    show win5_6.index ⟨(i 0).val / 8192, hq⟩ (1 : Fin 2) * 128 ≤ (i 1).val ∧ (i 1).val < win5_6.index ⟨(i 0).val / 8192, hq⟩ (1 : Fin 2) * 128 + 128
    rw [e61]; omega

/-- The region's output array after the run is the whole-array term of the arrays as the region finds them. -/
theorem norm5 (c : Dev nD) :
    (dat5 (F := Ideal) V c).arrAt 6 cfg5.N
      = Cert.RegTerms.normTerm (V c main_v236) (V c main_v312) (V c main_v313) (V c main_v314) (V c main_v315) (V c main_v307) :=
  (dat5 (F := Ideal) V c).arrAt_eq_of_cover 6 _ (fun t _ => flushed_eq5 V c t) cover5

end Cert.KernelIdeal.RegValue

end
-- ==== Proof.RegLin6.lean ====
/-
  What the fourth layer's linear kernel leaves in its output array.
  The kernel runs over 32 row tiles of 8192 rows. At tile t it reads rows 8192·t … 8192·t + 8191 of x and of agg, the
  whole of the two 128×128 weights and of the one-row bias, and writes rows 8192·t … 8192·t + 8191 of the output with
      x_tile · Wr + agg_tile · Wn + b.
  Row r of the output lies in tile r / 8192, and there it is row r of  x · Wr + agg · Wn + b  taken over the whole
  arrays (the tile's row p is the arrays' row 8192·t + p). The 32 tiles cover the 262144 rows, so the output array ends
  holding  x · Wr + agg · Wn + b.
-/
import proofs.«170918_j12352325943916_1_alg».proof.Proof.FrameKI
import proofs.«170918_j12352325943916_1_alg».proof.Proof.RegLinPoint
import Idealize.ShloMosaic.Lib.Pipeline.Value

noncomputable section

namespace Cert.KernelIdeal.RegValue

open Cert.KernelIdeal Cert.KernelIdeal.Gen Cert.KernelIdeal.GenP Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- The zero offsets of a whole-tile access. -/
theorem zeroOffsets6 : (![0, 0] : Fin 2 → Nat) = fun _ => 0 := funext fun a => by fin_cases a <;> rfl

/-- The tiles' block indices at grid point t: the two row-tiled inputs and the output are at block (t, 0), the weights
    and the bias row at block (0, 0). -/
theorem blockIndices6 : ∀ t : Fin cfg6.N,
    win6_0.index t (0 : Fin 2) = t.val ∧ win6_0.index t (1 : Fin 2) = 0
    ∧ win6_1.index t (0 : Fin 2) = t.val ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = t.val ∧ win6_5.index t (1 : Fin 2) = 0 :=
  (by decide +kernel : ∀ t : Fin grid6.N, _)

/-- What grid point t writes back is tile t of  x · Wr + agg · Wn + b  over the whole arrays. -/
theorem written6_eq (c : Dev nD) (t : Fin cfg6.N) :
    (dat6 (F := Ideal) V c).flushed 5 t
      = ((cfg6.win 5).blk t).view.read (Elt Ideal) (Cert.RegTerms.linTerm (V c main_v316) (V c main_v330) (V c main_v332) (V c main_v334) (V c main_v337)) := by
  show (cfg6.win 5).cut (grid6.coords t) ((dat6 (F := Ideal) V c).after 5 t) = _
  rw [after6_5]
  unfold out6_5
  rw [View.canon_unit_zero zeroOffsets6]
  simp only [View.ld_unit_zero (S := S8192x128) zeroOffsets6, View.ld_unit_zero (S := S128x128) zeroOffsets6,
    View.ld_unit_zero (S := S1x128) zeroOffsets6]
  obtain ⟨e00, e01, e10, e11, e20, e21, e30, e31, e40, e41, e50, e51⟩ := blockIndices6 t
  funext j
  show k6_pay1 (F := Ideal) (iblk6 V c 0 t) (iblk6 V c 1 t) (iblk6 V c 2 t) (iblk6 V c 3 t) (iblk6 V c 4 t) j
    = (Cert.RegTerms.linTerm (V c main_v316) (V c main_v330) (V c main_v332) (V c main_v334) (V c main_v337)) (((cfg6.win 5).blk t).view.emb j)
  refine pay6_eq_linTerm (iblk6 V c 0 t) (iblk6 V c 1 t) (iblk6 V c 2 t) (iblk6 V c 3 t) (iblk6 V c 4 t)
    (V c main_v316) (V c main_v330) (V c main_v332) (V c main_v334) (V c main_v337) j (((cfg6.win 5).blk t).view.emb j) ?_ ?_ ?_ ?_ ?_ ?_
  · show win6_5.index t (1 : Fin 2) * 128 + 1 * (j 1).val = (j 1).val
    omega
  ·
    intro y z hy hz0 hz1
    show V c main_v316 (((cfg6.win 0).blk t).view.emb y) = V c main_v316 z
    refine congrArg (V c main_v316) (funext fun a => Fin.ext ?_)
    match a with
    | ⟨0, _⟩ =>
      show win6_0.index t (0 : Fin 2) * 8192 + 1 * (y 0).val = (z 0).val
      rw [hz0, hy]
      show _ = win6_5.index t (0 : Fin 2) * 8192 + 1 * (j 0).val
      omega
    | ⟨1, _⟩ =>
      show win6_0.index t (1 : Fin 2) * 128 + 1 * (y 1).val = (z 1).val
      rw [hz1]
      omega
  ·
    intro y z hy hz0 hz1
    show V c main_v330 (((cfg6.win 1).blk t).view.emb y) = V c main_v330 z
    refine congrArg (V c main_v330) (funext fun a => Fin.ext ?_)
    match a with
    | ⟨0, _⟩ =>
      show win6_1.index t (0 : Fin 2) * 8192 + 1 * (y 0).val = (z 0).val
      rw [hz0, hy]
      show _ = win6_5.index t (0 : Fin 2) * 8192 + 1 * (j 0).val
      omega
    | ⟨1, _⟩ =>
      show win6_1.index t (1 : Fin 2) * 128 + 1 * (y 1).val = (z 1).val
      rw [hz1]
      omega
  ·
    funext y
    show V c main_v332 (((cfg6.win 2).blk t).view.emb y) = V c main_v332 y
    refine congrArg (V c main_v332) (funext fun a => Fin.ext ?_)
    match a with
    | ⟨0, _⟩ =>
      show win6_2.index t (0 : Fin 2) * 128 + 1 * (y 0).val = (y 0).val
      omega
    | ⟨1, _⟩ =>
      show win6_2.index t (1 : Fin 2) * 128 + 1 * (y 1).val = (y 1).val
      omega
  ·
    funext y
    show V c main_v334 (((cfg6.win 3).blk t).view.emb y) = V c main_v334 y
    refine congrArg (V c main_v334) (funext fun a => Fin.ext ?_)
    match a with
    | ⟨0, _⟩ =>
      show win6_3.index t (0 : Fin 2) * 128 + 1 * (y 0).val = (y 0).val
      omega
    | ⟨1, _⟩ =>
      show win6_3.index t (1 : Fin 2) * 128 + 1 * (y 1).val = (y 1).val
      omega
  ·
    funext y
    show V c main_v337 (((cfg6.win 4).blk t).view.emb y) = V c main_v337 y
    refine congrArg (V c main_v337) (funext fun a => Fin.ext ?_)
    match a with
    | ⟨0, _⟩ =>
      show win6_4.index t (0 : Fin 2) * 1 + 1 * (y 0).val = (y 0).val
      omega
    | ⟨1, _⟩ =>
      show win6_4.index t (1 : Fin 2) * 128 + 1 * (y 1).val = (y 1).val
      omega

/-- An index of the output array is in tile t iff each coordinate is in the tile's range on its axis. -/
theorem mem_tile6 (t : Fin cfg6.N) (i : S262144x128.Idx) :
    i ∈ ((cfg6.win 5).blk t).view.set
      ↔ ∀ a : Fin 2, win6_5.index t a * S8192x128.size a ≤ (i a).val ∧ (i a).val < win6_5.index t a * S8192x128.size a + S8192x128.size a := by
  show i ∈ ((View.whole main_v338).slice (win6_5.rect t)).set ↔ _
  rw [View.set_slice_whole, Rect.mem_set_unit]
  exact Iff.rfl

/-- Row r of the output array lies in tile r / 8192. -/
theorem tiles_cover6 (i : S262144x128.Idx) :
    ∃ t : Fin cfg6.N, (cfg6.win 5).flush t = true ∧ i ∈ ((cfg6.win 5).blk t).view.set := by
  have hi0 : (i 0).val < 262144 := (i 0).isLt
  have hi1 : (i 1).val < 128 := (i 1).isLt
  have hN : cfg6.N = 32 := N_6
  have ht : (i 0).val / 8192 < cfg6.N := by rw [hN]; omega
  obtain ⟨e00, e01, e10, e11, e20, e21, e30, e31, e40, e41, e50, e51⟩ := blockIndices6 ⟨(i 0).val / 8192, ht⟩
  refine ⟨⟨(i 0).val / 8192, ht⟩, flush6_5 _, ?_⟩
  rw [mem_tile6]
  intro a
  match a with
  | ⟨0, _⟩ =>
    show win6_5.index ⟨(i 0).val / 8192, ht⟩ (0 : Fin 2) * 8192 ≤ (i 0).val
      ∧ (i 0).val < win6_5.index ⟨(i 0).val / 8192, ht⟩ (0 : Fin 2) * 8192 + 8192
    rw [e50]
    show (i 0).val / 8192 * 8192 ≤ (i 0).val ∧ (i 0).val < (i 0).val / 8192 * 8192 + 8192
    omega
  | ⟨1, _⟩ =>
    show win6_5.index ⟨(i 0).val / 8192, ht⟩ (1 : Fin 2) * 128 ≤ (i 1).val
      ∧ (i 1).val < win6_5.index ⟨(i 0).val / 8192, ht⟩ (1 : Fin 2) * 128 + 128
    rw [e51]
    omega

/-- The fourth layer's linear kernel leaves  x · Wr + agg · Wn + b  in its output array. -/
theorem lin6 (c : Dev nD) :
    (dat6 (F := Ideal) V c).arrAt 5 cfg6.N
      = Cert.RegTerms.linTerm (V c main_v316) (V c main_v330) (V c main_v332) (V c main_v334) (V c main_v337) :=
  (dat6 (F := Ideal) V c).arrAt_eq_of_cover 5 (Cert.RegTerms.linTerm (V c main_v316) (V c main_v330) (V c main_v332) (V c main_v334) (V c main_v337))
    (fun t _ => written6_eq V c t) tiles_cover6

end Cert.KernelIdeal.RegValue

end
-- ==== Proof.RegNorm7.lean ====
/-
  Normalise-and-recombine region 7, as one array. The grid has 32 points; point t reads rows 8192·t … 8192·t + 8191 of the
  linear part and of the carried features, reads the four one-row statistics whole, and writes the same rows of the output.
  So every row R of the output is written by point R / 8192, and what is written there is the whole-array term's row R.
-/
import proofs.«170918_j12352325943916_1_alg».proof.Proof.FrameKI
import proofs.«170918_j12352325943916_1_alg».proof.Proof.RegNormPoint
import Idealize.ShloMosaic.Lib.Pipeline.Value

noncomputable section

namespace Cert.KernelIdeal.RegValue

open Cert.KernelIdeal Cert.KernelIdeal.Gen Cert.KernelIdeal.GenP Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The printed index maps over the 32 points: the two tiled inputs and the output sit at block row t, the four
    statistics at block (0, 0). -/
theorem idx_facts7 : ∀ t : Fin cfg7.N,
    win7_0.index t (0 : Fin 2) = t.val ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0
    ∧ win7_4.index t (0 : Fin 2) = 0 ∧ win7_4.index t (1 : Fin 2) = 0
    ∧ win7_5.index t (0 : Fin 2) = t.val ∧ win7_5.index t (1 : Fin 2) = 0
    ∧ win7_6.index t (0 : Fin 2) = t.val ∧ win7_6.index t (1 : Fin 2) = 0 :=
  (by decide +kernel : ∀ t : Fin grid7.N, _)

/-- What point t writes back is block t of the whole-array term of the arrays as the region finds them. -/
theorem flushed_eq7 (c : Dev nD) (t : Fin cfg7.N) :
    (dat7 (F := Ideal) V c).flushed 6 t = ((cfg7.win 6).blk t).view.read (Elt Ideal)
      (Cert.RegTerms.normTerm (V c main_v338) (V c main_v414) (V c main_v415) (V c main_v416) (V c main_v417) (V c main_v409)) := by
  show (cfg7.win 6).cut (grid7.coords t) ((dat7 V c).after 6 t) = _
  rw [after7_6]
  unfold out7_6
  rw [View.canon_unit_zero zero_offsets]
  simp only [View.ld_unit_zero (S := S8192x128) zero_offsets, View.ld_unit_zero (S := S1x128) zero_offsets]
  obtain ⟨e00, e01, e10, e11, e20, e21, e30, e31, e40, e41, e50, e51, e60, e61⟩ := idx_facts7 t
  have hN : t.val < 32 := by have h := t.isLt; have e : cfg7.N = 32 := N_7; omega
  funext j
  obtain ⟨r, col, rfl⟩ : ∃ (r : Fin 8192) (col : Fin 128), j = ix2 r col := ⟨j 0, j 1, eq_ix2 j⟩
  have hR : t.val * 8192 + r.val < 262144 := by have := r.isLt; omega
  have hemb : ((cfg7.win 6).blk t).view.emb (ix2 r col) = ix2 (⟨t.val * 8192 + r.val, hR⟩ : Fin 262144) col := by
    funext a; apply Fin.ext
    match a with
    | ⟨0, _⟩ => show win7_6.index t (0 : Fin 2) * 8192 + 1 * r.val = t.val * 8192 + r.val; rw [e60]; omega
    | ⟨1, _⟩ => show win7_6.index t (1 : Fin 2) * 128 + 1 * col.val = col.val; rw [e61]; omega
  show k7_pay1 (iblk7 V c 0 t) (iblk7 V c 1 t) (iblk7 V c 2 t) (iblk7 V c 3 t) (iblk7 V c 4 t) (iblk7 V c 5 t) (ix2 r col)
      = Cert.RegTerms.normTerm (V c main_v338) (V c main_v414) (V c main_v415) (V c main_v416) (V c main_v417) (V c main_v409) (((cfg7.win 6).blk t).view.emb (ix2 r col))
  rw [hemb]
  refine norm_point7 (iblk7 V c 0 t) (iblk7 V c 1 t) (iblk7 V c 2 t) (iblk7 V c 3 t) (iblk7 V c 4 t) (iblk7 V c 5 t)
    (V c main_v338) (V c main_v414) (V c main_v415) (V c main_v416) (V c main_v417) (V c main_v409) r col ⟨t.val * 8192 + r.val, hR⟩ ?_ ?_ ?_ ?_ ?_ ?_
  · show V c main_v338 (((cfg7.win 0).blk t).view.emb (ix2 r col)) = V c main_v338 (ix2 (⟨t.val * 8192 + r.val, hR⟩ : Fin 262144) col)
    refine congrArg _ (funext fun a => Fin.ext ?_)
    match a with
    | ⟨0, _⟩ => show win7_0.index t (0 : Fin 2) * 8192 + 1 * r.val = t.val * 8192 + r.val; rw [e00]; omega
    | ⟨1, _⟩ => show win7_0.index t (1 : Fin 2) * 128 + 1 * col.val = col.val; rw [e01]; omega
  · show V c main_v414 (((cfg7.win 1).blk t).view.emb (ix2 (0 : Fin 1) col)) = V c main_v414 (ix2 (0 : Fin 1) col)
    refine congrArg _ (funext fun a => Fin.ext ?_)
    match a with
    | ⟨0, _⟩ => show win7_1.index t (0 : Fin 2) * 1 + 1 * (0 : Nat) = 0; rw [e10]
    | ⟨1, _⟩ => show win7_1.index t (1 : Fin 2) * 128 + 1 * col.val = col.val; rw [e11]; omega
  · show V c main_v415 (((cfg7.win 2).blk t).view.emb (ix2 (0 : Fin 1) col)) = V c main_v415 (ix2 (0 : Fin 1) col)
    refine congrArg _ (funext fun a => Fin.ext ?_)
    match a with
    | ⟨0, _⟩ => show win7_2.index t (0 : Fin 2) * 1 + 1 * (0 : Nat) = 0; rw [e20]
    | ⟨1, _⟩ => show win7_2.index t (1 : Fin 2) * 128 + 1 * col.val = col.val; rw [e21]; omega
  · show V c main_v416 (((cfg7.win 3).blk t).view.emb (ix2 (0 : Fin 1) col)) = V c main_v416 (ix2 (0 : Fin 1) col)
    refine congrArg _ (funext fun a => Fin.ext ?_)
    match a with
    | ⟨0, _⟩ => show win7_3.index t (0 : Fin 2) * 1 + 1 * (0 : Nat) = 0; rw [e30]
    | ⟨1, _⟩ => show win7_3.index t (1 : Fin 2) * 128 + 1 * col.val = col.val; rw [e31]; omega
  · show V c main_v417 (((cfg7.win 4).blk t).view.emb (ix2 (0 : Fin 1) col)) = V c main_v417 (ix2 (0 : Fin 1) col)
    refine congrArg _ (funext fun a => Fin.ext ?_)
    match a with
    | ⟨0, _⟩ => show win7_4.index t (0 : Fin 2) * 1 + 1 * (0 : Nat) = 0; rw [e40]
    | ⟨1, _⟩ => show win7_4.index t (1 : Fin 2) * 128 + 1 * col.val = col.val; rw [e41]; omega
  · show V c main_v409 (((cfg7.win 5).blk t).view.emb (ix2 r col)) = V c main_v409 (ix2 (⟨t.val * 8192 + r.val, hR⟩ : Fin 262144) col)
    refine congrArg _ (funext fun a => Fin.ext ?_)
    match a with
    | ⟨0, _⟩ => show win7_5.index t (0 : Fin 2) * 8192 + 1 * r.val = t.val * 8192 + r.val; rw [e50]; omega
    | ⟨1, _⟩ => show win7_5.index t (1 : Fin 2) * 128 + 1 * col.val = col.val; rw [e51]; omega

/-- An index of the output is in point t's block iff each coordinate is in the block's range on its axis. -/
theorem mem_blk7 (t : Fin cfg7.N) (i : S262144x128.Idx) :
    i ∈ ((cfg7.win 6).blk t).view.set ↔ ∀ a : Fin 2, win7_6.index t a * S8192x128.size a ≤ (i a).val ∧ (i a).val < win7_6.index t a * S8192x128.size a + S8192x128.size a := by
  show i ∈ ((View.whole main_v418).slice (win7_6.rect t)).set ↔ _
  rw [View.set_slice_whole, Rect.mem_set_unit]
  exact Iff.rfl

/-- Row R of the output lies in the block of point R / 8192. -/
theorem cover7 (i : S262144x128.Idx) : ∃ t : Fin cfg7.N, (cfg7.win 6).flush t = true ∧ i ∈ ((cfg7.win 6).blk t).view.set := by
  have hi0 : (i 0).val < 262144 := (i 0).isLt
  have hi1 : (i 1).val < 128 := (i 1).isLt
  have hN : cfg7.N = 32 := N_7
  have hq : (i 0).val / 8192 < cfg7.N := by rw [hN]; omega
  obtain ⟨-, -, -, -, -, -, -, -, -, -, -, -, e60, e61⟩ := idx_facts7 ⟨(i 0).val / 8192, hq⟩
  refine ⟨⟨(i 0).val / 8192, hq⟩, flush7_6 _, ?_⟩
  rw [mem_blk7]
  intro a
  match a with
  | ⟨0, _⟩ =>
    show win7_6.index ⟨(i 0).val / 8192, hq⟩ (0 : Fin 2) * 8192 ≤ (i 0).val ∧ (i 0).val < win7_6.index ⟨(i 0).val / 8192, hq⟩ (0 : Fin 2) * 8192 + 8192
    rw [e60]; show (i 0).val / 8192 * 8192 ≤ (i 0).val ∧ (i 0).val < (i 0).val / 8192 * 8192 + 8192; omega
  | ⟨1, _⟩ =>
    show win7_6.index ⟨(i 0).val / 8192, hq⟩ (1 : Fin 2) * 128 ≤ (i 1).val ∧ (i 1).val < win7_6.index ⟨(i 0).val / 8192, hq⟩ (1 : Fin 2) * 128 + 128
    rw [e61]; omega

/-- The region's output array after the run is the whole-array term of the arrays as the region finds them. -/
theorem norm7 (c : Dev nD) :
    (dat7 (F := Ideal) V c).arrAt 6 cfg7.N
      = Cert.RegTerms.normTerm (V c main_v338) (V c main_v414) (V c main_v415) (V c main_v416) (V c main_v417) (V c main_v409) :=
  (dat7 (F := Ideal) V c).arrAt_eq_of_cover 6 _ (fun t _ => flushed_eq7 V c t) cover7

end Cert.KernelIdeal.RegValue

end
-- ==== Proof.RegMlpPoint.lean ====
/-
  The two-layer head's stored value as one array expression: with the [16,128] features, the two weight matrices and the
  two one-row biases read whole, the kernel's  max(hg·W1 + b1, 0)·W2 + b2  (each product accumulated into a zero splat,
  each bias a vector broadcast down the 16 rows) is the host's expression of the same five arrays (products without an
  accumulator, biases broadcast along both axes, the zero a broadcast scalar constant).
-/
import proofs.«170918_j12352325943916_1_alg».proof.Proof.Gen.KernelIdeal.Skeleton
import proofs.«170918_j12352325943916_1_alg».proof.Proof.RegTerms
import proofs.«170918_j12352325943916_1_alg».proof.Proof.RegRows

noncomputable section

namespace Cert.KernelIdeal.RegValue

open Cert.KernelIdeal Cert.KernelIdeal.Gen Idealize.ShloMosaic Idealize.ShloMosaic.ValueIdx

/-- The two programs print the [16,128]·[128,256] product's dimension numbers as the same record. -/
theorem dot_hidden_eq : dot_S16x128_S128x256_S16x256_1_0_0_1_n_n = Cert.ReferenceIdeal.dot_S16x128_S128x256_S16x256_1_0_0_1_n_n := rfl
/-- The two programs print the [16,256]·[256,10] product's dimension numbers as the same record. -/
theorem dot_out_eq : dot_S16x256_S256x10_S16x10_1_0_0_1_n_n = Cert.ReferenceIdeal.dot_S16x256_S256x10_S16x10_1_0_0_1_n_n := rfl

/-- The head's stored value is the host's term of the five arrays it reads. -/
theorem k8_pay1_eq (x0 : Vec Ideal S16x128 .f32) (x1 : Vec Ideal S128x256 .f32) (x2 : Vec Ideal S1x256 .f32) (x3 : Vec Ideal S256x10 .f32)
    (x4 : Vec Ideal S1x10 .f32) :
    k8_pay1 (F := Ideal) x0 x1 x2 x3 x4 = Cert.RegTerms.mlpTerm x0 x1 x2 x3 x4 := by
  unfold k8_pay1 Cert.RegTerms.mlpTerm
  simp only [shapeCast_self]
  rw [matmul_zero_eq_dotGeneral, matmul_zero_eq_dotGeneral, dot_hidden_eq, dot_out_eq,
    broadcastTo_oneRow_eq_broadcastInDim broadcasts_S1x256_S16x256 Cert.ReferenceIdeal.Gen.bcast_S1x256_S16x256_0_1 x2,
    broadcastTo_oneRow_eq_broadcastInDim broadcasts_S1x10_S16x10 Cert.ReferenceIdeal.Gen.bcast_S1x10_S16x10_0_1 x4]
  rfl

/-- The same with the five reads named: whatever the kernel loaded, if each is the array then the stored value is the term. -/
theorem mlp_point (x0 : Vec Ideal S16x128 .f32) (x1 : Vec Ideal S128x256 .f32) (x2 : Vec Ideal S1x256 .f32) (x3 : Vec Ideal S256x10 .f32)
    (x4 : Vec Ideal S1x10 .f32) (hg : FVec Ideal Cert.ReferenceIdeal.S16x128 .f32) (w1 : FVec Ideal Cert.ReferenceIdeal.S128x256 .f32)
    (b1 : FVec Ideal Cert.ReferenceIdeal.S1x256 .f32) (w2 : FVec Ideal Cert.ReferenceIdeal.S256x10 .f32) (b2 : FVec Ideal Cert.ReferenceIdeal.S1x10 .f32)
    (h0 : x0 = hg) (h1 : x1 = w1) (h2 : x2 = b1) (h3 : x3 = w2) (h4 : x4 = b2) :
    k8_pay1 (F := Ideal) x0 x1 x2 x3 x4 = Cert.RegTerms.mlpTerm hg w1 b1 w2 b2 := by
  subst h0 h1 h2 h3 h4
  exact k8_pay1_eq _ _ _ _ _

end Cert.KernelIdeal.RegValue

end
-- ==== Proof.RegMlp8.lean ====
/-
  The two-layer head's region, as one array. Its grid is a single point at which every window is its whole array, so the
  point reads the five arrays whole and writes the whole [16,10] output: the array after the run is the head's term of
  the arrays as the region finds them.
-/
import proofs.«170918_j12352325943916_1_alg».proof.Proof.FrameKI
import proofs.«170918_j12352325943916_1_alg».proof.Proof.RegMlpPoint
import Idealize.ShloMosaic.Lib.Pipeline.Value

noncomputable section

namespace Cert.KernelIdeal.RegValue

open Cert.KernelIdeal Cert.KernelIdeal.Gen Cert.KernelIdeal.GenP Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The printed index maps at the grid's one point: every window sits at block (0, 0). -/
theorem idx_facts8 : ∀ t : Fin cfg8.N,
    win8_0.index t (0 : Fin 2) = 0 ∧ win8_0.index t (1 : Fin 2) = 0
    ∧ win8_1.index t (0 : Fin 2) = 0 ∧ win8_1.index t (1 : Fin 2) = 0
    ∧ win8_2.index t (0 : Fin 2) = 0 ∧ win8_2.index t (1 : Fin 2) = 0
    ∧ win8_3.index t (0 : Fin 2) = 0 ∧ win8_3.index t (1 : Fin 2) = 0
    ∧ win8_4.index t (0 : Fin 2) = 0 ∧ win8_4.index t (1 : Fin 2) = 0
    ∧ win8_5.index t (0 : Fin 2) = 0 ∧ win8_5.index t (1 : Fin 2) = 0 :=
  (by decide +kernel : ∀ t : Fin grid8.N, _)

/-- Window 0's one block is its whole array. -/
theorem iblk8_0_eq (c : Dev nD) (t : Fin cfg8.N) : (iblk8 V c 0 t : Vec Ideal S16x128 .f32) = V c main_v440 := by
  obtain ⟨e00, e01, e10, e11, e20, e21, e30, e31, e40, e41, e50, e51⟩ := idx_facts8 t
  funext y
  show V c main_v440 (((cfg8.win 0).blk t).view.emb y) = V c main_v440 y
  refine congrArg _ (funext fun a => Fin.ext ?_)
  match a with
  | ⟨0, _⟩ => show win8_0.index t (0 : Fin 2) * 16 + 1 * (y 0).val = (y 0).val; rw [e00]; omega
  | ⟨1, _⟩ => show win8_0.index t (1 : Fin 2) * 128 + 1 * (y 1).val = (y 1).val; rw [e01]; omega

/-- Window 1's one block is its whole array. -/
theorem iblk8_1_eq (c : Dev nD) (t : Fin cfg8.N) : (iblk8 V c 1 t : Vec Ideal S128x256 .f32) = V c main_arg11 := by
  obtain ⟨e00, e01, e10, e11, e20, e21, e30, e31, e40, e41, e50, e51⟩ := idx_facts8 t
  funext y
  show V c main_arg11 (((cfg8.win 1).blk t).view.emb y) = V c main_arg11 y
  refine congrArg _ (funext fun a => Fin.ext ?_)
  match a with
  | ⟨0, _⟩ => show win8_1.index t (0 : Fin 2) * 128 + 1 * (y 0).val = (y 0).val; rw [e10]; omega
  | ⟨1, _⟩ => show win8_1.index t (1 : Fin 2) * 256 + 1 * (y 1).val = (y 1).val; rw [e11]; omega

/-- Window 2's one block is its whole array. -/
theorem iblk8_2_eq (c : Dev nD) (t : Fin cfg8.N) : (iblk8 V c 2 t : Vec Ideal S1x256 .f32) = V c main_v441 := by
  obtain ⟨e00, e01, e10, e11, e20, e21, e30, e31, e40, e41, e50, e51⟩ := idx_facts8 t
  funext y
  show V c main_v441 (((cfg8.win 2).blk t).view.emb y) = V c main_v441 y
  refine congrArg _ (funext fun a => Fin.ext ?_)
  match a with
  | ⟨0, _⟩ => show win8_2.index t (0 : Fin 2) * 1 + 1 * (y 0).val = (y 0).val; rw [e20]; omega
  | ⟨1, _⟩ => show win8_2.index t (1 : Fin 2) * 256 + 1 * (y 1).val = (y 1).val; rw [e21]; omega

/-- Window 3's one block is its whole array. -/
theorem iblk8_3_eq (c : Dev nD) (t : Fin cfg8.N) : (iblk8 V c 3 t : Vec Ideal S256x10 .f32) = V c main_arg13 := by
  obtain ⟨e00, e01, e10, e11, e20, e21, e30, e31, e40, e41, e50, e51⟩ := idx_facts8 t
  funext y
  show V c main_arg13 (((cfg8.win 3).blk t).view.emb y) = V c main_arg13 y
  refine congrArg _ (funext fun a => Fin.ext ?_)
  match a with
  | ⟨0, _⟩ => show win8_3.index t (0 : Fin 2) * 256 + 1 * (y 0).val = (y 0).val; rw [e30]; omega
  | ⟨1, _⟩ => show win8_3.index t (1 : Fin 2) * 10 + 1 * (y 1).val = (y 1).val; rw [e31]; omega

/-- Window 4's one block is its whole array. -/
theorem iblk8_4_eq (c : Dev nD) (t : Fin cfg8.N) : (iblk8 V c 4 t : Vec Ideal S1x10 .f32) = V c main_v442 := by
  obtain ⟨e00, e01, e10, e11, e20, e21, e30, e31, e40, e41, e50, e51⟩ := idx_facts8 t
  funext y
  show V c main_v442 (((cfg8.win 4).blk t).view.emb y) = V c main_v442 y
  refine congrArg _ (funext fun a => Fin.ext ?_)
  match a with
  | ⟨0, _⟩ => show win8_4.index t (0 : Fin 2) * 1 + 1 * (y 0).val = (y 0).val; rw [e40]; omega
  | ⟨1, _⟩ => show win8_4.index t (1 : Fin 2) * 10 + 1 * (y 1).val = (y 1).val; rw [e41]; omega

/-- What the point writes back is the (whole-array) block of the head's term of the arrays as the region finds them. -/
theorem flushed_eq8 (c : Dev nD) (t : Fin cfg8.N) :
    (dat8 (F := Ideal) V c).flushed 5 t = ((cfg8.win 5).blk t).view.read (Elt Ideal)
      (Cert.RegTerms.mlpTerm (V c main_v440) (V c main_arg11) (V c main_v441) (V c main_arg13) (V c main_v442)) := by
  show (cfg8.win 5).cut (grid8.coords t) ((dat8 V c).after 5 t) = _
  rw [after8_5]
  unfold out8_5
  rw [View.canon_unit_zero zero_offsets]
  simp only [View.ld_unit_zero (S := S16x128) zero_offsets, View.ld_unit_zero (S := S128x256) zero_offsets,
    View.ld_unit_zero (S := S1x256) zero_offsets, View.ld_unit_zero (S := S256x10) zero_offsets, View.ld_unit_zero (S := S1x10) zero_offsets]
  obtain ⟨-, -, -, -, -, -, -, -, -, -, e50, e51⟩ := idx_facts8 t
  funext j
  have hemb : ((cfg8.win 5).blk t).view.emb j = (j : S16x10.Idx) := by
    funext a; apply Fin.ext
    match a with
    | ⟨0, _⟩ => show win8_5.index t (0 : Fin 2) * 16 + 1 * (j 0).val = (j 0).val; rw [e50]; omega
    | ⟨1, _⟩ => show win8_5.index t (1 : Fin 2) * 10 + 1 * (j 1).val = (j 1).val; rw [e51]; omega
  show k8_pay1 (iblk8 V c 0 t) (iblk8 V c 1 t) (iblk8 V c 2 t) (iblk8 V c 3 t) (iblk8 V c 4 t) j
      = Cert.RegTerms.mlpTerm (V c main_v440) (V c main_arg11) (V c main_v441) (V c main_arg13) (V c main_v442) (((cfg8.win 5).blk t).view.emb j)
  rw [hemb]
  exact congrFun (mlp_point (iblk8 V c 0 t) (iblk8 V c 1 t) (iblk8 V c 2 t) (iblk8 V c 3 t) (iblk8 V c 4 t)
    (V c main_v440) (V c main_arg11) (V c main_v441) (V c main_arg13) (V c main_v442)
    (iblk8_0_eq V c t) (iblk8_1_eq V c t) (iblk8_2_eq V c t) (iblk8_3_eq V c t) (iblk8_4_eq V c t)) j

/-- An index of the output is in the point's block iff each coordinate is in the block's range on its axis. -/
theorem mem_blk8 (t : Fin cfg8.N) (i : S16x10.Idx) :
    i ∈ ((cfg8.win 5).blk t).view.set ↔ ∀ a : Fin 2, win8_5.index t a * S16x10.size a ≤ (i a).val ∧ (i a).val < win8_5.index t a * S16x10.size a + S16x10.size a := by
  show i ∈ ((View.whole main_v443).slice (win8_5.rect t)).set ↔ _
  rw [View.set_slice_whole, Rect.mem_set_unit]
  exact Iff.rfl

/-- Every index of the output lies in the one point's block. -/
theorem cover8 (i : S16x10.Idx) : ∃ t : Fin cfg8.N, (cfg8.win 5).flush t = true ∧ i ∈ ((cfg8.win 5).blk t).view.set := by
  have hi0 : (i 0).val < 16 := (i 0).isLt
  have hi1 : (i 1).val < 10 := (i 1).isLt
  obtain ⟨-, -, -, -, -, -, -, -, -, -, e50, e51⟩ := idx_facts8 t8_0
  refine ⟨t8_0, flush8_5 _, ?_⟩
  rw [mem_blk8]
  intro a
  match a with
  | ⟨0, _⟩ =>
    show win8_5.index t8_0 (0 : Fin 2) * 16 ≤ (i 0).val ∧ (i 0).val < win8_5.index t8_0 (0 : Fin 2) * 16 + 16
    rw [e50]; omega
  | ⟨1, _⟩ =>
    show win8_5.index t8_0 (1 : Fin 2) * 10 ≤ (i 1).val ∧ (i 1).val < win8_5.index t8_0 (1 : Fin 2) * 10 + 10
    rw [e51]; omega

/-- The head's output array after the run is its term of the arrays as the region finds them. -/
theorem mlp8 (c : Dev nD) :
    (dat8 (F := Ideal) V c).arrAt 5 cfg8.N
      = Cert.RegTerms.mlpTerm (V c main_v440) (V c main_arg11) (V c main_v441) (V c main_arg13) (V c main_v442) :=
  (dat8 (F := Ideal) V c).arrAt_eq_of_cover 5 _ (fun t _ => flushed_eq8 V c t) cover8

end Cert.KernelIdeal.RegValue

end
-- ==== Proof.KerRegs.lean ====
/-
  What each region of the kernel program leaves in its output array, written as the reference program writes the same
  quantity. A region's one-row inputs (the bias; the batch statistics, scale and shift) are made on the host from vectors
  by a change of shape; such a row is the vector's broadcast along the last axis. With that, the linear regions leave
  x·Wr + agg·Wn + b, the normalise-combine regions max(((lin − μ)·rsqrt(var + ε))·γ + β + h, 0), and the last region the
  two-layer head, each as a function of what the stretch before the region computes.
-/
import proofs.«170918_j12352325943916_1_alg».proof.Proof.KerLayers
import proofs.«170918_j12352325943916_1_alg».proof.Proof.RefShapes
import proofs.«170918_j12352325943916_1_alg».proof.Proof.LibLayout
import proofs.«170918_j12352325943916_1_alg».proof.Proof.EvalAfter
import proofs.«170918_j12352325943916_1_alg».proof.Proof.RegLin0
import proofs.«170918_j12352325943916_1_alg».proof.Proof.RegNorm1
import proofs.«170918_j12352325943916_1_alg».proof.Proof.RegLin2
import proofs.«170918_j12352325943916_1_alg».proof.Proof.RegNorm3
import proofs.«170918_j12352325943916_1_alg».proof.Proof.RegLin4
import proofs.«170918_j12352325943916_1_alg».proof.Proof.RegNorm5
import proofs.«170918_j12352325943916_1_alg».proof.Proof.RegLin6
import proofs.«170918_j12352325943916_1_alg».proof.Proof.RegNorm7
import proofs.«170918_j12352325943916_1_alg».proof.Proof.RegMlp8

set_option maxRecDepth 16384

noncomputable section

namespace Cert.KernelIdeal.KerRegs

open Cert.KernelIdeal Cert.KernelIdeal.Gen Cert.KernelIdeal.GenP Cert.KernelIdeal.RegValue Cert.KernelIdeal.KerLayers Cert.RegTerms Cert.RefShapes
open Idealize.ShloMosaic Idealize.ShloMosaic.TcCoe Idealize.SL.Sem Idealize.ShloMosaic.StableHlo Cert.Tac

/-! ## Region 0 -/

set_option backward.isDefEq.respectTransparency.types false in
/-- Region 0's output array after the region, from the contents the region is entered with. -/
theorem Rg0_out (W : Fam Ideal) (c : Dev nD) :
    Rg0 W c (Proc.devRef .tc main_v32) = linTerm (W c (Proc.devRef .tc main_arg0)) (W c (Proc.devRef .tc main_v24)) (W c (Proc.devRef .tc main_v26)) (W c (Proc.devRef .tc main_v28)) (W c (Proc.devRef .tc main_v31)) :=
  (Pipeline.withArrays_arr spec0 launch0.win.arr_inj c _ _ 5).trans (lin0 (fv W) c)

set_option backward.isDefEq.respectTransparency.types false in
/-- The one-row buffer %v31 is the vector %v30 made a row. -/
theorem row_main_v31 (V : Valuation τ sig (Elt Ideal)) :
    after hostOps0_2 V (Proc.devRef .tc main_v31) = row (after hostOps0_2 V (Proc.devRef .tc main_v30)) := by
  eval_after [hostOps0_2]
  exact Cert.LibLayout.shapeCast_eq_broadcastInDim_row _ _ _

set_option backward.isDefEq.respectTransparency.types false in
/-- Region 0's output array, from the contents its stretch starts from, the rows written as broadcasts of the vectors. -/
theorem Rg0H_out (W : Fam Ideal) (c : Dev nD) :
    Rg0 (H0 W) c (Proc.devRef .tc main_v32) = linRef (H0 W c (Proc.devRef .tc main_arg0)) (H0 W c (Proc.devRef .tc main_v24)) (H0 W c (Proc.devRef .tc main_v26)) (H0 W c (Proc.devRef .tc main_v28)) (H0 W c (Proc.devRef .tc main_v30)) := by
  rw [Rg0_out]
  have e_main_v31 : H0 W c (Proc.devRef .tc main_v31) = row (H0 W c (Proc.devRef .tc main_v30)) := row_main_v31 _
  rw [e_main_v31, linTerm_row]

/-! ## Region 1 -/

set_option backward.isDefEq.respectTransparency.types false in
/-- Region 1's output array after the region, from the contents the region is entered with. -/
theorem Rg1_out (W : Fam Ideal) (c : Dev nD) :
    Rg1 W c (Proc.devRef .tc main_v112) = normTerm (W c (Proc.devRef .tc main_v32)) (W c (Proc.devRef .tc main_v108)) (W c (Proc.devRef .tc main_v109)) (W c (Proc.devRef .tc main_v110)) (W c (Proc.devRef .tc main_v111)) (W c (Proc.devRef .tc main_v103)) :=
  (Pipeline.withArrays_arr spec1 launch1.win.arr_inj c _ _ 6).trans (norm1 (fv W) c)

set_option backward.isDefEq.respectTransparency.types false in
/-- The one-row buffer %v108 is the vector %v35 made a row. -/
theorem row_main_v108 (V : Valuation τ sig (Elt Ideal)) :
    after hostOps1_4 V (Proc.devRef .tc main_v108) = row (after hostOps1_4 V (Proc.devRef .tc main_v35)) := by
  eval_after [hostOps1_4]
  exact Cert.LibLayout.shapeCast_eq_broadcastInDim_row _ _ _

set_option backward.isDefEq.respectTransparency.types false in
/-- The one-row buffer %v109 is the vector %v36 made a row. -/
theorem row_main_v109 (V : Valuation τ sig (Elt Ideal)) :
    after hostOps1_4 V (Proc.devRef .tc main_v109) = row (after hostOps1_4 V (Proc.devRef .tc main_v36)) := by
  eval_after [hostOps1_4]
  exact Cert.LibLayout.shapeCast_eq_broadcastInDim_row _ _ _

set_option backward.isDefEq.respectTransparency.types false in
/-- The one-row buffer %v110 is the vector %v105 made a row. -/
theorem row_main_v110 (V : Valuation τ sig (Elt Ideal)) :
    after hostOps1_4 V (Proc.devRef .tc main_v110) = row (after hostOps1_4 V (Proc.devRef .tc main_v105)) := by
  eval_after [hostOps1_4]
  exact Cert.LibLayout.shapeCast_eq_broadcastInDim_row _ _ _

set_option backward.isDefEq.respectTransparency.types false in
/-- The one-row buffer %v111 is the vector %v107 made a row. -/
theorem row_main_v111 (V : Valuation τ sig (Elt Ideal)) :
    after hostOps1_4 V (Proc.devRef .tc main_v111) = row (after hostOps1_4 V (Proc.devRef .tc main_v107)) := by
  eval_after [hostOps1_4]
  exact Cert.LibLayout.shapeCast_eq_broadcastInDim_row _ _ _

set_option backward.isDefEq.respectTransparency.types false in
/-- Region 1's output array, from the contents its stretch starts from, the rows written as broadcasts of the vectors. -/
theorem Rg1H_out (W : Fam Ideal) (c : Dev nD) :
    Rg1 (H1 W) c (Proc.devRef .tc main_v112) = normRef (H1 W c (Proc.devRef .tc main_v32)) (H1 W c (Proc.devRef .tc main_v35)) (H1 W c (Proc.devRef .tc main_v36)) (H1 W c (Proc.devRef .tc main_v105)) (H1 W c (Proc.devRef .tc main_v107)) (H1 W c (Proc.devRef .tc main_v103)) := by
  rw [Rg1_out]
  have e_main_v108 : H1 W c (Proc.devRef .tc main_v108) = row (H1 W c (Proc.devRef .tc main_v35)) := row_main_v108 _
  have e_main_v109 : H1 W c (Proc.devRef .tc main_v109) = row (H1 W c (Proc.devRef .tc main_v36)) := row_main_v109 _
  have e_main_v110 : H1 W c (Proc.devRef .tc main_v110) = row (H1 W c (Proc.devRef .tc main_v105)) := row_main_v110 _
  have e_main_v111 : H1 W c (Proc.devRef .tc main_v111) = row (H1 W c (Proc.devRef .tc main_v107)) := row_main_v111 _
  rw [e_main_v108, e_main_v109, e_main_v110, e_main_v111, normTerm_row]

/-! ## Region 2 -/

set_option backward.isDefEq.respectTransparency.types false in
/-- Region 2's output array after the region, from the contents the region is entered with. -/
theorem Rg2_out (W : Fam Ideal) (c : Dev nD) :
    Rg2 W c (Proc.devRef .tc main_v134) = linTerm (W c (Proc.devRef .tc main_v112)) (W c (Proc.devRef .tc main_v126)) (W c (Proc.devRef .tc main_v128)) (W c (Proc.devRef .tc main_v130)) (W c (Proc.devRef .tc main_v133)) :=
  (Pipeline.withArrays_arr spec2 launch2.win.arr_inj c _ _ 5).trans (lin2 (fv W) c)

set_option backward.isDefEq.respectTransparency.types false in
/-- The one-row buffer %v133 is the vector %v132 made a row. -/
theorem row_main_v133 (V : Valuation τ sig (Elt Ideal)) :
    after hostOps2 V (Proc.devRef .tc main_v133) = row (after hostOps2 V (Proc.devRef .tc main_v132)) := by
  eval_after [hostOps2]
  exact Cert.LibLayout.shapeCast_eq_broadcastInDim_row _ _ _

set_option backward.isDefEq.respectTransparency.types false in
/-- Region 2's output array, from the contents its stretch starts from, the rows written as broadcasts of the vectors. -/
theorem Rg2H_out (W : Fam Ideal) (c : Dev nD) :
    Rg2 (H2 W) c (Proc.devRef .tc main_v134) = linRef (H2 W c (Proc.devRef .tc main_v112)) (H2 W c (Proc.devRef .tc main_v126)) (H2 W c (Proc.devRef .tc main_v128)) (H2 W c (Proc.devRef .tc main_v130)) (H2 W c (Proc.devRef .tc main_v132)) := by
  rw [Rg2_out]
  have e_main_v133 : H2 W c (Proc.devRef .tc main_v133) = row (H2 W c (Proc.devRef .tc main_v132)) := row_main_v133 _
  rw [e_main_v133, linTerm_row]

/-! ## Region 3 -/

set_option backward.isDefEq.respectTransparency.types false in
/-- Region 3's output array after the region, from the contents the region is entered with. -/
theorem Rg3_out (W : Fam Ideal) (c : Dev nD) :
    Rg3 W c (Proc.devRef .tc main_v214) = normTerm (W c (Proc.devRef .tc main_v134)) (W c (Proc.devRef .tc main_v210)) (W c (Proc.devRef .tc main_v211)) (W c (Proc.devRef .tc main_v212)) (W c (Proc.devRef .tc main_v213)) (W c (Proc.devRef .tc main_v205)) :=
  (Pipeline.withArrays_arr spec3 launch3.win.arr_inj c _ _ 6).trans (norm3 (fv W) c)

set_option backward.isDefEq.respectTransparency.types false in
/-- The one-row buffer %v210 is the vector %v137 made a row. -/
theorem row_main_v210 (V : Valuation τ sig (Elt Ideal)) :
    after hostOps3_4 V (Proc.devRef .tc main_v210) = row (after hostOps3_4 V (Proc.devRef .tc main_v137)) := by
  eval_after [hostOps3_4]
  exact Cert.LibLayout.shapeCast_eq_broadcastInDim_row _ _ _

set_option backward.isDefEq.respectTransparency.types false in
/-- The one-row buffer %v211 is the vector %v138 made a row. -/
theorem row_main_v211 (V : Valuation τ sig (Elt Ideal)) :
    after hostOps3_4 V (Proc.devRef .tc main_v211) = row (after hostOps3_4 V (Proc.devRef .tc main_v138)) := by
  eval_after [hostOps3_4]
  exact Cert.LibLayout.shapeCast_eq_broadcastInDim_row _ _ _

set_option backward.isDefEq.respectTransparency.types false in
/-- The one-row buffer %v212 is the vector %v207 made a row. -/
theorem row_main_v212 (V : Valuation τ sig (Elt Ideal)) :
    after hostOps3_4 V (Proc.devRef .tc main_v212) = row (after hostOps3_4 V (Proc.devRef .tc main_v207)) := by
  eval_after [hostOps3_4]
  exact Cert.LibLayout.shapeCast_eq_broadcastInDim_row _ _ _

set_option backward.isDefEq.respectTransparency.types false in
/-- The one-row buffer %v213 is the vector %v209 made a row. -/
theorem row_main_v213 (V : Valuation τ sig (Elt Ideal)) :
    after hostOps3_4 V (Proc.devRef .tc main_v213) = row (after hostOps3_4 V (Proc.devRef .tc main_v209)) := by
  eval_after [hostOps3_4]
  exact Cert.LibLayout.shapeCast_eq_broadcastInDim_row _ _ _

set_option backward.isDefEq.respectTransparency.types false in
/-- Region 3's output array, from the contents its stretch starts from, the rows written as broadcasts of the vectors. -/
theorem Rg3H_out (W : Fam Ideal) (c : Dev nD) :
    Rg3 (H3 W) c (Proc.devRef .tc main_v214) = normRef (H3 W c (Proc.devRef .tc main_v134)) (H3 W c (Proc.devRef .tc main_v137)) (H3 W c (Proc.devRef .tc main_v138)) (H3 W c (Proc.devRef .tc main_v207)) (H3 W c (Proc.devRef .tc main_v209)) (H3 W c (Proc.devRef .tc main_v205)) := by
  rw [Rg3_out]
  have e_main_v210 : H3 W c (Proc.devRef .tc main_v210) = row (H3 W c (Proc.devRef .tc main_v137)) := row_main_v210 _
  have e_main_v211 : H3 W c (Proc.devRef .tc main_v211) = row (H3 W c (Proc.devRef .tc main_v138)) := row_main_v211 _
  have e_main_v212 : H3 W c (Proc.devRef .tc main_v212) = row (H3 W c (Proc.devRef .tc main_v207)) := row_main_v212 _
  have e_main_v213 : H3 W c (Proc.devRef .tc main_v213) = row (H3 W c (Proc.devRef .tc main_v209)) := row_main_v213 _
  rw [e_main_v210, e_main_v211, e_main_v212, e_main_v213, normTerm_row]

/-! ## Region 4 -/

set_option backward.isDefEq.respectTransparency.types false in
/-- Region 4's output array after the region, from the contents the region is entered with. -/
theorem Rg4_out (W : Fam Ideal) (c : Dev nD) :
    Rg4 W c (Proc.devRef .tc main_v236) = linTerm (W c (Proc.devRef .tc main_v214)) (W c (Proc.devRef .tc main_v228)) (W c (Proc.devRef .tc main_v230)) (W c (Proc.devRef .tc main_v232)) (W c (Proc.devRef .tc main_v235)) :=
  (Pipeline.withArrays_arr spec4 launch4.win.arr_inj c _ _ 5).trans (lin4 (fv W) c)

set_option backward.isDefEq.respectTransparency.types false in
/-- The one-row buffer %v235 is the vector %v234 made a row. -/
theorem row_main_v235 (V : Valuation τ sig (Elt Ideal)) :
    after hostOps4 V (Proc.devRef .tc main_v235) = row (after hostOps4 V (Proc.devRef .tc main_v234)) := by
  eval_after [hostOps4]
  exact Cert.LibLayout.shapeCast_eq_broadcastInDim_row _ _ _

set_option backward.isDefEq.respectTransparency.types false in
/-- Region 4's output array, from the contents its stretch starts from, the rows written as broadcasts of the vectors. -/
theorem Rg4H_out (W : Fam Ideal) (c : Dev nD) :
    Rg4 (H4 W) c (Proc.devRef .tc main_v236) = linRef (H4 W c (Proc.devRef .tc main_v214)) (H4 W c (Proc.devRef .tc main_v228)) (H4 W c (Proc.devRef .tc main_v230)) (H4 W c (Proc.devRef .tc main_v232)) (H4 W c (Proc.devRef .tc main_v234)) := by
  rw [Rg4_out]
  have e_main_v235 : H4 W c (Proc.devRef .tc main_v235) = row (H4 W c (Proc.devRef .tc main_v234)) := row_main_v235 _
  rw [e_main_v235, linTerm_row]

/-! ## Region 5 -/

set_option backward.isDefEq.respectTransparency.types false in
/-- Region 5's output array after the region, from the contents the region is entered with. -/
theorem Rg5_out (W : Fam Ideal) (c : Dev nD) :
    Rg5 W c (Proc.devRef .tc main_v316) = normTerm (W c (Proc.devRef .tc main_v236)) (W c (Proc.devRef .tc main_v312)) (W c (Proc.devRef .tc main_v313)) (W c (Proc.devRef .tc main_v314)) (W c (Proc.devRef .tc main_v315)) (W c (Proc.devRef .tc main_v307)) :=
  (Pipeline.withArrays_arr spec5 launch5.win.arr_inj c _ _ 6).trans (norm5 (fv W) c)

set_option backward.isDefEq.respectTransparency.types false in
/-- The one-row buffer %v312 is the vector %v239 made a row. -/
theorem row_main_v312 (V : Valuation τ sig (Elt Ideal)) :
    after hostOps5_4 V (Proc.devRef .tc main_v312) = row (after hostOps5_4 V (Proc.devRef .tc main_v239)) := by
  eval_after [hostOps5_4]
  exact Cert.LibLayout.shapeCast_eq_broadcastInDim_row _ _ _

set_option backward.isDefEq.respectTransparency.types false in
/-- The one-row buffer %v313 is the vector %v240 made a row. -/
theorem row_main_v313 (V : Valuation τ sig (Elt Ideal)) :
    after hostOps5_4 V (Proc.devRef .tc main_v313) = row (after hostOps5_4 V (Proc.devRef .tc main_v240)) := by
  eval_after [hostOps5_4]
  exact Cert.LibLayout.shapeCast_eq_broadcastInDim_row _ _ _

set_option backward.isDefEq.respectTransparency.types false in
/-- The one-row buffer %v314 is the vector %v309 made a row. -/
theorem row_main_v314 (V : Valuation τ sig (Elt Ideal)) :
    after hostOps5_4 V (Proc.devRef .tc main_v314) = row (after hostOps5_4 V (Proc.devRef .tc main_v309)) := by
  eval_after [hostOps5_4]
  exact Cert.LibLayout.shapeCast_eq_broadcastInDim_row _ _ _

set_option backward.isDefEq.respectTransparency.types false in
/-- The one-row buffer %v315 is the vector %v311 made a row. -/
theorem row_main_v315 (V : Valuation τ sig (Elt Ideal)) :
    after hostOps5_4 V (Proc.devRef .tc main_v315) = row (after hostOps5_4 V (Proc.devRef .tc main_v311)) := by
  eval_after [hostOps5_4]
  exact Cert.LibLayout.shapeCast_eq_broadcastInDim_row _ _ _

set_option backward.isDefEq.respectTransparency.types false in
/-- Region 5's output array, from the contents its stretch starts from, the rows written as broadcasts of the vectors. -/
theorem Rg5H_out (W : Fam Ideal) (c : Dev nD) :
    Rg5 (H5 W) c (Proc.devRef .tc main_v316) = normRef (H5 W c (Proc.devRef .tc main_v236)) (H5 W c (Proc.devRef .tc main_v239)) (H5 W c (Proc.devRef .tc main_v240)) (H5 W c (Proc.devRef .tc main_v309)) (H5 W c (Proc.devRef .tc main_v311)) (H5 W c (Proc.devRef .tc main_v307)) := by
  rw [Rg5_out]
  have e_main_v312 : H5 W c (Proc.devRef .tc main_v312) = row (H5 W c (Proc.devRef .tc main_v239)) := row_main_v312 _
  have e_main_v313 : H5 W c (Proc.devRef .tc main_v313) = row (H5 W c (Proc.devRef .tc main_v240)) := row_main_v313 _
  have e_main_v314 : H5 W c (Proc.devRef .tc main_v314) = row (H5 W c (Proc.devRef .tc main_v309)) := row_main_v314 _
  have e_main_v315 : H5 W c (Proc.devRef .tc main_v315) = row (H5 W c (Proc.devRef .tc main_v311)) := row_main_v315 _
  rw [e_main_v312, e_main_v313, e_main_v314, e_main_v315, normTerm_row]

/-! ## Region 6 -/

set_option backward.isDefEq.respectTransparency.types false in
/-- Region 6's output array after the region, from the contents the region is entered with. -/
theorem Rg6_out (W : Fam Ideal) (c : Dev nD) :
    Rg6 W c (Proc.devRef .tc main_v338) = linTerm (W c (Proc.devRef .tc main_v316)) (W c (Proc.devRef .tc main_v330)) (W c (Proc.devRef .tc main_v332)) (W c (Proc.devRef .tc main_v334)) (W c (Proc.devRef .tc main_v337)) :=
  (Pipeline.withArrays_arr spec6 launch6.win.arr_inj c _ _ 5).trans (lin6 (fv W) c)

set_option backward.isDefEq.respectTransparency.types false in
/-- The one-row buffer %v337 is the vector %v336 made a row. -/
theorem row_main_v337 (V : Valuation τ sig (Elt Ideal)) :
    after hostOps6 V (Proc.devRef .tc main_v337) = row (after hostOps6 V (Proc.devRef .tc main_v336)) := by
  eval_after [hostOps6]
  exact Cert.LibLayout.shapeCast_eq_broadcastInDim_row _ _ _

set_option backward.isDefEq.respectTransparency.types false in
/-- Region 6's output array, from the contents its stretch starts from, the rows written as broadcasts of the vectors. -/
theorem Rg6H_out (W : Fam Ideal) (c : Dev nD) :
    Rg6 (H6 W) c (Proc.devRef .tc main_v338) = linRef (H6 W c (Proc.devRef .tc main_v316)) (H6 W c (Proc.devRef .tc main_v330)) (H6 W c (Proc.devRef .tc main_v332)) (H6 W c (Proc.devRef .tc main_v334)) (H6 W c (Proc.devRef .tc main_v336)) := by
  rw [Rg6_out]
  have e_main_v337 : H6 W c (Proc.devRef .tc main_v337) = row (H6 W c (Proc.devRef .tc main_v336)) := row_main_v337 _
  rw [e_main_v337, linTerm_row]

/-! ## Region 7 -/

set_option backward.isDefEq.respectTransparency.types false in
/-- Region 7's output array after the region, from the contents the region is entered with. -/
theorem Rg7_out (W : Fam Ideal) (c : Dev nD) :
    Rg7 W c (Proc.devRef .tc main_v418) = normTerm (W c (Proc.devRef .tc main_v338)) (W c (Proc.devRef .tc main_v414)) (W c (Proc.devRef .tc main_v415)) (W c (Proc.devRef .tc main_v416)) (W c (Proc.devRef .tc main_v417)) (W c (Proc.devRef .tc main_v409)) :=
  (Pipeline.withArrays_arr spec7 launch7.win.arr_inj c _ _ 6).trans (norm7 (fv W) c)

set_option backward.isDefEq.respectTransparency.types false in
/-- The one-row buffer %v414 is the vector %v341 made a row. -/
theorem row_main_v414 (V : Valuation τ sig (Elt Ideal)) :
    after hostOps7_4 V (Proc.devRef .tc main_v414) = row (after hostOps7_4 V (Proc.devRef .tc main_v341)) := by
  eval_after [hostOps7_4]
  exact Cert.LibLayout.shapeCast_eq_broadcastInDim_row _ _ _

set_option backward.isDefEq.respectTransparency.types false in
/-- The one-row buffer %v415 is the vector %v342 made a row. -/
theorem row_main_v415 (V : Valuation τ sig (Elt Ideal)) :
    after hostOps7_4 V (Proc.devRef .tc main_v415) = row (after hostOps7_4 V (Proc.devRef .tc main_v342)) := by
  eval_after [hostOps7_4]
  exact Cert.LibLayout.shapeCast_eq_broadcastInDim_row _ _ _

set_option backward.isDefEq.respectTransparency.types false in
/-- The one-row buffer %v416 is the vector %v411 made a row. -/
theorem row_main_v416 (V : Valuation τ sig (Elt Ideal)) :
    after hostOps7_4 V (Proc.devRef .tc main_v416) = row (after hostOps7_4 V (Proc.devRef .tc main_v411)) := by
  eval_after [hostOps7_4]
  exact Cert.LibLayout.shapeCast_eq_broadcastInDim_row _ _ _

set_option backward.isDefEq.respectTransparency.types false in
/-- The one-row buffer %v417 is the vector %v413 made a row. -/
theorem row_main_v417 (V : Valuation τ sig (Elt Ideal)) :
    after hostOps7_4 V (Proc.devRef .tc main_v417) = row (after hostOps7_4 V (Proc.devRef .tc main_v413)) := by
  eval_after [hostOps7_4]
  exact Cert.LibLayout.shapeCast_eq_broadcastInDim_row _ _ _

set_option backward.isDefEq.respectTransparency.types false in
/-- Region 7's output array, from the contents its stretch starts from, the rows written as broadcasts of the vectors. -/
theorem Rg7H_out (W : Fam Ideal) (c : Dev nD) :
    Rg7 (H7 W) c (Proc.devRef .tc main_v418) = normRef (H7 W c (Proc.devRef .tc main_v338)) (H7 W c (Proc.devRef .tc main_v341)) (H7 W c (Proc.devRef .tc main_v342)) (H7 W c (Proc.devRef .tc main_v411)) (H7 W c (Proc.devRef .tc main_v413)) (H7 W c (Proc.devRef .tc main_v409)) := by
  rw [Rg7_out]
  have e_main_v414 : H7 W c (Proc.devRef .tc main_v414) = row (H7 W c (Proc.devRef .tc main_v341)) := row_main_v414 _
  have e_main_v415 : H7 W c (Proc.devRef .tc main_v415) = row (H7 W c (Proc.devRef .tc main_v342)) := row_main_v415 _
  have e_main_v416 : H7 W c (Proc.devRef .tc main_v416) = row (H7 W c (Proc.devRef .tc main_v411)) := row_main_v416 _
  have e_main_v417 : H7 W c (Proc.devRef .tc main_v417) = row (H7 W c (Proc.devRef .tc main_v413)) := row_main_v417 _
  rw [e_main_v414, e_main_v415, e_main_v416, e_main_v417, normTerm_row]

/-! ## Region 8 -/

set_option backward.isDefEq.respectTransparency.types false in
/-- Region 8's output array after the region, from the contents the region is entered with. -/
theorem Rg8_out (W : Fam Ideal) (c : Dev nD) :
    Rg8 W c (Proc.devRef .tc main_v443) = mlpTerm (W c (Proc.devRef .tc main_v440)) (W c (Proc.devRef .tc main_arg11)) (W c (Proc.devRef .tc main_v441)) (W c (Proc.devRef .tc main_arg13)) (W c (Proc.devRef .tc main_v442)) :=
  (Pipeline.withArrays_arr spec8 launch8.win.arr_inj c _ _ 5).trans (mlp8 (fv W) c)

set_option backward.isDefEq.respectTransparency.types false in
/-- The one-row buffer %v441 is the vector %arg12 made a row. -/
theorem row_main_v441 (V : Valuation τ sig (Elt Ideal)) :
    after hostOps8 V (Proc.devRef .tc main_v441) = row256 (after hostOps8 V (Proc.devRef .tc main_arg12)) := by
  eval_after [hostOps8]
  exact Cert.LibLayout.shapeCast_eq_broadcastInDim_row _ _ _

set_option backward.isDefEq.respectTransparency.types false in
/-- The one-row buffer %v442 is the vector %arg14 made a row. -/
theorem row_main_v442 (V : Valuation τ sig (Elt Ideal)) :
    after hostOps8 V (Proc.devRef .tc main_v442) = row10 (after hostOps8 V (Proc.devRef .tc main_arg14)) := by
  eval_after [hostOps8]
  exact Cert.LibLayout.shapeCast_eq_broadcastInDim_row _ _ _

set_option backward.isDefEq.respectTransparency.types false in
/-- Region 8's output array, from the contents its stretch starts from, the rows written as broadcasts of the vectors. -/
theorem Rg8H_out (W : Fam Ideal) (c : Dev nD) :
    Rg8 (H8 W) c (Proc.devRef .tc main_v443) = mlpTerm (H8 W c (Proc.devRef .tc main_v440)) (H8 W c (Proc.devRef .tc main_arg11)) (row256 (H8 W c (Proc.devRef .tc main_arg12))) (H8 W c (Proc.devRef .tc main_arg13)) (row10 (H8 W c (Proc.devRef .tc main_arg14))) := by
  rw [Rg8_out]
  have e_main_v441 : H8 W c (Proc.devRef .tc main_v441) = row256 (H8 W c (Proc.devRef .tc main_arg12)) := row_main_v441 _
  have e_main_v442 : H8 W c (Proc.devRef .tc main_v442) = row10 (H8 W c (Proc.devRef .tc main_arg14)) := row_main_v442 _
  rw [e_main_v441, e_main_v442]

end Cert.KernelIdeal.KerRegs

end
-- ==== Proof.LibFoldNormal.lean ====
/-
  Reading a fold of host operations down to its arguments: two rewriting facts that complete the library's one-pass
  normal form (`StableHlo.after_results_simp`).

  1. A `concatenate` of two pieces carries, after its list of pieces, a proof about the list's shapes; a rewriting pass
     therefore does not enter the list, and whatever the two pieces are stays unread. `cat2` is the same operation as a
     plain function of its two pieces (the proof now speaks of the two shapes only), and `concatenate_pair` presents a
     two-piece `concatenate` as `cat2`, whose operands a rewriting pass does reach.
  2. An operation inlined from a called function reads and writes its buffers through a transport along the buffer's
     type equation; a value written by one such operation and read by the next meets the two transports back to back,
     which cancel by Mathlib's `cast_cast` and `cast_eq`. (Nothing to state here: cite those two lemmas.)
-/
import Idealize.ShloMosaic.PureOps.ShapeOps

namespace Cert.FoldNormal

open Idealize.ShloMosaic

/-- The concatenation of two pieces along axis `a`, as a function of the two pieces. -/
def cat2 {α : Type} (t : Shape) (a : Fin t.rank) (s₁ s₂ : Shape) (h : Shape.Concatenates [s₁, s₂] t a)
    (u : s₁.Idx → α) (v : s₂.Idx → α) : t.Idx → α :=
  concatenate t a [⟨s₁, u⟩, ⟨s₂, v⟩] h

/-- A two-piece `concatenate` is `cat2` of its pieces. -/
theorem concatenate_pair {α : Type} (t : Shape) (a : Fin t.rank) (s₁ s₂ : Shape) (h : Shape.Concatenates [s₁, s₂] t a)
    (u : s₁.Idx → α) (v : s₂.Idx → α) :
    concatenate t a [⟨s₁, u⟩, ⟨s₂, v⟩] h = cat2 t a s₁ s₂ h u v := rfl

end Cert.FoldNormal
-- ==== Proof.Layer0.lean ====
/-
  Layer 0 of the network computed by the two programs from agreeing contents: the kernel program's two stretches and two
  regions leave in the layer's output array what the reference program's operations leave in theirs. Both sides are read
  back to the contents the layer starts from; the regions' values are already written as the reference writes them, so the
  two expressions are the same term.
-/
import proofs.«170918_j12352325943916_1_alg».proof.Proof.BridgeDefs
import proofs.«170918_j12352325943916_1_alg».proof.Proof.KerRegs
import proofs.«170918_j12352325943916_1_alg».proof.Proof.LibFoldNormal

set_option maxRecDepth 65536
set_option maxHeartbeats 4000000

noncomputable section

namespace Cert.Bridge

open Idealize.ShloMosaic Idealize.ShloMosaic.TcCoe Idealize.SL.Sem Idealize.ShloMosaic.StableHlo Cert.Tac
open Cert.KernelIdeal.KerLayers Cert.KernelIdeal.KerRegs Cert.RefShapes Cert.RegTerms

attribute [local irreducible] Host.gather Host.scatterAdd Host.reduceAdd Ideal.matmul Host.divf Host.rsqrt Host.reduceWindow concatenate broadcastInDim extractStridedSlice shapeCast select cmpi cmpf addi addf subf mulf maximumf constant constantI sitofp in
/-- The layer's output features agree. -/
theorem layer0_x (W : Fam Ideal) (c : Dev Cert.KernelIdeal.nD) (V : RV) (h : Args (W c) V) :
    KL0 W c (Proc.devRef .tc Cert.KernelIdeal.main_v112) = after (Cert.ReferenceIdeal.RefRun.ops0 ++ (Cert.ReferenceIdeal.RefRun.ops1 ++ (Cert.ReferenceIdeal.RefRun.ops2))) V (Proc.devRef .tc Cert.ReferenceIdeal.main_v128) := by
  simp only [KL0]
  rw [Rg1H_out]
  eval_after [H1, Cert.KernelIdeal.Gen.hostOps1, Cert.KernelIdeal.Gen.hostOps1_1, Cert.KernelIdeal.Gen.hostOps1_2, Cert.KernelIdeal.Gen.hostOps1_3, Cert.KernelIdeal.Gen.hostOps1_4, Rg0_ne']
  rw [Rg0H_out, Rg0_in]
  eval_after [Cert.FoldNormal.concatenate_pair, H0, Cert.KernelIdeal.Gen.hostOps0, Cert.KernelIdeal.Gen.hostOps0_1, Cert.KernelIdeal.Gen.hostOps0_2, h.1, h.2.1, h.2.2.1, h.2.2.2.1, h.2.2.2.2.1, h.2.2.2.2.2.1, h.2.2.2.2.2.2.1, h.2.2.2.2.2.2.2.1, h.2.2.2.2.2.2.2.2.1, h.2.2.2.2.2.2.2.2.2.1, h.2.2.2.2.2.2.2.2.2.2.1, h.2.2.2.2.2.2.2.2.2.2.2.1, h.2.2.2.2.2.2.2.2.2.2.2.2.1, h.2.2.2.2.2.2.2.2.2.2.2.2.2.1, h.2.2.2.2.2.2.2.2.2.2.2.2.2.2.1, h.2.2.2.2.2.2.2.2.2.2.2.2.2.2.2.1, h.2.2.2.2.2.2.2.2.2.2.2.2.2.2.2.2.1, h.2.2.2.2.2.2.2.2.2.2.2.2.2.2.2.2.2.1, h.2.2.2.2.2.2.2.2.2.2.2.2.2.2.2.2.2.2.1, h.2.2.2.2.2.2.2.2.2.2.2.2.2.2.2.2.2.2.2.1, h.2.2.2.2.2.2.2.2.2.2.2.2.2.2.2.2.2.2.2.2.1, h.2.2.2.2.2.2.2.2.2.2.2.2.2.2.2.2.2.2.2.2.2, Cert.ReferenceIdeal.RefRun.ops0, Cert.ReferenceIdeal.RefRun.ops1, Cert.ReferenceIdeal.RefRun.ops2]
  simp only [normRef, linRef]
  rfl

end Cert.Bridge

end
-- ==== Proof.Layer0n.lean ====
/-
  The table of original node ids computed by the two programs from agreeing arguments: the same fourteen host operations
  (a running sum of the subgraph sizes, a zero in front, a lookup by graph id, plus the node's id within its graph).
-/
import proofs.«170918_j12352325943916_1_alg».proof.Proof.BridgeDefs
import proofs.«170918_j12352325943916_1_alg».proof.Proof.KerRegs
import proofs.«170918_j12352325943916_1_alg».proof.Proof.LibFoldNormal

set_option maxRecDepth 65536
set_option maxHeartbeats 4000000

noncomputable section

namespace Cert.Bridge

open Idealize.ShloMosaic Idealize.ShloMosaic.TcCoe Idealize.SL.Sem Idealize.ShloMosaic.StableHlo Cert.Tac
open Cert.KernelIdeal.KerLayers Cert.KernelIdeal.KerRegs Cert.RefShapes Cert.RegTerms

attribute [local irreducible] Host.gather Host.scatterAdd Host.reduceAdd Ideal.matmul Host.divf Host.rsqrt Host.reduceWindow concatenate broadcastInDim extractStridedSlice shapeCast select cmpi cmpf addi addf subf mulf maximumf constant constantI sitofp in
/-- The table of original node ids agrees. -/
theorem layer0_n (W : Fam Ideal) (c : Dev Cert.KernelIdeal.nD) (V : RV) (h : Args (W c) V) :
    KL0 W c (Proc.devRef .tc Cert.KernelIdeal.main_v10) = after (Cert.ReferenceIdeal.RefRun.ops0 ++ (Cert.ReferenceIdeal.RefRun.ops1 ++ (Cert.ReferenceIdeal.RefRun.ops2))) V (Proc.devRef .tc Cert.ReferenceIdeal.main_v10) := by
  eval_after [Cert.FoldNormal.concatenate_pair, KL0, Rg0_in, Rg0_ne', Rg1_ne', H0, H1, Cert.KernelIdeal.Gen.hostOps0, Cert.KernelIdeal.Gen.hostOps0_1, Cert.KernelIdeal.Gen.hostOps0_2, Cert.KernelIdeal.Gen.hostOps1, Cert.KernelIdeal.Gen.hostOps1_1, Cert.KernelIdeal.Gen.hostOps1_2, Cert.KernelIdeal.Gen.hostOps1_3, Cert.KernelIdeal.Gen.hostOps1_4, h.1, h.2.1, h.2.2.1, h.2.2.2.1, h.2.2.2.2.1, h.2.2.2.2.2.1, h.2.2.2.2.2.2.1, h.2.2.2.2.2.2.2.1, h.2.2.2.2.2.2.2.2.1, h.2.2.2.2.2.2.2.2.2.1, h.2.2.2.2.2.2.2.2.2.2.1, h.2.2.2.2.2.2.2.2.2.2.2.1, h.2.2.2.2.2.2.2.2.2.2.2.2.1, h.2.2.2.2.2.2.2.2.2.2.2.2.2.1, h.2.2.2.2.2.2.2.2.2.2.2.2.2.2.1, h.2.2.2.2.2.2.2.2.2.2.2.2.2.2.2.1, h.2.2.2.2.2.2.2.2.2.2.2.2.2.2.2.2.1, h.2.2.2.2.2.2.2.2.2.2.2.2.2.2.2.2.2.1, h.2.2.2.2.2.2.2.2.2.2.2.2.2.2.2.2.2.2.1, h.2.2.2.2.2.2.2.2.2.2.2.2.2.2.2.2.2.2.2.1, h.2.2.2.2.2.2.2.2.2.2.2.2.2.2.2.2.2.2.2.2.1, h.2.2.2.2.2.2.2.2.2.2.2.2.2.2.2.2.2.2.2.2.2, Cert.ReferenceIdeal.RefRun.ops0, Cert.ReferenceIdeal.RefRun.ops1, Cert.ReferenceIdeal.RefRun.ops2]
  rfl

end Cert.Bridge

end
-- ==== Proof.Layer1.lean ====
/-
  Layer 1 of the network computed by the two programs from agreeing contents: the kernel program's two stretches and two
  regions leave in the layer's output array what the reference program's operations leave in theirs. Both sides are read
  back to the contents the layer starts from; the regions' values are already written as the reference writes them, so the
  two expressions are the same term.
-/
import proofs.«170918_j12352325943916_1_alg».proof.Proof.BridgeDefs
import proofs.«170918_j12352325943916_1_alg».proof.Proof.KerRegs

set_option maxRecDepth 65536
set_option maxHeartbeats 4000000

noncomputable section

namespace Cert.Bridge

open Idealize.ShloMosaic Idealize.ShloMosaic.TcCoe Idealize.SL.Sem Idealize.ShloMosaic.StableHlo Cert.Tac
open Cert.KernelIdeal.KerLayers Cert.KernelIdeal.KerRegs Cert.RefShapes Cert.RegTerms

attribute [local irreducible] Host.gather Host.scatterAdd Host.reduceAdd Ideal.matmul Host.divf Host.rsqrt Host.reduceWindow concatenate broadcastInDim extractStridedSlice shapeCast select cmpi cmpf addi addf subf mulf maximumf constant constantI sitofp in
/-- The layer's output features agree. -/
theorem layer1_x (W : Fam Ideal) (c : Dev Cert.KernelIdeal.nD) (V : RV) (h : Agree1 (W c) V) :
    KL1 W c (Proc.devRef .tc Cert.KernelIdeal.main_v214) = after (Cert.ReferenceIdeal.RefRun.ops3 ++ (Cert.ReferenceIdeal.RefRun.ops4 ++ (Cert.ReferenceIdeal.RefRun.ops5))) V (Proc.devRef .tc Cert.ReferenceIdeal.main_v246) := by
  simp only [KL1]
  rw [Rg3H_out]
  eval_after [H3, Cert.KernelIdeal.Gen.hostOps3, Cert.KernelIdeal.Gen.hostOps3_1, Cert.KernelIdeal.Gen.hostOps3_2, Cert.KernelIdeal.Gen.hostOps3_3, Cert.KernelIdeal.Gen.hostOps3_4, Rg2_ne']
  rw [Rg2H_out, Rg2_in]
  eval_after [H2, Cert.KernelIdeal.Gen.hostOps2, h.1, h.2.1, h.2.2.1, h.2.2.2.1, h.2.2.2.2.1, h.2.2.2.2.2.1, h.2.2.2.2.2.2.1, h.2.2.2.2.2.2.2.1, h.2.2.2.2.2.2.2.2.1, h.2.2.2.2.2.2.2.2.2.1, h.2.2.2.2.2.2.2.2.2.2.1, h.2.2.2.2.2.2.2.2.2.2.2.1, h.2.2.2.2.2.2.2.2.2.2.2.2.1, h.2.2.2.2.2.2.2.2.2.2.2.2.2.1, h.2.2.2.2.2.2.2.2.2.2.2.2.2.2.1, h.2.2.2.2.2.2.2.2.2.2.2.2.2.2.2.1, h.2.2.2.2.2.2.2.2.2.2.2.2.2.2.2.2.1, h.2.2.2.2.2.2.2.2.2.2.2.2.2.2.2.2.2.1, h.2.2.2.2.2.2.2.2.2.2.2.2.2.2.2.2.2.2.1, h.2.2.2.2.2.2.2.2.2.2.2.2.2.2.2.2.2.2.2.1, h.2.2.2.2.2.2.2.2.2.2.2.2.2.2.2.2.2.2.2.2.1, h.2.2.2.2.2.2.2.2.2.2.2.2.2.2.2.2.2.2.2.2.2.1, h.2.2.2.2.2.2.2.2.2.2.2.2.2.2.2.2.2.2.2.2.2.2.1, h.2.2.2.2.2.2.2.2.2.2.2.2.2.2.2.2.2.2.2.2.2.2.2, Cert.ReferenceIdeal.RefRun.ops3, Cert.ReferenceIdeal.RefRun.ops4, Cert.ReferenceIdeal.RefRun.ops5]
  simp only [normRef, linRef]
  rfl

end Cert.Bridge

end
-- ==== Proof.Layer2.lean ====
/-
  Layer 2 of the network computed by the two programs from agreeing contents: the kernel program's two stretches and two
  regions leave in the layer's output array what the reference program's operations leave in theirs. Both sides are read
  back to the contents the layer starts from; the regions' values are already written as the reference writes them, so the
  two expressions are the same term.
-/
import proofs.«170918_j12352325943916_1_alg».proof.Proof.BridgeDefs
import proofs.«170918_j12352325943916_1_alg».proof.Proof.KerRegs

set_option maxRecDepth 65536
set_option maxHeartbeats 4000000

noncomputable section

namespace Cert.Bridge

open Idealize.ShloMosaic Idealize.ShloMosaic.TcCoe Idealize.SL.Sem Idealize.ShloMosaic.StableHlo Cert.Tac
open Cert.KernelIdeal.KerLayers Cert.KernelIdeal.KerRegs Cert.RefShapes Cert.RegTerms

attribute [local irreducible] Host.gather Host.scatterAdd Host.reduceAdd Ideal.matmul Host.divf Host.rsqrt Host.reduceWindow concatenate broadcastInDim extractStridedSlice shapeCast select cmpi cmpf addi addf subf mulf maximumf constant constantI sitofp in
/-- The layer's output features agree. -/
theorem layer2_x (W : Fam Ideal) (c : Dev Cert.KernelIdeal.nD) (V : RV) (h : Agree2 (W c) V) :
    KL2 W c (Proc.devRef .tc Cert.KernelIdeal.main_v316) = after (Cert.ReferenceIdeal.RefRun.ops6 ++ (Cert.ReferenceIdeal.RefRun.ops7 ++ (Cert.ReferenceIdeal.RefRun.ops8 ++ (Cert.ReferenceIdeal.RefRun.ops9)))) V (Proc.devRef .tc Cert.ReferenceIdeal.main_v364) := by
  simp only [KL2]
  rw [Rg5H_out]
  eval_after [H5, Cert.KernelIdeal.Gen.hostOps5, Cert.KernelIdeal.Gen.hostOps5_1, Cert.KernelIdeal.Gen.hostOps5_2, Cert.KernelIdeal.Gen.hostOps5_3, Cert.KernelIdeal.Gen.hostOps5_4, Rg4_ne']
  rw [Rg4H_out, Rg4_in]
  eval_after [H4, Cert.KernelIdeal.Gen.hostOps4, h.1, h.2.1, h.2.2.1, h.2.2.2.1, h.2.2.2.2.1, h.2.2.2.2.2.1, h.2.2.2.2.2.2.1, h.2.2.2.2.2.2.2.1, h.2.2.2.2.2.2.2.2.1, h.2.2.2.2.2.2.2.2.2.1, h.2.2.2.2.2.2.2.2.2.2.1, h.2.2.2.2.2.2.2.2.2.2.2.1, h.2.2.2.2.2.2.2.2.2.2.2.2.1, h.2.2.2.2.2.2.2.2.2.2.2.2.2.1, h.2.2.2.2.2.2.2.2.2.2.2.2.2.2.1, h.2.2.2.2.2.2.2.2.2.2.2.2.2.2.2.1, h.2.2.2.2.2.2.2.2.2.2.2.2.2.2.2.2.1, h.2.2.2.2.2.2.2.2.2.2.2.2.2.2.2.2.2.1, h.2.2.2.2.2.2.2.2.2.2.2.2.2.2.2.2.2.2.1, h.2.2.2.2.2.2.2.2.2.2.2.2.2.2.2.2.2.2.2.1, h.2.2.2.2.2.2.2.2.2.2.2.2.2.2.2.2.2.2.2.2.1, h.2.2.2.2.2.2.2.2.2.2.2.2.2.2.2.2.2.2.2.2.2.1, h.2.2.2.2.2.2.2.2.2.2.2.2.2.2.2.2.2.2.2.2.2.2.1, h.2.2.2.2.2.2.2.2.2.2.2.2.2.2.2.2.2.2.2.2.2.2.2, Cert.ReferenceIdeal.RefRun.ops6, Cert.ReferenceIdeal.RefRun.ops7, Cert.ReferenceIdeal.RefRun.ops8, Cert.ReferenceIdeal.RefRun.ops9]
  simp only [normRef, linRef]
  rfl

end Cert.Bridge

end
-- ==== Proof.Layer3.lean ====
/-
  Layer 3 of the network computed by the two programs from agreeing contents: the kernel program's two stretches and two
  regions leave in the layer's output array what the reference program's operations leave in theirs. Both sides are read
  back to the contents the layer starts from; the regions' values are already written as the reference writes them, so the
  two expressions are the same term.
-/
import proofs.«170918_j12352325943916_1_alg».proof.Proof.BridgeDefs
import proofs.«170918_j12352325943916_1_alg».proof.Proof.KerRegs

set_option maxRecDepth 65536
set_option maxHeartbeats 4000000

noncomputable section

namespace Cert.Bridge

open Idealize.ShloMosaic Idealize.ShloMosaic.TcCoe Idealize.SL.Sem Idealize.ShloMosaic.StableHlo Cert.Tac
open Cert.KernelIdeal.KerLayers Cert.KernelIdeal.KerRegs Cert.RefShapes Cert.RegTerms

attribute [local irreducible] Host.gather Host.scatterAdd Host.reduceAdd Ideal.matmul Host.divf Host.rsqrt Host.reduceWindow concatenate broadcastInDim extractStridedSlice shapeCast select cmpi cmpf addi addf subf mulf maximumf constant constantI sitofp in
/-- The layer's output features agree. -/
theorem layer3_x (W : Fam Ideal) (c : Dev Cert.KernelIdeal.nD) (V : RV) (h : Agree3 (W c) V) :
    KL3 W c (Proc.devRef .tc Cert.KernelIdeal.main_v418) = after (Cert.ReferenceIdeal.RefRun.ops10 ++ (Cert.ReferenceIdeal.RefRun.ops11 ++ (Cert.ReferenceIdeal.RefRun.ops12))) V (Proc.devRef .tc Cert.ReferenceIdeal.main_v482) := by
  simp only [KL3]
  rw [Rg7H_out]
  eval_after [H7, Cert.KernelIdeal.Gen.hostOps7, Cert.KernelIdeal.Gen.hostOps7_1, Cert.KernelIdeal.Gen.hostOps7_2, Cert.KernelIdeal.Gen.hostOps7_3, Cert.KernelIdeal.Gen.hostOps7_4, Rg6_ne']
  rw [Rg6H_out, Rg6_in]
  eval_after [H6, Cert.KernelIdeal.Gen.hostOps6, h.1, h.2.1, h.2.2.1, h.2.2.2.1, h.2.2.2.2.1, h.2.2.2.2.2.1, h.2.2.2.2.2.2.1, h.2.2.2.2.2.2.2.1, h.2.2.2.2.2.2.2.2.1, h.2.2.2.2.2.2.2.2.2.1, h.2.2.2.2.2.2.2.2.2.2.1, h.2.2.2.2.2.2.2.2.2.2.2.1, h.2.2.2.2.2.2.2.2.2.2.2.2.1, h.2.2.2.2.2.2.2.2.2.2.2.2.2.1, h.2.2.2.2.2.2.2.2.2.2.2.2.2.2.1, h.2.2.2.2.2.2.2.2.2.2.2.2.2.2.2.1, h.2.2.2.2.2.2.2.2.2.2.2.2.2.2.2.2.1, h.2.2.2.2.2.2.2.2.2.2.2.2.2.2.2.2.2.1, h.2.2.2.2.2.2.2.2.2.2.2.2.2.2.2.2.2.2.1, h.2.2.2.2.2.2.2.2.2.2.2.2.2.2.2.2.2.2.2.1, h.2.2.2.2.2.2.2.2.2.2.2.2.2.2.2.2.2.2.2.2.1, h.2.2.2.2.2.2.2.2.2.2.2.2.2.2.2.2.2.2.2.2.2.1, h.2.2.2.2.2.2.2.2.2.2.2.2.2.2.2.2.2.2.2.2.2.2.1, h.2.2.2.2.2.2.2.2.2.2.2.2.2.2.2.2.2.2.2.2.2.2.2, Cert.ReferenceIdeal.RefRun.ops10, Cert.ReferenceIdeal.RefRun.ops11, Cert.ReferenceIdeal.RefRun.ops12]
  simp only [normRef, linRef]
  rfl

end Cert.Bridge

end
-- ==== Proof.Head.lean ====
/-
  The head of the network from agreeing contents: the two mean-pools on the host and the last region of the kernel program
  leave in the result array what the reference program's operations leave in theirs.
-/
import proofs.«170918_j12352325943916_1_alg».proof.Proof.BridgeDefs
import proofs.«170918_j12352325943916_1_alg».proof.Proof.KerRegs

set_option maxRecDepth 65536
set_option maxHeartbeats 4000000

noncomputable section

namespace Cert.Bridge

open Idealize.ShloMosaic Idealize.ShloMosaic.TcCoe Idealize.SL.Sem Idealize.ShloMosaic.StableHlo Cert.Tac
open Cert.KernelIdeal.KerLayers Cert.KernelIdeal.KerRegs Cert.RefShapes Cert.RegTerms

attribute [local irreducible] Host.gather Host.scatterAdd Host.reduceAdd Ideal.matmul Host.divf Host.rsqrt Host.reduceWindow concatenate broadcastInDim extractStridedSlice shapeCast select cmpi cmpf addi addf subf mulf maximumf constant constantI sitofp in
/-- The results agree. -/
theorem head_x (W : Fam Ideal) (c : Dev Cert.KernelIdeal.nD) (V : RV) (h : Agree4 (W c) V) :
    KL4 W c (Proc.devRef .tc Cert.KernelIdeal.main_v443) = after (Cert.ReferenceIdeal.RefRun.ops13 ++ (Cert.ReferenceIdeal.RefRun.ops14)) V (Proc.devRef .tc Cert.ReferenceIdeal.main_v513) := by
  simp only [KL4]
  rw [Rg8H_out]
  eval_after [H8, Cert.KernelIdeal.Gen.hostOps8, h.1, h.2.1, h.2.2.1, h.2.2.2.1, h.2.2.2.2.1, h.2.2.2.2.2.1, h.2.2.2.2.2.2.1, h.2.2.2.2.2.2.2.1, h.2.2.2.2.2.2.2.2.1, h.2.2.2.2.2.2.2.2.2.1, h.2.2.2.2.2.2.2.2.2.2.1, h.2.2.2.2.2.2.2.2.2.2.2.1, h.2.2.2.2.2.2.2.2.2.2.2.2.1, h.2.2.2.2.2.2.2.2.2.2.2.2.2.1, h.2.2.2.2.2.2.2.2.2.2.2.2.2.2.1, h.2.2.2.2.2.2.2.2.2.2.2.2.2.2.2.1, h.2.2.2.2.2.2.2.2.2.2.2.2.2.2.2.2.1, h.2.2.2.2.2.2.2.2.2.2.2.2.2.2.2.2.2.1, h.2.2.2.2.2.2.2.2.2.2.2.2.2.2.2.2.2.2.1, h.2.2.2.2.2.2.2.2.2.2.2.2.2.2.2.2.2.2.2.1, h.2.2.2.2.2.2.2.2.2.2.2.2.2.2.2.2.2.2.2.2.1, h.2.2.2.2.2.2.2.2.2.2.2.2.2.2.2.2.2.2.2.2.2.1, h.2.2.2.2.2.2.2.2.2.2.2.2.2.2.2.2.2.2.2.2.2.2.1, h.2.2.2.2.2.2.2.2.2.2.2.2.2.2.2.2.2.2.2.2.2.2.2, Cert.ReferenceIdeal.RefRun.ops13, Cert.ReferenceIdeal.RefRun.ops14]
  simp only [mlpTerm]
  rfl

end Cert.Bridge

end
-- ==== Proof.CarryK0.lean ====
/-
  Agreement on the argument arrays survives layer 0 of the kernel program, which writes none of them.
-/
import proofs.«170918_j12352325943916_1_alg».proof.Proof.BridgeDefs
import proofs.«170918_j12352325943916_1_alg».proof.Proof.KeepKI0

set_option maxHeartbeats 2000000

noncomputable section

namespace Cert.Bridge

open Idealize.ShloMosaic Idealize.ShloMosaic.TcCoe Idealize.SL.Sem Idealize.ShloMosaic.StableHlo
open Cert.KernelIdeal

theorem argsK0 (W : KerLayers.Fam Ideal) (c : Dev nD) (V : RV) (h : Args (W c) V) : Args (KerLayers.KL0 W c) V :=
  ⟨(Keep.keep0_a0 W c).trans (h.1),
   (Keep.keep0_a1 W c).trans (h.2.1),
   (Keep.keep0_a2 W c).trans (h.2.2.1),
   (Keep.keep0_a3 W c).trans (h.2.2.2.1),
   (Keep.keep0_a4 W c).trans (h.2.2.2.2.1),
   (Keep.keep0_a5 W c).trans (h.2.2.2.2.2.1),
   (Keep.keep0_a6 W c).trans (h.2.2.2.2.2.2.1),
   (Keep.keep0_a7 W c).trans (h.2.2.2.2.2.2.2.1),
   (Keep.keep0_a8 W c).trans (h.2.2.2.2.2.2.2.2.1),
   (Keep.keep0_a9 W c).trans (h.2.2.2.2.2.2.2.2.2.1),
   (Keep.keep0_a10 W c).trans (h.2.2.2.2.2.2.2.2.2.2.1),
   (Keep.keep0_a11 W c).trans (h.2.2.2.2.2.2.2.2.2.2.2.1),
   (Keep.keep0_a12 W c).trans (h.2.2.2.2.2.2.2.2.2.2.2.2.1),
   (Keep.keep0_a13 W c).trans (h.2.2.2.2.2.2.2.2.2.2.2.2.2.1),
   (Keep.keep0_a14 W c).trans (h.2.2.2.2.2.2.2.2.2.2.2.2.2.2.1),
   (Keep.keep0_a15 W c).trans (h.2.2.2.2.2.2.2.2.2.2.2.2.2.2.2.1),
   (Keep.keep0_a16 W c).trans (h.2.2.2.2.2.2.2.2.2.2.2.2.2.2.2.2.1),
   (Keep.keep0_a17 W c).trans (h.2.2.2.2.2.2.2.2.2.2.2.2.2.2.2.2.2.1),
   (Keep.keep0_a18 W c).trans (h.2.2.2.2.2.2.2.2.2.2.2.2.2.2.2.2.2.2.1),
   (Keep.keep0_a19 W c).trans (h.2.2.2.2.2.2.2.2.2.2.2.2.2.2.2.2.2.2.2.1),
   (Keep.keep0_a20 W c).trans (h.2.2.2.2.2.2.2.2.2.2.2.2.2.2.2.2.2.2.2.2.1),
   (Keep.keep0_a21 W c).trans (h.2.2.2.2.2.2.2.2.2.2.2.2.2.2.2.2.2.2.2.2.2)⟩

end Cert.Bridge

end
-- ==== Proof.RefKeptLayers.lean ====
/- Layer by layer: a reference none of a layer's lists writes holds after the layer's operations what it held before them. -/
import proofs.«170918_j12352325943916_1_alg».proof.Proof.RefSub
import Idealize.ShloMosaic.Lib.Pipeline.Frame

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Layer 0 (`ops0 ++ (ops1 ++ ops2)`) leaves a reference outside the ones its lists write as it was: the fold over the concatenation
    is the lists' folds in turn (`after_append`), and each list leaves such a reference alone (`after_of_writes_sub`). -/
theorem keptL0 {r : Ref sig .tc} (V : Valuation τ sig (Elt F))
    (h0 : r ∉ written0) (h1 : r ∉ written1) (h2 : r ∉ written2) :
    after (ops0 ++ (ops1 ++ ops2)) V (Proc.devRef .tc r) = V (Proc.devRef .tc r) := by
  simp only [after_append]
  rw [after_of_writes_sub ops2 _ ops2_writes h2,
    after_of_writes_sub ops1 _ ops1_writes h1,
    after_of_writes_sub ops0 _ ops0_writes h0]

/-- Layer 1 (`ops3 ++ (ops4 ++ ops5)`) leaves a reference outside the ones its lists write as it was: the fold over the concatenation
    is the lists' folds in turn (`after_append`), and each list leaves such a reference alone (`after_of_writes_sub`). -/
theorem keptL1 {r : Ref sig .tc} (V : Valuation τ sig (Elt F))
    (h3 : r ∉ written3) (h4 : r ∉ written4) (h5 : r ∉ written5) :
    after (ops3 ++ (ops4 ++ ops5)) V (Proc.devRef .tc r) = V (Proc.devRef .tc r) := by
  simp only [after_append]
  rw [after_of_writes_sub ops5 _ ops5_writes h5,
    after_of_writes_sub ops4 _ ops4_writes h4,
    after_of_writes_sub ops3 _ ops3_writes h3]

/-- Layer 2 (`ops6 ++ (ops7 ++ (ops8 ++ ops9))`) leaves a reference outside the ones its lists write as it was: the fold over the concatenation
    is the lists' folds in turn (`after_append`), and each list leaves such a reference alone (`after_of_writes_sub`). -/
theorem keptL2 {r : Ref sig .tc} (V : Valuation τ sig (Elt F))
    (h6 : r ∉ written6) (h7 : r ∉ written7) (h8 : r ∉ written8) (h9 : r ∉ written9) :
    after (ops6 ++ (ops7 ++ (ops8 ++ ops9))) V (Proc.devRef .tc r) = V (Proc.devRef .tc r) := by
  simp only [after_append]
  rw [after_of_writes_sub ops9 _ ops9_writes h9,
    after_of_writes_sub ops8 _ ops8_writes h8,
    after_of_writes_sub ops7 _ ops7_writes h7,
    after_of_writes_sub ops6 _ ops6_writes h6]

/-- Layer 3 (`ops10 ++ (ops11 ++ ops12)`) leaves a reference outside the ones its lists write as it was: the fold over the concatenation
    is the lists' folds in turn (`after_append`), and each list leaves such a reference alone (`after_of_writes_sub`). -/
theorem keptL3 {r : Ref sig .tc} (V : Valuation τ sig (Elt F))
    (h10 : r ∉ written10) (h11 : r ∉ written11) (h12 : r ∉ written12) :
    after (ops10 ++ (ops11 ++ ops12)) V (Proc.devRef .tc r) = V (Proc.devRef .tc r) := by
  simp only [after_append]
  rw [after_of_writes_sub ops12 _ ops12_writes h12,
    after_of_writes_sub ops11 _ ops11_writes h11,
    after_of_writes_sub ops10 _ ops10_writes h10]

/-- Layer 4 (`ops13 ++ ops14`) leaves a reference outside the ones its lists write as it was: the fold over the concatenation
    is the lists' folds in turn (`after_append`), and each list leaves such a reference alone (`after_of_writes_sub`). -/
theorem keptL4 {r : Ref sig .tc} (V : Valuation τ sig (Elt F))
    (h13 : r ∉ written13) (h14 : r ∉ written14) :
    after (ops13 ++ ops14) V (Proc.devRef .tc r) = V (Proc.devRef .tc r) := by
  simp only [after_append]
  rw [after_of_writes_sub ops14 _ ops14_writes h14,
    after_of_writes_sub ops13 _ ops13_writes h13]

end Cert.ReferenceIdeal.RefRun

end
-- ==== Proof.CarryR0.lean ====
/-
  Agreement on the argument arrays survives layer 0 of the reference program, none of whose operations writes one of them.
-/
import proofs.«170918_j12352325943916_1_alg».proof.Proof.BridgeDefs
import proofs.«170918_j12352325943916_1_alg».proof.Proof.RefKeptLayers

set_option maxHeartbeats 2000000

noncomputable section

namespace Cert.Bridge

open Idealize.ShloMosaic Idealize.ShloMosaic.TcCoe Idealize.SL.Sem Idealize.ShloMosaic.StableHlo
open Cert.ReferenceIdeal Cert.ReferenceIdeal.RefRun

theorem argsR0 (W : KV) (V : RV) (h : Args W V) : Args W (after (Cert.ReferenceIdeal.RefRun.ops0 ++ (Cert.ReferenceIdeal.RefRun.ops1 ++ (Cert.ReferenceIdeal.RefRun.ops2))) V) :=
  ⟨(h.1).trans (keptL0 (r := main_arg0) V (by decide) (by decide) (by decide)).symm,
   (h.2.1).trans (keptL0 (r := main_arg1) V (by decide) (by decide) (by decide)).symm,
   (h.2.2.1).trans (keptL0 (r := main_arg2) V (by decide) (by decide) (by decide)).symm,
   (h.2.2.2.1).trans (keptL0 (r := main_arg3) V (by decide) (by decide) (by decide)).symm,
   (h.2.2.2.2.1).trans (keptL0 (r := main_arg4) V (by decide) (by decide) (by decide)).symm,
   (h.2.2.2.2.2.1).trans (keptL0 (r := main_arg5) V (by decide) (by decide) (by decide)).symm,
   (h.2.2.2.2.2.2.1).trans (keptL0 (r := main_arg6) V (by decide) (by decide) (by decide)).symm,
   (h.2.2.2.2.2.2.2.1).trans (keptL0 (r := main_arg7) V (by decide) (by decide) (by decide)).symm,
   (h.2.2.2.2.2.2.2.2.1).trans (keptL0 (r := main_arg8) V (by decide) (by decide) (by decide)).symm,
   (h.2.2.2.2.2.2.2.2.2.1).trans (keptL0 (r := main_arg9) V (by decide) (by decide) (by decide)).symm,
   (h.2.2.2.2.2.2.2.2.2.2.1).trans (keptL0 (r := main_arg10) V (by decide) (by decide) (by decide)).symm,
   (h.2.2.2.2.2.2.2.2.2.2.2.1).trans (keptL0 (r := main_arg11) V (by decide) (by decide) (by decide)).symm,
   (h.2.2.2.2.2.2.2.2.2.2.2.2.1).trans (keptL0 (r := main_arg12) V (by decide) (by decide) (by decide)).symm,
   (h.2.2.2.2.2.2.2.2.2.2.2.2.2.1).trans (keptL0 (r := main_arg13) V (by decide) (by decide) (by decide)).symm,
   (h.2.2.2.2.2.2.2.2.2.2.2.2.2.2.1).trans (keptL0 (r := main_arg14) V (by decide) (by decide) (by decide)).symm,
   (h.2.2.2.2.2.2.2.2.2.2.2.2.2.2.2.1).trans (keptL0 (r := main_arg15) V (by decide) (by decide) (by decide)).symm,
   (h.2.2.2.2.2.2.2.2.2.2.2.2.2.2.2.2.1).trans (keptL0 (r := main_arg16) V (by decide) (by decide) (by decide)).symm,
   (h.2.2.2.2.2.2.2.2.2.2.2.2.2.2.2.2.2.1).trans (keptL0 (r := main_arg17) V (by decide) (by decide) (by decide)).symm,
   (h.2.2.2.2.2.2.2.2.2.2.2.2.2.2.2.2.2.2.1).trans (keptL0 (r := main_arg18) V (by decide) (by decide) (by decide)).symm,
   (h.2.2.2.2.2.2.2.2.2.2.2.2.2.2.2.2.2.2.2.1).trans (keptL0 (r := main_arg19) V (by decide) (by decide) (by decide)).symm,
   (h.2.2.2.2.2.2.2.2.2.2.2.2.2.2.2.2.2.2.2.2.1).trans (keptL0 (r := main_arg20) V (by decide) (by decide) (by decide)).symm,
   (h.2.2.2.2.2.2.2.2.2.2.2.2.2.2.2.2.2.2.2.2.2).trans (keptL0 (r := main_arg21) V (by decide) (by decide) (by decide)).symm⟩

end Cert.Bridge

end
-- ==== Proof.CarryK1.lean ====
/-
  Agreement on the argument arrays and on the table of node ids survives layer 1 of the kernel program, which writes none of them.
-/
import proofs.«170918_j12352325943916_1_alg».proof.Proof.BridgeDefs
import proofs.«170918_j12352325943916_1_alg».proof.Proof.KeepKI1

set_option maxHeartbeats 2000000

noncomputable section

namespace Cert.Bridge

open Idealize.ShloMosaic Idealize.ShloMosaic.TcCoe Idealize.SL.Sem Idealize.ShloMosaic.StableHlo
open Cert.KernelIdeal

theorem argsK1 (W : KerLayers.Fam Ideal) (c : Dev nD) (V : RV) (h : Args (W c) V) : Args (KerLayers.KL1 W c) V :=
  ⟨(Keep.keep1_a0 W c).trans (h.1),
   (Keep.keep1_a1 W c).trans (h.2.1),
   (Keep.keep1_a2 W c).trans (h.2.2.1),
   (Keep.keep1_a3 W c).trans (h.2.2.2.1),
   (Keep.keep1_a4 W c).trans (h.2.2.2.2.1),
   (Keep.keep1_a5 W c).trans (h.2.2.2.2.2.1),
   (Keep.keep1_a6 W c).trans (h.2.2.2.2.2.2.1),
   (Keep.keep1_a7 W c).trans (h.2.2.2.2.2.2.2.1),
   (Keep.keep1_a8 W c).trans (h.2.2.2.2.2.2.2.2.1),
   (Keep.keep1_a9 W c).trans (h.2.2.2.2.2.2.2.2.2.1),
   (Keep.keep1_a10 W c).trans (h.2.2.2.2.2.2.2.2.2.2.1),
   (Keep.keep1_a11 W c).trans (h.2.2.2.2.2.2.2.2.2.2.2.1),
   (Keep.keep1_a12 W c).trans (h.2.2.2.2.2.2.2.2.2.2.2.2.1),
   (Keep.keep1_a13 W c).trans (h.2.2.2.2.2.2.2.2.2.2.2.2.2.1),
   (Keep.keep1_a14 W c).trans (h.2.2.2.2.2.2.2.2.2.2.2.2.2.2.1),
   (Keep.keep1_a15 W c).trans (h.2.2.2.2.2.2.2.2.2.2.2.2.2.2.2.1),
   (Keep.keep1_a16 W c).trans (h.2.2.2.2.2.2.2.2.2.2.2.2.2.2.2.2.1),
   (Keep.keep1_a17 W c).trans (h.2.2.2.2.2.2.2.2.2.2.2.2.2.2.2.2.2.1),
   (Keep.keep1_a18 W c).trans (h.2.2.2.2.2.2.2.2.2.2.2.2.2.2.2.2.2.2.1),
   (Keep.keep1_a19 W c).trans (h.2.2.2.2.2.2.2.2.2.2.2.2.2.2.2.2.2.2.2.1),
   (Keep.keep1_a20 W c).trans (h.2.2.2.2.2.2.2.2.2.2.2.2.2.2.2.2.2.2.2.2.1),
   (Keep.keep1_a21 W c).trans (h.2.2.2.2.2.2.2.2.2.2.2.2.2.2.2.2.2.2.2.2.2)⟩

theorem nidxK1 (W : KerLayers.Fam Ideal) (c : Dev nD) : KerLayers.KL1 W c (Proc.devRef .tc main_v10) = W c (Proc.devRef .tc main_v10) :=
  Keep.keep1_n W c

end Cert.Bridge

end
-- ==== Proof.CarryR1.lean ====
/-
  Agreement on the argument arrays and on the table of node ids survives layer 1 of the reference program, none of whose operations writes one of them.
-/
import proofs.«170918_j12352325943916_1_alg».proof.Proof.BridgeDefs
import proofs.«170918_j12352325943916_1_alg».proof.Proof.RefKeptLayers

set_option maxHeartbeats 2000000

noncomputable section

namespace Cert.Bridge

open Idealize.ShloMosaic Idealize.ShloMosaic.TcCoe Idealize.SL.Sem Idealize.ShloMosaic.StableHlo
open Cert.ReferenceIdeal Cert.ReferenceIdeal.RefRun

theorem argsR1 (W : KV) (V : RV) (h : Args W V) : Args W (after (Cert.ReferenceIdeal.RefRun.ops3 ++ (Cert.ReferenceIdeal.RefRun.ops4 ++ (Cert.ReferenceIdeal.RefRun.ops5))) V) :=
  ⟨(h.1).trans (keptL1 (r := main_arg0) V (by decide) (by decide) (by decide)).symm,
   (h.2.1).trans (keptL1 (r := main_arg1) V (by decide) (by decide) (by decide)).symm,
   (h.2.2.1).trans (keptL1 (r := main_arg2) V (by decide) (by decide) (by decide)).symm,
   (h.2.2.2.1).trans (keptL1 (r := main_arg3) V (by decide) (by decide) (by decide)).symm,
   (h.2.2.2.2.1).trans (keptL1 (r := main_arg4) V (by decide) (by decide) (by decide)).symm,
   (h.2.2.2.2.2.1).trans (keptL1 (r := main_arg5) V (by decide) (by decide) (by decide)).symm,
   (h.2.2.2.2.2.2.1).trans (keptL1 (r := main_arg6) V (by decide) (by decide) (by decide)).symm,
   (h.2.2.2.2.2.2.2.1).trans (keptL1 (r := main_arg7) V (by decide) (by decide) (by decide)).symm,
   (h.2.2.2.2.2.2.2.2.1).trans (keptL1 (r := main_arg8) V (by decide) (by decide) (by decide)).symm,
   (h.2.2.2.2.2.2.2.2.2.1).trans (keptL1 (r := main_arg9) V (by decide) (by decide) (by decide)).symm,
   (h.2.2.2.2.2.2.2.2.2.2.1).trans (keptL1 (r := main_arg10) V (by decide) (by decide) (by decide)).symm,
   (h.2.2.2.2.2.2.2.2.2.2.2.1).trans (keptL1 (r := main_arg11) V (by decide) (by decide) (by decide)).symm,
   (h.2.2.2.2.2.2.2.2.2.2.2.2.1).trans (keptL1 (r := main_arg12) V (by decide) (by decide) (by decide)).symm,
   (h.2.2.2.2.2.2.2.2.2.2.2.2.2.1).trans (keptL1 (r := main_arg13) V (by decide) (by decide) (by decide)).symm,
   (h.2.2.2.2.2.2.2.2.2.2.2.2.2.2.1).trans (keptL1 (r := main_arg14) V (by decide) (by decide) (by decide)).symm,
   (h.2.2.2.2.2.2.2.2.2.2.2.2.2.2.2.1).trans (keptL1 (r := main_arg15) V (by decide) (by decide) (by decide)).symm,
   (h.2.2.2.2.2.2.2.2.2.2.2.2.2.2.2.2.1).trans (keptL1 (r := main_arg16) V (by decide) (by decide) (by decide)).symm,
   (h.2.2.2.2.2.2.2.2.2.2.2.2.2.2.2.2.2.1).trans (keptL1 (r := main_arg17) V (by decide) (by decide) (by decide)).symm,
   (h.2.2.2.2.2.2.2.2.2.2.2.2.2.2.2.2.2.2.1).trans (keptL1 (r := main_arg18) V (by decide) (by decide) (by decide)).symm,
   (h.2.2.2.2.2.2.2.2.2.2.2.2.2.2.2.2.2.2.2.1).trans (keptL1 (r := main_arg19) V (by decide) (by decide) (by decide)).symm,
   (h.2.2.2.2.2.2.2.2.2.2.2.2.2.2.2.2.2.2.2.2.1).trans (keptL1 (r := main_arg20) V (by decide) (by decide) (by decide)).symm,
   (h.2.2.2.2.2.2.2.2.2.2.2.2.2.2.2.2.2.2.2.2.2).trans (keptL1 (r := main_arg21) V (by decide) (by decide) (by decide)).symm⟩

theorem nidxR1 (V : RV) : after (Cert.ReferenceIdeal.RefRun.ops3 ++ (Cert.ReferenceIdeal.RefRun.ops4 ++ (Cert.ReferenceIdeal.RefRun.ops5))) V (Proc.devRef .tc main_v10) = V (Proc.devRef .tc main_v10) :=
  keptL1 (r := main_v10) V (by decide) (by decide) (by decide)

end Cert.Bridge

end
-- ==== Proof.CarryK2.lean ====
/-
  Agreement on the argument arrays and on the table of node ids survives layer 2 of the kernel program, which writes none of them.
-/
import proofs.«170918_j12352325943916_1_alg».proof.Proof.BridgeDefs
import proofs.«170918_j12352325943916_1_alg».proof.Proof.KeepKI2

set_option maxHeartbeats 2000000

noncomputable section

namespace Cert.Bridge

open Idealize.ShloMosaic Idealize.ShloMosaic.TcCoe Idealize.SL.Sem Idealize.ShloMosaic.StableHlo
open Cert.KernelIdeal

theorem argsK2 (W : KerLayers.Fam Ideal) (c : Dev nD) (V : RV) (h : Args (W c) V) : Args (KerLayers.KL2 W c) V :=
  ⟨(Keep.keep2_a0 W c).trans (h.1),
   (Keep.keep2_a1 W c).trans (h.2.1),
   (Keep.keep2_a2 W c).trans (h.2.2.1),
   (Keep.keep2_a3 W c).trans (h.2.2.2.1),
   (Keep.keep2_a4 W c).trans (h.2.2.2.2.1),
   (Keep.keep2_a5 W c).trans (h.2.2.2.2.2.1),
   (Keep.keep2_a6 W c).trans (h.2.2.2.2.2.2.1),
   (Keep.keep2_a7 W c).trans (h.2.2.2.2.2.2.2.1),
   (Keep.keep2_a8 W c).trans (h.2.2.2.2.2.2.2.2.1),
   (Keep.keep2_a9 W c).trans (h.2.2.2.2.2.2.2.2.2.1),
   (Keep.keep2_a10 W c).trans (h.2.2.2.2.2.2.2.2.2.2.1),
   (Keep.keep2_a11 W c).trans (h.2.2.2.2.2.2.2.2.2.2.2.1),
   (Keep.keep2_a12 W c).trans (h.2.2.2.2.2.2.2.2.2.2.2.2.1),
   (Keep.keep2_a13 W c).trans (h.2.2.2.2.2.2.2.2.2.2.2.2.2.1),
   (Keep.keep2_a14 W c).trans (h.2.2.2.2.2.2.2.2.2.2.2.2.2.2.1),
   (Keep.keep2_a15 W c).trans (h.2.2.2.2.2.2.2.2.2.2.2.2.2.2.2.1),
   (Keep.keep2_a16 W c).trans (h.2.2.2.2.2.2.2.2.2.2.2.2.2.2.2.2.1),
   (Keep.keep2_a17 W c).trans (h.2.2.2.2.2.2.2.2.2.2.2.2.2.2.2.2.2.1),
   (Keep.keep2_a18 W c).trans (h.2.2.2.2.2.2.2.2.2.2.2.2.2.2.2.2.2.2.1),
   (Keep.keep2_a19 W c).trans (h.2.2.2.2.2.2.2.2.2.2.2.2.2.2.2.2.2.2.2.1),
   (Keep.keep2_a20 W c).trans (h.2.2.2.2.2.2.2.2.2.2.2.2.2.2.2.2.2.2.2.2.1),
   (Keep.keep2_a21 W c).trans (h.2.2.2.2.2.2.2.2.2.2.2.2.2.2.2.2.2.2.2.2.2)⟩

theorem nidxK2 (W : KerLayers.Fam Ideal) (c : Dev nD) : KerLayers.KL2 W c (Proc.devRef .tc main_v10) = W c (Proc.devRef .tc main_v10) :=
  Keep.keep2_n W c

end Cert.Bridge

end
-- ==== Proof.CarryR2.lean ====
/-
  Agreement on the argument arrays and on the table of node ids survives layer 2 of the reference program, none of whose operations writes one of them.
-/
import proofs.«170918_j12352325943916_1_alg».proof.Proof.BridgeDefs
import proofs.«170918_j12352325943916_1_alg».proof.Proof.RefKeptLayers

set_option maxHeartbeats 2000000

noncomputable section

namespace Cert.Bridge

open Idealize.ShloMosaic Idealize.ShloMosaic.TcCoe Idealize.SL.Sem Idealize.ShloMosaic.StableHlo
open Cert.ReferenceIdeal Cert.ReferenceIdeal.RefRun

theorem argsR2 (W : KV) (V : RV) (h : Args W V) : Args W (after (Cert.ReferenceIdeal.RefRun.ops6 ++ (Cert.ReferenceIdeal.RefRun.ops7 ++ (Cert.ReferenceIdeal.RefRun.ops8 ++ (Cert.ReferenceIdeal.RefRun.ops9)))) V) :=
  ⟨(h.1).trans (keptL2 (r := main_arg0) V (by decide) (by decide) (by decide) (by decide)).symm,
   (h.2.1).trans (keptL2 (r := main_arg1) V (by decide) (by decide) (by decide) (by decide)).symm,
   (h.2.2.1).trans (keptL2 (r := main_arg2) V (by decide) (by decide) (by decide) (by decide)).symm,
   (h.2.2.2.1).trans (keptL2 (r := main_arg3) V (by decide) (by decide) (by decide) (by decide)).symm,
   (h.2.2.2.2.1).trans (keptL2 (r := main_arg4) V (by decide) (by decide) (by decide) (by decide)).symm,
   (h.2.2.2.2.2.1).trans (keptL2 (r := main_arg5) V (by decide) (by decide) (by decide) (by decide)).symm,
   (h.2.2.2.2.2.2.1).trans (keptL2 (r := main_arg6) V (by decide) (by decide) (by decide) (by decide)).symm,
   (h.2.2.2.2.2.2.2.1).trans (keptL2 (r := main_arg7) V (by decide) (by decide) (by decide) (by decide)).symm,
   (h.2.2.2.2.2.2.2.2.1).trans (keptL2 (r := main_arg8) V (by decide) (by decide) (by decide) (by decide)).symm,
   (h.2.2.2.2.2.2.2.2.2.1).trans (keptL2 (r := main_arg9) V (by decide) (by decide) (by decide) (by decide)).symm,
   (h.2.2.2.2.2.2.2.2.2.2.1).trans (keptL2 (r := main_arg10) V (by decide) (by decide) (by decide) (by decide)).symm,
   (h.2.2.2.2.2.2.2.2.2.2.2.1).trans (keptL2 (r := main_arg11) V (by decide) (by decide) (by decide) (by decide)).symm,
   (h.2.2.2.2.2.2.2.2.2.2.2.2.1).trans (keptL2 (r := main_arg12) V (by decide) (by decide) (by decide) (by decide)).symm,
   (h.2.2.2.2.2.2.2.2.2.2.2.2.2.1).trans (keptL2 (r := main_arg13) V (by decide) (by decide) (by decide) (by decide)).symm,
   (h.2.2.2.2.2.2.2.2.2.2.2.2.2.2.1).trans (keptL2 (r := main_arg14) V (by decide) (by decide) (by decide) (by decide)).symm,
   (h.2.2.2.2.2.2.2.2.2.2.2.2.2.2.2.1).trans (keptL2 (r := main_arg15) V (by decide) (by decide) (by decide) (by decide)).symm,
   (h.2.2.2.2.2.2.2.2.2.2.2.2.2.2.2.2.1).trans (keptL2 (r := main_arg16) V (by decide) (by decide) (by decide) (by decide)).symm,
   (h.2.2.2.2.2.2.2.2.2.2.2.2.2.2.2.2.2.1).trans (keptL2 (r := main_arg17) V (by decide) (by decide) (by decide) (by decide)).symm,
   (h.2.2.2.2.2.2.2.2.2.2.2.2.2.2.2.2.2.2.1).trans (keptL2 (r := main_arg18) V (by decide) (by decide) (by decide) (by decide)).symm,
   (h.2.2.2.2.2.2.2.2.2.2.2.2.2.2.2.2.2.2.2.1).trans (keptL2 (r := main_arg19) V (by decide) (by decide) (by decide) (by decide)).symm,
   (h.2.2.2.2.2.2.2.2.2.2.2.2.2.2.2.2.2.2.2.2.1).trans (keptL2 (r := main_arg20) V (by decide) (by decide) (by decide) (by decide)).symm,
   (h.2.2.2.2.2.2.2.2.2.2.2.2.2.2.2.2.2.2.2.2.2).trans (keptL2 (r := main_arg21) V (by decide) (by decide) (by decide) (by decide)).symm⟩

theorem nidxR2 (V : RV) : after (Cert.ReferenceIdeal.RefRun.ops6 ++ (Cert.ReferenceIdeal.RefRun.ops7 ++ (Cert.ReferenceIdeal.RefRun.ops8 ++ (Cert.ReferenceIdeal.RefRun.ops9)))) V (Proc.devRef .tc main_v10) = V (Proc.devRef .tc main_v10) :=
  keptL2 (r := main_v10) V (by decide) (by decide) (by decide) (by decide)

end Cert.Bridge

end
-- ==== Proof.CarryK3.lean ====
/-
  Agreement on the argument arrays and on the table of node ids survives layer 3 of the kernel program, which writes none of them.
-/
import proofs.«170918_j12352325943916_1_alg».proof.Proof.BridgeDefs
import proofs.«170918_j12352325943916_1_alg».proof.Proof.KeepKI3

set_option maxHeartbeats 2000000

noncomputable section

namespace Cert.Bridge

open Idealize.ShloMosaic Idealize.ShloMosaic.TcCoe Idealize.SL.Sem Idealize.ShloMosaic.StableHlo
open Cert.KernelIdeal

theorem argsK3 (W : KerLayers.Fam Ideal) (c : Dev nD) (V : RV) (h : Args (W c) V) : Args (KerLayers.KL3 W c) V :=
  ⟨(Keep.keep3_a0 W c).trans (h.1),
   (Keep.keep3_a1 W c).trans (h.2.1),
   (Keep.keep3_a2 W c).trans (h.2.2.1),
   (Keep.keep3_a3 W c).trans (h.2.2.2.1),
   (Keep.keep3_a4 W c).trans (h.2.2.2.2.1),
   (Keep.keep3_a5 W c).trans (h.2.2.2.2.2.1),
   (Keep.keep3_a6 W c).trans (h.2.2.2.2.2.2.1),
   (Keep.keep3_a7 W c).trans (h.2.2.2.2.2.2.2.1),
   (Keep.keep3_a8 W c).trans (h.2.2.2.2.2.2.2.2.1),
   (Keep.keep3_a9 W c).trans (h.2.2.2.2.2.2.2.2.2.1),
   (Keep.keep3_a10 W c).trans (h.2.2.2.2.2.2.2.2.2.2.1),
   (Keep.keep3_a11 W c).trans (h.2.2.2.2.2.2.2.2.2.2.2.1),
   (Keep.keep3_a12 W c).trans (h.2.2.2.2.2.2.2.2.2.2.2.2.1),
   (Keep.keep3_a13 W c).trans (h.2.2.2.2.2.2.2.2.2.2.2.2.2.1),
   (Keep.keep3_a14 W c).trans (h.2.2.2.2.2.2.2.2.2.2.2.2.2.2.1),
   (Keep.keep3_a15 W c).trans (h.2.2.2.2.2.2.2.2.2.2.2.2.2.2.2.1),
   (Keep.keep3_a16 W c).trans (h.2.2.2.2.2.2.2.2.2.2.2.2.2.2.2.2.1),
   (Keep.keep3_a17 W c).trans (h.2.2.2.2.2.2.2.2.2.2.2.2.2.2.2.2.2.1),
   (Keep.keep3_a18 W c).trans (h.2.2.2.2.2.2.2.2.2.2.2.2.2.2.2.2.2.2.1),
   (Keep.keep3_a19 W c).trans (h.2.2.2.2.2.2.2.2.2.2.2.2.2.2.2.2.2.2.2.1),
   (Keep.keep3_a20 W c).trans (h.2.2.2.2.2.2.2.2.2.2.2.2.2.2.2.2.2.2.2.2.1),
   (Keep.keep3_a21 W c).trans (h.2.2.2.2.2.2.2.2.2.2.2.2.2.2.2.2.2.2.2.2.2)⟩

theorem nidxK3 (W : KerLayers.Fam Ideal) (c : Dev nD) : KerLayers.KL3 W c (Proc.devRef .tc main_v10) = W c (Proc.devRef .tc main_v10) :=
  Keep.keep3_n W c

end Cert.Bridge

end
-- ==== Proof.CarryR3.lean ====
/-
  Agreement on the argument arrays and on the table of node ids survives layer 3 of the reference program, none of whose operations writes one of them.
-/
import proofs.«170918_j12352325943916_1_alg».proof.Proof.BridgeDefs
import proofs.«170918_j12352325943916_1_alg».proof.Proof.RefKeptLayers

set_option maxHeartbeats 2000000

noncomputable section

namespace Cert.Bridge

open Idealize.ShloMosaic Idealize.ShloMosaic.TcCoe Idealize.SL.Sem Idealize.ShloMosaic.StableHlo
open Cert.ReferenceIdeal Cert.ReferenceIdeal.RefRun

theorem argsR3 (W : KV) (V : RV) (h : Args W V) : Args W (after (Cert.ReferenceIdeal.RefRun.ops10 ++ (Cert.ReferenceIdeal.RefRun.ops11 ++ (Cert.ReferenceIdeal.RefRun.ops12))) V) :=
  ⟨(h.1).trans (keptL3 (r := main_arg0) V (by decide) (by decide) (by decide)).symm,
   (h.2.1).trans (keptL3 (r := main_arg1) V (by decide) (by decide) (by decide)).symm,
   (h.2.2.1).trans (keptL3 (r := main_arg2) V (by decide) (by decide) (by decide)).symm,
   (h.2.2.2.1).trans (keptL3 (r := main_arg3) V (by decide) (by decide) (by decide)).symm,
   (h.2.2.2.2.1).trans (keptL3 (r := main_arg4) V (by decide) (by decide) (by decide)).symm,
   (h.2.2.2.2.2.1).trans (keptL3 (r := main_arg5) V (by decide) (by decide) (by decide)).symm,
   (h.2.2.2.2.2.2.1).trans (keptL3 (r := main_arg6) V (by decide) (by decide) (by decide)).symm,
   (h.2.2.2.2.2.2.2.1).trans (keptL3 (r := main_arg7) V (by decide) (by decide) (by decide)).symm,
   (h.2.2.2.2.2.2.2.2.1).trans (keptL3 (r := main_arg8) V (by decide) (by decide) (by decide)).symm,
   (h.2.2.2.2.2.2.2.2.2.1).trans (keptL3 (r := main_arg9) V (by decide) (by decide) (by decide)).symm,
   (h.2.2.2.2.2.2.2.2.2.2.1).trans (keptL3 (r := main_arg10) V (by decide) (by decide) (by decide)).symm,
   (h.2.2.2.2.2.2.2.2.2.2.2.1).trans (keptL3 (r := main_arg11) V (by decide) (by decide) (by decide)).symm,
   (h.2.2.2.2.2.2.2.2.2.2.2.2.1).trans (keptL3 (r := main_arg12) V (by decide) (by decide) (by decide)).symm,
   (h.2.2.2.2.2.2.2.2.2.2.2.2.2.1).trans (keptL3 (r := main_arg13) V (by decide) (by decide) (by decide)).symm,
   (h.2.2.2.2.2.2.2.2.2.2.2.2.2.2.1).trans (keptL3 (r := main_arg14) V (by decide) (by decide) (by decide)).symm,
   (h.2.2.2.2.2.2.2.2.2.2.2.2.2.2.2.1).trans (keptL3 (r := main_arg15) V (by decide) (by decide) (by decide)).symm,
   (h.2.2.2.2.2.2.2.2.2.2.2.2.2.2.2.2.1).trans (keptL3 (r := main_arg16) V (by decide) (by decide) (by decide)).symm,
   (h.2.2.2.2.2.2.2.2.2.2.2.2.2.2.2.2.2.1).trans (keptL3 (r := main_arg17) V (by decide) (by decide) (by decide)).symm,
   (h.2.2.2.2.2.2.2.2.2.2.2.2.2.2.2.2.2.2.1).trans (keptL3 (r := main_arg18) V (by decide) (by decide) (by decide)).symm,
   (h.2.2.2.2.2.2.2.2.2.2.2.2.2.2.2.2.2.2.2.1).trans (keptL3 (r := main_arg19) V (by decide) (by decide) (by decide)).symm,
   (h.2.2.2.2.2.2.2.2.2.2.2.2.2.2.2.2.2.2.2.2.1).trans (keptL3 (r := main_arg20) V (by decide) (by decide) (by decide)).symm,
   (h.2.2.2.2.2.2.2.2.2.2.2.2.2.2.2.2.2.2.2.2.2).trans (keptL3 (r := main_arg21) V (by decide) (by decide) (by decide)).symm⟩

theorem nidxR3 (V : RV) : after (Cert.ReferenceIdeal.RefRun.ops10 ++ (Cert.ReferenceIdeal.RefRun.ops11 ++ (Cert.ReferenceIdeal.RefRun.ops12))) V (Proc.devRef .tc main_v10) = V (Proc.devRef .tc main_v10) :=
  keptL3 (r := main_v10) V (by decide) (by decide) (by decide)

end Cert.Bridge

end
-- ==== Proof.Bridge.lean ====
/-
  The two programs' results agree: from launch memories that agree on the arguments, the kernel program's contents at its
  last boundary, read at its result array, are the fold of all of the reference program's operations over its launch
  memory, read at its result array. Layer by layer: agreement at the start of a layer gives agreement at its end.
-/
import proofs.«170918_j12352325943916_1_alg».proof.Proof.Layer0
import proofs.«170918_j12352325943916_1_alg».proof.Proof.Layer0n
import proofs.«170918_j12352325943916_1_alg».proof.Proof.Layer1
import proofs.«170918_j12352325943916_1_alg».proof.Proof.Layer2
import proofs.«170918_j12352325943916_1_alg».proof.Proof.Layer3
import proofs.«170918_j12352325943916_1_alg».proof.Proof.Head
import proofs.«170918_j12352325943916_1_alg».proof.Proof.CarryK0
import proofs.«170918_j12352325943916_1_alg».proof.Proof.CarryR0
import proofs.«170918_j12352325943916_1_alg».proof.Proof.CarryK1
import proofs.«170918_j12352325943916_1_alg».proof.Proof.CarryR1
import proofs.«170918_j12352325943916_1_alg».proof.Proof.CarryK2
import proofs.«170918_j12352325943916_1_alg».proof.Proof.CarryR2
import proofs.«170918_j12352325943916_1_alg».proof.Proof.CarryK3
import proofs.«170918_j12352325943916_1_alg».proof.Proof.CarryR3
import Idealize.ShloMosaic.Lib.Pipeline.Frame

noncomputable section

namespace Cert.Bridge

open Idealize.ShloMosaic Idealize.ShloMosaic.TcCoe Idealize.SL.Sem Idealize.ShloMosaic.StableHlo
open Cert.KernelIdeal.KerLayers

theorem step0 (W : Fam Ideal) (c : Dev Cert.KernelIdeal.nD) (V : RV) (h : Args (W c) V) : Agree1 (KL0 W c) (after (Cert.ReferenceIdeal.RefRun.ops0 ++ (Cert.ReferenceIdeal.RefRun.ops1 ++ (Cert.ReferenceIdeal.RefRun.ops2))) V) :=
  ⟨layer0_x W c V h, layer0_n W c V h, argsR0 _ _ (argsK0 W c V h)⟩

theorem step1 (W : Fam Ideal) (c : Dev Cert.KernelIdeal.nD) (V : RV) (h : Agree1 (W c) V) : Agree2 (KL1 W c) (after (Cert.ReferenceIdeal.RefRun.ops3 ++ (Cert.ReferenceIdeal.RefRun.ops4 ++ (Cert.ReferenceIdeal.RefRun.ops5))) V) :=
  ⟨layer1_x W c V h, (nidxK1 W c).trans (h.2.1.trans (nidxR1 V).symm), argsR1 _ _ (argsK1 W c V h.2.2)⟩

theorem step2 (W : Fam Ideal) (c : Dev Cert.KernelIdeal.nD) (V : RV) (h : Agree2 (W c) V) : Agree3 (KL2 W c) (after (Cert.ReferenceIdeal.RefRun.ops6 ++ (Cert.ReferenceIdeal.RefRun.ops7 ++ (Cert.ReferenceIdeal.RefRun.ops8 ++ (Cert.ReferenceIdeal.RefRun.ops9)))) V) :=
  ⟨layer2_x W c V h, (nidxK2 W c).trans (h.2.1.trans (nidxR2 V).symm), argsR2 _ _ (argsK2 W c V h.2.2)⟩

theorem step3 (W : Fam Ideal) (c : Dev Cert.KernelIdeal.nD) (V : RV) (h : Agree3 (W c) V) : Agree4 (KL3 W c) (after (Cert.ReferenceIdeal.RefRun.ops10 ++ (Cert.ReferenceIdeal.RefRun.ops11 ++ (Cert.ReferenceIdeal.RefRun.ops12))) V) :=
  ⟨layer3_x W c V h, (nidxK3 W c).trans (h.2.1.trans (nidxR3 V).symm), argsR3 _ _ (argsK3 W c V h.2.2)⟩

/-- All of the reference program's operations, grouped by layer. -/
abbrev opsByLayer : List (HloOp Cert.ReferenceIdeal.τ Cert.ReferenceIdeal.sig (Elt Ideal)) :=
  (Cert.ReferenceIdeal.RefRun.ops0 ++ (Cert.ReferenceIdeal.RefRun.ops1 ++ (Cert.ReferenceIdeal.RefRun.ops2))) ++ ((Cert.ReferenceIdeal.RefRun.ops3 ++ (Cert.ReferenceIdeal.RefRun.ops4 ++ (Cert.ReferenceIdeal.RefRun.ops5))) ++ ((Cert.ReferenceIdeal.RefRun.ops6 ++ (Cert.ReferenceIdeal.RefRun.ops7 ++ (Cert.ReferenceIdeal.RefRun.ops8 ++ (Cert.ReferenceIdeal.RefRun.ops9)))) ++ ((Cert.ReferenceIdeal.RefRun.ops10 ++ (Cert.ReferenceIdeal.RefRun.ops11 ++ (Cert.ReferenceIdeal.RefRun.ops12))) ++ (Cert.ReferenceIdeal.RefRun.ops13 ++ (Cert.ReferenceIdeal.RefRun.ops14)))))

/-- From agreeing launch contents the results agree. -/
theorem results_agree (W : Fam Ideal) (c : Dev Cert.KernelIdeal.nD) (V : RV) (h : Args (W c) V) :
    KL4 (KL3 (KL2 (KL1 (KL0 W)))) c (Proc.devRef .tc Cert.KernelIdeal.main_v443) = after opsByLayer V (Proc.devRef .tc Cert.ReferenceIdeal.main_v513) := by
  unfold opsByLayer
  rw [after_append, after_append, after_append, after_append]
  exact head_x _ c _ (step3 _ c _ (step2 _ c _ (step1 _ c _ (step0 W c V h))))

end Cert.Bridge

end
-- ==== Proof.lean ====
/-
  The certificate of the graph network kernel against its reference.
  Both programs compute, for four layers, the graph convolution's linear part x·Wr + agg·Wn + b, its batch statistics, the
  same small subgraph branch, and x' = max(BN(linear) + h2[node_idx], 0); then two mean-pools and a two-layer head. The
  kernel program runs the linear part, the normalise-combine step and the head as pallas regions over row tiles; the
  reference runs everything as host operations. Over the extended reals a row tile of a matrix product is the product's
  rows, a product into a zero accumulator is the plain sum over k, and a change of float format is the identity, so each
  region leaves exactly the array the reference's operations compute, and every other operation is literally the same in
  the two programs. No finiteness of the inputs is used.
  * frames: the kernel program's run is the generated segments' run, its arguments kept because no stretch and no region
    writes one; the reference's run is the fold of its 785 host operations, none of which writes an argument.
  * preserves: the ideal pass rewrote nothing.
  * algebraic: the kernel program's result is its last boundary's contents at the result array; layer by layer these
    agree with the reference's fold (Bridge).
-/
import proofs.«170918_j12352325943916_1_alg».proof.Defs
import proofs.«170918_j12352325943916_1_alg».proof.Proof.Gen.Kernel
import proofs.«170918_j12352325943916_1_alg».proof.Proof.Gen.KernelIdeal
import proofs.«170918_j12352325943916_1_alg».proof.Proof.Gen.ReferenceIdeal
import proofs.«170918_j12352325943916_1_alg».proof.Proof.Gen.Pre_finite_inputs
import proofs.«170918_j12352325943916_1_alg».proof.Proof.KRun
import proofs.«170918_j12352325943916_1_alg».proof.Proof.KerRun
import proofs.«170918_j12352325943916_1_alg».proof.Proof.RefRun
import proofs.«170918_j12352325943916_1_alg».proof.Proof.RefKept
import proofs.«170918_j12352325943916_1_alg».proof.Proof.Bridge

noncomputable section

namespace Cert.Proof

open Idealize.ShloMosaic Idealize.ShloMosaic.TcCoe Idealize.SL.Sem Idealize.ShloMosaic.StableHlo

theorem frame_p : Cert.frame_Kernel := fun m ρ _ => Cert.Kernel.KerRun.run_value (F := Bits) m ρ

theorem frame_pi : Cert.frame_KernelIdeal := fun m ρ _ =>
  (θ_run Cert.KernelIdeal.defs _ _).mono (fun _ h c => (h c).2) (Cert.KernelIdeal.KerRun.run_value (F := Ideal) m ρ)

/-- The reference's run with a result named and the arguments kept. -/
theorem ref_run (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => ∀ c : Dev Cert.ReferenceIdeal.nD,
        r.2.mem ((c.tc : Thread Cert.ReferenceIdeal.nD Cert.ReferenceIdeal.τ).loc Cert.ReferenceIdeal.main_v513)
          = after (Cert.ReferenceIdeal.RefRun.ops (F := Ideal)) (launchContents m c) (Proc.devRef .tc Cert.ReferenceIdeal.main_v513)
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
        ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
        ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
        ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
        ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
        ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
        ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
        ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
        ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
        ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
        ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
        ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
        ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
        ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
        ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
        ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
        ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
        ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)) :=
  (θ_run Cert.ReferenceIdeal.defs _ _).mono (fun _ h c =>
    ⟨h c _,
     (h c _).trans (Cert.ReferenceIdeal.RefRun.kept0 _),
     (h c _).trans (Cert.ReferenceIdeal.RefRun.kept1 _),
     (h c _).trans (Cert.ReferenceIdeal.RefRun.kept2 _),
     (h c _).trans (Cert.ReferenceIdeal.RefRun.kept3 _),
     (h c _).trans (Cert.ReferenceIdeal.RefRun.kept4 _),
     (h c _).trans (Cert.ReferenceIdeal.RefRun.kept5 _),
     (h c _).trans (Cert.ReferenceIdeal.RefRun.kept6 _),
     (h c _).trans (Cert.ReferenceIdeal.RefRun.kept7 _),
     (h c _).trans (Cert.ReferenceIdeal.RefRun.kept8 _),
     (h c _).trans (Cert.ReferenceIdeal.RefRun.kept9 _),
     (h c _).trans (Cert.ReferenceIdeal.RefRun.kept10 _),
     (h c _).trans (Cert.ReferenceIdeal.RefRun.kept11 _),
     (h c _).trans (Cert.ReferenceIdeal.RefRun.kept12 _),
     (h c _).trans (Cert.ReferenceIdeal.RefRun.kept13 _),
     (h c _).trans (Cert.ReferenceIdeal.RefRun.kept14 _),
     (h c _).trans (Cert.ReferenceIdeal.RefRun.kept15 _),
     (h c _).trans (Cert.ReferenceIdeal.RefRun.kept16 _),
     (h c _).trans (Cert.ReferenceIdeal.RefRun.kept17 _),
     (h c _).trans (Cert.ReferenceIdeal.RefRun.kept18 _),
     (h c _).trans (Cert.ReferenceIdeal.RefRun.kept19 _),
     (h c _).trans (Cert.ReferenceIdeal.RefRun.kept20 _),
     (h c _).trans (Cert.ReferenceIdeal.RefRun.kept21 _)⟩)
    (Cert.ReferenceIdeal.RefRun.run_main (F := Ideal) m ρ)

theorem frame_ri : Cert.frame_ReferenceIdeal := fun m ρ _ =>
  (θ_run Cert.ReferenceIdeal.defs _ _).mono (fun _ h c => (h c).2) (ref_run m ρ)

theorem preserves : Cert.preserves_Kernel_KernelIdeal := trivial

theorem algebraic : Cert.algebraic_KernelIdeal_ReferenceIdeal := by
  intro m ρ m' ρ' _ hagree
  refine ⟨fun c => Cert.KernelIdeal.GenP.W36 (F := Ideal) m ρ c (Proc.devRef .tc Cert.KernelIdeal.main_v443),
    Cert.KernelIdeal.KerRun.run_value (F := Ideal) m ρ, ?_⟩
  refine (θ_run Cert.ReferenceIdeal.defs _ _).mono (fun _ h c => ⟨(h c).1.trans ?_, (h c).2⟩) (ref_run m' ρ')
  have hargs : Cert.Bridge.Args (Cert.KernelIdeal.GenP.W0 (F := Ideal) m ρ c) (launchContents m' c) :=
    ⟨((hagree c).1).symm, ((hagree c).2.1).symm, ((hagree c).2.2.1).symm, ((hagree c).2.2.2.1).symm, ((hagree c).2.2.2.2.1).symm, ((hagree c).2.2.2.2.2.1).symm, ((hagree c).2.2.2.2.2.2.1).symm, ((hagree c).2.2.2.2.2.2.2.1).symm, ((hagree c).2.2.2.2.2.2.2.2.1).symm, ((hagree c).2.2.2.2.2.2.2.2.2.1).symm, ((hagree c).2.2.2.2.2.2.2.2.2.2.1).symm, ((hagree c).2.2.2.2.2.2.2.2.2.2.2.1).symm, ((hagree c).2.2.2.2.2.2.2.2.2.2.2.2.1).symm, ((hagree c).2.2.2.2.2.2.2.2.2.2.2.2.2.1).symm, ((hagree c).2.2.2.2.2.2.2.2.2.2.2.2.2.2.1).symm, ((hagree c).2.2.2.2.2.2.2.2.2.2.2.2.2.2.2.1).symm, ((hagree c).2.2.2.2.2.2.2.2.2.2.2.2.2.2.2.2.1).symm, ((hagree c).2.2.2.2.2.2.2.2.2.2.2.2.2.2.2.2.2.1).symm, ((hagree c).2.2.2.2.2.2.2.2.2.2.2.2.2.2.2.2.2.2.1).symm, ((hagree c).2.2.2.2.2.2.2.2.2.2.2.2.2.2.2.2.2.2.2.1).symm, ((hagree c).2.2.2.2.2.2.2.2.2.2.2.2.2.2.2.2.2.2.2.2.1).symm, ((hagree c).2.2.2.2.2.2.2.2.2.2.2.2.2.2.2.2.2.2.2.2.2).symm⟩
  rw [Cert.KernelIdeal.KerLayers.W36_eq]
  exact ((Cert.Bridge.results_agree _ c _ hargs).trans (by
    show after Cert.Bridge.opsByLayer _ _ = after Cert.ReferenceIdeal.RefRun.ops _ _
    simp only [Cert.Bridge.opsByLayer, Cert.ReferenceIdeal.RefRun.ops, List.append_assoc])).symm

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
